-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S128x16 : Shape := ⟨2, ![128, 16]⟩
abbrev S128 : Shape := ⟨1, ![128]⟩
abbrev S128x128 : Shape := ⟨2, ![128, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S1x32 .f32) (main_arg20 : FVec F S1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S1x32 .f32 := Host.absf main_arg19
  let main_cst_34 : FVec F S_ .f32 := constant S_ .f32 0x7F800000#32
  let main_v90 : FVec F S1x32 .f32 := broadcastInDim S1x32 ![] bcast_S_S1x32 main_cst_34
  let main_v91 : IVec S1x32 1 := cmpf .olt main_v89 main_v90
  let main_c_35 : IVec S_ 1 := constantI S_ 1 1#1
  let main_v92 : IVec S_ 1 := (fun x v => Host.reduce IntOp.andi x v reducesTo_S1x32_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg15 : FVec F S64 .f32) (main_arg16 : FVec F S64 .f32) (main_arg17 : FVec F S32x64 .f32) (main_arg18 : FVec F S32 .f32) (main_arg19 : FVec F S1x32 .f32) (main_arg20 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S32x64 .f32 := Host.absf main_arg17
  let main_cst_30 : FVec F S_ .f32 := constant S_ .f32 0x7F800000#32
  let main_v80 : FVec F S32x64 .f32 := broadcastInDim S32x64 ![] bcast_S_S32x64 main_cst_30
  let main_v81 : IVec S32x64 1 := cmpf .olt main_v79 main_v80
  let main_c_31 : IVec S_ 1 := constantI S_ 1 1#1
  let main_v82 : IVec S_ 1 := (fun x v => Host.reduce IntOp.andi x v reducesTo_S32x64_S_d0_1 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S64x128 .f32) (main_arg13 : FVec F S64 .f32) (main_arg14 : FVec F S64x128 .f32) (main_arg15 : FVec F S64 .f32) (main_arg16 : FVec F S64 .f32) (main_arg17 : FVec F S32x64 .f32) (main_arg18 : FVec F S32 .f32) (main_arg19 : FVec F S1x32 .f32) (main_arg20 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg14
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S64x128 .f32) (main_arg13 : FVec F S64 .f32) (main_arg14 : FVec F S64x128 .f32) (main_arg15 : FVec F S64 .f32) (main_arg16 : FVec F S64 .f32) (main_arg17 : FVec F S32x64 .f32) (main_arg18 : FVec F S32 .f32) (main_arg19 : FVec F S1x32 .f32) (main_arg20 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S64x128 .f32) (main_arg13 : FVec F S64 .f32) (main_arg14 : FVec F S64x128 .f32) (main_arg15 : FVec F S64 .f32) (main_arg16 : FVec F S64 .f32) (main_arg17 : FVec F S32x64 .f32) (main_arg18 : FVec F S32 .f32) (main_arg19 : FVec F S1x32 .f32) (main_arg20 : FVec F S1 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S100000x16 .f32) (main_arg1 : IVec S2x1600000 32) (main_arg2 : FVec F S128x16 .f32) (main_arg3 : FVec F S128 .f32) (main_arg4 : FVec F S128x16 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S64x128 .f32) (main_arg13 : FVec F S64 .f32) (main_arg14 : FVec F S64x128 .f32) (main_arg15 : FVec F S64 .f32) (main_arg16 : FVec F S64 .f32) (main_arg17 : FVec F S32x64 .f32) (main_arg18 : FVec F S32 .f32) (main_arg19 : FVec F S1x32 .f32) (main_arg20 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x16 : Shape := ⟨2, ![100000, 16]⟩
abbrev S2x1600000 : Shape := ⟨2, ![2, 1600000]⟩
abbrev S128x16 : Shape := ⟨2, ![128, 16]⟩
abbrev S128 : Shape := ⟨1, ![128]⟩
abbrev S128x128 : Shape := ⟨2, ![128, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S16x128 : Shape := ⟨2, ![16, 128]⟩
abbrev S1x128 : Shape := ⟨2, ![1, 128]⟩
abbrev S1600000x16 : Shape := ⟨2, ![1600000, 16]⟩
abbrev S100000x1 : Shape := ⟨2, ![100000, 1]⟩
abbrev S100000x128 : Shape := ⟨2, ![100000, 128]⟩
abbrev S5000x16 : Shape := ⟨2, ![5000, 16]⟩
abbrev S5000x128 : Shape := ⟨2, ![5000, 128]⟩
abbrev S1600000x128 : Shape := ⟨2, ![1600000, 128]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩
abbrev S64x32 : Shape := ⟨2, ![64, 32]⟩
abbrev S32x1 : Shape := ⟨2, ![32, 1]⟩
abbrev S1x1 : Shape := ⟨2, ![1, 1]⟩
abbrev S5000x1 : Shape := ⟨2, ![5000, 1]⟩
abbrev S5000x32 : Shape := ⟨2, ![5000, 32]⟩

abbrev nBuf : Space → Nat
  | .hbm => 144
  | .vmem => 71
  | .smem => 0
  | _ => 0

abbrev hbmTy0_0 (i : Nat) : BufTy := match i % 128 with
  | 0 => ⟨S100000x16, .f32⟩
  | 1 => ⟨S2x1600000, .i32⟩
  | 2 => ⟨S128x16, .f32⟩
  | 3 => ⟨S128, .f32⟩
  | 4 => ⟨S128x16, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S64x128, .f32⟩
  | 13 => ⟨S64, .f32⟩
  | 14 => ⟨S64x128, .f32⟩
  | 15 => ⟨S64, .f32⟩
  | 16 => ⟨S64, .f32⟩
  | 17 => ⟨S32x64, .f32⟩
  | 18 => ⟨S32, .f32⟩
  | 19 => ⟨S1x32, .f32⟩
  | 20 => ⟨S1, .f32⟩
  | 21 => ⟨S1x1600000, .i32⟩
  | 22 => ⟨S1600000, .i32⟩
  | 23 => ⟨S1x1600000, .i32⟩
  | 24 => ⟨S1600000, .i32⟩
  | 25 => ⟨S_, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S16x128, .f32⟩
  | 32 => ⟨S1x128, .f32⟩
  | 33 => ⟨S16x128, .f32⟩
  | 34 => ⟨S1x128, .f32⟩
  | 35 => ⟨S1x128, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x16, .f32⟩
  | 45 => ⟨S_, .f32⟩
  | 46 => ⟨S100000x16, .f32⟩
  | 47 => ⟨S1600000x1, .i32⟩
  | 48 => ⟨S100000x16, .f32⟩
  | 49 => ⟨S_, .f32⟩
  | 50 => ⟨S100000, .f32⟩
  | 51 => ⟨S100000, .f32⟩
  | 52 => ⟨S100000x1, .f32⟩
  | 53 => ⟨S100000x16, .f32⟩
  | 54 => ⟨S100000x16, .f32⟩
  | 55 => ⟨S100000x128, .f32⟩
  | 56 => ⟨S1x128, .f32⟩
  | 57 => ⟨S1x128, .f32⟩
  | 58 => ⟨S_, .f32⟩
  | 59 => ⟨S1x128, .f32⟩
  | 60 => ⟨S1x128, .f32⟩
  | 61 => ⟨S_, .f32⟩
  | 62 => ⟨S1x128, .f32⟩
  | 63 => ⟨S1x128, .f32⟩
  | 64 => ⟨S1x128, .f32⟩
  | 65 => ⟨S1x128, .f32⟩
  | 66 => ⟨S100000x128, .f32⟩
  | 67 => ⟨S128x128, .f32⟩
  | 68 => ⟨S1x128, .f32⟩
  | 69 => ⟨S128x128, .f32⟩
  | 70 => ⟨S1x128, .f32⟩
  | 71 => ⟨S1x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S_, .f32⟩
  | 86 => ⟨S100000, .f32⟩
  | 87 => ⟨S100000, .f32⟩
  | 88 => ⟨S100000x1, .f32⟩
  | 89 => ⟨S100000x128, .f32⟩
  | 90 => ⟨S100000x128, .f32⟩
  | 91 => ⟨S100000x128, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S1x128, .f32⟩
  | 101 => ⟨S1x128, .f32⟩
  | 102 => ⟨S100000x128, .f32⟩
  | 103 => ⟨S128x64, .f32⟩
  | 104 => ⟨S1x64, .f32⟩
  | 105 => ⟨S128x64, .f32⟩
  | 106 => ⟨S1x64, .f32⟩
  | 107 => ⟨S1x64, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S_, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S100000x64, .f32⟩
  | _ => ⟨S100000x16, .f32⟩

abbrev hbmTy0_1 (i : Nat) : BufTy := match i % 128 with
  | 0 => ⟨S1x64, .f32⟩
  | 1 => ⟨S1x64, .f32⟩
  | 2 => ⟨S_, .f32⟩
  | 3 => ⟨S1x64, .f32⟩
  | 4 => ⟨S1x64, .f32⟩
  | 5 => ⟨S_, .f32⟩
  | 6 => ⟨S1x64, .f32⟩
  | 7 => ⟨S1x64, .f32⟩
  | 8 => ⟨S1x64, .f32⟩
  | 9 => ⟨S1x64, .f32⟩
  | 10 => ⟨S100000x64, .f32⟩
  | 11 => ⟨S64x32, .f32⟩
  | 12 => ⟨S1x32, .f32⟩
  | 13 => ⟨S32x1, .f32⟩
  | 14 => ⟨S1x1, .f32⟩
  | 15 => ⟨S100000x1, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S5000x16, .f32⟩
  | .local _ .vmem, ⟨3, _⟩ => ⟨S5000x16, .f32⟩
  | .local _ .vmem, ⟨4, _⟩ => ⟨S16x128, .f32⟩
  | .local _ .vmem, ⟨5, _⟩ => ⟨S1x128, .f32⟩
  | .local _ .vmem, ⟨6, _⟩ => ⟨S16x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x64, .f32⟩
  | .local _ .vmem, ⟨47, _⟩ => ⟨S1x64, .f32⟩
  | .local _ .vmem, ⟨48, _⟩ => ⟨S128x64, .f32⟩
  | .local _ .vmem, ⟨49, _⟩ => ⟨S5000x64, .f32⟩
  | .local _ .vmem, ⟨50, _⟩ => ⟨S5000x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S5000x64, .f32⟩
  | .local _ .vmem, ⟨56, _⟩ => ⟨S5000x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S64x32, .f32⟩
  | .local _ .vmem, ⟨66, _⟩ => ⟨S1x32, .f32⟩
  | .local _ .vmem, ⟨67, _⟩ => ⟨S32x1, .f32⟩
  | .local _ .vmem, ⟨68, _⟩ => ⟨S1x1, .f32⟩
  | .local _ .vmem, ⟨69, _⟩ => ⟨S5000x1, .f32⟩
  | .local _ .vmem, ⟨70, _⟩ => ⟨S5000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28_0 : Ref sig .tc := ⟨.hbm, 55, rfl⟩
abbrev main_v28_1 : Ref sig .tc := ⟨.hbm, 56, rfl⟩
abbrev main_v28_2 : Ref sig .tc := ⟨.hbm, 57, rfl⟩
abbrev main_cst_4 : Ref sig .tc := ⟨.hbm, 58, rfl⟩
abbrev main_v29 : Ref sig .tc := ⟨.hbm, 59, rfl⟩
abbrev main_v30 : Ref sig .tc := ⟨.hbm, 60, rfl⟩
abbrev main_cst_5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_6 : Ref sig .tc := ⟨.hbm, 72, rfl⟩
abbrev main_v41 : Ref sig .tc := ⟨.hbm, 73, rfl⟩
abbrev main_v42 : Ref sig .tc := ⟨.hbm, 74, rfl⟩
abbrev main_c_7 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_8 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_9 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56_0 : Ref sig .tc := ⟨.hbm, 91, rfl⟩
abbrev main_v56_1 : Ref sig .tc := ⟨.hbm, 92, rfl⟩
abbrev main_v56_2 : Ref sig .tc := ⟨.hbm, 93, rfl⟩
abbrev main_cst_10 : Ref sig .tc := ⟨.hbm, 94, rfl⟩
abbrev main_v57 : Ref sig .tc := ⟨.hbm, 95, rfl⟩
abbrev main_v58 : Ref sig .tc := ⟨.hbm, 96, rfl⟩
abbrev main_cst_11 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_12 : Ref sig .tc := ⟨.hbm, 108, rfl⟩
abbrev main_v69 : Ref sig .tc := ⟨.hbm, 109, rfl⟩
abbrev main_v70 : Ref sig .tc := ⟨.hbm, 110, rfl⟩
abbrev main_c_13 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_14 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_15 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84_0 : Ref sig .tc := ⟨.hbm, 127, rfl⟩
abbrev main_v84_1 : Ref sig .tc := ⟨.hbm, 128, rfl⟩
abbrev main_v84_2 : Ref sig .tc := ⟨.hbm, 129, rfl⟩
abbrev main_cst_16 : Ref sig .tc := ⟨.hbm, 130, rfl⟩
abbrev main_v85 : Ref sig .tc := ⟨.hbm, 131, rfl⟩
abbrev main_v86 : Ref sig .tc := ⟨.hbm, 132, rfl⟩
abbrev main_cst_17 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc4_stg6_0 : Ref sig .tc := ⟨.vmem, 51, rfl⟩
abbrev cc4_stg7_0 : Ref sig .tc := ⟨.vmem, 52, rfl⟩
abbrev cc4_scratch0 : Ref sig .tc := ⟨.vmem, 53, rfl⟩
abbrev cc4_scratch1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg5_1 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem7_0 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem5_1 : DmaSem sig := 64

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v37 : BitVec 1 := Scalar.cmpi .eq arg0 c19_i32
  let v38 : BitVec 32 := Scalar.extui v37
  let c0_i32_23 : BitVec 32 := 0#32
  let v39 : BitVec 1 := Scalar.cmpi .ne v38 c0_i32_23
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v38 : BitVec 1 := Scalar.cmpi .eq arg0 c19_i32
  let v39 : BitVec 32 := Scalar.extui v38
  let c0_i32_23 : BitVec 32 := 0#32
  let v40 : BitVec 1 := Scalar.cmpi .ne v39 c0_i32_23
  v40

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v38 : BitVec 1 := Scalar.cmpi .eq arg0 c19_i32
  let v39 : BitVec 32 := Scalar.extui v38
  let c0_i32_23 : BitVec 32 := 0#32
  let v40 : BitVec 1 := Scalar.cmpi .ne v39 c0_i32_23
  v40

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x16_S16x128_1_0 : S128x16.Transposes [1, 0] S16x128
  shapeCasts_S128_S1x128 : S128.ShapeCasts S1x128
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  transposes_S128x128_S128x128_1_0 : S128x128.Transposes [1, 0] S128x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S64x128_S128x64_1_0 : S64x128.Transposes [1, 0] S128x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S1x64 : S_.BroadcastsInDim S1x64 (![] : Fin 0 → Fin S1x64.rank)
  shapeCasts_S5000x64_S5000x64 : S5000x64.ShapeCasts S5000x64
  transposes_S32x64_S64x32_1_0 : S32x64.Transposes [1, 0] S64x32
  shapeCasts_S32_S1x32 : S32.ShapeCasts S1x32
  transposes_S1x32_S32x1_1_0 : S1x32.Transposes [1, 0] S32x1
  shapeCasts_S1_S1x1 : S1.ShapeCasts S1x1
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1600000x1_S1600000_n_0_0_1_wf : ScatterDims.WF S100000 S1600000x1 S1600000 [] [0] [0] 1
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x128_S5000x128_1_0_0_1_n_n_wf : DotDims.WF S5000x16 S16x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S100000x16.size a
  hwx0_1 : ∀ i : grid0.Coords, EltTy.bits .f32 = 32 ∨ (Rect.block (s := S100000x16) S5000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .f32 = 32 ∨ (Rect.block (s := S16x128) S16x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S128x64.size a
  hwx4_4 : ∀ i : grid4.Coords, EltTy.bits .f32 = 32 ∨ (Rect.block (s := S128x64) S128x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x1.size a ≤ S32x1.size a
  hwx6_3 : ∀ i : grid6.Coords, EltTy.bits .f32 = 32 ∨ (Rect.block (s := S32x1) S32x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x1.size a ≤ S100000x1.size a
  hwx6_5 : ∀ i : grid6.Coords, EltTy.bits .f32 = 32 ∨ (Rect.block (s := S100000x1) S5000x1.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v27) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v28_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v56_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v56_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v56_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v83) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84_0) S5000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v84_1) S1x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v84_2) S1x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v84_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v91) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v91) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v94) S32x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v95) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v96) S5000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S128x16 : Shape := ⟨2, ![128, 16]⟩
abbrev S128 : Shape := ⟨1, ![128]⟩
abbrev S128x128 : Shape := ⟨2, ![128, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S100000 : Shape := ⟨1, ![100000]⟩
abbrev S100000x1 : Shape := ⟨2, ![100000, 1]⟩
abbrev S16x128 : Shape := ⟨2, ![16, 128]⟩
abbrev S100000x128 : Shape := ⟨2, ![100000, 128]⟩
abbrev S1x128 : Shape := ⟨2, ![1, 128]⟩
abbrev S1600000x128 : Shape := ⟨2, ![1600000, 128]⟩
abbrev S128x64 : Shape := ⟨2, ![128, 64]⟩
abbrev S100000x64 : Shape := ⟨2, ![100000, 64]⟩
abbrev S1x64 : Shape := ⟨2, ![1, 64]⟩
abbrev S64x32 : Shape := ⟨2, ![64, 32]⟩
abbrev S100000x32 : Shape := ⟨2, ![100000, 32]⟩
abbrev S32x1 : Shape := ⟨2, ![32, 1]⟩
abbrev S1x1 : Shape := ⟨2, ![1, 1]⟩

abbrev nBuf : Space → Nat
  | .hbm => 286
  | .vmem => 0
  | .smem => 0
  | _ => 0

abbrev hbmTy0_0 (i : Nat) : BufTy := match i % 128 with
  | 0 => ⟨S100000x16, .f32⟩
  | 1 => ⟨S2x1600000, .i32⟩
  | 2 => ⟨S128x16, .f32⟩
  | 3 => ⟨S128, .f32⟩
  | 4 => ⟨S128x16, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S64x128, .f32⟩
  | 13 => ⟨S64, .f32⟩
  | 14 => ⟨S64x128, .f32⟩
  | 15 => ⟨S64, .f32⟩
  | 16 => ⟨S64, .f32⟩
  | 17 => ⟨S32x64, .f32⟩
  | 18 => ⟨S32, .f32⟩
  | 19 => ⟨S1x32, .f32⟩
  | 20 => ⟨S1, .f32⟩
  | 21 => ⟨S1x1600000, .i32⟩
  | 22 => ⟨S1600000, .i32⟩
  | 23 => ⟨S1x1600000, .i32⟩
  | 24 => ⟨S1600000, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x16, .f32⟩
  | 34 => ⟨S_, .f32⟩
  | 35 => ⟨S100000x16, .f32⟩
  | 36 => ⟨S1600000x1, .i32⟩
  | 37 => ⟨S100000x16, .f32⟩
  | 38 => ⟨S_, .f32⟩
  | 39 => ⟨S1600000, .f32⟩
  | 40 => ⟨S_, .f32⟩
  | 41 => ⟨S100000, .f32⟩
  | 42 => ⟨S1600000x1, .i32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x16, .f32⟩
  | 49 => ⟨S100000x16, .f32⟩
  | 50 => ⟨S16x128, .f32⟩
  | 51 => ⟨S100000x128, .f32⟩
  | 52 => ⟨S1x128, .f32⟩
  | 53 => ⟨S100000x128, .f32⟩
  | 54 => ⟨S100000x128, .f32⟩
  | 55 => ⟨S16x128, .f32⟩
  | 56 => ⟨S100000x128, .f32⟩
  | 57 => ⟨S100000x128, .f32⟩
  | 58 => ⟨S_, .f32⟩
  | 59 => ⟨S128, .f32⟩
  | 60 => ⟨S_, .f32⟩
  | 61 => ⟨S128, .f32⟩
  | 62 => ⟨S128, .f32⟩
  | 63 => ⟨S_, .i32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S100000x128, .f32⟩
  | 71 => ⟨S100000x128, .f32⟩
  | 72 => ⟨S100000x128, .f32⟩
  | 73 => ⟨S_, .f32⟩
  | 74 => ⟨S_, .f32⟩
  | 75 => ⟨S_, .f32⟩
  | 76 => ⟨S_, .f32⟩
  | 77 => ⟨S128, .f32⟩
  | 78 => ⟨S128, .f32⟩
  | 79 => ⟨S128, .f32⟩
  | 80 => ⟨S_, .f32⟩
  | 81 => ⟨S_, .i1⟩
  | 82 => ⟨S_, .f32⟩
  | 83 => ⟨S_, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S_, .f32⟩
  | 90 => ⟨S128, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S_, .f32⟩
  | 119 => ⟨S1600000, .f32⟩
  | 120 => ⟨S_, .f32⟩
  | 121 => ⟨S100000, .f32⟩
  | 122 => ⟨S1600000x1, .i32⟩
  | 123 => ⟨S100000, .f32⟩
  | 124 => ⟨S_, .f32⟩
  | 125 => ⟨S100000, .f32⟩
  | 126 => ⟨S100000, .f32⟩
  | 127 => ⟨S100000x1, .f32⟩
  | _ => ⟨S100000x16, .f32⟩

abbrev hbmTy0_1 (i : Nat) : BufTy := match i % 128 with
  | 0 => ⟨S100000x128, .f32⟩
  | 1 => ⟨S100000x128, .f32⟩
  | 2 => ⟨S128x128, .f32⟩
  | 3 => ⟨S100000x128, .f32⟩
  | 4 => ⟨S1x128, .f32⟩
  | 5 => ⟨S100000x128, .f32⟩
  | 6 => ⟨S100000x128, .f32⟩
  | 7 => ⟨S128x128, .f32⟩
  | 8 => ⟨S100000x128, .f32⟩
  | 9 => ⟨S100000x128, .f32⟩
  | 10 => ⟨S_, .f32⟩
  | 11 => ⟨S128, .f32⟩
  | 12 => ⟨S_, .f32⟩
  | 13 => ⟨S128, .f32⟩
  | 14 => ⟨S128, .f32⟩
  | 15 => ⟨S_, .i32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S100000x128, .f32⟩
  | 23 => ⟨S100000x128, .f32⟩
  | 24 => ⟨S100000x128, .f32⟩
  | 25 => ⟨S_, .f32⟩
  | 26 => ⟨S_, .f32⟩
  | 27 => ⟨S_, .f32⟩
  | 28 => ⟨S_, .f32⟩
  | 29 => ⟨S128, .f32⟩
  | 30 => ⟨S128, .f32⟩
  | 31 => ⟨S128, .f32⟩
  | 32 => ⟨S_, .f32⟩
  | 33 => ⟨S_, .i1⟩
  | 34 => ⟨S_, .f32⟩
  | 35 => ⟨S_, .f32⟩
  | 36 => ⟨S128, .f32⟩
  | 37 => ⟨S128, .f32⟩
  | 38 => ⟨S1x128, .f32⟩
  | 39 => ⟨S100000x128, .f32⟩
  | 40 => ⟨S100000x128, .f32⟩
  | 41 => ⟨S_, .f32⟩
  | 42 => ⟨S128, .f32⟩
  | 43 => ⟨S128, .f32⟩
  | 44 => ⟨S128, .f32⟩
  | 45 => ⟨S1x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S128x64, .f32⟩
  | 83 => ⟨S100000x64, .f32⟩
  | 84 => ⟨S1x64, .f32⟩
  | 85 => ⟨S100000x64, .f32⟩
  | 86 => ⟨S100000x64, .f32⟩
  | 87 => ⟨S128x64, .f32⟩
  | 88 => ⟨S100000x64, .f32⟩
  | 89 => ⟨S100000x64, .f32⟩
  | 90 => ⟨S_, .f32⟩
  | 91 => ⟨S64, .f32⟩
  | 92 => ⟨S_, .f32⟩
  | 93 => ⟨S64, .f32⟩
  | 94 => ⟨S64, .f32⟩
  | 95 => ⟨S_, .i32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S100000x64, .f32⟩
  | 103 => ⟨S100000x64, .f32⟩
  | 104 => ⟨S100000x64, .f32⟩
  | 105 => ⟨S_, .f32⟩
  | 106 => ⟨S_, .f32⟩
  | 107 => ⟨S_, .f32⟩
  | 108 => ⟨S_, .f32⟩
  | 109 => ⟨S64, .f32⟩
  | 110 => ⟨S64, .f32⟩
  | 111 => ⟨S64, .f32⟩
  | 112 => ⟨S_, .f32⟩
  | 113 => ⟨S_, .i1⟩
  | 114 => ⟨S_, .f32⟩
  | 115 => ⟨S_, .f32⟩
  | 116 => ⟨S64, .f32⟩
  | 117 => ⟨S64, .f32⟩
  | 118 => ⟨S1x64, .f32⟩
  | 119 => ⟨S100000x64, .f32⟩
  | 120 => ⟨S100000x64, .f32⟩
  | 121 => ⟨S_, .f32⟩
  | 122 => ⟨S64, .f32⟩
  | 123 => ⟨S64, .f32⟩
  | 124 => ⟨S64, .f32⟩
  | 125 => ⟨S1x64, .f32⟩
  | 126 => ⟨S100000x64, .f32⟩
  | 127 => ⟨S100000x64, .f32⟩
  | _ => ⟨S100000x16, .f32⟩

abbrev hbmTy0_2 (i : Nat) : BufTy := match i % 128 with
  | 0 => ⟨S1x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S64x32, .f32⟩
  | 10 => ⟨S100000x32, .f32⟩
  | 11 => ⟨S1x32, .f32⟩
  | 12 => ⟨S100000x32, .f32⟩
  | 13 => ⟨S100000x32, .f32⟩
  | 14 => ⟨S_, .f32⟩
  | 15 => ⟨S100000x32, .f32⟩
  | 16 => ⟨S100000x32, .f32⟩
  | 17 => ⟨S32x1, .f32⟩
  | 18 => ⟨S100000x1, .f32⟩
  | 19 => ⟨S1x1, .f32⟩
  | 20 => ⟨S100000x1, .f32⟩
  | 21 => ⟨S100000x1, .f32⟩
  | 22 => ⟨S100000x1, .f32⟩
  | 23 => ⟨S100000x1, .f32⟩
  | 24 => ⟨S_, .f32⟩
  | 25 => ⟨S100000x1, .f32⟩
  | 26 => ⟨S100000x1, .f32⟩
  | 27 => ⟨S_, .f32⟩
  | 28 => ⟨S100000x1, .f32⟩
  | 29 => ⟨S100000x1, .f32⟩
  | _ => ⟨S100000x16, .f32⟩

abbrev hbmTy (i : Nat) : BufTy := match i / 128 with
  | 0 => hbmTy0_0 i
  | 1 => hbmTy0_1 i
  | 2 => hbmTy0_2 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_c_6 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_cst_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_cst_1 : Ref sig .tc := ⟨.hbm, 74, rfl⟩
abbrev main_call0_v8 : Ref sig .tc := ⟨.hbm, 75, rfl⟩
abbrev main_call0_cst_2 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_cst_3 : Ref sig .tc := ⟨.hbm, 80, rfl⟩
abbrev main_call0_v12 : Ref sig .tc := ⟨.hbm, 81, rfl⟩
abbrev main_call0_cst_4 : Ref sig .tc := ⟨.hbm, 82, rfl⟩
abbrev main_call0_call0_v0 : Ref sig .tc := ⟨.hbm, 83, rfl⟩
abbrev main_call0_call0_v1 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_7 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_call1_cst : Ref sig .tc := ⟨.hbm, 102, rfl⟩
abbrev main_call1_v0 : Ref sig .tc := ⟨.hbm, 103, rfl⟩
abbrev main_v50 : Ref sig .tc := ⟨.hbm, 104, rfl⟩
abbrev main_c_8 : Ref sig .tc := ⟨.hbm, 105, rfl⟩
abbrev main_v51 : Ref sig .tc := ⟨.hbm, 106, rfl⟩
abbrev main_v52 : Ref sig .tc := ⟨.hbm, 107, rfl⟩
abbrev main_c_9 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_cst_10 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_cst_11 : Ref sig .tc := ⟨.hbm, 118, rfl⟩
abbrev main_v61 : Ref sig .tc := ⟨.hbm, 119, rfl⟩
abbrev main_cst_12 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_cst_13 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_cst_14 : Ref sig .tc := ⟨.hbm, 138, rfl⟩
abbrev main_v78 : Ref sig .tc := ⟨.hbm, 139, rfl⟩
abbrev main_cst_15 : Ref sig .tc := ⟨.hbm, 140, rfl⟩
abbrev main_v79 : Ref sig .tc := ⟨.hbm, 141, rfl⟩
abbrev main_v80 : Ref sig .tc := ⟨.hbm, 142, rfl⟩
abbrev main_c_16 : Ref sig .tc := ⟨.hbm, 143, rfl⟩
abbrev main_call2_cst : Ref sig .tc := ⟨.hbm, 144, rfl⟩
abbrev main_call2_v0 : Ref sig .tc := ⟨.hbm, 145, rfl⟩
abbrev main_call2_v1 : Ref sig .tc := ⟨.hbm, 146, rfl⟩
abbrev main_call2_cst_0 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_call2_v5 : Ref sig .tc := ⟨.hbm, 151, rfl⟩
abbrev main_call2_v6 : Ref sig .tc := ⟨.hbm, 152, rfl⟩
abbrev main_call2_v7 : Ref sig .tc := ⟨.hbm, 153, rfl⟩
abbrev main_call2_cst_1 : Ref sig .tc := ⟨.hbm, 154, rfl⟩
abbrev main_call2_v8 : Ref sig .tc := ⟨.hbm, 155, rfl⟩
abbrev main_call2_cst_2 : Ref sig .tc := ⟨.hbm, 156, rfl⟩
abbrev main_call2_v9 : Ref sig .tc := ⟨.hbm, 157, rfl⟩
abbrev main_call2_v10 : Ref sig .tc := ⟨.hbm, 158, rfl⟩
abbrev main_call2_v11 : Ref sig .tc := ⟨.hbm, 159, rfl⟩
abbrev main_call2_cst_3 : Ref sig .tc := ⟨.hbm, 160, rfl⟩
abbrev main_call2_v12 : Ref sig .tc := ⟨.hbm, 161, rfl⟩
abbrev main_call2_cst_4 : Ref sig .tc := ⟨.hbm, 162, rfl⟩
abbrev main_call2_call0_v0 : Ref sig .tc := ⟨.hbm, 163, rfl⟩
abbrev main_call2_call0_v1 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_cst_17 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_call3_cst : Ref sig .tc := ⟨.hbm, 182, rfl⟩
abbrev main_call3_v0 : Ref sig .tc := ⟨.hbm, 183, rfl⟩
abbrev main_v97 : Ref sig .tc := ⟨.hbm, 184, rfl⟩
abbrev main_c_18 : Ref sig .tc := ⟨.hbm, 185, rfl⟩
abbrev main_v98 : Ref sig .tc := ⟨.hbm, 186, rfl⟩
abbrev main_v99 : Ref sig .tc := ⟨.hbm, 187, rfl⟩
abbrev main_c_19 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_cst_20 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_cst_21 : Ref sig .tc := ⟨.hbm, 198, rfl⟩
abbrev main_v108 : Ref sig .tc := ⟨.hbm, 199, rfl⟩
abbrev main_cst_22 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_cst_23 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_cst_24 : Ref sig .tc := ⟨.hbm, 218, rfl⟩
abbrev main_v125 : Ref sig .tc := ⟨.hbm, 219, rfl⟩
abbrev main_cst_25 : Ref sig .tc := ⟨.hbm, 220, rfl⟩
abbrev main_v126 : Ref sig .tc := ⟨.hbm, 221, rfl⟩
abbrev main_v127 : Ref sig .tc := ⟨.hbm, 222, rfl⟩
abbrev main_c_26 : Ref sig .tc := ⟨.hbm, 223, rfl⟩
abbrev main_call4_cst : Ref sig .tc := ⟨.hbm, 224, rfl⟩
abbrev main_call4_v0 : Ref sig .tc := ⟨.hbm, 225, rfl⟩
abbrev main_call4_v1 : Ref sig .tc := ⟨.hbm, 226, rfl⟩
abbrev main_call4_cst_0 : Ref sig .tc := ⟨.hbm, 227, rfl⟩
abbrev main_call4_v2 : Ref sig .tc := ⟨.hbm, 228, rfl⟩
abbrev main_call4_v3 : Ref sig .tc := ⟨.hbm, 229, rfl⟩
abbrev main_call4_v4 : Ref sig .tc := ⟨.hbm, 230, rfl⟩
abbrev main_call4_v5 : Ref sig .tc := ⟨.hbm, 231, rfl⟩
abbrev main_call4_v6 : Ref sig .tc := ⟨.hbm, 232, rfl⟩
abbrev main_call4_v7 : Ref sig .tc := ⟨.hbm, 233, rfl⟩
abbrev main_call4_cst_1 : Ref sig .tc := ⟨.hbm, 234, rfl⟩
abbrev main_call4_v8 : Ref sig .tc := ⟨.hbm, 235, rfl⟩
abbrev main_call4_cst_2 : Ref sig .tc := ⟨.hbm, 236, rfl⟩
abbrev main_call4_v9 : Ref sig .tc := ⟨.hbm, 237, rfl⟩
abbrev main_call4_v10 : Ref sig .tc := ⟨.hbm, 238, rfl⟩
abbrev main_call4_v11 : Ref sig .tc := ⟨.hbm, 239, rfl⟩
abbrev main_call4_cst_3 : Ref sig .tc := ⟨.hbm, 240, rfl⟩
abbrev main_call4_v12 : Ref sig .tc := ⟨.hbm, 241, rfl⟩
abbrev main_call4_cst_4 : Ref sig .tc := ⟨.hbm, 242, rfl⟩
abbrev main_call4_call0_v0 : Ref sig .tc := ⟨.hbm, 243, rfl⟩
abbrev main_call4_call0_v1 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_cst_27 : Ref sig .tc := ⟨.hbm, 249, rfl⟩
abbrev main_v132 : Ref sig .tc := ⟨.hbm, 250, rfl⟩
abbrev main_v133 : Ref sig .tc := ⟨.hbm, 251, rfl⟩
abbrev main_v134 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩
abbrev main_v138 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_v143 : Ref sig .tc := ⟨.hbm, 261, rfl⟩
abbrev main_call5_cst : Ref sig .tc := ⟨.hbm, 262, rfl⟩
abbrev main_call5_v0 : Ref sig .tc := ⟨.hbm, 263, rfl⟩
abbrev main_v144 : Ref sig .tc := ⟨.hbm, 264, rfl⟩
abbrev main_v145 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_call6_cst : Ref sig .tc := ⟨.hbm, 270, rfl⟩
abbrev main_call6_v0 : Ref sig .tc := ⟨.hbm, 271, rfl⟩
abbrev main_v150 : Ref sig .tc := ⟨.hbm, 272, rfl⟩
abbrev main_v151 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_cst_28 : Ref sig .tc := ⟨.hbm, 280, rfl⟩
abbrev main_v158 : Ref sig .tc := ⟨.hbm, 281, rfl⟩
abbrev main_v159 : Ref sig .tc := ⟨.hbm, 282, rfl⟩
abbrev main_cst_29 : Ref sig .tc := ⟨.hbm, 283, rfl⟩
abbrev main_v160 : Ref sig .tc := ⟨.hbm, 284, rfl⟩
abbrev main_v161 : Ref sig .tc := ⟨.hbm, 285, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  transposes_S128x16_S16x128_1_0 : S128x16.Transposes [1, 0] S16x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S1x32_S32x1_1_0 : S1x32.Transposes [1, 0] S32x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  scatter_S100000_S1600000x1_S1600000_n_0_0_1_wf : ScatterDims.WF S100000 S1600000x1 S1600000 [] [0] [0] 1
  dot_S100000x16_S16x128_S100000x128_1_0_0_1_n_n_wf : DotDims.WF S100000x16 S16x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.K.Stats0Run.lean ====
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first SAGE layer's linear combine with its column statistics (pipeline 0)

Each grid point handles 5000 rows: it writes the rows' combine `agg·Wlᵀ + bl + x·Wrᵀ` to its block of the output
and adds the block's column sums and column sums of squares to two accumulator rows, which the first point starts from
zero and the last point copies to the two one-row outputs. Three kinds of point: the first, the last, the ones between. -/

/-- The point is the first one (the accumulators are reset there). -/
abbrev cond0_0 (i : grid0.Coords) : Prop := (Scalar.cmpi .ne (Scalar.extui (Scalar.cmpi .eq (BitVec.ofNat 32 (i 0).val) 0#32)) 0#32) = 1#1
/-- The point is the last one (the accumulators are copied out there). -/
abbrev cond0_1 (i : grid0.Coords) : Prop := k0_cond2 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 19 :=
  (by decide +kernel : ∀ t : Fin grid0.N, cond0_1 (grid0.coords t) ↔ t.val = 19)

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun0_A (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond0_0 i) (hc1 : ¬cond0_1 i) (x0 x1 : Vec F S5000x16 .f32) (x2 : Vec F S16x128 .f32) (x3 : Vec F S1x128 .f32) (x4 : Vec F S16x128 .f32) :
    Σ' (L5 : List (View.Piece (Elt F) S5000x128 .f32)) (L9 L10 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K := by
  refine ⟨?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d9, %f9, -, H9⟩, ⟨%d10, %f10, -, H10⟩, Hk⟩
    obtain rfl := harg1.eq_unread hf0
    obtain rfl := harg2.eq_unread hf1
    obtain rfl := harg3.eq_unread hf2
    obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H9]; · iexists _; iexact H9
    iexists _; iexact H10

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun0_B (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : ¬cond0_1 i) (x0 x1 : Vec F S5000x16 .f32) (x2 : Vec F S16x128 .f32) (x3 : Vec F S1x128 .f32) (x4 : Vec F S16x128 .f32) (s0 s1 : Vec F S1x128 .f32) :
    Σ' (L5 : List (View.Piece (Elt F) S5000x128 .f32)) (L9 L10 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ owns (c : Thread nD τ) arg9 fullShare s0 ∗ owns (c : Thread nD τ) arg10 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K := by
  refine ⟨?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f9, %hf9, H9⟩, ⟨%f10, %hf10, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg9.eq_unread hf9
    obtain rfl := harg10.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H9]; · iexists _; iexact H9
    iexists _; iexact H10

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun0_C (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) :
    Σ' (L5 : List (View.Piece (Elt F) S5000x128 .f32)) (L6 L7 L9 L10 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg7 fullShare d) ∗ (∃ d, owns (c : Thread nD τ) arg8 fullShare d)
            ∗ owns (c : Thread nD τ) arg9 fullShare s0 ∗ owns (c : Thread nD τ) arg10 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K := by
  refine ⟨?_, ?_, ?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg9.eq_unread hf9
    obtain rfl := harg10.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.K.Stats0Traj.lean ====
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.K.Stats0Run
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 0 point by point: what the accumulator rows and the outputs hold after each grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- One view of each written shape through which a list of stores is read back (any whole buffer of the shape does). -/
abbrev VB0 : View sig .tc .vmem S5000x128 .f32 := (Memref.whole cc0_stg5_0 : Memref sig .tc .vmem S5000x128 .f32).view
abbrev VR0 : View sig .tc .vmem S1x128 .f32 := (Memref.whole cc0_scratch0 : Memref sig .tc .vmem S1x128 .f32).view
/-- What a list of stores (last first) leaves in a row-block buffer / in a one-row buffer. -/
def rdB0 (L : List (View.Piece (Elt F) S5000x128 .f32)) : Vec F S5000x128 .f32 := VB0.read (Elt F) (VB0.writes (Elt F) VB0.junk L)
def rdR0 (L : List (View.Piece (Elt F) S1x128 .f32)) : Vec F S1x128 .f32 := VR0.read (Elt F) (VR0.writes (Elt F) VR0.junk L)
/-- A row nothing has determined. -/
def row0_any : Vec F S1x128 .f32 := VR0.read (Elt F) VR0.junk

/-- What one grid point leaves: its block of the combine, the two one-row outputs (meaningful at the last point only)
    and the two accumulator rows. -/
structure Pt0 (F : FTy → Type) where
  o5 : Vec F S5000x128 .f32
  o6 : Vec F S1x128 .f32
  o7 : Vec F S1x128 .f32
  a0 : Vec F S1x128 .f32
  a1 : Vec F S1x128 .f32

/-- ONE POINT from the accumulator rows before it: the first point resets them, the last also copies them out. -/
def step0 (c : Dev nD) (t : Fin cfg0.N) (prev : Vec F S1x128 .f32 × Vec F S1x128 .f32) : Pt0 F :=
  if q0 : t.val = 0 then
    ⟨rdB0 (kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).1, prev.1, prev.2, rdR0 (kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).2.1, rdR0 (kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).2.2.1⟩
  else if q1 : t.val = 19 then
    ⟨rdB0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.2.1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.2.2.1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.2.2.2.1⟩
  else
    ⟨rdB0 (kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2).1, prev.1, prev.2, rdR0 (kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2).2.1, rdR0 (kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2).2.2.1⟩

/-- THE TRAJECTORY: what the points up to position `n` leave. -/
def traj0 (c : Dev nD) : (n : ℕ) → n < cfg0.N → Pt0 F
  | 0, h => step0 V c ⟨0, h⟩ (row0_any, row0_any)
  | n + 1, h => step0 V c ⟨n + 1, h⟩ ((traj0 c n (Nat.lt_of_succ_lt h)).a0, (traj0 c n (Nat.lt_of_succ_lt h)).a1)

/-- The accumulator rows before point `t`. -/
def prev0 (c : Dev nD) (t : Fin cfg0.N) : Vec F S1x128 .f32 × Vec F S1x128 .f32 :=
  if h : t.val = 0 then (row0_any, row0_any) else ((traj0 V c (t.val - 1) (by omega)).a0, (traj0 V c (t.val - 1) (by omega)).a1)

theorem traj0_eq (c : Dev nD) (t : Fin cfg0.N) : traj0 V c t.val t.isLt = step0 V c t (prev0 V c t) := by
  obtain ⟨n, hn⟩ := t
  cases n with
  | zero => rfl
  | succ n => unfold prev0; simp only [Nat.add_one_ne_zero, dif_neg, not_false_eq_true]; rfl

theorem step0_A (c : Dev nD) (t : Fin cfg0.N) (prev : Vec F S1x128 .f32 × Vec F S1x128 .f32) (q0 : t.val = 0) :
    step0 V c t prev = ⟨rdB0 (kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).1, prev.1, prev.2, rdR0 (kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).2.1, rdR0 (kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).2.2.1⟩ := by
  unfold step0; simp only [dif_pos q0]
theorem step0_B (c : Dev nD) (t : Fin cfg0.N) (prev : Vec F S1x128 .f32 × Vec F S1x128 .f32) (q0 : ¬t.val = 0) (q1 : ¬t.val = 19) :
    step0 V c t prev = ⟨rdB0 (kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2).1, prev.1, prev.2, rdR0 (kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2).2.1, rdR0 (kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2).2.2.1⟩ := by
  unfold step0; simp only [dif_neg q0, dif_neg q1]
theorem step0_C (c : Dev nD) (t : Fin cfg0.N) (prev : Vec F S1x128 .f32 × Vec F S1x128 .f32) (q0 : ¬t.val = 0) (q1 : t.val = 19) :
    step0 V c t prev = ⟨rdB0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.2.1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.2.2.1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.2.2.2.1⟩ := by
  unfold step0; simp only [dif_neg q0, dif_pos q1]

/-- The accumulator rows before position `t` of the invariant's index (one more than the points). -/
def prev0T (c : Dev nD) (t : Fin (cfg0.N + 1)) : Vec F S1x128 .f32 × Vec F S1x128 .f32 :=
  if h : t.val = 0 then (row0_any, row0_any) else ((traj0 V c (t.val - 1) (by omega)).a0, (traj0 V c (t.val - 1) (by omega)).a1)

theorem prev0T_castSucc (c : Dev nD) (t : Fin cfg0.N) : prev0T V c t.castSucc = prev0 V c t := rfl
theorem prev0T_succ (c : Dev nD) (t : Fin cfg0.N) : prev0T V c t.succ = ((traj0 V c t.val t.isLt).a0, (traj0 V c t.val t.isLt).a1) := by
  unfold prev0T; rw [dif_neg (by simp)]; rfl

end Cert.Kernel.Hand

end
-- ==== Proof.K.Stats0Cover.lean ====
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.K.Stats0Run
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Each list of stores a case of pipeline 0's body leaves covers its buffer -/

theorem cover0_A_5 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond0_0 i) (hc1 : ¬cond0_1 i) (x0 x1 : Vec F S5000x16 .f32) (x2 : Vec F S16x128 .f32) (x3 : Vec F S1x128 .f32) (x4 : Vec F S16x128 .f32) (y : S5000x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL _ S5000x128.size (by sl_kernel_rfl) y
theorem cover0_A_9 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond0_0 i) (hc1 : ¬cond0_1 i) (x0 x1 : Vec F S5000x16 .f32) (x2 : Vec F S16x128 .f32) (x3 : Vec F S1x128 .f32) (x4 : Vec F S16x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL _ S1x128.size (by sl_kernel_rfl) y
theorem cover0_A_10 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond0_0 i) (hc1 : ¬cond0_1 i) (x0 x1 : Vec F S5000x16 .f32) (x2 : Vec F S16x128 .f32) (x3 : Vec F S1x128 .f32) (x4 : Vec F S16x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL _ S1x128.size (by sl_kernel_rfl) y
theorem cover0_B_5 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : ¬cond0_1 i) (x0 x1 : Vec F S5000x16 .f32) (x2 : Vec F S16x128 .f32) (x3 : Vec F S1x128 .f32) (x4 : Vec F S16x128 .f32) (s0 s1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 s0 s1).1, y ∈ pc.1.set :=
  View.cover_of_tiledL _ S5000x128.size (by sl_kernel_rfl) y
theorem cover0_B_9 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : ¬cond0_1 i) (x0 x1 : Vec F S5000x16 .f32) (x2 : Vec F S16x128 .f32) (x3 : Vec F S1x128 .f32) (x4 : Vec F S16x128 .f32) (s0 s1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 s0 s1).2.1, y ∈ pc.1.set :=
  View.cover_of_tiledL _ S1x128.size (by sl_kernel_rfl) y
theorem cover0_B_10 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : ¬cond0_1 i) (x0 x1 : Vec F S5000x16 .f32) (x2 : Vec F S16x128 .f32) (x3 : Vec F S1x128 .f32) (x4 : Vec F S16x128 .f32) (s0 s1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 s0 s1).2.2.1, y ∈ pc.1.set :=
  View.cover_of_tiledL _ S1x128.size (by sl_kernel_rfl) y
theorem cover0_C_5 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 s0 s1).1, y ∈ pc.1.set :=
  View.cover_of_tiledL _ S5000x128.size (by sl_kernel_rfl) y
theorem cover0_C_6 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 s0 s1).2.1, y ∈ pc.1.set :=
  View.cover_of_tiledL _ S1x128.size (by sl_kernel_rfl) y
theorem cover0_C_7 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 s0 s1).2.2.1, y ∈ pc.1.set :=
  View.cover_of_tiledL _ S1x128.size (by sl_kernel_rfl) y
theorem cover0_C_9 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 s0 s1).2.2.2.1, y ∈ pc.1.set :=
  View.cover_of_tiledL _ S1x128.size (by sl_kernel_rfl) y
theorem cover0_C_10 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 s0 s1).2.2.2.2.1, y ∈ pc.1.set :=
  View.cover_of_tiledL _ S1x128.size (by sl_kernel_rfl) y

end Cert.Kernel.Hand

end
-- ==== Proof.K.Stats0.lean ====
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.K.Stats0Traj
import proofs.«121727_j57028575756303_1_alg».proof.Proof.K.Stats0Cover
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 0: the proof data and the body obligation -/

abbrev M9_0 : Memref sig .tc .vmem S1x128 .f32 := Memref.whole cc0_scratch0
abbrev M10_0 : Memref sig .tc .vmem S1x128 .f32 := Memref.whole cc0_scratch1

/-- The scoped buffers this pipeline neither stages nor uses as accumulators, each at some contents. -/
abbrev Rest0 (c : Dev nD) : sProp 𝕄 :=
  Pipeline.scopedRestBut (Ix := Unit) (Name := ℕ) (U := UR sig nD τ) (Lvl := ℕ) (Val := Elt F) spec0 c [cc0_scratch0, cc0_scratch1]

/-- THE INVARIANT before point `t`: the two accumulator rows at what the points before left (anything before the
    first point, which resets them), beside the untouched scoped buffers. -/
def Phi0 (c : Dev nD) (t : Fin (cfg0.N + 1)) : sProp 𝕄 :=
  iprop((∃ a, ⌜t.val ≠ 0 → a = (prev0T V c t).1⌝ ∗ owns (c : Thread nD τ) M9_0 fullShare a)
      ∗ (∃ a, ⌜t.val ≠ 0 → a = (prev0T V c t).2⌝ ∗ owns (c : Thread nD τ) M10_0 fullShare a)
      ∗ Rest0 c)

/-- The proof data of pipeline 0 on core `c`: the arrays as the region finds them; after point `t` each input's
    buffer at its block, the outputs' at what the trajectory says. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (traj0 V c t.val t.isLt).o5
    | ⟨6, _⟩ => (traj0 V c t.val t.isLt).o6
    | ⟨7, _⟩ => (traj0 V c t.val t.isLt).o7
  Φ t := Phi0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (traj0 V c t.val t.isLt).o5 := by dsimp only [dat0]
theorem after0_6 (c : Dev nD) (t : Fin cfg0.N) : (dat0 V c).after 6 t = (traj0 V c t.val t.isLt).o6 := by dsimp only [dat0]
theorem after0_7 (c : Dev nD) (t : Fin cfg0.N) : (dat0 V c).after 7 t = (traj0 V c t.val t.isLt).o7 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The one-row outputs are idle wherever the point is not the last, and are written back at the last only. -/
theorem idle0_6_of (t : Fin cfg0.N) (h : ¬t.val = 19) : cfg0.idle 6 (cfg0.grid.coords t) = true := by
  have hc : ¬k0_cond2 (grid0.coords t) = 1#1 := fun hh => h ((hcond0_1 t).mp hh)
  show (!(k0_cond2 (grid0.coords t) == 1#1)) = true
  simp [hc]
theorem idle0_7_of (t : Fin cfg0.N) (h : ¬t.val = 19) : cfg0.idle 7 (cfg0.grid.coords t) = true := by
  have hc : ¬k0_cond2 (grid0.coords t) = 1#1 := fun hh => h ((hcond0_1 t).mp hh)
  show (!(k0_cond2 (grid0.coords t) == 1#1)) = true
  simp [hc]
theorem busy0_6_of (t : Fin cfg0.N) (h : t.val = 19) : cfg0.idle 6 (cfg0.grid.coords t) = false := by
  have hc : k0_cond2 (grid0.coords t) = 1#1 := (hcond0_1 t).mpr h
  show (!(k0_cond2 (grid0.coords t) == 1#1)) = false
  simp [hc]
theorem busy0_7_of (t : Fin cfg0.N) (h : t.val = 19) : cfg0.idle 7 (cfg0.grid.coords t) = false := by
  have hc : k0_cond2 (grid0.coords t) = 1#1 := (hcond0_1 t).mpr h
  show (!(k0_cond2 (grid0.coords t) == 1#1)) = false
  simp [hc]
theorem noflush0_6_of (t : Fin cfg0.N) (h : ¬t.val = 19) : (cfg0.win 6).flush t = false :=
  Bool.eq_false_iff.mpr fun hh => by have := (flush0_6 t).mp hh; have := t.isLt; have hN : cfg0.N = 20 := N_0; omega
theorem noflush0_7_of (t : Fin cfg0.N) (h : ¬t.val = 19) : (cfg0.win 7).flush t = false :=
  Bool.eq_false_iff.mpr fun hh => by have := (flush0_7 t).mp hh; have := t.isLt; have hN : cfg0.N = 20 := N_0; omega

set_option maxHeartbeats 4000000 in
/-- THE BODY at point `t`: which kind of point it is decides the case's run; the inputs hold their blocks, the accumulator
    rows what the points before left; a one-row output idle at the point is handed back as it was found. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d))
        ∗ (∃ d, owns (c : Thread nD τ) (st0_6 t) fullShare ((dat0 V c).before 6 t d))
        ∗ (∃ d, owns (c : Thread nD τ) (st0_7 t) fullShare ((dat0 V c).before 7 t d)))
      ⊢ wp frame (wpE (defs₀ (F := F)) Variants.none c none) Set.univ (bodyAt0 t) fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)
            ∗ owns (c : Thread nD τ) (st0_4 t) fullShare ((dat0 V c).after 4 t)
            ∗ owns (c : Thread nD τ) (st0_5 t) fullShare ((dat0 V c).after 5 t)
            ∗ (match cfg0.idle 6 (cfg0.grid.coords t) with
              | true =>
                match (cfg0.win 6).flush t with
                | false => iprop(∃ d, owns (c : Thread nD τ) (st0_6 t) fullShare ((dat0 V c).before 6 t d))
                | true => owns (c : Thread nD τ) (st0_6 t) fullShare ((dat0 V c).after 6 t)
              | false => owns (c : Thread nD τ) (st0_6 t) fullShare ((dat0 V c).after 6 t))
            ∗ (match cfg0.idle 7 (cfg0.grid.coords t) with
              | true =>
                match (cfg0.win 7).flush t with
                | false => iprop(∃ d, owns (c : Thread nD τ) (st0_7 t) fullShare ((dat0 V c).before 7 t d))
                | true => owns (c : Thread nD τ) (st0_7 t) fullShare ((dat0 V c).after 7 t)
              | false => owns (c : Thread nD τ) (st0_7 t) fullShare ((dat0 V c).after 7 t))) := by
  unfold bodyAt0
  by_cases q0 : t.val = 0
  · have q1 : ¬t.val = 19 := by omega
    rewrite [idle0_6_of t q1]; (try rewrite [idle0_7_of t q1]); rewrite [noflush0_6_of t q1]; (try rewrite [noflush0_7_of t q1])
    simp only [before0_0, before0_1, before0_2, before0_3, before0_4, after0_0, after0_1, after0_2, after0_3, after0_4, after0_5, after0_6, after0_7]
    rewrite [show (dat0 V c).Φ t.succ = Phi0 V c t.succ from rfl, show (dat0 V c).Φ t.castSucc = Phi0 V c t.castSucc from rfl,
      show (dat0 V c).owesAt () t.succ = (dat0 V c).owesAt () t.castSucc from rfl]
    unfold Phi0; simp only [prev0T_castSucc, prev0T_succ, traj0_eq, step0_A V c t _ q0, Fin.val_castSucc, Fin.val_succ]
    iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    iintro ⟨H0, H1, H2, H3, H4, ⟨%e5, H5⟩, ⟨%e9, HS0⟩, ⟨%e10, HS1⟩⟩
    isplitl [HS0 HS1 HR]
    · isplitl [HS0]
      · iexists _; isplitr; · ipureintro; exact fun _ => rfl
        unfold owns; iexists _; isplitr; swap
        · iexact HS0
        · ipureintro; exact View.read_writes_of_cover _ _ _ _ _ (cover0_A_9 _ _ _ _ _ _ _ _ _ _ _ _ _ _ _ _ _ _ _ _ _ _ _ _ _ _ _ _ _)
      isplitl [HS1]
      · iexists _; isplitr; · ipureintro; exact fun _ => rfl
        unfold owns; iexists _; isplitr; swap
        · iexact HS1
        · ipureintro; exact View.read_writes_of_cover _ _ _ _ _ (cover0_A_10 _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr; swap
      · iexact H5
      · ipureintro; exact View.read_writes_of_cover _ _ _ _ _ (cover0_A_5 _ _ _ _ _ _ _ _ _ _ _ _ _ _ _ _ _ _ _ _ _ _ _ _ _ _ _ _ _)
    isplitl [H6]; · iexists _; iexact H6
    iexists _; iexact H7
  · by_cases q1 : t.val = 19
    · rewrite [busy0_6_of t q1]; (try rewrite [busy0_7_of t q1])
      simp only [before0_0, before0_1, before0_2, before0_3, before0_4, after0_0, after0_1, after0_2, after0_3, after0_4, after0_5, after0_6, after0_7]
      rewrite [show (dat0 V c).Φ t.succ = Phi0 V c t.succ from rfl, show (dat0 V c).Φ t.castSucc = Phi0 V c t.castSucc from rfl,
        show (dat0 V c).owesAt () t.succ = (dat0 V c).owesAt () t.castSucc from rfl]
      unfold Phi0; simp only [prev0T_castSucc, prev0T_succ, traj0_eq, step0_C V c t _ q0 q1, Fin.val_castSucc, Fin.val_succ]
      iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha0 q0
      obtain rfl := ha1 q0
      iapply ((kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) (prev0 V c t).1 (prev0 V c t).2).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 HR]
      · isplitl [HS0]
        · iexists _; isplitr; · ipureintro; exact fun _ => rfl
          unfold owns; iexists _; isplitr; swap
          · iexact HS0
          · ipureintro; exact View.read_writes_of_cover _ _ _ _ _ (cover0_C_9 _ _ _ _ _ _ _ _ _ _ _ _ _ _ _ _ _ _ _ _ _ _ _ _ _ _ _ _ _ _ _)
        isplitl [HS1]
        · iexists _; isplitr; · ipureintro; exact fun _ => rfl
          unfold owns; iexists _; isplitr; swap
          · iexact HS1
          · ipureintro; exact View.read_writes_of_cover _ _ _ _ _ (cover0_C_10 _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap
        · iexact H5
        · ipureintro; exact View.read_writes_of_cover _ _ _ _ _ (cover0_C_5 _ _ _ _ _ _ _ _ _ _ _ _ _ _ _ _ _ _ _ _ _ _ _ _ _ _ _ _ _ _ _)
      isplitl [H6]
      · unfold owns; iexists _; isplitr; swap
        · iexact H6
        · ipureintro; exact View.read_writes_of_cover _ _ _ _ _ (cover0_C_6 _ _ _ _ _ _ _ _ _ _ _ _ _ _ _ _ _ _ _ _ _ _ _ _ _ _ _ _ _ _ _)
      unfold owns; iexists _; isplitr; swap
      · iexact H7
      · ipureintro; exact View.read_writes_of_cover _ _ _ _ _ (cover0_C_7 _ _ _ _ _ _ _ _ _ _ _ _ _ _ _ _ _ _ _ _ _ _ _ _ _ _ _ _ _ _ _)
    · rewrite [idle0_6_of t q1]; (try rewrite [idle0_7_of t q1]); rewrite [noflush0_6_of t q1]; (try rewrite [noflush0_7_of t q1])
      simp only [before0_0, before0_1, before0_2, before0_3, before0_4, after0_0, after0_1, after0_2, after0_3, after0_4, after0_5, after0_6, after0_7]
      rewrite [show (dat0 V c).Φ t.succ = Phi0 V c t.succ from rfl, show (dat0 V c).Φ t.castSucc = Phi0 V c t.castSucc from rfl,
        show (dat0 V c).owesAt () t.succ = (dat0 V c).owesAt () t.castSucc from rfl]
      unfold Phi0; simp only [prev0T_castSucc, prev0T_succ, traj0_eq, step0_B V c t _ q0 q1, Fin.val_castSucc, Fin.val_succ]
      iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha0 q0
      obtain rfl := ha1 q0
      iapply ((kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) (prev0 V c t).1 (prev0 V c t).2).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%e9, HS0⟩, ⟨%e10, HS1⟩⟩
      isplitl [HS0 HS1 HR]
      · isplitl [HS0]
        · iexists _; isplitr; · ipureintro; exact fun _ => rfl
          unfold owns; iexists _; isplitr; swap
          · iexact HS0
          · ipureintro; exact View.read_writes_of_cover _ _ _ _ _ (cover0_B_9 _ _ _ _ _ _ _ _ _ _ _ _ _ _ _ _ _ _ _ _ _ _ _ _ _ _ _ _ _ _ _)
        isplitl [HS1]
        · iexists _; isplitr; · ipureintro; exact fun _ => rfl
          unfold owns; iexists _; isplitr; swap
          · iexact HS1
          · ipureintro; exact View.read_writes_of_cover _ _ _ _ _ (cover0_B_10 _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap
        · iexact H5
        · ipureintro; exact View.read_writes_of_cover _ _ _ _ _ (cover0_B_5 _ _ _ _ _ _ _ _ _ _ _ _ _ _ _ _ _ _ _ _ _ _ _ _ _ _ _ _ _ _ _)
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Stats2Run.lean ====
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second SAGE layer's linear combine with its column statistics (pipeline 2)

Each grid point handles 5000 rows: it writes the rows' combine `agg·Wlᵀ + bl + x·Wrᵀ` to its block of the output
and adds the block's column sums and column sums of squares to two accumulator rows, which the first point starts from
zero and the last point copies to the two one-row outputs. Three kinds of point: the first, the last, the ones between. -/

/-- The point is the first one (the accumulators are reset there). -/
abbrev cond2_0 (i : grid2.Coords) : Prop := (Scalar.cmpi .ne (Scalar.extui (Scalar.cmpi .eq (BitVec.ofNat 32 (i 0).val) 0#32)) 0#32) = 1#1
/-- The point is the last one (the accumulators are copied out there). -/
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 19 :=
  (by decide +kernel : ∀ t : Fin grid2.N, cond2_1 (grid2.coords t) ↔ t.val = 19)

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond2_0 i) (hc1 : ¬cond2_1 i) (x0 x1 : Vec F S5000x128 .f32) (x2 : Vec F S128x128 .f32) (x3 : Vec F S1x128 .f32) (x4 : Vec F S128x128 .f32) :
    Σ' (L5 : List (View.Piece (Elt F) S5000x128 .f32)) (L9 L10 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10) K := by
  refine ⟨?_, ?_, ?_, fun E K => ?run⟩
  case run =>
    simp only [cc2__linear_stats_kernel_eq_skeleton]; unfold cc2__linear_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d9, %f9, -, H9⟩, ⟨%d10, %f10, -, H10⟩, Hk⟩
    obtain rfl := harg1.eq_unread hf0
    obtain rfl := harg2.eq_unread hf1
    obtain rfl := harg3.eq_unread hf2
    obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H9]; · iexists _; iexact H9
    iexists _; iexact H10

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : ¬cond2_1 i) (x0 x1 : Vec F S5000x128 .f32) (x2 : Vec F S128x128 .f32) (x3 : Vec F S1x128 .f32) (x4 : Vec F S128x128 .f32) (s0 s1 : Vec F S1x128 .f32) :
    Σ' (L5 : List (View.Piece (Elt F) S5000x128 .f32)) (L9 L10 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ owns (c : Thread nD τ) arg9 fullShare s0 ∗ owns (c : Thread nD τ) arg10 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10) K := by
  refine ⟨?_, ?_, ?_, fun E K => ?run⟩
  case run =>
    simp only [cc2__linear_stats_kernel_eq_skeleton]; unfold cc2__linear_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f9, %hf9, H9⟩, ⟨%f10, %hf10, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg9.eq_unread hf9
    obtain rfl := harg10.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H9]; · iexists _; iexact H9
    iexists _; iexact H10

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun2_C (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) :
    Σ' (L5 : List (View.Piece (Elt F) S5000x128 .f32)) (L6 L7 L9 L10 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg7 fullShare d) ∗ (∃ d, owns (c : Thread nD τ) arg8 fullShare d)
            ∗ owns (c : Thread nD τ) arg9 fullShare s0 ∗ owns (c : Thread nD τ) arg10 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10) K := by
  refine ⟨?_, ?_, ?_, ?_, ?_, fun E K => ?run⟩
  case run =>
    simp only [cc2__linear_stats_kernel_eq_skeleton]; unfold cc2__linear_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg9.eq_unread hf9
    obtain rfl := harg10.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.K.Stats2Traj.lean ====
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.K.Stats2Run
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 2 point by point: what the accumulator rows and the outputs hold after each grid point -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- One view of each written shape through which a list of stores is read back (any whole buffer of the shape does). -/
abbrev VB2 : View sig .tc .vmem S5000x128 .f32 := (Memref.whole cc2_stg5_0 : Memref sig .tc .vmem S5000x128 .f32).view
abbrev VR2 : View sig .tc .vmem S1x128 .f32 := (Memref.whole cc2_scratch0 : Memref sig .tc .vmem S1x128 .f32).view
/-- What a list of stores (last first) leaves in a row-block buffer / in a one-row buffer. -/
def rdB2 (L : List (View.Piece (Elt F) S5000x128 .f32)) : Vec F S5000x128 .f32 := VB2.read (Elt F) (VB2.writes (Elt F) VB2.junk L)
def rdR2 (L : List (View.Piece (Elt F) S1x128 .f32)) : Vec F S1x128 .f32 := VR2.read (Elt F) (VR2.writes (Elt F) VR2.junk L)
/-- A row nothing has determined. -/
def row2_any : Vec F S1x128 .f32 := VR2.read (Elt F) VR2.junk

/-- What one grid point leaves: its block of the combine, the two one-row outputs (meaningful at the last point only)
    and the two accumulator rows. -/
structure Pt2 (F : FTy → Type) where
  o5 : Vec F S5000x128 .f32
  o6 : Vec F S1x128 .f32
  o7 : Vec F S1x128 .f32
  a0 : Vec F S1x128 .f32
  a1 : Vec F S1x128 .f32

/-- ONE POINT from the accumulator rows before it: the first point resets them, the last also copies them out. -/
def step2 (c : Dev nD) (t : Fin cfg2.N) (prev : Vec F S1x128 .f32 × Vec F S1x128 .f32) : Pt2 F :=
  if q0 : t.val = 0 then
    ⟨rdB2 (kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).1, prev.1, prev.2, rdR2 (kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).2.1, rdR2 (kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).2.2.1⟩
  else if q1 : t.val = 19 then
    ⟨rdB2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.2.1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.2.2.1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.2.2.2.1⟩
  else
    ⟨rdB2 (kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2).1, prev.1, prev.2, rdR2 (kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2).2.1, rdR2 (kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2).2.2.1⟩

/-- THE TRAJECTORY: what the points up to position `n` leave. -/
def traj2 (c : Dev nD) : (n : ℕ) → n < cfg2.N → Pt2 F
  | 0, h => step2 V c ⟨0, h⟩ (row2_any, row2_any)
  | n + 1, h => step2 V c ⟨n + 1, h⟩ ((traj2 c n (Nat.lt_of_succ_lt h)).a0, (traj2 c n (Nat.lt_of_succ_lt h)).a1)

/-- The accumulator rows before point `t`. -/
def prev2 (c : Dev nD) (t : Fin cfg2.N) : Vec F S1x128 .f32 × Vec F S1x128 .f32 :=
  if h : t.val = 0 then (row2_any, row2_any) else ((traj2 V c (t.val - 1) (by omega)).a0, (traj2 V c (t.val - 1) (by omega)).a1)

theorem traj2_eq (c : Dev nD) (t : Fin cfg2.N) : traj2 V c t.val t.isLt = step2 V c t (prev2 V c t) := by
  obtain ⟨n, hn⟩ := t
  cases n with
  | zero => rfl
  | succ n => unfold prev2; simp only [Nat.add_one_ne_zero, dif_neg, not_false_eq_true]; rfl

theorem step2_A (c : Dev nD) (t : Fin cfg2.N) (prev : Vec F S1x128 .f32 × Vec F S1x128 .f32) (q0 : t.val = 0) :
    step2 V c t prev = ⟨rdB2 (kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).1, prev.1, prev.2, rdR2 (kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).2.1, rdR2 (kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).2.2.1⟩ := by
  unfold step2; simp only [dif_pos q0]
theorem step2_B (c : Dev nD) (t : Fin cfg2.N) (prev : Vec F S1x128 .f32 × Vec F S1x128 .f32) (q0 : ¬t.val = 0) (q1 : ¬t.val = 19) :
    step2 V c t prev = ⟨rdB2 (kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2).1, prev.1, prev.2, rdR2 (kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2).2.1, rdR2 (kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2).2.2.1⟩ := by
  unfold step2; simp only [dif_neg q0, dif_neg q1]
theorem step2_C (c : Dev nD) (t : Fin cfg2.N) (prev : Vec F S1x128 .f32 × Vec F S1x128 .f32) (q0 : ¬t.val = 0) (q1 : t.val = 19) :
    step2 V c t prev = ⟨rdB2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.2.1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.2.2.1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.2.2.2.1⟩ := by
  unfold step2; simp only [dif_neg q0, dif_pos q1]

/-- The accumulator rows before position `t` of the invariant's index (one more than the points). -/
def prev2T (c : Dev nD) (t : Fin (cfg2.N + 1)) : Vec F S1x128 .f32 × Vec F S1x128 .f32 :=
  if h : t.val = 0 then (row2_any, row2_any) else ((traj2 V c (t.val - 1) (by omega)).a0, (traj2 V c (t.val - 1) (by omega)).a1)

theorem prev2T_castSucc (c : Dev nD) (t : Fin cfg2.N) : prev2T V c t.castSucc = prev2 V c t := rfl
theorem prev2T_succ (c : Dev nD) (t : Fin cfg2.N) : prev2T V c t.succ = ((traj2 V c t.val t.isLt).a0, (traj2 V c t.val t.isLt).a1) := by
  unfold prev2T; rw [dif_neg (by simp)]; rfl

end Cert.Kernel.Hand

end
-- ==== Proof.K.Stats2Cover.lean ====
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.K.Stats2Run
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Each list of stores a case of pipeline 2's body leaves covers its buffer -/

theorem cover2_A_5 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond2_0 i) (hc1 : ¬cond2_1 i) (x0 x1 : Vec F S5000x128 .f32) (x2 : Vec F S128x128 .f32) (x3 : Vec F S1x128 .f32) (x4 : Vec F S128x128 .f32) (y : S5000x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL _ S5000x128.size (by sl_kernel_rfl) y
theorem cover2_A_9 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond2_0 i) (hc1 : ¬cond2_1 i) (x0 x1 : Vec F S5000x128 .f32) (x2 : Vec F S128x128 .f32) (x3 : Vec F S1x128 .f32) (x4 : Vec F S128x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL _ S1x128.size (by sl_kernel_rfl) y
theorem cover2_A_10 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond2_0 i) (hc1 : ¬cond2_1 i) (x0 x1 : Vec F S5000x128 .f32) (x2 : Vec F S128x128 .f32) (x3 : Vec F S1x128 .f32) (x4 : Vec F S128x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL _ S1x128.size (by sl_kernel_rfl) y
theorem cover2_B_5 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : ¬cond2_1 i) (x0 x1 : Vec F S5000x128 .f32) (x2 : Vec F S128x128 .f32) (x3 : Vec F S1x128 .f32) (x4 : Vec F S128x128 .f32) (s0 s1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 s0 s1).1, y ∈ pc.1.set :=
  View.cover_of_tiledL _ S5000x128.size (by sl_kernel_rfl) y
theorem cover2_B_9 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : ¬cond2_1 i) (x0 x1 : Vec F S5000x128 .f32) (x2 : Vec F S128x128 .f32) (x3 : Vec F S1x128 .f32) (x4 : Vec F S128x128 .f32) (s0 s1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 s0 s1).2.1, y ∈ pc.1.set :=
  View.cover_of_tiledL _ S1x128.size (by sl_kernel_rfl) y
theorem cover2_B_10 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : ¬cond2_1 i) (x0 x1 : Vec F S5000x128 .f32) (x2 : Vec F S128x128 .f32) (x3 : Vec F S1x128 .f32) (x4 : Vec F S128x128 .f32) (s0 s1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 s0 s1).2.2.1, y ∈ pc.1.set :=
  View.cover_of_tiledL _ S1x128.size (by sl_kernel_rfl) y
theorem cover2_C_5 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 s0 s1).1, y ∈ pc.1.set :=
  View.cover_of_tiledL _ S5000x128.size (by sl_kernel_rfl) y
theorem cover2_C_6 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 s0 s1).2.1, y ∈ pc.1.set :=
  View.cover_of_tiledL _ S1x128.size (by sl_kernel_rfl) y
theorem cover2_C_7 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 s0 s1).2.2.1, y ∈ pc.1.set :=
  View.cover_of_tiledL _ S1x128.size (by sl_kernel_rfl) y
theorem cover2_C_9 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 s0 s1).2.2.2.1, y ∈ pc.1.set :=
  View.cover_of_tiledL _ S1x128.size (by sl_kernel_rfl) y
theorem cover2_C_10 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 s0 s1).2.2.2.2.1, y ∈ pc.1.set :=
  View.cover_of_tiledL _ S1x128.size (by sl_kernel_rfl) y

end Cert.Kernel.Hand

end
-- ==== Proof.K.Stats2.lean ====
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.K.Stats2Traj
import proofs.«121727_j57028575756303_1_alg».proof.Proof.K.Stats2Cover
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 2: the proof data and the body obligation -/

abbrev M9_2 : Memref sig .tc .vmem S1x128 .f32 := Memref.whole cc2_scratch0
abbrev M12_0 : Memref sig .tc .vmem S1x128 .f32 := Memref.whole cc2_scratch1

/-- The scoped buffers this pipeline neither stages nor uses as accumulators, each at some contents. -/
abbrev Rest2 (c : Dev nD) : sProp 𝕄 :=
  Pipeline.scopedRestBut (Ix := Unit) (Name := ℕ) (U := UR sig nD τ) (Lvl := ℕ) (Val := Elt F) spec2 c [cc2_scratch0, cc2_scratch1]

/-- THE INVARIANT before point `t`: the two accumulator rows at what the points before left (anything before the
    first point, which resets them), beside the untouched scoped buffers. -/
def Phi2 (c : Dev nD) (t : Fin (cfg2.N + 1)) : sProp 𝕄 :=
  iprop((∃ a, ⌜t.val ≠ 0 → a = (prev2T V c t).1⌝ ∗ owns (c : Thread nD τ) M9_2 fullShare a)
      ∗ (∃ a, ⌜t.val ≠ 0 → a = (prev2T V c t).2⌝ ∗ owns (c : Thread nD τ) M12_0 fullShare a)
      ∗ Rest2 c)

/-- The proof data of pipeline 2 on core `c`: the arrays as the region finds them; after point `t` each input's
    buffer at its block, the outputs' at what the trajectory says. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (traj2 V c t.val t.isLt).o5
    | ⟨6, _⟩ => (traj2 V c t.val t.isLt).o6
    | ⟨7, _⟩ => (traj2 V c t.val t.isLt).o7
  Φ t := Phi2 V c t
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (traj2 V c t.val t.isLt).o5 := by dsimp only [dat2]
theorem after2_6 (c : Dev nD) (t : Fin cfg2.N) : (dat2 V c).after 6 t = (traj2 V c t.val t.isLt).o6 := by dsimp only [dat2]
theorem after2_7 (c : Dev nD) (t : Fin cfg2.N) : (dat2 V c).after 7 t = (traj2 V c t.val t.isLt).o7 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- The one-row outputs are idle wherever the point is not the last, and are written back at the last only. -/
theorem idle2_6_of (t : Fin cfg2.N) (h : ¬t.val = 19) : cfg2.idle 6 (cfg2.grid.coords t) = true := by
  have hc : ¬k2_cond2 (grid2.coords t) = 1#1 := fun hh => h ((hcond2_1 t).mp hh)
  show (!(k2_cond2 (grid2.coords t) == 1#1)) = true
  simp [hc]
theorem idle2_7_of (t : Fin cfg2.N) (h : ¬t.val = 19) : cfg2.idle 7 (cfg2.grid.coords t) = true := by
  have hc : ¬k2_cond2 (grid2.coords t) = 1#1 := fun hh => h ((hcond2_1 t).mp hh)
  show (!(k2_cond2 (grid2.coords t) == 1#1)) = true
  simp [hc]
theorem busy2_6_of (t : Fin cfg2.N) (h : t.val = 19) : cfg2.idle 6 (cfg2.grid.coords t) = false := by
  have hc : k2_cond2 (grid2.coords t) = 1#1 := (hcond2_1 t).mpr h
  show (!(k2_cond2 (grid2.coords t) == 1#1)) = false
  simp [hc]
theorem busy2_7_of (t : Fin cfg2.N) (h : t.val = 19) : cfg2.idle 7 (cfg2.grid.coords t) = false := by
  have hc : k2_cond2 (grid2.coords t) = 1#1 := (hcond2_1 t).mpr h
  show (!(k2_cond2 (grid2.coords t) == 1#1)) = false
  simp [hc]
theorem noflush2_6_of (t : Fin cfg2.N) (h : ¬t.val = 19) : (cfg2.win 6).flush t = false :=
  Bool.eq_false_iff.mpr fun hh => by have := (flush2_6 t).mp hh; have := t.isLt; have hN : cfg2.N = 20 := N_2; omega
theorem noflush2_7_of (t : Fin cfg2.N) (h : ¬t.val = 19) : (cfg2.win 7).flush t = false :=
  Bool.eq_false_iff.mpr fun hh => by have := (flush2_7 t).mp hh; have := t.isLt; have hN : cfg2.N = 20 := N_2; omega

set_option maxHeartbeats 4000000 in
/-- THE BODY at point `t`: which kind of point it is decides the case's run; the inputs hold their blocks, the accumulator
    rows what the points before left; a one-row output idle at the point is handed back as it was found. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d))
        ∗ (∃ d, owns (c : Thread nD τ) (st2_5 t) fullShare ((dat2 V c).before 5 t d))
        ∗ (∃ d, owns (c : Thread nD τ) (st2_6 t) fullShare ((dat2 V c).before 6 t d))
        ∗ (∃ d, owns (c : Thread nD τ) (st2_7 t) fullShare ((dat2 V c).before 7 t d)))
      ⊢ wp frame (wpE (defs₀ (F := F)) Variants.none c none) Set.univ (bodyAt2 t) fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t)
            ∗ owns (c : Thread nD τ) (st2_3 t) fullShare ((dat2 V c).after 3 t)
            ∗ owns (c : Thread nD τ) (st2_4 t) fullShare ((dat2 V c).after 4 t)
            ∗ owns (c : Thread nD τ) (st2_5 t) fullShare ((dat2 V c).after 5 t)
            ∗ (match cfg2.idle 6 (cfg2.grid.coords t) with
              | true =>
                match (cfg2.win 6).flush t with
                | false => iprop(∃ d, owns (c : Thread nD τ) (st2_6 t) fullShare ((dat2 V c).before 6 t d))
                | true => owns (c : Thread nD τ) (st2_6 t) fullShare ((dat2 V c).after 6 t)
              | false => owns (c : Thread nD τ) (st2_6 t) fullShare ((dat2 V c).after 6 t))
            ∗ (match cfg2.idle 7 (cfg2.grid.coords t) with
              | true =>
                match (cfg2.win 7).flush t with
                | false => iprop(∃ d, owns (c : Thread nD τ) (st2_7 t) fullShare ((dat2 V c).before 7 t d))
                | true => owns (c : Thread nD τ) (st2_7 t) fullShare ((dat2 V c).after 7 t)
              | false => owns (c : Thread nD τ) (st2_7 t) fullShare ((dat2 V c).after 7 t))) := by
  unfold bodyAt2
  by_cases q0 : t.val = 0
  · have q1 : ¬t.val = 19 := by omega
    rewrite [idle2_6_of t q1]; (try rewrite [idle2_7_of t q1]); rewrite [noflush2_6_of t q1]; (try rewrite [noflush2_7_of t q1])
    simp only [before2_0, before2_1, before2_2, before2_3, before2_4, after2_0, after2_1, after2_2, after2_3, after2_4, after2_5, after2_6, after2_7]
    rewrite [show (dat2 V c).Φ t.succ = Phi2 V c t.succ from rfl, show (dat2 V c).Φ t.castSucc = Phi2 V c t.castSucc from rfl,
      show (dat2 V c).owesAt () t.succ = (dat2 V c).owesAt () t.castSucc from rfl]
    unfold Phi2; simp only [prev2T_castSucc, prev2T_succ, traj2_eq, step2_A V c t _ q0, Fin.val_castSucc, Fin.val_succ]
    iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    iintro ⟨H0, H1, H2, H3, H4, ⟨%e5, H5⟩, ⟨%e9, HS0⟩, ⟨%e10, HS1⟩⟩
    isplitl [HS0 HS1 HR]
    · isplitl [HS0]
      · iexists _; isplitr; · ipureintro; exact fun _ => rfl
        unfold owns; iexists _; isplitr; swap
        · iexact HS0
        · ipureintro; exact View.read_writes_of_cover _ _ _ _ _ (cover2_A_9 _ _ _ _ _ _ _ _ _ _ _ _ _ _ _ _ _ _ _ _ _ _ _ _ _ _ _ _ _)
      isplitl [HS1]
      · iexists _; isplitr; · ipureintro; exact fun _ => rfl
        unfold owns; iexists _; isplitr; swap
        · iexact HS1
        · ipureintro; exact View.read_writes_of_cover _ _ _ _ _ (cover2_A_10 _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr; swap
      · iexact H5
      · ipureintro; exact View.read_writes_of_cover _ _ _ _ _ (cover2_A_5 _ _ _ _ _ _ _ _ _ _ _ _ _ _ _ _ _ _ _ _ _ _ _ _ _ _ _ _ _)
    isplitl [H6]; · iexists _; iexact H6
    iexists _; iexact H7
  · by_cases q1 : t.val = 19
    · rewrite [busy2_6_of t q1]; (try rewrite [busy2_7_of t q1])
      simp only [before2_0, before2_1, before2_2, before2_3, before2_4, after2_0, after2_1, after2_2, after2_3, after2_4, after2_5, after2_6, after2_7]
      rewrite [show (dat2 V c).Φ t.succ = Phi2 V c t.succ from rfl, show (dat2 V c).Φ t.castSucc = Phi2 V c t.castSucc from rfl,
        show (dat2 V c).owesAt () t.succ = (dat2 V c).owesAt () t.castSucc from rfl]
      unfold Phi2; simp only [prev2T_castSucc, prev2T_succ, traj2_eq, step2_C V c t _ q0 q1, Fin.val_castSucc, Fin.val_succ]
      iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha0 q0
      obtain rfl := ha1 q0
      iapply ((kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) (prev2 V c t).1 (prev2 V c t).2).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 HR]
      · isplitl [HS0]
        · iexists _; isplitr; · ipureintro; exact fun _ => rfl
          unfold owns; iexists _; isplitr; swap
          · iexact HS0
          · ipureintro; exact View.read_writes_of_cover _ _ _ _ _ (cover2_C_9 _ _ _ _ _ _ _ _ _ _ _ _ _ _ _ _ _ _ _ _ _ _ _ _ _ _ _ _ _ _ _)
        isplitl [HS1]
        · iexists _; isplitr; · ipureintro; exact fun _ => rfl
          unfold owns; iexists _; isplitr; swap
          · iexact HS1
          · ipureintro; exact View.read_writes_of_cover _ _ _ _ _ (cover2_C_10 _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap
        · iexact H5
        · ipureintro; exact View.read_writes_of_cover _ _ _ _ _ (cover2_C_5 _ _ _ _ _ _ _ _ _ _ _ _ _ _ _ _ _ _ _ _ _ _ _ _ _ _ _ _ _ _ _)
      isplitl [H6]
      · unfold owns; iexists _; isplitr; swap
        · iexact H6
        · ipureintro; exact View.read_writes_of_cover _ _ _ _ _ (cover2_C_6 _ _ _ _ _ _ _ _ _ _ _ _ _ _ _ _ _ _ _ _ _ _ _ _ _ _ _ _ _ _ _)
      unfold owns; iexists _; isplitr; swap
      · iexact H7
      · ipureintro; exact View.read_writes_of_cover _ _ _ _ _ (cover2_C_7 _ _ _ _ _ _ _ _ _ _ _ _ _ _ _ _ _ _ _ _ _ _ _ _ _ _ _ _ _ _ _)
    · rewrite [idle2_6_of t q1]; (try rewrite [idle2_7_of t q1]); rewrite [noflush2_6_of t q1]; (try rewrite [noflush2_7_of t q1])
      simp only [before2_0, before2_1, before2_2, before2_3, before2_4, after2_0, after2_1, after2_2, after2_3, after2_4, after2_5, after2_6, after2_7]
      rewrite [show (dat2 V c).Φ t.succ = Phi2 V c t.succ from rfl, show (dat2 V c).Φ t.castSucc = Phi2 V c t.castSucc from rfl,
        show (dat2 V c).owesAt () t.succ = (dat2 V c).owesAt () t.castSucc from rfl]
      unfold Phi2; simp only [prev2T_castSucc, prev2T_succ, traj2_eq, step2_B V c t _ q0 q1, Fin.val_castSucc, Fin.val_succ]
      iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha0 q0
      obtain rfl := ha1 q0
      iapply ((kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) (prev2 V c t).1 (prev2 V c t).2).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%e9, HS0⟩, ⟨%e10, HS1⟩⟩
      isplitl [HS0 HS1 HR]
      · isplitl [HS0]
        · iexists _; isplitr; · ipureintro; exact fun _ => rfl
          unfold owns; iexists _; isplitr; swap
          · iexact HS0
          · ipureintro; exact View.read_writes_of_cover _ _ _ _ _ (cover2_B_9 _ _ _ _ _ _ _ _ _ _ _ _ _ _ _ _ _ _ _ _ _ _ _ _ _ _ _ _ _ _ _)
        isplitl [HS1]
        · iexists _; isplitr; · ipureintro; exact fun _ => rfl
          unfold owns; iexists _; isplitr; swap
          · iexact HS1
          · ipureintro; exact View.read_writes_of_cover _ _ _ _ _ (cover2_B_10 _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap
        · iexact H5
        · ipureintro; exact View.read_writes_of_cover _ _ _ _ _ (cover2_B_5 _ _ _ _ _ _ _ _ _ _ _ _ _ _ _ _ _ _ _ _ _ _ _ _ _ _ _ _ _ _ _)
      isplitl [H6]; · iexists _; iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Stats4Run.lean ====
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third SAGE layer's linear combine with its column statistics (pipeline 4)

Each grid point handles 5000 rows: it writes the rows' combine `agg·Wlᵀ + bl + x·Wrᵀ` to its block of the output
and adds the block's column sums and column sums of squares to two accumulator rows, which the first point starts from
zero and the last point copies to the two one-row outputs. Three kinds of point: the first, the last, the ones between. -/

/-- The point is the first one (the accumulators are reset there). -/
abbrev cond4_0 (i : grid4.Coords) : Prop := (Scalar.cmpi .ne (Scalar.extui (Scalar.cmpi .eq (BitVec.ofNat 32 (i 0).val) 0#32)) 0#32) = 1#1
/-- The point is the last one (the accumulators are copied out there). -/
abbrev cond4_1 (i : grid4.Coords) : Prop := k4_cond2 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 19 :=
  (by decide +kernel : ∀ t : Fin grid4.N, cond4_1 (grid4.coords t) ↔ t.val = 19)

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond4_0 i) (hc1 : ¬cond4_1 i) (x0 x1 : Vec F S5000x128 .f32) (x2 : Vec F S128x64 .f32) (x3 : Vec F S1x64 .f32) (x4 : Vec F S128x64 .f32) :
    Σ' (L5 : List (View.Piece (Elt F) S5000x64 .f32)) (L9 L10 : List (View.Piece (Elt F) S1x64 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9 arg10 harg10) K := by
  refine ⟨?_, ?_, ?_, fun E K => ?run⟩
  case run =>
    simp only [cc4__linear_stats_kernel_eq_skeleton]; unfold cc4__linear_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d9, %f9, -, H9⟩, ⟨%d10, %f10, -, H10⟩, Hk⟩
    obtain rfl := harg1.eq_unread hf0
    obtain rfl := harg2.eq_unread hf1
    obtain rfl := harg3.eq_unread hf2
    obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H9]; · iexists _; iexact H9
    iexists _; iexact H10

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : ¬cond4_1 i) (x0 x1 : Vec F S5000x128 .f32) (x2 : Vec F S128x64 .f32) (x3 : Vec F S1x64 .f32) (x4 : Vec F S128x64 .f32) (s0 s1 : Vec F S1x64 .f32) :
    Σ' (L5 : List (View.Piece (Elt F) S5000x64 .f32)) (L9 L10 : List (View.Piece (Elt F) S1x64 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ owns (c : Thread nD τ) arg9 fullShare s0 ∗ owns (c : Thread nD τ) arg10 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9 arg10 harg10) K := by
  refine ⟨?_, ?_, ?_, fun E K => ?run⟩
  case run =>
    simp only [cc4__linear_stats_kernel_eq_skeleton]; unfold cc4__linear_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f9, %hf9, H9⟩, ⟨%f10, %hf10, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg9.eq_unread hf9
    obtain rfl := harg10.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H9]; · iexists _; iexact H9
    iexists _; iexact H10

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun4_C (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) :
    Σ' (L5 : List (View.Piece (Elt F) S5000x64 .f32)) (L6 L7 L9 L10 : List (View.Piece (Elt F) S1x64 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg7 fullShare d) ∗ (∃ d, owns (c : Thread nD τ) arg8 fullShare d)
            ∗ owns (c : Thread nD τ) arg9 fullShare s0 ∗ owns (c : Thread nD τ) arg10 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9 arg10 harg10) K := by
  refine ⟨?_, ?_, ?_, ?_, ?_, fun E K => ?run⟩
  case run =>
    simp only [cc4__linear_stats_kernel_eq_skeleton]; unfold cc4__linear_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg9.eq_unread hf9
    obtain rfl := harg10.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.K.Stats4Traj.lean ====
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.K.Stats4Run
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 4 point by point: what the accumulator rows and the outputs hold after each grid point -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- One view of each written shape through which a list of stores is read back (any whole buffer of the shape does). -/
abbrev VB4 : View sig .tc .vmem S5000x64 .f32 := (Memref.whole cc4_stg5_0 : Memref sig .tc .vmem S5000x64 .f32).view
abbrev VR4 : View sig .tc .vmem S1x64 .f32 := (Memref.whole cc4_scratch0 : Memref sig .tc .vmem S1x64 .f32).view
/-- What a list of stores (last first) leaves in a row-block buffer / in a one-row buffer. -/
def rdB4 (L : List (View.Piece (Elt F) S5000x64 .f32)) : Vec F S5000x64 .f32 := VB4.read (Elt F) (VB4.writes (Elt F) VB4.junk L)
def rdR4 (L : List (View.Piece (Elt F) S1x64 .f32)) : Vec F S1x64 .f32 := VR4.read (Elt F) (VR4.writes (Elt F) VR4.junk L)
/-- A row nothing has determined. -/
def row4_any : Vec F S1x64 .f32 := VR4.read (Elt F) VR4.junk

/-- What one grid point leaves: its block of the combine, the two one-row outputs (meaningful at the last point only)
    and the two accumulator rows. -/
structure Pt4 (F : FTy → Type) where
  o5 : Vec F S5000x64 .f32
  o6 : Vec F S1x64 .f32
  o7 : Vec F S1x64 .f32
  a0 : Vec F S1x64 .f32
  a1 : Vec F S1x64 .f32

/-- ONE POINT from the accumulator rows before it: the first point resets them, the last also copies them out. -/
def step4 (c : Dev nD) (t : Fin cfg4.N) (prev : Vec F S1x64 .f32 × Vec F S1x64 .f32) : Pt4 F :=
  if q0 : t.val = 0 then
    ⟨rdB4 (kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).1, prev.1, prev.2, rdR4 (kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).2.1, rdR4 (kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).2.2.1⟩
  else if q1 : t.val = 19 then
    ⟨rdB4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.2.1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.2.2.1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.2.2.2.1⟩
  else
    ⟨rdB4 (kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2).1, prev.1, prev.2, rdR4 (kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2).2.1, rdR4 (kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2).2.2.1⟩

/-- THE TRAJECTORY: what the points up to position `n` leave. -/
def traj4 (c : Dev nD) : (n : ℕ) → n < cfg4.N → Pt4 F
  | 0, h => step4 V c ⟨0, h⟩ (row4_any, row4_any)
  | n + 1, h => step4 V c ⟨n + 1, h⟩ ((traj4 c n (Nat.lt_of_succ_lt h)).a0, (traj4 c n (Nat.lt_of_succ_lt h)).a1)

/-- The accumulator rows before point `t`. -/
def prev4 (c : Dev nD) (t : Fin cfg4.N) : Vec F S1x64 .f32 × Vec F S1x64 .f32 :=
  if h : t.val = 0 then (row4_any, row4_any) else ((traj4 V c (t.val - 1) (by omega)).a0, (traj4 V c (t.val - 1) (by omega)).a1)

theorem traj4_eq (c : Dev nD) (t : Fin cfg4.N) : traj4 V c t.val t.isLt = step4 V c t (prev4 V c t) := by
  obtain ⟨n, hn⟩ := t
  cases n with
  | zero => rfl
  | succ n => unfold prev4; simp only [Nat.add_one_ne_zero, dif_neg, not_false_eq_true]; rfl

theorem step4_A (c : Dev nD) (t : Fin cfg4.N) (prev : Vec F S1x64 .f32 × Vec F S1x64 .f32) (q0 : t.val = 0) :
    step4 V c t prev = ⟨rdB4 (kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).1, prev.1, prev.2, rdR4 (kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).2.1, rdR4 (kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).2.2.1⟩ := by
  unfold step4; simp only [dif_pos q0]
theorem step4_B (c : Dev nD) (t : Fin cfg4.N) (prev : Vec F S1x64 .f32 × Vec F S1x64 .f32) (q0 : ¬t.val = 0) (q1 : ¬t.val = 19) :
    step4 V c t prev = ⟨rdB4 (kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2).1, prev.1, prev.2, rdR4 (kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2).2.1, rdR4 (kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2).2.2.1⟩ := by
  unfold step4; simp only [dif_neg q0, dif_neg q1]
theorem step4_C (c : Dev nD) (t : Fin cfg4.N) (prev : Vec F S1x64 .f32 × Vec F S1x64 .f32) (q0 : ¬t.val = 0) (q1 : t.val = 19) :
    step4 V c t prev = ⟨rdB4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.2.1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.2.2.1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.2.2.2.1⟩ := by
  unfold step4; simp only [dif_neg q0, dif_pos q1]

/-- The accumulator rows before position `t` of the invariant's index (one more than the points). -/
def prev4T (c : Dev nD) (t : Fin (cfg4.N + 1)) : Vec F S1x64 .f32 × Vec F S1x64 .f32 :=
  if h : t.val = 0 then (row4_any, row4_any) else ((traj4 V c (t.val - 1) (by omega)).a0, (traj4 V c (t.val - 1) (by omega)).a1)

theorem prev4T_castSucc (c : Dev nD) (t : Fin cfg4.N) : prev4T V c t.castSucc = prev4 V c t := rfl
theorem prev4T_succ (c : Dev nD) (t : Fin cfg4.N) : prev4T V c t.succ = ((traj4 V c t.val t.isLt).a0, (traj4 V c t.val t.isLt).a1) := by
  unfold prev4T; rw [dif_neg (by simp)]; rfl

end Cert.Kernel.Hand

end
-- ==== Proof.K.Stats4Cover.lean ====
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.K.Stats4Run
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Each list of stores a case of pipeline 4's body leaves covers its buffer -/

theorem cover4_A_5 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond4_0 i) (hc1 : ¬cond4_1 i) (x0 x1 : Vec F S5000x128 .f32) (x2 : Vec F S128x64 .f32) (x3 : Vec F S1x64 .f32) (x4 : Vec F S128x64 .f32) (y : S5000x64.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL _ S5000x64.size (by sl_kernel_rfl) y
theorem cover4_A_9 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond4_0 i) (hc1 : ¬cond4_1 i) (x0 x1 : Vec F S5000x128 .f32) (x2 : Vec F S128x64 .f32) (x3 : Vec F S1x64 .f32) (x4 : Vec F S128x64 .f32) (y : S1x64.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL _ S1x64.size (by sl_kernel_rfl) y
theorem cover4_A_10 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond4_0 i) (hc1 : ¬cond4_1 i) (x0 x1 : Vec F S5000x128 .f32) (x2 : Vec F S128x64 .f32) (x3 : Vec F S1x64 .f32) (x4 : Vec F S128x64 .f32) (y : S1x64.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL _ S1x64.size (by sl_kernel_rfl) y
theorem cover4_B_5 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : ¬cond4_1 i) (x0 x1 : Vec F S5000x128 .f32) (x2 : Vec F S128x64 .f32) (x3 : Vec F S1x64 .f32) (x4 : Vec F S128x64 .f32) (s0 s1 : Vec F S1x64 .f32) (y : S5000x64.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 s0 s1).1, y ∈ pc.1.set :=
  View.cover_of_tiledL _ S5000x64.size (by sl_kernel_rfl) y
theorem cover4_B_9 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : ¬cond4_1 i) (x0 x1 : Vec F S5000x128 .f32) (x2 : Vec F S128x64 .f32) (x3 : Vec F S1x64 .f32) (x4 : Vec F S128x64 .f32) (s0 s1 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 s0 s1).2.1, y ∈ pc.1.set :=
  View.cover_of_tiledL _ S1x64.size (by sl_kernel_rfl) y
theorem cover4_B_10 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : ¬cond4_1 i) (x0 x1 : Vec F S5000x128 .f32) (x2 : Vec F S128x64 .f32) (x3 : Vec F S1x64 .f32) (x4 : Vec F S128x64 .f32) (s0 s1 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 s0 s1).2.2.1, y ∈ pc.1.set :=
  View.cover_of_tiledL _ S1x64.size (by sl_kernel_rfl) y
theorem cover4_C_5 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) (y : S5000x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 s0 s1).1, y ∈ pc.1.set :=
  View.cover_of_tiledL _ S5000x64.size (by sl_kernel_rfl) y
theorem cover4_C_6 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 s0 s1).2.1, y ∈ pc.1.set :=
  View.cover_of_tiledL _ S1x64.size (by sl_kernel_rfl) y
theorem cover4_C_7 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 s0 s1).2.2.1, y ∈ pc.1.set :=
  View.cover_of_tiledL _ S1x64.size (by sl_kernel_rfl) y
theorem cover4_C_9 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 s0 s1).2.2.2.1, y ∈ pc.1.set :=
  View.cover_of_tiledL _ S1x64.size (by sl_kernel_rfl) y
theorem cover4_C_10 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 s0 s1).2.2.2.2.1, y ∈ pc.1.set :=
  View.cover_of_tiledL _ S1x64.size (by sl_kernel_rfl) y

end Cert.Kernel.Hand

end
-- ==== Proof.K.Stats4.lean ====
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.K.Stats4Traj
import proofs.«121727_j57028575756303_1_alg».proof.Proof.K.Stats4Cover
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 4: the proof data and the body obligation -/

abbrev M9_4 : Memref sig .tc .vmem S1x64 .f32 := Memref.whole cc4_scratch0
abbrev M14_0 : Memref sig .tc .vmem S1x64 .f32 := Memref.whole cc4_scratch1

/-- The scoped buffers this pipeline neither stages nor uses as accumulators, each at some contents. -/
abbrev Rest4 (c : Dev nD) : sProp 𝕄 :=
  Pipeline.scopedRestBut (Ix := Unit) (Name := ℕ) (U := UR sig nD τ) (Lvl := ℕ) (Val := Elt F) spec4 c [cc4_scratch0, cc4_scratch1]

/-- THE INVARIANT before point `t`: the two accumulator rows at what the points before left (anything before the
    first point, which resets them), beside the untouched scoped buffers. -/
def Phi4 (c : Dev nD) (t : Fin (cfg4.N + 1)) : sProp 𝕄 :=
  iprop((∃ a, ⌜t.val ≠ 0 → a = (prev4T V c t).1⌝ ∗ owns (c : Thread nD τ) M9_4 fullShare a)
      ∗ (∃ a, ⌜t.val ≠ 0 → a = (prev4T V c t).2⌝ ∗ owns (c : Thread nD τ) M14_0 fullShare a)
      ∗ Rest4 c)

/-- The proof data of pipeline 4 on core `c`: the arrays as the region finds them; after point `t` each input's
    buffer at its block, the outputs' at what the trajectory says. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (traj4 V c t.val t.isLt).o5
    | ⟨6, _⟩ => (traj4 V c t.val t.isLt).o6
    | ⟨7, _⟩ => (traj4 V c t.val t.isLt).o7
  Φ t := Phi4 V c t
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (traj4 V c t.val t.isLt).o5 := by dsimp only [dat4]
theorem after4_6 (c : Dev nD) (t : Fin cfg4.N) : (dat4 V c).after 6 t = (traj4 V c t.val t.isLt).o6 := by dsimp only [dat4]
theorem after4_7 (c : Dev nD) (t : Fin cfg4.N) : (dat4 V c).after 7 t = (traj4 V c t.val t.isLt).o7 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- The one-row outputs are idle wherever the point is not the last, and are written back at the last only. -/
theorem idle4_6_of (t : Fin cfg4.N) (h : ¬t.val = 19) : cfg4.idle 6 (cfg4.grid.coords t) = true := by
  have hc : ¬k4_cond2 (grid4.coords t) = 1#1 := fun hh => h ((hcond4_1 t).mp hh)
  show (!(k4_cond2 (grid4.coords t) == 1#1)) = true
  simp [hc]
theorem idle4_7_of (t : Fin cfg4.N) (h : ¬t.val = 19) : cfg4.idle 7 (cfg4.grid.coords t) = true := by
  have hc : ¬k4_cond2 (grid4.coords t) = 1#1 := fun hh => h ((hcond4_1 t).mp hh)
  show (!(k4_cond2 (grid4.coords t) == 1#1)) = true
  simp [hc]
theorem busy4_6_of (t : Fin cfg4.N) (h : t.val = 19) : cfg4.idle 6 (cfg4.grid.coords t) = false := by
  have hc : k4_cond2 (grid4.coords t) = 1#1 := (hcond4_1 t).mpr h
  show (!(k4_cond2 (grid4.coords t) == 1#1)) = false
  simp [hc]
theorem busy4_7_of (t : Fin cfg4.N) (h : t.val = 19) : cfg4.idle 7 (cfg4.grid.coords t) = false := by
  have hc : k4_cond2 (grid4.coords t) = 1#1 := (hcond4_1 t).mpr h
  show (!(k4_cond2 (grid4.coords t) == 1#1)) = false
  simp [hc]
theorem noflush4_6_of (t : Fin cfg4.N) (h : ¬t.val = 19) : (cfg4.win 6).flush t = false :=
  Bool.eq_false_iff.mpr fun hh => by have := (flush4_6 t).mp hh; have := t.isLt; have hN : cfg4.N = 20 := N_4; omega
theorem noflush4_7_of (t : Fin cfg4.N) (h : ¬t.val = 19) : (cfg4.win 7).flush t = false :=
  Bool.eq_false_iff.mpr fun hh => by have := (flush4_7 t).mp hh; have := t.isLt; have hN : cfg4.N = 20 := N_4; omega

set_option maxHeartbeats 4000000 in
/-- THE BODY at point `t`: which kind of point it is decides the case's run; the inputs hold their blocks, the accumulator
    rows what the points before left; a one-row output idle at the point is handed back as it was found. -/
theorem sound_body4 (c : Dev nD) (t : Fin cfg4.N) :
    iprop((dat4 V c).Φ t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d))
        ∗ (∃ d, owns (c : Thread nD τ) (st4_3 t) fullShare ((dat4 V c).before 3 t d))
        ∗ (∃ d, owns (c : Thread nD τ) (st4_4 t) fullShare ((dat4 V c).before 4 t d))
        ∗ (∃ d, owns (c : Thread nD τ) (st4_5 t) fullShare ((dat4 V c).before 5 t d))
        ∗ (∃ d, owns (c : Thread nD τ) (st4_6 t) fullShare ((dat4 V c).before 6 t d))
        ∗ (∃ d, owns (c : Thread nD τ) (st4_7 t) fullShare ((dat4 V c).before 7 t d)))
      ⊢ wp frame (wpE (defs₀ (F := F)) Variants.none c none) Set.univ (bodyAt4 t) fun _ =>
          iprop((dat4 V c).Φ t.succ ∗ (dat4 V c).owesAt () t.succ
            ∗ owns (c : Thread nD τ) (st4_0 t) fullShare ((dat4 V c).after 0 t)
            ∗ owns (c : Thread nD τ) (st4_1 t) fullShare ((dat4 V c).after 1 t)
            ∗ owns (c : Thread nD τ) (st4_2 t) fullShare ((dat4 V c).after 2 t)
            ∗ owns (c : Thread nD τ) (st4_3 t) fullShare ((dat4 V c).after 3 t)
            ∗ owns (c : Thread nD τ) (st4_4 t) fullShare ((dat4 V c).after 4 t)
            ∗ owns (c : Thread nD τ) (st4_5 t) fullShare ((dat4 V c).after 5 t)
            ∗ (match cfg4.idle 6 (cfg4.grid.coords t) with
              | true =>
                match (cfg4.win 6).flush t with
                | false => iprop(∃ d, owns (c : Thread nD τ) (st4_6 t) fullShare ((dat4 V c).before 6 t d))
                | true => owns (c : Thread nD τ) (st4_6 t) fullShare ((dat4 V c).after 6 t)
              | false => owns (c : Thread nD τ) (st4_6 t) fullShare ((dat4 V c).after 6 t))
            ∗ (match cfg4.idle 7 (cfg4.grid.coords t) with
              | true =>
                match (cfg4.win 7).flush t with
                | false => iprop(∃ d, owns (c : Thread nD τ) (st4_7 t) fullShare ((dat4 V c).before 7 t d))
                | true => owns (c : Thread nD τ) (st4_7 t) fullShare ((dat4 V c).after 7 t)
              | false => owns (c : Thread nD τ) (st4_7 t) fullShare ((dat4 V c).after 7 t))) := by
  unfold bodyAt4
  by_cases q0 : t.val = 0
  · have q1 : ¬t.val = 19 := by omega
    rewrite [idle4_6_of t q1]; (try rewrite [idle4_7_of t q1]); rewrite [noflush4_6_of t q1]; (try rewrite [noflush4_7_of t q1])
    simp only [before4_0, before4_1, before4_2, before4_3, before4_4, after4_0, after4_1, after4_2, after4_3, after4_4, after4_5, after4_6, after4_7]
    rewrite [show (dat4 V c).Φ t.succ = Phi4 V c t.succ from rfl, show (dat4 V c).Φ t.castSucc = Phi4 V c t.castSucc from rfl,
      show (dat4 V c).owesAt () t.succ = (dat4 V c).owesAt () t.castSucc from rfl]
    unfold Phi4; simp only [prev4T_castSucc, prev4T_succ, traj4_eq, step4_A V c t _ q0, Fin.val_castSucc, Fin.val_succ]
    iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    iintro ⟨H0, H1, H2, H3, H4, ⟨%e5, H5⟩, ⟨%e9, HS0⟩, ⟨%e10, HS1⟩⟩
    isplitl [HS0 HS1 HR]
    · isplitl [HS0]
      · iexists _; isplitr; · ipureintro; exact fun _ => rfl
        unfold owns; iexists _; isplitr; swap
        · iexact HS0
        · ipureintro; exact View.read_writes_of_cover _ _ _ _ _ (cover4_A_9 _ _ _ _ _ _ _ _ _ _ _ _ _ _ _ _ _ _ _ _ _ _ _ _ _ _ _ _ _)
      isplitl [HS1]
      · iexists _; isplitr; · ipureintro; exact fun _ => rfl
        unfold owns; iexists _; isplitr; swap
        · iexact HS1
        · ipureintro; exact View.read_writes_of_cover _ _ _ _ _ (cover4_A_10 _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr; swap
      · iexact H5
      · ipureintro; exact View.read_writes_of_cover _ _ _ _ _ (cover4_A_5 _ _ _ _ _ _ _ _ _ _ _ _ _ _ _ _ _ _ _ _ _ _ _ _ _ _ _ _ _)
    isplitl [H6]; · iexists _; iexact H6
    iexists _; iexact H7
  · by_cases q1 : t.val = 19
    · rewrite [busy4_6_of t q1]; (try rewrite [busy4_7_of t q1])
      simp only [before4_0, before4_1, before4_2, before4_3, before4_4, after4_0, after4_1, after4_2, after4_3, after4_4, after4_5, after4_6, after4_7]
      rewrite [show (dat4 V c).Φ t.succ = Phi4 V c t.succ from rfl, show (dat4 V c).Φ t.castSucc = Phi4 V c t.castSucc from rfl,
        show (dat4 V c).owesAt () t.succ = (dat4 V c).owesAt () t.castSucc from rfl]
      unfold Phi4; simp only [prev4T_castSucc, prev4T_succ, traj4_eq, step4_C V c t _ q0 q1, Fin.val_castSucc, Fin.val_succ]
      iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha0 q0
      obtain rfl := ha1 q0
      iapply ((kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) (prev4 V c t).1 (prev4 V c t).2).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 HR]
      · isplitl [HS0]
        · iexists _; isplitr; · ipureintro; exact fun _ => rfl
          unfold owns; iexists _; isplitr; swap
          · iexact HS0
          · ipureintro; exact View.read_writes_of_cover _ _ _ _ _ (cover4_C_9 _ _ _ _ _ _ _ _ _ _ _ _ _ _ _ _ _ _ _ _ _ _ _ _ _ _ _ _ _ _ _)
        isplitl [HS1]
        · iexists _; isplitr; · ipureintro; exact fun _ => rfl
          unfold owns; iexists _; isplitr; swap
          · iexact HS1
          · ipureintro; exact View.read_writes_of_cover _ _ _ _ _ (cover4_C_10 _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap
        · iexact H5
        · ipureintro; exact View.read_writes_of_cover _ _ _ _ _ (cover4_C_5 _ _ _ _ _ _ _ _ _ _ _ _ _ _ _ _ _ _ _ _ _ _ _ _ _ _ _ _ _ _ _)
      isplitl [H6]
      · unfold owns; iexists _; isplitr; swap
        · iexact H6
        · ipureintro; exact View.read_writes_of_cover _ _ _ _ _ (cover4_C_6 _ _ _ _ _ _ _ _ _ _ _ _ _ _ _ _ _ _ _ _ _ _ _ _ _ _ _ _ _ _ _)
      unfold owns; iexists _; isplitr; swap
      · iexact H7
      · ipureintro; exact View.read_writes_of_cover _ _ _ _ _ (cover4_C_7 _ _ _ _ _ _ _ _ _ _ _ _ _ _ _ _ _ _ _ _ _ _ _ _ _ _ _ _ _ _ _)
    · rewrite [idle4_6_of t q1]; (try rewrite [idle4_7_of t q1]); rewrite [noflush4_6_of t q1]; (try rewrite [noflush4_7_of t q1])
      simp only [before4_0, before4_1, before4_2, before4_3, before4_4, after4_0, after4_1, after4_2, after4_3, after4_4, after4_5, after4_6, after4_7]
      rewrite [show (dat4 V c).Φ t.succ = Phi4 V c t.succ from rfl, show (dat4 V c).Φ t.castSucc = Phi4 V c t.castSucc from rfl,
        show (dat4 V c).owesAt () t.succ = (dat4 V c).owesAt () t.castSucc from rfl]
      unfold Phi4; simp only [prev4T_castSucc, prev4T_succ, traj4_eq, step4_B V c t _ q0 q1, Fin.val_castSucc, Fin.val_succ]
      iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha0 q0
      obtain rfl := ha1 q0
      iapply ((kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) (prev4 V c t).1 (prev4 V c t).2).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%e9, HS0⟩, ⟨%e10, HS1⟩⟩
      isplitl [HS0 HS1 HR]
      · isplitl [HS0]
        · iexists _; isplitr; · ipureintro; exact fun _ => rfl
          unfold owns; iexists _; isplitr; swap
          · iexact HS0
          · ipureintro; exact View.read_writes_of_cover _ _ _ _ _ (cover4_B_9 _ _ _ _ _ _ _ _ _ _ _ _ _ _ _ _ _ _ _ _ _ _ _ _ _ _ _ _ _ _ _)
        isplitl [HS1]
        · iexists _; isplitr; · ipureintro; exact fun _ => rfl
          unfold owns; iexists _; isplitr; swap
          · iexact HS1
          · ipureintro; exact View.read_writes_of_cover _ _ _ _ _ (cover4_B_10 _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap
        · iexact H5
        · ipureintro; exact View.read_writes_of_cover _ _ _ _ _ (cover4_B_5 _ _ _ _ _ _ _ _ _ _ _ _ _ _ _ _ _ _ _ _ _ _ _ _ _ _ _ _ _ _ _)
      isplitl [H6]; · iexists _; iexact H6
      iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.BnRelu1.lean ====
/- The batch-normalisation-and-ReLU kernel of pipeline 1: stated at a parameter `V`, the
   TensorCore's buffer contents when the region is entered. The kernel reads a [5000, 128] block of the
   activations `h` and four [1, 128] rows (scale `g`, shift `b`, mean, variance) and stores
   `max ((h - mean) * rsqrt (var + eps) * g + b, 0)` over the whole output block. Here: each window's block
   at a grid point, the output block as a pure function of the five input blocks, the body's triple, the
   pipeline's proof data and the body obligation. -/
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [5000, 128] block: what the activations' load and the output's store access. -/
abbrev r1_blk : Rect S5000x128 := Rect.unit (s := S5000x128) ![0, 0] S5000x128.size inb_S5000x128_S5000x128_0_0
/-- The whole [1, 128] row: what each of the four row loads accesses. -/
abbrev r1_row : Rect S1x128 := Rect.unit (s := S1x128) ![0, 0] S1x128.size inb_S1x128_S1x128_0_0

/-! ## What the body leaves in the output window's buffer -/

/-- Window 5's staging buffer after the body, from the input windows' blocks `x0` (activations), `x1` (scale),
    `x2` (shift), `x3` (mean), `x4` (variance): its one store, of
    `max ((x0 - x3) * rsqrt (x4 + eps) * x1 + x2, 0)`, over the whole block. -/
def out1_5 (x0 : Vec F S5000x128 .f32) (x1 : Vec F S1x128 .f32) (x2 : Vec F S1x128 .f32) (x3 : Vec F S1x128 .f32) (x4 : Vec F S1x128 .f32) : Vec F S5000x128 .f32 :=
  View.canon [⟨r1_blk, k1_pay1 (View.ld x0 r1_blk) (View.ld x4 r1_row) (View.ld x3 r1_row) (View.ld x1 r1_row) (View.ld x2 r1_row)⟩]

/-- The one store is over the whole buffer, so it covers it. -/
theorem cover1_5 (p0 : Vec F S5000x128 .f32) (y : S5000x128.Idx) :
    ∃ pc ∈ ([⟨r1_blk, p0⟩] : List (View.Piece (Elt F) S5000x128 .f32)), y ∈ pc.1.set :=
  View.cover_of_tiled [⟨r1_blk, p0⟩] S5000x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.BnRelu3.lean ====
/- The batch-normalisation-and-ReLU kernel of pipeline 3: stated at a parameter `V`, the
   TensorCore's buffer contents when the region is entered. The kernel reads a [5000, 128] block of the
   activations `h` and four [1, 128] rows (scale `g`, shift `b`, mean, variance) and stores
   `max ((h - mean) * rsqrt (var + eps) * g + b, 0)` over the whole output block. Here: each window's block
   at a grid point, the output block as a pure function of the five input blocks, the body's triple, the
   pipeline's proof data and the body obligation. -/
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): where the window is not
    fetched its block index has not moved, the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): where the window is not
    fetched its block index has not moved, the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): where the window is not
    fetched its block index has not moved, the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): where the window is not
    fetched its block index has not moved, the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole [5000, 128] block: what the activations' load and the output's store access. -/
abbrev r3_blk : Rect S5000x128 := Rect.unit (s := S5000x128) ![0, 0] S5000x128.size inb_S5000x128_S5000x128_0_0
/-- The whole [1, 128] row: what each of the four row loads accesses. -/
abbrev r3_row : Rect S1x128 := Rect.unit (s := S1x128) ![0, 0] S1x128.size inb_S1x128_S1x128_0_0

/-! ## What the body leaves in the output window's buffer -/

/-- Window 5's staging buffer after the body, from the input windows' blocks `x0` (activations), `x1` (scale),
    `x2` (shift), `x3` (mean), `x4` (variance): its one store, of
    `max ((x0 - x3) * rsqrt (x4 + eps) * x1 + x2, 0)`, over the whole block. -/
def out3_5 (x0 : Vec F S5000x128 .f32) (x1 : Vec F S1x128 .f32) (x2 : Vec F S1x128 .f32) (x3 : Vec F S1x128 .f32) (x4 : Vec F S1x128 .f32) : Vec F S5000x128 .f32 :=
  View.canon [⟨r3_blk, k3_pay1 (View.ld x0 r3_blk) (View.ld x4 r3_row) (View.ld x3 r3_row) (View.ld x1 r3_row) (View.ld x2 r3_row)⟩]

/-- The one store is over the whole buffer, so it covers it. -/
theorem cover3_5 (p0 : Vec F S5000x128 .f32) (y : S5000x128.Idx) :
    ∃ pc ∈ ([⟨r3_blk, p0⟩] : List (View.Piece (Elt F) S5000x128 .f32)), y ∈ pc.1.set :=
  View.cover_of_tiled [⟨r3_blk, p0⟩] S5000x128.size (by rfl) y

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and the output's at `out3_5` of the input blocks; the invariant is
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.BnRelu5.lean ====
/- The batch-normalisation-and-ReLU kernel of pipeline 5: stated at a parameter `V`, the
   TensorCore's buffer contents when the region is entered. The kernel reads a [5000, 64] block of the
   activations `h` and four [1, 64] rows (scale `g`, shift `b`, mean, variance) and stores
   `max ((h - mean) * rsqrt (var + eps) * g + b, 0)` over the whole output block. Here: each window's block
   at a grid point, the output block as a pure function of the five input blocks, the body's triple, the
   pipeline's proof data and the body obligation. -/
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved, the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): where the window is not
    fetched its block index has not moved, the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): where the window is not
    fetched its block index has not moved, the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): where the window is not
    fetched its block index has not moved, the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): where the window is not
    fetched its block index has not moved, the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [5000, 64] block: what the activations' load and the output's store access. -/
abbrev r5_blk : Rect S5000x64 := Rect.unit (s := S5000x64) ![0, 0] S5000x64.size inb_S5000x64_S5000x64_0_0
/-- The whole [1, 64] row: what each of the four row loads accesses. -/
abbrev r5_row : Rect S1x64 := Rect.unit (s := S1x64) ![0, 0] S1x64.size inb_S1x64_S1x64_0_0

/-! ## What the body leaves in the output window's buffer -/

/-- Window 5's staging buffer after the body, from the input windows' blocks `x0` (activations), `x1` (scale),
    `x2` (shift), `x3` (mean), `x4` (variance): its one store, of
    `max ((x0 - x3) * rsqrt (x4 + eps) * x1 + x2, 0)`, over the whole block. -/
def out5_5 (x0 : Vec F S5000x64 .f32) (x1 : Vec F S1x64 .f32) (x2 : Vec F S1x64 .f32) (x3 : Vec F S1x64 .f32) (x4 : Vec F S1x64 .f32) : Vec F S5000x64 .f32 :=
  View.canon [⟨r5_blk, k5_pay1 (View.ld x0 r5_blk) (View.ld x4 r5_row) (View.ld x3 r5_row) (View.ld x1 r5_row) (View.ld x2 r5_row)⟩]

/-- The one store is over the whole buffer, so it covers it. -/
theorem cover5_5 (p0 : Vec F S5000x64 .f32) (y : S5000x64.Idx) :
    ∃ pc ∈ ([⟨r5_blk, p0⟩] : List (View.Piece (Elt F) S5000x64 .f32)), y ∈ pc.1.set :=
  View.cover_of_tiled [⟨r5_blk, p0⟩] S5000x64.size (by rfl) y

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at
    point `t` each input's buffer at its block and the output's at `out5_5` of the input blocks; the invariant is
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Classifier6.lean ====
/- The classifier kernel's half of the frame certificate of Kernel: pipeline 6, `cc6__classifier_kernel`, on a grid
   of 20 points. Six windows: the activations `h` (a block of 5000 rows by 64 features per point), the first layer's
   weights (64 by 32) and bias (1 by 32), the second layer's weights (32 by 1) and bias (1 by 1) — each whole at every
   point —, and the output (a block of 5000 rows by 1 per point). The body reads the five inputs whole and stores the
   whole output block once: `logistic (max (h · W₁ + b₁) 0 · W₂ + b₂)`. Stated at a PARAMETER `V`, the TensorCore's
   buffer contents when the region is entered, and at any float model `F`. -/
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof data
    whose array is `V`'s and whose body leaves the block in place: unfetched, the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof data
    whose array is `V`'s and whose body leaves the block in place: unfetched, the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof data
    whose array is `V`'s and whose body leaves the block in place: unfetched, the block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof data
    whose array is `V`'s and whose body leaves the block in place: unfetched, the block index has not moved. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof data
    whose array is `V`'s and whose body leaves the block in place: unfetched, the block index has not moved. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each window's buffer, whole -/

abbrev r6_0 : Rect S5000x64 := Rect.unit (s := S5000x64) ![0, 0] S5000x64.size inb_S5000x64_S5000x64_0_0
abbrev r6_1 : Rect S64x32 := Rect.unit (s := S64x32) ![0, 0] S64x32.size inb_S64x32_S64x32_0_0
abbrev r6_2 : Rect S1x32 := Rect.unit (s := S1x32) ![0, 0] S1x32.size inb_S1x32_S1x32_0_0
abbrev r6_3 : Rect S32x1 := Rect.unit (s := S32x1) ![0, 0] S32x1.size inb_S32x1_S32x1_0_0
abbrev r6_4 : Rect S1x1 := Rect.unit (s := S1x1) ![0, 0] S1x1.size inb_S1x1_S1x1_0_0
abbrev r6_5 : Rect S5000x1 := Rect.unit (s := S5000x1) ![0, 0] S5000x1.size inb_S5000x1_S5000x1_0_0

/-! ## What the body leaves in the output window's buffer -/

/-- The output window's staging buffer after the body, from the five input blocks: its one store, of the whole block,
    `logistic (max (x0 · x1 + x2) 0 · x3 + x4)` with the biases broadcast along the rows. -/
def out6_5 (x0 : Vec F S5000x64 .f32) (x1 : Vec F S64x32 .f32) (x2 : Vec F S1x32 .f32) (x3 : Vec F S32x1 .f32) (x4 : Vec F S1x1 .f32) : Vec F S5000x1 .f32 :=
  View.canon [⟨r6_5, k6_pay1 (View.ld x0 r6_0) (View.ld x1 r6_1) (View.ld x2 r6_2) (View.ld x3 r6_3) (View.ld x4 r6_4)⟩]

/-- The one store is of the whole buffer, so it covers it. -/
theorem cover6_5 (p0 : Vec F S5000x1 .f32) (y : S5000x1.Idx) :
    ∃ pc ∈ ([⟨r6_5, p0⟩] : List (View.Piece (Elt F) S5000x1 .f32)), y ∈ pc.1.set :=
  View.cover_of_tiled [⟨r6_5, p0⟩] S5000x1.size (by rfl) y

/-! ## The body's triple -/

set_option maxHeartbeats 1000000 in
/-- The kernel body on whole staging memrefs, the inputs' at read contents `x0 … x4` and the output's at anything, runs
    to the continuation holding the inputs' as they were and the output's at `out6_5` of the inputs'. -/
theorem sound_kernel6 (c : Dev nD) (E : Set ℕ) (i : grid6.Coords) (arg1 : Memref sig .tc .vmem S5000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S5000x1 .f32) (harg6 : arg6.IsWhole)
    (x0 : Vec F S5000x64 .f32) (x1 : Vec F S64x32 .f32) (x2 : Vec F S1x32 .f32) (x3 : Vec F S32x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__classifier_kernel i arg1 harg1 arg2 harg2 arg3 harg3 arg4 harg4 arg5 harg5 arg6 harg6) K := by
  simp only [cc6__classifier_kernel_eq_skeleton]; unfold cc6__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at point `t`
    each input's buffer at its block and the output's at `out6_5` of the five input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Main.lean ====
import proofs.«121727_j57028575756303_1_alg».proof.Proof.Gen.Kernel.Launch
import proofs.«121727_j57028575756303_1_alg».proof.Proof.Gen.Kernel.Skeleton
import proofs.«121727_j57028575756303_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.Gen.Kernel.Regions
import proofs.«121727_j57028575756303_1_alg».proof.Proof.K.Stats0
import proofs.«121727_j57028575756303_1_alg».proof.Proof.K.Stats2
import proofs.«121727_j57028575756303_1_alg».proof.Proof.K.Stats4
import proofs.«121727_j57028575756303_1_alg».proof.Proof.K.BnRelu1
import proofs.«121727_j57028575756303_1_alg».proof.Proof.K.BnRelu3
import proofs.«121727_j57028575756303_1_alg».proof.Proof.K.BnRelu5
import proofs.«121727_j57028575756303_1_alg».proof.Proof.K.Classifier6
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: @main's fourteen segments (seven host stretches, seven pipelines)

The buffers' contents at each segment boundary are a fold from the launch memory: a host stretch applies its
operations, a pipeline replaces its arrays by what its write-backs leave. -/

/-- Core `c`'s buffers at launch. -/
abbrev W0 : Dev nD → Valuation τ sig (Elt F) := fun c b => (s₀ m ρ).mem ((c : Dev nD), b)

/-- After the host stretch `hostOps0`: where pipeline 0 is entered. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At pipeline 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: where pipeline 1 is entered. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At pipeline 1's exit: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: where pipeline 2 is entered. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At pipeline 2's exit: its arrays at what its write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: where pipeline 3 is entered. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At pipeline 3's exit: its arrays at what its write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`: where pipeline 4 is entered. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At pipeline 4's exit: its arrays at what its write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch `hostOps5`: where pipeline 5 is entered. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At pipeline 5's exit: its arrays at what its write-backs leave, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch `hostOps6`: where pipeline 6 is entered. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At pipeline 6's exit: its arrays at what its write-backs leave, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-! ## No segment changes an argument array -/

theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := W14_of_ne m ρ c main_arg0 (by decide)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide)
    _ = m ((c : Thread nD τ).loc main_arg0) := rfl
theorem W14_main_arg1 (c : Dev nD) : W14 m ρ c (Proc.devRef .tc main_arg1) = m ((c : Thread nD τ).loc main_arg1) :=
  calc W14 m ρ c (Proc.devRef .tc main_arg1)
    _ = W13 m ρ c (Proc.devRef .tc main_arg1) := W14_of_ne m ρ c main_arg1 (by decide)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W14_main_arg3 (c : Dev nD) : W14 m ρ c (Proc.devRef .tc main_arg3) = m ((c : Thread nD τ).loc main_arg3) :=
  calc W14 m ρ c (Proc.devRef .tc main_arg3)
    _ = W13 m ρ c (Proc.devRef .tc main_arg3) := W14_of_ne m ρ c main_arg3 (by decide)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W14_main_arg4 (c : Dev nD) : W14 m ρ c (Proc.devRef .tc main_arg4) = m ((c : Thread nD τ).loc main_arg4) :=
  calc W14 m ρ c (Proc.devRef .tc main_arg4)
    _ = W13 m ρ c (Proc.devRef .tc main_arg4) := W14_of_ne m ρ c main_arg4 (by decide)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W14_main_arg5 (c : Dev nD) : W14 m ρ c (Proc.devRef .tc main_arg5) = m ((c : Thread nD τ).loc main_arg5) :=
  calc W14 m ρ c (Proc.devRef .tc main_arg5)
    _ = W13 m ρ c (Proc.devRef .tc main_arg5) := W14_of_ne m ρ c main_arg5 (by decide)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W14_main_arg6 (c : Dev nD) : W14 m ρ c (Proc.devRef .tc main_arg6) = m ((c : Thread nD τ).loc main_arg6) :=
  calc W14 m ρ c (Proc.devRef .tc main_arg6)
    _ = W13 m ρ c (Proc.devRef .tc main_arg6) := W14_of_ne m ρ c main_arg6 (by decide)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W14_main_arg7 (c : Dev nD) : W14 m ρ c (Proc.devRef .tc main_arg7) = m ((c : Thread nD τ).loc main_arg7) :=
  calc W14 m ρ c (Proc.devRef .tc main_arg7)
    _ = W13 m ρ c (Proc.devRef .tc main_arg7) := W14_of_ne m ρ c main_arg7 (by decide)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W14_main_arg8 (c : Dev nD) : W14 m ρ c (Proc.devRef .tc main_arg8) = m ((c : Thread nD τ).loc main_arg8) :=
  calc W14 m ρ c (Proc.devRef .tc main_arg8)
    _ = W13 m ρ c (Proc.devRef .tc main_arg8) := W14_of_ne m ρ c main_arg8 (by decide)
    _ = W12 m ρ c (Proc.devRef .tc main_arg8) := StableHlo.after_of_writes_sub hostOps6 _ hostOps6_writes (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W14_main_arg9 (c : Dev nD) : W14 m ρ c (Proc.devRef .tc main_arg9) = m ((c : Thread nD τ).loc main_arg9) :=
  calc W14 m ρ c (Proc.devRef .tc main_arg9)
    _ = W13 m ρ c (Proc.devRef .tc main_arg9) := W14_of_ne m ρ c main_arg9 (by decide)
    _ = W12 m ρ c (Proc.devRef .tc main_arg9) := StableHlo.after_of_writes_sub hostOps6 _ hostOps6_writes (by decide)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W14_main_arg10 (c : Dev nD) : W14 m ρ c (Proc.devRef .tc main_arg10) = m ((c : Thread nD τ).loc main_arg10) :=
  calc W14 m ρ c (Proc.devRef .tc main_arg10)
    _ = W13 m ρ c (Proc.devRef .tc main_arg10) := W14_of_ne m ρ c main_arg10 (by decide)
    _ = W12 m ρ c (Proc.devRef .tc main_arg10) := StableHlo.after_of_writes_sub hostOps6 _ hostOps6_writes (by decide)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W14_main_arg11 (c : Dev nD) : W14 m ρ c (Proc.devRef .tc main_arg11) = m ((c : Thread nD τ).loc main_arg11) :=
  calc W14 m ρ c (Proc.devRef .tc main_arg11)
    _ = W13 m ρ c (Proc.devRef .tc main_arg11) := W14_of_ne m ρ c main_arg11 (by decide)
    _ = W12 m ρ c (Proc.devRef .tc main_arg11) := StableHlo.after_of_writes_sub hostOps6 _ hostOps6_writes (by decide)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W14_main_arg12 (c : Dev nD) : W14 m ρ c (Proc.devRef .tc main_arg12) = m ((c : Thread nD τ).loc main_arg12) :=
  calc W14 m ρ c (Proc.devRef .tc main_arg12)
    _ = W13 m ρ c (Proc.devRef .tc main_arg12) := W14_of_ne m ρ c main_arg12 (by decide)
    _ = W12 m ρ c (Proc.devRef .tc main_arg12) := StableHlo.after_of_writes_sub hostOps6 _ hostOps6_writes (by decide)
    _ = W11 m ρ c (Proc.devRef .tc main_arg12) := W12_of_ne m ρ c main_arg12 (by decide)
    _ = W10 m ρ c (Proc.devRef .tc main_arg12) := StableHlo.after_of_writes_sub hostOps5 _ hostOps5_writes (by decide)
    _ = W9 m ρ c (Proc.devRef .tc main_arg12) := W10_of_ne m ρ c main_arg12 (by decide)
    _ = W8 m ρ c (Proc.devRef .tc main_arg12) := StableHlo.after_of_writes_sub hostOps4 _ hostOps4_writes (by decide)
    _ = W7 m ρ c (Proc.devRef .tc main_arg12) := W8_of_ne m ρ c main_arg12 (by decide)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W14_main_arg13 (c : Dev nD) : W14 m ρ c (Proc.devRef .tc main_arg13) = m ((c : Thread nD τ).loc main_arg13) :=
  calc W14 m ρ c (Proc.devRef .tc main_arg13)
    _ = W13 m ρ c (Proc.devRef .tc main_arg13) := W14_of_ne m ρ c main_arg13 (by decide)
    _ = W12 m ρ c (Proc.devRef .tc main_arg13) := StableHlo.after_of_writes_sub hostOps6 _ hostOps6_writes (by decide)
    _ = W11 m ρ c (Proc.devRef .tc main_arg13) := W12_of_ne m ρ c main_arg13 (by decide)
    _ = W10 m ρ c (Proc.devRef .tc main_arg13) := StableHlo.after_of_writes_sub hostOps5 _ hostOps5_writes (by decide)
    _ = W9 m ρ c (Proc.devRef .tc main_arg13) := W10_of_ne m ρ c main_arg13 (by decide)
    _ = W8 m ρ c (Proc.devRef .tc main_arg13) := StableHlo.after_of_writes_sub hostOps4 _ hostOps4_writes (by decide)
    _ = W7 m ρ c (Proc.devRef .tc main_arg13) := W8_of_ne m ρ c main_arg13 (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl
theorem W14_main_arg14 (c : Dev nD) : W14 m ρ c (Proc.devRef .tc main_arg14) = m ((c : Thread nD τ).loc main_arg14) :=
  calc W14 m ρ c (Proc.devRef .tc main_arg14)
    _ = W13 m ρ c (Proc.devRef .tc main_arg14) := W14_of_ne m ρ c main_arg14 (by decide)
    _ = W12 m ρ c (Proc.devRef .tc main_arg14) := StableHlo.after_of_writes_sub hostOps6 _ hostOps6_writes (by decide)
    _ = W11 m ρ c (Proc.devRef .tc main_arg14) := W12_of_ne m ρ c main_arg14 (by decide)
    _ = W10 m ρ c (Proc.devRef .tc main_arg14) := StableHlo.after_of_writes_sub hostOps5 _ hostOps5_writes (by decide)
    _ = W9 m ρ c (Proc.devRef .tc main_arg14) := W10_of_ne m ρ c main_arg14 (by decide)
    _ = W8 m ρ c (Proc.devRef .tc main_arg14) := StableHlo.after_of_writes_sub hostOps4 _ hostOps4_writes (by decide)
    _ = W7 m ρ c (Proc.devRef .tc main_arg14) := W8_of_ne m ρ c main_arg14 (by decide)
    _ = W6 m ρ c (Proc.devRef .tc main_arg14) := StableHlo.after_of_writes_sub hostOps3 _ hostOps3_writes (by decide)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl
theorem W14_main_arg15 (c : Dev nD) : W14 m ρ c (Proc.devRef .tc main_arg15) = m ((c : Thread nD τ).loc main_arg15) :=
  calc W14 m ρ c (Proc.devRef .tc main_arg15)
    _ = W13 m ρ c (Proc.devRef .tc main_arg15) := W14_of_ne m ρ c main_arg15 (by decide)
    _ = W12 m ρ c (Proc.devRef .tc main_arg15) := StableHlo.after_of_writes_sub hostOps6 _ hostOps6_writes (by decide)
    _ = W11 m ρ c (Proc.devRef .tc main_arg15) := W12_of_ne m ρ c main_arg15 (by decide)
    _ = W10 m ρ c (Proc.devRef .tc main_arg15) := StableHlo.after_of_writes_sub hostOps5 _ hostOps5_writes (by decide)
    _ = W9 m ρ c (Proc.devRef .tc main_arg15) := W10_of_ne m ρ c main_arg15 (by decide)
    _ = W8 m ρ c (Proc.devRef .tc main_arg15) := StableHlo.after_of_writes_sub hostOps4 _ hostOps4_writes (by decide)
    _ = W7 m ρ c (Proc.devRef .tc main_arg15) := W8_of_ne m ρ c main_arg15 (by decide)
    _ = W6 m ρ c (Proc.devRef .tc main_arg15) := StableHlo.after_of_writes_sub hostOps3 _ hostOps3_writes (by decide)
    _ = W5 m ρ c (Proc.devRef .tc main_arg15) := W6_of_ne m ρ c main_arg15 (by decide)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl
theorem W14_main_arg16 (c : Dev nD) : W14 m ρ c (Proc.devRef .tc main_arg16) = m ((c : Thread nD τ).loc main_arg16) :=
  calc W14 m ρ c (Proc.devRef .tc main_arg16)
    _ = W13 m ρ c (Proc.devRef .tc main_arg16) := W14_of_ne m ρ c main_arg16 (by decide)
    _ = W12 m ρ c (Proc.devRef .tc main_arg16) := StableHlo.after_of_writes_sub hostOps6 _ hostOps6_writes (by decide)
    _ = W11 m ρ c (Proc.devRef .tc main_arg16) := W12_of_ne m ρ c main_arg16 (by decide)
    _ = W10 m ρ c (Proc.devRef .tc main_arg16) := StableHlo.after_of_writes_sub hostOps5 _ hostOps5_writes (by decide)
    _ = W9 m ρ c (Proc.devRef .tc main_arg16) := W10_of_ne m ρ c main_arg16 (by decide)
    _ = W8 m ρ c (Proc.devRef .tc main_arg16) := StableHlo.after_of_writes_sub hostOps4 _ hostOps4_writes (by decide)
    _ = W7 m ρ c (Proc.devRef .tc main_arg16) := W8_of_ne m ρ c main_arg16 (by decide)
    _ = W6 m ρ c (Proc.devRef .tc main_arg16) := StableHlo.after_of_writes_sub hostOps3 _ hostOps3_writes (by decide)
    _ = W5 m ρ c (Proc.devRef .tc main_arg16) := W6_of_ne m ρ c main_arg16 (by decide)
    _ = W4 m ρ c (Proc.devRef .tc main_arg16) := StableHlo.after_of_writes_sub hostOps2 _ hostOps2_writes (by decide)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl
theorem W14_main_arg17 (c : Dev nD) : W14 m ρ c (Proc.devRef .tc main_arg17) = m ((c : Thread nD τ).loc main_arg17) :=
  calc W14 m ρ c (Proc.devRef .tc main_arg17)
    _ = W13 m ρ c (Proc.devRef .tc main_arg17) := W14_of_ne m ρ c main_arg17 (by decide)
    _ = W12 m ρ c (Proc.devRef .tc main_arg17) := StableHlo.after_of_writes_sub hostOps6 _ hostOps6_writes (by decide)
    _ = W11 m ρ c (Proc.devRef .tc main_arg17) := W12_of_ne m ρ c main_arg17 (by decide)
    _ = W10 m ρ c (Proc.devRef .tc main_arg17) := StableHlo.after_of_writes_sub hostOps5 _ hostOps5_writes (by decide)
    _ = W9 m ρ c (Proc.devRef .tc main_arg17) := W10_of_ne m ρ c main_arg17 (by decide)
    _ = W8 m ρ c (Proc.devRef .tc main_arg17) := StableHlo.after_of_writes_sub hostOps4 _ hostOps4_writes (by decide)
    _ = W7 m ρ c (Proc.devRef .tc main_arg17) := W8_of_ne m ρ c main_arg17 (by decide)
    _ = W6 m ρ c (Proc.devRef .tc main_arg17) := StableHlo.after_of_writes_sub hostOps3 _ hostOps3_writes (by decide)
    _ = W5 m ρ c (Proc.devRef .tc main_arg17) := W6_of_ne m ρ c main_arg17 (by decide)
    _ = W4 m ρ c (Proc.devRef .tc main_arg17) := StableHlo.after_of_writes_sub hostOps2 _ hostOps2_writes (by decide)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl
theorem W14_main_arg18 (c : Dev nD) : W14 m ρ c (Proc.devRef .tc main_arg18) = m ((c : Thread nD τ).loc main_arg18) :=
  calc W14 m ρ c (Proc.devRef .tc main_arg18)
    _ = W13 m ρ c (Proc.devRef .tc main_arg18) := W14_of_ne m ρ c main_arg18 (by decide)
    _ = W12 m ρ c (Proc.devRef .tc main_arg18) := StableHlo.after_of_writes_sub hostOps6 _ hostOps6_writes (by decide)
    _ = W11 m ρ c (Proc.devRef .tc main_arg18) := W12_of_ne m ρ c main_arg18 (by decide)
    _ = W10 m ρ c (Proc.devRef .tc main_arg18) := StableHlo.after_of_writes_sub hostOps5 _ hostOps5_writes (by decide)
    _ = W9 m ρ c (Proc.devRef .tc main_arg18) := W10_of_ne m ρ c main_arg18 (by decide)
    _ = W8 m ρ c (Proc.devRef .tc main_arg18) := StableHlo.after_of_writes_sub hostOps4 _ hostOps4_writes (by decide)
    _ = W7 m ρ c (Proc.devRef .tc main_arg18) := W8_of_ne m ρ c main_arg18 (by decide)
    _ = W6 m ρ c (Proc.devRef .tc main_arg18) := StableHlo.after_of_writes_sub hostOps3 _ hostOps3_writes (by decide)
    _ = W5 m ρ c (Proc.devRef .tc main_arg18) := W6_of_ne m ρ c main_arg18 (by decide)
    _ = W4 m ρ c (Proc.devRef .tc main_arg18) := StableHlo.after_of_writes_sub hostOps2 _ hostOps2_writes (by decide)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl
theorem W14_main_arg19 (c : Dev nD) : W14 m ρ c (Proc.devRef .tc main_arg19) = m ((c : Thread nD τ).loc main_arg19) :=
  calc W14 m ρ c (Proc.devRef .tc main_arg19)
    _ = W13 m ρ c (Proc.devRef .tc main_arg19) := W14_of_ne m ρ c main_arg19 (by decide)
    _ = W12 m ρ c (Proc.devRef .tc main_arg19) := StableHlo.after_of_writes_sub hostOps6 _ hostOps6_writes (by decide)
    _ = W11 m ρ c (Proc.devRef .tc main_arg19) := W12_of_ne m ρ c main_arg19 (by decide)
    _ = W10 m ρ c (Proc.devRef .tc main_arg19) := StableHlo.after_of_writes_sub hostOps5 _ hostOps5_writes (by decide)
    _ = W9 m ρ c (Proc.devRef .tc main_arg19) := W10_of_ne m ρ c main_arg19 (by decide)
    _ = W8 m ρ c (Proc.devRef .tc main_arg19) := StableHlo.after_of_writes_sub hostOps4 _ hostOps4_writes (by decide)
    _ = W7 m ρ c (Proc.devRef .tc main_arg19) := W8_of_ne m ρ c main_arg19 (by decide)
    _ = W6 m ρ c (Proc.devRef .tc main_arg19) := StableHlo.after_of_writes_sub hostOps3 _ hostOps3_writes (by decide)
    _ = W5 m ρ c (Proc.devRef .tc main_arg19) := W6_of_ne m ρ c main_arg19 (by decide)
    _ = W4 m ρ c (Proc.devRef .tc main_arg19) := StableHlo.after_of_writes_sub hostOps2 _ hostOps2_writes (by decide)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = W0 m ρ c (Proc.devRef .tc main_arg19) := StableHlo.after_of_writes_sub hostOps0 _ hostOps0_writes (by decide)
    _ = m ((c : Thread nD τ).loc main_arg19) := rfl
theorem W14_main_arg20 (c : Dev nD) : W14 m ρ c (Proc.devRef .tc main_arg20) = m ((c : Thread nD τ).loc main_arg20) :=
  calc W14 m ρ c (Proc.devRef .tc main_arg20)
    _ = W13 m ρ c (Proc.devRef .tc main_arg20) := W14_of_ne m ρ c main_arg20 (by decide)
    _ = W12 m ρ c (Proc.devRef .tc main_arg20) := StableHlo.after_of_writes_sub hostOps6 _ hostOps6_writes (by decide)
    _ = W11 m ρ c (Proc.devRef .tc main_arg20) := W12_of_ne m ρ c main_arg20 (by decide)
    _ = W10 m ρ c (Proc.devRef .tc main_arg20) := StableHlo.after_of_writes_sub hostOps5 _ hostOps5_writes (by decide)
    _ = W9 m ρ c (Proc.devRef .tc main_arg20) := W10_of_ne m ρ c main_arg20 (by decide)
    _ = W8 m ρ c (Proc.devRef .tc main_arg20) := StableHlo.after_of_writes_sub hostOps4 _ hostOps4_writes (by decide)
    _ = W7 m ρ c (Proc.devRef .tc main_arg20) := W8_of_ne m ρ c main_arg20 (by decide)
    _ = W6 m ρ c (Proc.devRef .tc main_arg20) := StableHlo.after_of_writes_sub hostOps3 _ hostOps3_writes (by decide)
    _ = W5 m ρ c (Proc.devRef .tc main_arg20) := W6_of_ne m ρ c main_arg20 (by decide)
    _ = W4 m ρ c (Proc.devRef .tc main_arg20) := StableHlo.after_of_writes_sub hostOps2 _ hostOps2_writes (by decide)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = W0 m ρ c (Proc.devRef .tc main_arg20) := StableHlo.after_of_writes_sub hostOps0 _ hostOps0_writes (by decide)
    _ = m ((c : Thread nD τ).loc main_arg20) := rfl

/-! ## The proof data family and the thread state -/

abbrev adm' : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m ρ c) ∗ ∃ r, prngReg c r)

/-! ## The pipelines as segments -/

set_option backward.isDefEq.respectTransparency.types false in
/-- Pipeline 0 over the thread state: entered with every unscoped buffer at `W1`, left at `W2`; its two
    accumulator rows are split out of the scoped buffers into the invariant and put back at the end. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(emp)
  Y c := iprop(emp)
  Z c := iprop(Pipeline.unscopedRest (Ix := Unit) (Name := ℕ) (U := UR sig nD τ) (Lvl := ℕ) spec0 c (V1 m ρ c) ∗ ∃ r, prngReg c r)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = Phi0 (V1 m ρ) c 0 from rfl]; unfold Phi0
    rw [show (Pipeline.scopedRest (Ix := Unit) (Name := ℕ) (U := UR sig nD τ) (Lvl := ℕ) (Val := Elt F) (Pipeline.pin (pcfgs (F := F)) adm' 0).spec c : sProp 𝕄)
          = Pipeline.scopedRest (Ix := Unit) (Name := ℕ) (U := UR sig nD τ) (Lvl := ℕ) (Val := Elt F) spec0 c from rfl, scopedRest0_split]
    iintro ⟨-, -, ⟨⟨%f0, H0⟩, ⟨%f1, H1⟩⟩, Hr⟩
    isplitl [H0]
    · iexists f0; isplitr; · ipureintro; exact fun h => absurd rfl h
      rw [owns_whole_eq]; iexists f0; isplitr; · ipureintro; rfl
      iexact H0
    isplitl [H1]
    · iexists f1; isplitr; · ipureintro; exact fun h => absurd rfl h
      rw [owns_whole_eq]; iexists f1; isplitr; · ipureintro; rfl
      iexact H1
    iexact Hr
  hout c := by
    rw [Pipeline.ownSems0_none, show (pdats m ρ 0 c).Φ (Fin.last _) = Phi0 (V1 m ρ) c (Fin.last _) from rfl]; unfold Phi0
    rw [show (Pipeline.scopedRest (Ix := Unit) (Name := ℕ) (U := UR sig nD τ) (Lvl := ℕ) (Val := Elt F) (Pipeline.pin (pcfgs (F := F)) adm' 0).spec c : sProp 𝕄)
          = Pipeline.scopedRest (Ix := Unit) (Name := ℕ) (U := UR sig nD τ) (Lvl := ℕ) (Val := Elt F) spec0 c from rfl, scopedRest0_split]
    simp only [owns_whole_eq]
    iintro ⟨⟨%a0, -, %f0, -, H0⟩, ⟨%a1, -, %f1, -, H1⟩, Hr⟩
    isplitr; · iempintro
    isplitr; · iempintro
    isplitl [H0 H1]
    · isplitl [H0]
      · iexists f0; iexact H0
      · iexists f1; iexact H1
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Pipeline 1 over the thread state: entered with every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered with every unscoped buffer at `W5`, left at `W6`; its two
    accumulator rows are split out of the scoped buffers into the invariant and put back at the end. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(emp)
  Y c := iprop(emp)
  Z c := iprop(Pipeline.unscopedRest (Ix := Unit) (Name := ℕ) (U := UR sig nD τ) (Lvl := ℕ) spec2 c (V5 m ρ c) ∗ ∃ r, prngReg c r)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 2 c).Φ 0 = Phi2 (V5 m ρ) c 0 from rfl]; unfold Phi2
    rw [show (Pipeline.scopedRest (Ix := Unit) (Name := ℕ) (U := UR sig nD τ) (Lvl := ℕ) (Val := Elt F) (Pipeline.pin (pcfgs (F := F)) adm' 2).spec c : sProp 𝕄)
          = Pipeline.scopedRest (Ix := Unit) (Name := ℕ) (U := UR sig nD τ) (Lvl := ℕ) (Val := Elt F) spec2 c from rfl, scopedRest2_split]
    iintro ⟨-, -, ⟨⟨%f0, H0⟩, ⟨%f1, H1⟩⟩, Hr⟩
    isplitl [H0]
    · iexists f0; isplitr; · ipureintro; exact fun h => absurd rfl h
      rw [owns_whole_eq]; iexists f0; isplitr; · ipureintro; rfl
      iexact H0
    isplitl [H1]
    · iexists f1; isplitr; · ipureintro; exact fun h => absurd rfl h
      rw [owns_whole_eq]; iexists f1; isplitr; · ipureintro; rfl
      iexact H1
    iexact Hr
  hout c := by
    rw [Pipeline.ownSems0_none, show (pdats m ρ 2 c).Φ (Fin.last _) = Phi2 (V5 m ρ) c (Fin.last _) from rfl]; unfold Phi2
    rw [show (Pipeline.scopedRest (Ix := Unit) (Name := ℕ) (U := UR sig nD τ) (Lvl := ℕ) (Val := Elt F) (Pipeline.pin (pcfgs (F := F)) adm' 2).spec c : sProp 𝕄)
          = Pipeline.scopedRest (Ix := Unit) (Name := ℕ) (U := UR sig nD τ) (Lvl := ℕ) (Val := Elt F) spec2 c from rfl, scopedRest2_split]
    simp only [owns_whole_eq]
    iintro ⟨⟨%a0, -, %f0, -, H0⟩, ⟨%a1, -, %f1, -, H1⟩, Hr⟩
    isplitr; · iempintro
    isplitr; · iempintro
    isplitl [H0 H1]
    · isplitl [H0]
      · iexists f0; iexact H0
      · iexists f1; iexact H1
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Pipeline 3 over the thread state: entered with every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 4 over the thread state: entered with every unscoped buffer at `W9`, left at `W10`; its two
    accumulator rows are split out of the scoped buffers into the invariant and put back at the end. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(emp)
  Y c := iprop(emp)
  Z c := iprop(Pipeline.unscopedRest (Ix := Unit) (Name := ℕ) (U := UR sig nD τ) (Lvl := ℕ) spec4 c (V9 m ρ c) ∗ ∃ r, prngReg c r)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 4 c).Φ 0 = Phi4 (V9 m ρ) c 0 from rfl]; unfold Phi4
    rw [show (Pipeline.scopedRest (Ix := Unit) (Name := ℕ) (U := UR sig nD τ) (Lvl := ℕ) (Val := Elt F) (Pipeline.pin (pcfgs (F := F)) adm' 4).spec c : sProp 𝕄)
          = Pipeline.scopedRest (Ix := Unit) (Name := ℕ) (U := UR sig nD τ) (Lvl := ℕ) (Val := Elt F) spec4 c from rfl, scopedRest4_split]
    iintro ⟨-, -, ⟨⟨%f0, H0⟩, ⟨%f1, H1⟩⟩, Hr⟩
    isplitl [H0]
    · iexists f0; isplitr; · ipureintro; exact fun h => absurd rfl h
      rw [owns_whole_eq]; iexists f0; isplitr; · ipureintro; rfl
      iexact H0
    isplitl [H1]
    · iexists f1; isplitr; · ipureintro; exact fun h => absurd rfl h
      rw [owns_whole_eq]; iexists f1; isplitr; · ipureintro; rfl
      iexact H1
    iexact Hr
  hout c := by
    rw [Pipeline.ownSems0_none, show (pdats m ρ 4 c).Φ (Fin.last _) = Phi4 (V9 m ρ) c (Fin.last _) from rfl]; unfold Phi4
    rw [show (Pipeline.scopedRest (Ix := Unit) (Name := ℕ) (U := UR sig nD τ) (Lvl := ℕ) (Val := Elt F) (Pipeline.pin (pcfgs (F := F)) adm' 4).spec c : sProp 𝕄)
          = Pipeline.scopedRest (Ix := Unit) (Name := ℕ) (U := UR sig nD τ) (Lvl := ℕ) (Val := Elt F) spec4 c from rfl, scopedRest4_split]
    simp only [owns_whole_eq]
    iintro ⟨⟨%a0, -, %f0, -, H0⟩, ⟨%a1, -, %f1, -, H1⟩, Hr⟩
    isplitr; · iempintro
    isplitr; · iempintro
    isplitl [H0 H1]
    · isplitl [H0]
      · iexists f0; iexact H0
      · iexists f1; iexact H1
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Pipeline 5 over the thread state: entered with every unscoped buffer at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 6 over the thread state: entered with every unscoped buffer at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- THE FRAME at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c),
    (h c _ (mem_uc main_arg9 (by decide))).trans (W14_main_arg9 m ρ c),
    (h c _ (mem_uc main_arg10 (by decide))).trans (W14_main_arg10 m ρ c),
    (h c _ (mem_uc main_arg11 (by decide))).trans (W14_main_arg11 m ρ c),
    (h c _ (mem_uc main_arg12 (by decide))).trans (W14_main_arg12 m ρ c),
    (h c _ (mem_uc main_arg13 (by decide))).trans (W14_main_arg13 m ρ c),
    (h c _ (mem_uc main_arg14 (by decide))).trans (W14_main_arg14 m ρ c),
    (h c _ (mem_uc main_arg15 (by decide))).trans (W14_main_arg15 m ρ c),
    (h c _ (mem_uc main_arg16 (by decide))).trans (W14_main_arg16 m ρ c),
    (h c _ (mem_uc main_arg17 (by decide))).trans (W14_main_arg17 m ρ c),
    (h c _ (mem_uc main_arg18 (by decide))).trans (W14_main_arg18 m ρ c),
    (h c _ (mem_uc main_arg19 (by decide))).trans (W14_main_arg19 m ρ c),
    (h c _ (mem_uc main_arg20 (by decide))).trans (W14_main_arg20 m ρ c)⟩) (run_all m ρ)

/-- The run with the result named: it ends at what the last pipeline's write-backs leave. -/
theorem run_value : θ_run defs (onTc (τ := τ) (main (F := F))) ⟨m, fun _ => 0, ρ⟩ (fun r => ∀ c : Dev nD,
      r.2.mem ((c.tc : Thread nD τ).loc main_v96) = W14 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨h c _ (mem_uc main_v96 (by decide)), (h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c),
    (h c _ (mem_uc main_arg9 (by decide))).trans (W14_main_arg9 m ρ c),
    (h c _ (mem_uc main_arg10 (by decide))).trans (W14_main_arg10 m ρ c),
    (h c _ (mem_uc main_arg11 (by decide))).trans (W14_main_arg11 m ρ c),
    (h c _ (mem_uc main_arg12 (by decide))).trans (W14_main_arg12 m ρ c),
    (h c _ (mem_uc main_arg13 (by decide))).trans (W14_main_arg13 m ρ c),
    (h c _ (mem_uc main_arg14 (by decide))).trans (W14_main_arg14 m ρ c),
    (h c _ (mem_uc main_arg15 (by decide))).trans (W14_main_arg15 m ρ c),
    (h c _ (mem_uc main_arg16 (by decide))).trans (W14_main_arg16 m ρ c),
    (h c _ (mem_uc main_arg17 (by decide))).trans (W14_main_arg17 m ρ c),
    (h c _ (mem_uc main_arg18 (by decide))).trans (W14_main_arg18 m ρ c),
    (h c _ (mem_uc main_arg19 (by decide))).trans (W14_main_arg19 m ρ c),
    (h c _ (mem_uc main_arg20 (by decide))).trans (W14_main_arg20 m ρ c)⟩) (run_all m ρ)

end Cert.Kernel.Hand

end
-- ==== Proof.KI.Stats0Run.lean ====
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first SAGE layer's linear combine with its column statistics (pipeline 0)

Each grid point handles 5000 rows: it writes the rows' combine `agg·Wlᵀ + bl + x·Wrᵀ` to its block of the output
and adds the block's column sums and column sums of squares to two accumulator rows, which the first point starts from
zero and the last point copies to the two one-row outputs. Three kinds of point: the first, the last, the ones between. -/

/-- The point is the first one (the accumulators are reset there). -/
abbrev cond0_0 (i : grid0.Coords) : Prop := (Scalar.cmpi .ne (Scalar.extui (Scalar.cmpi .eq (BitVec.ofNat 32 (i 0).val) 0#32)) 0#32) = 1#1
/-- The point is the last one (the accumulators are copied out there). -/
abbrev cond0_1 (i : grid0.Coords) : Prop := k0_cond2 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 19 :=
  (by decide +kernel : ∀ t : Fin grid0.N, cond0_1 (grid0.coords t) ↔ t.val = 19)

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun0_A (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond0_0 i) (hc1 : ¬cond0_1 i) (x0 x1 : Vec F S5000x16 .f32) (x2 : Vec F S16x128 .f32) (x3 : Vec F S1x128 .f32) (x4 : Vec F S16x128 .f32) :
    Σ' (L5 : List (View.Piece (Elt F) S5000x128 .f32)) (L9 L10 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K := by
  refine ⟨?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d9, %f9, -, H9⟩, ⟨%d10, %f10, -, H10⟩, Hk⟩
    obtain rfl := harg1.eq_unread hf0
    obtain rfl := harg2.eq_unread hf1
    obtain rfl := harg3.eq_unread hf2
    obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H9]; · iexists _; iexact H9
    iexists _; iexact H10

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun0_B (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : ¬cond0_1 i) (x0 x1 : Vec F S5000x16 .f32) (x2 : Vec F S16x128 .f32) (x3 : Vec F S1x128 .f32) (x4 : Vec F S16x128 .f32) (s0 s1 : Vec F S1x128 .f32) :
    Σ' (L5 : List (View.Piece (Elt F) S5000x128 .f32)) (L9 L10 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ owns (c : Thread nD τ) arg9 fullShare s0 ∗ owns (c : Thread nD τ) arg10 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K := by
  refine ⟨?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f9, %hf9, H9⟩, ⟨%f10, %hf10, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg9.eq_unread hf9
    obtain rfl := harg10.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H9]; · iexists _; iexact H9
    iexists _; iexact H10

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun0_C (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) :
    Σ' (L5 : List (View.Piece (Elt F) S5000x128 .f32)) (L6 L7 L9 L10 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg7 fullShare d) ∗ (∃ d, owns (c : Thread nD τ) arg8 fullShare d)
            ∗ owns (c : Thread nD τ) arg9 fullShare s0 ∗ owns (c : Thread nD τ) arg10 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K := by
  refine ⟨?_, ?_, ?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg9.eq_unread hf9
    obtain rfl := harg10.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.KI.Stats0Traj.lean ====
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.KI.Stats0Run
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 0 point by point: what the accumulator rows and the outputs hold after each grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- One view of each written shape through which a list of stores is read back (any whole buffer of the shape does). -/
abbrev VB0 : View sig .tc .vmem S5000x128 .f32 := (Memref.whole cc0_stg5_0 : Memref sig .tc .vmem S5000x128 .f32).view
abbrev VR0 : View sig .tc .vmem S1x128 .f32 := (Memref.whole cc0_scratch0 : Memref sig .tc .vmem S1x128 .f32).view
/-- What a list of stores (last first) leaves in a row-block buffer / in a one-row buffer. -/
def rdB0 (L : List (View.Piece (Elt F) S5000x128 .f32)) : Vec F S5000x128 .f32 := VB0.read (Elt F) (VB0.writes (Elt F) VB0.junk L)
def rdR0 (L : List (View.Piece (Elt F) S1x128 .f32)) : Vec F S1x128 .f32 := VR0.read (Elt F) (VR0.writes (Elt F) VR0.junk L)
/-- A row nothing has determined. -/
def row0_any : Vec F S1x128 .f32 := VR0.read (Elt F) VR0.junk

/-- What one grid point leaves: its block of the combine, the two one-row outputs (meaningful at the last point only)
    and the two accumulator rows. -/
structure Pt0 (F : FTy → Type) where
  o5 : Vec F S5000x128 .f32
  o6 : Vec F S1x128 .f32
  o7 : Vec F S1x128 .f32
  a0 : Vec F S1x128 .f32
  a1 : Vec F S1x128 .f32

/-- ONE POINT from the accumulator rows before it: the first point resets them, the last also copies them out. -/
def step0 (c : Dev nD) (t : Fin cfg0.N) (prev : Vec F S1x128 .f32 × Vec F S1x128 .f32) : Pt0 F :=
  if q0 : t.val = 0 then
    ⟨rdB0 (kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).1, prev.1, prev.2, rdR0 (kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).2.1, rdR0 (kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).2.2.1⟩
  else if q1 : t.val = 19 then
    ⟨rdB0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.2.1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.2.2.1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.2.2.2.1⟩
  else
    ⟨rdB0 (kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2).1, prev.1, prev.2, rdR0 (kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2).2.1, rdR0 (kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2).2.2.1⟩

/-- THE TRAJECTORY: what the points up to position `n` leave. -/
def traj0 (c : Dev nD) : (n : ℕ) → n < cfg0.N → Pt0 F
  | 0, h => step0 V c ⟨0, h⟩ (row0_any, row0_any)
  | n + 1, h => step0 V c ⟨n + 1, h⟩ ((traj0 c n (Nat.lt_of_succ_lt h)).a0, (traj0 c n (Nat.lt_of_succ_lt h)).a1)

/-- The accumulator rows before point `t`. -/
def prev0 (c : Dev nD) (t : Fin cfg0.N) : Vec F S1x128 .f32 × Vec F S1x128 .f32 :=
  if h : t.val = 0 then (row0_any, row0_any) else ((traj0 V c (t.val - 1) (by omega)).a0, (traj0 V c (t.val - 1) (by omega)).a1)

theorem traj0_eq (c : Dev nD) (t : Fin cfg0.N) : traj0 V c t.val t.isLt = step0 V c t (prev0 V c t) := by
  obtain ⟨n, hn⟩ := t
  cases n with
  | zero => rfl
  | succ n => unfold prev0; simp only [Nat.add_one_ne_zero, dif_neg, not_false_eq_true]; rfl

theorem step0_A (c : Dev nD) (t : Fin cfg0.N) (prev : Vec F S1x128 .f32 × Vec F S1x128 .f32) (q0 : t.val = 0) :
    step0 V c t prev = ⟨rdB0 (kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).1, prev.1, prev.2, rdR0 (kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).2.1, rdR0 (kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).2.2.1⟩ := by
  unfold step0; simp only [dif_pos q0]
theorem step0_B (c : Dev nD) (t : Fin cfg0.N) (prev : Vec F S1x128 .f32 × Vec F S1x128 .f32) (q0 : ¬t.val = 0) (q1 : ¬t.val = 19) :
    step0 V c t prev = ⟨rdB0 (kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2).1, prev.1, prev.2, rdR0 (kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2).2.1, rdR0 (kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2).2.2.1⟩ := by
  unfold step0; simp only [dif_neg q0, dif_neg q1]
theorem step0_C (c : Dev nD) (t : Fin cfg0.N) (prev : Vec F S1x128 .f32 × Vec F S1x128 .f32) (q0 : ¬t.val = 0) (q1 : t.val = 19) :
    step0 V c t prev = ⟨rdB0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.2.1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.2.2.1, rdR0 (kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).2.2.2.2.1⟩ := by
  unfold step0; simp only [dif_neg q0, dif_pos q1]

/-- The accumulator rows before position `t` of the invariant's index (one more than the points). -/
def prev0T (c : Dev nD) (t : Fin (cfg0.N + 1)) : Vec F S1x128 .f32 × Vec F S1x128 .f32 :=
  if h : t.val = 0 then (row0_any, row0_any) else ((traj0 V c (t.val - 1) (by omega)).a0, (traj0 V c (t.val - 1) (by omega)).a1)

theorem prev0T_castSucc (c : Dev nD) (t : Fin cfg0.N) : prev0T V c t.castSucc = prev0 V c t := rfl
theorem prev0T_succ (c : Dev nD) (t : Fin cfg0.N) : prev0T V c t.succ = ((traj0 V c t.val t.isLt).a0, (traj0 V c t.val t.isLt).a1) := by
  unfold prev0T; rw [dif_neg (by simp)]; rfl

end Cert.KernelIdeal.Hand

end
-- ==== Proof.KI.Stats0Cover.lean ====
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.KI.Stats0Run
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Each list of stores a case of pipeline 0's body leaves covers its buffer -/

theorem cover0_A_5 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond0_0 i) (hc1 : ¬cond0_1 i) (x0 x1 : Vec F S5000x16 .f32) (x2 : Vec F S16x128 .f32) (x3 : Vec F S1x128 .f32) (x4 : Vec F S16x128 .f32) (y : S5000x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL _ S5000x128.size (by sl_kernel_rfl) y
theorem cover0_A_9 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond0_0 i) (hc1 : ¬cond0_1 i) (x0 x1 : Vec F S5000x16 .f32) (x2 : Vec F S16x128 .f32) (x3 : Vec F S1x128 .f32) (x4 : Vec F S16x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL _ S1x128.size (by sl_kernel_rfl) y
theorem cover0_A_10 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond0_0 i) (hc1 : ¬cond0_1 i) (x0 x1 : Vec F S5000x16 .f32) (x2 : Vec F S16x128 .f32) (x3 : Vec F S1x128 .f32) (x4 : Vec F S16x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL _ S1x128.size (by sl_kernel_rfl) y
theorem cover0_B_5 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : ¬cond0_1 i) (x0 x1 : Vec F S5000x16 .f32) (x2 : Vec F S16x128 .f32) (x3 : Vec F S1x128 .f32) (x4 : Vec F S16x128 .f32) (s0 s1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 s0 s1).1, y ∈ pc.1.set :=
  View.cover_of_tiledL _ S5000x128.size (by sl_kernel_rfl) y
theorem cover0_B_9 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : ¬cond0_1 i) (x0 x1 : Vec F S5000x16 .f32) (x2 : Vec F S16x128 .f32) (x3 : Vec F S1x128 .f32) (x4 : Vec F S16x128 .f32) (s0 s1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 s0 s1).2.1, y ∈ pc.1.set :=
  View.cover_of_tiledL _ S1x128.size (by sl_kernel_rfl) y
theorem cover0_B_10 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : ¬cond0_1 i) (x0 x1 : Vec F S5000x16 .f32) (x2 : Vec F S16x128 .f32) (x3 : Vec F S1x128 .f32) (x4 : Vec F S16x128 .f32) (s0 s1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 s0 s1).2.2.1, y ∈ pc.1.set :=
  View.cover_of_tiledL _ S1x128.size (by sl_kernel_rfl) y
theorem cover0_C_5 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 s0 s1).1, y ∈ pc.1.set :=
  View.cover_of_tiledL _ S5000x128.size (by sl_kernel_rfl) y
theorem cover0_C_6 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 s0 s1).2.1, y ∈ pc.1.set :=
  View.cover_of_tiledL _ S1x128.size (by sl_kernel_rfl) y
theorem cover0_C_7 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 s0 s1).2.2.1, y ∈ pc.1.set :=
  View.cover_of_tiledL _ S1x128.size (by sl_kernel_rfl) y
theorem cover0_C_9 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 s0 s1).2.2.2.1, y ∈ pc.1.set :=
  View.cover_of_tiledL _ S1x128.size (by sl_kernel_rfl) y
theorem cover0_C_10 (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 s0 s1).2.2.2.2.1, y ∈ pc.1.set :=
  View.cover_of_tiledL _ S1x128.size (by sl_kernel_rfl) y

end Cert.KernelIdeal.Hand

end
-- ==== Proof.KI.Stats0.lean ====
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.KI.Stats0Traj
import proofs.«121727_j57028575756303_1_alg».proof.Proof.KI.Stats0Cover
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 0: the proof data and the body obligation -/

abbrev M9_0 : Memref sig .tc .vmem S1x128 .f32 := Memref.whole cc0_scratch0
abbrev M10_0 : Memref sig .tc .vmem S1x128 .f32 := Memref.whole cc0_scratch1

/-- The scoped buffers this pipeline neither stages nor uses as accumulators, each at some contents. -/
abbrev Rest0 (c : Dev nD) : sProp 𝕄 :=
  Pipeline.scopedRestBut (Ix := Unit) (Name := ℕ) (U := UR sig nD τ) (Lvl := ℕ) (Val := Elt F) spec0 c [cc0_scratch0, cc0_scratch1]

/-- THE INVARIANT before point `t`: the two accumulator rows at what the points before left (anything before the
    first point, which resets them), beside the untouched scoped buffers. -/
def Phi0 (c : Dev nD) (t : Fin (cfg0.N + 1)) : sProp 𝕄 :=
  iprop((∃ a, ⌜t.val ≠ 0 → a = (prev0T V c t).1⌝ ∗ owns (c : Thread nD τ) M9_0 fullShare a)
      ∗ (∃ a, ⌜t.val ≠ 0 → a = (prev0T V c t).2⌝ ∗ owns (c : Thread nD τ) M10_0 fullShare a)
      ∗ Rest0 c)

/-- The proof data of pipeline 0 on core `c`: the arrays as the region finds them; after point `t` each input's
    buffer at its block, the outputs' at what the trajectory says. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (traj0 V c t.val t.isLt).o5
    | ⟨6, _⟩ => (traj0 V c t.val t.isLt).o6
    | ⟨7, _⟩ => (traj0 V c t.val t.isLt).o7
  Φ t := Phi0 V c t
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (traj0 V c t.val t.isLt).o5 := by dsimp only [dat0]
theorem after0_6 (c : Dev nD) (t : Fin cfg0.N) : (dat0 V c).after 6 t = (traj0 V c t.val t.isLt).o6 := by dsimp only [dat0]
theorem after0_7 (c : Dev nD) (t : Fin cfg0.N) : (dat0 V c).after 7 t = (traj0 V c t.val t.isLt).o7 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The one-row outputs are idle wherever the point is not the last, and are written back at the last only. -/
theorem idle0_6_of (t : Fin cfg0.N) (h : ¬t.val = 19) : cfg0.idle 6 (cfg0.grid.coords t) = true := by
  have hc : ¬k0_cond2 (grid0.coords t) = 1#1 := fun hh => h ((hcond0_1 t).mp hh)
  show (!(k0_cond2 (grid0.coords t) == 1#1)) = true
  simp [hc]
theorem idle0_7_of (t : Fin cfg0.N) (h : ¬t.val = 19) : cfg0.idle 7 (cfg0.grid.coords t) = true := by
  have hc : ¬k0_cond2 (grid0.coords t) = 1#1 := fun hh => h ((hcond0_1 t).mp hh)
  show (!(k0_cond2 (grid0.coords t) == 1#1)) = true
  simp [hc]
theorem busy0_6_of (t : Fin cfg0.N) (h : t.val = 19) : cfg0.idle 6 (cfg0.grid.coords t) = false := by
  have hc : k0_cond2 (grid0.coords t) = 1#1 := (hcond0_1 t).mpr h
  show (!(k0_cond2 (grid0.coords t) == 1#1)) = false
  simp [hc]
theorem busy0_7_of (t : Fin cfg0.N) (h : t.val = 19) : cfg0.idle 7 (cfg0.grid.coords t) = false := by
  have hc : k0_cond2 (grid0.coords t) = 1#1 := (hcond0_1 t).mpr h
  show (!(k0_cond2 (grid0.coords t) == 1#1)) = false
  simp [hc]
theorem noflush0_6_of (t : Fin cfg0.N) (h : ¬t.val = 19) : (cfg0.win 6).flush t = false :=
  Bool.eq_false_iff.mpr fun hh => by have := (flush0_6 t).mp hh; have := t.isLt; have hN : cfg0.N = 20 := N_0; omega
theorem noflush0_7_of (t : Fin cfg0.N) (h : ¬t.val = 19) : (cfg0.win 7).flush t = false :=
  Bool.eq_false_iff.mpr fun hh => by have := (flush0_7 t).mp hh; have := t.isLt; have hN : cfg0.N = 20 := N_0; omega

set_option maxHeartbeats 4000000 in
/-- THE BODY at point `t`: which kind of point it is decides the case's run; the inputs hold their blocks, the accumulator
    rows what the points before left; a one-row output idle at the point is handed back as it was found. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d))
        ∗ (∃ d, owns (c : Thread nD τ) (st0_6 t) fullShare ((dat0 V c).before 6 t d))
        ∗ (∃ d, owns (c : Thread nD τ) (st0_7 t) fullShare ((dat0 V c).before 7 t d)))
      ⊢ wp frame (wpE (defs₀ (F := F)) Variants.none c none) Set.univ (bodyAt0 t) fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)
            ∗ owns (c : Thread nD τ) (st0_4 t) fullShare ((dat0 V c).after 4 t)
            ∗ owns (c : Thread nD τ) (st0_5 t) fullShare ((dat0 V c).after 5 t)
            ∗ (match cfg0.idle 6 (cfg0.grid.coords t) with
              | true =>
                match (cfg0.win 6).flush t with
                | false => iprop(∃ d, owns (c : Thread nD τ) (st0_6 t) fullShare ((dat0 V c).before 6 t d))
                | true => owns (c : Thread nD τ) (st0_6 t) fullShare ((dat0 V c).after 6 t)
              | false => owns (c : Thread nD τ) (st0_6 t) fullShare ((dat0 V c).after 6 t))
            ∗ (match cfg0.idle 7 (cfg0.grid.coords t) with
              | true =>
                match (cfg0.win 7).flush t with
                | false => iprop(∃ d, owns (c : Thread nD τ) (st0_7 t) fullShare ((dat0 V c).before 7 t d))
                | true => owns (c : Thread nD τ) (st0_7 t) fullShare ((dat0 V c).after 7 t)
              | false => owns (c : Thread nD τ) (st0_7 t) fullShare ((dat0 V c).after 7 t))) := by
  unfold bodyAt0
  by_cases q0 : t.val = 0
  · have q1 : ¬t.val = 19 := by omega
    rewrite [idle0_6_of t q1]; (try rewrite [idle0_7_of t q1]); rewrite [noflush0_6_of t q1]; (try rewrite [noflush0_7_of t q1])
    simp only [before0_0, before0_1, before0_2, before0_3, before0_4, after0_0, after0_1, after0_2, after0_3, after0_4, after0_5, after0_6, after0_7]
    rewrite [show (dat0 V c).Φ t.succ = Phi0 V c t.succ from rfl, show (dat0 V c).Φ t.castSucc = Phi0 V c t.castSucc from rfl,
      show (dat0 V c).owesAt () t.succ = (dat0 V c).owesAt () t.castSucc from rfl]
    unfold Phi0; simp only [prev0T_castSucc, prev0T_succ, traj0_eq, step0_A V c t _ q0, Fin.val_castSucc, Fin.val_succ]
    iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    iintro ⟨H0, H1, H2, H3, H4, ⟨%e5, H5⟩, ⟨%e9, HS0⟩, ⟨%e10, HS1⟩⟩
    isplitl [HS0 HS1 HR]
    · isplitl [HS0]
      · iexists _; isplitr; · ipureintro; exact fun _ => rfl
        unfold owns; iexists _; isplitr; swap
        · iexact HS0
        · ipureintro; exact View.read_writes_of_cover _ _ _ _ _ (cover0_A_9 _ _ _ _ _ _ _ _ _ _ _ _ _ _ _ _ _ _ _ _ _ _ _ _ _ _ _ _ _)
      isplitl [HS1]
      · iexists _; isplitr; · ipureintro; exact fun _ => rfl
        unfold owns; iexists _; isplitr; swap
        · iexact HS1
        · ipureintro; exact View.read_writes_of_cover _ _ _ _ _ (cover0_A_10 _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr; swap
      · iexact H5
      · ipureintro; exact View.read_writes_of_cover _ _ _ _ _ (cover0_A_5 _ _ _ _ _ _ _ _ _ _ _ _ _ _ _ _ _ _ _ _ _ _ _ _ _ _ _ _ _)
    isplitl [H6]; · iexists _; iexact H6
    iexists _; iexact H7
  · by_cases q1 : t.val = 19
    · rewrite [busy0_6_of t q1]; (try rewrite [busy0_7_of t q1])
      simp only [before0_0, before0_1, before0_2, before0_3, before0_4, after0_0, after0_1, after0_2, after0_3, after0_4, after0_5, after0_6, after0_7]
      rewrite [show (dat0 V c).Φ t.succ = Phi0 V c t.succ from rfl, show (dat0 V c).Φ t.castSucc = Phi0 V c t.castSucc from rfl,
        show (dat0 V c).owesAt () t.succ = (dat0 V c).owesAt () t.castSucc from rfl]
      unfold Phi0; simp only [prev0T_castSucc, prev0T_succ, traj0_eq, step0_C V c t _ q0 q1, Fin.val_castSucc, Fin.val_succ]
      iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha0 q0
      obtain rfl := ha1 q0
      iapply ((kernelRun0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) (prev0 V c t).1 (prev0 V c t).2).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 HR]
      · isplitl [HS0]
        · iexists _; isplitr; · ipureintro; exact fun _ => rfl
          unfold owns; iexists _; isplitr; swap
          · iexact HS0
          · ipureintro; exact View.read_writes_of_cover _ _ _ _ _ (cover0_C_9 _ _ _ _ _ _ _ _ _ _ _ _ _ _ _ _ _ _ _ _ _ _ _ _ _ _ _ _ _ _ _)
        isplitl [HS1]
        · iexists _; isplitr; · ipureintro; exact fun _ => rfl
          unfold owns; iexists _; isplitr; swap
          · iexact HS1
          · ipureintro; exact View.read_writes_of_cover _ _ _ _ _ (cover0_C_10 _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap
        · iexact H5
        · ipureintro; exact View.read_writes_of_cover _ _ _ _ _ (cover0_C_5 _ _ _ _ _ _ _ _ _ _ _ _ _ _ _ _ _ _ _ _ _ _ _ _ _ _ _ _ _ _ _)
      isplitl [H6]
      · unfold owns; iexists _; isplitr; swap
        · iexact H6
        · ipureintro; exact View.read_writes_of_cover _ _ _ _ _ (cover0_C_6 _ _ _ _ _ _ _ _ _ _ _ _ _ _ _ _ _ _ _ _ _ _ _ _ _ _ _ _ _ _ _)
      unfold owns; iexists _; isplitr; swap
      · iexact H7
      · ipureintro; exact View.read_writes_of_cover _ _ _ _ _ (cover0_C_7 _ _ _ _ _ _ _ _ _ _ _ _ _ _ _ _ _ _ _ _ _ _ _ _ _ _ _ _ _ _ _)
    · rewrite [idle0_6_of t q1]; (try rewrite [idle0_7_of t q1]); rewrite [noflush0_6_of t q1]; (try rewrite [noflush0_7_of t q1])
      simp only [before0_0, before0_1, before0_2, before0_3, before0_4, after0_0, after0_1, after0_2, after0_3, after0_4, after0_5, after0_6, after0_7]
      rewrite [show (dat0 V c).Φ t.succ = Phi0 V c t.succ from rfl, show (dat0 V c).Φ t.castSucc = Phi0 V c t.castSucc from rfl,
        show (dat0 V c).owesAt () t.succ = (dat0 V c).owesAt () t.castSucc from rfl]
      unfold Phi0; simp only [prev0T_castSucc, prev0T_succ, traj0_eq, step0_B V c t _ q0 q1, Fin.val_castSucc, Fin.val_succ]
      iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha0 q0
      obtain rfl := ha1 q0
      iapply ((kernelRun0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) (prev0 V c t).1 (prev0 V c t).2).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%e9, HS0⟩, ⟨%e10, HS1⟩⟩
      isplitl [HS0 HS1 HR]
      · isplitl [HS0]
        · iexists _; isplitr; · ipureintro; exact fun _ => rfl
          unfold owns; iexists _; isplitr; swap
          · iexact HS0
          · ipureintro; exact View.read_writes_of_cover _ _ _ _ _ (cover0_B_9 _ _ _ _ _ _ _ _ _ _ _ _ _ _ _ _ _ _ _ _ _ _ _ _ _ _ _ _ _ _ _)
        isplitl [HS1]
        · iexists _; isplitr; · ipureintro; exact fun _ => rfl
          unfold owns; iexists _; isplitr; swap
          · iexact HS1
          · ipureintro; exact View.read_writes_of_cover _ _ _ _ _ (cover0_B_10 _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap
        · iexact H5
        · ipureintro; exact View.read_writes_of_cover _ _ _ _ _ (cover0_B_5 _ _ _ _ _ _ _ _ _ _ _ _ _ _ _ _ _ _ _ _ _ _ _ _ _ _ _ _ _ _ _)
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Stats2Run.lean ====
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second SAGE layer's linear combine with its column statistics (pipeline 2)

Each grid point handles 5000 rows: it writes the rows' combine `agg·Wlᵀ + bl + x·Wrᵀ` to its block of the output
and adds the block's column sums and column sums of squares to two accumulator rows, which the first point starts from
zero and the last point copies to the two one-row outputs. Three kinds of point: the first, the last, the ones between. -/

/-- The point is the first one (the accumulators are reset there). -/
abbrev cond2_0 (i : grid2.Coords) : Prop := (Scalar.cmpi .ne (Scalar.extui (Scalar.cmpi .eq (BitVec.ofNat 32 (i 0).val) 0#32)) 0#32) = 1#1
/-- The point is the last one (the accumulators are copied out there). -/
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 19 :=
  (by decide +kernel : ∀ t : Fin grid2.N, cond2_1 (grid2.coords t) ↔ t.val = 19)

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond2_0 i) (hc1 : ¬cond2_1 i) (x0 x1 : Vec F S5000x128 .f32) (x2 : Vec F S128x128 .f32) (x3 : Vec F S1x128 .f32) (x4 : Vec F S128x128 .f32) :
    Σ' (L5 : List (View.Piece (Elt F) S5000x128 .f32)) (L9 L10 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10) K := by
  refine ⟨?_, ?_, ?_, fun E K => ?run⟩
  case run =>
    simp only [cc2__linear_stats_kernel_eq_skeleton]; unfold cc2__linear_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d9, %f9, -, H9⟩, ⟨%d10, %f10, -, H10⟩, Hk⟩
    obtain rfl := harg1.eq_unread hf0
    obtain rfl := harg2.eq_unread hf1
    obtain rfl := harg3.eq_unread hf2
    obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H9]; · iexists _; iexact H9
    iexists _; iexact H10

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : ¬cond2_1 i) (x0 x1 : Vec F S5000x128 .f32) (x2 : Vec F S128x128 .f32) (x3 : Vec F S1x128 .f32) (x4 : Vec F S128x128 .f32) (s0 s1 : Vec F S1x128 .f32) :
    Σ' (L5 : List (View.Piece (Elt F) S5000x128 .f32)) (L9 L10 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ owns (c : Thread nD τ) arg9 fullShare s0 ∗ owns (c : Thread nD τ) arg10 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10) K := by
  refine ⟨?_, ?_, ?_, fun E K => ?run⟩
  case run =>
    simp only [cc2__linear_stats_kernel_eq_skeleton]; unfold cc2__linear_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f9, %hf9, H9⟩, ⟨%f10, %hf10, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg9.eq_unread hf9
    obtain rfl := harg10.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H9]; · iexists _; iexact H9
    iexists _; iexact H10

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun2_C (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) :
    Σ' (L5 : List (View.Piece (Elt F) S5000x128 .f32)) (L6 L7 L9 L10 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg7 fullShare d) ∗ (∃ d, owns (c : Thread nD τ) arg8 fullShare d)
            ∗ owns (c : Thread nD τ) arg9 fullShare s0 ∗ owns (c : Thread nD τ) arg10 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10) K := by
  refine ⟨?_, ?_, ?_, ?_, ?_, fun E K => ?run⟩
  case run =>
    simp only [cc2__linear_stats_kernel_eq_skeleton]; unfold cc2__linear_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg9.eq_unread hf9
    obtain rfl := harg10.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.KI.Stats2Traj.lean ====
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.KI.Stats2Run
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 2 point by point: what the accumulator rows and the outputs hold after each grid point -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- One view of each written shape through which a list of stores is read back (any whole buffer of the shape does). -/
abbrev VB2 : View sig .tc .vmem S5000x128 .f32 := (Memref.whole cc2_stg5_0 : Memref sig .tc .vmem S5000x128 .f32).view
abbrev VR2 : View sig .tc .vmem S1x128 .f32 := (Memref.whole cc2_scratch0 : Memref sig .tc .vmem S1x128 .f32).view
/-- What a list of stores (last first) leaves in a row-block buffer / in a one-row buffer. -/
def rdB2 (L : List (View.Piece (Elt F) S5000x128 .f32)) : Vec F S5000x128 .f32 := VB2.read (Elt F) (VB2.writes (Elt F) VB2.junk L)
def rdR2 (L : List (View.Piece (Elt F) S1x128 .f32)) : Vec F S1x128 .f32 := VR2.read (Elt F) (VR2.writes (Elt F) VR2.junk L)
/-- A row nothing has determined. -/
def row2_any : Vec F S1x128 .f32 := VR2.read (Elt F) VR2.junk

/-- What one grid point leaves: its block of the combine, the two one-row outputs (meaningful at the last point only)
    and the two accumulator rows. -/
structure Pt2 (F : FTy → Type) where
  o5 : Vec F S5000x128 .f32
  o6 : Vec F S1x128 .f32
  o7 : Vec F S1x128 .f32
  a0 : Vec F S1x128 .f32
  a1 : Vec F S1x128 .f32

/-- ONE POINT from the accumulator rows before it: the first point resets them, the last also copies them out. -/
def step2 (c : Dev nD) (t : Fin cfg2.N) (prev : Vec F S1x128 .f32 × Vec F S1x128 .f32) : Pt2 F :=
  if q0 : t.val = 0 then
    ⟨rdB2 (kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).1, prev.1, prev.2, rdR2 (kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).2.1, rdR2 (kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).2.2.1⟩
  else if q1 : t.val = 19 then
    ⟨rdB2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.2.1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.2.2.1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.2.2.2.1⟩
  else
    ⟨rdB2 (kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2).1, prev.1, prev.2, rdR2 (kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2).2.1, rdR2 (kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2).2.2.1⟩

/-- THE TRAJECTORY: what the points up to position `n` leave. -/
def traj2 (c : Dev nD) : (n : ℕ) → n < cfg2.N → Pt2 F
  | 0, h => step2 V c ⟨0, h⟩ (row2_any, row2_any)
  | n + 1, h => step2 V c ⟨n + 1, h⟩ ((traj2 c n (Nat.lt_of_succ_lt h)).a0, (traj2 c n (Nat.lt_of_succ_lt h)).a1)

/-- The accumulator rows before point `t`. -/
def prev2 (c : Dev nD) (t : Fin cfg2.N) : Vec F S1x128 .f32 × Vec F S1x128 .f32 :=
  if h : t.val = 0 then (row2_any, row2_any) else ((traj2 V c (t.val - 1) (by omega)).a0, (traj2 V c (t.val - 1) (by omega)).a1)

theorem traj2_eq (c : Dev nD) (t : Fin cfg2.N) : traj2 V c t.val t.isLt = step2 V c t (prev2 V c t) := by
  obtain ⟨n, hn⟩ := t
  cases n with
  | zero => rfl
  | succ n => unfold prev2; simp only [Nat.add_one_ne_zero, dif_neg, not_false_eq_true]; rfl

theorem step2_A (c : Dev nD) (t : Fin cfg2.N) (prev : Vec F S1x128 .f32 × Vec F S1x128 .f32) (q0 : t.val = 0) :
    step2 V c t prev = ⟨rdB2 (kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).1, prev.1, prev.2, rdR2 (kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).2.1, rdR2 (kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).2.2.1⟩ := by
  unfold step2; simp only [dif_pos q0]
theorem step2_B (c : Dev nD) (t : Fin cfg2.N) (prev : Vec F S1x128 .f32 × Vec F S1x128 .f32) (q0 : ¬t.val = 0) (q1 : ¬t.val = 19) :
    step2 V c t prev = ⟨rdB2 (kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2).1, prev.1, prev.2, rdR2 (kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2).2.1, rdR2 (kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2).2.2.1⟩ := by
  unfold step2; simp only [dif_neg q0, dif_neg q1]
theorem step2_C (c : Dev nD) (t : Fin cfg2.N) (prev : Vec F S1x128 .f32 × Vec F S1x128 .f32) (q0 : ¬t.val = 0) (q1 : t.val = 19) :
    step2 V c t prev = ⟨rdB2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.2.1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.2.2.1, rdR2 (kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).2.2.2.2.1⟩ := by
  unfold step2; simp only [dif_neg q0, dif_pos q1]

/-- The accumulator rows before position `t` of the invariant's index (one more than the points). -/
def prev2T (c : Dev nD) (t : Fin (cfg2.N + 1)) : Vec F S1x128 .f32 × Vec F S1x128 .f32 :=
  if h : t.val = 0 then (row2_any, row2_any) else ((traj2 V c (t.val - 1) (by omega)).a0, (traj2 V c (t.val - 1) (by omega)).a1)

theorem prev2T_castSucc (c : Dev nD) (t : Fin cfg2.N) : prev2T V c t.castSucc = prev2 V c t := rfl
theorem prev2T_succ (c : Dev nD) (t : Fin cfg2.N) : prev2T V c t.succ = ((traj2 V c t.val t.isLt).a0, (traj2 V c t.val t.isLt).a1) := by
  unfold prev2T; rw [dif_neg (by simp)]; rfl

end Cert.KernelIdeal.Hand

end
-- ==== Proof.KI.Stats2Cover.lean ====
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.KI.Stats2Run
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Each list of stores a case of pipeline 2's body leaves covers its buffer -/

theorem cover2_A_5 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond2_0 i) (hc1 : ¬cond2_1 i) (x0 x1 : Vec F S5000x128 .f32) (x2 : Vec F S128x128 .f32) (x3 : Vec F S1x128 .f32) (x4 : Vec F S128x128 .f32) (y : S5000x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL _ S5000x128.size (by sl_kernel_rfl) y
theorem cover2_A_9 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond2_0 i) (hc1 : ¬cond2_1 i) (x0 x1 : Vec F S5000x128 .f32) (x2 : Vec F S128x128 .f32) (x3 : Vec F S1x128 .f32) (x4 : Vec F S128x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL _ S1x128.size (by sl_kernel_rfl) y
theorem cover2_A_10 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond2_0 i) (hc1 : ¬cond2_1 i) (x0 x1 : Vec F S5000x128 .f32) (x2 : Vec F S128x128 .f32) (x3 : Vec F S1x128 .f32) (x4 : Vec F S128x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL _ S1x128.size (by sl_kernel_rfl) y
theorem cover2_B_5 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : ¬cond2_1 i) (x0 x1 : Vec F S5000x128 .f32) (x2 : Vec F S128x128 .f32) (x3 : Vec F S1x128 .f32) (x4 : Vec F S128x128 .f32) (s0 s1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 s0 s1).1, y ∈ pc.1.set :=
  View.cover_of_tiledL _ S5000x128.size (by sl_kernel_rfl) y
theorem cover2_B_9 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : ¬cond2_1 i) (x0 x1 : Vec F S5000x128 .f32) (x2 : Vec F S128x128 .f32) (x3 : Vec F S1x128 .f32) (x4 : Vec F S128x128 .f32) (s0 s1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 s0 s1).2.1, y ∈ pc.1.set :=
  View.cover_of_tiledL _ S1x128.size (by sl_kernel_rfl) y
theorem cover2_B_10 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : ¬cond2_1 i) (x0 x1 : Vec F S5000x128 .f32) (x2 : Vec F S128x128 .f32) (x3 : Vec F S1x128 .f32) (x4 : Vec F S128x128 .f32) (s0 s1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 s0 s1).2.2.1, y ∈ pc.1.set :=
  View.cover_of_tiledL _ S1x128.size (by sl_kernel_rfl) y
theorem cover2_C_5 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 s0 s1).1, y ∈ pc.1.set :=
  View.cover_of_tiledL _ S5000x128.size (by sl_kernel_rfl) y
theorem cover2_C_6 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 s0 s1).2.1, y ∈ pc.1.set :=
  View.cover_of_tiledL _ S1x128.size (by sl_kernel_rfl) y
theorem cover2_C_7 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 s0 s1).2.2.1, y ∈ pc.1.set :=
  View.cover_of_tiledL _ S1x128.size (by sl_kernel_rfl) y
theorem cover2_C_9 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 s0 s1).2.2.2.1, y ∈ pc.1.set :=
  View.cover_of_tiledL _ S1x128.size (by sl_kernel_rfl) y
theorem cover2_C_10 (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 s0 s1).2.2.2.2.1, y ∈ pc.1.set :=
  View.cover_of_tiledL _ S1x128.size (by sl_kernel_rfl) y

end Cert.KernelIdeal.Hand

end
-- ==== Proof.KI.Stats2.lean ====
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.KI.Stats2Traj
import proofs.«121727_j57028575756303_1_alg».proof.Proof.KI.Stats2Cover
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 2: the proof data and the body obligation -/

abbrev M9_2 : Memref sig .tc .vmem S1x128 .f32 := Memref.whole cc2_scratch0
abbrev M12_0 : Memref sig .tc .vmem S1x128 .f32 := Memref.whole cc2_scratch1

/-- The scoped buffers this pipeline neither stages nor uses as accumulators, each at some contents. -/
abbrev Rest2 (c : Dev nD) : sProp 𝕄 :=
  Pipeline.scopedRestBut (Ix := Unit) (Name := ℕ) (U := UR sig nD τ) (Lvl := ℕ) (Val := Elt F) spec2 c [cc2_scratch0, cc2_scratch1]

/-- THE INVARIANT before point `t`: the two accumulator rows at what the points before left (anything before the
    first point, which resets them), beside the untouched scoped buffers. -/
def Phi2 (c : Dev nD) (t : Fin (cfg2.N + 1)) : sProp 𝕄 :=
  iprop((∃ a, ⌜t.val ≠ 0 → a = (prev2T V c t).1⌝ ∗ owns (c : Thread nD τ) M9_2 fullShare a)
      ∗ (∃ a, ⌜t.val ≠ 0 → a = (prev2T V c t).2⌝ ∗ owns (c : Thread nD τ) M12_0 fullShare a)
      ∗ Rest2 c)

/-- The proof data of pipeline 2 on core `c`: the arrays as the region finds them; after point `t` each input's
    buffer at its block, the outputs' at what the trajectory says. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (traj2 V c t.val t.isLt).o5
    | ⟨6, _⟩ => (traj2 V c t.val t.isLt).o6
    | ⟨7, _⟩ => (traj2 V c t.val t.isLt).o7
  Φ t := Phi2 V c t
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (traj2 V c t.val t.isLt).o5 := by dsimp only [dat2]
theorem after2_6 (c : Dev nD) (t : Fin cfg2.N) : (dat2 V c).after 6 t = (traj2 V c t.val t.isLt).o6 := by dsimp only [dat2]
theorem after2_7 (c : Dev nD) (t : Fin cfg2.N) : (dat2 V c).after 7 t = (traj2 V c t.val t.isLt).o7 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- The one-row outputs are idle wherever the point is not the last, and are written back at the last only. -/
theorem idle2_6_of (t : Fin cfg2.N) (h : ¬t.val = 19) : cfg2.idle 6 (cfg2.grid.coords t) = true := by
  have hc : ¬k2_cond2 (grid2.coords t) = 1#1 := fun hh => h ((hcond2_1 t).mp hh)
  show (!(k2_cond2 (grid2.coords t) == 1#1)) = true
  simp [hc]
theorem idle2_7_of (t : Fin cfg2.N) (h : ¬t.val = 19) : cfg2.idle 7 (cfg2.grid.coords t) = true := by
  have hc : ¬k2_cond2 (grid2.coords t) = 1#1 := fun hh => h ((hcond2_1 t).mp hh)
  show (!(k2_cond2 (grid2.coords t) == 1#1)) = true
  simp [hc]
theorem busy2_6_of (t : Fin cfg2.N) (h : t.val = 19) : cfg2.idle 6 (cfg2.grid.coords t) = false := by
  have hc : k2_cond2 (grid2.coords t) = 1#1 := (hcond2_1 t).mpr h
  show (!(k2_cond2 (grid2.coords t) == 1#1)) = false
  simp [hc]
theorem busy2_7_of (t : Fin cfg2.N) (h : t.val = 19) : cfg2.idle 7 (cfg2.grid.coords t) = false := by
  have hc : k2_cond2 (grid2.coords t) = 1#1 := (hcond2_1 t).mpr h
  show (!(k2_cond2 (grid2.coords t) == 1#1)) = false
  simp [hc]
theorem noflush2_6_of (t : Fin cfg2.N) (h : ¬t.val = 19) : (cfg2.win 6).flush t = false :=
  Bool.eq_false_iff.mpr fun hh => by have := (flush2_6 t).mp hh; have := t.isLt; have hN : cfg2.N = 20 := N_2; omega
theorem noflush2_7_of (t : Fin cfg2.N) (h : ¬t.val = 19) : (cfg2.win 7).flush t = false :=
  Bool.eq_false_iff.mpr fun hh => by have := (flush2_7 t).mp hh; have := t.isLt; have hN : cfg2.N = 20 := N_2; omega

set_option maxHeartbeats 4000000 in
/-- THE BODY at point `t`: which kind of point it is decides the case's run; the inputs hold their blocks, the accumulator
    rows what the points before left; a one-row output idle at the point is handed back as it was found. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d))
        ∗ (∃ d, owns (c : Thread nD τ) (st2_5 t) fullShare ((dat2 V c).before 5 t d))
        ∗ (∃ d, owns (c : Thread nD τ) (st2_6 t) fullShare ((dat2 V c).before 6 t d))
        ∗ (∃ d, owns (c : Thread nD τ) (st2_7 t) fullShare ((dat2 V c).before 7 t d)))
      ⊢ wp frame (wpE (defs₀ (F := F)) Variants.none c none) Set.univ (bodyAt2 t) fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t)
            ∗ owns (c : Thread nD τ) (st2_3 t) fullShare ((dat2 V c).after 3 t)
            ∗ owns (c : Thread nD τ) (st2_4 t) fullShare ((dat2 V c).after 4 t)
            ∗ owns (c : Thread nD τ) (st2_5 t) fullShare ((dat2 V c).after 5 t)
            ∗ (match cfg2.idle 6 (cfg2.grid.coords t) with
              | true =>
                match (cfg2.win 6).flush t with
                | false => iprop(∃ d, owns (c : Thread nD τ) (st2_6 t) fullShare ((dat2 V c).before 6 t d))
                | true => owns (c : Thread nD τ) (st2_6 t) fullShare ((dat2 V c).after 6 t)
              | false => owns (c : Thread nD τ) (st2_6 t) fullShare ((dat2 V c).after 6 t))
            ∗ (match cfg2.idle 7 (cfg2.grid.coords t) with
              | true =>
                match (cfg2.win 7).flush t with
                | false => iprop(∃ d, owns (c : Thread nD τ) (st2_7 t) fullShare ((dat2 V c).before 7 t d))
                | true => owns (c : Thread nD τ) (st2_7 t) fullShare ((dat2 V c).after 7 t)
              | false => owns (c : Thread nD τ) (st2_7 t) fullShare ((dat2 V c).after 7 t))) := by
  unfold bodyAt2
  by_cases q0 : t.val = 0
  · have q1 : ¬t.val = 19 := by omega
    rewrite [idle2_6_of t q1]; (try rewrite [idle2_7_of t q1]); rewrite [noflush2_6_of t q1]; (try rewrite [noflush2_7_of t q1])
    simp only [before2_0, before2_1, before2_2, before2_3, before2_4, after2_0, after2_1, after2_2, after2_3, after2_4, after2_5, after2_6, after2_7]
    rewrite [show (dat2 V c).Φ t.succ = Phi2 V c t.succ from rfl, show (dat2 V c).Φ t.castSucc = Phi2 V c t.castSucc from rfl,
      show (dat2 V c).owesAt () t.succ = (dat2 V c).owesAt () t.castSucc from rfl]
    unfold Phi2; simp only [prev2T_castSucc, prev2T_succ, traj2_eq, step2_A V c t _ q0, Fin.val_castSucc, Fin.val_succ]
    iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    iintro ⟨H0, H1, H2, H3, H4, ⟨%e5, H5⟩, ⟨%e9, HS0⟩, ⟨%e10, HS1⟩⟩
    isplitl [HS0 HS1 HR]
    · isplitl [HS0]
      · iexists _; isplitr; · ipureintro; exact fun _ => rfl
        unfold owns; iexists _; isplitr; swap
        · iexact HS0
        · ipureintro; exact View.read_writes_of_cover _ _ _ _ _ (cover2_A_9 _ _ _ _ _ _ _ _ _ _ _ _ _ _ _ _ _ _ _ _ _ _ _ _ _ _ _ _ _)
      isplitl [HS1]
      · iexists _; isplitr; · ipureintro; exact fun _ => rfl
        unfold owns; iexists _; isplitr; swap
        · iexact HS1
        · ipureintro; exact View.read_writes_of_cover _ _ _ _ _ (cover2_A_10 _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr; swap
      · iexact H5
      · ipureintro; exact View.read_writes_of_cover _ _ _ _ _ (cover2_A_5 _ _ _ _ _ _ _ _ _ _ _ _ _ _ _ _ _ _ _ _ _ _ _ _ _ _ _ _ _)
    isplitl [H6]; · iexists _; iexact H6
    iexists _; iexact H7
  · by_cases q1 : t.val = 19
    · rewrite [busy2_6_of t q1]; (try rewrite [busy2_7_of t q1])
      simp only [before2_0, before2_1, before2_2, before2_3, before2_4, after2_0, after2_1, after2_2, after2_3, after2_4, after2_5, after2_6, after2_7]
      rewrite [show (dat2 V c).Φ t.succ = Phi2 V c t.succ from rfl, show (dat2 V c).Φ t.castSucc = Phi2 V c t.castSucc from rfl,
        show (dat2 V c).owesAt () t.succ = (dat2 V c).owesAt () t.castSucc from rfl]
      unfold Phi2; simp only [prev2T_castSucc, prev2T_succ, traj2_eq, step2_C V c t _ q0 q1, Fin.val_castSucc, Fin.val_succ]
      iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha0 q0
      obtain rfl := ha1 q0
      iapply ((kernelRun2_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) (prev2 V c t).1 (prev2 V c t).2).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 HR]
      · isplitl [HS0]
        · iexists _; isplitr; · ipureintro; exact fun _ => rfl
          unfold owns; iexists _; isplitr; swap
          · iexact HS0
          · ipureintro; exact View.read_writes_of_cover _ _ _ _ _ (cover2_C_9 _ _ _ _ _ _ _ _ _ _ _ _ _ _ _ _ _ _ _ _ _ _ _ _ _ _ _ _ _ _ _)
        isplitl [HS1]
        · iexists _; isplitr; · ipureintro; exact fun _ => rfl
          unfold owns; iexists _; isplitr; swap
          · iexact HS1
          · ipureintro; exact View.read_writes_of_cover _ _ _ _ _ (cover2_C_10 _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap
        · iexact H5
        · ipureintro; exact View.read_writes_of_cover _ _ _ _ _ (cover2_C_5 _ _ _ _ _ _ _ _ _ _ _ _ _ _ _ _ _ _ _ _ _ _ _ _ _ _ _ _ _ _ _)
      isplitl [H6]
      · unfold owns; iexists _; isplitr; swap
        · iexact H6
        · ipureintro; exact View.read_writes_of_cover _ _ _ _ _ (cover2_C_6 _ _ _ _ _ _ _ _ _ _ _ _ _ _ _ _ _ _ _ _ _ _ _ _ _ _ _ _ _ _ _)
      unfold owns; iexists _; isplitr; swap
      · iexact H7
      · ipureintro; exact View.read_writes_of_cover _ _ _ _ _ (cover2_C_7 _ _ _ _ _ _ _ _ _ _ _ _ _ _ _ _ _ _ _ _ _ _ _ _ _ _ _ _ _ _ _)
    · rewrite [idle2_6_of t q1]; (try rewrite [idle2_7_of t q1]); rewrite [noflush2_6_of t q1]; (try rewrite [noflush2_7_of t q1])
      simp only [before2_0, before2_1, before2_2, before2_3, before2_4, after2_0, after2_1, after2_2, after2_3, after2_4, after2_5, after2_6, after2_7]
      rewrite [show (dat2 V c).Φ t.succ = Phi2 V c t.succ from rfl, show (dat2 V c).Φ t.castSucc = Phi2 V c t.castSucc from rfl,
        show (dat2 V c).owesAt () t.succ = (dat2 V c).owesAt () t.castSucc from rfl]
      unfold Phi2; simp only [prev2T_castSucc, prev2T_succ, traj2_eq, step2_B V c t _ q0 q1, Fin.val_castSucc, Fin.val_succ]
      iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha0 q0
      obtain rfl := ha1 q0
      iapply ((kernelRun2_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) (prev2 V c t).1 (prev2 V c t).2).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%e9, HS0⟩, ⟨%e10, HS1⟩⟩
      isplitl [HS0 HS1 HR]
      · isplitl [HS0]
        · iexists _; isplitr; · ipureintro; exact fun _ => rfl
          unfold owns; iexists _; isplitr; swap
          · iexact HS0
          · ipureintro; exact View.read_writes_of_cover _ _ _ _ _ (cover2_B_9 _ _ _ _ _ _ _ _ _ _ _ _ _ _ _ _ _ _ _ _ _ _ _ _ _ _ _ _ _ _ _)
        isplitl [HS1]
        · iexists _; isplitr; · ipureintro; exact fun _ => rfl
          unfold owns; iexists _; isplitr; swap
          · iexact HS1
          · ipureintro; exact View.read_writes_of_cover _ _ _ _ _ (cover2_B_10 _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap
        · iexact H5
        · ipureintro; exact View.read_writes_of_cover _ _ _ _ _ (cover2_B_5 _ _ _ _ _ _ _ _ _ _ _ _ _ _ _ _ _ _ _ _ _ _ _ _ _ _ _ _ _ _ _)
      isplitl [H6]; · iexists _; iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Stats4Run.lean ====
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third SAGE layer's linear combine with its column statistics (pipeline 4)

Each grid point handles 5000 rows: it writes the rows' combine `agg·Wlᵀ + bl + x·Wrᵀ` to its block of the output
and adds the block's column sums and column sums of squares to two accumulator rows, which the first point starts from
zero and the last point copies to the two one-row outputs. Three kinds of point: the first, the last, the ones between. -/

/-- The point is the first one (the accumulators are reset there). -/
abbrev cond4_0 (i : grid4.Coords) : Prop := (Scalar.cmpi .ne (Scalar.extui (Scalar.cmpi .eq (BitVec.ofNat 32 (i 0).val) 0#32)) 0#32) = 1#1
/-- The point is the last one (the accumulators are copied out there). -/
abbrev cond4_1 (i : grid4.Coords) : Prop := k4_cond2 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 19 :=
  (by decide +kernel : ∀ t : Fin grid4.N, cond4_1 (grid4.coords t) ↔ t.val = 19)

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond4_0 i) (hc1 : ¬cond4_1 i) (x0 x1 : Vec F S5000x128 .f32) (x2 : Vec F S128x64 .f32) (x3 : Vec F S1x64 .f32) (x4 : Vec F S128x64 .f32) :
    Σ' (L5 : List (View.Piece (Elt F) S5000x64 .f32)) (L9 L10 : List (View.Piece (Elt F) S1x64 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9 arg10 harg10) K := by
  refine ⟨?_, ?_, ?_, fun E K => ?run⟩
  case run =>
    simp only [cc4__linear_stats_kernel_eq_skeleton]; unfold cc4__linear_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d9, %f9, -, H9⟩, ⟨%d10, %f10, -, H10⟩, Hk⟩
    obtain rfl := harg1.eq_unread hf0
    obtain rfl := harg2.eq_unread hf1
    obtain rfl := harg3.eq_unread hf2
    obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H9]; · iexists _; iexact H9
    iexists _; iexact H10

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : ¬cond4_1 i) (x0 x1 : Vec F S5000x128 .f32) (x2 : Vec F S128x64 .f32) (x3 : Vec F S1x64 .f32) (x4 : Vec F S128x64 .f32) (s0 s1 : Vec F S1x64 .f32) :
    Σ' (L5 : List (View.Piece (Elt F) S5000x64 .f32)) (L9 L10 : List (View.Piece (Elt F) S1x64 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ owns (c : Thread nD τ) arg9 fullShare s0 ∗ owns (c : Thread nD τ) arg10 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9 arg10 harg10) K := by
  refine ⟨?_, ?_, ?_, fun E K => ?run⟩
  case run =>
    simp only [cc4__linear_stats_kernel_eq_skeleton]; unfold cc4__linear_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f9, %hf9, H9⟩, ⟨%f10, %hf10, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg9.eq_unread hf9
    obtain rfl := harg10.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H9]; · iexists _; iexact H9
    iexists _; iexact H10

set_option maxHeartbeats 2000000 in
/-- The body at a point of this case, on whole staging memrefs and the two accumulator rows: the five inputs at their
    blocks, the row-block output and the accumulators at anything; it ends with the inputs as they were and each
    written buffer with the stores the run found (its witness), last first. -/
noncomputable def kernelRun4_C (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) :
    Σ' (L5 : List (View.Piece (Elt F) S5000x64 .f32)) (L6 L7 L9 L10 : List (View.Piece (Elt F) S1x64 .f32)),
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d)
            ∗ (∃ d, owns (c : Thread nD τ) arg7 fullShare d) ∗ (∃ d, owns (c : Thread nD τ) arg8 fullShare d)
            ∗ owns (c : Thread nD τ) arg9 fullShare s0 ∗ owns (c : Thread nD τ) arg10 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9 arg10 harg10) K := by
  refine ⟨?_, ?_, ?_, ?_, ?_, fun E K => ?run⟩
  case run =>
    simp only [cc4__linear_stats_kernel_eq_skeleton]; unfold cc4__linear_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg9.eq_unread hf9
    obtain rfl := harg10.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.KI.Stats4Traj.lean ====
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.KI.Stats4Run
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 4 point by point: what the accumulator rows and the outputs hold after each grid point -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- One view of each written shape through which a list of stores is read back (any whole buffer of the shape does). -/
abbrev VB4 : View sig .tc .vmem S5000x64 .f32 := (Memref.whole cc4_stg5_0 : Memref sig .tc .vmem S5000x64 .f32).view
abbrev VR4 : View sig .tc .vmem S1x64 .f32 := (Memref.whole cc4_scratch0 : Memref sig .tc .vmem S1x64 .f32).view
/-- What a list of stores (last first) leaves in a row-block buffer / in a one-row buffer. -/
def rdB4 (L : List (View.Piece (Elt F) S5000x64 .f32)) : Vec F S5000x64 .f32 := VB4.read (Elt F) (VB4.writes (Elt F) VB4.junk L)
def rdR4 (L : List (View.Piece (Elt F) S1x64 .f32)) : Vec F S1x64 .f32 := VR4.read (Elt F) (VR4.writes (Elt F) VR4.junk L)
/-- A row nothing has determined. -/
def row4_any : Vec F S1x64 .f32 := VR4.read (Elt F) VR4.junk

/-- What one grid point leaves: its block of the combine, the two one-row outputs (meaningful at the last point only)
    and the two accumulator rows. -/
structure Pt4 (F : FTy → Type) where
  o5 : Vec F S5000x64 .f32
  o6 : Vec F S1x64 .f32
  o7 : Vec F S1x64 .f32
  a0 : Vec F S1x64 .f32
  a1 : Vec F S1x64 .f32

/-- ONE POINT from the accumulator rows before it: the first point resets them, the last also copies them out. -/
def step4 (c : Dev nD) (t : Fin cfg4.N) (prev : Vec F S1x64 .f32 × Vec F S1x64 .f32) : Pt4 F :=
  if q0 : t.val = 0 then
    ⟨rdB4 (kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).1, prev.1, prev.2, rdR4 (kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).2.1, rdR4 (kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).2.2.1⟩
  else if q1 : t.val = 19 then
    ⟨rdB4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.2.1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.2.2.1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.2.2.2.1⟩
  else
    ⟨rdB4 (kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2).1, prev.1, prev.2, rdR4 (kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2).2.1, rdR4 (kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2).2.2.1⟩

/-- THE TRAJECTORY: what the points up to position `n` leave. -/
def traj4 (c : Dev nD) : (n : ℕ) → n < cfg4.N → Pt4 F
  | 0, h => step4 V c ⟨0, h⟩ (row4_any, row4_any)
  | n + 1, h => step4 V c ⟨n + 1, h⟩ ((traj4 c n (Nat.lt_of_succ_lt h)).a0, (traj4 c n (Nat.lt_of_succ_lt h)).a1)

/-- The accumulator rows before point `t`. -/
def prev4 (c : Dev nD) (t : Fin cfg4.N) : Vec F S1x64 .f32 × Vec F S1x64 .f32 :=
  if h : t.val = 0 then (row4_any, row4_any) else ((traj4 V c (t.val - 1) (by omega)).a0, (traj4 V c (t.val - 1) (by omega)).a1)

theorem traj4_eq (c : Dev nD) (t : Fin cfg4.N) : traj4 V c t.val t.isLt = step4 V c t (prev4 V c t) := by
  obtain ⟨n, hn⟩ := t
  cases n with
  | zero => rfl
  | succ n => unfold prev4; simp only [Nat.add_one_ne_zero, dif_neg, not_false_eq_true]; rfl

theorem step4_A (c : Dev nD) (t : Fin cfg4.N) (prev : Vec F S1x64 .f32 × Vec F S1x64 .f32) (q0 : t.val = 0) :
    step4 V c t prev = ⟨rdB4 (kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).1, prev.1, prev.2, rdR4 (kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).2.1, rdR4 (kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).2.2.1⟩ := by
  unfold step4; simp only [dif_pos q0]
theorem step4_B (c : Dev nD) (t : Fin cfg4.N) (prev : Vec F S1x64 .f32 × Vec F S1x64 .f32) (q0 : ¬t.val = 0) (q1 : ¬t.val = 19) :
    step4 V c t prev = ⟨rdB4 (kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2).1, prev.1, prev.2, rdR4 (kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2).2.1, rdR4 (kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2).2.2.1⟩ := by
  unfold step4; simp only [dif_neg q0, dif_neg q1]
theorem step4_C (c : Dev nD) (t : Fin cfg4.N) (prev : Vec F S1x64 .f32 × Vec F S1x64 .f32) (q0 : ¬t.val = 0) (q1 : t.val = 19) :
    step4 V c t prev = ⟨rdB4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.2.1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.2.2.1, rdR4 (kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).2.2.2.2.1⟩ := by
  unfold step4; simp only [dif_neg q0, dif_pos q1]

/-- The accumulator rows before position `t` of the invariant's index (one more than the points). -/
def prev4T (c : Dev nD) (t : Fin (cfg4.N + 1)) : Vec F S1x64 .f32 × Vec F S1x64 .f32 :=
  if h : t.val = 0 then (row4_any, row4_any) else ((traj4 V c (t.val - 1) (by omega)).a0, (traj4 V c (t.val - 1) (by omega)).a1)

theorem prev4T_castSucc (c : Dev nD) (t : Fin cfg4.N) : prev4T V c t.castSucc = prev4 V c t := rfl
theorem prev4T_succ (c : Dev nD) (t : Fin cfg4.N) : prev4T V c t.succ = ((traj4 V c t.val t.isLt).a0, (traj4 V c t.val t.isLt).a1) := by
  unfold prev4T; rw [dif_neg (by simp)]; rfl

end Cert.KernelIdeal.Hand

end
-- ==== Proof.KI.Stats4Cover.lean ====
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.KI.Stats4Run
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Each list of stores a case of pipeline 4's body leaves covers its buffer -/

theorem cover4_A_5 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond4_0 i) (hc1 : ¬cond4_1 i) (x0 x1 : Vec F S5000x128 .f32) (x2 : Vec F S128x64 .f32) (x3 : Vec F S1x64 .f32) (x4 : Vec F S128x64 .f32) (y : S5000x64.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL _ S5000x64.size (by sl_kernel_rfl) y
theorem cover4_A_9 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond4_0 i) (hc1 : ¬cond4_1 i) (x0 x1 : Vec F S5000x128 .f32) (x2 : Vec F S128x64 .f32) (x3 : Vec F S1x64 .f32) (x4 : Vec F S128x64 .f32) (y : S1x64.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL _ S1x64.size (by sl_kernel_rfl) y
theorem cover4_A_10 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond4_0 i) (hc1 : ¬cond4_1 i) (x0 x1 : Vec F S5000x128 .f32) (x2 : Vec F S128x64 .f32) (x3 : Vec F S1x64 .f32) (x4 : Vec F S128x64 .f32) (y : S1x64.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL _ S1x64.size (by sl_kernel_rfl) y
theorem cover4_B_5 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : ¬cond4_1 i) (x0 x1 : Vec F S5000x128 .f32) (x2 : Vec F S128x64 .f32) (x3 : Vec F S1x64 .f32) (x4 : Vec F S128x64 .f32) (s0 s1 : Vec F S1x64 .f32) (y : S5000x64.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 s0 s1).1, y ∈ pc.1.set :=
  View.cover_of_tiledL _ S5000x64.size (by sl_kernel_rfl) y
theorem cover4_B_9 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : ¬cond4_1 i) (x0 x1 : Vec F S5000x128 .f32) (x2 : Vec F S128x64 .f32) (x3 : Vec F S1x64 .f32) (x4 : Vec F S128x64 .f32) (s0 s1 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 s0 s1).2.1, y ∈ pc.1.set :=
  View.cover_of_tiledL _ S1x64.size (by sl_kernel_rfl) y
theorem cover4_B_10 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : ¬cond4_1 i) (x0 x1 : Vec F S5000x128 .f32) (x2 : Vec F S128x64 .f32) (x3 : Vec F S1x64 .f32) (x4 : Vec F S128x64 .f32) (s0 s1 : Vec F S1x64 .f32) (y : S1x64.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 s0 s1).2.2.1, y ∈ pc.1.set :=
  View.cover_of_tiledL _ S1x64.size (by sl_kernel_rfl) y
theorem cover4_C_5 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) (y : S5000x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 s0 s1).1, y ∈ pc.1.set :=
  View.cover_of_tiledL _ S5000x64.size (by sl_kernel_rfl) y
theorem cover4_C_6 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 s0 s1).2.1, y ∈ pc.1.set :=
  View.cover_of_tiledL _ S1x64.size (by sl_kernel_rfl) y
theorem cover4_C_7 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 s0 s1).2.2.1, y ∈ pc.1.set :=
  View.cover_of_tiledL _ S1x64.size (by sl_kernel_rfl) y
theorem cover4_C_9 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 s0 s1).2.2.2.1, y ∈ pc.1.set :=
  View.cover_of_tiledL _ S1x64.size (by sl_kernel_rfl) y
theorem cover4_C_10 (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) (y : S1x64.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 s0 s1).2.2.2.2.1, y ∈ pc.1.set :=
  View.cover_of_tiledL _ S1x64.size (by sl_kernel_rfl) y

end Cert.KernelIdeal.Hand

end
-- ==== Proof.KI.Stats4.lean ====
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.KI.Stats4Traj
import proofs.«121727_j57028575756303_1_alg».proof.Proof.KI.Stats4Cover
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 4: the proof data and the body obligation -/

abbrev M9_4 : Memref sig .tc .vmem S1x64 .f32 := Memref.whole cc4_scratch0
abbrev M14_0 : Memref sig .tc .vmem S1x64 .f32 := Memref.whole cc4_scratch1

/-- The scoped buffers this pipeline neither stages nor uses as accumulators, each at some contents. -/
abbrev Rest4 (c : Dev nD) : sProp 𝕄 :=
  Pipeline.scopedRestBut (Ix := Unit) (Name := ℕ) (U := UR sig nD τ) (Lvl := ℕ) (Val := Elt F) spec4 c [cc4_scratch0, cc4_scratch1]

/-- THE INVARIANT before point `t`: the two accumulator rows at what the points before left (anything before the
    first point, which resets them), beside the untouched scoped buffers. -/
def Phi4 (c : Dev nD) (t : Fin (cfg4.N + 1)) : sProp 𝕄 :=
  iprop((∃ a, ⌜t.val ≠ 0 → a = (prev4T V c t).1⌝ ∗ owns (c : Thread nD τ) M9_4 fullShare a)
      ∗ (∃ a, ⌜t.val ≠ 0 → a = (prev4T V c t).2⌝ ∗ owns (c : Thread nD τ) M14_0 fullShare a)
      ∗ Rest4 c)

/-- The proof data of pipeline 4 on core `c`: the arrays as the region finds them; after point `t` each input's
    buffer at its block, the outputs' at what the trajectory says. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (traj4 V c t.val t.isLt).o5
    | ⟨6, _⟩ => (traj4 V c t.val t.isLt).o6
    | ⟨7, _⟩ => (traj4 V c t.val t.isLt).o7
  Φ t := Phi4 V c t
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (traj4 V c t.val t.isLt).o5 := by dsimp only [dat4]
theorem after4_6 (c : Dev nD) (t : Fin cfg4.N) : (dat4 V c).after 6 t = (traj4 V c t.val t.isLt).o6 := by dsimp only [dat4]
theorem after4_7 (c : Dev nD) (t : Fin cfg4.N) : (dat4 V c).after 7 t = (traj4 V c t.val t.isLt).o7 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- The one-row outputs are idle wherever the point is not the last, and are written back at the last only. -/
theorem idle4_6_of (t : Fin cfg4.N) (h : ¬t.val = 19) : cfg4.idle 6 (cfg4.grid.coords t) = true := by
  have hc : ¬k4_cond2 (grid4.coords t) = 1#1 := fun hh => h ((hcond4_1 t).mp hh)
  show (!(k4_cond2 (grid4.coords t) == 1#1)) = true
  simp [hc]
theorem idle4_7_of (t : Fin cfg4.N) (h : ¬t.val = 19) : cfg4.idle 7 (cfg4.grid.coords t) = true := by
  have hc : ¬k4_cond2 (grid4.coords t) = 1#1 := fun hh => h ((hcond4_1 t).mp hh)
  show (!(k4_cond2 (grid4.coords t) == 1#1)) = true
  simp [hc]
theorem busy4_6_of (t : Fin cfg4.N) (h : t.val = 19) : cfg4.idle 6 (cfg4.grid.coords t) = false := by
  have hc : k4_cond2 (grid4.coords t) = 1#1 := (hcond4_1 t).mpr h
  show (!(k4_cond2 (grid4.coords t) == 1#1)) = false
  simp [hc]
theorem busy4_7_of (t : Fin cfg4.N) (h : t.val = 19) : cfg4.idle 7 (cfg4.grid.coords t) = false := by
  have hc : k4_cond2 (grid4.coords t) = 1#1 := (hcond4_1 t).mpr h
  show (!(k4_cond2 (grid4.coords t) == 1#1)) = false
  simp [hc]
theorem noflush4_6_of (t : Fin cfg4.N) (h : ¬t.val = 19) : (cfg4.win 6).flush t = false :=
  Bool.eq_false_iff.mpr fun hh => by have := (flush4_6 t).mp hh; have := t.isLt; have hN : cfg4.N = 20 := N_4; omega
theorem noflush4_7_of (t : Fin cfg4.N) (h : ¬t.val = 19) : (cfg4.win 7).flush t = false :=
  Bool.eq_false_iff.mpr fun hh => by have := (flush4_7 t).mp hh; have := t.isLt; have hN : cfg4.N = 20 := N_4; omega

set_option maxHeartbeats 4000000 in
/-- THE BODY at point `t`: which kind of point it is decides the case's run; the inputs hold their blocks, the accumulator
    rows what the points before left; a one-row output idle at the point is handed back as it was found. -/
theorem sound_body4 (c : Dev nD) (t : Fin cfg4.N) :
    iprop((dat4 V c).Φ t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d))
        ∗ (∃ d, owns (c : Thread nD τ) (st4_3 t) fullShare ((dat4 V c).before 3 t d))
        ∗ (∃ d, owns (c : Thread nD τ) (st4_4 t) fullShare ((dat4 V c).before 4 t d))
        ∗ (∃ d, owns (c : Thread nD τ) (st4_5 t) fullShare ((dat4 V c).before 5 t d))
        ∗ (∃ d, owns (c : Thread nD τ) (st4_6 t) fullShare ((dat4 V c).before 6 t d))
        ∗ (∃ d, owns (c : Thread nD τ) (st4_7 t) fullShare ((dat4 V c).before 7 t d)))
      ⊢ wp frame (wpE (defs₀ (F := F)) Variants.none c none) Set.univ (bodyAt4 t) fun _ =>
          iprop((dat4 V c).Φ t.succ ∗ (dat4 V c).owesAt () t.succ
            ∗ owns (c : Thread nD τ) (st4_0 t) fullShare ((dat4 V c).after 0 t)
            ∗ owns (c : Thread nD τ) (st4_1 t) fullShare ((dat4 V c).after 1 t)
            ∗ owns (c : Thread nD τ) (st4_2 t) fullShare ((dat4 V c).after 2 t)
            ∗ owns (c : Thread nD τ) (st4_3 t) fullShare ((dat4 V c).after 3 t)
            ∗ owns (c : Thread nD τ) (st4_4 t) fullShare ((dat4 V c).after 4 t)
            ∗ owns (c : Thread nD τ) (st4_5 t) fullShare ((dat4 V c).after 5 t)
            ∗ (match cfg4.idle 6 (cfg4.grid.coords t) with
              | true =>
                match (cfg4.win 6).flush t with
                | false => iprop(∃ d, owns (c : Thread nD τ) (st4_6 t) fullShare ((dat4 V c).before 6 t d))
                | true => owns (c : Thread nD τ) (st4_6 t) fullShare ((dat4 V c).after 6 t)
              | false => owns (c : Thread nD τ) (st4_6 t) fullShare ((dat4 V c).after 6 t))
            ∗ (match cfg4.idle 7 (cfg4.grid.coords t) with
              | true =>
                match (cfg4.win 7).flush t with
                | false => iprop(∃ d, owns (c : Thread nD τ) (st4_7 t) fullShare ((dat4 V c).before 7 t d))
                | true => owns (c : Thread nD τ) (st4_7 t) fullShare ((dat4 V c).after 7 t)
              | false => owns (c : Thread nD τ) (st4_7 t) fullShare ((dat4 V c).after 7 t))) := by
  unfold bodyAt4
  by_cases q0 : t.val = 0
  · have q1 : ¬t.val = 19 := by omega
    rewrite [idle4_6_of t q1]; (try rewrite [idle4_7_of t q1]); rewrite [noflush4_6_of t q1]; (try rewrite [noflush4_7_of t q1])
    simp only [before4_0, before4_1, before4_2, before4_3, before4_4, after4_0, after4_1, after4_2, after4_3, after4_4, after4_5, after4_6, after4_7]
    rewrite [show (dat4 V c).Φ t.succ = Phi4 V c t.succ from rfl, show (dat4 V c).Φ t.castSucc = Phi4 V c t.castSucc from rfl,
      show (dat4 V c).owesAt () t.succ = (dat4 V c).owesAt () t.castSucc from rfl]
    unfold Phi4; simp only [prev4T_castSucc, prev4T_succ, traj4_eq, step4_A V c t _ q0, Fin.val_castSucc, Fin.val_succ]
    iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    iintro ⟨H0, H1, H2, H3, H4, ⟨%e5, H5⟩, ⟨%e9, HS0⟩, ⟨%e10, HS1⟩⟩
    isplitl [HS0 HS1 HR]
    · isplitl [HS0]
      · iexists _; isplitr; · ipureintro; exact fun _ => rfl
        unfold owns; iexists _; isplitr; swap
        · iexact HS0
        · ipureintro; exact View.read_writes_of_cover _ _ _ _ _ (cover4_A_9 _ _ _ _ _ _ _ _ _ _ _ _ _ _ _ _ _ _ _ _ _ _ _ _ _ _ _ _ _)
      isplitl [HS1]
      · iexists _; isplitr; · ipureintro; exact fun _ => rfl
        unfold owns; iexists _; isplitr; swap
        · iexact HS1
        · ipureintro; exact View.read_writes_of_cover _ _ _ _ _ (cover4_A_10 _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr; swap
      · iexact H5
      · ipureintro; exact View.read_writes_of_cover _ _ _ _ _ (cover4_A_5 _ _ _ _ _ _ _ _ _ _ _ _ _ _ _ _ _ _ _ _ _ _ _ _ _ _ _ _ _)
    isplitl [H6]; · iexists _; iexact H6
    iexists _; iexact H7
  · by_cases q1 : t.val = 19
    · rewrite [busy4_6_of t q1]; (try rewrite [busy4_7_of t q1])
      simp only [before4_0, before4_1, before4_2, before4_3, before4_4, after4_0, after4_1, after4_2, after4_3, after4_4, after4_5, after4_6, after4_7]
      rewrite [show (dat4 V c).Φ t.succ = Phi4 V c t.succ from rfl, show (dat4 V c).Φ t.castSucc = Phi4 V c t.castSucc from rfl,
        show (dat4 V c).owesAt () t.succ = (dat4 V c).owesAt () t.castSucc from rfl]
      unfold Phi4; simp only [prev4T_castSucc, prev4T_succ, traj4_eq, step4_C V c t _ q0 q1, Fin.val_castSucc, Fin.val_succ]
      iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha0 q0
      obtain rfl := ha1 q0
      iapply ((kernelRun4_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) (prev4 V c t).1 (prev4 V c t).2).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%e9, HS0⟩, ⟨%e10, HS1⟩⟩
      isplitl [HS0 HS1 HR]
      · isplitl [HS0]
        · iexists _; isplitr; · ipureintro; exact fun _ => rfl
          unfold owns; iexists _; isplitr; swap
          · iexact HS0
          · ipureintro; exact View.read_writes_of_cover _ _ _ _ _ (cover4_C_9 _ _ _ _ _ _ _ _ _ _ _ _ _ _ _ _ _ _ _ _ _ _ _ _ _ _ _ _ _ _ _)
        isplitl [HS1]
        · iexists _; isplitr; · ipureintro; exact fun _ => rfl
          unfold owns; iexists _; isplitr; swap
          · iexact HS1
          · ipureintro; exact View.read_writes_of_cover _ _ _ _ _ (cover4_C_10 _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap
        · iexact H5
        · ipureintro; exact View.read_writes_of_cover _ _ _ _ _ (cover4_C_5 _ _ _ _ _ _ _ _ _ _ _ _ _ _ _ _ _ _ _ _ _ _ _ _ _ _ _ _ _ _ _)
      isplitl [H6]
      · unfold owns; iexists _; isplitr; swap
        · iexact H6
        · ipureintro; exact View.read_writes_of_cover _ _ _ _ _ (cover4_C_6 _ _ _ _ _ _ _ _ _ _ _ _ _ _ _ _ _ _ _ _ _ _ _ _ _ _ _ _ _ _ _)
      unfold owns; iexists _; isplitr; swap
      · iexact H7
      · ipureintro; exact View.read_writes_of_cover _ _ _ _ _ (cover4_C_7 _ _ _ _ _ _ _ _ _ _ _ _ _ _ _ _ _ _ _ _ _ _ _ _ _ _ _ _ _ _ _)
    · rewrite [idle4_6_of t q1]; (try rewrite [idle4_7_of t q1]); rewrite [noflush4_6_of t q1]; (try rewrite [noflush4_7_of t q1])
      simp only [before4_0, before4_1, before4_2, before4_3, before4_4, after4_0, after4_1, after4_2, after4_3, after4_4, after4_5, after4_6, after4_7]
      rewrite [show (dat4 V c).Φ t.succ = Phi4 V c t.succ from rfl, show (dat4 V c).Φ t.castSucc = Phi4 V c t.castSucc from rfl,
        show (dat4 V c).owesAt () t.succ = (dat4 V c).owesAt () t.castSucc from rfl]
      unfold Phi4; simp only [prev4T_castSucc, prev4T_succ, traj4_eq, step4_B V c t _ q0 q1, Fin.val_castSucc, Fin.val_succ]
      iintro ⟨⟨⟨%a0, %ha0, HS0⟩, ⟨%a1, %ha1, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := ha0 q0
      obtain rfl := ha1 q0
      iapply ((kernelRun4_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) (prev4 V c t).1 (prev4 V c t).2).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%e9, HS0⟩, ⟨%e10, HS1⟩⟩
      isplitl [HS0 HS1 HR]
      · isplitl [HS0]
        · iexists _; isplitr; · ipureintro; exact fun _ => rfl
          unfold owns; iexists _; isplitr; swap
          · iexact HS0
          · ipureintro; exact View.read_writes_of_cover _ _ _ _ _ (cover4_B_9 _ _ _ _ _ _ _ _ _ _ _ _ _ _ _ _ _ _ _ _ _ _ _ _ _ _ _ _ _ _ _)
        isplitl [HS1]
        · iexists _; isplitr; · ipureintro; exact fun _ => rfl
          unfold owns; iexists _; isplitr; swap
          · iexact HS1
          · ipureintro; exact View.read_writes_of_cover _ _ _ _ _ (cover4_B_10 _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr; swap
        · iexact H5
        · ipureintro; exact View.read_writes_of_cover _ _ _ _ _ (cover4_B_5 _ _ _ _ _ _ _ _ _ _ _ _ _ _ _ _ _ _ _ _ _ _ _ _ _ _ _ _ _ _ _)
      isplitl [H6]; · iexists _; iexact H6
      iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.BnRelu1.lean ====
/- The batch-normalisation-and-ReLU kernel of pipeline 1: stated at a parameter `V`, the
   TensorCore's buffer contents when the region is entered. The kernel reads a [5000, 128] block of the
   activations `h` and four [1, 128] rows (scale `g`, shift `b`, mean, variance) and stores
   `max ((h - mean) * rsqrt (var + eps) * g + b, 0)` over the whole output block. Here: each window's block
   at a grid point, the output block as a pure function of the five input blocks, the body's triple, the
   pipeline's proof data and the body obligation. -/
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [5000, 128] block: what the activations' load and the output's store access. -/
abbrev r1_blk : Rect S5000x128 := Rect.unit (s := S5000x128) ![0, 0] S5000x128.size inb_S5000x128_S5000x128_0_0
/-- The whole [1, 128] row: what each of the four row loads accesses. -/
abbrev r1_row : Rect S1x128 := Rect.unit (s := S1x128) ![0, 0] S1x128.size inb_S1x128_S1x128_0_0

/-! ## What the body leaves in the output window's buffer -/

/-- Window 5's staging buffer after the body, from the input windows' blocks `x0` (activations), `x1` (scale),
    `x2` (shift), `x3` (mean), `x4` (variance): its one store, of
    `max ((x0 - x3) * rsqrt (x4 + eps) * x1 + x2, 0)`, over the whole block. -/
def out1_5 (x0 : Vec F S5000x128 .f32) (x1 : Vec F S1x128 .f32) (x2 : Vec F S1x128 .f32) (x3 : Vec F S1x128 .f32) (x4 : Vec F S1x128 .f32) : Vec F S5000x128 .f32 :=
  View.canon [⟨r1_blk, k1_pay1 (View.ld x0 r1_blk) (View.ld x4 r1_row) (View.ld x3 r1_row) (View.ld x1 r1_row) (View.ld x2 r1_row)⟩]

/-- The one store is over the whole buffer, so it covers it. -/
theorem cover1_5 (p0 : Vec F S5000x128 .f32) (y : S5000x128.Idx) :
    ∃ pc ∈ ([⟨r1_blk, p0⟩] : List (View.Piece (Elt F) S5000x128 .f32)), y ∈ pc.1.set :=
  View.cover_of_tiled [⟨r1_blk, p0⟩] S5000x128.size (by rfl) y

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at
    point `t` each input's buffer at its block and the output's at `out1_5` of the input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.BnRelu3.lean ====
/- The batch-normalisation-and-ReLU kernel of pipeline 3: stated at a parameter `V`, the
   TensorCore's buffer contents when the region is entered. The kernel reads a [5000, 128] block of the
   activations `h` and four [1, 128] rows (scale `g`, shift `b`, mean, variance) and stores
   `max ((h - mean) * rsqrt (var + eps) * g + b, 0)` over the whole output block. Here: each window's block
   at a grid point, the output block as a pure function of the five input blocks, the body's triple, the
   pipeline's proof data and the body obligation. -/
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): where the window is not
    fetched its block index has not moved, the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): where the window is not
    fetched its block index has not moved, the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): where the window is not
    fetched its block index has not moved, the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): where the window is not
    fetched its block index has not moved, the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole [5000, 128] block: what the activations' load and the output's store access. -/
abbrev r3_blk : Rect S5000x128 := Rect.unit (s := S5000x128) ![0, 0] S5000x128.size inb_S5000x128_S5000x128_0_0
/-- The whole [1, 128] row: what each of the four row loads accesses. -/
abbrev r3_row : Rect S1x128 := Rect.unit (s := S1x128) ![0, 0] S1x128.size inb_S1x128_S1x128_0_0

/-! ## What the body leaves in the output window's buffer -/

/-- Window 5's staging buffer after the body, from the input windows' blocks `x0` (activations), `x1` (scale),
    `x2` (shift), `x3` (mean), `x4` (variance): its one store, of
    `max ((x0 - x3) * rsqrt (x4 + eps) * x1 + x2, 0)`, over the whole block. -/
def out3_5 (x0 : Vec F S5000x128 .f32) (x1 : Vec F S1x128 .f32) (x2 : Vec F S1x128 .f32) (x3 : Vec F S1x128 .f32) (x4 : Vec F S1x128 .f32) : Vec F S5000x128 .f32 :=
  View.canon [⟨r3_blk, k3_pay1 (View.ld x0 r3_blk) (View.ld x4 r3_row) (View.ld x3 r3_row) (View.ld x1 r3_row) (View.ld x2 r3_row)⟩]

/-- The one store is over the whole buffer, so it covers it. -/
theorem cover3_5 (p0 : Vec F S5000x128 .f32) (y : S5000x128.Idx) :
    ∃ pc ∈ ([⟨r3_blk, p0⟩] : List (View.Piece (Elt F) S5000x128 .f32)), y ∈ pc.1.set :=
  View.cover_of_tiled [⟨r3_blk, p0⟩] S5000x128.size (by rfl) y

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and the output's at `out3_5` of the input blocks; the invariant is
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.BnRelu5.lean ====
/- The batch-normalisation-and-ReLU kernel of pipeline 5: stated at a parameter `V`, the
   TensorCore's buffer contents when the region is entered. The kernel reads a [5000, 64] block of the
   activations `h` and four [1, 64] rows (scale `g`, shift `b`, mean, variance) and stores
   `max ((h - mean) * rsqrt (var + eps) * g + b, 0)` over the whole output block. Here: each window's block
   at a grid point, the output block as a pure function of the five input blocks, the body's triple, the
   pipeline's proof data and the body obligation. -/
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved, the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): where the window is not
    fetched its block index has not moved, the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): where the window is not
    fetched its block index has not moved, the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): where the window is not
    fetched its block index has not moved, the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): where the window is not
    fetched its block index has not moved, the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [5000, 64] block: what the activations' load and the output's store access. -/
abbrev r5_blk : Rect S5000x64 := Rect.unit (s := S5000x64) ![0, 0] S5000x64.size inb_S5000x64_S5000x64_0_0
/-- The whole [1, 64] row: what each of the four row loads accesses. -/
abbrev r5_row : Rect S1x64 := Rect.unit (s := S1x64) ![0, 0] S1x64.size inb_S1x64_S1x64_0_0

/-! ## What the body leaves in the output window's buffer -/

/-- Window 5's staging buffer after the body, from the input windows' blocks `x0` (activations), `x1` (scale),
    `x2` (shift), `x3` (mean), `x4` (variance): its one store, of
    `max ((x0 - x3) * rsqrt (x4 + eps) * x1 + x2, 0)`, over the whole block. -/
def out5_5 (x0 : Vec F S5000x64 .f32) (x1 : Vec F S1x64 .f32) (x2 : Vec F S1x64 .f32) (x3 : Vec F S1x64 .f32) (x4 : Vec F S1x64 .f32) : Vec F S5000x64 .f32 :=
  View.canon [⟨r5_blk, k5_pay1 (View.ld x0 r5_blk) (View.ld x4 r5_row) (View.ld x3 r5_row) (View.ld x1 r5_row) (View.ld x2 r5_row)⟩]

/-- The one store is over the whole buffer, so it covers it. -/
theorem cover5_5 (p0 : Vec F S5000x64 .f32) (y : S5000x64.Idx) :
    ∃ pc ∈ ([⟨r5_blk, p0⟩] : List (View.Piece (Elt F) S5000x64 .f32)), y ∈ pc.1.set :=
  View.cover_of_tiled [⟨r5_blk, p0⟩] S5000x64.size (by rfl) y

/-! ## The body's triple -/

set_option maxHeartbeats 1000000 in
/-- The kernel body on whole staging memrefs, the inputs' at read contents `xW` and the output's at anything, runs to
    the continuation holding the inputs' as they were and the output's at `out5_5` of the inputs'. -/
theorem sound_kernel5 (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at
    point `t` each input's buffer at its block and the output's at `out5_5` of the input blocks; the invariant is
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Classifier6.lean ====
/- The classifier kernel's half of the frame certificate of KernelIdeal: pipeline 6, `cc6__classifier_kernel`, on a grid
   of 20 points. Six windows: the activations `h` (a block of 5000 rows by 64 features per point), the first layer's
   weights (64 by 32) and bias (1 by 32), the second layer's weights (32 by 1) and bias (1 by 1) — each whole at every
   point —, and the output (a block of 5000 rows by 1 per point). The body reads the five inputs whole and stores the
   whole output block once: `logistic (max (h · W₁ + b₁) 0 · W₂ + b₂)`. Stated at a PARAMETER `V`, the TensorCore's
   buffer contents when the region is entered, and at any float model `F`. -/
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof data
    whose array is `V`'s and whose body leaves the block in place: unfetched, the block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof data
    whose array is `V`'s and whose body leaves the block in place: unfetched, the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof data
    whose array is `V`'s and whose body leaves the block in place: unfetched, the block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof data
    whose array is `V`'s and whose body leaves the block in place: unfetched, the block index has not moved. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof data
    whose array is `V`'s and whose body leaves the block in place: unfetched, the block index has not moved. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each window's buffer, whole -/

abbrev r6_0 : Rect S5000x64 := Rect.unit (s := S5000x64) ![0, 0] S5000x64.size inb_S5000x64_S5000x64_0_0
abbrev r6_1 : Rect S64x32 := Rect.unit (s := S64x32) ![0, 0] S64x32.size inb_S64x32_S64x32_0_0
abbrev r6_2 : Rect S1x32 := Rect.unit (s := S1x32) ![0, 0] S1x32.size inb_S1x32_S1x32_0_0
abbrev r6_3 : Rect S32x1 := Rect.unit (s := S32x1) ![0, 0] S32x1.size inb_S32x1_S32x1_0_0
abbrev r6_4 : Rect S1x1 := Rect.unit (s := S1x1) ![0, 0] S1x1.size inb_S1x1_S1x1_0_0
abbrev r6_5 : Rect S5000x1 := Rect.unit (s := S5000x1) ![0, 0] S5000x1.size inb_S5000x1_S5000x1_0_0

/-! ## What the body leaves in the output window's buffer -/

/-- The output window's staging buffer after the body, from the five input blocks: its one store, of the whole block,
    `logistic (max (x0 · x1 + x2) 0 · x3 + x4)` with the biases broadcast along the rows. -/
def out6_5 (x0 : Vec F S5000x64 .f32) (x1 : Vec F S64x32 .f32) (x2 : Vec F S1x32 .f32) (x3 : Vec F S32x1 .f32) (x4 : Vec F S1x1 .f32) : Vec F S5000x1 .f32 :=
  View.canon [⟨r6_5, k6_pay1 (View.ld x0 r6_0) (View.ld x1 r6_1) (View.ld x2 r6_2) (View.ld x3 r6_3) (View.ld x4 r6_4)⟩]

/-- The one store is of the whole buffer, so it covers it. -/
theorem cover6_5 (p0 : Vec F S5000x1 .f32) (y : S5000x1.Idx) :
    ∃ pc ∈ ([⟨r6_5, p0⟩] : List (View.Piece (Elt F) S5000x1 .f32)), y ∈ pc.1.set :=
  View.cover_of_tiled [⟨r6_5, p0⟩] S5000x1.size (by rfl) y

/-! ## The body's triple -/

set_option maxHeartbeats 1000000 in
/-- The kernel body on whole staging memrefs, the inputs' at read contents `x0 … x4` and the output's at anything, runs
    to the continuation holding the inputs' as they were and the output's at `out6_5` of the inputs'. -/
theorem sound_kernel6 (c : Dev nD) (E : Set ℕ) (i : grid6.Coords) (arg1 : Memref sig .tc .vmem S5000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x1 .f32) (harg4 : arg4.IsWhole) (arg5 : Memref sig .tc .vmem S1x1 .f32) (harg5 : arg5.IsWhole) (arg6 : Memref sig .tc .vmem S5000x1 .f32) (harg6 : arg6.IsWhole)
    (x0 : Vec F S5000x64 .f32) (x1 : Vec F S64x32 .f32) (x2 : Vec F S1x32 .f32) (x3 : Vec F S32x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__classifier_kernel i arg1 harg1 arg2 harg2 arg3 harg3 arg4 harg4 arg5 harg5 arg6 harg6) K := by
  simp only [cc6__classifier_kernel_eq_skeleton]; unfold cc6__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at point `t`
    each input's buffer at its block and the output's at `out6_5` of the five input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Main.lean ====
import proofs.«121727_j57028575756303_1_alg».proof.Proof.Gen.KernelIdeal.Launch
import proofs.«121727_j57028575756303_1_alg».proof.Proof.Gen.KernelIdeal.Skeleton
import proofs.«121727_j57028575756303_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121727_j57028575756303_1_alg».proof.Proof.Gen.KernelIdeal.Regions
import proofs.«121727_j57028575756303_1_alg».proof.Proof.KI.Stats0
import proofs.«121727_j57028575756303_1_alg».proof.Proof.KI.Stats2
import proofs.«121727_j57028575756303_1_alg».proof.Proof.KI.Stats4
import proofs.«121727_j57028575756303_1_alg».proof.Proof.KI.BnRelu1
import proofs.«121727_j57028575756303_1_alg».proof.Proof.KI.BnRelu3
import proofs.«121727_j57028575756303_1_alg».proof.Proof.KI.BnRelu5
import proofs.«121727_j57028575756303_1_alg».proof.Proof.KI.Classifier6
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: @main's fourteen segments (seven host stretches, seven pipelines)

The buffers' contents at each segment boundary are a fold from the launch memory: a host stretch applies its
operations, a pipeline replaces its arrays by what its write-backs leave. -/

/-- Core `c`'s buffers at launch. -/
abbrev W0 : Dev nD → Valuation τ sig (Elt F) := fun c b => (s₀ m ρ).mem ((c : Dev nD), b)

/-- After the host stretch `hostOps0`: where pipeline 0 is entered. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At pipeline 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: where pipeline 1 is entered. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At pipeline 1's exit: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: where pipeline 2 is entered. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At pipeline 2's exit: its arrays at what its write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: where pipeline 3 is entered. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At pipeline 3's exit: its arrays at what its write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`: where pipeline 4 is entered. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At pipeline 4's exit: its arrays at what its write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch `hostOps5`: where pipeline 5 is entered. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At pipeline 5's exit: its arrays at what its write-backs leave, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch `hostOps6`: where pipeline 6 is entered. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At pipeline 6's exit: its arrays at what its write-backs leave, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-! ## No segment changes an argument array -/

theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := W14_of_ne m ρ c main_arg0 (by decide)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide)
    _ = m ((c : Thread nD τ).loc main_arg0) := rfl
theorem W14_main_arg1 (c : Dev nD) : W14 m ρ c (Proc.devRef .tc main_arg1) = m ((c : Thread nD τ).loc main_arg1) :=
  calc W14 m ρ c (Proc.devRef .tc main_arg1)
    _ = W13 m ρ c (Proc.devRef .tc main_arg1) := W14_of_ne m ρ c main_arg1 (by decide)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W14_main_arg3 (c : Dev nD) : W14 m ρ c (Proc.devRef .tc main_arg3) = m ((c : Thread nD τ).loc main_arg3) :=
  calc W14 m ρ c (Proc.devRef .tc main_arg3)
    _ = W13 m ρ c (Proc.devRef .tc main_arg3) := W14_of_ne m ρ c main_arg3 (by decide)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W14_main_arg4 (c : Dev nD) : W14 m ρ c (Proc.devRef .tc main_arg4) = m ((c : Thread nD τ).loc main_arg4) :=
  calc W14 m ρ c (Proc.devRef .tc main_arg4)
    _ = W13 m ρ c (Proc.devRef .tc main_arg4) := W14_of_ne m ρ c main_arg4 (by decide)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W14_main_arg5 (c : Dev nD) : W14 m ρ c (Proc.devRef .tc main_arg5) = m ((c : Thread nD τ).loc main_arg5) :=
  calc W14 m ρ c (Proc.devRef .tc main_arg5)
    _ = W13 m ρ c (Proc.devRef .tc main_arg5) := W14_of_ne m ρ c main_arg5 (by decide)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W14_main_arg6 (c : Dev nD) : W14 m ρ c (Proc.devRef .tc main_arg6) = m ((c : Thread nD τ).loc main_arg6) :=
  calc W14 m ρ c (Proc.devRef .tc main_arg6)
    _ = W13 m ρ c (Proc.devRef .tc main_arg6) := W14_of_ne m ρ c main_arg6 (by decide)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W14_main_arg7 (c : Dev nD) : W14 m ρ c (Proc.devRef .tc main_arg7) = m ((c : Thread nD τ).loc main_arg7) :=
  calc W14 m ρ c (Proc.devRef .tc main_arg7)
    _ = W13 m ρ c (Proc.devRef .tc main_arg7) := W14_of_ne m ρ c main_arg7 (by decide)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W14_main_arg8 (c : Dev nD) : W14 m ρ c (Proc.devRef .tc main_arg8) = m ((c : Thread nD τ).loc main_arg8) :=
  calc W14 m ρ c (Proc.devRef .tc main_arg8)
    _ = W13 m ρ c (Proc.devRef .tc main_arg8) := W14_of_ne m ρ c main_arg8 (by decide)
    _ = W12 m ρ c (Proc.devRef .tc main_arg8) := StableHlo.after_of_writes_sub hostOps6 _ hostOps6_writes (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W14_main_arg9 (c : Dev nD) : W14 m ρ c (Proc.devRef .tc main_arg9) = m ((c : Thread nD τ).loc main_arg9) :=
  calc W14 m ρ c (Proc.devRef .tc main_arg9)
    _ = W13 m ρ c (Proc.devRef .tc main_arg9) := W14_of_ne m ρ c main_arg9 (by decide)
    _ = W12 m ρ c (Proc.devRef .tc main_arg9) := StableHlo.after_of_writes_sub hostOps6 _ hostOps6_writes (by decide)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W14_main_arg10 (c : Dev nD) : W14 m ρ c (Proc.devRef .tc main_arg10) = m ((c : Thread nD τ).loc main_arg10) :=
  calc W14 m ρ c (Proc.devRef .tc main_arg10)
    _ = W13 m ρ c (Proc.devRef .tc main_arg10) := W14_of_ne m ρ c main_arg10 (by decide)
    _ = W12 m ρ c (Proc.devRef .tc main_arg10) := StableHlo.after_of_writes_sub hostOps6 _ hostOps6_writes (by decide)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W14_main_arg11 (c : Dev nD) : W14 m ρ c (Proc.devRef .tc main_arg11) = m ((c : Thread nD τ).loc main_arg11) :=
  calc W14 m ρ c (Proc.devRef .tc main_arg11)
    _ = W13 m ρ c (Proc.devRef .tc main_arg11) := W14_of_ne m ρ c main_arg11 (by decide)
    _ = W12 m ρ c (Proc.devRef .tc main_arg11) := StableHlo.after_of_writes_sub hostOps6 _ hostOps6_writes (by decide)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W14_main_arg12 (c : Dev nD) : W14 m ρ c (Proc.devRef .tc main_arg12) = m ((c : Thread nD τ).loc main_arg12) :=
  calc W14 m ρ c (Proc.devRef .tc main_arg12)
    _ = W13 m ρ c (Proc.devRef .tc main_arg12) := W14_of_ne m ρ c main_arg12 (by decide)
    _ = W12 m ρ c (Proc.devRef .tc main_arg12) := StableHlo.after_of_writes_sub hostOps6 _ hostOps6_writes (by decide)
    _ = W11 m ρ c (Proc.devRef .tc main_arg12) := W12_of_ne m ρ c main_arg12 (by decide)
    _ = W10 m ρ c (Proc.devRef .tc main_arg12) := StableHlo.after_of_writes_sub hostOps5 _ hostOps5_writes (by decide)
    _ = W9 m ρ c (Proc.devRef .tc main_arg12) := W10_of_ne m ρ c main_arg12 (by decide)
    _ = W8 m ρ c (Proc.devRef .tc main_arg12) := StableHlo.after_of_writes_sub hostOps4 _ hostOps4_writes (by decide)
    _ = W7 m ρ c (Proc.devRef .tc main_arg12) := W8_of_ne m ρ c main_arg12 (by decide)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W14_main_arg13 (c : Dev nD) : W14 m ρ c (Proc.devRef .tc main_arg13) = m ((c : Thread nD τ).loc main_arg13) :=
  calc W14 m ρ c (Proc.devRef .tc main_arg13)
    _ = W13 m ρ c (Proc.devRef .tc main_arg13) := W14_of_ne m ρ c main_arg13 (by decide)
    _ = W12 m ρ c (Proc.devRef .tc main_arg13) := StableHlo.after_of_writes_sub hostOps6 _ hostOps6_writes (by decide)
    _ = W11 m ρ c (Proc.devRef .tc main_arg13) := W12_of_ne m ρ c main_arg13 (by decide)
    _ = W10 m ρ c (Proc.devRef .tc main_arg13) := StableHlo.after_of_writes_sub hostOps5 _ hostOps5_writes (by decide)
    _ = W9 m ρ c (Proc.devRef .tc main_arg13) := W10_of_ne m ρ c main_arg13 (by decide)
    _ = W8 m ρ c (Proc.devRef .tc main_arg13) := StableHlo.after_of_writes_sub hostOps4 _ hostOps4_writes (by decide)
    _ = W7 m ρ c (Proc.devRef .tc main_arg13) := W8_of_ne m ρ c main_arg13 (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl
theorem W14_main_arg14 (c : Dev nD) : W14 m ρ c (Proc.devRef .tc main_arg14) = m ((c : Thread nD τ).loc main_arg14) :=
  calc W14 m ρ c (Proc.devRef .tc main_arg14)
    _ = W13 m ρ c (Proc.devRef .tc main_arg14) := W14_of_ne m ρ c main_arg14 (by decide)
    _ = W12 m ρ c (Proc.devRef .tc main_arg14) := StableHlo.after_of_writes_sub hostOps6 _ hostOps6_writes (by decide)
    _ = W11 m ρ c (Proc.devRef .tc main_arg14) := W12_of_ne m ρ c main_arg14 (by decide)
    _ = W10 m ρ c (Proc.devRef .tc main_arg14) := StableHlo.after_of_writes_sub hostOps5 _ hostOps5_writes (by decide)
    _ = W9 m ρ c (Proc.devRef .tc main_arg14) := W10_of_ne m ρ c main_arg14 (by decide)
    _ = W8 m ρ c (Proc.devRef .tc main_arg14) := StableHlo.after_of_writes_sub hostOps4 _ hostOps4_writes (by decide)
    _ = W7 m ρ c (Proc.devRef .tc main_arg14) := W8_of_ne m ρ c main_arg14 (by decide)
    _ = W6 m ρ c (Proc.devRef .tc main_arg14) := StableHlo.after_of_writes_sub hostOps3 _ hostOps3_writes (by decide)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl
theorem W14_main_arg15 (c : Dev nD) : W14 m ρ c (Proc.devRef .tc main_arg15) = m ((c : Thread nD τ).loc main_arg15) :=
  calc W14 m ρ c (Proc.devRef .tc main_arg15)
    _ = W13 m ρ c (Proc.devRef .tc main_arg15) := W14_of_ne m ρ c main_arg15 (by decide)
    _ = W12 m ρ c (Proc.devRef .tc main_arg15) := StableHlo.after_of_writes_sub hostOps6 _ hostOps6_writes (by decide)
    _ = W11 m ρ c (Proc.devRef .tc main_arg15) := W12_of_ne m ρ c main_arg15 (by decide)
    _ = W10 m ρ c (Proc.devRef .tc main_arg15) := StableHlo.after_of_writes_sub hostOps5 _ hostOps5_writes (by decide)
    _ = W9 m ρ c (Proc.devRef .tc main_arg15) := W10_of_ne m ρ c main_arg15 (by decide)
    _ = W8 m ρ c (Proc.devRef .tc main_arg15) := StableHlo.after_of_writes_sub hostOps4 _ hostOps4_writes (by decide)
    _ = W7 m ρ c (Proc.devRef .tc main_arg15) := W8_of_ne m ρ c main_arg15 (by decide)
    _ = W6 m ρ c (Proc.devRef .tc main_arg15) := StableHlo.after_of_writes_sub hostOps3 _ hostOps3_writes (by decide)
    _ = W5 m ρ c (Proc.devRef .tc main_arg15) := W6_of_ne m ρ c main_arg15 (by decide)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl
theorem W14_main_arg16 (c : Dev nD) : W14 m ρ c (Proc.devRef .tc main_arg16) = m ((c : Thread nD τ).loc main_arg16) :=
  calc W14 m ρ c (Proc.devRef .tc main_arg16)
    _ = W13 m ρ c (Proc.devRef .tc main_arg16) := W14_of_ne m ρ c main_arg16 (by decide)
    _ = W12 m ρ c (Proc.devRef .tc main_arg16) := StableHlo.after_of_writes_sub hostOps6 _ hostOps6_writes (by decide)
    _ = W11 m ρ c (Proc.devRef .tc main_arg16) := W12_of_ne m ρ c main_arg16 (by decide)
    _ = W10 m ρ c (Proc.devRef .tc main_arg16) := StableHlo.after_of_writes_sub hostOps5 _ hostOps5_writes (by decide)
    _ = W9 m ρ c (Proc.devRef .tc main_arg16) := W10_of_ne m ρ c main_arg16 (by decide)
    _ = W8 m ρ c (Proc.devRef .tc main_arg16) := StableHlo.after_of_writes_sub hostOps4 _ hostOps4_writes (by decide)
    _ = W7 m ρ c (Proc.devRef .tc main_arg16) := W8_of_ne m ρ c main_arg16 (by decide)
    _ = W6 m ρ c (Proc.devRef .tc main_arg16) := StableHlo.after_of_writes_sub hostOps3 _ hostOps3_writes (by decide)
    _ = W5 m ρ c (Proc.devRef .tc main_arg16) := W6_of_ne m ρ c main_arg16 (by decide)
    _ = W4 m ρ c (Proc.devRef .tc main_arg16) := StableHlo.after_of_writes_sub hostOps2 _ hostOps2_writes (by decide)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl
theorem W14_main_arg17 (c : Dev nD) : W14 m ρ c (Proc.devRef .tc main_arg17) = m ((c : Thread nD τ).loc main_arg17) :=
  calc W14 m ρ c (Proc.devRef .tc main_arg17)
    _ = W13 m ρ c (Proc.devRef .tc main_arg17) := W14_of_ne m ρ c main_arg17 (by decide)
    _ = W12 m ρ c (Proc.devRef .tc main_arg17) := StableHlo.after_of_writes_sub hostOps6 _ hostOps6_writes (by decide)
    _ = W11 m ρ c (Proc.devRef .tc main_arg17) := W12_of_ne m ρ c main_arg17 (by decide)
    _ = W10 m ρ c (Proc.devRef .tc main_arg17) := StableHlo.after_of_writes_sub hostOps5 _ hostOps5_writes (by decide)
    _ = W9 m ρ c (Proc.devRef .tc main_arg17) := W10_of_ne m ρ c main_arg17 (by decide)
    _ = W8 m ρ c (Proc.devRef .tc main_arg17) := StableHlo.after_of_writes_sub hostOps4 _ hostOps4_writes (by decide)
    _ = W7 m ρ c (Proc.devRef .tc main_arg17) := W8_of_ne m ρ c main_arg17 (by decide)
    _ = W6 m ρ c (Proc.devRef .tc main_arg17) := StableHlo.after_of_writes_sub hostOps3 _ hostOps3_writes (by decide)
    _ = W5 m ρ c (Proc.devRef .tc main_arg17) := W6_of_ne m ρ c main_arg17 (by decide)
    _ = W4 m ρ c (Proc.devRef .tc main_arg17) := StableHlo.after_of_writes_sub hostOps2 _ hostOps2_writes (by decide)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl
theorem W14_main_arg18 (c : Dev nD) : W14 m ρ c (Proc.devRef .tc main_arg18) = m ((c : Thread nD τ).loc main_arg18) :=
  calc W14 m ρ c (Proc.devRef .tc main_arg18)
    _ = W13 m ρ c (Proc.devRef .tc main_arg18) := W14_of_ne m ρ c main_arg18 (by decide)
    _ = W12 m ρ c (Proc.devRef .tc main_arg18) := StableHlo.after_of_writes_sub hostOps6 _ hostOps6_writes (by decide)
    _ = W11 m ρ c (Proc.devRef .tc main_arg18) := W12_of_ne m ρ c main_arg18 (by decide)
    _ = W10 m ρ c (Proc.devRef .tc main_arg18) := StableHlo.after_of_writes_sub hostOps5 _ hostOps5_writes (by decide)
    _ = W9 m ρ c (Proc.devRef .tc main_arg18) := W10_of_ne m ρ c main_arg18 (by decide)
    _ = W8 m ρ c (Proc.devRef .tc main_arg18) := StableHlo.after_of_writes_sub hostOps4 _ hostOps4_writes (by decide)
    _ = W7 m ρ c (Proc.devRef .tc main_arg18) := W8_of_ne m ρ c main_arg18 (by decide)
    _ = W6 m ρ c (Proc.devRef .tc main_arg18) := StableHlo.after_of_writes_sub hostOps3 _ hostOps3_writes (by decide)
    _ = W5 m ρ c (Proc.devRef .tc main_arg18) := W6_of_ne m ρ c main_arg18 (by decide)
    _ = W4 m ρ c (Proc.devRef .tc main_arg18) := StableHlo.after_of_writes_sub hostOps2 _ hostOps2_writes (by decide)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl
theorem W14_main_arg19 (c : Dev nD) : W14 m ρ c (Proc.devRef .tc main_arg19) = m ((c : Thread nD τ).loc main_arg19) :=
  calc W14 m ρ c (Proc.devRef .tc main_arg19)
    _ = W13 m ρ c (Proc.devRef .tc main_arg19) := W14_of_ne m ρ c main_arg19 (by decide)
    _ = W12 m ρ c (Proc.devRef .tc main_arg19) := StableHlo.after_of_writes_sub hostOps6 _ hostOps6_writes (by decide)
    _ = W11 m ρ c (Proc.devRef .tc main_arg19) := W12_of_ne m ρ c main_arg19 (by decide)
    _ = W10 m ρ c (Proc.devRef .tc main_arg19) := StableHlo.after_of_writes_sub hostOps5 _ hostOps5_writes (by decide)
    _ = W9 m ρ c (Proc.devRef .tc main_arg19) := W10_of_ne m ρ c main_arg19 (by decide)
    _ = W8 m ρ c (Proc.devRef .tc main_arg19) := StableHlo.after_of_writes_sub hostOps4 _ hostOps4_writes (by decide)
    _ = W7 m ρ c (Proc.devRef .tc main_arg19) := W8_of_ne m ρ c main_arg19 (by decide)
    _ = W6 m ρ c (Proc.devRef .tc main_arg19) := StableHlo.after_of_writes_sub hostOps3 _ hostOps3_writes (by decide)
    _ = W5 m ρ c (Proc.devRef .tc main_arg19) := W6_of_ne m ρ c main_arg19 (by decide)
    _ = W4 m ρ c (Proc.devRef .tc main_arg19) := StableHlo.after_of_writes_sub hostOps2 _ hostOps2_writes (by decide)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = W0 m ρ c (Proc.devRef .tc main_arg19) := StableHlo.after_of_writes_sub hostOps0 _ hostOps0_writes (by decide)
    _ = m ((c : Thread nD τ).loc main_arg19) := rfl
theorem W14_main_arg20 (c : Dev nD) : W14 m ρ c (Proc.devRef .tc main_arg20) = m ((c : Thread nD τ).loc main_arg20) :=
  calc W14 m ρ c (Proc.devRef .tc main_arg20)
    _ = W13 m ρ c (Proc.devRef .tc main_arg20) := W14_of_ne m ρ c main_arg20 (by decide)
    _ = W12 m ρ c (Proc.devRef .tc main_arg20) := StableHlo.after_of_writes_sub hostOps6 _ hostOps6_writes (by decide)
    _ = W11 m ρ c (Proc.devRef .tc main_arg20) := W12_of_ne m ρ c main_arg20 (by decide)
    _ = W10 m ρ c (Proc.devRef .tc main_arg20) := StableHlo.after_of_writes_sub hostOps5 _ hostOps5_writes (by decide)
    _ = W9 m ρ c (Proc.devRef .tc main_arg20) := W10_of_ne m ρ c main_arg20 (by decide)
    _ = W8 m ρ c (Proc.devRef .tc main_arg20) := StableHlo.after_of_writes_sub hostOps4 _ hostOps4_writes (by decide)
    _ = W7 m ρ c (Proc.devRef .tc main_arg20) := W8_of_ne m ρ c main_arg20 (by decide)
    _ = W6 m ρ c (Proc.devRef .tc main_arg20) := StableHlo.after_of_writes_sub hostOps3 _ hostOps3_writes (by decide)
    _ = W5 m ρ c (Proc.devRef .tc main_arg20) := W6_of_ne m ρ c main_arg20 (by decide)
    _ = W4 m ρ c (Proc.devRef .tc main_arg20) := StableHlo.after_of_writes_sub hostOps2 _ hostOps2_writes (by decide)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = W0 m ρ c (Proc.devRef .tc main_arg20) := StableHlo.after_of_writes_sub hostOps0 _ hostOps0_writes (by decide)
    _ = m ((c : Thread nD τ).loc main_arg20) := rfl

/-! ## The proof data family and the thread state -/

abbrev adm' : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m ρ c) ∗ ∃ r, prngReg c r)

/-! ## The pipelines as segments -/

set_option backward.isDefEq.respectTransparency.types false in
/-- Pipeline 0 over the thread state: entered with every unscoped buffer at `W1`, left at `W2`; its two
    accumulator rows are split out of the scoped buffers into the invariant and put back at the end. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(emp)
  Y c := iprop(emp)
  Z c := iprop(Pipeline.unscopedRest (Ix := Unit) (Name := ℕ) (U := UR sig nD τ) (Lvl := ℕ) spec0 c (V1 m ρ c) ∗ ∃ r, prngReg c r)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = Phi0 (V1 m ρ) c 0 from rfl]; unfold Phi0
    rw [show (Pipeline.scopedRest (Ix := Unit) (Name := ℕ) (U := UR sig nD τ) (Lvl := ℕ) (Val := Elt F) (Pipeline.pin (pcfgs (F := F)) adm' 0).spec c : sProp 𝕄)
          = Pipeline.scopedRest (Ix := Unit) (Name := ℕ) (U := UR sig nD τ) (Lvl := ℕ) (Val := Elt F) spec0 c from rfl, scopedRest0_split]
    iintro ⟨-, -, ⟨⟨%f0, H0⟩, ⟨%f1, H1⟩⟩, Hr⟩
    isplitl [H0]
    · iexists f0; isplitr; · ipureintro; exact fun h => absurd rfl h
      rw [owns_whole_eq]; iexists f0; isplitr; · ipureintro; rfl
      iexact H0
    isplitl [H1]
    · iexists f1; isplitr; · ipureintro; exact fun h => absurd rfl h
      rw [owns_whole_eq]; iexists f1; isplitr; · ipureintro; rfl
      iexact H1
    iexact Hr
  hout c := by
    rw [Pipeline.ownSems0_none, show (pdats m ρ 0 c).Φ (Fin.last _) = Phi0 (V1 m ρ) c (Fin.last _) from rfl]; unfold Phi0
    rw [show (Pipeline.scopedRest (Ix := Unit) (Name := ℕ) (U := UR sig nD τ) (Lvl := ℕ) (Val := Elt F) (Pipeline.pin (pcfgs (F := F)) adm' 0).spec c : sProp 𝕄)
          = Pipeline.scopedRest (Ix := Unit) (Name := ℕ) (U := UR sig nD τ) (Lvl := ℕ) (Val := Elt F) spec0 c from rfl, scopedRest0_split]
    simp only [owns_whole_eq]
    iintro ⟨⟨%a0, -, %f0, -, H0⟩, ⟨%a1, -, %f1, -, H1⟩, Hr⟩
    isplitr; · iempintro
    isplitr; · iempintro
    isplitl [H0 H1]
    · isplitl [H0]
      · iexists f0; iexact H0
      · iexists f1; iexact H1
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Pipeline 1 over the thread state: entered with every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered with every unscoped buffer at `W5`, left at `W6`; its two
    accumulator rows are split out of the scoped buffers into the invariant and put back at the end. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(emp)
  Y c := iprop(emp)
  Z c := iprop(Pipeline.unscopedRest (Ix := Unit) (Name := ℕ) (U := UR sig nD τ) (Lvl := ℕ) spec2 c (V5 m ρ c) ∗ ∃ r, prngReg c r)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 2 c).Φ 0 = Phi2 (V5 m ρ) c 0 from rfl]; unfold Phi2
    rw [show (Pipeline.scopedRest (Ix := Unit) (Name := ℕ) (U := UR sig nD τ) (Lvl := ℕ) (Val := Elt F) (Pipeline.pin (pcfgs (F := F)) adm' 2).spec c : sProp 𝕄)
          = Pipeline.scopedRest (Ix := Unit) (Name := ℕ) (U := UR sig nD τ) (Lvl := ℕ) (Val := Elt F) spec2 c from rfl, scopedRest2_split]
    iintro ⟨-, -, ⟨⟨%f0, H0⟩, ⟨%f1, H1⟩⟩, Hr⟩
    isplitl [H0]
    · iexists f0; isplitr; · ipureintro; exact fun h => absurd rfl h
      rw [owns_whole_eq]; iexists f0; isplitr; · ipureintro; rfl
      iexact H0
    isplitl [H1]
    · iexists f1; isplitr; · ipureintro; exact fun h => absurd rfl h
      rw [owns_whole_eq]; iexists f1; isplitr; · ipureintro; rfl
      iexact H1
    iexact Hr
  hout c := by
    rw [Pipeline.ownSems0_none, show (pdats m ρ 2 c).Φ (Fin.last _) = Phi2 (V5 m ρ) c (Fin.last _) from rfl]; unfold Phi2
    rw [show (Pipeline.scopedRest (Ix := Unit) (Name := ℕ) (U := UR sig nD τ) (Lvl := ℕ) (Val := Elt F) (Pipeline.pin (pcfgs (F := F)) adm' 2).spec c : sProp 𝕄)
          = Pipeline.scopedRest (Ix := Unit) (Name := ℕ) (U := UR sig nD τ) (Lvl := ℕ) (Val := Elt F) spec2 c from rfl, scopedRest2_split]
    simp only [owns_whole_eq]
    iintro ⟨⟨%a0, -, %f0, -, H0⟩, ⟨%a1, -, %f1, -, H1⟩, Hr⟩
    isplitr; · iempintro
    isplitr; · iempintro
    isplitl [H0 H1]
    · isplitl [H0]
      · iexists f0; iexact H0
      · iexists f1; iexact H1
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Pipeline 3 over the thread state: entered with every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 4 over the thread state: entered with every unscoped buffer at `W9`, left at `W10`; its two
    accumulator rows are split out of the scoped buffers into the invariant and put back at the end. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(emp)
  Y c := iprop(emp)
  Z c := iprop(Pipeline.unscopedRest (Ix := Unit) (Name := ℕ) (U := UR sig nD τ) (Lvl := ℕ) spec4 c (V9 m ρ c) ∗ ∃ r, prngReg c r)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 4 c).Φ 0 = Phi4 (V9 m ρ) c 0 from rfl]; unfold Phi4
    rw [show (Pipeline.scopedRest (Ix := Unit) (Name := ℕ) (U := UR sig nD τ) (Lvl := ℕ) (Val := Elt F) (Pipeline.pin (pcfgs (F := F)) adm' 4).spec c : sProp 𝕄)
          = Pipeline.scopedRest (Ix := Unit) (Name := ℕ) (U := UR sig nD τ) (Lvl := ℕ) (Val := Elt F) spec4 c from rfl, scopedRest4_split]
    iintro ⟨-, -, ⟨⟨%f0, H0⟩, ⟨%f1, H1⟩⟩, Hr⟩
    isplitl [H0]
    · iexists f0; isplitr; · ipureintro; exact fun h => absurd rfl h
      rw [owns_whole_eq]; iexists f0; isplitr; · ipureintro; rfl
      iexact H0
    isplitl [H1]
    · iexists f1; isplitr; · ipureintro; exact fun h => absurd rfl h
      rw [owns_whole_eq]; iexists f1; isplitr; · ipureintro; rfl
      iexact H1
    iexact Hr
  hout c := by
    rw [Pipeline.ownSems0_none, show (pdats m ρ 4 c).Φ (Fin.last _) = Phi4 (V9 m ρ) c (Fin.last _) from rfl]; unfold Phi4
    rw [show (Pipeline.scopedRest (Ix := Unit) (Name := ℕ) (U := UR sig nD τ) (Lvl := ℕ) (Val := Elt F) (Pipeline.pin (pcfgs (F := F)) adm' 4).spec c : sProp 𝕄)
          = Pipeline.scopedRest (Ix := Unit) (Name := ℕ) (U := UR sig nD τ) (Lvl := ℕ) (Val := Elt F) spec4 c from rfl, scopedRest4_split]
    simp only [owns_whole_eq]
    iintro ⟨⟨%a0, -, %f0, -, H0⟩, ⟨%a1, -, %f1, -, H1⟩, Hr⟩
    isplitr; · iempintro
    isplitr; · iempintro
    isplitl [H0 H1]
    · isplitl [H0]
      · iexists f0; iexact H0
      · iexists f1; iexact H1
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Pipeline 5 over the thread state: entered with every unscoped buffer at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 6 over the thread state: entered with every unscoped buffer at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- THE FRAME at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c),
    (h c _ (mem_uc main_arg9 (by decide))).trans (W14_main_arg9 m ρ c),
    (h c _ (mem_uc main_arg10 (by decide))).trans (W14_main_arg10 m ρ c),
    (h c _ (mem_uc main_arg11 (by decide))).trans (W14_main_arg11 m ρ c),
    (h c _ (mem_uc main_arg12 (by decide))).trans (W14_main_arg12 m ρ c),
    (h c _ (mem_uc main_arg13 (by decide))).trans (W14_main_arg13 m ρ c),
    (h c _ (mem_uc main_arg14 (by decide))).trans (W14_main_arg14 m ρ c),
    (h c _ (mem_uc main_arg15 (by decide))).trans (W14_main_arg15 m ρ c),
    (h c _ (mem_uc main_arg16 (by decide))).trans (W14_main_arg16 m ρ c),
    (h c _ (mem_uc main_arg17 (by decide))).trans (W14_main_arg17 m ρ c),
    (h c _ (mem_uc main_arg18 (by decide))).trans (W14_main_arg18 m ρ c),
    (h c _ (mem_uc main_arg19 (by decide))).trans (W14_main_arg19 m ρ c),
    (h c _ (mem_uc main_arg20 (by decide))).trans (W14_main_arg20 m ρ c)⟩) (run_all m ρ)

/-- The run with the result named: it ends at what the last pipeline's write-backs leave. -/
theorem run_value : θ_run defs (onTc (τ := τ) (main (F := F))) ⟨m, fun _ => 0, ρ⟩ (fun r => ∀ c : Dev nD,
      r.2.mem ((c.tc : Thread nD τ).loc main_v96) = W14 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨h c _ (mem_uc main_v96 (by decide)), (h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c),
    (h c _ (mem_uc main_arg9 (by decide))).trans (W14_main_arg9 m ρ c),
    (h c _ (mem_uc main_arg10 (by decide))).trans (W14_main_arg10 m ρ c),
    (h c _ (mem_uc main_arg11 (by decide))).trans (W14_main_arg11 m ρ c),
    (h c _ (mem_uc main_arg12 (by decide))).trans (W14_main_arg12 m ρ c),
    (h c _ (mem_uc main_arg13 (by decide))).trans (W14_main_arg13 m ρ c),
    (h c _ (mem_uc main_arg14 (by decide))).trans (W14_main_arg14 m ρ c),
    (h c _ (mem_uc main_arg15 (by decide))).trans (W14_main_arg15 m ρ c),
    (h c _ (mem_uc main_arg16 (by decide))).trans (W14_main_arg16 m ρ c),
    (h c _ (mem_uc main_arg17 (by decide))).trans (W14_main_arg17 m ρ c),
    (h c _ (mem_uc main_arg18 (by decide))).trans (W14_main_arg18 m ρ c),
    (h c _ (mem_uc main_arg19 (by decide))).trans (W14_main_arg19 m ρ c),
    (h c _ (mem_uc main_arg20 (by decide))).trans (W14_main_arg20 m ρ c)⟩) (run_all m ρ)

end Cert.KernelIdeal.Hand

end
-- ==== Proof.RefRun.Ops.lean ====
/- The reference program's @main as a list of its 265 host operations, the seven calls of its outlined
   functions (the variance with its nested select, and the rectifiers) written out at their call sites over the
   calls' own buffers, in the four consecutive stretches @main is printed in; and @main is that list run in order. -/
import proofs.«121727_j57028575756303_1_alg».proof.ReferenceIdeal
import proofs.«121727_j57028575756303_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of the first stretch of @main (81 of 265), calls written out. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    StableHlo.nullary main_cst (constant S_ .f32 0x00000000#32),
    StableHlo.unary main_cst main_v11 (broadcastInDim S100000x16 ![] bcast_S_S100000x16 : (⟨S_, .f32⟩ : BufTy).Contents (Elt F) → (⟨S100000x16, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    StableHlo.nullary main_cst_1 (constant S_ .f32 0x3F800000#32),
    StableHlo.unary main_cst_1 main_v14 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x16 ![0, 1] bcast_S100000x1_S100000x16_0_1 : (⟨S100000x1, .f32⟩ : BufTy).Contents (Elt F) → (⟨S100000x16, .f32⟩ : BufTy).Contents (Elt F)),
    StableHlo.binary main_v13 main_v21 main_v22 (Host.divf : (⟨S100000x16, .f32⟩ : BufTy).Contents (Elt F) → (⟨S100000x16, .f32⟩ : BufTy).Contents (Elt F) → (⟨S100000x16, .f32⟩ : BufTy).Contents (Elt F)),
    StableHlo.unary main_arg2 main_v23 ((transpose S16x128 [1, 0] · transposes_S128x16_S16x128_1_0) : (⟨S128x16, .f32⟩ : BufTy).Contents (Elt F) → (⟨S16x128, .f32⟩ : BufTy).Contents (Elt F)),
    StableHlo.binary main_v22 main_v23 main_v24 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    StableHlo.unary main_arg3 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v26 main_v27 (addf : (⟨S100000x128, .f32⟩ : BufTy).Contents (Elt F) → (⟨S100000x128, .f32⟩ : BufTy).Contents (Elt F) → (⟨S100000x128, .f32⟩ : BufTy).Contents (Elt F)),
    StableHlo.unary main_arg4 main_v28 ((transpose S16x128 [1, 0] · transposes_S128x16_S16x128_1_0) : (⟨S128x16, .f32⟩ : BufTy).Contents (Elt F) → (⟨S16x128, .f32⟩ : BufTy).Contents (Elt F)),
    StableHlo.binary main_arg0 main_v28 main_v29 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    StableHlo.binary main_v27 main_v29 main_v30 (addf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x00000000#32),
    StableHlo.binary main_v30 main_cst_4 main_v31 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v32 (broadcastInDim S128 ![] bcast_S_S128 : (⟨S_, .f32⟩ : BufTy).Contents (Elt F) → (⟨S128, .f32⟩ : BufTy).Contents (Elt F)),
    StableHlo.binary main_v31 main_v32 main_v33 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call0.cst (constant S_ .f32 0x00000000#32),
    StableHlo.TRef.binary (.of main_v30 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v30 : StableHlo.TRef sig ⟨S100000x128, .f32⟩) main_call0.v4 main_call0.v5 subf,
    StableHlo.TRef.binary main_call0.v5 main_call0.v5 main_call0.v6 mulf,
    StableHlo.TRef.unary (.of main_c_6 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v33 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v36 main_v37 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v38 (broadcastInDim S128 ![] bcast_S_S128 : (⟨S_, .f32⟩ : BufTy).Contents (Elt F) → (⟨S128, .f32⟩ : BufTy).Contents (Elt F)),
    StableHlo.binary main_v34 main_v38 main_v39 (addf : (⟨S128, .f32⟩ : BufTy).Contents (Elt F) → (⟨S128, .f32⟩ : BufTy).Contents (Elt F) → (⟨S128, .f32⟩ : BufTy).Contents (Elt F)),
    StableHlo.unary main_v39 main_v40 (Host.rsqrt : (⟨S128, .f32⟩ : BufTy).Contents (Elt F) → (⟨S128, .f32⟩ : BufTy).Contents (Elt F)),
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v42 main_v43 (mulf : (⟨S100000x128, .f32⟩ : BufTy).Contents (Elt F) → (⟨S100000x128, .f32⟩ : BufTy).Contents (Elt F) → (⟨S100000x128, .f32⟩ : BufTy).Contents (Elt F)),
    StableHlo.unary main_arg5 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (mulf : (⟨S100000x128, .f32⟩ : BufTy).Contents (Elt F) → (⟨S100000x128, .f32⟩ : BufTy).Contents (Elt F) → (⟨S100000x128, .f32⟩ : BufTy).Contents (Elt F)),
    StableHlo.unary main_arg6 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v48 main_v49 (addf : (⟨S100000x128, .f32⟩ : BufTy).Contents (Elt F) → (⟨S100000x128, .f32⟩ : BufTy).Contents (Elt F) → (⟨S100000x128, .f32⟩ : BufTy).Contents (Elt F)) ]

/-- The operations of the second stretch of @main (85 of 265), calls written out. -/
abbrev ops1 : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (.of main_v49 : StableHlo.TRef sig ⟨S100000x128, .f32⟩) main_call1.v0 main_call1.v1 maximumf,
    StableHlo.nullary main_c_8 (constantI S_ 32 0#32),
    StableHlo.unary main_c_8 main_v51 (broadcastInDim S1600000 ![] bcast_S_S1600000 : (⟨S_, .i32⟩ : BufTy).Contents (Elt F) → (⟨S1600000, .i32⟩ : BufTy).Contents (Elt F)),
    StableHlo.binary main_v1 main_v51 main_v52 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v53 (broadcastInDim S1600000 ![] bcast_S_S1600000 : (⟨S_, .i32⟩ : BufTy).Contents (Elt F) → (⟨S1600000, .i32⟩ : BufTy).Contents (Elt F)),
    StableHlo.binary main_v1 main_v53 main_v54 (addi : (⟨S1600000, .i32⟩ : BufTy).Contents (Elt F) → (⟨S1600000, .i32⟩ : BufTy).Contents (Elt F) → (⟨S1600000, .i32⟩ : BufTy).Contents (Elt F)),
    StableHlo.ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v55 main_v56 (broadcastInDim S1600000x1 ![0] bcast_S1600000_S1600000x1_0 : (⟨S1600000, .i32⟩ : BufTy).Contents (Elt F) → (⟨S1600000x1, .i32⟩ : BufTy).Contents (Elt F)),
    StableHlo.binary main_v50 main_v56 main_v57 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_10 (constant S_ .f32 0x00000000#32),
    StableHlo.unary main_cst_10 main_v58 (broadcastInDim S100000x128 ![] bcast_S_S100000x128 : (⟨S_, .f32⟩ : BufTy).Contents (Elt F) → (⟨S100000x128, .f32⟩ : BufTy).Contents (Elt F)),
    StableHlo.unary main_v3 main_v59 (broadcastInDim S1600000x1 ![0] bcast_S1600000_S1600000x1_0 : (⟨S1600000, .i32⟩ : BufTy).Contents (Elt F) → (⟨S1600000x1, .i32⟩ : BufTy).Contents (Elt F)),
    StableHlo.ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_11 (constant S_ .f32 0x3F800000#32),
    StableHlo.unary main_cst_11 main_v61 (broadcastInDim S1600000 ![] bcast_S_S1600000 : (⟨S_, .f32⟩ : BufTy).Contents (Elt F) → (⟨S1600000, .f32⟩ : BufTy).Contents (Elt F)),
    StableHlo.nullary main_cst_12 (constant S_ .f32 0x00000000#32),
    StableHlo.unary main_cst_12 main_v62 (broadcastInDim S100000 ![] bcast_S_S100000 : (⟨S_, .f32⟩ : BufTy).Contents (Elt F) → (⟨S100000, .f32⟩ : BufTy).Contents (Elt F)),
    StableHlo.unary main_v3 main_v63 (broadcastInDim S1600000x1 ![0] bcast_S1600000_S1600000x1_0 : (⟨S1600000, .i32⟩ : BufTy).Contents (Elt F) → (⟨S1600000x1, .i32⟩ : BufTy).Contents (Elt F)),
    StableHlo.ternary main_v62 main_v63 main_v61 main_v64 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_13 (constant S_ .f32 0x3F800000#32),
    StableHlo.unary main_cst_13 main_v65 (broadcastInDim S100000 ![] bcast_S_S100000 : (⟨S_, .f32⟩ : BufTy).Contents (Elt F) → (⟨S100000, .f32⟩ : BufTy).Contents (Elt F)),
    StableHlo.binary main_v64 main_v65 main_v66 (maximumf : (⟨S100000, .f32⟩ : BufTy).Contents (Elt F) → (⟨S100000, .f32⟩ : BufTy).Contents (Elt F) → (⟨S100000, .f32⟩ : BufTy).Contents (Elt F)),
    StableHlo.unary main_v66 main_v67 (broadcastInDim S100000x1 ![0] bcast_S100000_S100000x1_0 : (⟨S100000, .f32⟩ : BufTy).Contents (Elt F) → (⟨S100000x1, .f32⟩ : BufTy).Contents (Elt F)),
    StableHlo.unary main_v67 main_v68 (broadcastInDim S100000x128 ![0, 1] bcast_S100000x1_S100000x128_0_1 : (⟨S100000x1, .f32⟩ : BufTy).Contents (Elt F) → (⟨S100000x128, .f32⟩ : BufTy).Contents (Elt F)),
    StableHlo.binary main_v60 main_v68 main_v69 (Host.divf : (⟨S100000x128, .f32⟩ : BufTy).Contents (Elt F) → (⟨S100000x128, .f32⟩ : BufTy).Contents (Elt F) → (⟨S100000x128, .f32⟩ : BufTy).Contents (Elt F)),
    StableHlo.unary main_arg7 main_v70 ((transpose S128x128 [1, 0] · transposes_S128x128_S128x128_1_0) : (⟨S128x128, .f32⟩ : BufTy).Contents (Elt F) → (⟨S128x128, .f32⟩ : BufTy).Contents (Elt F)),
    StableHlo.binary main_v69 main_v70 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v73 main_v74 (addf : (⟨S100000x128, .f32⟩ : BufTy).Contents (Elt F) → (⟨S100000x128, .f32⟩ : BufTy).Contents (Elt F) → (⟨S100000x128, .f32⟩ : BufTy).Contents (Elt F)),
    StableHlo.unary main_arg9 main_v75 ((transpose S128x128 [1, 0] · transposes_S128x128_S128x128_1_0) : (⟨S128x128, .f32⟩ : BufTy).Contents (Elt F) → (⟨S128x128, .f32⟩ : BufTy).Contents (Elt F)),
    StableHlo.binary main_v50 main_v75 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v74 main_v76 main_v77 (addf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x00000000#32),
    StableHlo.binary main_v77 main_cst_14 main_v78 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_15 (constant S_ .f32 0x47C35000#32),
    StableHlo.unary main_cst_15 main_v79 (broadcastInDim S128 ![] bcast_S_S128 : (⟨S_, .f32⟩ : BufTy).Contents (Elt F) → (⟨S128, .f32⟩ : BufTy).Contents (Elt F)),
    StableHlo.binary main_v78 main_v79 main_v80 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call2.cst (constant S_ .f32 0x00000000#32),
    StableHlo.TRef.binary (.of main_v77 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v77 : StableHlo.TRef sig ⟨S100000x128, .f32⟩) main_call2.v4 main_call2.v5 subf,
    StableHlo.TRef.binary main_call2.v5 main_call2.v5 main_call2.v6 mulf,
    StableHlo.TRef.unary (.of main_c_16 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v80 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v83 main_v84 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v85 (broadcastInDim S128 ![] bcast_S_S128 : (⟨S_, .f32⟩ : BufTy).Contents (Elt F) → (⟨S128, .f32⟩ : BufTy).Contents (Elt F)),
    StableHlo.binary main_v81 main_v85 main_v86 (addf : (⟨S128, .f32⟩ : BufTy).Contents (Elt F) → (⟨S128, .f32⟩ : BufTy).Contents (Elt F) → (⟨S128, .f32⟩ : BufTy).Contents (Elt F)),
    StableHlo.unary main_v86 main_v87 (Host.rsqrt : (⟨S128, .f32⟩ : BufTy).Contents (Elt F) → (⟨S128, .f32⟩ : BufTy).Contents (Elt F)),
    StableHlo.unary main_v87 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v89 main_v90 (mulf : (⟨S100000x128, .f32⟩ : BufTy).Contents (Elt F) → (⟨S100000x128, .f32⟩ : BufTy).Contents (Elt F) → (⟨S100000x128, .f32⟩ : BufTy).Contents (Elt F)),
    StableHlo.unary main_arg10 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v90 main_v92 main_v93 (mulf : (⟨S100000x128, .f32⟩ : BufTy).Contents (Elt F) → (⟨S100000x128, .f32⟩ : BufTy).Contents (Elt F) → (⟨S100000x128, .f32⟩ : BufTy).Contents (Elt F)),
    StableHlo.unary main_arg11 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v95 main_v96 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v96 : StableHlo.TRef sig ⟨S100000x128, .f32⟩) main_call3.v0 main_call3.v1 maximumf,
    StableHlo.nullary main_c_18 (constantI S_ 32 0#32),
    StableHlo.unary main_c_18 main_v98 (broadcastInDim S1600000 ![] bcast_S_S1600000 : (⟨S_, .i32⟩ : BufTy).Contents (Elt F) → (⟨S1600000, .i32⟩ : BufTy).Contents (Elt F)) ]

/-- The operations of the third stretch of @main (83 of 265), calls written out. -/
abbrev ops2 : List (HloOp τ sig (Elt F)) :=
  [ StableHlo.binary main_v1 main_v98 main_v99 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v100 (broadcastInDim S1600000 ![] bcast_S_S1600000 : (⟨S_, .i32⟩ : BufTy).Contents (Elt F) → (⟨S1600000, .i32⟩ : BufTy).Contents (Elt F)),
    StableHlo.binary main_v1 main_v100 main_v101 (addi : (⟨S1600000, .i32⟩ : BufTy).Contents (Elt F) → (⟨S1600000, .i32⟩ : BufTy).Contents (Elt F) → (⟨S1600000, .i32⟩ : BufTy).Contents (Elt F)),
    StableHlo.ternary main_v99 main_v101 main_v1 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v102 main_v103 (broadcastInDim S1600000x1 ![0] bcast_S1600000_S1600000x1_0 : (⟨S1600000, .i32⟩ : BufTy).Contents (Elt F) → (⟨S1600000x1, .i32⟩ : BufTy).Contents (Elt F)),
    StableHlo.binary main_v97 main_v103 main_v104 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_20 (constant S_ .f32 0x00000000#32),
    StableHlo.unary main_cst_20 main_v105 (broadcastInDim S100000x128 ![] bcast_S_S100000x128 : (⟨S_, .f32⟩ : BufTy).Contents (Elt F) → (⟨S100000x128, .f32⟩ : BufTy).Contents (Elt F)),
    StableHlo.unary main_v3 main_v106 (broadcastInDim S1600000x1 ![0] bcast_S1600000_S1600000x1_0 : (⟨S1600000, .i32⟩ : BufTy).Contents (Elt F) → (⟨S1600000x1, .i32⟩ : BufTy).Contents (Elt F)),
    StableHlo.ternary main_v105 main_v106 main_v104 main_v107 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_21 (constant S_ .f32 0x3F800000#32),
    StableHlo.unary main_cst_21 main_v108 (broadcastInDim S1600000 ![] bcast_S_S1600000 : (⟨S_, .f32⟩ : BufTy).Contents (Elt F) → (⟨S1600000, .f32⟩ : BufTy).Contents (Elt F)),
    StableHlo.nullary main_cst_22 (constant S_ .f32 0x00000000#32),
    StableHlo.unary main_cst_22 main_v109 (broadcastInDim S100000 ![] bcast_S_S100000 : (⟨S_, .f32⟩ : BufTy).Contents (Elt F) → (⟨S100000, .f32⟩ : BufTy).Contents (Elt F)),
    StableHlo.unary main_v3 main_v110 (broadcastInDim S1600000x1 ![0] bcast_S1600000_S1600000x1_0 : (⟨S1600000, .i32⟩ : BufTy).Contents (Elt F) → (⟨S1600000x1, .i32⟩ : BufTy).Contents (Elt F)),
    StableHlo.ternary main_v109 main_v110 main_v108 main_v111 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_23 (constant S_ .f32 0x3F800000#32),
    StableHlo.unary main_cst_23 main_v112 (broadcastInDim S100000 ![] bcast_S_S100000 : (⟨S_, .f32⟩ : BufTy).Contents (Elt F) → (⟨S100000, .f32⟩ : BufTy).Contents (Elt F)),
    StableHlo.binary main_v111 main_v112 main_v113 (maximumf : (⟨S100000, .f32⟩ : BufTy).Contents (Elt F) → (⟨S100000, .f32⟩ : BufTy).Contents (Elt F) → (⟨S100000, .f32⟩ : BufTy).Contents (Elt F)),
    StableHlo.unary main_v113 main_v114 (broadcastInDim S100000x1 ![0] bcast_S100000_S100000x1_0 : (⟨S100000, .f32⟩ : BufTy).Contents (Elt F) → (⟨S100000x1, .f32⟩ : BufTy).Contents (Elt F)),
    StableHlo.unary main_v114 main_v115 (broadcastInDim S100000x128 ![0, 1] bcast_S100000x1_S100000x128_0_1 : (⟨S100000x1, .f32⟩ : BufTy).Contents (Elt F) → (⟨S100000x128, .f32⟩ : BufTy).Contents (Elt F)),
    StableHlo.binary main_v107 main_v115 main_v116 (Host.divf : (⟨S100000x128, .f32⟩ : BufTy).Contents (Elt F) → (⟨S100000x128, .f32⟩ : BufTy).Contents (Elt F) → (⟨S100000x128, .f32⟩ : BufTy).Contents (Elt F)),
    StableHlo.unary main_arg12 main_v117 ((transpose S128x64 [1, 0] · transposes_S64x128_S128x64_1_0) : (⟨S64x128, .f32⟩ : BufTy).Contents (Elt F) → (⟨S128x64, .f32⟩ : BufTy).Contents (Elt F)),
    StableHlo.binary main_v116 main_v117 main_v118 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg13 main_v119 (broadcastInDim S1x64 ![1] bcast_S64_S1x64_1 : (⟨S64, .f32⟩ : BufTy).Contents (Elt F) → (⟨S1x64, .f32⟩ : BufTy).Contents (Elt F)),
    StableHlo.unary main_v119 main_v120 (broadcastInDim S100000x64 ![0, 1] bcast_S1x64_S100000x64_0_1 : (⟨S1x64, .f32⟩ : BufTy).Contents (Elt F) → (⟨S100000x64, .f32⟩ : BufTy).Contents (Elt F)),
    StableHlo.binary main_v118 main_v120 main_v121 (addf : (⟨S100000x64, .f32⟩ : BufTy).Contents (Elt F) → (⟨S100000x64, .f32⟩ : BufTy).Contents (Elt F) → (⟨S100000x64, .f32⟩ : BufTy).Contents (Elt F)),
    StableHlo.unary main_arg14 main_v122 ((transpose S128x64 [1, 0] · transposes_S64x128_S128x64_1_0) : (⟨S64x128, .f32⟩ : BufTy).Contents (Elt F) → (⟨S128x64, .f32⟩ : BufTy).Contents (Elt F)),
    StableHlo.binary main_v97 main_v122 main_v123 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v121 main_v123 main_v124 (addf : (⟨S100000x64, .f32⟩ : BufTy).Contents (Elt F) → (⟨S100000x64, .f32⟩ : BufTy).Contents (Elt F) → (⟨S100000x64, .f32⟩ : BufTy).Contents (Elt F)),
    StableHlo.nullary main_cst_24 (constant S_ .f32 0x00000000#32),
    StableHlo.binary main_v124 main_cst_24 main_v125 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_25 (constant S_ .f32 0x47C35000#32),
    StableHlo.unary main_cst_25 main_v126 (broadcastInDim S64 ![] bcast_S_S64 : (⟨S_, .f32⟩ : BufTy).Contents (Elt F) → (⟨S64, .f32⟩ : BufTy).Contents (Elt F)),
    StableHlo.binary main_v125 main_v126 main_v127 (Host.divf : (⟨S64, .f32⟩ : BufTy).Contents (Elt F) → (⟨S64, .f32⟩ : BufTy).Contents (Elt F) → (⟨S64, .f32⟩ : BufTy).Contents (Elt F)),
    StableHlo.nullary main_c_26 (constantI S_ 32 0#32),
    StableHlo.TRef.nullary main_call4.cst (constant S_ .f32 0x00000000#32),
    StableHlo.TRef.binary (.of main_v124 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v124 : StableHlo.TRef sig ⟨S100000x64, .f32⟩) main_call4.v4 main_call4.v5 subf,
    StableHlo.TRef.binary main_call4.v5 main_call4.v5 main_call4.v6 mulf,
    StableHlo.TRef.unary (.of main_c_26 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v127 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S100000x64 ![0, 1] bcast_S1x64_S100000x64_0_1 : (⟨S1x64, .f32⟩ : BufTy).Contents (Elt F) → (⟨S100000x64, .f32⟩ : BufTy).Contents (Elt F)),
    StableHlo.binary main_v124 main_v130 main_v131 (subf : (⟨S100000x64, .f32⟩ : BufTy).Contents (Elt F) → (⟨S100000x64, .f32⟩ : BufTy).Contents (Elt F) → (⟨S100000x64, .f32⟩ : BufTy).Contents (Elt F)),
    StableHlo.nullary main_cst_27 (constant S_ .f32 0x3727C5AC#32),
    StableHlo.unary main_cst_27 main_v132 (broadcastInDim S64 ![] bcast_S_S64 : (⟨S_, .f32⟩ : BufTy).Contents (Elt F) → (⟨S64, .f32⟩ : BufTy).Contents (Elt F)),
    StableHlo.binary main_v128 main_v132 main_v133 (addf : (⟨S64, .f32⟩ : BufTy).Contents (Elt F) → (⟨S64, .f32⟩ : BufTy).Contents (Elt F) → (⟨S64, .f32⟩ : BufTy).Contents (Elt F)),
    StableHlo.unary main_v133 main_v134 (Host.rsqrt : (⟨S64, .f32⟩ : BufTy).Contents (Elt F) → (⟨S64, .f32⟩ : BufTy).Contents (Elt F)),
    StableHlo.unary main_v134 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S100000x64 ![0, 1] bcast_S1x64_S100000x64_0_1 : (⟨S1x64, .f32⟩ : BufTy).Contents (Elt F) → (⟨S100000x64, .f32⟩ : BufTy).Contents (Elt F)),
    StableHlo.binary main_v131 main_v136 main_v137 (mulf : (⟨S100000x64, .f32⟩ : BufTy).Contents (Elt F) → (⟨S100000x64, .f32⟩ : BufTy).Contents (Elt F) → (⟨S100000x64, .f32⟩ : BufTy).Contents (Elt F)),
    StableHlo.unary main_arg15 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S100000x64 ![0, 1] bcast_S1x64_S100000x64_0_1 : (⟨S1x64, .f32⟩ : BufTy).Contents (Elt F) → (⟨S100000x64, .f32⟩ : BufTy).Contents (Elt F)),
    StableHlo.binary main_v137 main_v139 main_v140 (mulf : (⟨S100000x64, .f32⟩ : BufTy).Contents (Elt F) → (⟨S100000x64, .f32⟩ : BufTy).Contents (Elt F) → (⟨S100000x64, .f32⟩ : BufTy).Contents (Elt F)),
    StableHlo.unary main_arg16 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S100000x64 ![0, 1] bcast_S1x64_S100000x64_0_1 : (⟨S1x64, .f32⟩ : BufTy).Contents (Elt F) → (⟨S100000x64, .f32⟩ : BufTy).Contents (Elt F)),
    StableHlo.binary main_v140 main_v142 main_v143 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v143 : StableHlo.TRef sig ⟨S100000x64, .f32⟩) main_call5.v0 main_call5.v1 maximumf,
    StableHlo.unary main_arg17 main_v145 ((transpose S64x32 [1, 0] · transposes_S32x64_S64x32_1_0) : (⟨S32x64, .f32⟩ : BufTy).Contents (Elt F) → (⟨S64x32, .f32⟩ : BufTy).Contents (Elt F)),
    StableHlo.binary main_v144 main_v145 main_v146 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg18 main_v147 (broadcastInDim S1x32 ![1] bcast_S32_S1x32_1 : (⟨S32, .f32⟩ : BufTy).Contents (Elt F) → (⟨S1x32, .f32⟩ : BufTy).Contents (Elt F)),
    StableHlo.unary main_v147 main_v148 (broadcastInDim S100000x32 ![0, 1] bcast_S1x32_S100000x32_0_1 : (⟨S1x32, .f32⟩ : BufTy).Contents (Elt F) → (⟨S100000x32, .f32⟩ : BufTy).Contents (Elt F)),
    StableHlo.binary main_v146 main_v148 main_v149 (addf : (⟨S100000x32, .f32⟩ : BufTy).Contents (Elt F) → (⟨S100000x32, .f32⟩ : BufTy).Contents (Elt F) → (⟨S100000x32, .f32⟩ : BufTy).Contents (Elt F)) ]

/-- The operations of the fourth stretch of @main (16 of 265), calls written out. -/
abbrev ops3 : List (HloOp τ sig (Elt F)) :=
  [ StableHlo.TRef.nullary main_call6.cst (constant S_ .f32 0x00000000#32),
    StableHlo.TRef.unary main_call6.cst main_call6.v0 (broadcastInDim S100000x32 ![] bcast_S_S100000x32),
    StableHlo.TRef.binary (.of main_v149 : StableHlo.TRef sig ⟨S100000x32, .f32⟩) main_call6.v0 main_call6.v1 maximumf,
    StableHlo.unary main_arg19 main_v151 ((transpose S32x1 [1, 0] · transposes_S1x32_S32x1_1_0) : (⟨S1x32, .f32⟩ : BufTy).Contents (Elt F) → (⟨S32x1, .f32⟩ : BufTy).Contents (Elt F)),
    StableHlo.binary main_v150 main_v151 main_v152 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    StableHlo.unary main_arg20 main_v153 (broadcastInDim S1x1 ![1] bcast_S1_S1x1_1 : (⟨S1, .f32⟩ : BufTy).Contents (Elt F) → (⟨S1x1, .f32⟩ : BufTy).Contents (Elt F)),
    StableHlo.unary main_v153 main_v154 (broadcastInDim S100000x1 ![0, 1] bcast_S1x1_S100000x1_0_1 : (⟨S1x1, .f32⟩ : BufTy).Contents (Elt F) → (⟨S100000x1, .f32⟩ : BufTy).Contents (Elt F)),
    StableHlo.binary main_v152 main_v154 main_v155 (addf : (⟨S100000x1, .f32⟩ : BufTy).Contents (Elt F) → (⟨S100000x1, .f32⟩ : BufTy).Contents (Elt F) → (⟨S100000x1, .f32⟩ : BufTy).Contents (Elt F)),
    StableHlo.unary main_v155 main_v156 (Host.negf : (⟨S100000x1, .f32⟩ : BufTy).Contents (Elt F) → (⟨S100000x1, .f32⟩ : BufTy).Contents (Elt F)),
    StableHlo.unary main_v156 main_v157 (Host.exp : (⟨S100000x1, .f32⟩ : BufTy).Contents (Elt F) → (⟨S100000x1, .f32⟩ : BufTy).Contents (Elt F)),
    StableHlo.nullary main_cst_28 (constant S_ .f32 0x3F800000#32),
    StableHlo.unary main_cst_28 main_v158 (broadcastInDim S100000x1 ![] bcast_S_S100000x1 : (⟨S_, .f32⟩ : BufTy).Contents (Elt F) → (⟨S100000x1, .f32⟩ : BufTy).Contents (Elt F)),
    StableHlo.binary main_v158 main_v157 main_v159 (addf : (⟨S100000x1, .f32⟩ : BufTy).Contents (Elt F) → (⟨S100000x1, .f32⟩ : BufTy).Contents (Elt F) → (⟨S100000x1, .f32⟩ : BufTy).Contents (Elt F)),
    StableHlo.nullary main_cst_29 (constant S_ .f32 0x3F800000#32),
    StableHlo.unary main_cst_29 main_v160 (broadcastInDim S100000x1 ![] bcast_S_S100000x1 : (⟨S_, .f32⟩ : BufTy).Contents (Elt F) → (⟨S100000x1, .f32⟩ : BufTy).Contents (Elt F)),
    StableHlo.binary main_v160 main_v159 main_v161 (Host.divf : (⟨S100000x1, .f32⟩ : BufTy).Contents (Elt F) → (⟨S100000x1, .f32⟩ : BufTy).Contents (Elt F) → (⟨S100000x1, .f32⟩ : BufTy).Contents (Elt F)) ]

/-- @main's 265 operations, in order. -/
abbrev ops : List (HloOp τ sig (Elt F)) := ops0 ++ (ops1 ++ (ops2 ++ ops3))

/-- A stretch of @main is its operations run in order: the called functions unfold at their calls, and sequencing reassociates. -/
theorem main_part0_eq (c : Dev nD) : main_part0 (F := F) c = seq ops0 := by
  simp only [main_part0, fn_var.body, fn_where.body, seq, bind_assoc, pure_bind]
  rfl

/-- A stretch of @main is its operations run in order: the called functions unfold at their calls, and sequencing reassociates. -/
theorem main_part1_eq (c : Dev nD) : main_part1 (F := F) c = seq ops1 := by
  simp only [main_part1, fn_relu.body, fn_var.body, fn_where.body, seq, bind_assoc, pure_bind]
  rfl

/-- A stretch of @main is its operations run in order: the called functions unfold at their calls, and sequencing reassociates. -/
theorem main_part2_eq (c : Dev nD) : main_part2 (F := F) c = seq ops2 := by
  simp only [main_part2, fn_var_0.body, fn_where_1.body, fn_relu_2.body, seq, bind_assoc, pure_bind]
  rfl

/-- A stretch of @main is its operations run in order: the called functions unfold at their calls, and sequencing reassociates. -/
theorem main_part3_eq (c : Dev nD) : main_part3 (F := F) c = seq ops3 := by
  simp only [main_part3, fn_relu_3.body, seq, bind_assoc, pure_bind]

/-- @main is its four stretches in order, hence the whole list run in order. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub ..⟩

theorem ops2_sub : (ops2 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem ops3_sub : (ops3 : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h, List.forall_iff_forall_mem.mp ops2_sub op h, List.forall_iff_forall_mem.mp ops3_sub op h]

end Cert.ReferenceIdeal.Hand

end
-- ==== Proof.RefRun.Run.lean ====
/- The reference program's run: every weakly fair execution of @main terminates with the result buffer at the fold of
   the 265 operations over the launch contents (kept folded here, as `refOut`), and the twenty-one arguments unchanged
   (no operation writes an argument). -/
import proofs.«121727_j57028575756303_1_alg».proof.ReferenceIdeal
import proofs.«121727_j57028575756303_1_alg».proof.Proof.Gen.ReferenceIdeal
import Idealize.ShloMosaic.Lib.StableHlo.Run
import proofs.«121727_j57028575756303_1_alg».proof.Proof.RefRun.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation that writes the one buffer `y`, a member of the list `W`, writes inside `W`. -/
theorem writes_sub_of {op : HloOp τ sig (Elt F)} {W : List (Ref sig .tc)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- Operations run one list after another fold as the concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The buffers the first stretch writes, one per operation. -/
abbrev ops0_W : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_v29, main_v30, main_cst_4, main_v31, main_cst_5, main_v32, main_v33, main_c_6, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v35, main_v36, main_v37, main_cst_7, main_v38, main_v39, main_v40, main_v41, main_v42, main_v43, main_v44, main_v45, main_v46, main_v47, main_v48, main_v49]
theorem ops0_writes : (ops0 : List (HloOp τ sig (Elt F))).Forall fun op => op.writes ⊆ (ops0_W.map (Proc.devRef (τ := τ) .tc)).toFinset :=
  ⟨writes_sub_of main_v0 rfl (by decide),
   writes_sub_of main_v1 rfl (by decide),
   writes_sub_of main_v2 rfl (by decide),
   writes_sub_of main_v3 rfl (by decide),
   writes_sub_of main_c rfl (by decide),
   writes_sub_of main_v4 rfl (by decide),
   writes_sub_of main_v5 rfl (by decide),
   writes_sub_of main_c_0 rfl (by decide),
   writes_sub_of main_v6 rfl (by decide),
   writes_sub_of main_v7 rfl (by decide),
   writes_sub_of main_v8 rfl (by decide),
   writes_sub_of main_v9 rfl (by decide),
   writes_sub_of main_v10 rfl (by decide),
   writes_sub_of main_cst rfl (by decide),
   writes_sub_of main_v11 rfl (by decide),
   writes_sub_of main_v12 rfl (by decide),
   writes_sub_of main_v13 rfl (by decide),
   writes_sub_of main_cst_1 rfl (by decide),
   writes_sub_of main_v14 rfl (by decide),
   writes_sub_of main_cst_2 rfl (by decide),
   writes_sub_of main_v15 rfl (by decide),
   writes_sub_of main_v16 rfl (by decide),
   writes_sub_of main_v17 rfl (by decide),
   writes_sub_of main_cst_3 rfl (by decide),
   writes_sub_of main_v18 rfl (by decide),
   writes_sub_of main_v19 rfl (by decide),
   writes_sub_of main_v20 rfl (by decide),
   writes_sub_of main_v21 rfl (by decide),
   writes_sub_of main_v22 rfl (by decide),
   writes_sub_of main_v23 rfl (by decide),
   writes_sub_of main_v24 rfl (by decide),
   writes_sub_of main_v25 rfl (by decide),
   writes_sub_of main_v26 rfl (by decide),
   writes_sub_of main_v27 rfl (by decide),
   writes_sub_of main_v28 rfl (by decide),
   writes_sub_of main_v29 rfl (by decide),
   writes_sub_of main_v30 rfl (by decide),
   writes_sub_of main_cst_4 rfl (by decide),
   writes_sub_of main_v31 rfl (by decide),
   writes_sub_of main_cst_5 rfl (by decide),
   writes_sub_of main_v32 rfl (by decide),
   writes_sub_of main_v33 rfl (by decide),
   writes_sub_of main_c_6 rfl (by decide),
   writes_sub_of (main_call0.cst.ref) rfl (by decide),
   writes_sub_of (main_call0.v0.ref) rfl (by decide),
   writes_sub_of (main_call0.v1.ref) rfl (by decide),
   writes_sub_of (main_call0.cst_0.ref) rfl (by decide),
   writes_sub_of (main_call0.v2.ref) rfl (by decide),
   writes_sub_of (main_call0.v3.ref) rfl (by decide),
   writes_sub_of (main_call0.v4.ref) rfl (by decide),
   writes_sub_of (main_call0.v5.ref) rfl (by decide),
   writes_sub_of (main_call0.v6.ref) rfl (by decide),
   writes_sub_of (main_call0.v7.ref) rfl (by decide),
   writes_sub_of (main_call0.cst_1.ref) rfl (by decide),
   writes_sub_of (main_call0.v8.ref) rfl (by decide),
   writes_sub_of (main_call0.cst_2.ref) rfl (by decide),
   writes_sub_of (main_call0.v9.ref) rfl (by decide),
   writes_sub_of (main_call0.v10.ref) rfl (by decide),
   writes_sub_of (main_call0.v11.ref) rfl (by decide),
   writes_sub_of (main_call0.cst_3.ref) rfl (by decide),
   writes_sub_of (main_call0.v12.ref) rfl (by decide),
   writes_sub_of (main_call0.cst_4.ref) rfl (by decide),
   writes_sub_of (main_call0.call0.v0.ref) rfl (by decide),
   writes_sub_of (main_call0.call0.v1.ref) rfl (by decide),
   writes_sub_of (main_call0.call0.v2.ref) rfl (by decide),
   writes_sub_of main_v35 rfl (by decide),
   writes_sub_of main_v36 rfl (by decide),
   writes_sub_of main_v37 rfl (by decide),
   writes_sub_of main_cst_7 rfl (by decide),
   writes_sub_of main_v38 rfl (by decide),
   writes_sub_of main_v39 rfl (by decide),
   writes_sub_of main_v40 rfl (by decide),
   writes_sub_of main_v41 rfl (by decide),
   writes_sub_of main_v42 rfl (by decide),
   writes_sub_of main_v43 rfl (by decide),
   writes_sub_of main_v44 rfl (by decide),
   writes_sub_of main_v45 rfl (by decide),
   writes_sub_of main_v46 rfl (by decide),
   writes_sub_of main_v47 rfl (by decide),
   writes_sub_of main_v48 rfl (by decide),
   writes_sub_of main_v49 rfl (by decide)⟩
/-- No operation allocates: each determines its result. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the second stretch writes, one per operation. -/
abbrev ops1_W : List (Ref sig .tc) :=
  [main_call1.cst.ref, main_call1.v0.ref, main_call1.v1.ref, main_c_8, main_v51, main_v52, main_c_9, main_v53, main_v54, main_v55, main_v56, main_v57, main_cst_10, main_v58, main_v59, main_v60, main_cst_11, main_v61, main_cst_12, main_v62, main_v63, main_v64, main_cst_13, main_v65, main_v66, main_v67, main_v68, main_v69, main_v70, main_v71, main_v72, main_v73, main_v74, main_v75, main_v76, main_v77, main_cst_14, main_v78, main_cst_15, main_v79, main_v80, main_c_16, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v82, main_v83, main_v84, main_cst_17, main_v85, main_v86, main_v87, main_v88, main_v89, main_v90, main_v91, main_v92, main_v93, main_v94, main_v95, main_v96, main_call3.cst.ref, main_call3.v0.ref, main_call3.v1.ref, main_c_18, main_v98]
theorem ops1_writes : (ops1 : List (HloOp τ sig (Elt F))).Forall fun op => op.writes ⊆ (ops1_W.map (Proc.devRef (τ := τ) .tc)).toFinset :=
  ⟨writes_sub_of (main_call1.cst.ref) rfl (by decide),
   writes_sub_of (main_call1.v0.ref) rfl (by decide),
   writes_sub_of (main_call1.v1.ref) rfl (by decide),
   writes_sub_of main_c_8 rfl (by decide),
   writes_sub_of main_v51 rfl (by decide),
   writes_sub_of main_v52 rfl (by decide),
   writes_sub_of main_c_9 rfl (by decide),
   writes_sub_of main_v53 rfl (by decide),
   writes_sub_of main_v54 rfl (by decide),
   writes_sub_of main_v55 rfl (by decide),
   writes_sub_of main_v56 rfl (by decide),
   writes_sub_of main_v57 rfl (by decide),
   writes_sub_of main_cst_10 rfl (by decide),
   writes_sub_of main_v58 rfl (by decide),
   writes_sub_of main_v59 rfl (by decide),
   writes_sub_of main_v60 rfl (by decide),
   writes_sub_of main_cst_11 rfl (by decide),
   writes_sub_of main_v61 rfl (by decide),
   writes_sub_of main_cst_12 rfl (by decide),
   writes_sub_of main_v62 rfl (by decide),
   writes_sub_of main_v63 rfl (by decide),
   writes_sub_of main_v64 rfl (by decide),
   writes_sub_of main_cst_13 rfl (by decide),
   writes_sub_of main_v65 rfl (by decide),
   writes_sub_of main_v66 rfl (by decide),
   writes_sub_of main_v67 rfl (by decide),
   writes_sub_of main_v68 rfl (by decide),
   writes_sub_of main_v69 rfl (by decide),
   writes_sub_of main_v70 rfl (by decide),
   writes_sub_of main_v71 rfl (by decide),
   writes_sub_of main_v72 rfl (by decide),
   writes_sub_of main_v73 rfl (by decide),
   writes_sub_of main_v74 rfl (by decide),
   writes_sub_of main_v75 rfl (by decide),
   writes_sub_of main_v76 rfl (by decide),
   writes_sub_of main_v77 rfl (by decide),
   writes_sub_of main_cst_14 rfl (by decide),
   writes_sub_of main_v78 rfl (by decide),
   writes_sub_of main_cst_15 rfl (by decide),
   writes_sub_of main_v79 rfl (by decide),
   writes_sub_of main_v80 rfl (by decide),
   writes_sub_of main_c_16 rfl (by decide),
   writes_sub_of (main_call2.cst.ref) rfl (by decide),
   writes_sub_of (main_call2.v0.ref) rfl (by decide),
   writes_sub_of (main_call2.v1.ref) rfl (by decide),
   writes_sub_of (main_call2.cst_0.ref) rfl (by decide),
   writes_sub_of (main_call2.v2.ref) rfl (by decide),
   writes_sub_of (main_call2.v3.ref) rfl (by decide),
   writes_sub_of (main_call2.v4.ref) rfl (by decide),
   writes_sub_of (main_call2.v5.ref) rfl (by decide),
   writes_sub_of (main_call2.v6.ref) rfl (by decide),
   writes_sub_of (main_call2.v7.ref) rfl (by decide),
   writes_sub_of (main_call2.cst_1.ref) rfl (by decide),
   writes_sub_of (main_call2.v8.ref) rfl (by decide),
   writes_sub_of (main_call2.cst_2.ref) rfl (by decide),
   writes_sub_of (main_call2.v9.ref) rfl (by decide),
   writes_sub_of (main_call2.v10.ref) rfl (by decide),
   writes_sub_of (main_call2.v11.ref) rfl (by decide),
   writes_sub_of (main_call2.cst_3.ref) rfl (by decide),
   writes_sub_of (main_call2.v12.ref) rfl (by decide),
   writes_sub_of (main_call2.cst_4.ref) rfl (by decide),
   writes_sub_of (main_call2.call0.v0.ref) rfl (by decide),
   writes_sub_of (main_call2.call0.v1.ref) rfl (by decide),
   writes_sub_of (main_call2.call0.v2.ref) rfl (by decide),
   writes_sub_of main_v82 rfl (by decide),
   writes_sub_of main_v83 rfl (by decide),
   writes_sub_of main_v84 rfl (by decide),
   writes_sub_of main_cst_17 rfl (by decide),
   writes_sub_of main_v85 rfl (by decide),
   writes_sub_of main_v86 rfl (by decide),
   writes_sub_of main_v87 rfl (by decide),
   writes_sub_of main_v88 rfl (by decide),
   writes_sub_of main_v89 rfl (by decide),
   writes_sub_of main_v90 rfl (by decide),
   writes_sub_of main_v91 rfl (by decide),
   writes_sub_of main_v92 rfl (by decide),
   writes_sub_of main_v93 rfl (by decide),
   writes_sub_of main_v94 rfl (by decide),
   writes_sub_of main_v95 rfl (by decide),
   writes_sub_of main_v96 rfl (by decide),
   writes_sub_of (main_call3.cst.ref) rfl (by decide),
   writes_sub_of (main_call3.v0.ref) rfl (by decide),
   writes_sub_of (main_call3.v1.ref) rfl (by decide),
   writes_sub_of main_c_18 rfl (by decide),
   writes_sub_of main_v98 rfl (by decide)⟩
/-- No operation allocates: each determines its result. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the third stretch writes, one per operation. -/
abbrev ops2_W : List (Ref sig .tc) :=
  [main_v99, main_c_19, main_v100, main_v101, main_v102, main_v103, main_v104, main_cst_20, main_v105, main_v106, main_v107, main_cst_21, main_v108, main_cst_22, main_v109, main_v110, main_v111, main_cst_23, main_v112, main_v113, main_v114, main_v115, main_v116, main_v117, main_v118, main_v119, main_v120, main_v121, main_v122, main_v123, main_v124, main_cst_24, main_v125, main_cst_25, main_v126, main_v127, main_c_26, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v129, main_v130, main_v131, main_cst_27, main_v132, main_v133, main_v134, main_v135, main_v136, main_v137, main_v138, main_v139, main_v140, main_v141, main_v142, main_v143, main_call5.cst.ref, main_call5.v0.ref, main_call5.v1.ref, main_v145, main_v146, main_v147, main_v148, main_v149]
theorem ops2_writes : (ops2 : List (HloOp τ sig (Elt F))).Forall fun op => op.writes ⊆ (ops2_W.map (Proc.devRef (τ := τ) .tc)).toFinset :=
  ⟨writes_sub_of main_v99 rfl (by decide),
   writes_sub_of main_c_19 rfl (by decide),
   writes_sub_of main_v100 rfl (by decide),
   writes_sub_of main_v101 rfl (by decide),
   writes_sub_of main_v102 rfl (by decide),
   writes_sub_of main_v103 rfl (by decide),
   writes_sub_of main_v104 rfl (by decide),
   writes_sub_of main_cst_20 rfl (by decide),
   writes_sub_of main_v105 rfl (by decide),
   writes_sub_of main_v106 rfl (by decide),
   writes_sub_of main_v107 rfl (by decide),
   writes_sub_of main_cst_21 rfl (by decide),
   writes_sub_of main_v108 rfl (by decide),
   writes_sub_of main_cst_22 rfl (by decide),
   writes_sub_of main_v109 rfl (by decide),
   writes_sub_of main_v110 rfl (by decide),
   writes_sub_of main_v111 rfl (by decide),
   writes_sub_of main_cst_23 rfl (by decide),
   writes_sub_of main_v112 rfl (by decide),
   writes_sub_of main_v113 rfl (by decide),
   writes_sub_of main_v114 rfl (by decide),
   writes_sub_of main_v115 rfl (by decide),
   writes_sub_of main_v116 rfl (by decide),
   writes_sub_of main_v117 rfl (by decide),
   writes_sub_of main_v118 rfl (by decide),
   writes_sub_of main_v119 rfl (by decide),
   writes_sub_of main_v120 rfl (by decide),
   writes_sub_of main_v121 rfl (by decide),
   writes_sub_of main_v122 rfl (by decide),
   writes_sub_of main_v123 rfl (by decide),
   writes_sub_of main_v124 rfl (by decide),
   writes_sub_of main_cst_24 rfl (by decide),
   writes_sub_of main_v125 rfl (by decide),
   writes_sub_of main_cst_25 rfl (by decide),
   writes_sub_of main_v126 rfl (by decide),
   writes_sub_of main_v127 rfl (by decide),
   writes_sub_of main_c_26 rfl (by decide),
   writes_sub_of (main_call4.cst.ref) rfl (by decide),
   writes_sub_of (main_call4.v0.ref) rfl (by decide),
   writes_sub_of (main_call4.v1.ref) rfl (by decide),
   writes_sub_of (main_call4.cst_0.ref) rfl (by decide),
   writes_sub_of (main_call4.v2.ref) rfl (by decide),
   writes_sub_of (main_call4.v3.ref) rfl (by decide),
   writes_sub_of (main_call4.v4.ref) rfl (by decide),
   writes_sub_of (main_call4.v5.ref) rfl (by decide),
   writes_sub_of (main_call4.v6.ref) rfl (by decide),
   writes_sub_of (main_call4.v7.ref) rfl (by decide),
   writes_sub_of (main_call4.cst_1.ref) rfl (by decide),
   writes_sub_of (main_call4.v8.ref) rfl (by decide),
   writes_sub_of (main_call4.cst_2.ref) rfl (by decide),
   writes_sub_of (main_call4.v9.ref) rfl (by decide),
   writes_sub_of (main_call4.v10.ref) rfl (by decide),
   writes_sub_of (main_call4.v11.ref) rfl (by decide),
   writes_sub_of (main_call4.cst_3.ref) rfl (by decide),
   writes_sub_of (main_call4.v12.ref) rfl (by decide),
   writes_sub_of (main_call4.cst_4.ref) rfl (by decide),
   writes_sub_of (main_call4.call0.v0.ref) rfl (by decide),
   writes_sub_of (main_call4.call0.v1.ref) rfl (by decide),
   writes_sub_of (main_call4.call0.v2.ref) rfl (by decide),
   writes_sub_of main_v129 rfl (by decide),
   writes_sub_of main_v130 rfl (by decide),
   writes_sub_of main_v131 rfl (by decide),
   writes_sub_of main_cst_27 rfl (by decide),
   writes_sub_of main_v132 rfl (by decide),
   writes_sub_of main_v133 rfl (by decide),
   writes_sub_of main_v134 rfl (by decide),
   writes_sub_of main_v135 rfl (by decide),
   writes_sub_of main_v136 rfl (by decide),
   writes_sub_of main_v137 rfl (by decide),
   writes_sub_of main_v138 rfl (by decide),
   writes_sub_of main_v139 rfl (by decide),
   writes_sub_of main_v140 rfl (by decide),
   writes_sub_of main_v141 rfl (by decide),
   writes_sub_of main_v142 rfl (by decide),
   writes_sub_of main_v143 rfl (by decide),
   writes_sub_of (main_call5.cst.ref) rfl (by decide),
   writes_sub_of (main_call5.v0.ref) rfl (by decide),
   writes_sub_of (main_call5.v1.ref) rfl (by decide),
   writes_sub_of main_v145 rfl (by decide),
   writes_sub_of main_v146 rfl (by decide),
   writes_sub_of main_v147 rfl (by decide),
   writes_sub_of main_v148 rfl (by decide),
   writes_sub_of main_v149 rfl (by decide)⟩
/-- No operation allocates: each determines its result. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the fourth stretch writes, one per operation. -/
abbrev ops3_W : List (Ref sig .tc) :=
  [main_call6.cst.ref, main_call6.v0.ref, main_call6.v1.ref, main_v151, main_v152, main_v153, main_v154, main_v155, main_v156, main_v157, main_cst_28, main_v158, main_v159, main_cst_29, main_v160, main_v161]
theorem ops3_writes : (ops3 : List (HloOp τ sig (Elt F))).Forall fun op => op.writes ⊆ (ops3_W.map (Proc.devRef (τ := τ) .tc)).toFinset :=
  ⟨writes_sub_of (main_call6.cst.ref) rfl (by decide),
   writes_sub_of (main_call6.v0.ref) rfl (by decide),
   writes_sub_of (main_call6.v1.ref) rfl (by decide),
   writes_sub_of main_v151 rfl (by decide),
   writes_sub_of main_v152 rfl (by decide),
   writes_sub_of main_v153 rfl (by decide),
   writes_sub_of main_v154 rfl (by decide),
   writes_sub_of main_v155 rfl (by decide),
   writes_sub_of main_v156 rfl (by decide),
   writes_sub_of main_v157 rfl (by decide),
   writes_sub_of main_cst_28 rfl (by decide),
   writes_sub_of main_v158 rfl (by decide),
   writes_sub_of main_v159 rfl (by decide),
   writes_sub_of main_cst_29 rfl (by decide),
   writes_sub_of main_v160 rfl (by decide),
   writes_sub_of main_v161 rfl (by decide)⟩
/-- No operation allocates: each determines its result. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl⟩

theorem ops_fresh (op : HloOp τ sig (Elt F)) (h : op ∈ (ops : List (HloOp τ sig (Elt F)))) : op.fresh = ∅ := by
  simp only [ops, List.mem_append] at h
  rcases h with h | h | h | h
  exacts [List.forall_iff_forall_mem.mp ops0_fresh op h, List.forall_iff_forall_mem.mp ops1_fresh op h, List.forall_iff_forall_mem.mp ops2_fresh op h, List.forall_iff_forall_mem.mp ops3_fresh op h]

/-- The whole list folds stretch by stretch. -/
theorem after_ops (V : Valuation τ sig (Elt F)) : after ops V = after ops3 (after ops2 (after ops1 (after ops0 V))) := by
  simp only [ops, after_app]

/-- A buffer that no stretch writes keeps its launch contents through the whole program. -/
theorem after_ops_kept (V : Valuation τ sig (Elt F)) (r : Ref sig .tc) (h0 : r ∉ ops0_W) (h1 : r ∉ ops1_W) (h2 : r ∉ ops2_W) (h3 : r ∉ ops3_W) :
    after ops V (Proc.devRef .tc r) = V (Proc.devRef .tc r) := by
  rw [after_ops, after_of_writes_sub ops3 _ ops3_writes h3, after_of_writes_sub ops2 _ ops2_writes h2,
    after_of_writes_sub ops1 _ ops1_writes h1, after_of_writes_sub ops0 _ ops0_writes h0]

/-- The reference's result from launch contents `W`: the fold of @main's operations over `W`, read at the result buffer. -/
def refOut (W : Valuation τ sig (Elt F)) : (⟨S100000x1, .f32⟩ : BufTy).Contents (Elt F) :=
  after ops W (Proc.devRef .tc main_v161)

/-- On every device, for any float values, from any memory with zero counters: every weakly fair execution of @main
    terminates with the result at `refOut` of the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v161) = refOut (fun b => m (c, b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨h c main_v161,
      (h c main_arg0).trans (after_ops_kept _ main_arg0 (by decide) (by decide) (by decide) (by decide)),
      (h c main_arg1).trans (after_ops_kept _ main_arg1 (by decide) (by decide) (by decide) (by decide)),
      (h c main_arg2).trans (after_ops_kept _ main_arg2 (by decide) (by decide) (by decide) (by decide)),
      (h c main_arg3).trans (after_ops_kept _ main_arg3 (by decide) (by decide) (by decide) (by decide)),
      (h c main_arg4).trans (after_ops_kept _ main_arg4 (by decide) (by decide) (by decide) (by decide)),
      (h c main_arg5).trans (after_ops_kept _ main_arg5 (by decide) (by decide) (by decide) (by decide)),
      (h c main_arg6).trans (after_ops_kept _ main_arg6 (by decide) (by decide) (by decide) (by decide)),
      (h c main_arg7).trans (after_ops_kept _ main_arg7 (by decide) (by decide) (by decide) (by decide)),
      (h c main_arg8).trans (after_ops_kept _ main_arg8 (by decide) (by decide) (by decide) (by decide)),
      (h c main_arg9).trans (after_ops_kept _ main_arg9 (by decide) (by decide) (by decide) (by decide)),
      (h c main_arg10).trans (after_ops_kept _ main_arg10 (by decide) (by decide) (by decide) (by decide)),
      (h c main_arg11).trans (after_ops_kept _ main_arg11 (by decide) (by decide) (by decide) (by decide)),
      (h c main_arg12).trans (after_ops_kept _ main_arg12 (by decide) (by decide) (by decide) (by decide)),
      (h c main_arg13).trans (after_ops_kept _ main_arg13 (by decide) (by decide) (by decide) (by decide)),
      (h c main_arg14).trans (after_ops_kept _ main_arg14 (by decide) (by decide) (by decide) (by decide)),
      (h c main_arg15).trans (after_ops_kept _ main_arg15 (by decide) (by decide) (by decide) (by decide)),
      (h c main_arg16).trans (after_ops_kept _ main_arg16 (by decide) (by decide) (by decide) (by decide)),
      (h c main_arg17).trans (after_ops_kept _ main_arg17 (by decide) (by decide) (by decide) (by decide)),
      (h c main_arg18).trans (after_ops_kept _ main_arg18 (by decide) (by decide) (by decide) (by decide)),
      (h c main_arg19).trans (after_ops_kept _ main_arg19 (by decide) (by decide) (by decide) (by decide)),
      (h c main_arg20).trans (after_ops_kept _ main_arg20 (by decide) (by decide) (by decide) (by decide))⟩)
    (run_seq scopedRefs_eq scopedSems_eq defs main (fun _ => ops) main_eq (fun _ => ops_sub) m ρ (fun _ => ops_fresh))

end Cert.ReferenceIdeal.Hand

end
-- ==== Proof.RefRun.Frame.lean ====
/- The reference program's two conjuncts of the claim, on the extended reals, in the claim's own words: its frame (it runs
   to the end and leaves its arguments unchanged), and its half of the comparison (it ends with the result at any value
   the fold of its operations is shown equal to). -/
import proofs.«121727_j57028575756303_1_alg».proof.Defs
import proofs.«121727_j57028575756303_1_alg».proof.Proof.RefRun.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference's frame: under any precondition, every weakly fair execution terminates with the arguments unchanged. -/
theorem frame_holds [hPre_finite_inputs : Cert.Pre_finite_inputs.Facts] : Cert.frame_ReferenceIdeal :=
  fun m g _ => (θ_run _ _ _).mono (fun _ h c => (h c).2) (run (F := Ideal) m g)

/-- The reference's half of the comparison: from any memory it ends with the result at `v0 c` on each device, given
    that the fold of its operations over that device's launch contents is `v0 c`, and with the arguments unchanged. -/
theorem run_result_eq (m' : (ℓ : Loc nD τ sig) → Buf (Elt Ideal) ℓ) (g' : Dev nD → PrngReg)
    (v0 : (c : Dev nD) → Buf (Elt Ideal) ((c.tc : Thread nD τ).loc main_v161))
    (hv : ∀ c : Dev nD, refOut (F := Ideal) (fun b => m' (c, b)) = v0 c) :
    θ_run (defs (F := Ideal)) (onTc (τ := τ) (main (F := Ideal))) ⟨m', fun _ => 0, g'⟩ (fun r => ∀ c : Dev nD,
      r.2.mem ((c.tc : Thread nD τ).loc main_v161) = v0 c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)) :=
  (θ_run _ _ _).mono (fun _ h c => ⟨(h c).1.trans (hv c), (h c).2⟩) (run (F := Ideal) m' g')

end Cert.ReferenceIdeal.Hand

end
-- ==== Proof.KI.HostStages.lean ====
/-
  The host operations between the kernel launches, read as functions of the arrays they are computed from.

  Each stretch of host operations of the program is a straight line of array operations. For any contents W of the
  buffers before a stretch, the contents after it of each buffer the next launch reads is a composition of a few
  stage functions of W at the stretch's inputs:
    the source and destination node of each edge (rows 0 and 1 of the 2 × E edge table as vectors of length E);
    the gather's index column (a negative source index moved up by the number of nodes N = 100000);
    the neighbour messages (row idx e of the N × D features for each edge e);
    the segment sum (the messages added into an N × D array of zeros at their destination rows);
    the in-degree (E ones added into N zeros at the destinations);
    the mean aggregate (each row of the segment sum divided by max (in-degree, 1));
    the column mean S / N and the column variance Q / N − (S / N) · (S / N) from the column sums S and sums of squares Q;
    and the weights transposed and the bias, scale and shift vectors as rows.
  Each stage's body is the composition of its operations in program order, nothing simplified.
-/
import proofs.«121727_j57028575756303_1_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## The stages -/

/-- The source node of each edge: row 0 of the 2 x E edge table, as a vector of length E. -/
def stage_src (a0 : (⟨S2x1600000, .i32⟩ : BufTy).Contents (Elt F)) :
    (⟨S1600000, .i32⟩ : BufTy).Contents (Elt F) :=
  (shapeCast S1600000 ((extractStridedSlice S1x1600000 ![0, 0] · slices_S2x1600000_S1x1600000_0_0) a0 : (⟨S1x1600000, .i32⟩ : BufTy).Contents (Elt F)) shapeCasts_S1x1600000_S1600000 : (⟨S1600000, .i32⟩ : BufTy).Contents (Elt F))

/-- The destination node of each edge: row 1 of the 2 x E edge table, as a vector of length E. -/
def stage_dst (a0 : (⟨S2x1600000, .i32⟩ : BufTy).Contents (Elt F)) :
    (⟨S1600000, .i32⟩ : BufTy).Contents (Elt F) :=
  (shapeCast S1600000 ((extractStridedSlice S1x1600000 ![1, 0] · slices_S2x1600000_S1x1600000_1_0) a0 : (⟨S1x1600000, .i32⟩ : BufTy).Contents (Elt F)) shapeCasts_S1x1600000_S1600000 : (⟨S1600000, .i32⟩ : BufTy).Contents (Elt F))

/-- The gather's index column: a negative source index is moved up by the number of nodes N = 100000 (index normalisation), any other kept; as an E x 1 column. -/
def stage_idx (a0 : (⟨S1600000, .i32⟩ : BufTy).Contents (Elt F)) :
    (⟨S1600000x1, .i32⟩ : BufTy).Contents (Elt F) :=
  ((broadcastInDim S1600000x1 ![0] bcast_S1600000_S1600000x1_0) (select ((cmpi .slt) a0 ((broadcastInDim S1600000 ![] bcast_S_S1600000) (constantI S_ 32 0#32 : (⟨S_, .i32⟩ : BufTy).Contents (Elt F)) : (⟨S1600000, .i32⟩ : BufTy).Contents (Elt F)) : (⟨S1600000, .i1⟩ : BufTy).Contents (Elt F)) (addi a0 ((broadcastInDim S1600000 ![] bcast_S_S1600000) (constantI S_ 32 100000#32 : (⟨S_, .i32⟩ : BufTy).Contents (Elt F)) : (⟨S1600000, .i32⟩ : BufTy).Contents (Elt F)) : (⟨S1600000, .i32⟩ : BufTy).Contents (Elt F)) a0 : (⟨S1600000, .i32⟩ : BufTy).Contents (Elt F)) : (⟨S1600000x1, .i32⟩ : BufTy).Contents (Elt F))

/-- The neighbour messages of the first layer: row idx e of the N x 16 features, for each edge e. -/
def stage_gather16 (a0 : (⟨S100000x16, .f32⟩ : BufTy).Contents (Elt F)) (a1 : (⟨S1600000x1, .i32⟩ : BufTy).Contents (Elt F)) :
    (⟨S1600000x16, .f32⟩ : BufTy).Contents (Elt F) :=
  ((fun x i => Host.gather gather_S100000x16_S1600000x1_S1600000x16_1_0_n_n_0_1_116 x i) a0 a1 : (⟨S1600000x16, .f32⟩ : BufTy).Contents (Elt F))

/-- The segment sum of the first layer: the E x 16 messages added into an N x 16 array of zeros at their destination rows. -/
def stage_scatter16 (a0 : (⟨S1600000, .i32⟩ : BufTy).Contents (Elt F)) (a1 : (⟨S1600000x16, .f32⟩ : BufTy).Contents (Elt F)) :
    (⟨S100000x16, .f32⟩ : BufTy).Contents (Elt F) :=
  ((fun x i u => Host.scatterAdd scatter_S100000x16_S1600000x1_S1600000x16_1_0_0_1 x i u) ((broadcastInDim S100000x16 ![] bcast_S_S100000x16) (constant S_ .f32 0x00000000#32 : (⟨S_, .f32⟩ : BufTy).Contents (Elt F)) : (⟨S100000x16, .f32⟩ : BufTy).Contents (Elt F)) ((broadcastInDim S1600000x1 ![0] bcast_S1600000_S1600000x1_0) a0 : (⟨S1600000x1, .i32⟩ : BufTy).Contents (Elt F)) a1 : (⟨S100000x16, .f32⟩ : BufTy).Contents (Elt F))

/-- The in-degree of each node: a vector of E ones added into a vector of N zeros at the destinations. -/
def stage_cnt (a0 : (⟨S1600000, .i32⟩ : BufTy).Contents (Elt F)) :
    (⟨S100000, .f32⟩ : BufTy).Contents (Elt F) :=
  ((fun x i u => Host.scatterAdd scatter_S100000_S1600000x1_S1600000_n_0_0_1 x i u) ((broadcastInDim S100000 ![] bcast_S_S100000) (constant S_ .f32 0x00000000#32 : (⟨S_, .f32⟩ : BufTy).Contents (Elt F)) : (⟨S100000, .f32⟩ : BufTy).Contents (Elt F)) ((broadcastInDim S1600000x1 ![0] bcast_S1600000_S1600000x1_0) a0 : (⟨S1600000x1, .i32⟩ : BufTy).Contents (Elt F)) ((broadcastInDim S1600000 ![] bcast_S_S1600000) (constant S_ .f32 0x3F800000#32 : (⟨S_, .f32⟩ : BufTy).Contents (Elt F)) : (⟨S1600000, .f32⟩ : BufTy).Contents (Elt F)) : (⟨S100000, .f32⟩ : BufTy).Contents (Elt F))

/-- The mean aggregate of the first layer: each row of the segment sum divided by max(in-degree, 1). -/
def stage_div16 (a0 : (⟨S100000x16, .f32⟩ : BufTy).Contents (Elt F)) (a1 : (⟨S100000, .f32⟩ : BufTy).Contents (Elt F)) :
    (⟨S100000x16, .f32⟩ : BufTy).Contents (Elt F) :=
  (Host.divf a0 ((broadcastInDim S100000x16 ![0, 1] bcast_S100000x1_S100000x16_0_1) ((broadcastInDim S100000x1 ![0] bcast_S100000_S100000x1_0) (maximumf a1 ((broadcastInDim S100000 ![] bcast_S_S100000) (constant S_ .f32 0x3F800000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x16, .f32⟩ : BufTy).Contents (Elt F)) : (⟨S100000x16, .f32⟩ : BufTy).Contents (Elt F))

/-- The neighbour messages of a later layer: row idx e of the N x 128 features, for each edge e. -/
def stage_gather128 (a0 : (⟨S100000x128, .f32⟩ : BufTy).Contents (Elt F)) (a1 : (⟨S1600000x1, .i32⟩ : BufTy).Contents (Elt F)) :
    (⟨S1600000x128, .f32⟩ : BufTy).Contents (Elt F) :=
  ((fun x i => Host.gather gather_S100000x128_S1600000x1_S1600000x128_1_0_n_n_0_1_1128 x i) a0 a1 : (⟨S1600000x128, .f32⟩ : BufTy).Contents (Elt F))

/-- The segment sum of a later layer: the E x 128 messages added into an N x 128 array of zeros at their destination rows. -/
def stage_scatter128 (a0 : (⟨S1600000, .i32⟩ : BufTy).Contents (Elt F)) (a1 : (⟨S1600000x128, .f32⟩ : BufTy).Contents (Elt F)) :
    (⟨S100000x128, .f32⟩ : BufTy).Contents (Elt F) :=
  ((fun x i u => Host.scatterAdd scatter_S100000x128_S1600000x1_S1600000x128_1_0_0_1 x i u) ((broadcastInDim S100000x128 ![] bcast_S_S100000x128) (constant S_ .f32 0x00000000#32 : (⟨S_, .f32⟩ : BufTy).Contents (Elt F)) : (⟨S100000x128, .f32⟩ : BufTy).Contents (Elt F)) ((broadcastInDim S1600000x1 ![0] bcast_S1600000_S1600000x1_0) a0 : (⟨S1600000x1, .i32⟩ : BufTy).Contents (Elt F)) a1 : (⟨S100000x128, .f32⟩ : BufTy).Contents (Elt F))

/-- The mean aggregate of a later layer: each row of the segment sum divided by max(in-degree, 1). -/
def stage_div128 (a0 : (⟨S100000x128, .f32⟩ : BufTy).Contents (Elt F)) (a1 : (⟨S100000, .f32⟩ : BufTy).Contents (Elt F)) :
    (⟨S100000x128, .f32⟩ : BufTy).Contents (Elt F) :=
  (Host.divf a0 ((broadcastInDim S100000x128 ![0, 1] bcast_S100000x1_S100000x128_0_1) ((broadcastInDim S100000x1 ![0] bcast_S100000_S100000x1_0) (maximumf a1 ((broadcastInDim S100000 ![] bcast_S_S100000) (constant S_ .f32 0x3F800000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x128, .f32⟩ : BufTy).Contents (Elt F)) : (⟨S100000x128, .f32⟩ : BufTy).Contents (Elt F))

/-- The whole mean aggregation of the first layer from the features x, the edges' sources and destinations and the
    in-degree: gather by the index column of the sources, segment sum by the destinations, divide by max(in-degree, 1). -/
def aggStage16 (x : (⟨S100000x16, .f32⟩ : BufTy).Contents (Elt F)) (src dst : (⟨S1600000, .i32⟩ : BufTy).Contents (Elt F)) (cnt : (⟨S100000, .f32⟩ : BufTy).Contents (Elt F)) :
    (⟨S100000x16, .f32⟩ : BufTy).Contents (Elt F) :=
  stage_div16 (stage_scatter16 dst (stage_gather16 x (stage_idx src))) cnt

/-- The whole mean aggregation of a later layer (128 columns). -/
def aggStage128 (x : (⟨S100000x128, .f32⟩ : BufTy).Contents (Elt F)) (src dst : (⟨S1600000, .i32⟩ : BufTy).Contents (Elt F)) (cnt : (⟨S100000, .f32⟩ : BufTy).Contents (Elt F)) :
    (⟨S100000x128, .f32⟩ : BufTy).Contents (Elt F) :=
  stage_div128 (stage_scatter128 dst (stage_gather128 x (stage_idx src))) cnt

/-- The number of rows N = 100000 at every entry of an array of shape s. -/
def rowsSplat (s : Shape) (h : S_.BroadcastsInDim s (![] : Fin 0 → Fin s.rank)) : FVec F s .f32 :=
  broadcastInDim s ![] h (constant (F := F) S_ .f32 0x47C35000#32)

/-- The column means from the column sums S: S / N. -/
def meanStage (s : Shape) (h : S_.BroadcastsInDim s (![] : Fin 0 → Fin s.rank)) (S : FVec F s .f32) : FVec F s .f32 :=
  Host.divf S (rowsSplat s h)

/-- The column variances from the column sums S and the column sums of squares Q: Q / N − (S / N) · (S / N). -/
def varStage (s : Shape) (h : S_.BroadcastsInDim s (![] : Fin 0 → Fin s.rank)) (S Q : FVec F s .f32) : FVec F s .f32 :=
  subf (Host.divf Q (rowsSplat s h)) (mulf (meanStage s h S) (meanStage s h S))

/-! ## After the first stretch (before launch 0) -/

variable (W : Valuation τ sig (Elt F))

theorem after0_v1 : StableHlo.after hostOps0 W (Proc.devRef .tc main_v1) = stage_src (W (Proc.devRef .tc main_arg1)) := by
  after_results <;> rfl

theorem after0_v3 : StableHlo.after hostOps0 W (Proc.devRef .tc main_v3) = stage_dst (W (Proc.devRef .tc main_arg1)) := by
  after_results <;> rfl

theorem after0_v7 :
    StableHlo.after hostOps0 W (Proc.devRef .tc main_v7) = stage_cnt (stage_dst (W (Proc.devRef .tc main_arg1))) := by
  after_results <;> rfl

theorem after0_v8 :
    StableHlo.after hostOps0 W (Proc.devRef .tc main_v8)
      = transpose S16x128 [1, 0] (W (Proc.devRef .tc main_arg2)) transposes_S128x16_S16x128_1_0 := by
  after_results <;> rfl

theorem after0_v9 :
    StableHlo.after hostOps0 W (Proc.devRef .tc main_v9) = shapeCast S1x128 (W (Proc.devRef .tc main_arg3)) shapeCasts_S128_S1x128 := by
  after_results <;> rfl

theorem after0_v10 :
    StableHlo.after hostOps0 W (Proc.devRef .tc main_v10)
      = transpose S16x128 [1, 0] (W (Proc.devRef .tc main_arg4)) transposes_S128x16_S16x128_1_0 := by
  after_results <;> rfl

theorem after0_v11 :
    StableHlo.after hostOps0 W (Proc.devRef .tc main_v11) = shapeCast S1x128 (W (Proc.devRef .tc main_arg5)) shapeCasts_S128_S1x128 := by
  after_results <;> rfl

theorem after0_v12 :
    StableHlo.after hostOps0 W (Proc.devRef .tc main_v12) = shapeCast S1x128 (W (Proc.devRef .tc main_arg6)) shapeCasts_S128_S1x128 := by
  after_results <;> rfl

set_option maxHeartbeats 1000000 in
theorem after0_v27 :
    StableHlo.after hostOps0 W (Proc.devRef .tc main_v27)
      = aggStage16 (W (Proc.devRef .tc main_arg0)) (stage_src (W (Proc.devRef .tc main_arg1)))
          (stage_dst (W (Proc.devRef .tc main_arg1))) (stage_cnt (stage_dst (W (Proc.devRef .tc main_arg1)))) := by
  after_results_simp <;> rfl

/-! ## After the second stretch (between launches 0 and 1) -/

theorem after1_v30 :
    StableHlo.after hostOps1 W (Proc.devRef .tc main_v30) = meanStage S1x128 bcast_S_S1x128 (W (Proc.devRef .tc main_v28_1)) := by
  after_results <;> rfl

theorem after1_v34 :
    StableHlo.after hostOps1 W (Proc.devRef .tc main_v34)
      = varStage S1x128 bcast_S_S1x128 (W (Proc.devRef .tc main_v28_1)) (W (Proc.devRef .tc main_v28_2)) := by
  after_results <;> rfl

/-! ## After the third stretch (between launches 1 and 2) -/

theorem after2_v36 :
    StableHlo.after hostOps2 W (Proc.devRef .tc main_v36)
      = transpose S128x128 [1, 0] (W (Proc.devRef .tc main_arg7)) transposes_S128x128_S128x128_1_0 := by
  after_results <;> rfl

theorem after2_v37 :
    StableHlo.after hostOps2 W (Proc.devRef .tc main_v37) = shapeCast S1x128 (W (Proc.devRef .tc main_arg8)) shapeCasts_S128_S1x128 := by
  after_results <;> rfl

theorem after2_v38 :
    StableHlo.after hostOps2 W (Proc.devRef .tc main_v38)
      = transpose S128x128 [1, 0] (W (Proc.devRef .tc main_arg9)) transposes_S128x128_S128x128_1_0 := by
  after_results <;> rfl

theorem after2_v39 :
    StableHlo.after hostOps2 W (Proc.devRef .tc main_v39) = shapeCast S1x128 (W (Proc.devRef .tc main_arg10)) shapeCasts_S128_S1x128 := by
  after_results <;> rfl

theorem after2_v40 :
    StableHlo.after hostOps2 W (Proc.devRef .tc main_v40) = shapeCast S1x128 (W (Proc.devRef .tc main_arg11)) shapeCasts_S128_S1x128 := by
  after_results <;> rfl

set_option maxHeartbeats 1000000 in
theorem after2_v55 :
    StableHlo.after hostOps2 W (Proc.devRef .tc main_v55)
      = aggStage128 (W (Proc.devRef .tc main_v35)) (W (Proc.devRef .tc main_v1)) (W (Proc.devRef .tc main_v3))
          (W (Proc.devRef .tc main_v7)) := by
  after_results_simp <;> rfl

/-! ## After the fourth stretch (between launches 2 and 3) -/

theorem after3_v58 :
    StableHlo.after hostOps3 W (Proc.devRef .tc main_v58) = meanStage S1x128 bcast_S_S1x128 (W (Proc.devRef .tc main_v56_1)) := by
  after_results <;> rfl

theorem after3_v62 :
    StableHlo.after hostOps3 W (Proc.devRef .tc main_v62)
      = varStage S1x128 bcast_S_S1x128 (W (Proc.devRef .tc main_v56_1)) (W (Proc.devRef .tc main_v56_2)) := by
  after_results <;> rfl

/-! ## After the fifth stretch (between launches 3 and 4) -/

theorem after4_v64 :
    StableHlo.after hostOps4 W (Proc.devRef .tc main_v64)
      = transpose S128x64 [1, 0] (W (Proc.devRef .tc main_arg12)) transposes_S64x128_S128x64_1_0 := by
  after_results <;> rfl

theorem after4_v65 :
    StableHlo.after hostOps4 W (Proc.devRef .tc main_v65) = shapeCast S1x64 (W (Proc.devRef .tc main_arg13)) shapeCasts_S64_S1x64 := by
  after_results <;> rfl

theorem after4_v66 :
    StableHlo.after hostOps4 W (Proc.devRef .tc main_v66)
      = transpose S128x64 [1, 0] (W (Proc.devRef .tc main_arg14)) transposes_S64x128_S128x64_1_0 := by
  after_results <;> rfl

theorem after4_v67 :
    StableHlo.after hostOps4 W (Proc.devRef .tc main_v67) = shapeCast S1x64 (W (Proc.devRef .tc main_arg15)) shapeCasts_S64_S1x64 := by
  after_results <;> rfl

theorem after4_v68 :
    StableHlo.after hostOps4 W (Proc.devRef .tc main_v68) = shapeCast S1x64 (W (Proc.devRef .tc main_arg16)) shapeCasts_S64_S1x64 := by
  after_results <;> rfl

set_option maxHeartbeats 1000000 in
theorem after4_v83 :
    StableHlo.after hostOps4 W (Proc.devRef .tc main_v83)
      = aggStage128 (W (Proc.devRef .tc main_v63)) (W (Proc.devRef .tc main_v1)) (W (Proc.devRef .tc main_v3))
          (W (Proc.devRef .tc main_v7)) := by
  after_results_simp <;> rfl

/-! ## After the sixth stretch (between launches 4 and 5) -/

theorem after5_v86 :
    StableHlo.after hostOps5 W (Proc.devRef .tc main_v86) = meanStage S1x64 bcast_S_S1x64 (W (Proc.devRef .tc main_v84_1)) := by
  after_results <;> rfl

theorem after5_v90 :
    StableHlo.after hostOps5 W (Proc.devRef .tc main_v90)
      = varStage S1x64 bcast_S_S1x64 (W (Proc.devRef .tc main_v84_1)) (W (Proc.devRef .tc main_v84_2)) := by
  after_results <;> rfl

/-! ## After the seventh stretch (between launches 5 and 6) -/

theorem after6_v92 :
    StableHlo.after hostOps6 W (Proc.devRef .tc main_v92)
      = transpose S64x32 [1, 0] (W (Proc.devRef .tc main_arg17)) transposes_S32x64_S64x32_1_0 := by
  after_results <;> rfl

theorem after6_v93 :
    StableHlo.after hostOps6 W (Proc.devRef .tc main_v93) = shapeCast S1x32 (W (Proc.devRef .tc main_arg18)) shapeCasts_S32_S1x32 := by
  after_results <;> rfl

theorem after6_v94 :
    StableHlo.after hostOps6 W (Proc.devRef .tc main_v94)
      = transpose S32x1 [1, 0] (W (Proc.devRef .tc main_arg19)) transposes_S1x32_S32x1_1_0 := by
  after_results <;> rfl

theorem after6_v95 :
    StableHlo.after hostOps6 W (Proc.devRef .tc main_v95) = shapeCast S1x1 (W (Proc.devRef .tc main_arg20)) shapeCasts_S1_S1x1 := by
  after_results <;> rfl

end Cert.KernelIdeal.Hand
-- ==== Proof.KI.Stats0Pieces.lean ====
/- Pipeline 0, the stores each kind of grid point leaves, read back as values: the row-block output holds the combine of
   the point's blocks (`k0_pay4`); the first accumulator row holds the row it held before (the zero row `k0_pay2` at
   the first point) plus the block's column sums (`k0_pay5`); the second likewise with the column sums of squares
   (`k0_pay1` of the row before, or of the zero row `k0_pay3`, and `k0_pay6`); at the last point the two one-row outputs
   hold copies of the two accumulator rows. Each at any float model. -/
import proofs.«121727_j57028575756303_1_alg».proof.Proof.KI.Stats0Traj
import proofs.«121727_j57028575756303_1_alg».proof.Proof.KI.Stats0Cover
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-- The zero offsets, however spelt. -/
theorem hz0 : (![0, 0] : Fin 2 → Nat) = fun _ => 0 := funext fun a => by fin_cases a <;> rfl

/-! ## The first point: the accumulator rows start from the zero rows -/

theorem o5_A (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond0_0 i) (hc1 : ¬cond0_1 i) (x0 x1 : Vec F S5000x16 .f32) (x2 : Vec F S16x128 .f32) (x3 : Vec F S1x128 .f32) (x4 : Vec F S16x128 .f32) :
    rdB0 (kernelRun0_A c i arg1 harg1 arg2 harg2 arg3 harg3 arg4 harg4 arg5 harg5 arg6 harg6 arg7 harg7 arg8 harg8 arg9 harg9 arg10 harg10 hc0 hc1 x0 x1 x2 x3 x4).1 = k0_pay4 x0 x1 x2 x4 x3 := by
  unfold rdB0
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  try sl_unfold_words
  rw [View.canon_unit_zero hz0]
  simp only [View.readAt_eq_ld, harg1.read_unread, harg2.read_unread, harg3.read_unread, harg4.read_unread, harg5.read_unread,
    harg9.read_unread, harg10.read_unread, View.ld_unit_zero (S := S5000x16) hz0, View.ld_unit_zero (S := S16x128) hz0,
    View.ld_unit_zero (S := S1x128) hz0]

theorem a0_A (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond0_0 i) (hc1 : ¬cond0_1 i) (x0 x1 : Vec F S5000x16 .f32) (x2 : Vec F S16x128 .f32) (x3 : Vec F S1x128 .f32) (x4 : Vec F S16x128 .f32) :
    rdR0 (kernelRun0_A c i arg1 harg1 arg2 harg2 arg3 harg3 arg4 harg4 arg5 harg5 arg6 harg6 arg7 harg7 arg8 harg8 arg9 harg9 arg10 harg10 hc0 hc1 x0 x1 x2 x3 x4).2.1 = k0_pay5 x0 x1 x2 x4 x3 k0_pay2 := by
  unfold rdR0
  rw [View.read_writes_eq_canon _ _ _ (cover0_A_9 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  try sl_unfold_words
  rw [View.canon_cons_unit_zero (S := S1x128) hz0, View.readCov_unit_zero (S := S1x128) _ hz0]
  simp only [View.readAt_eq_ld, harg1.read_unread, harg2.read_unread, harg3.read_unread, harg4.read_unread, harg5.read_unread,
    harg9.read_unread, harg10.read_unread, View.ld_unit_zero (S := S5000x16) hz0, View.ld_unit_zero (S := S16x128) hz0,
    View.ld_unit_zero (S := S1x128) hz0]

theorem a1_A (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond0_0 i) (hc1 : ¬cond0_1 i) (x0 x1 : Vec F S5000x16 .f32) (x2 : Vec F S16x128 .f32) (x3 : Vec F S1x128 .f32) (x4 : Vec F S16x128 .f32) :
    rdR0 (kernelRun0_A c i arg1 harg1 arg2 harg2 arg3 harg3 arg4 harg4 arg5 harg5 arg6 harg6 arg7 harg7 arg8 harg8 arg9 harg9 arg10 harg10 hc0 hc1 x0 x1 x2 x3 x4).2.2.1 = k0_pay1 k0_pay3 (k0_pay6 x0 x1 x2 x4 x3) := by
  unfold rdR0
  rw [View.read_writes_eq_canon _ _ _ (cover0_A_10 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  try sl_unfold_words
  rw [View.canon_cons_unit_zero (S := S1x128) hz0, View.readCov_unit_zero (S := S1x128) _ hz0]
  simp only [View.readAt_eq_ld, harg1.read_unread, harg2.read_unread, harg3.read_unread, harg4.read_unread, harg5.read_unread,
    harg9.read_unread, harg10.read_unread, View.ld_unit_zero (S := S5000x16) hz0, View.ld_unit_zero (S := S16x128) hz0,
    View.ld_unit_zero (S := S1x128) hz0]

/-! ## A point between the first and the last -/

theorem o5_B (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : ¬cond0_1 i) (x0 x1 : Vec F S5000x16 .f32) (x2 : Vec F S16x128 .f32) (x3 : Vec F S1x128 .f32) (x4 : Vec F S16x128 .f32) (s0 s1 : Vec F S1x128 .f32) :
    rdB0 (kernelRun0_B c i arg1 harg1 arg2 harg2 arg3 harg3 arg4 harg4 arg5 harg5 arg6 harg6 arg7 harg7 arg8 harg8 arg9 harg9 arg10 harg10 hc0 hc1 x0 x1 x2 x3 x4 s0 s1).1 = k0_pay4 x0 x1 x2 x4 x3 := by
  unfold rdB0
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 s0 s1)]
  unfold kernelRun0_B
  dsimp only
  rw [View.canon_unit_zero hz0]
  simp only [View.readAt_eq_ld, harg1.read_unread, harg2.read_unread, harg3.read_unread, harg4.read_unread, harg5.read_unread,
    harg9.read_unread, harg10.read_unread, View.ld_unit_zero (S := S5000x16) hz0, View.ld_unit_zero (S := S16x128) hz0,
    View.ld_unit_zero (S := S1x128) hz0]

theorem a0_B (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : ¬cond0_1 i) (x0 x1 : Vec F S5000x16 .f32) (x2 : Vec F S16x128 .f32) (x3 : Vec F S1x128 .f32) (x4 : Vec F S16x128 .f32) (s0 s1 : Vec F S1x128 .f32) :
    rdR0 (kernelRun0_B c i arg1 harg1 arg2 harg2 arg3 harg3 arg4 harg4 arg5 harg5 arg6 harg6 arg7 harg7 arg8 harg8 arg9 harg9 arg10 harg10 hc0 hc1 x0 x1 x2 x3 x4 s0 s1).2.1 = k0_pay5 x0 x1 x2 x4 x3 s0 := by
  unfold rdR0
  rw [View.read_writes_eq_canon _ _ _ (cover0_B_9 c i arg1 harg1 arg2 harg2 arg3 harg3 arg4 harg4 arg5 harg5 arg6 harg6 arg7 harg7 arg8 harg8 arg9 harg9 arg10 harg10 hc0 hc1 x0 x1 x2 x3 x4 s0 s1)]
  unfold kernelRun0_B
  dsimp only
  rw [View.canon_unit_zero hz0]
  simp only [View.readAt_eq_ld, harg1.read_unread, harg2.read_unread, harg3.read_unread, harg4.read_unread, harg5.read_unread,
    harg9.read_unread, harg10.read_unread, View.ld_unit_zero (S := S5000x16) hz0, View.ld_unit_zero (S := S16x128) hz0,
    View.ld_unit_zero (S := S1x128) hz0]

theorem a1_B (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : ¬cond0_1 i) (x0 x1 : Vec F S5000x16 .f32) (x2 : Vec F S16x128 .f32) (x3 : Vec F S1x128 .f32) (x4 : Vec F S16x128 .f32) (s0 s1 : Vec F S1x128 .f32) :
    rdR0 (kernelRun0_B c i arg1 harg1 arg2 harg2 arg3 harg3 arg4 harg4 arg5 harg5 arg6 harg6 arg7 harg7 arg8 harg8 arg9 harg9 arg10 harg10 hc0 hc1 x0 x1 x2 x3 x4 s0 s1).2.2.1 = k0_pay1 s1 (k0_pay6 x0 x1 x2 x4 x3) := by
  unfold rdR0
  rw [View.read_writes_eq_canon _ _ _ (cover0_B_10 c i arg1 harg1 arg2 harg2 arg3 harg3 arg4 harg4 arg5 harg5 arg6 harg6 arg7 harg7 arg8 harg8 arg9 harg9 arg10 harg10 hc0 hc1 x0 x1 x2 x3 x4 s0 s1)]
  unfold kernelRun0_B
  dsimp only
  rw [View.canon_unit_zero hz0]
  simp only [View.readAt_eq_ld, harg1.read_unread, harg2.read_unread, harg3.read_unread, harg4.read_unread, harg5.read_unread,
    harg9.read_unread, harg10.read_unread, View.ld_unit_zero (S := S5000x16) hz0, View.ld_unit_zero (S := S16x128) hz0,
    View.ld_unit_zero (S := S1x128) hz0]

/-! ## The last point: the accumulator rows are also copied to the two one-row outputs -/

theorem o5_C (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) :
    rdB0 (kernelRun0_C c i arg1 harg1 arg2 harg2 arg3 harg3 arg4 harg4 arg5 harg5 arg6 harg6 arg7 harg7 arg8 harg8 arg9 harg9 arg10 harg10 hc0 hc1 x0 x1 x2 x3 x4 s0 s1).1 = k0_pay4 x0 x1 x2 x4 x3 := by
  unfold rdB0
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 s0 s1)]
  unfold kernelRun0_C
  dsimp only
  try sl_unfold_words
  rw [View.canon_unit_zero hz0]
  simp only [View.readAt_eq_ld, harg1.read_unread, harg2.read_unread, harg3.read_unread, harg4.read_unread, harg5.read_unread,
    harg9.read_unread, harg10.read_unread, View.ld_unit_zero (S := S5000x16) hz0, View.ld_unit_zero (S := S16x128) hz0,
    View.ld_unit_zero (S := S1x128) hz0]

theorem o6_C (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) :
    rdR0 (kernelRun0_C c i arg1 harg1 arg2 harg2 arg3 harg3 arg4 harg4 arg5 harg5 arg6 harg6 arg7 harg7 arg8 harg8 arg9 harg9 arg10 harg10 hc0 hc1 x0 x1 x2 x3 x4 s0 s1).2.1 = k0_pay5 x0 x1 x2 x4 x3 s0 := by
  unfold rdR0
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 s0 s1)]
  unfold kernelRun0_C
  dsimp only
  try sl_unfold_words
  rw [View.canon_unit_zero hz0, View.readCov_unit_zero (S := S1x128) _ hz0]
  dsimp only
  simp only [View.readAt_eq_ld, harg1.read_unread, harg2.read_unread, harg3.read_unread, harg4.read_unread, harg5.read_unread,
    harg9.read_unread, harg10.read_unread, View.ld_unit_zero (S := S5000x16) hz0, View.ld_unit_zero (S := S16x128) hz0,
    View.ld_unit_zero (S := S1x128) hz0]

theorem o7_C (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) :
    rdR0 (kernelRun0_C c i arg1 harg1 arg2 harg2 arg3 harg3 arg4 harg4 arg5 harg5 arg6 harg6 arg7 harg7 arg8 harg8 arg9 harg9 arg10 harg10 hc0 hc1 x0 x1 x2 x3 x4 s0 s1).2.2.1 = k0_pay1 s1 (k0_pay6 x0 x1 x2 x4 x3) := by
  unfold rdR0
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 s0 s1)]
  unfold kernelRun0_C
  dsimp only
  try sl_unfold_words
  rw [View.canon_unit_zero hz0, View.readCov_unit_zero (S := S1x128) _ hz0]
  dsimp only
  simp only [View.readAt_eq_ld, harg1.read_unread, harg2.read_unread, harg3.read_unread, harg4.read_unread, harg5.read_unread,
    harg9.read_unread, harg10.read_unread, View.ld_unit_zero (S := S5000x16) hz0, View.ld_unit_zero (S := S16x128) hz0,
    View.ld_unit_zero (S := S1x128) hz0]

theorem a0_C (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) :
    rdR0 (kernelRun0_C c i arg1 harg1 arg2 harg2 arg3 harg3 arg4 harg4 arg5 harg5 arg6 harg6 arg7 harg7 arg8 harg8 arg9 harg9 arg10 harg10 hc0 hc1 x0 x1 x2 x3 x4 s0 s1).2.2.2.1 = k0_pay5 x0 x1 x2 x4 x3 s0 := by
  unfold rdR0
  rw [View.read_writes_eq_canon _ _ _ (cover0_C_9 c i arg1 harg1 arg2 harg2 arg3 harg3 arg4 harg4 arg5 harg5 arg6 harg6 arg7 harg7 arg8 harg8 arg9 harg9 arg10 harg10 hc0 hc1 x0 x1 x2 x3 x4 s0 s1)]
  unfold kernelRun0_C
  dsimp only
  try sl_unfold_words
  rw [View.canon_unit_zero hz0]
  simp only [View.readAt_eq_ld, harg1.read_unread, harg2.read_unread, harg3.read_unread, harg4.read_unread, harg5.read_unread,
    harg9.read_unread, harg10.read_unread, View.ld_unit_zero (S := S5000x16) hz0, View.ld_unit_zero (S := S16x128) hz0,
    View.ld_unit_zero (S := S1x128) hz0]

theorem a1_C (c : Dev nD) (i : grid0.Coords) (arg1 : Memref sig .tc .vmem S5000x16 .f32) (harg1 : arg1.IsWhole) (arg2 : Memref sig .tc .vmem S5000x16 .f32) (harg2 : arg2.IsWhole)
    (arg3 : Memref sig .tc .vmem S16x128 .f32) (harg3 : arg3.IsWhole) (arg4 : Memref sig .tc .vmem S1x128 .f32) (harg4 : arg4.IsWhole)
    (arg5 : Memref sig .tc .vmem S16x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond0_0 i) (hc1 : cond0_1 i) (x0 x1 : Vec F S5000x16 .f32) (x2 : Vec F S16x128 .f32) (x3 : Vec F S1x128 .f32) (x4 : Vec F S16x128 .f32) (s0 s1 : Vec F S1x128 .f32) :
    rdR0 (kernelRun0_C c i arg1 harg1 arg2 harg2 arg3 harg3 arg4 harg4 arg5 harg5 arg6 harg6 arg7 harg7 arg8 harg8 arg9 harg9 arg10 harg10 hc0 hc1 x0 x1 x2 x3 x4 s0 s1).2.2.2.2.1 = k0_pay1 s1 (k0_pay6 x0 x1 x2 x4 x3) := by
  unfold rdR0
  rw [View.read_writes_eq_canon _ _ _ (cover0_C_10 c i arg1 harg1 arg2 harg2 arg3 harg3 arg4 harg4 arg5 harg5 arg6 harg6 arg7 harg7 arg8 harg8 arg9 harg9 arg10 harg10 hc0 hc1 x0 x1 x2 x3 x4 s0 s1)]
  unfold kernelRun0_C
  dsimp only
  try sl_unfold_words
  rw [View.canon_unit_zero hz0]
  simp only [View.readAt_eq_ld, harg1.read_unread, harg2.read_unread, harg3.read_unread, harg4.read_unread, harg5.read_unread,
    harg9.read_unread, harg10.read_unread, View.ld_unit_zero (S := S5000x16) hz0, View.ld_unit_zero (S := S16x128) hz0,
    View.ld_unit_zero (S := S1x128) hz0]

end Cert.KernelIdeal.Hand

end
-- ==== Proof.KI.Stats0Steps.lean ====
/- Pipeline 0, one grid point as values of the point's blocks (at any float model): the row-block output is the combine
   of the blocks; each accumulator row is the row before it (the zero row at the first point) plus the block's column
   sums, of the combine and of its squares; at the last point the one-row outputs are the accumulator rows. Then the
   trajectory's recursion: the rows after point `n + 1` from the rows after point `n`. -/
import proofs.«121727_j57028575756303_1_alg».proof.Proof.KI.Stats0Pieces

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (V : (c : Dev nD) → (b : Ref sig .tc) → Buf (Elt F) ((c : Thread nD τ).loc b))

/-- The row-block output after any point is the combine of its blocks. -/
theorem step0_o5 (c : Dev nD) (t : Fin cfg0.N) (prev : Vec F S1x128 .f32 × Vec F S1x128 .f32) :
    (step0 V c t prev).o5 = k0_pay4 (iblk0 V c 0 t) (iblk0 V c 1 t) (iblk0 V c 2 t) (iblk0 V c 4 t) (iblk0 V c 3 t) := by
  by_cases q0 : t.val = 0
  · rewrite [step0_A V c t prev q0]; dsimp only
    exact o5_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)
  · by_cases q1 : t.val = 19
    · rewrite [step0_C V c t prev q0 q1]; dsimp only
      exact o5_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2
    · rewrite [step0_B V c t prev q0 q1]; dsimp only
      exact o5_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2

/-- The first accumulator row after a point: the row before (the zero row at the first point) plus the column sums of
    the combine of its blocks. -/
theorem step0_a0 (c : Dev nD) (t : Fin cfg0.N) (prev : Vec F S1x128 .f32 × Vec F S1x128 .f32) :
    (step0 V c t prev).a0 = k0_pay5 (iblk0 V c 0 t) (iblk0 V c 1 t) (iblk0 V c 2 t) (iblk0 V c 4 t) (iblk0 V c 3 t) (if t.val = 0 then k0_pay2 else prev.1) := by
  by_cases q0 : t.val = 0
  · rewrite [if_pos q0]; rewrite [step0_A V c t prev q0]; dsimp only
    exact a0_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)
  · rewrite [if_neg q0]; by_cases q1 : t.val = 19
    · rewrite [step0_C V c t prev q0 q1]; dsimp only
      exact a0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2
    · rewrite [step0_B V c t prev q0 q1]; dsimp only
      exact a0_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2

/-- The second accumulator row after a point: the row before (the zero row at the first point) plus the column sums of
    the squares of the combine of its blocks. -/
theorem step0_a1 (c : Dev nD) (t : Fin cfg0.N) (prev : Vec F S1x128 .f32 × Vec F S1x128 .f32) :
    (step0 V c t prev).a1 = k0_pay1 (if t.val = 0 then k0_pay3 else prev.2) (k0_pay6 (iblk0 V c 0 t) (iblk0 V c 1 t) (iblk0 V c 2 t) (iblk0 V c 4 t) (iblk0 V c 3 t)) := by
  by_cases q0 : t.val = 0
  · rewrite [if_pos q0]; rewrite [step0_A V c t prev q0]; dsimp only
    exact a1_A c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) ((hcond0_0 t).mpr q0) (fun h => absurd ((hcond0_1 t).mp h) (by omega)) (iblk0 V c 0 t) (iblk0 V c 1 t) (iblk0 V c 2 t) (iblk0 V c 3 t) (iblk0 V c 4 t)
  · rewrite [if_neg q0]; by_cases q1 : t.val = 19
    · rewrite [step0_C V c t prev q0 q1]; dsimp only
      exact a1_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2
    · rewrite [step0_B V c t prev q0 q1]; dsimp only
      exact a1_B c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) (fun h => q1 ((hcond0_1 t).mp h)) (iblk0 V c 0 t) (iblk0 V c 1 t) (iblk0 V c 2 t) (iblk0 V c 3 t) (iblk0 V c 4 t) prev.1 prev.2

/-- At the last point the first one-row output is the first accumulator row the point leaves. -/
theorem step0_o6 (c : Dev nD) (t : Fin cfg0.N) (prev : Vec F S1x128 .f32 × Vec F S1x128 .f32) (q1 : t.val = 19) :
    (step0 V c t prev).o6 = (step0 V c t prev).a0 := by
  have q0 : ¬t.val = 0 := by omega
  rewrite [step0_C V c t prev q0 q1]; dsimp only
  exact (o6_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).trans
    (a0_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).symm

/-- At the last point the second one-row output is the second accumulator row the point leaves. -/
theorem step0_o7 (c : Dev nD) (t : Fin cfg0.N) (prev : Vec F S1x128 .f32 × Vec F S1x128 .f32) (q1 : t.val = 19) :
    (step0 V c t prev).o7 = (step0 V c t prev).a1 := by
  have q0 : ¬t.val = 0 := by omega
  rewrite [step0_C V c t prev q0 q1]; dsimp only
  exact (o7_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).trans
    (a1_C c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (fun h => q0 ((hcond0_0 t).mp h)) ((hcond0_1 t).mpr q1) (iblk0 V c 0 t) (iblk0 V c 1 t) (iblk0 V c 2 t) (iblk0 V c 3 t) (iblk0 V c 4 t) prev.1 prev.2).symm

/-! ## The trajectory's recursion -/

theorem traj0_zero (c : Dev nD) (h : 0 < cfg0.N) : traj0 V c 0 h = step0 V c ⟨0, h⟩ (row0_any, row0_any) := rfl
theorem traj0_succ (c : Dev nD) (n : ℕ) (h : n + 1 < cfg0.N) :
    traj0 V c (n + 1) h = step0 V c ⟨n + 1, h⟩ ((traj0 V c n (Nat.lt_of_succ_lt h)).a0, (traj0 V c n (Nat.lt_of_succ_lt h)).a1) := rfl

/-- The row-block output after point `t` is the combine of that point's blocks. -/
theorem traj0_o5 (c : Dev nD) (t : Fin cfg0.N) :
    (traj0 V c t.val t.isLt).o5 = k0_pay4 (iblk0 V c 0 t) (iblk0 V c 1 t) (iblk0 V c 2 t) (iblk0 V c 4 t) (iblk0 V c 3 t) := by
  rewrite [traj0_eq]; exact step0_o5 V c t (prev0 V c t)

/-- The first accumulator row after the first point. -/
theorem traj0_a0_zero (c : Dev nD) (h : 0 < cfg0.N) :
    (traj0 V c 0 h).a0 = k0_pay5 (iblk0 V c 0 ⟨0, h⟩) (iblk0 V c 1 ⟨0, h⟩) (iblk0 V c 2 ⟨0, h⟩) (iblk0 V c 4 ⟨0, h⟩) (iblk0 V c 3 ⟨0, h⟩) k0_pay2 := by
  rewrite [traj0_zero, step0_a0, if_pos (show (⟨0, h⟩ : Fin cfg0.N).val = 0 from rfl)]; rfl
/-- The first accumulator row after a later point, from the row after the point before. -/
theorem traj0_a0_succ (c : Dev nD) (n : ℕ) (h : n + 1 < cfg0.N) :
    (traj0 V c (n + 1) h).a0 = k0_pay5 (iblk0 V c 0 ⟨n + 1, h⟩) (iblk0 V c 1 ⟨n + 1, h⟩) (iblk0 V c 2 ⟨n + 1, h⟩) (iblk0 V c 4 ⟨n + 1, h⟩) (iblk0 V c 3 ⟨n + 1, h⟩) (traj0 V c n (Nat.lt_of_succ_lt h)).a0 := by
  rewrite [traj0_succ, step0_a0, if_neg (show ¬(⟨n + 1, h⟩ : Fin cfg0.N).val = 0 from Nat.succ_ne_zero n)]; rfl
/-- The second accumulator row after the first point. -/
theorem traj0_a1_zero (c : Dev nD) (h : 0 < cfg0.N) :
    (traj0 V c 0 h).a1 = k0_pay1 k0_pay3 (k0_pay6 (iblk0 V c 0 ⟨0, h⟩) (iblk0 V c 1 ⟨0, h⟩) (iblk0 V c 2 ⟨0, h⟩) (iblk0 V c 4 ⟨0, h⟩) (iblk0 V c 3 ⟨0, h⟩)) := by
  rewrite [traj0_zero, step0_a1, if_pos (show (⟨0, h⟩ : Fin cfg0.N).val = 0 from rfl)]; rfl
/-- The second accumulator row after a later point, from the row after the point before. -/
theorem traj0_a1_succ (c : Dev nD) (n : ℕ) (h : n + 1 < cfg0.N) :
    (traj0 V c (n + 1) h).a1 = k0_pay1 (traj0 V c n (Nat.lt_of_succ_lt h)).a1 (k0_pay6 (iblk0 V c 0 ⟨n + 1, h⟩) (iblk0 V c 1 ⟨n + 1, h⟩) (iblk0 V c 2 ⟨n + 1, h⟩) (iblk0 V c 4 ⟨n + 1, h⟩) (iblk0 V c 3 ⟨n + 1, h⟩)) := by
  rewrite [traj0_succ, step0_a1, if_neg (show ¬(⟨n + 1, h⟩ : Fin cfg0.N).val = 0 from Nat.succ_ne_zero n)]; rfl
/-- After the last point the one-row outputs are the accumulator rows. -/
theorem traj0_o6_last (c : Dev nD) (t : Fin cfg0.N) (q1 : t.val = 19) :
    (traj0 V c t.val t.isLt).o6 = (traj0 V c t.val t.isLt).a0 := by
  rewrite [traj0_eq]; exact step0_o6 V c t (prev0 V c t) q1
theorem traj0_o7_last (c : Dev nD) (t : Fin cfg0.N) (q1 : t.val = 19) :
    (traj0 V c t.val t.isLt).o7 = (traj0 V c t.val t.isLt).a1 := by
  rewrite [traj0_eq]; exact step0_o7 V c t (prev0 V c t) q1

end Cert.KernelIdeal.Hand

end
-- ==== Proof.KI.Stats0Payload.lean ====
/- Pipeline 0's payloads at an entry, at the ideal (extended-real) float model: the combine of a block of rows is, at
   row `p` and column `j`, `((∑ₖ a(p, k) · Wl(k, j)) + bl(j)) + ∑ₖ x(p, k) · Wr(k, j)` (the narrowing casts are the identity,
   each product into the zero accumulator is the sum over the contracted coordinate, the bias is broadcast along the
   rows); a column sum over the block's 5000 rows is the sum over the row coordinate; the accumulator rows add it to
   what they held; the reset rows are zero. -/
import proofs.«121727_j57028575756303_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-! ## The product of a row block with a weight matrix at an entry -/

theorem matmul_x_W0_apply (A : FVec Ideal S5000x16 .bf16) (B : FVec Ideal S16x128 .bf16) (p : Fin 5000) (k : Fin 128) :
    matmul dot_S5000x16_S16x128_S5000x128_1_0_0_1_n_n none A B (constant S5000x128 .f32 0x00000000#32) (ix2 p k)
      = ∑ j : Fin 16, A (ix2 p j) * B (ix2 j k) := by
  show FloatOps.matmul dot_S5000x16_S16x128_S5000x128_1_0_0_1_n_n none A B (constant S5000x128 .f32 0x00000000#32) (ix2 p k) = _
  rw [Ideal.matmul_constant_zero_apply, ← Equiv.sum_comp (contrEquiv1 dot_S5000x16_S16x128_S5000x128_1_0_0_1_n_n 16 rfl rfl).symm]
  refine Finset.sum_congr rfl fun c _ => ?_
  have c2 := contrEquiv1_symm_val dot_S5000x16_S16x128_S5000x128_1_0_0_1_n_n 16 rfl rfl c
  have l2 : dot_S5000x16_S16x128_S5000x128_1_0_0_1_n_n.lhsIdx (ix2 p k) ((contrEquiv1 _ 16 rfl rfl).symm c) = ix2 p c := by
    funext ax; apply Fin.ext
    match ax with
    | ⟨0, _⟩ => simp [DotDims.lhsIdx, dot_S5000x16_S16x128_S5000x128_1_0_0_1_n_n] <;> rfl
    | ⟨1, _⟩ => simp [DotDims.lhsIdx, dot_S5000x16_S16x128_S5000x128_1_0_0_1_n_n] <;> exact c2
  have r2 : dot_S5000x16_S16x128_S5000x128_1_0_0_1_n_n.rhsIdx (ix2 p k) ((contrEquiv1 _ 16 rfl rfl).symm c) = ix2 c k := by
    funext ax; apply Fin.ext
    match ax with
    | ⟨0, _⟩ => simp [DotDims.rhsIdx, dot_S5000x16_S16x128_S5000x128_1_0_0_1_n_n] <;> exact c2
    | ⟨1, _⟩ => simp [DotDims.rhsIdx, dot_S5000x16_S16x128_S5000x128_1_0_0_1_n_n] <;> rfl
  rw [l2, r2]

/-! ## The combine at an entry -/

theorem k0_pay4_apply (x0 x1 : Vec Ideal S5000x16 .f32) (x2 x4 : Vec Ideal S16x128 .f32) (x3 : Vec Ideal S1x128 .f32)
    (p : Fin 5000) (j : Fin 128) :
    k0_pay4 x0 x1 x2 x4 x3 (ix2 p j)
      = ((∑ k : Fin 16, x0 (ix2 p k) * x2 (ix2 k j)) + x3 (ix2 0 j)) + ∑ k : Fin 16, x1 (ix2 p k) * x4 (ix2 k j) := by
  unfold k0_pay4
  simp only [shapeCast_self]
  rw [addf_apply, addf_apply, matmul_x_W0_apply, matmul_x_W0_apply,
    broadcastTo_apply x3 broadcasts_S1x128_S5000x128 (ix2 p j) (ix2 0 j) (fun a => by match a with | ⟨0, _⟩ => rfl | ⟨1, _⟩ => rfl)]
  simp only [truncf_apply]

/-! ## The column sums over a block's rows -/

/-- The row `p` inserted above column `j`. -/
theorem lift_S5000x128 (j : Fin 128) (p : Fin 5000) :
    reduces_S5000x128_S128.lift (ix1 j) p = ix2 p j := by
  funext ax; apply Fin.ext
  refine (Shape.Reduces.lift_val reduces_S5000x128_S128 (ix1 j) p ax).trans ?_
  unfold Shape.Reduces.liftVal
  match ax with
  | ⟨0, _⟩ => simp <;> rfl
  | ⟨1, _⟩ => simp <;> rfl

/-- A sum over axis 0 of a block, at column `j`: the sum over the block's rows. -/
theorem colsum0_apply (src : FVec Ideal S5000x128 .f32) (hφ : FKind.Formats .f32) (hacc : (0x00000000#32 : BitVec 32) = FKind.add.neutral .f32 hφ) (j : Fin 128) :
    multiReduction .add [0] S128 src 0x00000000#32 reduces_S5000x128_S128 hφ hacc (ix1 j) = ∑ p : Fin 5000, src (ix2 p j) := by
  refine (Ideal.multiReduction_add_single src 0x00000000#32 reduces_S5000x128_S128 hφ hacc (ix1 j)).trans ?_
  show ∑ p : Fin 5000, src (reduces_S5000x128_S128.lift (ix1 j) p) = _
  exact Finset.sum_congr rfl fun p _ => congrArg src (lift_S5000x128 j p)

/-- The first accumulator row after a point, at column `j`: what it held plus the column sum of the combine. -/
theorem k0_pay5_apply (x0 x1 : Vec Ideal S5000x16 .f32) (x2 x4 : Vec Ideal S16x128 .f32) (x3 : Vec Ideal S1x128 .f32)
    (s : Vec Ideal S1x128 .f32) (u : Fin 1) (j : Fin 128) :
    k0_pay5 x0 x1 x2 x4 x3 s (ix2 u j) = s (ix2 u j) + ∑ p : Fin 5000, k0_pay4 x0 x1 x2 x4 x3 (ix2 p j) := by
  unfold k0_pay5
  simp only [shapeCast_self]
  refine (addf_apply _ _ _).trans ?_
  exact congrArg (s (ix2 u j) + ·) ((shapeCast_a_1a_apply _ shapeCasts_S128_S1x128 u j).trans (colsum0_apply _ _ _ j))

/-- The column sum of the squares of the combine, at column `j`. -/
theorem k0_pay6_apply (x0 x1 : Vec Ideal S5000x16 .f32) (x2 x4 : Vec Ideal S16x128 .f32) (x3 : Vec Ideal S1x128 .f32) (j : Fin 128) :
    k0_pay6 x0 x1 x2 x4 x3 (ix1 j)
      = ∑ p : Fin 5000, k0_pay4 x0 x1 x2 x4 x3 (ix2 p j) * k0_pay4 x0 x1 x2 x4 x3 (ix2 p j) := by
  unfold k0_pay6
  exact (colsum0_apply _ _ _ j).trans (Finset.sum_congr rfl fun p _ => mulf_apply _ _ _)

/-- The second accumulator row after a point, at column `j`: what it held plus the point's column sum of squares. -/
theorem k0_pay1_apply (s : Vec Ideal S1x128 .f32) (v : FVec Ideal S128 .f32) (u : Fin 1) (j : Fin 128) :
    k0_pay1 s v (ix2 u j) = s (ix2 u j) + v (ix1 j) := by
  unfold k0_pay1
  simp only [shapeCast_self]
  refine (addf_apply _ _ _).trans ?_
  exact congrArg (s (ix2 u j) + ·) (shapeCast_a_1a_apply _ shapeCasts_S128_S1x128 u j)

/-- The rows the first point resets the accumulators to are zero. -/
theorem k0_pay2_apply (i : S1x128.Idx) : k0_pay2 (F := Ideal) i = 0 := by
  unfold k0_pay2
  simp only [shapeCast_self]
  exact Ideal.ofBits_zero_f32
theorem k0_pay3_apply (i : S1x128.Idx) : k0_pay3 (F := Ideal) i = 0 := by
  unfold k0_pay3
  simp only [shapeCast_self]
  exact Ideal.ofBits_zero_f32

end Cert.KernelIdeal.Hand

end
-- ==== Proof.KI.Stats0Blocks.lean ====
/- Pipeline 0 at the ideal float model: the combine as ONE function of the five input arrays (`lin0`), its column sums
   and column sums of squares over all rows (`colSum0`, `colSumSq0`), the windows' index maps decided over the grid, the
   input blocks as entries of their arrays, and the combine of point `t`'s blocks as block `t` of `lin0`. -/
import proofs.«121727_j57028575756303_1_alg».proof.Proof.KI.Stats0Traj
import proofs.«121727_j57028575756303_1_alg».proof.Proof.KI.Stats0Payload

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The combine and its column statistics as functions of the arrays -/

/-- The first layer's combine, entry by entry: `(agg · Wl + bl) + x · Wr` in the body's own association. -/
def lin0 (agg x : S100000x16.Idx → Ideal .f32) (WlT : S16x128.Idx → Ideal .f32) (bl : S1x128.Idx → Ideal .f32)
    (WrT : S16x128.Idx → Ideal .f32) : S100000x128.Idx → Ideal .f32 :=
  fun i => ((∑ k : Fin 16, agg (ix2 (i 0) k) * WlT (ix2 k (i 1))) + bl (ix2 0 (i 1)))
    + ∑ k : Fin 16, x (ix2 (i 0) k) * WrT (ix2 k (i 1))

theorem lin0_apply (agg x : S100000x16.Idx → Ideal .f32) (WlT : S16x128.Idx → Ideal .f32) (bl : S1x128.Idx → Ideal .f32)
    (WrT : S16x128.Idx → Ideal .f32) (r : Fin 100000) (j : Fin 128) :
    lin0 agg x WlT bl WrT (ix2 r j)
      = ((∑ k : Fin 16, agg (ix2 r k) * WlT (ix2 k j)) + bl (ix2 0 j)) + ∑ k : Fin 16, x (ix2 r k) * WrT (ix2 k j) := rfl

/-- The column sums over all rows, as a one-row array. -/
def colSum0 (f : S100000x128.Idx → Ideal .f32) : S1x128.Idx → Ideal .f32 := fun i => ∑ n : Fin 100000, f (ix2 n (i 1))
/-- The column sums of squares over all rows, as a one-row array. -/
def colSumSq0 (f : S100000x128.Idx → Ideal .f32) : S1x128.Idx → Ideal .f32 :=
  fun i => ∑ n : Fin 100000, f (ix2 n (i 1)) * f (ix2 n (i 1))

theorem colSum0_apply (f : S100000x128.Idx → Ideal .f32) (u : Fin 1) (j : Fin 128) :
    colSum0 f (ix2 u j) = ∑ n : Fin 100000, f (ix2 n j) := rfl
theorem colSumSq0_apply (f : S100000x128.Idx → Ideal .f32) (u : Fin 1) (j : Fin 128) :
    colSumSq0 f (ix2 u j) = ∑ n : Fin 100000, f (ix2 n j) * f (ix2 n j) := rfl

/-! ## The windows' index maps, decided over the grid -/

/-- The two row-block inputs and the row-block output move with the point along the rows; the three parameter windows
    and the two one-row outputs stay at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `p` of point `t`'s block is row `5000 t + p` of the array. -/
def rowOf0 (t : Fin cfg0.N) (p : Fin 5000) : Fin 100000 :=
  ⟨5000 * t.val + p.val, by have h1 := t.isLt; have h2 : cfg0.N = 20 := N_0; have h3 := p.isLt; omega⟩

theorem rowOf0_val (t : Fin cfg0.N) (p : Fin 5000) : (rowOf0 t p).val = 5000 * t.val + p.val := rfl

variable (V : (c : Dev nD) → (b : Ref sig .tc) → Buf (Elt Ideal) ((c : Thread nD τ).loc b))

/-! ## The input blocks as entries of their arrays -/

/-- Row-block window 0's block at point `t` is rows `5000 t … 5000 t + 4999` of its array. -/
theorem iblk0_0_ix (c : Dev nD) (t : Fin cfg0.N) (p : Fin 5000) (k : Fin 16) :
    (iblk0 V c 0 t : Vec Ideal S5000x16 .f32) (ix2 p k)
      = (V c main_v27 : S100000x16.Idx → Elt Ideal .f32) (ix2 (rowOf0 t p) k) := by
  obtain ⟨e0, e1, e2, e3, -⟩ := idx_facts0 t
  unfold iblk0
  rw [View.read_apply]
  show (V c main_v27 : S100000x16.Idx → Elt Ideal .f32) _ = _
  congr 1
  funext ax; apply Fin.ext
  match ax with
  | ⟨0, _⟩ => show win0_0.index t (0 : Fin 2) * 5000 + 1 * p.val = 5000 * t.val + p.val; rw [e0]; omega
  | ⟨1, _⟩ => show win0_0.index t (1 : Fin 2) * 16 + 1 * k.val = k.val; rw [e1]; omega

/-- Row-block window 1's block at point `t` is rows `5000 t … 5000 t + 4999` of its array. -/
theorem iblk0_1_ix (c : Dev nD) (t : Fin cfg0.N) (p : Fin 5000) (k : Fin 16) :
    (iblk0 V c 1 t : Vec Ideal S5000x16 .f32) (ix2 p k)
      = (V c main_arg0 : S100000x16.Idx → Elt Ideal .f32) (ix2 (rowOf0 t p) k) := by
  obtain ⟨e0, e1, e2, e3, -⟩ := idx_facts0 t
  unfold iblk0
  rw [View.read_apply]
  show (V c main_arg0 : S100000x16.Idx → Elt Ideal .f32) _ = _
  congr 1
  funext ax; apply Fin.ext
  match ax with
  | ⟨0, _⟩ => show win0_1.index t (0 : Fin 2) * 5000 + 1 * p.val = 5000 * t.val + p.val; rw [e2]; omega
  | ⟨1, _⟩ => show win0_1.index t (1 : Fin 2) * 16 + 1 * k.val = k.val; rw [e3]; omega

/-- Parameter window 2's block at every point is its whole array. -/
theorem iblk0_2_ix (c : Dev nD) (t : Fin cfg0.N) (a : Fin 16) (b : Fin 128) :
    (iblk0 V c 2 t : Vec Ideal S16x128 .f32) (ix2 a b)
      = (V c main_v8 : S16x128.Idx → Elt Ideal .f32) (ix2 a b) := by
  obtain ⟨-, -, -, -, e4, e5, e6, e7, e8, e9, -⟩ := idx_facts0 t
  unfold iblk0
  rw [View.read_apply]
  show (V c main_v8 : S16x128.Idx → Elt Ideal .f32) _ = _
  congr 1
  funext ax; apply Fin.ext
  match ax with
  | ⟨0, _⟩ => show win0_2.index t (0 : Fin 2) * 16 + 1 * a.val = a.val; rw [e4]; omega
  | ⟨1, _⟩ => show win0_2.index t (1 : Fin 2) * 128 + 1 * b.val = b.val; rw [e5]; omega

/-- Parameter window 3's block at every point is its whole array. -/
theorem iblk0_3_ix (c : Dev nD) (t : Fin cfg0.N) (a : Fin 1) (b : Fin 128) :
    (iblk0 V c 3 t : Vec Ideal S1x128 .f32) (ix2 a b)
      = (V c main_v9 : S1x128.Idx → Elt Ideal .f32) (ix2 a b) := by
  obtain ⟨-, -, -, -, e4, e5, e6, e7, e8, e9, -⟩ := idx_facts0 t
  unfold iblk0
  rw [View.read_apply]
  show (V c main_v9 : S1x128.Idx → Elt Ideal .f32) _ = _
  congr 1
  funext ax; apply Fin.ext
  match ax with
  | ⟨0, _⟩ => show win0_3.index t (0 : Fin 2) * 1 + 1 * a.val = a.val; rw [e6]; omega
  | ⟨1, _⟩ => show win0_3.index t (1 : Fin 2) * 128 + 1 * b.val = b.val; rw [e7]; omega

/-- Parameter window 4's block at every point is its whole array. -/
theorem iblk0_4_ix (c : Dev nD) (t : Fin cfg0.N) (a : Fin 16) (b : Fin 128) :
    (iblk0 V c 4 t : Vec Ideal S16x128 .f32) (ix2 a b)
      = (V c main_v10 : S16x128.Idx → Elt Ideal .f32) (ix2 a b) := by
  obtain ⟨-, -, -, -, e4, e5, e6, e7, e8, e9, -⟩ := idx_facts0 t
  unfold iblk0
  rw [View.read_apply]
  show (V c main_v10 : S16x128.Idx → Elt Ideal .f32) _ = _
  congr 1
  funext ax; apply Fin.ext
  match ax with
  | ⟨0, _⟩ => show win0_4.index t (0 : Fin 2) * 16 + 1 * a.val = a.val; rw [e8]; omega
  | ⟨1, _⟩ => show win0_4.index t (1 : Fin 2) * 128 + 1 * b.val = b.val; rw [e9]; omega

/-! ## The combine of a point's blocks is that point's block of `lin0` -/

theorem lin0_block (c : Dev nD) (t : Fin cfg0.N) (p : Fin 5000) (j : Fin 128) :
    k0_pay4 (iblk0 V c 0 t) (iblk0 V c 1 t) (iblk0 V c 2 t) (iblk0 V c 4 t) (iblk0 V c 3 t) (ix2 p j)
      = lin0 (V c main_v27) (V c main_arg0) (V c main_v8) (V c main_v9) (V c main_v10) (ix2 (rowOf0 t p) j) := by
  rw [k0_pay4_apply, lin0_apply]
  simp only [iblk0_0_ix, iblk0_1_ix, iblk0_2_ix, iblk0_3_ix, iblk0_4_ix]

end Cert.KernelIdeal.Hand

end
-- ==== Proof.KI.Stats0Arr.lean ====
/- Pipeline 0, from what each grid point leaves to the arrays after the region. Point `t` writes back rows
   `5000 t … 5000 t + 4999` of the combine, so the combine's array ends as the combine of the five input arrays at every
   row (row `r` is written by point `r / 5000`); the two one-row arrays are written back by the last point only, whose
   block is the whole row, so they end as what that point leaves; an input array is never written back. The link
   from a point's staging buffers to the payloads is taken as a hypothesis here. -/
import proofs.«121727_j57028575756303_1_alg».proof.Proof.KI.Stats0
import proofs.«121727_j57028575756303_1_alg».proof.Proof.KI.Stats0Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Output window 5: the combine, block by block -/

/-- What point `t` writes back to the combine's array is block `t` of the combine of the arrays as the region finds
    them, once the point's staging buffer is known to hold the payload of its input blocks. -/
theorem flushed0_5_of (c : Dev nD)
    (H5 : ∀ t : Fin cfg0.N, (traj0 V c t.val t.isLt).o5
      = k0_pay4 (iblk0 V c 0 t) (iblk0 V c 1 t) (iblk0 V c 2 t) (iblk0 V c 4 t) (iblk0 V c 3 t)) (t : Fin cfg0.N) :
    (dat0 V c).flushed 5 t = ((cfg0.win 5).blk t).view.read (Elt Ideal)
      (lin0 (V c main_v27) (V c main_arg0) (V c main_v8) (V c main_v9) (V c main_v10)) := by
  show (cfg0.win 5).cut (grid0.coords t) ((dat0 V c).after 5 t) = _
  rw [after0_5, H5 t]
  obtain ⟨-, -, -, -, -, -, -, -, -, -, e10, e11, -⟩ := idx_facts0 t
  refine funext fun (y : S5000x128.Idx) => ?_
  obtain ⟨p, j, rfl⟩ : ∃ (p : Fin 5000) (j : Fin 128), y = ix2 p j := ⟨y 0, y 1, eq_ix2 y⟩
  show k0_pay4 (iblk0 V c 0 t) (iblk0 V c 1 t) (iblk0 V c 2 t) (iblk0 V c 4 t) (iblk0 V c 3 t) (ix2 p j)
    = lin0 (V c main_v27) (V c main_arg0) (V c main_v8) (V c main_v9) (V c main_v10)
        (((cfg0.win 5).blk t).view.emb (ix2 p j))
  rw [lin0_block]
  refine congrArg (lin0 (V c main_v27) (V c main_arg0) (V c main_v8) (V c main_v9) (V c main_v10)) (funext fun a => Fin.ext ?_)
  match a with
  | ⟨0, _⟩ => show 5000 * t.val + p.val = win0_5.index t (0 : Fin 2) * 5000 + 1 * p.val; rw [e10]; omega
  | ⟨1, _⟩ => show j.val = win0_5.index t (1 : Fin 2) * 128 + 1 * j.val; rw [e11]; omega

/-- An index of the combine's array is in point `t`'s block iff each coordinate is in the block's range on its axis. -/
theorem mem_blk0_5 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28_0).slice (win0_5.rect t)).set ↔ _
  rw [View.set_slice_whole, Rect.mem_set_unit]
  exact Iff.rfl

/-- Row `r` of the combine's array is in the block of point `r / 5000`, which writes back. -/
theorem covered0_5 (i : S100000x128.Idx) :
    ∃ t : Fin cfg0.N, (cfg0.win 5).flush t = true ∧ i ∈ ((cfg0.win 5).blk t).view.set := by
  have hi0 : (i 0).val < 100000 := idx2_lt0 i
  have hi1 : (i 1).val < 128 := idx2_lt1 i
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, -, -, e10, e11, -⟩ := idx_facts0 t
  refine ⟨t, flush0_5 t, ?_⟩
  rw [mem_blk0_5]
  intro a
  match a with
  | ⟨0, _⟩ =>
    show win0_5.index t (0 : Fin 2) * 5000 ≤ (i 0).val ∧ (i 0).val < win0_5.index t (0 : Fin 2) * 5000 + 5000
    rw [e10]; omega
  | ⟨1, _⟩ =>
    show win0_5.index t (1 : Fin 2) * 128 ≤ (i 1).val ∧ (i 1).val < win0_5.index t (1 : Fin 2) * 128 + 128
    rw [e11]; omega

/-- The combine's array after the region: the combine of the five input arrays as the region finds them. -/
theorem arrAt0_5_of (c : Dev nD)
    (H5 : ∀ t : Fin cfg0.N, (traj0 V c t.val t.isLt).o5
      = k0_pay4 (iblk0 V c 0 t) (iblk0 V c 1 t) (iblk0 V c 2 t) (iblk0 V c 4 t) (iblk0 V c 3 t)) :
    (dat0 V c).arrAt 5 cfg0.N = lin0 (V c main_v27) (V c main_arg0) (V c main_v8) (V c main_v9) (V c main_v10) :=
  (dat0 V c).arrAt_eq_of_cover 5 _ (fun t _ => flushed0_5_of V c H5 t) covered0_5

/-! ## Output window 6: one row, written back by the last point only -/

/-- An index of window 6's array is in point `t`'s block iff each coordinate is in the block's range on its axis. -/
theorem mem_blk0_6 (t : Fin cfg0.N) (i : S1x128.Idx) :
    i ∈ ((cfg0.win 6).blk t).view.set ↔ ∀ a : Fin 2, win0_6.index t a * S1x128.size a ≤ (i a).val
      ∧ (i a).val < win0_6.index t a * S1x128.size a + S1x128.size a := by
  show i ∈ ((View.whole main_v28_1).slice (win0_6.rect t)).set ↔ _
  rw [View.set_slice_whole, Rect.mem_set_unit]
  exact Iff.rfl

/-- Window 6's array after the region is what the last point leaves in its staging buffer: that point's block is the
    whole one-row array, and no other point writes back. -/
theorem arrAt0_6_of (c : Dev nD) (G : S1x128.Idx → Ideal .f32)
    (H6 : ∀ t : Fin cfg0.N, t.val = 19 → (traj0 V c t.val t.isLt).o6 = G) : (dat0 V c).arrAt 6 cfg0.N = G := by
  have hN : cfg0.N = 20 := N_0
  refine (dat0 V c).arrAt_eq_of_cover 6 G (fun t hf => ?_) (fun i => ?_)
  · have h19 : t.val = 19 := by have h1 := (flush0_6 t).mp hf; have h2 := t.isLt; omega
    obtain ⟨-, -, -, -, -, -, -, -, -, -, -, -, e12, e13, e14, e15⟩ := idx_facts0 t
    show (cfg0.win 6).cut (grid0.coords t) ((dat0 V c).after 6 t) = _
    rw [after0_6, H6 t h19]
    refine funext fun (y : S1x128.Idx) => ?_
    obtain ⟨u, j, rfl⟩ : ∃ (u : Fin 1) (j : Fin 128), y = ix2 u j := ⟨y 0, y 1, eq_ix2 y⟩
    show G (ix2 u j) = G (((cfg0.win 6).blk t).view.emb (ix2 u j))
    refine congrArg G (funext fun a => Fin.ext ?_)
    match a with
    | ⟨0, _⟩ => show u.val = win0_6.index t (0 : Fin 2) * 1 + 1 * u.val; rw [e12]; omega
    | ⟨1, _⟩ => show j.val = win0_6.index t (1 : Fin 2) * 128 + 1 * j.val; rw [e13]; omega
  · have hi0 : (i 0).val < 1 := idx2_lt0 i
    have hi1 : (i 1).val < 128 := idx2_lt1 i
    obtain ⟨t, ht⟩ : ∃ t : Fin cfg0.N, t.val = 19 := ⟨⟨19, by omega⟩, rfl⟩
    obtain ⟨-, -, -, -, -, -, -, -, -, -, -, -, e12, e13, e14, e15⟩ := idx_facts0 t
    refine ⟨t, (flush0_6 t).mpr (by rw [ht]), ?_⟩
    rw [mem_blk0_6]
    intro a
    match a with
    | ⟨0, _⟩ =>
      show win0_6.index t (0 : Fin 2) * 1 ≤ (i 0).val ∧ (i 0).val < win0_6.index t (0 : Fin 2) * 1 + 1
      rw [e12]; omega
    | ⟨1, _⟩ =>
      show win0_6.index t (1 : Fin 2) * 128 ≤ (i 1).val ∧ (i 1).val < win0_6.index t (1 : Fin 2) * 128 + 128
      rw [e13]; omega

/-! ## Output window 7: one row, written back by the last point only -/

/-- An index of window 7's array is in point `t`'s block iff each coordinate is in the block's range on its axis. -/
theorem mem_blk0_7 (t : Fin cfg0.N) (i : S1x128.Idx) :
    i ∈ ((cfg0.win 7).blk t).view.set ↔ ∀ a : Fin 2, win0_7.index t a * S1x128.size a ≤ (i a).val
      ∧ (i a).val < win0_7.index t a * S1x128.size a + S1x128.size a := by
  show i ∈ ((View.whole main_v28_2).slice (win0_7.rect t)).set ↔ _
  rw [View.set_slice_whole, Rect.mem_set_unit]
  exact Iff.rfl

/-- Window 7's array after the region is what the last point leaves in its staging buffer: that point's block is the
    whole one-row array, and no other point writes back. -/
theorem arrAt0_7_of (c : Dev nD) (G : S1x128.Idx → Ideal .f32)
    (H7 : ∀ t : Fin cfg0.N, t.val = 19 → (traj0 V c t.val t.isLt).o7 = G) : (dat0 V c).arrAt 7 cfg0.N = G := by
  have hN : cfg0.N = 20 := N_0
  refine (dat0 V c).arrAt_eq_of_cover 7 G (fun t hf => ?_) (fun i => ?_)
  · have h19 : t.val = 19 := by have h1 := (flush0_7 t).mp hf; have h2 := t.isLt; omega
    obtain ⟨-, -, -, -, -, -, -, -, -, -, -, -, e12, e13, e14, e15⟩ := idx_facts0 t
    show (cfg0.win 7).cut (grid0.coords t) ((dat0 V c).after 7 t) = _
    rw [after0_7, H7 t h19]
    refine funext fun (y : S1x128.Idx) => ?_
    obtain ⟨u, j, rfl⟩ : ∃ (u : Fin 1) (j : Fin 128), y = ix2 u j := ⟨y 0, y 1, eq_ix2 y⟩
    show G (ix2 u j) = G (((cfg0.win 7).blk t).view.emb (ix2 u j))
    refine congrArg G (funext fun a => Fin.ext ?_)
    match a with
    | ⟨0, _⟩ => show u.val = win0_7.index t (0 : Fin 2) * 1 + 1 * u.val; rw [e14]; omega
    | ⟨1, _⟩ => show j.val = win0_7.index t (1 : Fin 2) * 128 + 1 * j.val; rw [e15]; omega
  · have hi0 : (i 0).val < 1 := idx2_lt0 i
    have hi1 : (i 1).val < 128 := idx2_lt1 i
    obtain ⟨t, ht⟩ : ∃ t : Fin cfg0.N, t.val = 19 := ⟨⟨19, by omega⟩, rfl⟩
    obtain ⟨-, -, -, -, -, -, -, -, -, -, -, -, e12, e13, e14, e15⟩ := idx_facts0 t
    refine ⟨t, (flush0_7 t).mpr (by rw [ht]), ?_⟩
    rw [mem_blk0_7]
    intro a
    match a with
    | ⟨0, _⟩ =>
      show win0_7.index t (0 : Fin 2) * 1 ≤ (i 0).val ∧ (i 0).val < win0_7.index t (0 : Fin 2) * 1 + 1
      rw [e14]; omega
    | ⟨1, _⟩ =>
      show win0_7.index t (1 : Fin 2) * 128 ≤ (i 1).val ∧ (i 1).val < win0_7.index t (1 : Fin 2) * 128 + 128
      rw [e15]; omega

/-! ## The input arrays -/

/-- Each input array after the region is as the region found it: an input window is never written back. -/
theorem arrAt0_in (c : Dev nD) (w : Fin cfg0.W) (hw : w.val < 5) :
    (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd h (Nat.lt_irrefl 5)
    | ⟨6, _⟩, h => exact absurd (show 6 < 5 from h) (by decide)
    | ⟨7, _⟩, h => exact absurd (show 7 < 5 from h) (by decide)
  exact ((dat0 V c).arrAt_in w hin _).trans (A_eq0 V c w)

end Cert.KernelIdeal.Hand

end
-- ==== Proof.LibRows100000.lean ====
/-
  A sum over 100000 rows as twenty block sums of 5000 rows, and a sum accumulated block by block.

  Row n of 0 … 99999 is row p = n mod 5000 of block t = n div 5000, n = 5000 · t + p. In any commutative monoid (the
  extended reals among them) the sum over all rows is the sum over the twenty blocks of the sums over the 5000 rows
  of each block.

  For a proof by induction on the block number the partial sums are named: before b k is the sum of the block terms
  b t of the blocks t < k, and rowsBefore f k the sum of f over the rows n < 5000 · k, which is before of the block
  sums of f. Both are zero at k = 0, grow by the term of block t from k = t to k = t + 1, and are the whole sum at
  k = 20. An accumulator that starts at zero and adds one block sum per step therefore holds the sum over all the
  rows after the twentieth step, whether it is described by its state before each step or after each step.
-/
import Mathlib.Algebra.BigOperators.Fin
import Mathlib.Algebra.BigOperators.Intervals
import Mathlib.Logic.Equiv.Fin.Basic
import Mathlib.Tactic.NormNum

open scoped BigOperators

namespace Cert.Rows100000

/-- Row p of block t among the 100000 rows: 5000 · t + p. -/
def row (t : Fin 20) (p : Fin 5000) : Fin 100000 := ⟨5000 * t.val + p.val, by omega⟩

theorem row_val (t : Fin 20) (p : Fin 5000) : (row t p).val = 5000 * t.val + p.val := rfl

/-- Every row is a row of exactly one block. -/
theorem exists_row (n : Fin 100000) : ∃ t p, n = row t p :=
  ⟨⟨n.val / 5000, by omega⟩, ⟨n.val % 5000, by omega⟩, Fin.ext (by show n.val = 5000 * (n.val / 5000) + n.val % 5000; omega)⟩

theorem row_injective {t t' : Fin 20} {p p' : Fin 5000} (h : row t p = row t' p') : t = t' ∧ p = p' := by
  have h' : 5000 * t.val + p.val = 5000 * t'.val + p'.val := congrArg Fin.val h
  exact ⟨Fin.ext (by omega), Fin.ext (by omega)⟩

/-- The pairs (block, row in the block) are the 100000 rows. -/
def rowEquiv : Fin 20 × Fin 5000 ≃ Fin 100000 where
  toFun q := row q.1 q.2
  invFun n := (⟨n.val / 5000, by omega⟩, ⟨n.val % 5000, by omega⟩)
  left_inv := by
    rintro ⟨t, p⟩
    refine Prod.ext (Fin.ext ?_) (Fin.ext ?_)
    · show (5000 * t.val + p.val) / 5000 = t.val
      omega
    · show (5000 * t.val + p.val) % 5000 = p.val
      omega
  right_inv n := Fin.ext (by show 5000 * (n.val / 5000) + n.val % 5000 = n.val; omega)

/-- THE SUM OVER THE ROWS IS THE SUM OF THE BLOCK SUMS: Σ over n < 100000 of f n = Σ over t < 20 of Σ over p < 5000 of
    f (5000 · t + p). -/
theorem sum_rows_eq_sum_blocks {M : Type*} [AddCommMonoid M] (f : Fin 100000 → M) :
    ∑ n, f n = ∑ t : Fin 20, ∑ p : Fin 5000, f (row t p) :=
  (rowEquiv.sum_comp f).symm.trans (Fintype.sum_prod_type fun q : Fin 20 × Fin 5000 => f (rowEquiv q))

/-- The same for a family indexed by a row and a column, at a fixed column. -/
theorem sum_rows_eq_sum_blocks_col {M : Type*} [AddCommMonoid M] {κ : Type*} (f : Fin 100000 → κ → M) (c : κ) :
    ∑ n, f n c = ∑ t : Fin 20, ∑ p : Fin 5000, f (row t p) c :=
  sum_rows_eq_sum_blocks fun n => f n c

/-! ### The partial sums over the blocks before block k -/

/-- The sum of the terms of the blocks t < k. -/
def before {M : Type*} [AddCommMonoid M] (b : Fin 20 → M) (k : ℕ) : M :=
  ∑ t ∈ Finset.univ.filter (fun t : Fin 20 => t.val < k), b t

theorem before_zero {M : Type*} [AddCommMonoid M] (b : Fin 20 → M) : before b 0 = 0 := by
  unfold before
  rw [Finset.filter_false_of_mem (fun t _ => Nat.not_lt_zero t.val), Finset.sum_empty]

/-- From k = t to k = t + 1 the partial sum grows by the term of block t. -/
theorem before_succ {M : Type*} [AddCommMonoid M] (b : Fin 20 → M) (t : Fin 20) :
    before b (t.val + 1) = before b t.val + b t := by
  unfold before
  have h : Finset.univ.filter (fun s : Fin 20 => s.val < t.val + 1)
      = insert t (Finset.univ.filter (fun s : Fin 20 => s.val < t.val)) := by
    ext s
    simp only [Finset.mem_filter, Finset.mem_univ, true_and, Finset.mem_insert]
    constructor
    · intro hs
      by_cases e : s = t
      · exact Or.inl e
      · right
        have : s.val ≠ t.val := fun h => e (Fin.ext h)
        omega
    · rintro (rfl | hs) <;> omega
  rw [h, Finset.sum_insert (by simp), add_comm]

/-- At k = 20 the partial sum is the sum of all twenty terms. -/
theorem before_all {M : Type*} [AddCommMonoid M] (b : Fin 20 → M) : before b 20 = ∑ t, b t := by
  unfold before
  rw [Finset.filter_true_of_mem (fun t _ => t.isLt)]

/-- After the first block the partial sum is its term, also when written as added to zero. -/
theorem before_one {M : Type*} [AddCommMonoid M] (b : Fin 20 → M) : before b 1 = 0 + b 0 := by
  have h := before_succ b 0
  rw [show ((0 : Fin 20).val + 1) = 1 from rfl, show (0 : Fin 20).val = 0 from rfl, before_zero] at h
  exact h

/-- The sum of f over the rows n < 5000 · k: the rows of the blocks before block k. -/
def rowsBefore {M : Type*} [AddCommMonoid M] (f : Fin 100000 → M) (k : ℕ) : M :=
  ∑ n ∈ Finset.univ.filter (fun n : Fin 100000 => n.val < 5000 * k), f n

/-- The sum over the rows of the blocks before block k is the partial sum of the block sums. -/
theorem rowsBefore_eq_before {M : Type*} [AddCommMonoid M] (f : Fin 100000 → M) (k : ℕ) :
    rowsBefore f k = before (fun t => ∑ p : Fin 5000, f (row t p)) k := by
  unfold rowsBefore before
  rw [Finset.sum_filter, Finset.sum_filter, sum_rows_eq_sum_blocks]
  refine Finset.sum_congr rfl fun t _ => ?_
  by_cases h : t.val < k
  · rw [if_pos h]
    refine Finset.sum_congr rfl fun p _ => ?_
    rw [if_pos]
    rw [row_val]
    have := p.isLt
    omega
  · rw [if_neg h]
    refine Finset.sum_eq_zero fun p _ => ?_
    rw [if_neg]
    rw [row_val]
    omega

theorem rowsBefore_zero {M : Type*} [AddCommMonoid M] (f : Fin 100000 → M) : rowsBefore f 0 = 0 := by
  rw [rowsBefore_eq_before, before_zero]

/-- From block t to block t + 1 the sum over the rows so far grows by the sum over the 5000 rows of block t. -/
theorem rowsBefore_succ {M : Type*} [AddCommMonoid M] (f : Fin 100000 → M) (t : Fin 20) :
    rowsBefore f (t.val + 1) = rowsBefore f t.val + ∑ p : Fin 5000, f (row t p) := by
  rw [rowsBefore_eq_before, rowsBefore_eq_before, before_succ]

/-- After the first block, written as added to zero. -/
theorem rowsBefore_one {M : Type*} [AddCommMonoid M] (f : Fin 100000 → M) :
    rowsBefore f 1 = 0 + ∑ p : Fin 5000, f (row 0 p) := by
  rw [rowsBefore_eq_before, before_one]

/-- After the twentieth block the sum over the rows so far is the sum over all the rows. -/
theorem rowsBefore_all {M : Type*} [AddCommMonoid M] (f : Fin 100000 → M) : rowsBefore f 20 = ∑ n, f n := by
  rw [rowsBefore_eq_before, before_all, sum_rows_eq_sum_blocks]

/-! ### An accumulator that adds one block term per step -/

/-- THE STATE BEFORE EACH STEP. An accumulator a with a 0 = 0 and a (t + 1) = a t + b t for each of the twenty
    steps t holds before step k the sum of the terms of the blocks before k. -/
theorem acc_eq_before {M : Type*} [AddCommMonoid M] (a : ℕ → M) (b : Fin 20 → M) (h0 : a 0 = 0)
    (hs : ∀ t : Fin 20, a (t.val + 1) = a t.val + b t) : ∀ k, k ≤ 20 → a k = before b k := by
  intro k
  induction k with
  | zero => intro _; rw [h0, before_zero]
  | succ j ih =>
    intro hj
    have hj' : j < 20 := hj
    have h1 := hs ⟨j, hj'⟩
    have h2 := before_succ b ⟨j, hj'⟩
    simp only at h1 h2
    rw [h1, h2, ih (Nat.le_of_succ_le hj)]

/-- After twenty steps the accumulator holds the sum of the twenty block terms. -/
theorem acc20_eq_sum {M : Type*} [AddCommMonoid M] (a : ℕ → M) (b : Fin 20 → M) (h0 : a 0 = 0)
    (hs : ∀ t : Fin 20, a (t.val + 1) = a t.val + b t) : a 20 = ∑ t, b t := by
  rw [acc_eq_before a b h0 hs 20 le_rfl, before_all]

/-- The whole: the sum over the 100000 rows is what an accumulator holds that starts at zero and, at step t of
    twenty, adds the sum over the 5000 rows of block t. -/
theorem acc20_eq_sum_rows {M : Type*} [AddCommMonoid M] (f : Fin 100000 → M) (a : ℕ → M) (h0 : a 0 = 0)
    (hs : ∀ t : Fin 20, a (t.val + 1) = a t.val + ∑ p : Fin 5000, f (row t p)) : a 20 = ∑ n, f n := by
  rw [acc20_eq_sum a (fun t => ∑ p : Fin 5000, f (row t p)) h0 hs, sum_rows_eq_sum_blocks]

/-- THE STATE AFTER EACH STEP. An accumulator whose state after step 0 is zero plus the term of block 0, and whose
    state after step t + 1 is its state after step t plus the term of block t + 1, holds after step t the sum of the
    terms of the blocks 0 … t. -/
theorem after_eq_before {M : Type*} [AddCommMonoid M] (a b : Fin 20 → M) (h0 : a 0 = 0 + b 0)
    (hs : ∀ (t : Fin 20) (ht : t.val + 1 < 20), a ⟨t.val + 1, ht⟩ = a t + b ⟨t.val + 1, ht⟩) :
    ∀ t : Fin 20, a t = before b (t.val + 1) := by
  have key : ∀ k (hk : k < 20), a ⟨k, hk⟩ = before b (k + 1) := by
    intro k
    induction k with
    | zero => intro _; exact h0.trans (before_one b).symm
    | succ j ih =>
      intro hj
      have hj' : j < 20 := Nat.lt_of_succ_lt hj
      have h1 := hs ⟨j, hj'⟩ hj
      have h2 := before_succ b ⟨j + 1, hj⟩
      simp only at h1 h2
      rw [h1, h2, ih hj']
  exact fun t => key t.val t.isLt

/-- After the last step such an accumulator holds the sum of the twenty block terms. -/
theorem after_last_eq_sum {M : Type*} [AddCommMonoid M] (a b : Fin 20 → M) (h0 : a 0 = 0 + b 0)
    (hs : ∀ (t : Fin 20) (ht : t.val + 1 < 20), a ⟨t.val + 1, ht⟩ = a t + b ⟨t.val + 1, ht⟩) :
    a ⟨19, by omega⟩ = ∑ t, b t := by
  rw [after_eq_before a b h0 hs ⟨19, by omega⟩, before_all]

/-- The same with the block terms the block sums of f: after the last step the accumulator holds the sum of f over
    all the 100000 rows. -/
theorem after_last_eq_sum_rows {M : Type*} [AddCommMonoid M] (f : Fin 100000 → M) (a : Fin 20 → M)
    (h0 : a 0 = 0 + ∑ p : Fin 5000, f (row 0 p))
    (hs : ∀ (t : Fin 20) (ht : t.val + 1 < 20),
      a ⟨t.val + 1, ht⟩ = a t + ∑ p : Fin 5000, f (row ⟨t.val + 1, ht⟩ p)) :
    a ⟨19, by omega⟩ = ∑ n, f n := by
  rw [after_last_eq_sum a (fun t => ∑ p : Fin 5000, f (row t p)) h0 hs, sum_rows_eq_sum_blocks]

/-- After step t such an accumulator holds the sum of f over the rows of the blocks 0 … t. -/
theorem after_eq_rowsBefore {M : Type*} [AddCommMonoid M] (f : Fin 100000 → M) (a : Fin 20 → M)
    (h0 : a 0 = 0 + ∑ p : Fin 5000, f (row 0 p))
    (hs : ∀ (t : Fin 20) (ht : t.val + 1 < 20),
      a ⟨t.val + 1, ht⟩ = a t + ∑ p : Fin 5000, f (row ⟨t.val + 1, ht⟩ p)) (t : Fin 20) :
    a t = rowsBefore f (t.val + 1) := by
  rw [rowsBefore_eq_before]
  exact after_eq_before a (fun t => ∑ p : Fin 5000, f (row t p)) h0 hs t

end Cert.Rows100000
-- ==== Proof.KI.Stats0Acc.lean ====
/-
  Pipeline 0's two accumulator rows after the grid's last point, in closed form.

  The rows are carried from point to point: the first point sets them to zero and adds the column sums of its block
  of the combine (resp. of its squares), every further point adds those of its own block. The twenty blocks of 5000 rows
  are the 100000 rows, so after the last point the first row holds the column sums of the combine over all rows and the
  second the column sums of its squares: an accumulator started at zero that adds one block sum per step ends at the
  whole sum.
-/
import proofs.«121727_j57028575756303_1_alg».proof.Proof.KI.Stats0Blocks
import proofs.«121727_j57028575756303_1_alg».proof.Proof.LibRows100000

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Row p of the block of the point at position k is row p of block k among the 100000 rows. -/
theorem rowOf0_eq_row (k : ℕ) (hk : k < cfg0.N) (hk' : k < 20) (p : Fin 5000) :
    rowOf0 ⟨k, hk⟩ p = Cert.Rows100000.row ⟨k, hk'⟩ p := Fin.ext rfl

/-- THE FIRST ACCUMULATOR ROW AFTER THE LAST POINT: if the first point leaves zero plus the column sums of its block of
    the combine, and every further point adds the column sums of its block, then after the point at position 19 the row
    holds the column sums of the combine over all the 100000 rows. -/
theorem a0_last_of (c : Dev nD)
    (H0 : ∀ h : 0 < cfg0.N, (traj0 V c 0 h).a0
      = k0_pay5 (iblk0 V c 0 ⟨0, h⟩) (iblk0 V c 1 ⟨0, h⟩) (iblk0 V c 2 ⟨0, h⟩) (iblk0 V c 4 ⟨0, h⟩) (iblk0 V c 3 ⟨0, h⟩) (k0_pay2 (F := Ideal)))
    (HS : ∀ (n : ℕ) (h : n + 1 < cfg0.N), (traj0 V c (n + 1) h).a0
      = k0_pay5 (iblk0 V c 0 ⟨n + 1, h⟩) (iblk0 V c 1 ⟨n + 1, h⟩) (iblk0 V c 2 ⟨n + 1, h⟩) (iblk0 V c 4 ⟨n + 1, h⟩)
          (iblk0 V c 3 ⟨n + 1, h⟩) (traj0 V c n (Nat.lt_of_succ_lt h)).a0)
    (t : Fin cfg0.N) (q : t.val = 19) :
    (traj0 V c t.val t.isLt).a0 = colSum0 (lin0 (V c main_v27) (V c main_arg0) (V c main_v8) (V c main_v9) (V c main_v10)) := by
  have hN : cfg0.N = 20 := N_0
  funext i
  obtain ⟨u, j, rfl⟩ : ∃ (u : Fin 1) (j : Fin 128), i = ix2 u j := ⟨i 0, i 1, eq_ix2 i⟩
  rw [colSum0_apply]
  have h0N : 0 < cfg0.N := by omega
  have h0 : (traj0 V c 0 h0N).a0 (ix2 u j)
      = 0 + ∑ p : Fin 5000, lin0 (V c main_v27) (V c main_arg0) (V c main_v8) (V c main_v9) (V c main_v10)
          (ix2 (Cert.Rows100000.row 0 p) j) := by
    refine (congrFun (H0 h0N) (ix2 u j)).trans ?_
    refine (k0_pay5_apply (iblk0 V c 0 ⟨0, h0N⟩) (iblk0 V c 1 ⟨0, h0N⟩) (iblk0 V c 2 ⟨0, h0N⟩) (iblk0 V c 4 ⟨0, h0N⟩)
      (iblk0 V c 3 ⟨0, h0N⟩) (k0_pay2 (F := Ideal)) u j).trans ?_
    refine congrArg₂ (· + ·) (k0_pay2_apply (ix2 u j)) (Finset.sum_congr rfl fun p _ => ?_)
    exact (lin0_block V c ⟨0, h0N⟩ p j).trans
      (congrArg (fun r => lin0 (V c main_v27) (V c main_arg0) (V c main_v8) (V c main_v9) (V c main_v10) (ix2 r j))
        (rowOf0_eq_row 0 h0N (by omega) p))
  have hs : ∀ (s : Fin 20) (hs' : s.val + 1 < 20),
      (traj0 V c (s.val + 1) (by omega)).a0 (ix2 u j)
        = (traj0 V c s.val (by have := s.isLt; omega)).a0 (ix2 u j)
          + ∑ p : Fin 5000, lin0 (V c main_v27) (V c main_arg0) (V c main_v8) (V c main_v9) (V c main_v10)
              (ix2 (Cert.Rows100000.row ⟨s.val + 1, hs'⟩ p) j) := by
    intro s hs'
    have hlt : s.val + 1 < cfg0.N := by omega
    refine (congrFun (HS s.val hlt) (ix2 u j)).trans ?_
    refine (k0_pay5_apply (iblk0 V c 0 ⟨s.val + 1, hlt⟩) (iblk0 V c 1 ⟨s.val + 1, hlt⟩) (iblk0 V c 2 ⟨s.val + 1, hlt⟩)
      (iblk0 V c 4 ⟨s.val + 1, hlt⟩) (iblk0 V c 3 ⟨s.val + 1, hlt⟩) (traj0 V c s.val (Nat.lt_of_succ_lt hlt)).a0 u j).trans ?_
    refine congrArg₂ (· + ·) rfl (Finset.sum_congr rfl fun p _ => ?_)
    exact (lin0_block V c ⟨s.val + 1, hlt⟩ p j).trans
      (congrArg (fun r => lin0 (V c main_v27) (V c main_arg0) (V c main_v8) (V c main_v9) (V c main_v10) (ix2 r j))
        (rowOf0_eq_row (s.val + 1) hlt hs' p))
  have key := Cert.Rows100000.after_last_eq_sum_rows (M := EReal)
    (fun n => lin0 (V c main_v27) (V c main_arg0) (V c main_v8) (V c main_v9) (V c main_v10) (ix2 n j))
    (fun s : Fin 20 => (traj0 V c s.val (by have := s.isLt; omega)).a0 (ix2 u j)) h0 hs
  have fin : ∀ (k : ℕ) (hk : k < cfg0.N), k = 19 → (traj0 V c k hk).a0 (ix2 u j)
      = ∑ n : Fin 100000, lin0 (V c main_v27) (V c main_arg0) (V c main_v8) (V c main_v9) (V c main_v10) (ix2 n j) := by
    intro k hk e
    subst e
    exact key
  exact fin t.val t.isLt q

/-- THE SECOND ACCUMULATOR ROW AFTER THE LAST POINT: likewise with the column sums of the squares. -/
theorem a1_last_of (c : Dev nD)
    (H0 : ∀ h : 0 < cfg0.N, (traj0 V c 0 h).a1
      = k0_pay1 (k0_pay3 (F := Ideal))
          (k0_pay6 (iblk0 V c 0 ⟨0, h⟩) (iblk0 V c 1 ⟨0, h⟩) (iblk0 V c 2 ⟨0, h⟩) (iblk0 V c 4 ⟨0, h⟩) (iblk0 V c 3 ⟨0, h⟩)))
    (HS : ∀ (n : ℕ) (h : n + 1 < cfg0.N), (traj0 V c (n + 1) h).a1
      = k0_pay1 (traj0 V c n (Nat.lt_of_succ_lt h)).a1
          (k0_pay6 (iblk0 V c 0 ⟨n + 1, h⟩) (iblk0 V c 1 ⟨n + 1, h⟩) (iblk0 V c 2 ⟨n + 1, h⟩) (iblk0 V c 4 ⟨n + 1, h⟩)
            (iblk0 V c 3 ⟨n + 1, h⟩)))
    (t : Fin cfg0.N) (q : t.val = 19) :
    (traj0 V c t.val t.isLt).a1 = colSumSq0 (lin0 (V c main_v27) (V c main_arg0) (V c main_v8) (V c main_v9) (V c main_v10)) := by
  have hN : cfg0.N = 20 := N_0
  funext i
  obtain ⟨u, j, rfl⟩ : ∃ (u : Fin 1) (j : Fin 128), i = ix2 u j := ⟨i 0, i 1, eq_ix2 i⟩
  rw [colSumSq0_apply]
  have h0N : 0 < cfg0.N := by omega
  have sq : ∀ (k : ℕ) (hk : k < cfg0.N) (hk' : k < 20) (p : Fin 5000),
      k0_pay4 (iblk0 V c 0 ⟨k, hk⟩) (iblk0 V c 1 ⟨k, hk⟩) (iblk0 V c 2 ⟨k, hk⟩) (iblk0 V c 4 ⟨k, hk⟩) (iblk0 V c 3 ⟨k, hk⟩) (ix2 p j)
        * k0_pay4 (iblk0 V c 0 ⟨k, hk⟩) (iblk0 V c 1 ⟨k, hk⟩) (iblk0 V c 2 ⟨k, hk⟩) (iblk0 V c 4 ⟨k, hk⟩) (iblk0 V c 3 ⟨k, hk⟩) (ix2 p j)
      = lin0 (V c main_v27) (V c main_arg0) (V c main_v8) (V c main_v9) (V c main_v10) (ix2 (Cert.Rows100000.row ⟨k, hk'⟩ p) j)
        * lin0 (V c main_v27) (V c main_arg0) (V c main_v8) (V c main_v9) (V c main_v10) (ix2 (Cert.Rows100000.row ⟨k, hk'⟩ p) j) := by
    intro k hk hk' p
    have e := (lin0_block V c ⟨k, hk⟩ p j).trans
      (congrArg (fun r => lin0 (V c main_v27) (V c main_arg0) (V c main_v8) (V c main_v9) (V c main_v10) (ix2 r j))
        (rowOf0_eq_row k hk hk' p))
    exact congrArg₂ (· * ·) e e
  have h0 : (traj0 V c 0 h0N).a1 (ix2 u j)
      = 0 + ∑ p : Fin 5000, lin0 (V c main_v27) (V c main_arg0) (V c main_v8) (V c main_v9) (V c main_v10)
            (ix2 (Cert.Rows100000.row 0 p) j)
          * lin0 (V c main_v27) (V c main_arg0) (V c main_v8) (V c main_v9) (V c main_v10) (ix2 (Cert.Rows100000.row 0 p) j) := by
    refine (congrFun (H0 h0N) (ix2 u j)).trans ?_
    refine (k0_pay1_apply (k0_pay3 (F := Ideal))
      (k0_pay6 (iblk0 V c 0 ⟨0, h0N⟩) (iblk0 V c 1 ⟨0, h0N⟩) (iblk0 V c 2 ⟨0, h0N⟩) (iblk0 V c 4 ⟨0, h0N⟩) (iblk0 V c 3 ⟨0, h0N⟩)) u j).trans ?_
    refine congrArg₂ (· + ·) (k0_pay3_apply (ix2 u j)) ?_
    refine (k0_pay6_apply (iblk0 V c 0 ⟨0, h0N⟩) (iblk0 V c 1 ⟨0, h0N⟩) (iblk0 V c 2 ⟨0, h0N⟩) (iblk0 V c 4 ⟨0, h0N⟩)
      (iblk0 V c 3 ⟨0, h0N⟩) j).trans ?_
    exact Finset.sum_congr rfl fun p _ => sq 0 h0N (by omega) p
  have hs : ∀ (s : Fin 20) (hs' : s.val + 1 < 20),
      (traj0 V c (s.val + 1) (by omega)).a1 (ix2 u j)
        = (traj0 V c s.val (by have := s.isLt; omega)).a1 (ix2 u j)
          + ∑ p : Fin 5000, lin0 (V c main_v27) (V c main_arg0) (V c main_v8) (V c main_v9) (V c main_v10)
                (ix2 (Cert.Rows100000.row ⟨s.val + 1, hs'⟩ p) j)
              * lin0 (V c main_v27) (V c main_arg0) (V c main_v8) (V c main_v9) (V c main_v10)
                (ix2 (Cert.Rows100000.row ⟨s.val + 1, hs'⟩ p) j) := by
    intro s hs'
    have hlt : s.val + 1 < cfg0.N := by omega
    refine (congrFun (HS s.val hlt) (ix2 u j)).trans ?_
    refine (k0_pay1_apply (traj0 V c s.val (Nat.lt_of_succ_lt hlt)).a1
      (k0_pay6 (iblk0 V c 0 ⟨s.val + 1, hlt⟩) (iblk0 V c 1 ⟨s.val + 1, hlt⟩) (iblk0 V c 2 ⟨s.val + 1, hlt⟩)
        (iblk0 V c 4 ⟨s.val + 1, hlt⟩) (iblk0 V c 3 ⟨s.val + 1, hlt⟩)) u j).trans ?_
    refine congrArg₂ (· + ·) rfl ?_
    refine (k0_pay6_apply (iblk0 V c 0 ⟨s.val + 1, hlt⟩) (iblk0 V c 1 ⟨s.val + 1, hlt⟩) (iblk0 V c 2 ⟨s.val + 1, hlt⟩)
      (iblk0 V c 4 ⟨s.val + 1, hlt⟩) (iblk0 V c 3 ⟨s.val + 1, hlt⟩) j).trans ?_
    exact Finset.sum_congr rfl fun p _ => sq (s.val + 1) hlt hs' p
  have key := Cert.Rows100000.after_last_eq_sum_rows (M := EReal)
    (fun n => lin0 (V c main_v27) (V c main_arg0) (V c main_v8) (V c main_v9) (V c main_v10) (ix2 n j)
      * lin0 (V c main_v27) (V c main_arg0) (V c main_v8) (V c main_v9) (V c main_v10) (ix2 n j))
    (fun s : Fin 20 => (traj0 V c s.val (by have := s.isLt; omega)).a1 (ix2 u j)) h0 hs
  have fin : ∀ (k : ℕ) (hk : k < cfg0.N), k = 19 → (traj0 V c k hk).a1 (ix2 u j)
      = ∑ n : Fin 100000, lin0 (V c main_v27) (V c main_arg0) (V c main_v8) (V c main_v9) (V c main_v10) (ix2 n j)
          * lin0 (V c main_v27) (V c main_arg0) (V c main_v8) (V c main_v9) (V c main_v10) (ix2 n j) := by
    intro k hk e
    subst e
    exact key
  exact fin t.val t.isLt q

end Cert.KernelIdeal.Hand

end
-- ==== Proof.KI.Stats0Value.lean ====
/- Pipeline 0's arrays after the region, at the ideal float model: the row-block output holds the combine `lin0` of the
   five input arrays at every row; the two one-row outputs hold its column sums and its column sums of squares over all
   the 100000 rows; the input arrays are unchanged. Assembled from the point-by-point values of the trajectory
   (each point's block of the combine; the accumulator rows' recursion; the copy-out at the last point), the closed
   form of the accumulator rows, and the blocks-to-array steps. -/
import proofs.«121727_j57028575756303_1_alg».proof.Proof.KI.Stats0Steps
import proofs.«121727_j57028575756303_1_alg».proof.Proof.KI.Stats0Arr
import proofs.«121727_j57028575756303_1_alg».proof.Proof.KI.Stats0Acc

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The row-block output array after the region is the combine of the input arrays. -/
theorem arrAt0_5 (c : Dev nD) :
    (dat0 V c).arrAt 5 cfg0.N = lin0 (V c main_v27) (V c main_arg0) (V c main_v8) (V c main_v9) (V c main_v10) :=
  arrAt0_5_of V c (traj0_o5 V c)

/-- The first one-row output after the region: the combine's column sums over all rows. -/
theorem arrAt0_6 (c : Dev nD) :
    (dat0 V c).arrAt 6 cfg0.N = colSum0 (lin0 (V c main_v27) (V c main_arg0) (V c main_v8) (V c main_v9) (V c main_v10)) :=
  arrAt0_6_of V c _ fun t q =>
    (traj0_o6_last V c t q).trans (a0_last_of V c (traj0_a0_zero V c) (traj0_a0_succ V c) t q)

/-- The second one-row output after the region: the combine's column sums of squares over all rows. -/
theorem arrAt0_7 (c : Dev nD) :
    (dat0 V c).arrAt 7 cfg0.N = colSumSq0 (lin0 (V c main_v27) (V c main_arg0) (V c main_v8) (V c main_v9) (V c main_v10)) :=
  arrAt0_7_of V c _ fun t q =>
    (traj0_o7_last V c t q).trans (a1_last_of V c (traj0_a1_zero V c) (traj0_a1_succ V c) t q)

end Cert.KernelIdeal.Hand

end
-- ==== Proof.KI.Stats2Pieces.lean ====
/- Pipeline 2, the stores each kind of grid point leaves, read back as values: the row-block output holds the combine of
   the point's blocks (`k2_pay4`); the first accumulator row holds the row it held before (the zero row `k2_pay2` at
   the first point) plus the block's column sums (`k2_pay5`); the second likewise with the column sums of squares
   (`k2_pay1` of the row before, or of the zero row `k2_pay3`, and `k2_pay6`); at the last point the two one-row outputs
   hold copies of the two accumulator rows. Each at any float model. -/
import proofs.«121727_j57028575756303_1_alg».proof.Proof.KI.Stats2Traj
import proofs.«121727_j57028575756303_1_alg».proof.Proof.KI.Stats2Cover
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-- The zero offsets, however spelt. -/
theorem hz2 : (![0, 0] : Fin 2 → Nat) = fun _ => 0 := funext fun a => by fin_cases a <;> rfl

/-! ## The first point: the accumulator rows start from the zero rows -/

theorem pc2_o5_A (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond2_0 i) (hc1 : ¬cond2_1 i) (x0 x1 : Vec F S5000x128 .f32) (x2 : Vec F S128x128 .f32) (x3 : Vec F S1x128 .f32) (x4 : Vec F S128x128 .f32) :
    rdB2 (kernelRun2_A c i arg1 harg1 arg2 harg2 arg3 harg3 arg4 harg4 arg5 harg5 arg6 harg6 arg7 harg7 arg8 harg8 arg9 harg9 arg10 harg10 hc0 hc1 x0 x1 x2 x3 x4).1 = k2_pay4 x0 x1 x2 x4 x3 := by
  unfold rdB2
  rw [View.read_writes_eq_canon _ _ _ (cover2_A_5 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  try sl_unfold_words
  rw [View.canon_unit_zero hz2]
  simp only [View.readAt_eq_ld, harg1.read_unread, harg2.read_unread, harg3.read_unread, harg4.read_unread, harg5.read_unread,
    harg9.read_unread, harg10.read_unread, View.ld_unit_zero (S := S5000x128) hz2, View.ld_unit_zero (S := S128x128) hz2,
    View.ld_unit_zero (S := S1x128) hz2]

theorem pc2_a0_A (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond2_0 i) (hc1 : ¬cond2_1 i) (x0 x1 : Vec F S5000x128 .f32) (x2 : Vec F S128x128 .f32) (x3 : Vec F S1x128 .f32) (x4 : Vec F S128x128 .f32) :
    rdR2 (kernelRun2_A c i arg1 harg1 arg2 harg2 arg3 harg3 arg4 harg4 arg5 harg5 arg6 harg6 arg7 harg7 arg8 harg8 arg9 harg9 arg10 harg10 hc0 hc1 x0 x1 x2 x3 x4).2.1 = k2_pay5 x0 x1 x2 x4 x3 k2_pay2 := by
  unfold rdR2
  rw [View.read_writes_eq_canon _ _ _ (cover2_A_9 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  try sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread,
    harg9.read_unread, harg10.read_unread, View.ld_unit_zero (S := S5000x128) hz2, View.ld_unit_zero (S := S128x128) hz2,
    View.ld_unit_zero (S := S1x128) hz2]

theorem pc2_a1_A (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond2_0 i) (hc1 : ¬cond2_1 i) (x0 x1 : Vec F S5000x128 .f32) (x2 : Vec F S128x128 .f32) (x3 : Vec F S1x128 .f32) (x4 : Vec F S128x128 .f32) :
    rdR2 (kernelRun2_A c i arg1 harg1 arg2 harg2 arg3 harg3 arg4 harg4 arg5 harg5 arg6 harg6 arg7 harg7 arg8 harg8 arg9 harg9 arg10 harg10 hc0 hc1 x0 x1 x2 x3 x4).2.2.1 = k2_pay1 k2_pay3 (k2_pay6 x0 x1 x2 x4 x3) := by
  unfold rdR2
  rw [View.read_writes_eq_canon _ _ _ (cover2_A_10 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  try sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread,
    harg9.read_unread, harg10.read_unread, View.ld_unit_zero (S := S5000x128) hz2, View.ld_unit_zero (S := S128x128) hz2,
    View.ld_unit_zero (S := S1x128) hz2]

/-! ## A point between the first and the last -/

theorem pc2_o5_B (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : ¬cond2_1 i) (x0 x1 : Vec F S5000x128 .f32) (x2 : Vec F S128x128 .f32) (x3 : Vec F S1x128 .f32) (x4 : Vec F S128x128 .f32) (s0 s1 : Vec F S1x128 .f32) :
    rdB2 (kernelRun2_B c i arg1 harg1 arg2 harg2 arg3 harg3 arg4 harg4 arg5 harg5 arg6 harg6 arg7 harg7 arg8 harg8 arg9 harg9 arg10 harg10 hc0 hc1 x0 x1 x2 x3 x4 s0 s1).1 = k2_pay4 x0 x1 x2 x4 x3 := by
  unfold rdB2
  rw [View.read_writes_eq_canon _ _ _ (cover2_B_5 c i arg1 harg1 arg2 harg2 arg3 harg3 arg4 harg4 arg5 harg5 arg6 harg6 arg7 harg7 arg8 harg8 arg9 harg9 arg10 harg10 hc0 hc1 x0 x1 x2 x3 x4 s0 s1)]
  unfold kernelRun2_B
  dsimp only
  rw [View.canon_unit_zero hz2]
  simp only [View.readAt_eq_ld, harg1.read_unread, harg2.read_unread, harg3.read_unread, harg4.read_unread, harg5.read_unread,
    harg9.read_unread, harg10.read_unread, View.ld_unit_zero (S := S5000x128) hz2, View.ld_unit_zero (S := S128x128) hz2,
    View.ld_unit_zero (S := S1x128) hz2]

theorem pc2_a0_B (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : ¬cond2_1 i) (x0 x1 : Vec F S5000x128 .f32) (x2 : Vec F S128x128 .f32) (x3 : Vec F S1x128 .f32) (x4 : Vec F S128x128 .f32) (s0 s1 : Vec F S1x128 .f32) :
    rdR2 (kernelRun2_B c i arg1 harg1 arg2 harg2 arg3 harg3 arg4 harg4 arg5 harg5 arg6 harg6 arg7 harg7 arg8 harg8 arg9 harg9 arg10 harg10 hc0 hc1 x0 x1 x2 x3 x4 s0 s1).2.1 = k2_pay5 x0 x1 x2 x4 x3 s0 := by
  unfold rdR2
  rw [View.read_writes_eq_canon _ _ _ (cover2_B_9 c i arg1 harg1 arg2 harg2 arg3 harg3 arg4 harg4 arg5 harg5 arg6 harg6 arg7 harg7 arg8 harg8 arg9 harg9 arg10 harg10 hc0 hc1 x0 x1 x2 x3 x4 s0 s1)]
  unfold kernelRun2_B
  dsimp only
  rw [View.canon_unit_zero hz2]
  simp only [View.readAt_eq_ld, harg1.read_unread, harg2.read_unread, harg3.read_unread, harg4.read_unread, harg5.read_unread,
    harg9.read_unread, harg10.read_unread, View.ld_unit_zero (S := S5000x128) hz2, View.ld_unit_zero (S := S128x128) hz2,
    View.ld_unit_zero (S := S1x128) hz2]

theorem pc2_a1_B (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : ¬cond2_1 i) (x0 x1 : Vec F S5000x128 .f32) (x2 : Vec F S128x128 .f32) (x3 : Vec F S1x128 .f32) (x4 : Vec F S128x128 .f32) (s0 s1 : Vec F S1x128 .f32) :
    rdR2 (kernelRun2_B c i arg1 harg1 arg2 harg2 arg3 harg3 arg4 harg4 arg5 harg5 arg6 harg6 arg7 harg7 arg8 harg8 arg9 harg9 arg10 harg10 hc0 hc1 x0 x1 x2 x3 x4 s0 s1).2.2.1 = k2_pay1 s1 (k2_pay6 x0 x1 x2 x4 x3) := by
  unfold rdR2
  rw [View.read_writes_eq_canon _ _ _ (cover2_B_10 c i arg1 harg1 arg2 harg2 arg3 harg3 arg4 harg4 arg5 harg5 arg6 harg6 arg7 harg7 arg8 harg8 arg9 harg9 arg10 harg10 hc0 hc1 x0 x1 x2 x3 x4 s0 s1)]
  unfold kernelRun2_B
  dsimp only
  rw [View.canon_unit_zero hz2]
  simp only [View.readAt_eq_ld, harg1.read_unread, harg2.read_unread, harg3.read_unread, harg4.read_unread, harg5.read_unread,
    harg9.read_unread, harg10.read_unread, View.ld_unit_zero (S := S5000x128) hz2, View.ld_unit_zero (S := S128x128) hz2,
    View.ld_unit_zero (S := S1x128) hz2]

/-! ## The last point: the accumulator rows are also copied to the two one-row outputs -/

theorem pc2_o5_C (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) :
    rdB2 (kernelRun2_C c i arg1 harg1 arg2 harg2 arg3 harg3 arg4 harg4 arg5 harg5 arg6 harg6 arg7 harg7 arg8 harg8 arg9 harg9 arg10 harg10 hc0 hc1 x0 x1 x2 x3 x4 s0 s1).1 = k2_pay4 x0 x1 x2 x4 x3 := by
  unfold rdB2
  rw [View.read_writes_eq_canon _ _ _ (cover2_C_5 c i arg1 harg1 arg2 harg2 arg3 harg3 arg4 harg4 arg5 harg5 arg6 harg6 arg7 harg7 arg8 harg8 arg9 harg9 arg10 harg10 hc0 hc1 x0 x1 x2 x3 x4 s0 s1)]
  unfold kernelRun2_C
  dsimp only
  try sl_unfold_words
  rw [View.canon_unit_zero hz2]
  simp only [View.readAt_eq_ld, harg1.read_unread, harg2.read_unread, harg3.read_unread, harg4.read_unread, harg5.read_unread,
    harg9.read_unread, harg10.read_unread, View.ld_unit_zero (S := S5000x128) hz2, View.ld_unit_zero (S := S128x128) hz2,
    View.ld_unit_zero (S := S1x128) hz2]

theorem pc2_o6_C (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) :
    rdR2 (kernelRun2_C c i arg1 harg1 arg2 harg2 arg3 harg3 arg4 harg4 arg5 harg5 arg6 harg6 arg7 harg7 arg8 harg8 arg9 harg9 arg10 harg10 hc0 hc1 x0 x1 x2 x3 x4 s0 s1).2.1 = k2_pay5 x0 x1 x2 x4 x3 s0 := by
  unfold rdR2
  rw [View.read_writes_eq_canon _ _ _ (cover2_C_6 c i arg1 harg1 arg2 harg2 arg3 harg3 arg4 harg4 arg5 harg5 arg6 harg6 arg7 harg7 arg8 harg8 arg9 harg9 arg10 harg10 hc0 hc1 x0 x1 x2 x3 x4 s0 s1)]
  unfold kernelRun2_C
  dsimp only
  try sl_unfold_words
  rw [View.canon_unit_zero hz2, View.readCov_unit_zero (S := S1x128) _ hz2]
  dsimp only
  simp only [View.readAt_eq_ld, harg1.read_unread, harg2.read_unread, harg3.read_unread, harg4.read_unread, harg5.read_unread,
    harg9.read_unread, harg10.read_unread, View.ld_unit_zero (S := S5000x128) hz2, View.ld_unit_zero (S := S128x128) hz2,
    View.ld_unit_zero (S := S1x128) hz2]

theorem pc2_o7_C (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) :
    rdR2 (kernelRun2_C c i arg1 harg1 arg2 harg2 arg3 harg3 arg4 harg4 arg5 harg5 arg6 harg6 arg7 harg7 arg8 harg8 arg9 harg9 arg10 harg10 hc0 hc1 x0 x1 x2 x3 x4 s0 s1).2.2.1 = k2_pay1 s1 (k2_pay6 x0 x1 x2 x4 x3) := by
  unfold rdR2
  rw [View.read_writes_eq_canon _ _ _ (cover2_C_7 c i arg1 harg1 arg2 harg2 arg3 harg3 arg4 harg4 arg5 harg5 arg6 harg6 arg7 harg7 arg8 harg8 arg9 harg9 arg10 harg10 hc0 hc1 x0 x1 x2 x3 x4 s0 s1)]
  unfold kernelRun2_C
  dsimp only
  try sl_unfold_words
  rw [View.canon_unit_zero hz2, View.readCov_unit_zero (S := S1x128) _ hz2]
  dsimp only
  simp only [View.readAt_eq_ld, harg1.read_unread, harg2.read_unread, harg3.read_unread, harg4.read_unread, harg5.read_unread,
    harg9.read_unread, harg10.read_unread, View.ld_unit_zero (S := S5000x128) hz2, View.ld_unit_zero (S := S128x128) hz2,
    View.ld_unit_zero (S := S1x128) hz2]

theorem pc2_a0_C (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) :
    rdR2 (kernelRun2_C c i arg1 harg1 arg2 harg2 arg3 harg3 arg4 harg4 arg5 harg5 arg6 harg6 arg7 harg7 arg8 harg8 arg9 harg9 arg10 harg10 hc0 hc1 x0 x1 x2 x3 x4 s0 s1).2.2.2.1 = k2_pay5 x0 x1 x2 x4 x3 s0 := by
  unfold rdR2
  rw [View.read_writes_eq_canon _ _ _ (cover2_C_9 c i arg1 harg1 arg2 harg2 arg3 harg3 arg4 harg4 arg5 harg5 arg6 harg6 arg7 harg7 arg8 harg8 arg9 harg9 arg10 harg10 hc0 hc1 x0 x1 x2 x3 x4 s0 s1)]
  unfold kernelRun2_C
  dsimp only
  try sl_unfold_words
  rw [View.canon_unit_zero hz2]
  simp only [View.readAt_eq_ld, harg1.read_unread, harg2.read_unread, harg3.read_unread, harg4.read_unread, harg5.read_unread,
    harg9.read_unread, harg10.read_unread, View.ld_unit_zero (S := S5000x128) hz2, View.ld_unit_zero (S := S128x128) hz2,
    View.ld_unit_zero (S := S1x128) hz2]

theorem pc2_a1_C (c : Dev nD) (i : grid2.Coords) (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond2_0 i) (hc1 : cond2_1 i) (x0 x1 : Vec F S5000x128 .f32) (x2 : Vec F S128x128 .f32) (x3 : Vec F S1x128 .f32) (x4 : Vec F S128x128 .f32) (s0 s1 : Vec F S1x128 .f32) :
    rdR2 (kernelRun2_C c i arg1 harg1 arg2 harg2 arg3 harg3 arg4 harg4 arg5 harg5 arg6 harg6 arg7 harg7 arg8 harg8 arg9 harg9 arg10 harg10 hc0 hc1 x0 x1 x2 x3 x4 s0 s1).2.2.2.2.1 = k2_pay1 s1 (k2_pay6 x0 x1 x2 x4 x3) := by
  unfold rdR2
  rw [View.read_writes_eq_canon _ _ _ (cover2_C_10 c i arg1 harg1 arg2 harg2 arg3 harg3 arg4 harg4 arg5 harg5 arg6 harg6 arg7 harg7 arg8 harg8 arg9 harg9 arg10 harg10 hc0 hc1 x0 x1 x2 x3 x4 s0 s1)]
  unfold kernelRun2_C
  dsimp only
  try sl_unfold_words
  rw [View.canon_unit_zero hz2]
  simp only [View.readAt_eq_ld, harg1.read_unread, harg2.read_unread, harg3.read_unread, harg4.read_unread, harg5.read_unread,
    harg9.read_unread, harg10.read_unread, View.ld_unit_zero (S := S5000x128) hz2, View.ld_unit_zero (S := S128x128) hz2,
    View.ld_unit_zero (S := S1x128) hz2]

end Cert.KernelIdeal.Hand

end
-- ==== Proof.KI.Stats2Steps.lean ====
/- Pipeline 2, one grid point as values of the point's blocks (at any float model): the row-block output is the combine
   of the blocks; each accumulator row is the row before it (the zero row at the first point) plus the block's column
   sums, of the combine and of its squares; at the last point the one-row outputs are the accumulator rows. Then the
   trajectory's recursion: the rows after point `n + 1` from the rows after point `n`. -/
import proofs.«121727_j57028575756303_1_alg».proof.Proof.KI.Stats2Pieces

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (V : (c : Dev nD) → (b : Ref sig .tc) → Buf (Elt F) ((c : Thread nD τ).loc b))

/-- The row-block output after any point is the combine of its blocks. -/
theorem step2_o5 (c : Dev nD) (t : Fin cfg2.N) (prev : Vec F S1x128 .f32 × Vec F S1x128 .f32) :
    (step2 V c t prev).o5 = k2_pay4 (iblk2 V c 0 t) (iblk2 V c 1 t) (iblk2 V c 2 t) (iblk2 V c 4 t) (iblk2 V c 3 t) := by
  by_cases q0 : t.val = 0
  · rewrite [step2_A V c t prev q0]; dsimp only
    exact pc2_o5_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)
  · by_cases q1 : t.val = 19
    · rewrite [step2_C V c t prev q0 q1]; dsimp only
      exact pc2_o5_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2
    · rewrite [step2_B V c t prev q0 q1]; dsimp only
      exact pc2_o5_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2

/-- The first accumulator row after a point: the row before (the zero row at the first point) plus the column sums of
    the combine of its blocks. -/
theorem step2_a0 (c : Dev nD) (t : Fin cfg2.N) (prev : Vec F S1x128 .f32 × Vec F S1x128 .f32) :
    (step2 V c t prev).a0 = k2_pay5 (iblk2 V c 0 t) (iblk2 V c 1 t) (iblk2 V c 2 t) (iblk2 V c 4 t) (iblk2 V c 3 t) (if t.val = 0 then k2_pay2 else prev.1) := by
  by_cases q0 : t.val = 0
  · rewrite [if_pos q0]; rewrite [step2_A V c t prev q0]; dsimp only
    exact pc2_a0_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)
  · rewrite [if_neg q0]; by_cases q1 : t.val = 19
    · rewrite [step2_C V c t prev q0 q1]; dsimp only
      exact pc2_a0_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2
    · rewrite [step2_B V c t prev q0 q1]; dsimp only
      exact pc2_a0_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2

/-- The second accumulator row after a point: the row before (the zero row at the first point) plus the column sums of
    the squares of the combine of its blocks. -/
theorem step2_a1 (c : Dev nD) (t : Fin cfg2.N) (prev : Vec F S1x128 .f32 × Vec F S1x128 .f32) :
    (step2 V c t prev).a1 = k2_pay1 (if t.val = 0 then k2_pay3 else prev.2) (k2_pay6 (iblk2 V c 0 t) (iblk2 V c 1 t) (iblk2 V c 2 t) (iblk2 V c 4 t) (iblk2 V c 3 t)) := by
  by_cases q0 : t.val = 0
  · rewrite [if_pos q0]; rewrite [step2_A V c t prev q0]; dsimp only
    exact pc2_a1_A c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) ((hcond2_0 t).mpr q0) (fun h => absurd ((hcond2_1 t).mp h) (by omega)) (iblk2 V c 0 t) (iblk2 V c 1 t) (iblk2 V c 2 t) (iblk2 V c 3 t) (iblk2 V c 4 t)
  · rewrite [if_neg q0]; by_cases q1 : t.val = 19
    · rewrite [step2_C V c t prev q0 q1]; dsimp only
      exact pc2_a1_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2
    · rewrite [step2_B V c t prev q0 q1]; dsimp only
      exact pc2_a1_B c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) (fun h => q1 ((hcond2_1 t).mp h)) (iblk2 V c 0 t) (iblk2 V c 1 t) (iblk2 V c 2 t) (iblk2 V c 3 t) (iblk2 V c 4 t) prev.1 prev.2

/-- At the last point the first one-row output is the first accumulator row the point leaves. -/
theorem step2_o6 (c : Dev nD) (t : Fin cfg2.N) (prev : Vec F S1x128 .f32 × Vec F S1x128 .f32) (q1 : t.val = 19) :
    (step2 V c t prev).o6 = (step2 V c t prev).a0 := by
  have q0 : ¬t.val = 0 := by omega
  rewrite [step2_C V c t prev q0 q1]; dsimp only
  exact (pc2_o6_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).trans
    (pc2_a0_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).symm

/-- At the last point the second one-row output is the second accumulator row the point leaves. -/
theorem step2_o7 (c : Dev nD) (t : Fin cfg2.N) (prev : Vec F S1x128 .f32 × Vec F S1x128 .f32) (q1 : t.val = 19) :
    (step2 V c t prev).o7 = (step2 V c t prev).a1 := by
  have q0 : ¬t.val = 0 := by omega
  rewrite [step2_C V c t prev q0 q1]; dsimp only
  exact (pc2_o7_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).trans
    (pc2_a1_C c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (fun h => q0 ((hcond2_0 t).mp h)) ((hcond2_1 t).mpr q1) (iblk2 V c 0 t) (iblk2 V c 1 t) (iblk2 V c 2 t) (iblk2 V c 3 t) (iblk2 V c 4 t) prev.1 prev.2).symm

/-! ## The trajectory's recursion -/

theorem traj2_zero (c : Dev nD) (h : 0 < cfg2.N) : traj2 V c 0 h = step2 V c ⟨0, h⟩ (row2_any, row2_any) := rfl
theorem traj2_succ (c : Dev nD) (n : ℕ) (h : n + 1 < cfg2.N) :
    traj2 V c (n + 1) h = step2 V c ⟨n + 1, h⟩ ((traj2 V c n (Nat.lt_of_succ_lt h)).a0, (traj2 V c n (Nat.lt_of_succ_lt h)).a1) := rfl

/-- The row-block output after point `t` is the combine of that point's blocks. -/
theorem traj2_o5 (c : Dev nD) (t : Fin cfg2.N) :
    (traj2 V c t.val t.isLt).o5 = k2_pay4 (iblk2 V c 0 t) (iblk2 V c 1 t) (iblk2 V c 2 t) (iblk2 V c 4 t) (iblk2 V c 3 t) := by
  rewrite [traj2_eq]; exact step2_o5 V c t (prev2 V c t)

/-- The first accumulator row after the first point. -/
theorem traj2_a0_zero (c : Dev nD) (h : 0 < cfg2.N) :
    (traj2 V c 0 h).a0 = k2_pay5 (iblk2 V c 0 ⟨0, h⟩) (iblk2 V c 1 ⟨0, h⟩) (iblk2 V c 2 ⟨0, h⟩) (iblk2 V c 4 ⟨0, h⟩) (iblk2 V c 3 ⟨0, h⟩) k2_pay2 := by
  rewrite [traj2_zero, step2_a0, if_pos (show (⟨0, h⟩ : Fin cfg2.N).val = 0 from rfl)]; rfl
/-- The first accumulator row after a later point, from the row after the point before. -/
theorem traj2_a0_succ (c : Dev nD) (n : ℕ) (h : n + 1 < cfg2.N) :
    (traj2 V c (n + 1) h).a0 = k2_pay5 (iblk2 V c 0 ⟨n + 1, h⟩) (iblk2 V c 1 ⟨n + 1, h⟩) (iblk2 V c 2 ⟨n + 1, h⟩) (iblk2 V c 4 ⟨n + 1, h⟩) (iblk2 V c 3 ⟨n + 1, h⟩) (traj2 V c n (Nat.lt_of_succ_lt h)).a0 := by
  rewrite [traj2_succ, step2_a0, if_neg (show ¬(⟨n + 1, h⟩ : Fin cfg2.N).val = 0 from Nat.succ_ne_zero n)]; rfl
/-- The second accumulator row after the first point. -/
theorem traj2_a1_zero (c : Dev nD) (h : 0 < cfg2.N) :
    (traj2 V c 0 h).a1 = k2_pay1 k2_pay3 (k2_pay6 (iblk2 V c 0 ⟨0, h⟩) (iblk2 V c 1 ⟨0, h⟩) (iblk2 V c 2 ⟨0, h⟩) (iblk2 V c 4 ⟨0, h⟩) (iblk2 V c 3 ⟨0, h⟩)) := by
  rewrite [traj2_zero, step2_a1, if_pos (show (⟨0, h⟩ : Fin cfg2.N).val = 0 from rfl)]; rfl
/-- The second accumulator row after a later point, from the row after the point before. -/
theorem traj2_a1_succ (c : Dev nD) (n : ℕ) (h : n + 1 < cfg2.N) :
    (traj2 V c (n + 1) h).a1 = k2_pay1 (traj2 V c n (Nat.lt_of_succ_lt h)).a1 (k2_pay6 (iblk2 V c 0 ⟨n + 1, h⟩) (iblk2 V c 1 ⟨n + 1, h⟩) (iblk2 V c 2 ⟨n + 1, h⟩) (iblk2 V c 4 ⟨n + 1, h⟩) (iblk2 V c 3 ⟨n + 1, h⟩)) := by
  rewrite [traj2_succ, step2_a1, if_neg (show ¬(⟨n + 1, h⟩ : Fin cfg2.N).val = 0 from Nat.succ_ne_zero n)]; rfl
/-- After the last point the one-row outputs are the accumulator rows. -/
theorem traj2_o6_last (c : Dev nD) (t : Fin cfg2.N) (q1 : t.val = 19) :
    (traj2 V c t.val t.isLt).o6 = (traj2 V c t.val t.isLt).a0 := by
  rewrite [traj2_eq]; exact step2_o6 V c t (prev2 V c t) q1
theorem traj2_o7_last (c : Dev nD) (t : Fin cfg2.N) (q1 : t.val = 19) :
    (traj2 V c t.val t.isLt).o7 = (traj2 V c t.val t.isLt).a1 := by
  rewrite [traj2_eq]; exact step2_o7 V c t (prev2 V c t) q1

end Cert.KernelIdeal.Hand

end
-- ==== Proof.KI.Stats2Payload.lean ====
/- Pipeline 2's payloads at an entry, at the ideal (extended-real) float model: the combine of a block of rows is, at
   row `p` and column `j`, `((∑ₖ a(p, k) · Wl(k, j)) + bl(j)) + ∑ₖ x(p, k) · Wr(k, j)` (the narrowing casts are the identity,
   each product into the zero accumulator is the sum over the contracted coordinate, the bias is broadcast along the
   rows); a column sum over the block's 5000 rows is the sum over the row coordinate; the accumulator rows add it to
   what they held; the reset rows are zero. -/
import proofs.«121727_j57028575756303_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-! ## The product of a row block with a weight matrix at an entry -/

theorem matmul_x_W2_apply (A : FVec Ideal S5000x128 .bf16) (B : FVec Ideal S128x128 .bf16) (p : Fin 5000) (k : Fin 128) :
    matmul dot_S5000x128_S128x128_S5000x128_1_0_0_1_n_n none A B (constant S5000x128 .f32 0x00000000#32) (ix2 p k)
      = ∑ j : Fin 128, A (ix2 p j) * B (ix2 j k) := by
  show FloatOps.matmul dot_S5000x128_S128x128_S5000x128_1_0_0_1_n_n none A B (constant S5000x128 .f32 0x00000000#32) (ix2 p k) = _
  rw [Ideal.matmul_constant_zero_apply, ← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 p k) ((contrEquiv1 _ 128 rfl rfl).symm c) = ix2 p c := by
    funext ax; apply Fin.ext
    match ax with
    | ⟨0, _⟩ => simp [DotDims.lhsIdx, dot_S5000x128_S128x128_S5000x128_1_0_0_1_n_n] <;> rfl
    | ⟨1, _⟩ => simp [DotDims.lhsIdx, dot_S5000x128_S128x128_S5000x128_1_0_0_1_n_n] <;> exact c2
  have r2 : dot_S5000x128_S128x128_S5000x128_1_0_0_1_n_n.rhsIdx (ix2 p k) ((contrEquiv1 _ 128 rfl rfl).symm c) = ix2 c k := by
    funext ax; apply Fin.ext
    match ax with
    | ⟨0, _⟩ => simp [DotDims.rhsIdx, dot_S5000x128_S128x128_S5000x128_1_0_0_1_n_n] <;> exact c2
    | ⟨1, _⟩ => simp [DotDims.rhsIdx, dot_S5000x128_S128x128_S5000x128_1_0_0_1_n_n] <;> rfl
  rw [l2, r2]

/-! ## The combine at an entry -/

theorem k2_pay4_apply (x0 x1 : Vec Ideal S5000x128 .f32) (x2 x4 : Vec Ideal S128x128 .f32) (x3 : Vec Ideal S1x128 .f32)
    (p : Fin 5000) (j : Fin 128) :
    k2_pay4 x0 x1 x2 x4 x3 (ix2 p j)
      = ((∑ k : Fin 128, x0 (ix2 p k) * x2 (ix2 k j)) + x3 (ix2 0 j)) + ∑ k : Fin 128, x1 (ix2 p k) * x4 (ix2 k j) := by
  unfold k2_pay4
  simp only [shapeCast_self]
  rw [addf_apply, addf_apply, matmul_x_W2_apply, matmul_x_W2_apply,
    broadcastTo_apply x3 broadcasts_S1x128_S5000x128 (ix2 p j) (ix2 0 j) (fun a => by match a with | ⟨0, _⟩ => rfl | ⟨1, _⟩ => rfl)]
  simp only [truncf_apply]

/-! ## The column sums over a block's rows -/

/-- The row `p` inserted above column `j`. -/
theorem lift2_rows (j : Fin 128) (p : Fin 5000) :
    reduces_S5000x128_S128.lift (ix1 j) p = ix2 p j := by
  funext ax; apply Fin.ext
  refine (Shape.Reduces.lift_val reduces_S5000x128_S128 (ix1 j) p ax).trans ?_
  unfold Shape.Reduces.liftVal
  match ax with
  | ⟨0, _⟩ => simp <;> rfl
  | ⟨1, _⟩ => simp <;> rfl

/-- A sum over axis 0 of a block, at column `j`: the sum over the block's rows. -/
theorem colsum2_apply (src : FVec Ideal S5000x128 .f32) (hφ : FKind.Formats .f32) (hacc : (0x00000000#32 : BitVec 32) = FKind.add.neutral .f32 hφ) (j : Fin 128) :
    multiReduction .add [0] S128 src 0x00000000#32 reduces_S5000x128_S128 hφ hacc (ix1 j) = ∑ p : Fin 5000, src (ix2 p j) := by
  refine (Ideal.multiReduction_add_single src 0x00000000#32 reduces_S5000x128_S128 hφ hacc (ix1 j)).trans ?_
  show ∑ p : Fin 5000, src (reduces_S5000x128_S128.lift (ix1 j) p) = _
  exact Finset.sum_congr rfl fun p _ => congrArg src (lift2_rows j p)

/-- The first accumulator row after a point, at column `j`: what it held plus the column sum of the combine. -/
theorem k2_pay5_apply (x0 x1 : Vec Ideal S5000x128 .f32) (x2 x4 : Vec Ideal S128x128 .f32) (x3 : Vec Ideal S1x128 .f32)
    (s : Vec Ideal S1x128 .f32) (u : Fin 1) (j : Fin 128) :
    k2_pay5 x0 x1 x2 x4 x3 s (ix2 u j) = s (ix2 u j) + ∑ p : Fin 5000, k2_pay4 x0 x1 x2 x4 x3 (ix2 p j) := by
  unfold k2_pay5
  simp only [shapeCast_self]
  refine (addf_apply _ _ _).trans ?_
  exact congrArg (s (ix2 u j) + ·) ((shapeCast_a_1a_apply _ shapeCasts_S128_S1x128 u j).trans (colsum2_apply _ _ _ j))

/-- The squares of the combine, summed over the block's rows at column `j`. -/
theorem k2_pay6_apply (x0 x1 : Vec Ideal S5000x128 .f32) (x2 x4 : Vec Ideal S128x128 .f32) (x3 : Vec Ideal S1x128 .f32) (j : Fin 128) :
    (∑ p : Fin 5000, k2_pay6 x0 x1 x2 x4 x3 (ix2 p j))
      = ∑ p : Fin 5000, k2_pay4 x0 x1 x2 x4 x3 (ix2 p j) * k2_pay4 x0 x1 x2 x4 x3 (ix2 p j) := by
  unfold k2_pay6
  exact Finset.sum_congr rfl fun p _ => mulf_apply _ _ _

/-- The second accumulator row after a point, at column `j`: what it held plus the column sum of the block it is given. -/
theorem k2_pay1_apply (s : Vec Ideal S1x128 .f32) (v : FVec Ideal S5000x128 .f32) (u : Fin 1) (j : Fin 128) :
    k2_pay1 s v (ix2 u j) = s (ix2 u j) + ∑ p : Fin 5000, v (ix2 p j) := by
  unfold k2_pay1
  simp only [shapeCast_self]
  refine (addf_apply _ _ _).trans ?_
  exact congrArg (s (ix2 u j) + ·) ((shapeCast_a_1a_apply _ shapeCasts_S128_S1x128 u j).trans (colsum2_apply _ _ _ j))

/-- The rows the first point resets the accumulators to are zero. -/
theorem k2_pay2_apply (i : S1x128.Idx) : k2_pay2 (F := Ideal) i = 0 := by
  unfold k2_pay2
  simp only [shapeCast_self]
  exact Ideal.ofBits_zero_f32
theorem k2_pay3_apply (i : S1x128.Idx) : k2_pay3 (F := Ideal) i = 0 := by
  unfold k2_pay3
  simp only [shapeCast_self]
  exact Ideal.ofBits_zero_f32

end Cert.KernelIdeal.Hand

end
-- ==== Proof.KI.Stats2Blocks.lean ====
/- Pipeline 2 at the ideal float model: the combine as ONE function of the five input arrays (`lin2`), its column sums
   and column sums of squares over all rows (`colSum2`, `colSumSq2`), the windows' index maps decided over the grid, the
   input blocks as entries of their arrays, and the combine of point `t`'s blocks as block `t` of `lin2`. -/
import proofs.«121727_j57028575756303_1_alg».proof.Proof.KI.Stats2Traj
import proofs.«121727_j57028575756303_1_alg».proof.Proof.KI.Stats2Payload

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The combine and its column statistics as functions of the arrays -/

/-- The first layer's combine, entry by entry: `(agg · Wl + bl) + x · Wr` in the body's own association. -/
def lin2 (agg x : S100000x128.Idx → Ideal .f32) (WlT : S128x128.Idx → Ideal .f32) (bl : S1x128.Idx → Ideal .f32)
    (WrT : S128x128.Idx → Ideal .f32) : S100000x128.Idx → Ideal .f32 :=
  fun i => ((∑ k : Fin 128, agg (ix2 (i 0) k) * WlT (ix2 k (i 1))) + bl (ix2 0 (i 1)))
    + ∑ k : Fin 128, x (ix2 (i 0) k) * WrT (ix2 k (i 1))

theorem lin2_apply (agg x : S100000x128.Idx → Ideal .f32) (WlT : S128x128.Idx → Ideal .f32) (bl : S1x128.Idx → Ideal .f32)
    (WrT : S128x128.Idx → Ideal .f32) (r : Fin 100000) (j : Fin 128) :
    lin2 agg x WlT bl WrT (ix2 r j)
      = ((∑ k : Fin 128, agg (ix2 r k) * WlT (ix2 k j)) + bl (ix2 0 j)) + ∑ k : Fin 128, x (ix2 r k) * WrT (ix2 k j) := rfl

/-- The column sums over all rows, as a one-row array. -/
def colSum2 (f : S100000x128.Idx → Ideal .f32) : S1x128.Idx → Ideal .f32 := fun i => ∑ n : Fin 100000, f (ix2 n (i 1))
/-- The column sums of squares over all rows, as a one-row array. -/
def colSumSq2 (f : S100000x128.Idx → Ideal .f32) : S1x128.Idx → Ideal .f32 :=
  fun i => ∑ n : Fin 100000, f (ix2 n (i 1)) * f (ix2 n (i 1))

theorem colSum2_apply (f : S100000x128.Idx → Ideal .f32) (u : Fin 1) (j : Fin 128) :
    colSum2 f (ix2 u j) = ∑ n : Fin 100000, f (ix2 n j) := rfl
theorem colSumSq2_apply (f : S100000x128.Idx → Ideal .f32) (u : Fin 1) (j : Fin 128) :
    colSumSq2 f (ix2 u j) = ∑ n : Fin 100000, f (ix2 n j) * f (ix2 n j) := rfl

/-! ## The windows' index maps, decided over the grid -/

/-- The two row-block inputs and the row-block output move with the point along the rows; the three parameter windows
    and the two one-row outputs stay at their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Row `p` of point `t`'s block is row `5000 t + p` of the array. -/
def rowOf2 (t : Fin cfg2.N) (p : Fin 5000) : Fin 100000 :=
  ⟨5000 * t.val + p.val, by have h1 := t.isLt; have h2 : cfg2.N = 20 := N_2; have h3 := p.isLt; omega⟩

theorem rowOf2_val (t : Fin cfg2.N) (p : Fin 5000) : (rowOf2 t p).val = 5000 * t.val + p.val := rfl

variable (V : (c : Dev nD) → (b : Ref sig .tc) → Buf (Elt Ideal) ((c : Thread nD τ).loc b))

/-! ## The input blocks as entries of their arrays -/

/-- Row-block window 0's block at point `t` is rows `5000 t … 5000 t + 4999` of its array. -/
theorem iblk2_0_ix (c : Dev nD) (t : Fin cfg2.N) (p : Fin 5000) (k : Fin 128) :
    (iblk2 V c 0 t : Vec Ideal S5000x128 .f32) (ix2 p k)
      = (V c main_v55 : S100000x128.Idx → Elt Ideal .f32) (ix2 (rowOf2 t p) k) := by
  obtain ⟨e0, e1, e2, e3, -⟩ := idx_facts2 t
  unfold iblk2
  rw [View.read_apply]
  show (V c main_v55 : S100000x128.Idx → Elt Ideal .f32) _ = _
  congr 1
  funext ax; apply Fin.ext
  match ax with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- Row-block window 1's block at point `t` is rows `5000 t … 5000 t + 4999` of its array. -/
theorem iblk2_1_ix (c : Dev nD) (t : Fin cfg2.N) (p : Fin 5000) (k : Fin 128) :
    (iblk2 V c 1 t : Vec Ideal S5000x128 .f32) (ix2 p k)
      = (V c main_v35 : S100000x128.Idx → Elt Ideal .f32) (ix2 (rowOf2 t p) k) := by
  obtain ⟨e0, e1, e2, e3, -⟩ := idx_facts2 t
  unfold iblk2
  rw [View.read_apply]
  show (V c main_v35 : S100000x128.Idx → Elt Ideal .f32) _ = _
  congr 1
  funext ax; apply Fin.ext
  match ax with
  | ⟨0, _⟩ => show win2_1.index t (0 : Fin 2) * 5000 + 1 * p.val = 5000 * t.val + p.val; rw [e2]; omega
  | ⟨1, _⟩ => show win2_1.index t (1 : Fin 2) * 128 + 1 * k.val = k.val; rw [e3]; omega

/-- Parameter window 2's block at every point is its whole array. -/
theorem iblk2_2_ix (c : Dev nD) (t : Fin cfg2.N) (a : Fin 128) (b : Fin 128) :
    (iblk2 V c 2 t : Vec Ideal S128x128 .f32) (ix2 a b)
      = (V c main_v36 : S128x128.Idx → Elt Ideal .f32) (ix2 a b) := by
  obtain ⟨-, -, -, -, e4, e5, e6, e7, e8, e9, -⟩ := idx_facts2 t
  unfold iblk2
  rw [View.read_apply]
  show (V c main_v36 : S128x128.Idx → Elt Ideal .f32) _ = _
  congr 1
  funext ax; apply Fin.ext
  match ax with
  | ⟨0, _⟩ => show win2_2.index t (0 : Fin 2) * 128 + 1 * a.val = a.val; rw [e4]; omega
  | ⟨1, _⟩ => show win2_2.index t (1 : Fin 2) * 128 + 1 * b.val = b.val; rw [e5]; omega

/-- Parameter window 3's block at every point is its whole array. -/
theorem iblk2_3_ix (c : Dev nD) (t : Fin cfg2.N) (a : Fin 1) (b : Fin 128) :
    (iblk2 V c 3 t : Vec Ideal S1x128 .f32) (ix2 a b)
      = (V c main_v37 : S1x128.Idx → Elt Ideal .f32) (ix2 a b) := by
  obtain ⟨-, -, -, -, e4, e5, e6, e7, e8, e9, -⟩ := idx_facts2 t
  unfold iblk2
  rw [View.read_apply]
  show (V c main_v37 : S1x128.Idx → Elt Ideal .f32) _ = _
  congr 1
  funext ax; apply Fin.ext
  match ax with
  | ⟨0, _⟩ => show win2_3.index t (0 : Fin 2) * 1 + 1 * a.val = a.val; rw [e6]; omega
  | ⟨1, _⟩ => show win2_3.index t (1 : Fin 2) * 128 + 1 * b.val = b.val; rw [e7]; omega

/-- Parameter window 4's block at every point is its whole array. -/
theorem iblk2_4_ix (c : Dev nD) (t : Fin cfg2.N) (a : Fin 128) (b : Fin 128) :
    (iblk2 V c 4 t : Vec Ideal S128x128 .f32) (ix2 a b)
      = (V c main_v38 : S128x128.Idx → Elt Ideal .f32) (ix2 a b) := by
  obtain ⟨-, -, -, -, e4, e5, e6, e7, e8, e9, -⟩ := idx_facts2 t
  unfold iblk2
  rw [View.read_apply]
  show (V c main_v38 : S128x128.Idx → Elt Ideal .f32) _ = _
  congr 1
  funext ax; apply Fin.ext
  match ax with
  | ⟨0, _⟩ => show win2_4.index t (0 : Fin 2) * 128 + 1 * a.val = a.val; rw [e8]; omega
  | ⟨1, _⟩ => show win2_4.index t (1 : Fin 2) * 128 + 1 * b.val = b.val; rw [e9]; omega

/-! ## The combine of a point's blocks is that point's block of `lin2` -/

theorem lin2_block (c : Dev nD) (t : Fin cfg2.N) (p : Fin 5000) (j : Fin 128) :
    k2_pay4 (iblk2 V c 0 t) (iblk2 V c 1 t) (iblk2 V c 2 t) (iblk2 V c 4 t) (iblk2 V c 3 t) (ix2 p j)
      = lin2 (V c main_v55) (V c main_v35) (V c main_v36) (V c main_v37) (V c main_v38) (ix2 (rowOf2 t p) j) := by
  rw [k2_pay4_apply, lin2_apply]
  simp only [iblk2_0_ix, iblk2_1_ix, iblk2_2_ix, iblk2_3_ix, iblk2_4_ix]

end Cert.KernelIdeal.Hand

end
-- ==== Proof.KI.Stats2Arr.lean ====
/- Pipeline 2, from what each grid point leaves to the arrays after the region. Point `t` writes back rows
   `5000 t … 5000 t + 4999` of the combine, so the combine's array ends as the combine of the five input arrays at every
   row (row `r` is written by point `r / 5000`); the two one-row arrays are written back by the last point only, whose
   block is the whole row, so they end as what that point leaves; an input array is never written back. The link
   from a point's staging buffers to the payloads is taken as a hypothesis here. -/
import proofs.«121727_j57028575756303_1_alg».proof.Proof.KI.Stats2
import proofs.«121727_j57028575756303_1_alg».proof.Proof.KI.Stats2Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Output window 5: the combine, block by block -/

/-- What point `t` writes back to the combine's array is block `t` of the combine of the arrays as the region finds
    them, once the point's staging buffer is known to hold the payload of its input blocks. -/
theorem flushed2_5_of (c : Dev nD)
    (H5 : ∀ t : Fin cfg2.N, (traj2 V c t.val t.isLt).o5
      = k2_pay4 (iblk2 V c 0 t) (iblk2 V c 1 t) (iblk2 V c 2 t) (iblk2 V c 4 t) (iblk2 V c 3 t)) (t : Fin cfg2.N) :
    (dat2 V c).flushed 5 t = ((cfg2.win 5).blk t).view.read (Elt Ideal)
      (lin2 (V c main_v55) (V c main_v35) (V c main_v36) (V c main_v37) (V c main_v38)) := by
  show (cfg2.win 5).cut (grid2.coords t) ((dat2 V c).after 5 t) = _
  rw [after2_5, H5 t]
  obtain ⟨-, -, -, -, -, -, -, -, -, -, e10, e11, -⟩ := idx_facts2 t
  refine funext fun (y : S5000x128.Idx) => ?_
  obtain ⟨p, j, rfl⟩ : ∃ (p : Fin 5000) (j : Fin 128), y = ix2 p j := ⟨y 0, y 1, eq_ix2 y⟩
  show k2_pay4 (iblk2 V c 0 t) (iblk2 V c 1 t) (iblk2 V c 2 t) (iblk2 V c 4 t) (iblk2 V c 3 t) (ix2 p j)
    = lin2 (V c main_v55) (V c main_v35) (V c main_v36) (V c main_v37) (V c main_v38)
        (((cfg2.win 5).blk t).view.emb (ix2 p j))
  rw [lin2_block]
  refine congrArg (lin2 (V c main_v55) (V c main_v35) (V c main_v36) (V c main_v37) (V c main_v38)) (funext fun a => Fin.ext ?_)
  match a with
  | ⟨0, _⟩ => show 5000 * t.val + p.val = win2_5.index t (0 : Fin 2) * 5000 + 1 * p.val; rw [e10]; omega
  | ⟨1, _⟩ => show j.val = win2_5.index t (1 : Fin 2) * 128 + 1 * j.val; rw [e11]; omega

/-- An index of the combine's array is in point `t`'s block iff each coordinate is in the block's range on its axis. -/
theorem mem_blk2_5 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v56_0).slice (win2_5.rect t)).set ↔ _
  rw [View.set_slice_whole, Rect.mem_set_unit]
  exact Iff.rfl

/-- Row `r` of the combine's array is in the block of point `r / 5000`, which writes back. -/
theorem covered2_5 (i : S100000x128.Idx) :
    ∃ t : Fin cfg2.N, (cfg2.win 5).flush t = true ∧ i ∈ ((cfg2.win 5).blk t).view.set := by
  have hi0 : (i 0).val < 100000 := idx2_lt0 i
  have hi1 : (i 1).val < 128 := idx2_lt1 i
  have hN : cfg2.N = 20 := N_2
  obtain ⟨t, ht⟩ : ∃ t : Fin cfg2.N, t.val = (i 0).val / 5000 := ⟨⟨(i 0).val / 5000, by omega⟩, rfl⟩
  obtain ⟨-, -, -, -, -, -, -, -, -, -, e10, e11, -⟩ := idx_facts2 t
  refine ⟨t, flush2_5 t, ?_⟩
  rw [mem_blk2_5]
  intro a
  match a with
  | ⟨0, _⟩ =>
    show win2_5.index t (0 : Fin 2) * 5000 ≤ (i 0).val ∧ (i 0).val < win2_5.index t (0 : Fin 2) * 5000 + 5000
    rw [e10]; omega
  | ⟨1, _⟩ =>
    show win2_5.index t (1 : Fin 2) * 128 ≤ (i 1).val ∧ (i 1).val < win2_5.index t (1 : Fin 2) * 128 + 128
    rw [e11]; omega

/-- The combine's array after the region: the combine of the five input arrays as the region finds them. -/
theorem arrAt2_5_of (c : Dev nD)
    (H5 : ∀ t : Fin cfg2.N, (traj2 V c t.val t.isLt).o5
      = k2_pay4 (iblk2 V c 0 t) (iblk2 V c 1 t) (iblk2 V c 2 t) (iblk2 V c 4 t) (iblk2 V c 3 t)) :
    (dat2 V c).arrAt 5 cfg2.N = lin2 (V c main_v55) (V c main_v35) (V c main_v36) (V c main_v37) (V c main_v38) :=
  (dat2 V c).arrAt_eq_of_cover 5 _ (fun t _ => flushed2_5_of V c H5 t) covered2_5

/-! ## Output window 6: one row, written back by the last point only -/

/-- An index of window 6's array is in point `t`'s block iff each coordinate is in the block's range on its axis. -/
theorem mem_blk2_6 (t : Fin cfg2.N) (i : S1x128.Idx) :
    i ∈ ((cfg2.win 6).blk t).view.set ↔ ∀ a : Fin 2, win2_6.index t a * S1x128.size a ≤ (i a).val
      ∧ (i a).val < win2_6.index t a * S1x128.size a + S1x128.size a := by
  show i ∈ ((View.whole main_v56_1).slice (win2_6.rect t)).set ↔ _
  rw [View.set_slice_whole, Rect.mem_set_unit]
  exact Iff.rfl

/-- Window 6's array after the region is what the last point leaves in its staging buffer: that point's block is the
    whole one-row array, and no other point writes back. -/
theorem arrAt2_6_of (c : Dev nD) (G : S1x128.Idx → Ideal .f32)
    (H6 : ∀ t : Fin cfg2.N, t.val = 19 → (traj2 V c t.val t.isLt).o6 = G) : (dat2 V c).arrAt 6 cfg2.N = G := by
  have hN : cfg2.N = 20 := N_2
  refine (dat2 V c).arrAt_eq_of_cover 6 G (fun t hf => ?_) (fun i => ?_)
  · have h19 : t.val = 19 := by have h1 := (flush2_6 t).mp hf; have h2 := t.isLt; omega
    obtain ⟨-, -, -, -, -, -, -, -, -, -, -, -, e12, e13, e14, e15⟩ := idx_facts2 t
    show (cfg2.win 6).cut (grid2.coords t) ((dat2 V c).after 6 t) = _
    rw [after2_6, H6 t h19]
    refine funext fun (y : S1x128.Idx) => ?_
    obtain ⟨u, j, rfl⟩ : ∃ (u : Fin 1) (j : Fin 128), y = ix2 u j := ⟨y 0, y 1, eq_ix2 y⟩
    show G (ix2 u j) = G (((cfg2.win 6).blk t).view.emb (ix2 u j))
    refine congrArg G (funext fun a => Fin.ext ?_)
    match a with
    | ⟨0, _⟩ => show u.val = win2_6.index t (0 : Fin 2) * 1 + 1 * u.val; rw [e12]; omega
    | ⟨1, _⟩ => show j.val = win2_6.index t (1 : Fin 2) * 128 + 1 * j.val; rw [e13]; omega
  · have hi0 : (i 0).val < 1 := idx2_lt0 i
    have hi1 : (i 1).val < 128 := idx2_lt1 i
    obtain ⟨t, ht⟩ : ∃ t : Fin cfg2.N, t.val = 19 := ⟨⟨19, by omega⟩, rfl⟩
    obtain ⟨-, -, -, -, -, -, -, -, -, -, -, -, e12, e13, e14, e15⟩ := idx_facts2 t
    refine ⟨t, (flush2_6 t).mpr (by rw [ht]), ?_⟩
    rw [mem_blk2_6]
    intro a
    match a with
    | ⟨0, _⟩ =>
      show win2_6.index t (0 : Fin 2) * 1 ≤ (i 0).val ∧ (i 0).val < win2_6.index t (0 : Fin 2) * 1 + 1
      rw [e12]; omega
    | ⟨1, _⟩ =>
      show win2_6.index t (1 : Fin 2) * 128 ≤ (i 1).val ∧ (i 1).val < win2_6.index t (1 : Fin 2) * 128 + 128
      rw [e13]; omega

/-! ## Output window 7: one row, written back by the last point only -/

/-- An index of window 7's array is in point `t`'s block iff each coordinate is in the block's range on its axis. -/
theorem mem_blk2_7 (t : Fin cfg2.N) (i : S1x128.Idx) :
    i ∈ ((cfg2.win 7).blk t).view.set ↔ ∀ a : Fin 2, win2_7.index t a * S1x128.size a ≤ (i a).val
      ∧ (i a).val < win2_7.index t a * S1x128.size a + S1x128.size a := by
  show i ∈ ((View.whole main_v56_2).slice (win2_7.rect t)).set ↔ _
  rw [View.set_slice_whole, Rect.mem_set_unit]
  exact Iff.rfl

/-- Window 7's array after the region is what the last point leaves in its staging buffer: that point's block is the
    whole one-row array, and no other point writes back. -/
theorem arrAt2_7_of (c : Dev nD) (G : S1x128.Idx → Ideal .f32)
    (H7 : ∀ t : Fin cfg2.N, t.val = 19 → (traj2 V c t.val t.isLt).o7 = G) : (dat2 V c).arrAt 7 cfg2.N = G := by
  have hN : cfg2.N = 20 := N_2
  refine (dat2 V c).arrAt_eq_of_cover 7 G (fun t hf => ?_) (fun i => ?_)
  · have h19 : t.val = 19 := by have h1 := (flush2_7 t).mp hf; have h2 := t.isLt; omega
    obtain ⟨-, -, -, -, -, -, -, -, -, -, -, -, e12, e13, e14, e15⟩ := idx_facts2 t
    show (cfg2.win 7).cut (grid2.coords t) ((dat2 V c).after 7 t) = _
    rw [after2_7, H7 t h19]
    refine funext fun (y : S1x128.Idx) => ?_
    obtain ⟨u, j, rfl⟩ : ∃ (u : Fin 1) (j : Fin 128), y = ix2 u j := ⟨y 0, y 1, eq_ix2 y⟩
    show G (ix2 u j) = G (((cfg2.win 7).blk t).view.emb (ix2 u j))
    refine congrArg G (funext fun a => Fin.ext ?_)
    match a with
    | ⟨0, _⟩ => show u.val = win2_7.index t (0 : Fin 2) * 1 + 1 * u.val; rw [e14]; omega
    | ⟨1, _⟩ => show j.val = win2_7.index t (1 : Fin 2) * 128 + 1 * j.val; rw [e15]; omega
  · have hi0 : (i 0).val < 1 := idx2_lt0 i
    have hi1 : (i 1).val < 128 := idx2_lt1 i
    obtain ⟨t, ht⟩ : ∃ t : Fin cfg2.N, t.val = 19 := ⟨⟨19, by omega⟩, rfl⟩
    obtain ⟨-, -, -, -, -, -, -, -, -, -, -, -, e12, e13, e14, e15⟩ := idx_facts2 t
    refine ⟨t, (flush2_7 t).mpr (by rw [ht]), ?_⟩
    rw [mem_blk2_7]
    intro a
    match a with
    | ⟨0, _⟩ =>
      show win2_7.index t (0 : Fin 2) * 1 ≤ (i 0).val ∧ (i 0).val < win2_7.index t (0 : Fin 2) * 1 + 1
      rw [e14]; omega
    | ⟨1, _⟩ =>
      show win2_7.index t (1 : Fin 2) * 128 ≤ (i 1).val ∧ (i 1).val < win2_7.index t (1 : Fin 2) * 128 + 128
      rw [e15]; omega

/-! ## The input arrays -/

/-- Each input array after the region is as the region found it: an input window is never written back. -/
theorem arrAt2_in (c : Dev nD) (w : Fin cfg2.W) (hw : w.val < 5) :
    (dat2 V c).arrAt w cfg2.N = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd h (Nat.lt_irrefl 5)
    | ⟨6, _⟩, h => exact absurd (show 6 < 5 from h) (by decide)
    | ⟨7, _⟩, h => exact absurd (show 7 < 5 from h) (by decide)
  exact ((dat2 V c).arrAt_in w hin _).trans (A_eq2 V c w)

end Cert.KernelIdeal.Hand

end
-- ==== Proof.KI.Stats2Acc.lean ====
/-
  Pipeline 2's two accumulator rows after the grid's last point, in closed form.

  The rows are carried from point to point: the first point sets them to zero and adds the column sums of its block
  of the combine (resp. of its squares), every further point adds those of its own block. The twenty blocks of 5000 rows
  are the 100000 rows, so after the last point the first row holds the column sums of the combine over all rows and the
  second the column sums of its squares: an accumulator started at zero that adds one block sum per step ends at the
  whole sum.
-/
import proofs.«121727_j57028575756303_1_alg».proof.Proof.KI.Stats2Blocks
import proofs.«121727_j57028575756303_1_alg».proof.Proof.LibRows100000

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Row p of the block of the point at position k is row p of block k among the 100000 rows. -/
theorem rowOf2_eq_row (k : ℕ) (hk : k < cfg2.N) (hk' : k < 20) (p : Fin 5000) :
    rowOf2 ⟨k, hk⟩ p = Cert.Rows100000.row ⟨k, hk'⟩ p := Fin.ext rfl

/-- THE FIRST ACCUMULATOR ROW AFTER THE LAST POINT: if the first point leaves zero plus the column sums of its block of
    the combine, and every further point adds the column sums of its block, then after the point at position 19 the row
    holds the column sums of the combine over all the 100000 rows. -/
theorem a0_last2_of (c : Dev nD)
    (H0 : ∀ h : 0 < cfg2.N, (traj2 V c 0 h).a0
      = k2_pay5 (iblk2 V c 0 ⟨0, h⟩) (iblk2 V c 1 ⟨0, h⟩) (iblk2 V c 2 ⟨0, h⟩) (iblk2 V c 4 ⟨0, h⟩) (iblk2 V c 3 ⟨0, h⟩) (k2_pay2 (F := Ideal)))
    (HS : ∀ (n : ℕ) (h : n + 1 < cfg2.N), (traj2 V c (n + 1) h).a0
      = k2_pay5 (iblk2 V c 0 ⟨n + 1, h⟩) (iblk2 V c 1 ⟨n + 1, h⟩) (iblk2 V c 2 ⟨n + 1, h⟩) (iblk2 V c 4 ⟨n + 1, h⟩)
          (iblk2 V c 3 ⟨n + 1, h⟩) (traj2 V c n (Nat.lt_of_succ_lt h)).a0)
    (t : Fin cfg2.N) (q : t.val = 19) :
    (traj2 V c t.val t.isLt).a0 = colSum2 (lin2 (V c main_v55) (V c main_v35) (V c main_v36) (V c main_v37) (V c main_v38)) := by
  have hN : cfg2.N = 20 := N_2
  funext i
  obtain ⟨u, j, rfl⟩ : ∃ (u : Fin 1) (j : Fin 128), i = ix2 u j := ⟨i 0, i 1, eq_ix2 i⟩
  rw [colSum2_apply]
  have h0N : 0 < cfg2.N := by omega
  have h0 : (traj2 V c 0 h0N).a0 (ix2 u j)
      = 0 + ∑ p : Fin 5000, lin2 (V c main_v55) (V c main_v35) (V c main_v36) (V c main_v37) (V c main_v38)
          (ix2 (Cert.Rows100000.row 0 p) j) := by
    refine (congrFun (H0 h0N) (ix2 u j)).trans ?_
    refine (k2_pay5_apply (iblk2 V c 0 ⟨0, h0N⟩) (iblk2 V c 1 ⟨0, h0N⟩) (iblk2 V c 2 ⟨0, h0N⟩) (iblk2 V c 4 ⟨0, h0N⟩)
      (iblk2 V c 3 ⟨0, h0N⟩) (k2_pay2 (F := Ideal)) u j).trans ?_
    refine congrArg₂ (· + ·) (k2_pay2_apply (ix2 u j)) (Finset.sum_congr rfl fun p _ => ?_)
    exact (lin2_block V c ⟨0, h0N⟩ p j).trans
      (congrArg (fun r => lin2 (V c main_v55) (V c main_v35) (V c main_v36) (V c main_v37) (V c main_v38) (ix2 r j))
        (rowOf2_eq_row 0 h0N (by omega) p))
  have hs : ∀ (s : Fin 20) (hs' : s.val + 1 < 20),
      (traj2 V c (s.val + 1) (by omega)).a0 (ix2 u j)
        = (traj2 V c s.val (by have := s.isLt; omega)).a0 (ix2 u j)
          + ∑ p : Fin 5000, lin2 (V c main_v55) (V c main_v35) (V c main_v36) (V c main_v37) (V c main_v38)
              (ix2 (Cert.Rows100000.row ⟨s.val + 1, hs'⟩ p) j) := by
    intro s hs'
    have hlt : s.val + 1 < cfg2.N := by omega
    refine (congrFun (HS s.val hlt) (ix2 u j)).trans ?_
    refine (k2_pay5_apply (iblk2 V c 0 ⟨s.val + 1, hlt⟩) (iblk2 V c 1 ⟨s.val + 1, hlt⟩) (iblk2 V c 2 ⟨s.val + 1, hlt⟩)
      (iblk2 V c 4 ⟨s.val + 1, hlt⟩) (iblk2 V c 3 ⟨s.val + 1, hlt⟩) (traj2 V c s.val (Nat.lt_of_succ_lt hlt)).a0 u j).trans ?_
    refine congrArg₂ (· + ·) rfl (Finset.sum_congr rfl fun p _ => ?_)
    exact (lin2_block V c ⟨s.val + 1, hlt⟩ p j).trans
      (congrArg (fun r => lin2 (V c main_v55) (V c main_v35) (V c main_v36) (V c main_v37) (V c main_v38) (ix2 r j))
        (rowOf2_eq_row (s.val + 1) hlt hs' p))
  have key := Cert.Rows100000.after_last_eq_sum_rows (M := EReal)
    (fun n => lin2 (V c main_v55) (V c main_v35) (V c main_v36) (V c main_v37) (V c main_v38) (ix2 n j))
    (fun s : Fin 20 => (traj2 V c s.val (by have := s.isLt; omega)).a0 (ix2 u j)) h0 hs
  have fin : ∀ (k : ℕ) (hk : k < cfg2.N), k = 19 → (traj2 V c k hk).a0 (ix2 u j)
      = ∑ n : Fin 100000, lin2 (V c main_v55) (V c main_v35) (V c main_v36) (V c main_v37) (V c main_v38) (ix2 n j) := by
    intro k hk e
    subst e
    exact key
  exact fin t.val t.isLt q

/-- THE SECOND ACCUMULATOR ROW AFTER THE LAST POINT: likewise with the column sums of the squares. -/
theorem a1_last2_of (c : Dev nD)
    (H0 : ∀ h : 0 < cfg2.N, (traj2 V c 0 h).a1
      = k2_pay1 (k2_pay3 (F := Ideal))
          (k2_pay6 (iblk2 V c 0 ⟨0, h⟩) (iblk2 V c 1 ⟨0, h⟩) (iblk2 V c 2 ⟨0, h⟩) (iblk2 V c 4 ⟨0, h⟩) (iblk2 V c 3 ⟨0, h⟩)))
    (HS : ∀ (n : ℕ) (h : n + 1 < cfg2.N), (traj2 V c (n + 1) h).a1
      = k2_pay1 (traj2 V c n (Nat.lt_of_succ_lt h)).a1
          (k2_pay6 (iblk2 V c 0 ⟨n + 1, h⟩) (iblk2 V c 1 ⟨n + 1, h⟩) (iblk2 V c 2 ⟨n + 1, h⟩) (iblk2 V c 4 ⟨n + 1, h⟩)
            (iblk2 V c 3 ⟨n + 1, h⟩)))
    (t : Fin cfg2.N) (q : t.val = 19) :
    (traj2 V c t.val t.isLt).a1 = colSumSq2 (lin2 (V c main_v55) (V c main_v35) (V c main_v36) (V c main_v37) (V c main_v38)) := by
  have hN : cfg2.N = 20 := N_2
  funext i
  obtain ⟨u, j, rfl⟩ : ∃ (u : Fin 1) (j : Fin 128), i = ix2 u j := ⟨i 0, i 1, eq_ix2 i⟩
  rw [colSumSq2_apply]
  have h0N : 0 < cfg2.N := by omega
  have sq : ∀ (k : ℕ) (hk : k < cfg2.N) (hk' : k < 20) (p : Fin 5000),
      k2_pay4 (iblk2 V c 0 ⟨k, hk⟩) (iblk2 V c 1 ⟨k, hk⟩) (iblk2 V c 2 ⟨k, hk⟩) (iblk2 V c 4 ⟨k, hk⟩) (iblk2 V c 3 ⟨k, hk⟩) (ix2 p j)
        * k2_pay4 (iblk2 V c 0 ⟨k, hk⟩) (iblk2 V c 1 ⟨k, hk⟩) (iblk2 V c 2 ⟨k, hk⟩) (iblk2 V c 4 ⟨k, hk⟩) (iblk2 V c 3 ⟨k, hk⟩) (ix2 p j)
      = lin2 (V c main_v55) (V c main_v35) (V c main_v36) (V c main_v37) (V c main_v38) (ix2 (Cert.Rows100000.row ⟨k, hk'⟩ p) j)
        * lin2 (V c main_v55) (V c main_v35) (V c main_v36) (V c main_v37) (V c main_v38) (ix2 (Cert.Rows100000.row ⟨k, hk'⟩ p) j) := by
    intro k hk hk' p
    have e := (lin2_block V c ⟨k, hk⟩ p j).trans
      (congrArg (fun r => lin2 (V c main_v55) (V c main_v35) (V c main_v36) (V c main_v37) (V c main_v38) (ix2 r j))
        (rowOf2_eq_row k hk hk' p))
    exact congrArg₂ (· * ·) e e
  have h0 : (traj2 V c 0 h0N).a1 (ix2 u j)
      = 0 + ∑ p : Fin 5000, lin2 (V c main_v55) (V c main_v35) (V c main_v36) (V c main_v37) (V c main_v38)
            (ix2 (Cert.Rows100000.row 0 p) j)
          * lin2 (V c main_v55) (V c main_v35) (V c main_v36) (V c main_v37) (V c main_v38) (ix2 (Cert.Rows100000.row 0 p) j) := by
    refine (congrFun (H0 h0N) (ix2 u j)).trans ?_
    refine (k2_pay1_apply (k2_pay3 (F := Ideal))
      (k2_pay6 (iblk2 V c 0 ⟨0, h0N⟩) (iblk2 V c 1 ⟨0, h0N⟩) (iblk2 V c 2 ⟨0, h0N⟩) (iblk2 V c 4 ⟨0, h0N⟩) (iblk2 V c 3 ⟨0, h0N⟩)) u j).trans ?_
    refine congrArg₂ (· + ·) (k2_pay3_apply (ix2 u j)) ?_
    refine (k2_pay6_apply (iblk2 V c 0 ⟨0, h0N⟩) (iblk2 V c 1 ⟨0, h0N⟩) (iblk2 V c 2 ⟨0, h0N⟩) (iblk2 V c 4 ⟨0, h0N⟩)
      (iblk2 V c 3 ⟨0, h0N⟩) j).trans ?_
    exact Finset.sum_congr rfl fun p _ => sq 0 h0N (by omega) p
  have hs : ∀ (s : Fin 20) (hs' : s.val + 1 < 20),
      (traj2 V c (s.val + 1) (by omega)).a1 (ix2 u j)
        = (traj2 V c s.val (by have := s.isLt; omega)).a1 (ix2 u j)
          + ∑ p : Fin 5000, lin2 (V c main_v55) (V c main_v35) (V c main_v36) (V c main_v37) (V c main_v38)
                (ix2 (Cert.Rows100000.row ⟨s.val + 1, hs'⟩ p) j)
              * lin2 (V c main_v55) (V c main_v35) (V c main_v36) (V c main_v37) (V c main_v38)
                (ix2 (Cert.Rows100000.row ⟨s.val + 1, hs'⟩ p) j) := by
    intro s hs'
    have hlt : s.val + 1 < cfg2.N := by omega
    refine (congrFun (HS s.val hlt) (ix2 u j)).trans ?_
    refine (k2_pay1_apply (traj2 V c s.val (Nat.lt_of_succ_lt hlt)).a1
      (k2_pay6 (iblk2 V c 0 ⟨s.val + 1, hlt⟩) (iblk2 V c 1 ⟨s.val + 1, hlt⟩) (iblk2 V c 2 ⟨s.val + 1, hlt⟩)
        (iblk2 V c 4 ⟨s.val + 1, hlt⟩) (iblk2 V c 3 ⟨s.val + 1, hlt⟩)) u j).trans ?_
    refine congrArg₂ (· + ·) rfl ?_
    refine (k2_pay6_apply (iblk2 V c 0 ⟨s.val + 1, hlt⟩) (iblk2 V c 1 ⟨s.val + 1, hlt⟩) (iblk2 V c 2 ⟨s.val + 1, hlt⟩)
      (iblk2 V c 4 ⟨s.val + 1, hlt⟩) (iblk2 V c 3 ⟨s.val + 1, hlt⟩) j).trans ?_
    exact Finset.sum_congr rfl fun p _ => sq (s.val + 1) hlt hs' p
  have key := Cert.Rows100000.after_last_eq_sum_rows (M := EReal)
    (fun n => lin2 (V c main_v55) (V c main_v35) (V c main_v36) (V c main_v37) (V c main_v38) (ix2 n j)
      * lin2 (V c main_v55) (V c main_v35) (V c main_v36) (V c main_v37) (V c main_v38) (ix2 n j))
    (fun s : Fin 20 => (traj2 V c s.val (by have := s.isLt; omega)).a1 (ix2 u j)) h0 hs
  have fin : ∀ (k : ℕ) (hk : k < cfg2.N), k = 19 → (traj2 V c k hk).a1 (ix2 u j)
      = ∑ n : Fin 100000, lin2 (V c main_v55) (V c main_v35) (V c main_v36) (V c main_v37) (V c main_v38) (ix2 n j)
          * lin2 (V c main_v55) (V c main_v35) (V c main_v36) (V c main_v37) (V c main_v38) (ix2 n j) := by
    intro k hk e
    subst e
    exact key
  exact fin t.val t.isLt q

end Cert.KernelIdeal.Hand

end
-- ==== Proof.KI.Stats2Value.lean ====
/- Pipeline 2's arrays after the region, at the ideal float model: the row-block output holds the combine `lin2` of the
   five input arrays at every row; the two one-row outputs hold its column sums and its column sums of squares over all
   the 100000 rows; the input arrays are unchanged. Assembled from the point-by-point values of the trajectory
   (each point's block of the combine; the accumulator rows' recursion; the copy-out at the last point), the closed
   form of the accumulator rows, and the blocks-to-array steps. -/
import proofs.«121727_j57028575756303_1_alg».proof.Proof.KI.Stats2Steps
import proofs.«121727_j57028575756303_1_alg».proof.Proof.KI.Stats2Arr
import proofs.«121727_j57028575756303_1_alg».proof.Proof.KI.Stats2Acc

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The row-block output array after the region is the combine of the input arrays. -/
theorem arrAt2_5 (c : Dev nD) :
    (dat2 V c).arrAt 5 cfg2.N = lin2 (V c main_v55) (V c main_v35) (V c main_v36) (V c main_v37) (V c main_v38) :=
  arrAt2_5_of V c (traj2_o5 V c)

/-- The first one-row output after the region: the combine's column sums over all rows. -/
theorem arrAt2_6 (c : Dev nD) :
    (dat2 V c).arrAt 6 cfg2.N = colSum2 (lin2 (V c main_v55) (V c main_v35) (V c main_v36) (V c main_v37) (V c main_v38)) :=
  arrAt2_6_of V c _ fun t q =>
    (traj2_o6_last V c t q).trans (a0_last2_of V c (traj2_a0_zero V c) (traj2_a0_succ V c) t q)

/-- The second one-row output after the region: the combine's column sums of squares over all rows. -/
theorem arrAt2_7 (c : Dev nD) :
    (dat2 V c).arrAt 7 cfg2.N = colSumSq2 (lin2 (V c main_v55) (V c main_v35) (V c main_v36) (V c main_v37) (V c main_v38)) :=
  arrAt2_7_of V c _ fun t q =>
    (traj2_o7_last V c t q).trans (a1_last2_of V c (traj2_a1_zero V c) (traj2_a1_succ V c) t q)

end Cert.KernelIdeal.Hand

end
-- ==== Proof.KI.Stats4Pieces.lean ====
/- Pipeline 4, the stores each kind of grid point leaves, read back as values: the row-block output holds the combine of
   the point's blocks (`k4_pay4`); the first accumulator row holds the row it held before (the zero row `k4_pay2` at
   the first point) plus the block's column sums (`k4_pay5`); the second likewise with the column sums of squares
   (`k4_pay1` of the row before, or of the zero row `k4_pay3`, and `k4_pay6`); at the last point the two one-row outputs
   hold copies of the two accumulator rows. Each at any float model. -/
import proofs.«121727_j57028575756303_1_alg».proof.Proof.KI.Stats4Traj
import proofs.«121727_j57028575756303_1_alg».proof.Proof.KI.Stats4Cover
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-- The zero offsets, however spelt. -/
theorem hz4 : (![0, 0] : Fin 2 → Nat) = fun _ => 0 := funext fun a => by fin_cases a <;> rfl

/-! ## The first point: the accumulator rows start from the zero rows -/

theorem pc4_o5_A (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond4_0 i) (hc1 : ¬cond4_1 i) (x0 x1 : Vec F S5000x128 .f32) (x2 : Vec F S128x64 .f32) (x3 : Vec F S1x64 .f32) (x4 : Vec F S128x64 .f32) :
    rdB4 (kernelRun4_A c i arg1 harg1 arg2 harg2 arg3 harg3 arg4 harg4 arg5 harg5 arg6 harg6 arg7 harg7 arg8 harg8 arg9 harg9 arg10 harg10 hc0 hc1 x0 x1 x2 x3 x4).1 = k4_pay4 x0 x1 x2 x4 x3 := by
  unfold rdB4
  rw [View.read_writes_eq_canon _ _ _ (cover4_A_5 c i arg1 harg1 arg2 harg2 arg3 harg3 arg4 harg4 arg5 harg5 arg6 harg6 arg7 harg7 arg8 harg8 arg9 harg9 arg10 harg10 hc0 hc1 x0 x1 x2 x3 x4)]
  unfold kernelRun4_A
  dsimp only
  try sl_unfold_words
  rw [View.canon_unit_zero hz4]
  simp only [View.readAt_eq_ld, harg1.read_unread, harg2.read_unread, harg3.read_unread, harg4.read_unread, harg5.read_unread,
    harg9.read_unread, harg10.read_unread, View.ld_unit_zero (S := S5000x128) hz4, View.ld_unit_zero (S := S128x64) hz4,
    View.ld_unit_zero (S := S1x64) hz4]

theorem pc4_a0_A (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond4_0 i) (hc1 : ¬cond4_1 i) (x0 x1 : Vec F S5000x128 .f32) (x2 : Vec F S128x64 .f32) (x3 : Vec F S1x64 .f32) (x4 : Vec F S128x64 .f32) :
    rdR4 (kernelRun4_A c i arg1 harg1 arg2 harg2 arg3 harg3 arg4 harg4 arg5 harg5 arg6 harg6 arg7 harg7 arg8 harg8 arg9 harg9 arg10 harg10 hc0 hc1 x0 x1 x2 x3 x4).2.1 = k4_pay5 x0 x1 x2 x4 x3 k4_pay2 := by
  unfold rdR4
  rw [View.read_writes_eq_canon _ _ _ (cover4_A_9 c i arg1 harg1 arg2 harg2 arg3 harg3 arg4 harg4 arg5 harg5 arg6 harg6 arg7 harg7 arg8 harg8 arg9 harg9 arg10 harg10 hc0 hc1 x0 x1 x2 x3 x4)]
  unfold kernelRun4_A
  dsimp only
  try sl_unfold_words
  rw [View.canon_cons_unit_zero (S := S1x64) hz4, View.readCov_unit_zero (S := S1x64) _ hz4]
  simp only [View.readAt_eq_ld, harg1.read_unread, harg2.read_unread, harg3.read_unread, harg4.read_unread, harg5.read_unread,
    harg9.read_unread, harg10.read_unread, View.ld_unit_zero (S := S5000x128) hz4, View.ld_unit_zero (S := S128x64) hz4,
    View.ld_unit_zero (S := S1x64) hz4]

theorem pc4_a1_A (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : cond4_0 i) (hc1 : ¬cond4_1 i) (x0 x1 : Vec F S5000x128 .f32) (x2 : Vec F S128x64 .f32) (x3 : Vec F S1x64 .f32) (x4 : Vec F S128x64 .f32) :
    rdR4 (kernelRun4_A c i arg1 harg1 arg2 harg2 arg3 harg3 arg4 harg4 arg5 harg5 arg6 harg6 arg7 harg7 arg8 harg8 arg9 harg9 arg10 harg10 hc0 hc1 x0 x1 x2 x3 x4).2.2.1 = k4_pay1 k4_pay3 (k4_pay6 x0 x1 x2 x4 x3) := by
  unfold rdR4
  rw [View.read_writes_eq_canon _ _ _ (cover4_A_10 c i arg1 harg1 arg2 harg2 arg3 harg3 arg4 harg4 arg5 harg5 arg6 harg6 arg7 harg7 arg8 harg8 arg9 harg9 arg10 harg10 hc0 hc1 x0 x1 x2 x3 x4)]
  unfold kernelRun4_A
  dsimp only
  try sl_unfold_words
  rw [View.canon_cons_unit_zero (S := S1x64) hz4, View.readCov_unit_zero (S := S1x64) _ hz4]
  simp only [View.readAt_eq_ld, harg1.read_unread, harg2.read_unread, harg3.read_unread, harg4.read_unread, harg5.read_unread,
    harg9.read_unread, harg10.read_unread, View.ld_unit_zero (S := S5000x128) hz4, View.ld_unit_zero (S := S128x64) hz4,
    View.ld_unit_zero (S := S1x64) hz4]

/-! ## A point between the first and the last -/

theorem pc4_o5_B (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : ¬cond4_1 i) (x0 x1 : Vec F S5000x128 .f32) (x2 : Vec F S128x64 .f32) (x3 : Vec F S1x64 .f32) (x4 : Vec F S128x64 .f32) (s0 s1 : Vec F S1x64 .f32) :
    rdB4 (kernelRun4_B c i arg1 harg1 arg2 harg2 arg3 harg3 arg4 harg4 arg5 harg5 arg6 harg6 arg7 harg7 arg8 harg8 arg9 harg9 arg10 harg10 hc0 hc1 x0 x1 x2 x3 x4 s0 s1).1 = k4_pay4 x0 x1 x2 x4 x3 := by
  unfold rdB4
  rw [View.read_writes_eq_canon _ _ _ (cover4_B_5 c i arg1 harg1 arg2 harg2 arg3 harg3 arg4 harg4 arg5 harg5 arg6 harg6 arg7 harg7 arg8 harg8 arg9 harg9 arg10 harg10 hc0 hc1 x0 x1 x2 x3 x4 s0 s1)]
  unfold kernelRun4_B
  dsimp only
  rw [View.canon_unit_zero hz4]
  simp only [View.readAt_eq_ld, harg1.read_unread, harg2.read_unread, harg3.read_unread, harg4.read_unread, harg5.read_unread,
    harg9.read_unread, harg10.read_unread, View.ld_unit_zero (S := S5000x128) hz4, View.ld_unit_zero (S := S128x64) hz4,
    View.ld_unit_zero (S := S1x64) hz4]

theorem pc4_a0_B (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : ¬cond4_1 i) (x0 x1 : Vec F S5000x128 .f32) (x2 : Vec F S128x64 .f32) (x3 : Vec F S1x64 .f32) (x4 : Vec F S128x64 .f32) (s0 s1 : Vec F S1x64 .f32) :
    rdR4 (kernelRun4_B c i arg1 harg1 arg2 harg2 arg3 harg3 arg4 harg4 arg5 harg5 arg6 harg6 arg7 harg7 arg8 harg8 arg9 harg9 arg10 harg10 hc0 hc1 x0 x1 x2 x3 x4 s0 s1).2.1 = k4_pay5 x0 x1 x2 x4 x3 s0 := by
  unfold rdR4
  rw [View.read_writes_eq_canon _ _ _ (cover4_B_9 c i arg1 harg1 arg2 harg2 arg3 harg3 arg4 harg4 arg5 harg5 arg6 harg6 arg7 harg7 arg8 harg8 arg9 harg9 arg10 harg10 hc0 hc1 x0 x1 x2 x3 x4 s0 s1)]
  unfold kernelRun4_B
  dsimp only
  rw [View.canon_unit_zero hz4]
  simp only [View.readAt_eq_ld, harg1.read_unread, harg2.read_unread, harg3.read_unread, harg4.read_unread, harg5.read_unread,
    harg9.read_unread, harg10.read_unread, View.ld_unit_zero (S := S5000x128) hz4, View.ld_unit_zero (S := S128x64) hz4,
    View.ld_unit_zero (S := S1x64) hz4]

theorem pc4_a1_B (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : ¬cond4_1 i) (x0 x1 : Vec F S5000x128 .f32) (x2 : Vec F S128x64 .f32) (x3 : Vec F S1x64 .f32) (x4 : Vec F S128x64 .f32) (s0 s1 : Vec F S1x64 .f32) :
    rdR4 (kernelRun4_B c i arg1 harg1 arg2 harg2 arg3 harg3 arg4 harg4 arg5 harg5 arg6 harg6 arg7 harg7 arg8 harg8 arg9 harg9 arg10 harg10 hc0 hc1 x0 x1 x2 x3 x4 s0 s1).2.2.1 = k4_pay1 s1 (k4_pay6 x0 x1 x2 x4 x3) := by
  unfold rdR4
  rw [View.read_writes_eq_canon _ _ _ (cover4_B_10 c i arg1 harg1 arg2 harg2 arg3 harg3 arg4 harg4 arg5 harg5 arg6 harg6 arg7 harg7 arg8 harg8 arg9 harg9 arg10 harg10 hc0 hc1 x0 x1 x2 x3 x4 s0 s1)]
  unfold kernelRun4_B
  dsimp only
  rw [View.canon_unit_zero hz4]
  simp only [View.readAt_eq_ld, harg1.read_unread, harg2.read_unread, harg3.read_unread, harg4.read_unread, harg5.read_unread,
    harg9.read_unread, harg10.read_unread, View.ld_unit_zero (S := S5000x128) hz4, View.ld_unit_zero (S := S128x64) hz4,
    View.ld_unit_zero (S := S1x64) hz4]

/-! ## The last point: the accumulator rows are also copied to the two one-row outputs -/

theorem pc4_o5_C (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) :
    rdB4 (kernelRun4_C c i arg1 harg1 arg2 harg2 arg3 harg3 arg4 harg4 arg5 harg5 arg6 harg6 arg7 harg7 arg8 harg8 arg9 harg9 arg10 harg10 hc0 hc1 x0 x1 x2 x3 x4 s0 s1).1 = k4_pay4 x0 x1 x2 x4 x3 := by
  unfold rdB4
  rw [View.read_writes_eq_canon _ _ _ (cover4_C_5 c i arg1 harg1 arg2 harg2 arg3 harg3 arg4 harg4 arg5 harg5 arg6 harg6 arg7 harg7 arg8 harg8 arg9 harg9 arg10 harg10 hc0 hc1 x0 x1 x2 x3 x4 s0 s1)]
  unfold kernelRun4_C
  dsimp only
  try sl_unfold_words
  rw [View.canon_unit_zero hz4]
  simp only [View.readAt_eq_ld, harg1.read_unread, harg2.read_unread, harg3.read_unread, harg4.read_unread, harg5.read_unread,
    harg9.read_unread, harg10.read_unread, View.ld_unit_zero (S := S5000x128) hz4, View.ld_unit_zero (S := S128x64) hz4,
    View.ld_unit_zero (S := S1x64) hz4]

theorem pc4_o6_C (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) :
    rdR4 (kernelRun4_C c i arg1 harg1 arg2 harg2 arg3 harg3 arg4 harg4 arg5 harg5 arg6 harg6 arg7 harg7 arg8 harg8 arg9 harg9 arg10 harg10 hc0 hc1 x0 x1 x2 x3 x4 s0 s1).2.1 = k4_pay5 x0 x1 x2 x4 x3 s0 := by
  unfold rdR4
  rw [View.read_writes_eq_canon _ _ _ (cover4_C_6 c i arg1 harg1 arg2 harg2 arg3 harg3 arg4 harg4 arg5 harg5 arg6 harg6 arg7 harg7 arg8 harg8 arg9 harg9 arg10 harg10 hc0 hc1 x0 x1 x2 x3 x4 s0 s1)]
  unfold kernelRun4_C
  dsimp only
  try sl_unfold_words
  rw [View.canon_unit_zero hz4, View.readCov_unit_zero (S := S1x64) _ hz4]
  dsimp only
  simp only [View.readAt_eq_ld, harg1.read_unread, harg2.read_unread, harg3.read_unread, harg4.read_unread, harg5.read_unread,
    harg9.read_unread, harg10.read_unread, View.ld_unit_zero (S := S5000x128) hz4, View.ld_unit_zero (S := S128x64) hz4,
    View.ld_unit_zero (S := S1x64) hz4]

theorem pc4_o7_C (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) :
    rdR4 (kernelRun4_C c i arg1 harg1 arg2 harg2 arg3 harg3 arg4 harg4 arg5 harg5 arg6 harg6 arg7 harg7 arg8 harg8 arg9 harg9 arg10 harg10 hc0 hc1 x0 x1 x2 x3 x4 s0 s1).2.2.1 = k4_pay1 s1 (k4_pay6 x0 x1 x2 x4 x3) := by
  unfold rdR4
  rw [View.read_writes_eq_canon _ _ _ (cover4_C_7 c i arg1 harg1 arg2 harg2 arg3 harg3 arg4 harg4 arg5 harg5 arg6 harg6 arg7 harg7 arg8 harg8 arg9 harg9 arg10 harg10 hc0 hc1 x0 x1 x2 x3 x4 s0 s1)]
  unfold kernelRun4_C
  dsimp only
  try sl_unfold_words
  rw [View.canon_unit_zero hz4, View.readCov_unit_zero (S := S1x64) _ hz4]
  dsimp only
  simp only [View.readAt_eq_ld, harg1.read_unread, harg2.read_unread, harg3.read_unread, harg4.read_unread, harg5.read_unread,
    harg9.read_unread, harg10.read_unread, View.ld_unit_zero (S := S5000x128) hz4, View.ld_unit_zero (S := S128x64) hz4,
    View.ld_unit_zero (S := S1x64) hz4]

theorem pc4_a0_C (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) :
    rdR4 (kernelRun4_C c i arg1 harg1 arg2 harg2 arg3 harg3 arg4 harg4 arg5 harg5 arg6 harg6 arg7 harg7 arg8 harg8 arg9 harg9 arg10 harg10 hc0 hc1 x0 x1 x2 x3 x4 s0 s1).2.2.2.1 = k4_pay5 x0 x1 x2 x4 x3 s0 := by
  unfold rdR4
  rw [View.read_writes_eq_canon _ _ _ (cover4_C_9 c i arg1 harg1 arg2 harg2 arg3 harg3 arg4 harg4 arg5 harg5 arg6 harg6 arg7 harg7 arg8 harg8 arg9 harg9 arg10 harg10 hc0 hc1 x0 x1 x2 x3 x4 s0 s1)]
  unfold kernelRun4_C
  dsimp only
  try sl_unfold_words
  rw [View.canon_unit_zero hz4]
  simp only [View.readAt_eq_ld, harg1.read_unread, harg2.read_unread, harg3.read_unread, harg4.read_unread, harg5.read_unread,
    harg9.read_unread, harg10.read_unread, View.ld_unit_zero (S := S5000x128) hz4, View.ld_unit_zero (S := S128x64) hz4,
    View.ld_unit_zero (S := S1x64) hz4]

theorem pc4_a1_C (c : Dev nD) (i : grid4.Coords) (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S128x64 .f32) (harg5 : arg5.IsWhole) (arg6 : Memref sig .tc .vmem S5000x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (hc0 : ¬cond4_0 i) (hc1 : cond4_1 i) (x0 x1 : Vec F S5000x128 .f32) (x2 : Vec F S128x64 .f32) (x3 : Vec F S1x64 .f32) (x4 : Vec F S128x64 .f32) (s0 s1 : Vec F S1x64 .f32) :
    rdR4 (kernelRun4_C c i arg1 harg1 arg2 harg2 arg3 harg3 arg4 harg4 arg5 harg5 arg6 harg6 arg7 harg7 arg8 harg8 arg9 harg9 arg10 harg10 hc0 hc1 x0 x1 x2 x3 x4 s0 s1).2.2.2.2.1 = k4_pay1 s1 (k4_pay6 x0 x1 x2 x4 x3) := by
  unfold rdR4
  rw [View.read_writes_eq_canon _ _ _ (cover4_C_10 c i arg1 harg1 arg2 harg2 arg3 harg3 arg4 harg4 arg5 harg5 arg6 harg6 arg7 harg7 arg8 harg8 arg9 harg9 arg10 harg10 hc0 hc1 x0 x1 x2 x3 x4 s0 s1)]
  unfold kernelRun4_C
  dsimp only
  try sl_unfold_words
  rw [View.canon_unit_zero hz4]
  simp only [View.readAt_eq_ld, harg1.read_unread, harg2.read_unread, harg3.read_unread, harg4.read_unread, harg5.read_unread,
    harg9.read_unread, harg10.read_unread, View.ld_unit_zero (S := S5000x128) hz4, View.ld_unit_zero (S := S128x64) hz4,
    View.ld_unit_zero (S := S1x64) hz4]

end Cert.KernelIdeal.Hand

end
-- ==== Proof.KI.Stats4Steps.lean ====
/- Pipeline 4, one grid point as values of the point's blocks (at any float model): the row-block output is the combine
   of the blocks; each accumulator row is the row before it (the zero row at the first point) plus the block's column
   sums, of the combine and of its squares; at the last point the one-row outputs are the accumulator rows. Then the
   trajectory's recursion: the rows after point `n + 1` from the rows after point `n`. -/
import proofs.«121727_j57028575756303_1_alg».proof.Proof.KI.Stats4Pieces

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (V : (c : Dev nD) → (b : Ref sig .tc) → Buf (Elt F) ((c : Thread nD τ).loc b))

/-- The row-block output after any point is the combine of its blocks. -/
theorem step4_o5 (c : Dev nD) (t : Fin cfg4.N) (prev : Vec F S1x64 .f32 × Vec F S1x64 .f32) :
    (step4 V c t prev).o5 = k4_pay4 (iblk4 V c 0 t) (iblk4 V c 1 t) (iblk4 V c 2 t) (iblk4 V c 4 t) (iblk4 V c 3 t) := by
  by_cases q0 : t.val = 0
  · rewrite [step4_A V c t prev q0]; dsimp only
    exact pc4_o5_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)
  · by_cases q1 : t.val = 19
    · rewrite [step4_C V c t prev q0 q1]; dsimp only
      exact pc4_o5_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2
    · rewrite [step4_B V c t prev q0 q1]; dsimp only
      exact pc4_o5_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2

/-- The first accumulator row after a point: the row before (the zero row at the first point) plus the column sums of
    the combine of its blocks. -/
theorem step4_a0 (c : Dev nD) (t : Fin cfg4.N) (prev : Vec F S1x64 .f32 × Vec F S1x64 .f32) :
    (step4 V c t prev).a0 = k4_pay5 (iblk4 V c 0 t) (iblk4 V c 1 t) (iblk4 V c 2 t) (iblk4 V c 4 t) (iblk4 V c 3 t) (if t.val = 0 then k4_pay2 else prev.1) := by
  by_cases q0 : t.val = 0
  · rewrite [if_pos q0]; rewrite [step4_A V c t prev q0]; dsimp only
    exact pc4_a0_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)
  · rewrite [if_neg q0]; by_cases q1 : t.val = 19
    · rewrite [step4_C V c t prev q0 q1]; dsimp only
      exact pc4_a0_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2
    · rewrite [step4_B V c t prev q0 q1]; dsimp only
      exact pc4_a0_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2

/-- The second accumulator row after a point: the row before (the zero row at the first point) plus the column sums of
    the squares of the combine of its blocks. -/
theorem step4_a1 (c : Dev nD) (t : Fin cfg4.N) (prev : Vec F S1x64 .f32 × Vec F S1x64 .f32) :
    (step4 V c t prev).a1 = k4_pay1 (if t.val = 0 then k4_pay3 else prev.2) (k4_pay6 (iblk4 V c 0 t) (iblk4 V c 1 t) (iblk4 V c 2 t) (iblk4 V c 4 t) (iblk4 V c 3 t)) := by
  by_cases q0 : t.val = 0
  · rewrite [if_pos q0]; rewrite [step4_A V c t prev q0]; dsimp only
    exact pc4_a1_A c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) ((hcond4_0 t).mpr q0) (fun h => absurd ((hcond4_1 t).mp h) (by omega)) (iblk4 V c 0 t) (iblk4 V c 1 t) (iblk4 V c 2 t) (iblk4 V c 3 t) (iblk4 V c 4 t)
  · rewrite [if_neg q0]; by_cases q1 : t.val = 19
    · rewrite [step4_C V c t prev q0 q1]; dsimp only
      exact pc4_a1_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2
    · rewrite [step4_B V c t prev q0 q1]; dsimp only
      exact pc4_a1_B c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) (fun h => q1 ((hcond4_1 t).mp h)) (iblk4 V c 0 t) (iblk4 V c 1 t) (iblk4 V c 2 t) (iblk4 V c 3 t) (iblk4 V c 4 t) prev.1 prev.2

/-- At the last point the first one-row output is the first accumulator row the point leaves. -/
theorem step4_o6 (c : Dev nD) (t : Fin cfg4.N) (prev : Vec F S1x64 .f32 × Vec F S1x64 .f32) (q1 : t.val = 19) :
    (step4 V c t prev).o6 = (step4 V c t prev).a0 := by
  have q0 : ¬t.val = 0 := by omega
  rewrite [step4_C V c t prev q0 q1]; dsimp only
  exact (pc4_o6_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).trans
    (pc4_a0_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).symm

/-- At the last point the second one-row output is the second accumulator row the point leaves. -/
theorem step4_o7 (c : Dev nD) (t : Fin cfg4.N) (prev : Vec F S1x64 .f32 × Vec F S1x64 .f32) (q1 : t.val = 19) :
    (step4 V c t prev).o7 = (step4 V c t prev).a1 := by
  have q0 : ¬t.val = 0 := by omega
  rewrite [step4_C V c t prev q0 q1]; dsimp only
  exact (pc4_o7_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).trans
    (pc4_a1_C c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (Memref.whole cc4_scratch0) (Memref.isWhole_whole _) (Memref.whole cc4_scratch1) (Memref.isWhole_whole _) (fun h => q0 ((hcond4_0 t).mp h)) ((hcond4_1 t).mpr q1) (iblk4 V c 0 t) (iblk4 V c 1 t) (iblk4 V c 2 t) (iblk4 V c 3 t) (iblk4 V c 4 t) prev.1 prev.2).symm

/-! ## The trajectory's recursion -/

theorem traj4_zero (c : Dev nD) (h : 0 < cfg4.N) : traj4 V c 0 h = step4 V c ⟨0, h⟩ (row4_any, row4_any) := rfl
theorem traj4_succ (c : Dev nD) (n : ℕ) (h : n + 1 < cfg4.N) :
    traj4 V c (n + 1) h = step4 V c ⟨n + 1, h⟩ ((traj4 V c n (Nat.lt_of_succ_lt h)).a0, (traj4 V c n (Nat.lt_of_succ_lt h)).a1) := rfl

/-- The row-block output after point `t` is the combine of that point's blocks. -/
theorem traj4_o5 (c : Dev nD) (t : Fin cfg4.N) :
    (traj4 V c t.val t.isLt).o5 = k4_pay4 (iblk4 V c 0 t) (iblk4 V c 1 t) (iblk4 V c 2 t) (iblk4 V c 4 t) (iblk4 V c 3 t) := by
  rewrite [traj4_eq]; exact step4_o5 V c t (prev4 V c t)

/-- The first accumulator row after the first point. -/
theorem traj4_a0_zero (c : Dev nD) (h : 0 < cfg4.N) :
    (traj4 V c 0 h).a0 = k4_pay5 (iblk4 V c 0 ⟨0, h⟩) (iblk4 V c 1 ⟨0, h⟩) (iblk4 V c 2 ⟨0, h⟩) (iblk4 V c 4 ⟨0, h⟩) (iblk4 V c 3 ⟨0, h⟩) k4_pay2 := by
  rewrite [traj4_zero, step4_a0, if_pos (show (⟨0, h⟩ : Fin cfg4.N).val = 0 from rfl)]; rfl
/-- The first accumulator row after a later point, from the row after the point before. -/
theorem traj4_a0_succ (c : Dev nD) (n : ℕ) (h : n + 1 < cfg4.N) :
    (traj4 V c (n + 1) h).a0 = k4_pay5 (iblk4 V c 0 ⟨n + 1, h⟩) (iblk4 V c 1 ⟨n + 1, h⟩) (iblk4 V c 2 ⟨n + 1, h⟩) (iblk4 V c 4 ⟨n + 1, h⟩) (iblk4 V c 3 ⟨n + 1, h⟩) (traj4 V c n (Nat.lt_of_succ_lt h)).a0 := by
  rewrite [traj4_succ, step4_a0, if_neg (show ¬(⟨n + 1, h⟩ : Fin cfg4.N).val = 0 from Nat.succ_ne_zero n)]; rfl
/-- The second accumulator row after the first point. -/
theorem traj4_a1_zero (c : Dev nD) (h : 0 < cfg4.N) :
    (traj4 V c 0 h).a1 = k4_pay1 k4_pay3 (k4_pay6 (iblk4 V c 0 ⟨0, h⟩) (iblk4 V c 1 ⟨0, h⟩) (iblk4 V c 2 ⟨0, h⟩) (iblk4 V c 4 ⟨0, h⟩) (iblk4 V c 3 ⟨0, h⟩)) := by
  rewrite [traj4_zero, step4_a1, if_pos (show (⟨0, h⟩ : Fin cfg4.N).val = 0 from rfl)]; rfl
/-- The second accumulator row after a later point, from the row after the point before. -/
theorem traj4_a1_succ (c : Dev nD) (n : ℕ) (h : n + 1 < cfg4.N) :
    (traj4 V c (n + 1) h).a1 = k4_pay1 (traj4 V c n (Nat.lt_of_succ_lt h)).a1 (k4_pay6 (iblk4 V c 0 ⟨n + 1, h⟩) (iblk4 V c 1 ⟨n + 1, h⟩) (iblk4 V c 2 ⟨n + 1, h⟩) (iblk4 V c 4 ⟨n + 1, h⟩) (iblk4 V c 3 ⟨n + 1, h⟩)) := by
  rewrite [traj4_succ, step4_a1, if_neg (show ¬(⟨n + 1, h⟩ : Fin cfg4.N).val = 0 from Nat.succ_ne_zero n)]; rfl
/-- After the last point the one-row outputs are the accumulator rows. -/
theorem traj4_o6_last (c : Dev nD) (t : Fin cfg4.N) (q1 : t.val = 19) :
    (traj4 V c t.val t.isLt).o6 = (traj4 V c t.val t.isLt).a0 := by
  rewrite [traj4_eq]; exact step4_o6 V c t (prev4 V c t) q1
theorem traj4_o7_last (c : Dev nD) (t : Fin cfg4.N) (q1 : t.val = 19) :
    (traj4 V c t.val t.isLt).o7 = (traj4 V c t.val t.isLt).a1 := by
  rewrite [traj4_eq]; exact step4_o7 V c t (prev4 V c t) q1

end Cert.KernelIdeal.Hand

end
-- ==== Proof.KI.Stats4Payload.lean ====
/- Pipeline 4's payloads at an entry, at the ideal (extended-real) float model: the combine of a block of rows is, at
   row `p` and column `j`, `((∑ₖ a(p, k) · Wl(k, j)) + bl(j)) + ∑ₖ x(p, k) · Wr(k, j)` (the narrowing casts are the identity,
   each product into the zero accumulator is the sum over the contracted coordinate, the bias is broadcast along the
   rows); a column sum over the block's 5000 rows is the sum over the row coordinate; the accumulator rows add it to
   what they held; the reset rows are zero. -/
import proofs.«121727_j57028575756303_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-! ## The product of a row block with a weight matrix at an entry -/

theorem matmul_x_W4_apply (A : FVec Ideal S5000x128 .bf16) (B : FVec Ideal S128x64 .bf16) (p : Fin 5000) (k : Fin 64) :
    matmul dot_S5000x128_S128x64_S5000x64_1_0_0_1_n_n none A B (constant S5000x64 .f32 0x00000000#32) (ix2 p k)
      = ∑ j : Fin 128, A (ix2 p j) * B (ix2 j k) := by
  show FloatOps.matmul dot_S5000x128_S128x64_S5000x64_1_0_0_1_n_n none A B (constant S5000x64 .f32 0x00000000#32) (ix2 p k) = _
  rw [Ideal.matmul_constant_zero_apply, ← Equiv.sum_comp (contrEquiv1 dot_S5000x128_S128x64_S5000x64_1_0_0_1_n_n 128 rfl rfl).symm]
  refine Finset.sum_congr rfl fun c _ => ?_
  have c2 := contrEquiv1_symm_val dot_S5000x128_S128x64_S5000x64_1_0_0_1_n_n 128 rfl rfl c
  have l2 : dot_S5000x128_S128x64_S5000x64_1_0_0_1_n_n.lhsIdx (ix2 p k) ((contrEquiv1 _ 128 rfl rfl).symm c) = ix2 p c := by
    funext ax; apply Fin.ext
    match ax with
    | ⟨0, _⟩ => simp [DotDims.lhsIdx, dot_S5000x128_S128x64_S5000x64_1_0_0_1_n_n] <;> rfl
    | ⟨1, _⟩ => simp [DotDims.lhsIdx, dot_S5000x128_S128x64_S5000x64_1_0_0_1_n_n] <;> exact c2
  have r2 : dot_S5000x128_S128x64_S5000x64_1_0_0_1_n_n.rhsIdx (ix2 p k) ((contrEquiv1 _ 128 rfl rfl).symm c) = ix2 c k := by
    funext ax; apply Fin.ext
    match ax with
    | ⟨0, _⟩ => simp [DotDims.rhsIdx, dot_S5000x128_S128x64_S5000x64_1_0_0_1_n_n] <;> exact c2
    | ⟨1, _⟩ => simp [DotDims.rhsIdx, dot_S5000x128_S128x64_S5000x64_1_0_0_1_n_n] <;> rfl
  rw [l2, r2]

/-! ## The combine at an entry -/

theorem k4_pay4_apply (x0 x1 : Vec Ideal S5000x128 .f32) (x2 x4 : Vec Ideal S128x64 .f32) (x3 : Vec Ideal S1x64 .f32)
    (p : Fin 5000) (j : Fin 64) :
    k4_pay4 x0 x1 x2 x4 x3 (ix2 p j)
      = ((∑ k : Fin 128, x0 (ix2 p k) * x2 (ix2 k j)) + x3 (ix2 0 j)) + ∑ k : Fin 128, x1 (ix2 p k) * x4 (ix2 k j) := by
  unfold k4_pay4
  simp only [shapeCast_self]
  rw [addf_apply, addf_apply, matmul_x_W4_apply, matmul_x_W4_apply,
    broadcastTo_apply x3 broadcasts_S1x64_S5000x64 (ix2 p j) (ix2 0 j) (fun a => by match a with | ⟨0, _⟩ => rfl | ⟨1, _⟩ => rfl)]
  simp only [truncf_apply]

/-! ## The column sums over a block's rows -/

/-- The row `p` inserted above column `j`. -/
theorem lift4_rows (j : Fin 64) (p : Fin 5000) :
    reduces_S5000x64_S64.lift (ix1 j) p = ix2 p j := by
  funext ax; apply Fin.ext
  refine (Shape.Reduces.lift_val reduces_S5000x64_S64 (ix1 j) p ax).trans ?_
  unfold Shape.Reduces.liftVal
  match ax with
  | ⟨0, _⟩ => simp <;> rfl
  | ⟨1, _⟩ => simp <;> rfl

/-- A sum over axis 0 of a block, at column `j`: the sum over the block's rows. -/
theorem colsum4_apply (src : FVec Ideal S5000x64 .f32) (hφ : FKind.Formats .f32) (hacc : (0x00000000#32 : BitVec 32) = FKind.add.neutral .f32 hφ) (j : Fin 64) :
    multiReduction .add [0] S64 src 0x00000000#32 reduces_S5000x64_S64 hφ hacc (ix1 j) = ∑ p : Fin 5000, src (ix2 p j) := by
  refine (Ideal.multiReduction_add_single src 0x00000000#32 reduces_S5000x64_S64 hφ hacc (ix1 j)).trans ?_
  show ∑ p : Fin 5000, src (reduces_S5000x64_S64.lift (ix1 j) p) = _
  exact Finset.sum_congr rfl fun p _ => congrArg src (lift4_rows j p)

/-- The first accumulator row after a point, at column `j`: what it held plus the column sum of the combine. -/
theorem k4_pay5_apply (x0 x1 : Vec Ideal S5000x128 .f32) (x2 x4 : Vec Ideal S128x64 .f32) (x3 : Vec Ideal S1x64 .f32)
    (s : Vec Ideal S1x64 .f32) (u : Fin 1) (j : Fin 64) :
    k4_pay5 x0 x1 x2 x4 x3 s (ix2 u j) = s (ix2 u j) + ∑ p : Fin 5000, k4_pay4 x0 x1 x2 x4 x3 (ix2 p j) := by
  unfold k4_pay5
  simp only [shapeCast_self]
  refine (addf_apply _ _ _).trans ?_
  exact congrArg (s (ix2 u j) + ·) ((shapeCast_a_1a_apply _ shapeCasts_S64_S1x64 u j).trans (colsum4_apply _ _ _ j))

/-- The squares of the combine, summed over the block's rows at column `j`. -/
theorem k4_pay6_apply (x0 x1 : Vec Ideal S5000x128 .f32) (x2 x4 : Vec Ideal S128x64 .f32) (x3 : Vec Ideal S1x64 .f32) (j : Fin 64) :
    (∑ p : Fin 5000, k4_pay6 x0 x1 x2 x4 x3 (ix2 p j))
      = ∑ p : Fin 5000, k4_pay4 x0 x1 x2 x4 x3 (ix2 p j) * k4_pay4 x0 x1 x2 x4 x3 (ix2 p j) := by
  unfold k4_pay6
  exact Finset.sum_congr rfl fun p _ => mulf_apply _ _ _

/-- The second accumulator row after a point, at column `j`: what it held plus the column sum of the block it is given. -/
theorem k4_pay1_apply (s : Vec Ideal S1x64 .f32) (v : FVec Ideal S5000x64 .f32) (u : Fin 1) (j : Fin 64) :
    k4_pay1 s v (ix2 u j) = s (ix2 u j) + ∑ p : Fin 5000, v (ix2 p j) := by
  unfold k4_pay1
  simp only [shapeCast_self]
  refine (addf_apply _ _ _).trans ?_
  exact congrArg (s (ix2 u j) + ·) ((shapeCast_a_1a_apply _ shapeCasts_S64_S1x64 u j).trans (colsum4_apply _ _ _ j))

/-- The rows the first point resets the accumulators to are zero. -/
theorem k4_pay2_apply (i : S1x64.Idx) : k4_pay2 (F := Ideal) i = 0 := by
  unfold k4_pay2
  simp only [shapeCast_self]
  exact Ideal.ofBits_zero_f32
theorem k4_pay3_apply (i : S1x64.Idx) : k4_pay3 (F := Ideal) i = 0 := by
  unfold k4_pay3
  simp only [shapeCast_self]
  exact Ideal.ofBits_zero_f32

end Cert.KernelIdeal.Hand

end
-- ==== Proof.KI.Stats4Blocks.lean ====
/- Pipeline 4 at the ideal float model: the combine as ONE function of the five input arrays (`lin4`), its column sums
   and column sums of squares over all rows (`colSum4`, `colSumSq4`), the windows' index maps decided over the grid, the
   input blocks as entries of their arrays, and the combine of point `t`'s blocks as block `t` of `lin4`. -/
import proofs.«121727_j57028575756303_1_alg».proof.Proof.KI.Stats4Traj
import proofs.«121727_j57028575756303_1_alg».proof.Proof.KI.Stats4Payload

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The combine and its column statistics as functions of the arrays -/

/-- The first layer's combine, entry by entry: `(agg · Wl + bl) + x · Wr` in the body's own association. -/
def lin4 (agg x : S100000x128.Idx → Ideal .f32) (WlT : S128x64.Idx → Ideal .f32) (bl : S1x64.Idx → Ideal .f32)
    (WrT : S128x64.Idx → Ideal .f32) : S100000x64.Idx → Ideal .f32 :=
  fun i => ((∑ k : Fin 128, agg (ix2 (i 0) k) * WlT (ix2 k (i 1))) + bl (ix2 0 (i 1)))
    + ∑ k : Fin 128, x (ix2 (i 0) k) * WrT (ix2 k (i 1))

theorem lin4_apply (agg x : S100000x128.Idx → Ideal .f32) (WlT : S128x64.Idx → Ideal .f32) (bl : S1x64.Idx → Ideal .f32)
    (WrT : S128x64.Idx → Ideal .f32) (r : Fin 100000) (j : Fin 64) :
    lin4 agg x WlT bl WrT (ix2 r j)
      = ((∑ k : Fin 128, agg (ix2 r k) * WlT (ix2 k j)) + bl (ix2 0 j)) + ∑ k : Fin 128, x (ix2 r k) * WrT (ix2 k j) := rfl

/-- The column sums over all rows, as a one-row array. -/
def colSum4 (f : S100000x64.Idx → Ideal .f32) : S1x64.Idx → Ideal .f32 := fun i => ∑ n : Fin 100000, f (ix2 n (i 1))
/-- The column sums of squares over all rows, as a one-row array. -/
def colSumSq4 (f : S100000x64.Idx → Ideal .f32) : S1x64.Idx → Ideal .f32 :=
  fun i => ∑ n : Fin 100000, f (ix2 n (i 1)) * f (ix2 n (i 1))

theorem colSum4_apply (f : S100000x64.Idx → Ideal .f32) (u : Fin 1) (j : Fin 64) :
    colSum4 f (ix2 u j) = ∑ n : Fin 100000, f (ix2 n j) := rfl
theorem colSumSq4_apply (f : S100000x64.Idx → Ideal .f32) (u : Fin 1) (j : Fin 64) :
    colSumSq4 f (ix2 u j) = ∑ n : Fin 100000, f (ix2 n j) * f (ix2 n j) := rfl

/-! ## The windows' index maps, decided over the grid -/

/-- The two row-block inputs and the row-block output move with the point along the rows; the three parameter windows
    and the two one-row outputs stay at their one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- Row `p` of point `t`'s block is row `5000 t + p` of the array. -/
def rowOf4 (t : Fin cfg4.N) (p : Fin 5000) : Fin 100000 :=
  ⟨5000 * t.val + p.val, by have h1 := t.isLt; have h2 : cfg4.N = 20 := N_4; have h3 := p.isLt; omega⟩

theorem rowOf4_val (t : Fin cfg4.N) (p : Fin 5000) : (rowOf4 t p).val = 5000 * t.val + p.val := rfl

variable (V : (c : Dev nD) → (b : Ref sig .tc) → Buf (Elt Ideal) ((c : Thread nD τ).loc b))

/-! ## The input blocks as entries of their arrays -/

/-- Row-block window 0's block at point `t` is rows `5000 t … 5000 t + 4999` of its array. -/
theorem iblk4_0_ix (c : Dev nD) (t : Fin cfg4.N) (p : Fin 5000) (k : Fin 128) :
    (iblk4 V c 0 t : Vec Ideal S5000x128 .f32) (ix2 p k)
      = (V c main_v83 : S100000x128.Idx → Elt Ideal .f32) (ix2 (rowOf4 t p) k) := by
  obtain ⟨e0, e1, e2, e3, -⟩ := idx_facts4 t
  unfold iblk4
  rw [View.read_apply]
  show (V c main_v83 : S100000x128.Idx → Elt Ideal .f32) _ = _
  congr 1
  funext ax; apply Fin.ext
  match ax with
  | ⟨0, _⟩ => show win4_0.index t (0 : Fin 2) * 5000 + 1 * p.val = 5000 * t.val + p.val; rw [e0]; omega
  | ⟨1, _⟩ => show win4_0.index t (1 : Fin 2) * 128 + 1 * k.val = k.val; rw [e1]; omega

/-- Row-block window 1's block at point `t` is rows `5000 t … 5000 t + 4999` of its array. -/
theorem iblk4_1_ix (c : Dev nD) (t : Fin cfg4.N) (p : Fin 5000) (k : Fin 128) :
    (iblk4 V c 1 t : Vec Ideal S5000x128 .f32) (ix2 p k)
      = (V c main_v63 : S100000x128.Idx → Elt Ideal .f32) (ix2 (rowOf4 t p) k) := by
  obtain ⟨e0, e1, e2, e3, -⟩ := idx_facts4 t
  unfold iblk4
  rw [View.read_apply]
  show (V c main_v63 : S100000x128.Idx → Elt Ideal .f32) _ = _
  congr 1
  funext ax; apply Fin.ext
  match ax with
  | ⟨0, _⟩ => show win4_1.index t (0 : Fin 2) * 5000 + 1 * p.val = 5000 * t.val + p.val; rw [e2]; omega
  | ⟨1, _⟩ => show win4_1.index t (1 : Fin 2) * 128 + 1 * k.val = k.val; rw [e3]; omega

/-- Parameter window 2's block at every point is its whole array. -/
theorem iblk4_2_ix (c : Dev nD) (t : Fin cfg4.N) (a : Fin 128) (b : Fin 64) :
    (iblk4 V c 2 t : Vec Ideal S128x64 .f32) (ix2 a b)
      = (V c main_v64 : S128x64.Idx → Elt Ideal .f32) (ix2 a b) := by
  obtain ⟨-, -, -, -, e4, e5, e6, e7, e8, e9, -⟩ := idx_facts4 t
  unfold iblk4
  rw [View.read_apply]
  show (V c main_v64 : S128x64.Idx → Elt Ideal .f32) _ = _
  congr 1
  funext ax; apply Fin.ext
  match ax with
  | ⟨0, _⟩ => show win4_2.index t (0 : Fin 2) * 128 + 1 * a.val = a.val; rw [e4]; omega
  | ⟨1, _⟩ => show win4_2.index t (1 : Fin 2) * 64 + 1 * b.val = b.val; rw [e5]; omega

/-- Parameter window 3's block at every point is its whole array. -/
theorem iblk4_3_ix (c : Dev nD) (t : Fin cfg4.N) (a : Fin 1) (b : Fin 64) :
    (iblk4 V c 3 t : Vec Ideal S1x64 .f32) (ix2 a b)
      = (V c main_v65 : S1x64.Idx → Elt Ideal .f32) (ix2 a b) := by
  obtain ⟨-, -, -, -, e4, e5, e6, e7, e8, e9, -⟩ := idx_facts4 t
  unfold iblk4
  rw [View.read_apply]
  show (V c main_v65 : S1x64.Idx → Elt Ideal .f32) _ = _
  congr 1
  funext ax; apply Fin.ext
  match ax with
  | ⟨0, _⟩ => show win4_3.index t (0 : Fin 2) * 1 + 1 * a.val = a.val; rw [e6]; omega
  | ⟨1, _⟩ => show win4_3.index t (1 : Fin 2) * 64 + 1 * b.val = b.val; rw [e7]; omega

/-- Parameter window 4's block at every point is its whole array. -/
theorem iblk4_4_ix (c : Dev nD) (t : Fin cfg4.N) (a : Fin 128) (b : Fin 64) :
    (iblk4 V c 4 t : Vec Ideal S128x64 .f32) (ix2 a b)
      = (V c main_v66 : S128x64.Idx → Elt Ideal .f32) (ix2 a b) := by
  obtain ⟨-, -, -, -, e4, e5, e6, e7, e8, e9, -⟩ := idx_facts4 t
  unfold iblk4
  rw [View.read_apply]
  show (V c main_v66 : S128x64.Idx → Elt Ideal .f32) _ = _
  congr 1
  funext ax; apply Fin.ext
  match ax with
  | ⟨0, _⟩ => show win4_4.index t (0 : Fin 2) * 128 + 1 * a.val = a.val; rw [e8]; omega
  | ⟨1, _⟩ => show win4_4.index t (1 : Fin 2) * 64 + 1 * b.val = b.val; rw [e9]; omega

/-! ## The combine of a point's blocks is that point's block of `lin4` -/

theorem lin4_block (c : Dev nD) (t : Fin cfg4.N) (p : Fin 5000) (j : Fin 64) :
    k4_pay4 (iblk4 V c 0 t) (iblk4 V c 1 t) (iblk4 V c 2 t) (iblk4 V c 4 t) (iblk4 V c 3 t) (ix2 p j)
      = lin4 (V c main_v83) (V c main_v63) (V c main_v64) (V c main_v65) (V c main_v66) (ix2 (rowOf4 t p) j) := by
  rw [k4_pay4_apply, lin4_apply]
  simp only [iblk4_0_ix, iblk4_1_ix, iblk4_2_ix, iblk4_3_ix, iblk4_4_ix]

end Cert.KernelIdeal.Hand

end
-- ==== Proof.KI.Stats4Arr.lean ====
/- Pipeline 4, from what each grid point leaves to the arrays after the region. Point `t` writes back rows
   `5000 t … 5000 t + 4999` of the combine, so the combine's array ends as the combine of the five input arrays at every
   row (row `r` is written by point `r / 5000`); the two one-row arrays are written back by the last point only, whose
   block is the whole row, so they end as what that point leaves; an input array is never written back. The link
   from a point's staging buffers to the payloads is taken as a hypothesis here. -/
import proofs.«121727_j57028575756303_1_alg».proof.Proof.KI.Stats4
import proofs.«121727_j57028575756303_1_alg».proof.Proof.KI.Stats4Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Output window 5: the combine, block by block -/

/-- What point `t` writes back to the combine's array is block `t` of the combine of the arrays as the region finds
    them, once the point's staging buffer is known to hold the payload of its input blocks. -/
theorem flushed4_5_of (c : Dev nD)
    (H5 : ∀ t : Fin cfg4.N, (traj4 V c t.val t.isLt).o5
      = k4_pay4 (iblk4 V c 0 t) (iblk4 V c 1 t) (iblk4 V c 2 t) (iblk4 V c 4 t) (iblk4 V c 3 t)) (t : Fin cfg4.N) :
    (dat4 V c).flushed 5 t = ((cfg4.win 5).blk t).view.read (Elt Ideal)
      (lin4 (V c main_v83) (V c main_v63) (V c main_v64) (V c main_v65) (V c main_v66)) := by
  show (cfg4.win 5).cut (grid4.coords t) ((dat4 V c).after 5 t) = _
  rw [after4_5, H5 t]
  obtain ⟨-, -, -, -, -, -, -, -, -, -, e10, e11, -⟩ := idx_facts4 t
  refine funext fun (y : S5000x64.Idx) => ?_
  obtain ⟨p, j, rfl⟩ : ∃ (p : Fin 5000) (j : Fin 64), y = ix2 p j := ⟨y 0, y 1, eq_ix2 y⟩
  show k4_pay4 (iblk4 V c 0 t) (iblk4 V c 1 t) (iblk4 V c 2 t) (iblk4 V c 4 t) (iblk4 V c 3 t) (ix2 p j)
    = lin4 (V c main_v83) (V c main_v63) (V c main_v64) (V c main_v65) (V c main_v66)
        (((cfg4.win 5).blk t).view.emb (ix2 p j))
  rw [lin4_block]
  refine congrArg (lin4 (V c main_v83) (V c main_v63) (V c main_v64) (V c main_v65) (V c main_v66)) (funext fun a => Fin.ext ?_)
  match a with
  | ⟨0, _⟩ => show 5000 * t.val + p.val = win4_5.index t (0 : Fin 2) * 5000 + 1 * p.val; rw [e10]; omega
  | ⟨1, _⟩ => show j.val = win4_5.index t (1 : Fin 2) * 64 + 1 * j.val; rw [e11]; omega

/-- An index of the combine's array is in point `t`'s block iff each coordinate is in the block's range on its axis. -/
theorem mem_blk4_5 (t : Fin cfg4.N) (i : S100000x64.Idx) :
    i ∈ ((cfg4.win 5).blk t).view.set ↔ ∀ a : Fin 2, win4_5.index t a * S5000x64.size a ≤ (i a).val
      ∧ (i a).val < win4_5.index t a * S5000x64.size a + S5000x64.size a := by
  show i ∈ ((View.whole main_v84_0).slice (win4_5.rect t)).set ↔ _
  rw [View.set_slice_whole, Rect.mem_set_unit]
  exact Iff.rfl

/-- Row `r` of the combine's array is in the block of point `r / 5000`, which writes back. -/
theorem covered4_5 (i : S100000x64.Idx) :
    ∃ t : Fin cfg4.N, (cfg4.win 5).flush t = true ∧ i ∈ ((cfg4.win 5).blk t).view.set := by
  have hi0 : (i 0).val < 100000 := idx2_lt0 i
  have hi1 : (i 1).val < 64 := idx2_lt1 i
  have hN : cfg4.N = 20 := N_4
  obtain ⟨t, ht⟩ : ∃ t : Fin cfg4.N, t.val = (i 0).val / 5000 := ⟨⟨(i 0).val / 5000, by omega⟩, rfl⟩
  obtain ⟨-, -, -, -, -, -, -, -, -, -, e10, e11, -⟩ := idx_facts4 t
  refine ⟨t, flush4_5 t, ?_⟩
  rw [mem_blk4_5]
  intro a
  match a with
  | ⟨0, _⟩ =>
    show win4_5.index t (0 : Fin 2) * 5000 ≤ (i 0).val ∧ (i 0).val < win4_5.index t (0 : Fin 2) * 5000 + 5000
    rw [e10]; omega
  | ⟨1, _⟩ =>
    show win4_5.index t (1 : Fin 2) * 64 ≤ (i 1).val ∧ (i 1).val < win4_5.index t (1 : Fin 2) * 64 + 64
    rw [e11]; omega

/-- The combine's array after the region: the combine of the five input arrays as the region finds them. -/
theorem arrAt4_5_of (c : Dev nD)
    (H5 : ∀ t : Fin cfg4.N, (traj4 V c t.val t.isLt).o5
      = k4_pay4 (iblk4 V c 0 t) (iblk4 V c 1 t) (iblk4 V c 2 t) (iblk4 V c 4 t) (iblk4 V c 3 t)) :
    (dat4 V c).arrAt 5 cfg4.N = lin4 (V c main_v83) (V c main_v63) (V c main_v64) (V c main_v65) (V c main_v66) :=
  (dat4 V c).arrAt_eq_of_cover 5 _ (fun t _ => flushed4_5_of V c H5 t) covered4_5

/-! ## Output window 6: one row, written back by the last point only -/

/-- An index of window 6's array is in point `t`'s block iff each coordinate is in the block's range on its axis. -/
theorem mem_blk4_6 (t : Fin cfg4.N) (i : S1x64.Idx) :
    i ∈ ((cfg4.win 6).blk t).view.set ↔ ∀ a : Fin 2, win4_6.index t a * S1x64.size a ≤ (i a).val
      ∧ (i a).val < win4_6.index t a * S1x64.size a + S1x64.size a := by
  show i ∈ ((View.whole main_v84_1).slice (win4_6.rect t)).set ↔ _
  rw [View.set_slice_whole, Rect.mem_set_unit]
  exact Iff.rfl

/-- Window 6's array after the region is what the last point leaves in its staging buffer: that point's block is the
    whole one-row array, and no other point writes back. -/
theorem arrAt4_6_of (c : Dev nD) (G : S1x64.Idx → Ideal .f32)
    (H6 : ∀ t : Fin cfg4.N, t.val = 19 → (traj4 V c t.val t.isLt).o6 = G) : (dat4 V c).arrAt 6 cfg4.N = G := by
  have hN : cfg4.N = 20 := N_4
  refine (dat4 V c).arrAt_eq_of_cover 6 G (fun t hf => ?_) (fun i => ?_)
  · have h19 : t.val = 19 := by have h1 := (flush4_6 t).mp hf; have h2 := t.isLt; omega
    obtain ⟨-, -, -, -, -, -, -, -, -, -, -, -, e12, e13, e14, e15⟩ := idx_facts4 t
    show (cfg4.win 6).cut (grid4.coords t) ((dat4 V c).after 6 t) = _
    rw [after4_6, H6 t h19]
    refine funext fun (y : S1x64.Idx) => ?_
    obtain ⟨u, j, rfl⟩ : ∃ (u : Fin 1) (j : Fin 64), y = ix2 u j := ⟨y 0, y 1, eq_ix2 y⟩
    show G (ix2 u j) = G (((cfg4.win 6).blk t).view.emb (ix2 u j))
    refine congrArg G (funext fun a => Fin.ext ?_)
    match a with
    | ⟨0, _⟩ => show u.val = win4_6.index t (0 : Fin 2) * 1 + 1 * u.val; rw [e12]; omega
    | ⟨1, _⟩ => show j.val = win4_6.index t (1 : Fin 2) * 64 + 1 * j.val; rw [e13]; omega
  · have hi0 : (i 0).val < 1 := idx2_lt0 i
    have hi1 : (i 1).val < 64 := idx2_lt1 i
    obtain ⟨t, ht⟩ : ∃ t : Fin cfg4.N, t.val = 19 := ⟨⟨19, by omega⟩, rfl⟩
    obtain ⟨-, -, -, -, -, -, -, -, -, -, -, -, e12, e13, e14, e15⟩ := idx_facts4 t
    refine ⟨t, (flush4_6 t).mpr (by rw [ht]), ?_⟩
    rw [mem_blk4_6]
    intro a
    match a with
    | ⟨0, _⟩ =>
      show win4_6.index t (0 : Fin 2) * 1 ≤ (i 0).val ∧ (i 0).val < win4_6.index t (0 : Fin 2) * 1 + 1
      rw [e12]; omega
    | ⟨1, _⟩ =>
      show win4_6.index t (1 : Fin 2) * 64 ≤ (i 1).val ∧ (i 1).val < win4_6.index t (1 : Fin 2) * 64 + 64
      rw [e13]; omega

/-! ## Output window 7: one row, written back by the last point only -/

/-- An index of window 7's array is in point `t`'s block iff each coordinate is in the block's range on its axis. -/
theorem mem_blk4_7 (t : Fin cfg4.N) (i : S1x64.Idx) :
    i ∈ ((cfg4.win 7).blk t).view.set ↔ ∀ a : Fin 2, win4_7.index t a * S1x64.size a ≤ (i a).val
      ∧ (i a).val < win4_7.index t a * S1x64.size a + S1x64.size a := by
  show i ∈ ((View.whole main_v84_2).slice (win4_7.rect t)).set ↔ _
  rw [View.set_slice_whole, Rect.mem_set_unit]
  exact Iff.rfl

/-- Window 7's array after the region is what the last point leaves in its staging buffer: that point's block is the
    whole one-row array, and no other point writes back. -/
theorem arrAt4_7_of (c : Dev nD) (G : S1x64.Idx → Ideal .f32)
    (H7 : ∀ t : Fin cfg4.N, t.val = 19 → (traj4 V c t.val t.isLt).o7 = G) : (dat4 V c).arrAt 7 cfg4.N = G := by
  have hN : cfg4.N = 20 := N_4
  refine (dat4 V c).arrAt_eq_of_cover 7 G (fun t hf => ?_) (fun i => ?_)
  · have h19 : t.val = 19 := by have h1 := (flush4_7 t).mp hf; have h2 := t.isLt; omega
    obtain ⟨-, -, -, -, -, -, -, -, -, -, -, -, e12, e13, e14, e15⟩ := idx_facts4 t
    show (cfg4.win 7).cut (grid4.coords t) ((dat4 V c).after 7 t) = _
    rw [after4_7, H7 t h19]
    refine funext fun (y : S1x64.Idx) => ?_
    obtain ⟨u, j, rfl⟩ : ∃ (u : Fin 1) (j : Fin 64), y = ix2 u j := ⟨y 0, y 1, eq_ix2 y⟩
    show G (ix2 u j) = G (((cfg4.win 7).blk t).view.emb (ix2 u j))
    refine congrArg G (funext fun a => Fin.ext ?_)
    match a with
    | ⟨0, _⟩ => show u.val = win4_7.index t (0 : Fin 2) * 1 + 1 * u.val; rw [e14]; omega
    | ⟨1, _⟩ => show j.val = win4_7.index t (1 : Fin 2) * 64 + 1 * j.val; rw [e15]; omega
  · have hi0 : (i 0).val < 1 := idx2_lt0 i
    have hi1 : (i 1).val < 64 := idx2_lt1 i
    obtain ⟨t, ht⟩ : ∃ t : Fin cfg4.N, t.val = 19 := ⟨⟨19, by omega⟩, rfl⟩
    obtain ⟨-, -, -, -, -, -, -, -, -, -, -, -, e12, e13, e14, e15⟩ := idx_facts4 t
    refine ⟨t, (flush4_7 t).mpr (by rw [ht]), ?_⟩
    rw [mem_blk4_7]
    intro a
    match a with
    | ⟨0, _⟩ =>
      show win4_7.index t (0 : Fin 2) * 1 ≤ (i 0).val ∧ (i 0).val < win4_7.index t (0 : Fin 2) * 1 + 1
      rw [e14]; omega
    | ⟨1, _⟩ =>
      show win4_7.index t (1 : Fin 2) * 64 ≤ (i 1).val ∧ (i 1).val < win4_7.index t (1 : Fin 2) * 64 + 64
      rw [e15]; omega

/-! ## The input arrays -/

/-- Each input array after the region is as the region found it: an input window is never written back. -/
theorem arrAt4_in (c : Dev nD) (w : Fin cfg4.W) (hw : w.val < 5) :
    (dat4 V c).arrAt w cfg4.N = V c (Pipeline.arrRef spec4 w) := by
  have hin : (cfg4.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd h (Nat.lt_irrefl 5)
    | ⟨6, _⟩, h => exact absurd (show 6 < 5 from h) (by decide)
    | ⟨7, _⟩, h => exact absurd (show 7 < 5 from h) (by decide)
  exact ((dat4 V c).arrAt_in w hin _).trans (A_eq4 V c w)

end Cert.KernelIdeal.Hand

end
-- ==== Proof.KI.Stats4Acc.lean ====
/-
  Pipeline 4's two accumulator rows after the grid's last point, in closed form.

  The rows are carried from point to point: the first point sets them to zero and adds the column sums of its block
  of the combine (resp. of its squares), every further point adds those of its own block. The twenty blocks of 5000 rows
  are the 100000 rows, so after the last point the first row holds the column sums of the combine over all rows and the
  second the column sums of its squares: an accumulator started at zero that adds one block sum per step ends at the
  whole sum.
-/
import proofs.«121727_j57028575756303_1_alg».proof.Proof.KI.Stats4Blocks
import proofs.«121727_j57028575756303_1_alg».proof.Proof.LibRows100000

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Row p of the block of the point at position k is row p of block k among the 100000 rows. -/
theorem rowOf4_eq_row (k : ℕ) (hk : k < cfg4.N) (hk' : k < 20) (p : Fin 5000) :
    rowOf4 ⟨k, hk⟩ p = Cert.Rows100000.row ⟨k, hk'⟩ p := Fin.ext rfl

/-- THE FIRST ACCUMULATOR ROW AFTER THE LAST POINT: if the first point leaves zero plus the column sums of its block of
    the combine, and every further point adds the column sums of its block, then after the point at position 19 the row
    holds the column sums of the combine over all the 100000 rows. -/
theorem a0_last4_of (c : Dev nD)
    (H0 : ∀ h : 0 < cfg4.N, (traj4 V c 0 h).a0
      = k4_pay5 (iblk4 V c 0 ⟨0, h⟩) (iblk4 V c 1 ⟨0, h⟩) (iblk4 V c 2 ⟨0, h⟩) (iblk4 V c 4 ⟨0, h⟩) (iblk4 V c 3 ⟨0, h⟩) (k4_pay2 (F := Ideal)))
    (HS : ∀ (n : ℕ) (h : n + 1 < cfg4.N), (traj4 V c (n + 1) h).a0
      = k4_pay5 (iblk4 V c 0 ⟨n + 1, h⟩) (iblk4 V c 1 ⟨n + 1, h⟩) (iblk4 V c 2 ⟨n + 1, h⟩) (iblk4 V c 4 ⟨n + 1, h⟩)
          (iblk4 V c 3 ⟨n + 1, h⟩) (traj4 V c n (Nat.lt_of_succ_lt h)).a0)
    (t : Fin cfg4.N) (q : t.val = 19) :
    (traj4 V c t.val t.isLt).a0 = colSum4 (lin4 (V c main_v83) (V c main_v63) (V c main_v64) (V c main_v65) (V c main_v66)) := by
  have hN : cfg4.N = 20 := N_4
  funext i
  obtain ⟨u, j, rfl⟩ : ∃ (u : Fin 1) (j : Fin 64), i = ix2 u j := ⟨i 0, i 1, eq_ix2 i⟩
  rw [colSum4_apply]
  have h0N : 0 < cfg4.N := by omega
  have h0 : (traj4 V c 0 h0N).a0 (ix2 u j)
      = 0 + ∑ p : Fin 5000, lin4 (V c main_v83) (V c main_v63) (V c main_v64) (V c main_v65) (V c main_v66)
          (ix2 (Cert.Rows100000.row 0 p) j) := by
    refine (congrFun (H0 h0N) (ix2 u j)).trans ?_
    refine (k4_pay5_apply (iblk4 V c 0 ⟨0, h0N⟩) (iblk4 V c 1 ⟨0, h0N⟩) (iblk4 V c 2 ⟨0, h0N⟩) (iblk4 V c 4 ⟨0, h0N⟩)
      (iblk4 V c 3 ⟨0, h0N⟩) (k4_pay2 (F := Ideal)) u j).trans ?_
    refine congrArg₂ (· + ·) (k4_pay2_apply (ix2 u j)) (Finset.sum_congr rfl fun p _ => ?_)
    exact (lin4_block V c ⟨0, h0N⟩ p j).trans
      (congrArg (fun r => lin4 (V c main_v83) (V c main_v63) (V c main_v64) (V c main_v65) (V c main_v66) (ix2 r j))
        (rowOf4_eq_row 0 h0N (by omega) p))
  have hs : ∀ (s : Fin 20) (hs' : s.val + 1 < 20),
      (traj4 V c (s.val + 1) (by omega)).a0 (ix2 u j)
        = (traj4 V c s.val (by have := s.isLt; omega)).a0 (ix2 u j)
          + ∑ p : Fin 5000, lin4 (V c main_v83) (V c main_v63) (V c main_v64) (V c main_v65) (V c main_v66)
              (ix2 (Cert.Rows100000.row ⟨s.val + 1, hs'⟩ p) j) := by
    intro s hs'
    have hlt : s.val + 1 < cfg4.N := by omega
    refine (congrFun (HS s.val hlt) (ix2 u j)).trans ?_
    refine (k4_pay5_apply (iblk4 V c 0 ⟨s.val + 1, hlt⟩) (iblk4 V c 1 ⟨s.val + 1, hlt⟩) (iblk4 V c 2 ⟨s.val + 1, hlt⟩)
      (iblk4 V c 4 ⟨s.val + 1, hlt⟩) (iblk4 V c 3 ⟨s.val + 1, hlt⟩) (traj4 V c s.val (Nat.lt_of_succ_lt hlt)).a0 u j).trans ?_
    refine congrArg₂ (· + ·) rfl (Finset.sum_congr rfl fun p _ => ?_)
    exact (lin4_block V c ⟨s.val + 1, hlt⟩ p j).trans
      (congrArg (fun r => lin4 (V c main_v83) (V c main_v63) (V c main_v64) (V c main_v65) (V c main_v66) (ix2 r j))
        (rowOf4_eq_row (s.val + 1) hlt hs' p))
  have key := Cert.Rows100000.after_last_eq_sum_rows (M := EReal)
    (fun n => lin4 (V c main_v83) (V c main_v63) (V c main_v64) (V c main_v65) (V c main_v66) (ix2 n j))
    (fun s : Fin 20 => (traj4 V c s.val (by have := s.isLt; omega)).a0 (ix2 u j)) h0 hs
  have fin : ∀ (k : ℕ) (hk : k < cfg4.N), k = 19 → (traj4 V c k hk).a0 (ix2 u j)
      = ∑ n : Fin 100000, lin4 (V c main_v83) (V c main_v63) (V c main_v64) (V c main_v65) (V c main_v66) (ix2 n j) := by
    intro k hk e
    subst e
    exact key
  exact fin t.val t.isLt q

/-- THE SECOND ACCUMULATOR ROW AFTER THE LAST POINT: likewise with the column sums of the squares. -/
theorem a1_last4_of (c : Dev nD)
    (H0 : ∀ h : 0 < cfg4.N, (traj4 V c 0 h).a1
      = k4_pay1 (k4_pay3 (F := Ideal))
          (k4_pay6 (iblk4 V c 0 ⟨0, h⟩) (iblk4 V c 1 ⟨0, h⟩) (iblk4 V c 2 ⟨0, h⟩) (iblk4 V c 4 ⟨0, h⟩) (iblk4 V c 3 ⟨0, h⟩)))
    (HS : ∀ (n : ℕ) (h : n + 1 < cfg4.N), (traj4 V c (n + 1) h).a1
      = k4_pay1 (traj4 V c n (Nat.lt_of_succ_lt h)).a1
          (k4_pay6 (iblk4 V c 0 ⟨n + 1, h⟩) (iblk4 V c 1 ⟨n + 1, h⟩) (iblk4 V c 2 ⟨n + 1, h⟩) (iblk4 V c 4 ⟨n + 1, h⟩)
            (iblk4 V c 3 ⟨n + 1, h⟩)))
    (t : Fin cfg4.N) (q : t.val = 19) :
    (traj4 V c t.val t.isLt).a1 = colSumSq4 (lin4 (V c main_v83) (V c main_v63) (V c main_v64) (V c main_v65) (V c main_v66)) := by
  have hN : cfg4.N = 20 := N_4
  funext i
  obtain ⟨u, j, rfl⟩ : ∃ (u : Fin 1) (j : Fin 64), i = ix2 u j := ⟨i 0, i 1, eq_ix2 i⟩
  rw [colSumSq4_apply]
  have h0N : 0 < cfg4.N := by omega
  have sq : ∀ (k : ℕ) (hk : k < cfg4.N) (hk' : k < 20) (p : Fin 5000),
      k4_pay4 (iblk4 V c 0 ⟨k, hk⟩) (iblk4 V c 1 ⟨k, hk⟩) (iblk4 V c 2 ⟨k, hk⟩) (iblk4 V c 4 ⟨k, hk⟩) (iblk4 V c 3 ⟨k, hk⟩) (ix2 p j)
        * k4_pay4 (iblk4 V c 0 ⟨k, hk⟩) (iblk4 V c 1 ⟨k, hk⟩) (iblk4 V c 2 ⟨k, hk⟩) (iblk4 V c 4 ⟨k, hk⟩) (iblk4 V c 3 ⟨k, hk⟩) (ix2 p j)
      = lin4 (V c main_v83) (V c main_v63) (V c main_v64) (V c main_v65) (V c main_v66) (ix2 (Cert.Rows100000.row ⟨k, hk'⟩ p) j)
        * lin4 (V c main_v83) (V c main_v63) (V c main_v64) (V c main_v65) (V c main_v66) (ix2 (Cert.Rows100000.row ⟨k, hk'⟩ p) j) := by
    intro k hk hk' p
    have e := (lin4_block V c ⟨k, hk⟩ p j).trans
      (congrArg (fun r => lin4 (V c main_v83) (V c main_v63) (V c main_v64) (V c main_v65) (V c main_v66) (ix2 r j))
        (rowOf4_eq_row k hk hk' p))
    exact congrArg₂ (· * ·) e e
  have h0 : (traj4 V c 0 h0N).a1 (ix2 u j)
      = 0 + ∑ p : Fin 5000, lin4 (V c main_v83) (V c main_v63) (V c main_v64) (V c main_v65) (V c main_v66)
            (ix2 (Cert.Rows100000.row 0 p) j)
          * lin4 (V c main_v83) (V c main_v63) (V c main_v64) (V c main_v65) (V c main_v66) (ix2 (Cert.Rows100000.row 0 p) j) := by
    refine (congrFun (H0 h0N) (ix2 u j)).trans ?_
    refine (k4_pay1_apply (k4_pay3 (F := Ideal))
      (k4_pay6 (iblk4 V c 0 ⟨0, h0N⟩) (iblk4 V c 1 ⟨0, h0N⟩) (iblk4 V c 2 ⟨0, h0N⟩) (iblk4 V c 4 ⟨0, h0N⟩) (iblk4 V c 3 ⟨0, h0N⟩)) u j).trans ?_
    refine congrArg₂ (· + ·) (k4_pay3_apply (ix2 u j)) ?_
    refine (k4_pay6_apply (iblk4 V c 0 ⟨0, h0N⟩) (iblk4 V c 1 ⟨0, h0N⟩) (iblk4 V c 2 ⟨0, h0N⟩) (iblk4 V c 4 ⟨0, h0N⟩)
      (iblk4 V c 3 ⟨0, h0N⟩) j).trans ?_
    exact Finset.sum_congr rfl fun p _ => sq 0 h0N (by omega) p
  have hs : ∀ (s : Fin 20) (hs' : s.val + 1 < 20),
      (traj4 V c (s.val + 1) (by omega)).a1 (ix2 u j)
        = (traj4 V c s.val (by have := s.isLt; omega)).a1 (ix2 u j)
          + ∑ p : Fin 5000, lin4 (V c main_v83) (V c main_v63) (V c main_v64) (V c main_v65) (V c main_v66)
                (ix2 (Cert.Rows100000.row ⟨s.val + 1, hs'⟩ p) j)
              * lin4 (V c main_v83) (V c main_v63) (V c main_v64) (V c main_v65) (V c main_v66)
                (ix2 (Cert.Rows100000.row ⟨s.val + 1, hs'⟩ p) j) := by
    intro s hs'
    have hlt : s.val + 1 < cfg4.N := by omega
    refine (congrFun (HS s.val hlt) (ix2 u j)).trans ?_
    refine (k4_pay1_apply (traj4 V c s.val (Nat.lt_of_succ_lt hlt)).a1
      (k4_pay6 (iblk4 V c 0 ⟨s.val + 1, hlt⟩) (iblk4 V c 1 ⟨s.val + 1, hlt⟩) (iblk4 V c 2 ⟨s.val + 1, hlt⟩)
        (iblk4 V c 4 ⟨s.val + 1, hlt⟩) (iblk4 V c 3 ⟨s.val + 1, hlt⟩)) u j).trans ?_
    refine congrArg₂ (· + ·) rfl ?_
    refine (k4_pay6_apply (iblk4 V c 0 ⟨s.val + 1, hlt⟩) (iblk4 V c 1 ⟨s.val + 1, hlt⟩) (iblk4 V c 2 ⟨s.val + 1, hlt⟩)
      (iblk4 V c 4 ⟨s.val + 1, hlt⟩) (iblk4 V c 3 ⟨s.val + 1, hlt⟩) j).trans ?_
    exact Finset.sum_congr rfl fun p _ => sq (s.val + 1) hlt hs' p
  have key := Cert.Rows100000.after_last_eq_sum_rows (M := EReal)
    (fun n => lin4 (V c main_v83) (V c main_v63) (V c main_v64) (V c main_v65) (V c main_v66) (ix2 n j)
      * lin4 (V c main_v83) (V c main_v63) (V c main_v64) (V c main_v65) (V c main_v66) (ix2 n j))
    (fun s : Fin 20 => (traj4 V c s.val (by have := s.isLt; omega)).a1 (ix2 u j)) h0 hs
  have fin : ∀ (k : ℕ) (hk : k < cfg4.N), k = 19 → (traj4 V c k hk).a1 (ix2 u j)
      = ∑ n : Fin 100000, lin4 (V c main_v83) (V c main_v63) (V c main_v64) (V c main_v65) (V c main_v66) (ix2 n j)
          * lin4 (V c main_v83) (V c main_v63) (V c main_v64) (V c main_v65) (V c main_v66) (ix2 n j) := by
    intro k hk e
    subst e
    exact key
  exact fin t.val t.isLt q

end Cert.KernelIdeal.Hand

end
-- ==== Proof.KI.Stats4Value.lean ====
/- Pipeline 4's arrays after the region, at the ideal float model: the row-block output holds the combine `lin4` of the
   five input arrays at every row; the two one-row outputs hold its column sums and its column sums of squares over all
   the 100000 rows; the input arrays are unchanged. Assembled from the point-by-point values of the trajectory
   (each point's block of the combine; the accumulator rows' recursion; the copy-out at the last point), the closed
   form of the accumulator rows, and the blocks-to-array steps. -/
import proofs.«121727_j57028575756303_1_alg».proof.Proof.KI.Stats4Steps
import proofs.«121727_j57028575756303_1_alg».proof.Proof.KI.Stats4Arr
import proofs.«121727_j57028575756303_1_alg».proof.Proof.KI.Stats4Acc

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The row-block output array after the region is the combine of the input arrays. -/
theorem arrAt4_5 (c : Dev nD) :
    (dat4 V c).arrAt 5 cfg4.N = lin4 (V c main_v83) (V c main_v63) (V c main_v64) (V c main_v65) (V c main_v66) :=
  arrAt4_5_of V c (traj4_o5 V c)

/-- The first one-row output after the region: the combine's column sums over all rows. -/
theorem arrAt4_6 (c : Dev nD) :
    (dat4 V c).arrAt 6 cfg4.N = colSum4 (lin4 (V c main_v83) (V c main_v63) (V c main_v64) (V c main_v65) (V c main_v66)) :=
  arrAt4_6_of V c _ fun t q =>
    (traj4_o6_last V c t q).trans (a0_last4_of V c (traj4_a0_zero V c) (traj4_a0_succ V c) t q)

/-- The second one-row output after the region: the combine's column sums of squares over all rows. -/
theorem arrAt4_7 (c : Dev nD) :
    (dat4 V c).arrAt 7 cfg4.N = colSumSq4 (lin4 (V c main_v83) (V c main_v63) (V c main_v64) (V c main_v65) (V c main_v66)) :=
  arrAt4_7_of V c _ fun t q =>
    (traj4_o7_last V c t q).trans (a1_last4_of V c (traj4_a1_zero V c) (traj4_a1_succ V c) t q)

end Cert.KernelIdeal.Hand

end
-- ==== Proof.KI.BnReluPoint.lean ====
/- The scalar function the three batch-normalisation-and-ReLU kernels apply at every element:
   `max ((x - mean) * rsqrt (var + eps) * g + b, 0)`, with `eps` the binary32 word 0x3727C5AC
   (9.99999974e-6) and the zero the binary32 word 0, in the order of operations the kernels use. -/
import Idealize.ShloMosaic.PureOps.Float
import Idealize.ShloMosaic.PureOps.Values

noncomputable section

namespace Cert.KernelIdeal.Hand

open Idealize.ShloMosaic

variable {F : FTy → Type} [FloatOps F]

/-- One element of the normalised, scaled, shifted and rectified activations. -/
def bnPoint (x g b mean var : F .f32) : F .f32 :=
  FloatOps.maximumf
    (FloatOps.addf
      (FloatOps.mulf
        (FloatOps.mulf (FloatOps.subf x mean) (FloatOps.rsqrt (FloatOps.addf var (Scalar.ofBits .f32 0x3727C5AC#32))))
        g)
      b)
    (Scalar.ofBits .f32 0x00000000#32)

/-- The zero offsets of a whole-block access, as a constant function. -/
theorem zero_off2 : (![0, 0] : Fin 2 → Nat) = fun _ => 0 := funext fun a => by fin_cases a <;> rfl

end Cert.KernelIdeal.Hand

end
-- ==== Proof.KI.BnRelu1Value.lean ====
/- The batch-normalisation-and-ReLU kernel of pipeline 1, read as values: after the grid's 20 points the
   output array holds, at every index `(r, k)` of its [100000, 128] extent,
   `max ((h (r, k) - mean k) * rsqrt (var k + eps) * g k + b k, 0)` of the arrays the region found, and the
   input arrays are as the region found them. Point `t` writes rows `5000 t … 5000 t + 4999`; row `r` is
   written by point `r / 5000`. -/
import proofs.«121727_j57028575756303_1_alg».proof.Proof.KI.BnRelu1
import proofs.«121727_j57028575756303_1_alg».proof.Proof.KI.BnReluPoint
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

variable (V : (c : Dev nD) → (b : Ref sig .tc) → Buf (Elt F) ((c : Thread nD τ).loc b))

/-! ## The whole-array function -/

/-- The output array as one function of the activations `h` and the four rows: at `(r, k)` the scalar
    function of `h (r, k)` and of each row's entry `k`. -/
def bnRelu1 (h : S100000x128.Idx → Elt F .f32) (g b mean var : S1x128.Idx → Elt F .f32) : S100000x128.Idx → Elt F .f32 :=
  fun i => bnPoint (h i) (g (ix2 (0 : Fin 1) (⟨(i 1).val, idx2_lt1 i⟩ : Fin 128))) (b (ix2 (0 : Fin 1) (⟨(i 1).val, idx2_lt1 i⟩ : Fin 128)))
    (mean (ix2 (0 : Fin 1) (⟨(i 1).val, idx2_lt1 i⟩ : Fin 128))) (var (ix2 (0 : Fin 1) (⟨(i 1).val, idx2_lt1 i⟩ : Fin 128)))

theorem bnRelu1_apply (h : S100000x128.Idx → Elt F .f32) (g b mean var : S1x128.Idx → Elt F .f32) (i : S100000x128.Idx) (q : Fin 128) (hq : q.val = (i 1).val) :
    bnRelu1 h g b mean var i = bnPoint (h i) (g (ix2 (0 : Fin 1) q)) (b (ix2 (0 : Fin 1) q)) (mean (ix2 (0 : Fin 1) q)) (var (ix2 (0 : Fin 1) q)) := by
  obtain rfl : q = ⟨(i 1).val, idx2_lt1 i⟩ := Fin.ext hq
  rfl

/-! ## The stored value at one element -/

/-- The value the body stores, at one element `(p, q)` of the block: the scalar function of the activations'
    element there and of each row's entry `q` (a [1, 128] row broadcast over 5000 rows reads its one row). -/
theorem pay1_apply (x0 : Vec F S5000x128 .f32) (x4 x3 x1 x2 : Vec F S1x128 .f32) (p : Fin 5000) (q : Fin 128) :
    k1_pay1 x0 x4 x3 x1 x2 (ix2 p q)
      = bnPoint (x0 (ix2 p q)) (x1 (ix2 (0 : Fin 1) q)) (x2 (ix2 (0 : Fin 1) q)) (x3 (ix2 (0 : Fin 1) q)) (x4 (ix2 (0 : Fin 1) q)) := by
  unfold k1_pay1 bnPoint
  simp only [shapeCast_self]
  show FloatOps.maximumf (FloatOps.addf (FloatOps.mulf (FloatOps.mulf (FloatOps.subf (x0 (ix2 p q))
      (broadcastTo S5000x128 x3 broadcasts_S1x128_S5000x128 (ix2 p q)))
      (broadcastTo S5000x128 (rsqrt (addf (x4 : FVec F S1x128 .f32) (broadcast S1x128 (Scalar.ofBits .f32 0x3727C5AC#32)))) broadcasts_S1x128_S5000x128 (ix2 p q)))
      (broadcastTo S5000x128 x1 broadcasts_S1x128_S5000x128 (ix2 p q)))
      (broadcastTo S5000x128 x2 broadcasts_S1x128_S5000x128 (ix2 p q))) (Scalar.ofBits .f32 0x00000000#32) = _
  rw [broadcastTo_1b_ab_apply, broadcastTo_1b_ab_apply, broadcastTo_1b_ab_apply, broadcastTo_1b_ab_apply]
  rfl

/-! ## The index maps, decided over the grid -/

/-- The activations' and the output's block index at point `t` is `(t, 0)`; the four rows' is `(0, 0)`. -/
theorem idx1 : ∀ t : Fin cfg1.N, (win1_0.index t (0 : Fin 2) = t.val ∧ win1_0.index t (1 : Fin 2) = 0)
    ∧ (win1_5.index t (0 : Fin 2) = t.val ∧ win1_5.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0) :=
  (by decide +kernel : ∀ t : Fin grid1.N, _)

/-! ## The input blocks as reads of the arrays -/

/-- The activations' block at point `t` is rows `5000 t … 5000 t + 4999` of their array. -/
theorem iblk1_0_apply (c : Dev nD) (t : Fin cfg1.N) (p : Fin 5000) (q : Fin 128) (k : S100000x128.Idx)
    (hk0 : (k 0).val = t.val * 5000 + p.val) (hk1 : (k 1).val = q.val) :
    (iblk1 V c 0 t : Vec F S5000x128 .f32) (ix2 p q) = (V c main_v28_0 : S100000x128.Idx → Elt F .f32) k := by
  have hi : win1_0.index t (0 : Fin 2) = t.val ∧ win1_0.index t (1 : Fin 2) = 0 := (idx1 t).1
  unfold iblk1
  rw [View.read_apply]
  show V c main_v28_0 _ = V c main_v28_0 _
  congr 1
  funext a
  apply Fin.ext
  match a with
  | ⟨0, _⟩ => show win1_0.index t (0 : Fin 2) * 5000 + 1 * p.val = (k 0).val; rw [hi.1, hk0]; omega
  | ⟨1, _⟩ => show win1_0.index t (1 : Fin 2) * 128 + 1 * q.val = (k 1).val; rw [hi.2, hk1]; omega

/-- Row window 1's block at any point is its whole [1, 128] array. -/
theorem iblk1_1_apply (c : Dev nD) (t : Fin cfg1.N) (q : Fin 128) :
    (iblk1 V c 1 t : Vec F S1x128 .f32) (ix2 (0 : Fin 1) q) = (V c main_v11 : S1x128.Idx → Elt F .f32) (ix2 (0 : Fin 1) q) := by
  have hi : win1_1.index t (0 : Fin 2) = 0 ∧ win1_1.index t (1 : Fin 2) = 0 := (idx1 t).2.2.1
  unfold iblk1
  rw [View.read_apply]
  show V c main_v11 _ = V c main_v11 _
  congr 1
  funext a
  apply Fin.ext
  match a with
  | ⟨0, _⟩ => show win1_1.index t (0 : Fin 2) * 1 + 1 * (0 : Fin 1).val = (0 : Fin 1).val; rw [hi.1]; rfl
  | ⟨1, _⟩ => show win1_1.index t (1 : Fin 2) * 128 + 1 * q.val = q.val; rw [hi.2]; omega

/-- Row window 2's block at any point is its whole [1, 128] array. -/
theorem iblk1_2_apply (c : Dev nD) (t : Fin cfg1.N) (q : Fin 128) :
    (iblk1 V c 2 t : Vec F S1x128 .f32) (ix2 (0 : Fin 1) q) = (V c main_v12 : S1x128.Idx → Elt F .f32) (ix2 (0 : Fin 1) q) := by
  have hi : win1_2.index t (0 : Fin 2) = 0 ∧ win1_2.index t (1 : Fin 2) = 0 := (idx1 t).2.2.2.1
  unfold iblk1
  rw [View.read_apply]
  show V c main_v12 _ = V c main_v12 _
  congr 1
  funext a
  apply Fin.ext
  match a with
  | ⟨0, _⟩ => show win1_2.index t (0 : Fin 2) * 1 + 1 * (0 : Fin 1).val = (0 : Fin 1).val; rw [hi.1]; rfl
  | ⟨1, _⟩ => show win1_2.index t (1 : Fin 2) * 128 + 1 * q.val = q.val; rw [hi.2]; omega

/-- Row window 3's block at any point is its whole [1, 128] array. -/
theorem iblk1_3_apply (c : Dev nD) (t : Fin cfg1.N) (q : Fin 128) :
    (iblk1 V c 3 t : Vec F S1x128 .f32) (ix2 (0 : Fin 1) q) = (V c main_v30 : S1x128.Idx → Elt F .f32) (ix2 (0 : Fin 1) q) := by
  have hi : win1_3.index t (0 : Fin 2) = 0 ∧ win1_3.index t (1 : Fin 2) = 0 := (idx1 t).2.2.2.2.1
  unfold iblk1
  rw [View.read_apply]
  show V c main_v30 _ = V c main_v30 _
  congr 1
  funext a
  apply Fin.ext
  match a with
  | ⟨0, _⟩ => show win1_3.index t (0 : Fin 2) * 1 + 1 * (0 : Fin 1).val = (0 : Fin 1).val; rw [hi.1]; rfl
  | ⟨1, _⟩ => show win1_3.index t (1 : Fin 2) * 128 + 1 * q.val = q.val; rw [hi.2]; omega

/-- Row window 4's block at any point is its whole [1, 128] array. -/
theorem iblk1_4_apply (c : Dev nD) (t : Fin cfg1.N) (q : Fin 128) :
    (iblk1 V c 4 t : Vec F S1x128 .f32) (ix2 (0 : Fin 1) q) = (V c main_v34 : S1x128.Idx → Elt F .f32) (ix2 (0 : Fin 1) q) := by
  have hi : win1_4.index t (0 : Fin 2) = 0 ∧ win1_4.index t (1 : Fin 2) = 0 := (idx1 t).2.2.2.2.2
  unfold iblk1
  rw [View.read_apply]
  show V c main_v34 _ = V c main_v34 _
  congr 1
  funext a
  apply Fin.ext
  match a with
  | ⟨0, _⟩ => show win1_4.index t (0 : Fin 2) * 1 + 1 * (0 : Fin 1).val = (0 : Fin 1).val; rw [hi.1]; rfl
  | ⟨1, _⟩ => show win1_4.index t (1 : Fin 2) * 128 + 1 * q.val = q.val; rw [hi.2]; omega

/-! ## What a point writes back -/

/-- Point `t` writes back block `t` of `bnRelu1` of the arrays as the region finds them. -/
theorem flushed1_eq (c : Dev nD) (t : Fin cfg1.N) :
    (dat1 V c).flushed 5 t = ((cfg1.win 5).blk t).view.read (Elt F)
      (bnRelu1 (V c main_v28_0) (V c main_v11) (V c main_v12) (V c main_v30) (V c main_v34)) := by
  show (cfg1.win 5).cut (grid1.coords t) ((dat1 V c).after 5 t) = _
  rw [after1_5]
  unfold out1_5
  rw [View.canon_unit_zero zero_off2]
  simp only [View.ld_unit_zero (S := S5000x128) zero_off2, View.ld_unit_zero (S := S1x128) zero_off2]
  have hi : win1_5.index t (0 : Fin 2) = t.val ∧ win1_5.index t (1 : Fin 2) = 0 := (idx1 t).2.1
  refine funext fun (j : S5000x128.Idx) => ?_
  obtain ⟨p, q, rfl⟩ : ∃ (p : Fin 5000) (q : Fin 128), j = ix2 p q := ⟨j 0, j 1, eq_ix2 j⟩
  show k1_pay1 (iblk1 V c 0 t) (iblk1 V c 4 t) (iblk1 V c 3 t) (iblk1 V c 1 t) (iblk1 V c 2 t) (ix2 p q)
    = bnRelu1 (V c main_v28_0) (V c main_v11) (V c main_v12) (V c main_v30) (V c main_v34) (((cfg1.win 5).blk t).view.emb (ix2 p q))
  have hk0 : ((((cfg1.win 5).blk t).view.emb (ix2 p q) : S100000x128.Idx) 0).val = t.val * 5000 + p.val := by
    show win1_5.index t (0 : Fin 2) * 5000 + 1 * p.val = _; rw [hi.1]; omega
  have hk1 : ((((cfg1.win 5).blk t).view.emb (ix2 p q) : S100000x128.Idx) 1).val = q.val := by
    show win1_5.index t (1 : Fin 2) * 128 + 1 * q.val = _; rw [hi.2]; omega
  refine (pay1_apply (iblk1 V c 0 t) (iblk1 V c 4 t) (iblk1 V c 3 t) (iblk1 V c 1 t) (iblk1 V c 2 t) p q).trans ?_
  refine ((bnRelu1_apply (V c main_v28_0) (V c main_v11) (V c main_v12) (V c main_v30) (V c main_v34) _ q hk1.symm).trans ?_).symm
  rw [iblk1_0_apply V c t p q _ hk0 hk1, iblk1_1_apply V c t q, iblk1_2_apply V c t q, iblk1_3_apply V c t q, iblk1_4_apply V c t q]

/-! ## The cover -/

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v35).slice (win1_5.rect t)).set ↔ _
  rw [View.set_slice_whole, Rect.mem_set_unit]
  exact Iff.rfl

/-- Every index of the output array is in the block of a point that writes back: row `r` in point `r / 5000`'s. -/
theorem cover1 (i : S100000x128.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  have hN : cfg1.N = 20 := N_1
  obtain ⟨t, ht⟩ : ∃ t : Fin cfg1.N, t.val = (i 0).val / 5000 := ⟨⟨(i 0).val / 5000, by rw [hN]; omega⟩, rfl⟩
  have hi : win1_5.index t (0 : Fin 2) = t.val ∧ win1_5.index t (1 : Fin 2) = 0 := (idx1 t).2.1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [hi.1, ht]; omega
  | ⟨1, _⟩ => show win1_5.index t (1 : Fin 2) * 128 ≤ (i 1).val ∧ (i 1).val < win1_5.index t (1 : Fin 2) * 128 + 128; rw [hi.2]; omega

/-! ## The arrays after the region -/

/-- The output array after the grid's last point is `bnRelu1` of the arrays the region found. -/
theorem arrAt1_out (c : Dev nD) :
    (dat1 V c).arrAt 5 cfg1.N = bnRelu1 (V c main_v28_0) (V c main_v11) (V c main_v12) (V c main_v30) (V c main_v34) :=
  (dat1 V c).arrAt_eq_of_cover 5 (bnRelu1 (V c main_v28_0) (V c main_v11) (V c main_v12) (V c main_v30) (V c main_v34))
    (fun t _ => flushed1_eq V c t) (cover1)

/-- Each input array is, after the region, as the region found it. -/
theorem arrAt1_in (c : Dev nD) (w : Fin cfg1.W) (hw : w.val < 5) :
    (dat1 V c).arrAt w cfg1.N = V c (Pipeline.arrRef spec1 w) :=
  ((dat1 V c).arrAt_in w (by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd h (Nat.lt_irrefl 5)) _).trans (A_eq1 V c w)

end Cert.KernelIdeal.Hand

end
-- ==== Proof.KI.BnRelu3Value.lean ====
/- The batch-normalisation-and-ReLU kernel of pipeline 3, read as values: after the grid's 20 points the
   output array holds, at every index `(r, k)` of its [100000, 128] extent,
   `max ((h (r, k) - mean k) * rsqrt (var k + eps) * g k + b k, 0)` of the arrays the region found, and the
   input arrays are as the region found them. Point `t` writes rows `5000 t … 5000 t + 4999`; row `r` is
   written by point `r / 5000`. -/
import proofs.«121727_j57028575756303_1_alg».proof.Proof.KI.BnRelu3
import proofs.«121727_j57028575756303_1_alg».proof.Proof.KI.BnReluPoint
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

variable (V : (c : Dev nD) → (b : Ref sig .tc) → Buf (Elt F) ((c : Thread nD τ).loc b))

/-! ## The whole-array function -/

/-- The output array as one function of the activations `h` and the four rows: at `(r, k)` the scalar
    function of `h (r, k)` and of each row's entry `k`. -/
def bnRelu3 (h : S100000x128.Idx → Elt F .f32) (g b mean var : S1x128.Idx → Elt F .f32) : S100000x128.Idx → Elt F .f32 :=
  fun i => bnPoint (h i) (g (ix2 (0 : Fin 1) (⟨(i 1).val, idx2_lt1 i⟩ : Fin 128))) (b (ix2 (0 : Fin 1) (⟨(i 1).val, idx2_lt1 i⟩ : Fin 128)))
    (mean (ix2 (0 : Fin 1) (⟨(i 1).val, idx2_lt1 i⟩ : Fin 128))) (var (ix2 (0 : Fin 1) (⟨(i 1).val, idx2_lt1 i⟩ : Fin 128)))

theorem bnRelu3_apply (h : S100000x128.Idx → Elt F .f32) (g b mean var : S1x128.Idx → Elt F .f32) (i : S100000x128.Idx) (q : Fin 128) (hq : q.val = (i 1).val) :
    bnRelu3 h g b mean var i = bnPoint (h i) (g (ix2 (0 : Fin 1) q)) (b (ix2 (0 : Fin 1) q)) (mean (ix2 (0 : Fin 1) q)) (var (ix2 (0 : Fin 1) q)) := by
  obtain rfl : q = ⟨(i 1).val, idx2_lt1 i⟩ := Fin.ext hq
  rfl

/-! ## The stored value at one element -/

/-- The value the body stores, at one element `(p, q)` of the block: the scalar function of the activations'
    element there and of each row's entry `q` (a [1, 128] row broadcast over 5000 rows reads its one row). -/
theorem pay3_apply (x0 : Vec F S5000x128 .f32) (x4 x3 x1 x2 : Vec F S1x128 .f32) (p : Fin 5000) (q : Fin 128) :
    k3_pay1 x0 x4 x3 x1 x2 (ix2 p q)
      = bnPoint (x0 (ix2 p q)) (x1 (ix2 (0 : Fin 1) q)) (x2 (ix2 (0 : Fin 1) q)) (x3 (ix2 (0 : Fin 1) q)) (x4 (ix2 (0 : Fin 1) q)) := by
  unfold k3_pay1 bnPoint
  simp only [shapeCast_self]
  show FloatOps.maximumf (FloatOps.addf (FloatOps.mulf (FloatOps.mulf (FloatOps.subf (x0 (ix2 p q))
      (broadcastTo S5000x128 x3 broadcasts_S1x128_S5000x128 (ix2 p q)))
      (broadcastTo S5000x128 (rsqrt (addf (x4 : FVec F S1x128 .f32) (broadcast S1x128 (Scalar.ofBits .f32 0x3727C5AC#32)))) broadcasts_S1x128_S5000x128 (ix2 p q)))
      (broadcastTo S5000x128 x1 broadcasts_S1x128_S5000x128 (ix2 p q)))
      (broadcastTo S5000x128 x2 broadcasts_S1x128_S5000x128 (ix2 p q))) (Scalar.ofBits .f32 0x00000000#32) = _
  rw [broadcastTo_1b_ab_apply, broadcastTo_1b_ab_apply, broadcastTo_1b_ab_apply, broadcastTo_1b_ab_apply]
  rfl

/-! ## The index maps, decided over the grid -/

/-- The activations' and the output's block index at point `t` is `(t, 0)`; the four rows' is `(0, 0)`. -/
theorem idx3 : ∀ t : Fin cfg3.N, (win3_0.index t (0 : Fin 2) = t.val ∧ win3_0.index t (1 : Fin 2) = 0)
    ∧ (win3_5.index t (0 : Fin 2) = t.val ∧ win3_5.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0) :=
  (by decide +kernel : ∀ t : Fin grid3.N, _)

/-! ## The input blocks as reads of the arrays -/

/-- The activations' block at point `t` is rows `5000 t … 5000 t + 4999` of their array. -/
theorem iblk3_0_apply (c : Dev nD) (t : Fin cfg3.N) (p : Fin 5000) (q : Fin 128) (k : S100000x128.Idx)
    (hk0 : (k 0).val = t.val * 5000 + p.val) (hk1 : (k 1).val = q.val) :
    (iblk3 V c 0 t : Vec F S5000x128 .f32) (ix2 p q) = (V c main_v56_0 : S100000x128.Idx → Elt F .f32) k := by
  have hi : win3_0.index t (0 : Fin 2) = t.val ∧ win3_0.index t (1 : Fin 2) = 0 := (idx3 t).1
  unfold iblk3
  rw [View.read_apply]
  show V c main_v56_0 _ = V c main_v56_0 _
  congr 1
  funext a
  apply Fin.ext
  match a with
  | ⟨0, _⟩ => show win3_0.index t (0 : Fin 2) * 5000 + 1 * p.val = (k 0).val; rw [hi.1, hk0]; omega
  | ⟨1, _⟩ => show win3_0.index t (1 : Fin 2) * 128 + 1 * q.val = (k 1).val; rw [hi.2, hk1]; omega

/-- Row window 1's block at any point is its whole [1, 128] array. -/
theorem iblk3_1_apply (c : Dev nD) (t : Fin cfg3.N) (q : Fin 128) :
    (iblk3 V c 1 t : Vec F S1x128 .f32) (ix2 (0 : Fin 1) q) = (V c main_v39 : S1x128.Idx → Elt F .f32) (ix2 (0 : Fin 1) q) := by
  have hi : win3_1.index t (0 : Fin 2) = 0 ∧ win3_1.index t (1 : Fin 2) = 0 := (idx3 t).2.2.1
  unfold iblk3
  rw [View.read_apply]
  show V c main_v39 _ = V c main_v39 _
  congr 1
  funext a
  apply Fin.ext
  match a with
  | ⟨0, _⟩ => show win3_1.index t (0 : Fin 2) * 1 + 1 * (0 : Fin 1).val = (0 : Fin 1).val; rw [hi.1]; rfl
  | ⟨1, _⟩ => show win3_1.index t (1 : Fin 2) * 128 + 1 * q.val = q.val; rw [hi.2]; omega

/-- Row window 2's block at any point is its whole [1, 128] array. -/
theorem iblk3_2_apply (c : Dev nD) (t : Fin cfg3.N) (q : Fin 128) :
    (iblk3 V c 2 t : Vec F S1x128 .f32) (ix2 (0 : Fin 1) q) = (V c main_v40 : S1x128.Idx → Elt F .f32) (ix2 (0 : Fin 1) q) := by
  have hi : win3_2.index t (0 : Fin 2) = 0 ∧ win3_2.index t (1 : Fin 2) = 0 := (idx3 t).2.2.2.1
  unfold iblk3
  rw [View.read_apply]
  show V c main_v40 _ = V c main_v40 _
  congr 1
  funext a
  apply Fin.ext
  match a with
  | ⟨0, _⟩ => show win3_2.index t (0 : Fin 2) * 1 + 1 * (0 : Fin 1).val = (0 : Fin 1).val; rw [hi.1]; rfl
  | ⟨1, _⟩ => show win3_2.index t (1 : Fin 2) * 128 + 1 * q.val = q.val; rw [hi.2]; omega

/-- Row window 3's block at any point is its whole [1, 128] array. -/
theorem iblk3_3_apply (c : Dev nD) (t : Fin cfg3.N) (q : Fin 128) :
    (iblk3 V c 3 t : Vec F S1x128 .f32) (ix2 (0 : Fin 1) q) = (V c main_v58 : S1x128.Idx → Elt F .f32) (ix2 (0 : Fin 1) q) := by
  have hi : win3_3.index t (0 : Fin 2) = 0 ∧ win3_3.index t (1 : Fin 2) = 0 := (idx3 t).2.2.2.2.1
  unfold iblk3
  rw [View.read_apply]
  show V c main_v58 _ = V c main_v58 _
  congr 1
  funext a
  apply Fin.ext
  match a with
  | ⟨0, _⟩ => show win3_3.index t (0 : Fin 2) * 1 + 1 * (0 : Fin 1).val = (0 : Fin 1).val; rw [hi.1]; rfl
  | ⟨1, _⟩ => show win3_3.index t (1 : Fin 2) * 128 + 1 * q.val = q.val; rw [hi.2]; omega

/-- Row window 4's block at any point is its whole [1, 128] array. -/
theorem iblk3_4_apply (c : Dev nD) (t : Fin cfg3.N) (q : Fin 128) :
    (iblk3 V c 4 t : Vec F S1x128 .f32) (ix2 (0 : Fin 1) q) = (V c main_v62 : S1x128.Idx → Elt F .f32) (ix2 (0 : Fin 1) q) := by
  have hi : win3_4.index t (0 : Fin 2) = 0 ∧ win3_4.index t (1 : Fin 2) = 0 := (idx3 t).2.2.2.2.2
  unfold iblk3
  rw [View.read_apply]
  show V c main_v62 _ = V c main_v62 _
  congr 1
  funext a
  apply Fin.ext
  match a with
  | ⟨0, _⟩ => show win3_4.index t (0 : Fin 2) * 1 + 1 * (0 : Fin 1).val = (0 : Fin 1).val; rw [hi.1]; rfl
  | ⟨1, _⟩ => show win3_4.index t (1 : Fin 2) * 128 + 1 * q.val = q.val; rw [hi.2]; omega

/-! ## What a point writes back -/

/-- Point `t` writes back block `t` of `bnRelu3` of the arrays as the region finds them. -/
theorem flushed3_eq (c : Dev nD) (t : Fin cfg3.N) :
    (dat3 V c).flushed 5 t = ((cfg3.win 5).blk t).view.read (Elt F)
      (bnRelu3 (V c main_v56_0) (V c main_v39) (V c main_v40) (V c main_v58) (V c main_v62)) := by
  show (cfg3.win 5).cut (grid3.coords t) ((dat3 V c).after 5 t) = _
  rw [after3_5]
  unfold out3_5
  rw [View.canon_unit_zero zero_off2]
  simp only [View.ld_unit_zero (S := S5000x128) zero_off2, View.ld_unit_zero (S := S1x128) zero_off2]
  have hi : win3_5.index t (0 : Fin 2) = t.val ∧ win3_5.index t (1 : Fin 2) = 0 := (idx3 t).2.1
  refine funext fun (j : S5000x128.Idx) => ?_
  obtain ⟨p, q, rfl⟩ : ∃ (p : Fin 5000) (q : Fin 128), j = ix2 p q := ⟨j 0, j 1, eq_ix2 j⟩
  show k3_pay1 (iblk3 V c 0 t) (iblk3 V c 4 t) (iblk3 V c 3 t) (iblk3 V c 1 t) (iblk3 V c 2 t) (ix2 p q)
    = bnRelu3 (V c main_v56_0) (V c main_v39) (V c main_v40) (V c main_v58) (V c main_v62) (((cfg3.win 5).blk t).view.emb (ix2 p q))
  have hk0 : ((((cfg3.win 5).blk t).view.emb (ix2 p q) : S100000x128.Idx) 0).val = t.val * 5000 + p.val := by
    show win3_5.index t (0 : Fin 2) * 5000 + 1 * p.val = _; rw [hi.1]; omega
  have hk1 : ((((cfg3.win 5).blk t).view.emb (ix2 p q) : S100000x128.Idx) 1).val = q.val := by
    show win3_5.index t (1 : Fin 2) * 128 + 1 * q.val = _; rw [hi.2]; omega
  refine (pay3_apply (iblk3 V c 0 t) (iblk3 V c 4 t) (iblk3 V c 3 t) (iblk3 V c 1 t) (iblk3 V c 2 t) p q).trans ?_
  refine ((bnRelu3_apply (V c main_v56_0) (V c main_v39) (V c main_v40) (V c main_v58) (V c main_v62) _ q hk1.symm).trans ?_).symm
  rw [iblk3_0_apply V c t p q _ hk0 hk1, iblk3_1_apply V c t q, iblk3_2_apply V c t q, iblk3_3_apply V c t q, iblk3_4_apply V c t q]

/-! ## The cover -/

/-- An index of the output array is in point `t`'s block iff each coordinate is in the block's range on its axis. -/
theorem mem_blk3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v63).slice (win3_5.rect t)).set ↔ _
  rw [View.set_slice_whole, Rect.mem_set_unit]
  exact Iff.rfl

/-- Every index of the output array is in the block of a point that writes back: row `r` in point `r / 5000`'s. -/
theorem cover3 (i : S100000x128.Idx) : ∃ t : Fin cfg3.N, (cfg3.win 5).flush t = true ∧ i ∈ ((cfg3.win 5).blk t).view.set := by
  have hi0 : (i 0).val < 100000 := idx2_lt0 i
  have hi1 : (i 1).val < 128 := idx2_lt1 i
  have hN : cfg3.N = 20 := N_3
  obtain ⟨t, ht⟩ : ∃ t : Fin cfg3.N, t.val = (i 0).val / 5000 := ⟨⟨(i 0).val / 5000, by rw [hN]; omega⟩, rfl⟩
  have hi : win3_5.index t (0 : Fin 2) = t.val ∧ win3_5.index t (1 : Fin 2) = 0 := (idx3 t).2.1
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; rw [hi.1, ht]; omega
  | ⟨1, _⟩ => show win3_5.index t (1 : Fin 2) * 128 ≤ (i 1).val ∧ (i 1).val < win3_5.index t (1 : Fin 2) * 128 + 128; rw [hi.2]; omega

/-! ## The arrays after the region -/

/-- The output array after the grid's last point is `bnRelu3` of the arrays the region found. -/
theorem arrAt3_out (c : Dev nD) :
    (dat3 V c).arrAt 5 cfg3.N = bnRelu3 (V c main_v56_0) (V c main_v39) (V c main_v40) (V c main_v58) (V c main_v62) :=
  (dat3 V c).arrAt_eq_of_cover 5 (bnRelu3 (V c main_v56_0) (V c main_v39) (V c main_v40) (V c main_v58) (V c main_v62))
    (fun t _ => flushed3_eq V c t) (cover3)

/-- Each input array is, after the region, as the region found it. -/
theorem arrAt3_in (c : Dev nD) (w : Fin cfg3.W) (hw : w.val < 5) :
    (dat3 V c).arrAt w cfg3.N = V c (Pipeline.arrRef spec3 w) :=
  ((dat3 V c).arrAt_in w (by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd h (Nat.lt_irrefl 5)) _).trans (A_eq3 V c w)

end Cert.KernelIdeal.Hand

end
-- ==== Proof.KI.BnRelu5Value.lean ====
/- The batch-normalisation-and-ReLU kernel of pipeline 5, read as values: after the grid's 20 points the
   output array holds, at every index `(r, k)` of its [100000, 64] extent,
   `max ((h (r, k) - mean k) * rsqrt (var k + eps) * g k + b k, 0)` of the arrays the region found, and the
   input arrays are as the region found them. Point `t` writes rows `5000 t … 5000 t + 4999`; row `r` is
   written by point `r / 5000`. -/
import proofs.«121727_j57028575756303_1_alg».proof.Proof.KI.BnRelu5
import proofs.«121727_j57028575756303_1_alg».proof.Proof.KI.BnReluPoint
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

variable (V : (c : Dev nD) → (b : Ref sig .tc) → Buf (Elt F) ((c : Thread nD τ).loc b))

/-! ## The whole-array function -/

/-- The output array as one function of the activations `h` and the four rows: at `(r, k)` the scalar
    function of `h (r, k)` and of each row's entry `k`. -/
def bnRelu5 (h : S100000x64.Idx → Elt F .f32) (g b mean var : S1x64.Idx → Elt F .f32) : S100000x64.Idx → Elt F .f32 :=
  fun i => bnPoint (h i) (g (ix2 (0 : Fin 1) (⟨(i 1).val, idx2_lt1 i⟩ : Fin 64))) (b (ix2 (0 : Fin 1) (⟨(i 1).val, idx2_lt1 i⟩ : Fin 64)))
    (mean (ix2 (0 : Fin 1) (⟨(i 1).val, idx2_lt1 i⟩ : Fin 64))) (var (ix2 (0 : Fin 1) (⟨(i 1).val, idx2_lt1 i⟩ : Fin 64)))

theorem bnRelu5_apply (h : S100000x64.Idx → Elt F .f32) (g b mean var : S1x64.Idx → Elt F .f32) (i : S100000x64.Idx) (q : Fin 64) (hq : q.val = (i 1).val) :
    bnRelu5 h g b mean var i = bnPoint (h i) (g (ix2 (0 : Fin 1) q)) (b (ix2 (0 : Fin 1) q)) (mean (ix2 (0 : Fin 1) q)) (var (ix2 (0 : Fin 1) q)) := by
  obtain rfl : q = ⟨(i 1).val, idx2_lt1 i⟩ := Fin.ext hq
  rfl

/-! ## The stored value at one element -/

/-- The value the body stores, at one element `(p, q)` of the block: the scalar function of the activations'
    element there and of each row's entry `q` (a [1, 64] row broadcast over 5000 rows reads its one row). -/
theorem pay5_apply (x0 : Vec F S5000x64 .f32) (x4 x3 x1 x2 : Vec F S1x64 .f32) (p : Fin 5000) (q : Fin 64) :
    k5_pay1 x0 x4 x3 x1 x2 (ix2 p q)
      = bnPoint (x0 (ix2 p q)) (x1 (ix2 (0 : Fin 1) q)) (x2 (ix2 (0 : Fin 1) q)) (x3 (ix2 (0 : Fin 1) q)) (x4 (ix2 (0 : Fin 1) q)) := by
  unfold k5_pay1 bnPoint
  simp only [shapeCast_self]
  show FloatOps.maximumf (FloatOps.addf (FloatOps.mulf (FloatOps.mulf (FloatOps.subf (x0 (ix2 p q))
      (broadcastTo S5000x64 x3 broadcasts_S1x64_S5000x64 (ix2 p q)))
      (broadcastTo S5000x64 (rsqrt (addf (x4 : FVec F S1x64 .f32) (broadcast S1x64 (Scalar.ofBits .f32 0x3727C5AC#32)))) broadcasts_S1x64_S5000x64 (ix2 p q)))
      (broadcastTo S5000x64 x1 broadcasts_S1x64_S5000x64 (ix2 p q)))
      (broadcastTo S5000x64 x2 broadcasts_S1x64_S5000x64 (ix2 p q))) (Scalar.ofBits .f32 0x00000000#32) = _
  rw [broadcastTo_1b_ab_apply, broadcastTo_1b_ab_apply, broadcastTo_1b_ab_apply, broadcastTo_1b_ab_apply]
  rfl

/-! ## The index maps, decided over the grid -/

/-- The activations' and the output's block index at point `t` is `(t, 0)`; the four rows' is `(0, 0)`. -/
theorem idx5 : ∀ t : Fin cfg5.N, (win5_0.index t (0 : Fin 2) = t.val ∧ win5_0.index t (1 : Fin 2) = 0)
    ∧ (win5_5.index t (0 : Fin 2) = t.val ∧ win5_5.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0) :=
  (by decide +kernel : ∀ t : Fin grid5.N, _)

/-! ## The input blocks as reads of the arrays -/

/-- The activations' block at point `t` is rows `5000 t … 5000 t + 4999` of their array. -/
theorem iblk5_0_apply (c : Dev nD) (t : Fin cfg5.N) (p : Fin 5000) (q : Fin 64) (k : S100000x64.Idx)
    (hk0 : (k 0).val = t.val * 5000 + p.val) (hk1 : (k 1).val = q.val) :
    (iblk5 V c 0 t : Vec F S5000x64 .f32) (ix2 p q) = (V c main_v84_0 : S100000x64.Idx → Elt F .f32) k := by
  have hi : win5_0.index t (0 : Fin 2) = t.val ∧ win5_0.index t (1 : Fin 2) = 0 := (idx5 t).1
  unfold iblk5
  rw [View.read_apply]
  show V c main_v84_0 _ = V c main_v84_0 _
  congr 1
  funext a
  apply Fin.ext
  match a with
  | ⟨0, _⟩ => show win5_0.index t (0 : Fin 2) * 5000 + 1 * p.val = (k 0).val; rw [hi.1, hk0]; omega
  | ⟨1, _⟩ => show win5_0.index t (1 : Fin 2) * 64 + 1 * q.val = (k 1).val; rw [hi.2, hk1]; omega

/-- Row window 1's block at any point is its whole [1, 64] array. -/
theorem iblk5_1_apply (c : Dev nD) (t : Fin cfg5.N) (q : Fin 64) :
    (iblk5 V c 1 t : Vec F S1x64 .f32) (ix2 (0 : Fin 1) q) = (V c main_v67 : S1x64.Idx → Elt F .f32) (ix2 (0 : Fin 1) q) := by
  have hi : win5_1.index t (0 : Fin 2) = 0 ∧ win5_1.index t (1 : Fin 2) = 0 := (idx5 t).2.2.1
  unfold iblk5
  rw [View.read_apply]
  show V c main_v67 _ = V c main_v67 _
  congr 1
  funext a
  apply Fin.ext
  match a with
  | ⟨0, _⟩ => show win5_1.index t (0 : Fin 2) * 1 + 1 * (0 : Fin 1).val = (0 : Fin 1).val; rw [hi.1]; rfl
  | ⟨1, _⟩ => show win5_1.index t (1 : Fin 2) * 64 + 1 * q.val = q.val; rw [hi.2]; omega

/-- Row window 2's block at any point is its whole [1, 64] array. -/
theorem iblk5_2_apply (c : Dev nD) (t : Fin cfg5.N) (q : Fin 64) :
    (iblk5 V c 2 t : Vec F S1x64 .f32) (ix2 (0 : Fin 1) q) = (V c main_v68 : S1x64.Idx → Elt F .f32) (ix2 (0 : Fin 1) q) := by
  have hi : win5_2.index t (0 : Fin 2) = 0 ∧ win5_2.index t (1 : Fin 2) = 0 := (idx5 t).2.2.2.1
  unfold iblk5
  rw [View.read_apply]
  show V c main_v68 _ = V c main_v68 _
  congr 1
  funext a
  apply Fin.ext
  match a with
  | ⟨0, _⟩ => show win5_2.index t (0 : Fin 2) * 1 + 1 * (0 : Fin 1).val = (0 : Fin 1).val; rw [hi.1]; rfl
  | ⟨1, _⟩ => show win5_2.index t (1 : Fin 2) * 64 + 1 * q.val = q.val; rw [hi.2]; omega

/-- Row window 3's block at any point is its whole [1, 64] array. -/
theorem iblk5_3_apply (c : Dev nD) (t : Fin cfg5.N) (q : Fin 64) :
    (iblk5 V c 3 t : Vec F S1x64 .f32) (ix2 (0 : Fin 1) q) = (V c main_v86 : S1x64.Idx → Elt F .f32) (ix2 (0 : Fin 1) q) := by
  have hi : win5_3.index t (0 : Fin 2) = 0 ∧ win5_3.index t (1 : Fin 2) = 0 := (idx5 t).2.2.2.2.1
  unfold iblk5
  rw [View.read_apply]
  show V c main_v86 _ = V c main_v86 _
  congr 1
  funext a
  apply Fin.ext
  match a with
  | ⟨0, _⟩ => show win5_3.index t (0 : Fin 2) * 1 + 1 * (0 : Fin 1).val = (0 : Fin 1).val; rw [hi.1]; rfl
  | ⟨1, _⟩ => show win5_3.index t (1 : Fin 2) * 64 + 1 * q.val = q.val; rw [hi.2]; omega

/-- Row window 4's block at any point is its whole [1, 64] array. -/
theorem iblk5_4_apply (c : Dev nD) (t : Fin cfg5.N) (q : Fin 64) :
    (iblk5 V c 4 t : Vec F S1x64 .f32) (ix2 (0 : Fin 1) q) = (V c main_v90 : S1x64.Idx → Elt F .f32) (ix2 (0 : Fin 1) q) := by
  have hi : win5_4.index t (0 : Fin 2) = 0 ∧ win5_4.index t (1 : Fin 2) = 0 := (idx5 t).2.2.2.2.2
  unfold iblk5
  rw [View.read_apply]
  show V c main_v90 _ = V c main_v90 _
  congr 1
  funext a
  apply Fin.ext
  match a with
  | ⟨0, _⟩ => show win5_4.index t (0 : Fin 2) * 1 + 1 * (0 : Fin 1).val = (0 : Fin 1).val; rw [hi.1]; rfl
  | ⟨1, _⟩ => show win5_4.index t (1 : Fin 2) * 64 + 1 * q.val = q.val; rw [hi.2]; omega

/-! ## What a point writes back -/

/-- Point `t` writes back block `t` of `bnRelu5` of the arrays as the region finds them. -/
theorem flushed5_eq (c : Dev nD) (t : Fin cfg5.N) :
    (dat5 V c).flushed 5 t = ((cfg5.win 5).blk t).view.read (Elt F)
      (bnRelu5 (V c main_v84_0) (V c main_v67) (V c main_v68) (V c main_v86) (V c main_v90)) := by
  show (cfg5.win 5).cut (grid5.coords t) ((dat5 V c).after 5 t) = _
  rw [after5_5]
  unfold out5_5
  rw [View.canon_unit_zero zero_off2]
  simp only [View.ld_unit_zero (S := S5000x64) zero_off2, View.ld_unit_zero (S := S1x64) zero_off2]
  have hi : win5_5.index t (0 : Fin 2) = t.val ∧ win5_5.index t (1 : Fin 2) = 0 := (idx5 t).2.1
  refine funext fun (j : S5000x64.Idx) => ?_
  obtain ⟨p, q, rfl⟩ : ∃ (p : Fin 5000) (q : Fin 64), j = ix2 p q := ⟨j 0, j 1, eq_ix2 j⟩
  show k5_pay1 (iblk5 V c 0 t) (iblk5 V c 4 t) (iblk5 V c 3 t) (iblk5 V c 1 t) (iblk5 V c 2 t) (ix2 p q)
    = bnRelu5 (V c main_v84_0) (V c main_v67) (V c main_v68) (V c main_v86) (V c main_v90) (((cfg5.win 5).blk t).view.emb (ix2 p q))
  have hk0 : ((((cfg5.win 5).blk t).view.emb (ix2 p q) : S100000x64.Idx) 0).val = t.val * 5000 + p.val := by
    show win5_5.index t (0 : Fin 2) * 5000 + 1 * p.val = _; rw [hi.1]; omega
  have hk1 : ((((cfg5.win 5).blk t).view.emb (ix2 p q) : S100000x64.Idx) 1).val = q.val := by
    show win5_5.index t (1 : Fin 2) * 64 + 1 * q.val = _; rw [hi.2]; omega
  refine (pay5_apply (iblk5 V c 0 t) (iblk5 V c 4 t) (iblk5 V c 3 t) (iblk5 V c 1 t) (iblk5 V c 2 t) p q).trans ?_
  refine ((bnRelu5_apply (V c main_v84_0) (V c main_v67) (V c main_v68) (V c main_v86) (V c main_v90) _ q hk1.symm).trans ?_).symm
  rw [iblk5_0_apply V c t p q _ hk0 hk1, iblk5_1_apply V c t q, iblk5_2_apply V c t q, iblk5_3_apply V c t q, iblk5_4_apply V c t q]

/-! ## The cover -/

/-- An index of the output array is in point `t`'s block iff each coordinate is in the block's range on its axis. -/
theorem mem_blk5 (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v91).slice (win5_5.rect t)).set ↔ _
  rw [View.set_slice_whole, Rect.mem_set_unit]
  exact Iff.rfl

/-- Every index of the output array is in the block of a point that writes back: row `r` in point `r / 5000`'s. -/
theorem cover5 (i : S100000x64.Idx) : ∃ t : Fin cfg5.N, (cfg5.win 5).flush t = true ∧ i ∈ ((cfg5.win 5).blk t).view.set := by
  have hi0 : (i 0).val < 100000 := idx2_lt0 i
  have hi1 : (i 1).val < 64 := idx2_lt1 i
  have hN : cfg5.N = 20 := N_5
  obtain ⟨t, ht⟩ : ∃ t : Fin cfg5.N, t.val = (i 0).val / 5000 := ⟨⟨(i 0).val / 5000, by rw [hN]; omega⟩, rfl⟩
  have hi : win5_5.index t (0 : Fin 2) = t.val ∧ win5_5.index t (1 : Fin 2) = 0 := (idx5 t).2.1
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; rw [hi.1, ht]; omega
  | ⟨1, _⟩ => show win5_5.index t (1 : Fin 2) * 64 ≤ (i 1).val ∧ (i 1).val < win5_5.index t (1 : Fin 2) * 64 + 64; rw [hi.2]; omega

/-! ## The arrays after the region -/

/-- The output array after the grid's last point is `bnRelu5` of the arrays the region found. -/
theorem arrAt5_out (c : Dev nD) :
    (dat5 V c).arrAt 5 cfg5.N = bnRelu5 (V c main_v84_0) (V c main_v67) (V c main_v68) (V c main_v86) (V c main_v90) :=
  (dat5 V c).arrAt_eq_of_cover 5 (bnRelu5 (V c main_v84_0) (V c main_v67) (V c main_v68) (V c main_v86) (V c main_v90))
    (fun t _ => flushed5_eq V c t) (cover5)

/-- Each input array is, after the region, as the region found it. -/
theorem arrAt5_in (c : Dev nD) (w : Fin cfg5.W) (hw : w.val < 5) :
    (dat5 V c).arrAt w cfg5.N = V c (Pipeline.arrRef spec5 w) :=
  ((dat5 V c).arrAt_in w (by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd h (Nat.lt_irrefl 5)) _).trans (A_eq5 V c w)

end Cert.KernelIdeal.Hand

end
-- ==== Proof.KI.Classifier6Value.lean ====
/- The classifier kernel's value at the ideal (extended-real) float model: after region 6 the output array holds, at
   every row `r`, the sigmoid of `(∑ₖ max ((∑ⱼ h(r, j) · W₁(j, k)) + b₁(k)) 0 · W₂(k, 0)) + b₂` of the five input arrays as
   the region finds them (`arrAt6_out`), and each input array is unchanged (`arrAt6_in`). The narrowing casts to bf16 are
   the identity on extended reals; each product into the zero accumulator is the sum over the contracted coordinate;
   the biases are broadcast along the rows. Point `t` of the grid writes rows `5000 t … 5000 t + 4999`, and the
   twenty blocks cover the array. -/
import proofs.«121727_j57028575756303_1_alg».proof.Proof.KI.Classifier6
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The two products at an entry -/

theorem matmul_h_W1_apply (A : FVec Ideal S5000x64 .bf16) (B : FVec Ideal S64x32 .bf16) (p : Fin 5000) (k : Fin 32) :
    matmul dot_S5000x64_S64x32_S5000x32_1_0_0_1_n_n none A B (constant S5000x32 .f32 0x00000000#32) (ix2 p k)
      = ∑ j : Fin 64, A (ix2 p j) * B (ix2 j k) := by
  show FloatOps.matmul dot_S5000x64_S64x32_S5000x32_1_0_0_1_n_n none A B (constant S5000x32 .f32 0x00000000#32) (ix2 p k) = _
  rw [Ideal.matmul_constant_zero_apply, ← Equiv.sum_comp (contrEquiv1 dot_S5000x64_S64x32_S5000x32_1_0_0_1_n_n 64 rfl rfl).symm]
  refine Finset.sum_congr rfl fun c _ => ?_
  have c2 := contrEquiv1_symm_val dot_S5000x64_S64x32_S5000x32_1_0_0_1_n_n 64 rfl rfl c
  have l2 : dot_S5000x64_S64x32_S5000x32_1_0_0_1_n_n.lhsIdx (ix2 p k) ((contrEquiv1 _ 64 rfl rfl).symm c) = ix2 p c := by
    funext ax; apply Fin.ext
    match ax with
    | ⟨0, _⟩ => simp [DotDims.lhsIdx, dot_S5000x64_S64x32_S5000x32_1_0_0_1_n_n] <;> rfl
    | ⟨1, _⟩ => simp [DotDims.lhsIdx, dot_S5000x64_S64x32_S5000x32_1_0_0_1_n_n] <;> exact c2
  have r2 : dot_S5000x64_S64x32_S5000x32_1_0_0_1_n_n.rhsIdx (ix2 p k) ((contrEquiv1 _ 64 rfl rfl).symm c) = ix2 c k := by
    funext ax; apply Fin.ext
    match ax with
    | ⟨0, _⟩ => simp [DotDims.rhsIdx, dot_S5000x64_S64x32_S5000x32_1_0_0_1_n_n] <;> exact c2
    | ⟨1, _⟩ => simp [DotDims.rhsIdx, dot_S5000x64_S64x32_S5000x32_1_0_0_1_n_n] <;> rfl
  rw [l2, r2]

theorem matmul_a_W2_apply (A : FVec Ideal S5000x32 .bf16) (B : FVec Ideal S32x1 .bf16) (p : Fin 5000) (k : Fin 1) :
    matmul dot_S5000x32_S32x1_S5000x1_1_0_0_1_n_n none A B (constant S5000x1 .f32 0x00000000#32) (ix2 p k)
      = ∑ j : Fin 32, A (ix2 p j) * B (ix2 j k) := by
  show FloatOps.matmul dot_S5000x32_S32x1_S5000x1_1_0_0_1_n_n none A B (constant S5000x1 .f32 0x00000000#32) (ix2 p k) = _
  rw [Ideal.matmul_constant_zero_apply, ← Equiv.sum_comp (contrEquiv1 dot_S5000x32_S32x1_S5000x1_1_0_0_1_n_n 32 rfl rfl).symm]
  refine Finset.sum_congr rfl fun c _ => ?_
  have c2 := contrEquiv1_symm_val dot_S5000x32_S32x1_S5000x1_1_0_0_1_n_n 32 rfl rfl c
  have l2 : dot_S5000x32_S32x1_S5000x1_1_0_0_1_n_n.lhsIdx (ix2 p k) ((contrEquiv1 _ 32 rfl rfl).symm c) = ix2 p c := by
    funext ax; apply Fin.ext
    match ax with
    | ⟨0, _⟩ => simp [DotDims.lhsIdx, dot_S5000x32_S32x1_S5000x1_1_0_0_1_n_n] <;> rfl
    | ⟨1, _⟩ => simp [DotDims.lhsIdx, dot_S5000x32_S32x1_S5000x1_1_0_0_1_n_n] <;> exact c2
  have r2 : dot_S5000x32_S32x1_S5000x1_1_0_0_1_n_n.rhsIdx (ix2 p k) ((contrEquiv1 _ 32 rfl rfl).symm c) = ix2 c k := by
    funext ax; apply Fin.ext
    match ax with
    | ⟨0, _⟩ => simp [DotDims.rhsIdx, dot_S5000x32_S32x1_S5000x1_1_0_0_1_n_n] <;> exact c2
    | ⟨1, _⟩ => simp [DotDims.rhsIdx, dot_S5000x32_S32x1_S5000x1_1_0_0_1_n_n] <;> rfl
  rw [l2, r2]

/-- The sigmoid lane by lane. -/
theorem logistic_apply {s : Shape} {φ : FTy} (v : FVec Ideal s φ) (i : s.Idx) : logistic v i = Ideal.logistic (v i) := rfl

/-- The body's stored value at an entry: the sigmoid of the second layer's affine form of the rectified first layer's. -/
theorem k6_pay1_apply (x0 : Vec Ideal S5000x64 .f32) (x1 : Vec Ideal S64x32 .f32) (x2 : Vec Ideal S1x32 .f32)
    (x3 : Vec Ideal S32x1 .f32) (x4 : Vec Ideal S1x1 .f32) (p : Fin 5000) (q : Fin 1) :
    k6_pay1 x0 x1 x2 x3 x4 (ix2 p q)
      = Ideal.logistic ((∑ k : Fin 32, max ((∑ j : Fin 64, x0 (ix2 p j) * x1 (ix2 j k)) + x2 (ix2 0 k)) 0 * x3 (ix2 k q))
          + x4 (ix2 0 0)) := by
  unfold k6_pay1
  simp only [shapeCast_self]
  rw [logistic_apply, addf_apply, matmul_a_W2_apply,
    broadcastTo_apply x4 broadcasts_S1x1_S5000x1 (ix2 p q) (ix2 0 0) (fun a => by match a with | ⟨0, _⟩ => rfl | ⟨1, _⟩ => rfl)]
  congr 2
  refine Finset.sum_congr rfl fun k _ => ?_
  rw [truncf_apply, truncf_apply, maximumf_apply, addf_apply, matmul_h_W1_apply, broadcast_apply,
    broadcastTo_apply x2 broadcasts_S1x32_S5000x32 (ix2 p k) (ix2 0 k) (fun a => by match a with | ⟨0, _⟩ => rfl | ⟨1, _⟩ => rfl)]
  simp only [truncf_apply]
  rw [show (FloatOps.ofBits FTy.f32 0x00000000#32 : Ideal .f32) = 0 from Ideal.ofBits_zero_f32]

/-! ## The windows' index maps, decided over the grid -/

theorem hz6 : (![0, 0] : Fin 2 → Nat) = fun _ => 0 := funext fun a => by fin_cases a <;> rfl

/-- The activations' and the output's blocks move with the point along the rows; the four parameter windows stay at
    their one block. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row `p` of point `t`'s block is row `5000 t + p` of the array. -/
def rowOf6 (t : Fin cfg6.N) (p : Fin 5000) : Fin 100000 :=
  ⟨5000 * t.val + p.val, by have h1 := t.isLt; have h2 : cfg6.N = 20 := N_6; have h3 := p.isLt; omega⟩

variable (V : (c : Dev nD) → (b : Ref sig .tc) → Buf (Elt Ideal) ((c : Thread nD τ).loc b))

/-! ## The input blocks as entries of their arrays -/

/-- The activations' block at point `t` is rows `5000 t … 5000 t + 4999` of the array. -/
theorem iblk6_0_ix (c : Dev nD) (t : Fin cfg6.N) (p : Fin 5000) (j : Fin 64) :
    (iblk6 V c 0 t : Vec Ideal S5000x64 .f32) (ix2 p j)
      = (V c (Pipeline.arrRef spec6 0) : S100000x64.Idx → Elt Ideal .f32) (ix2 (rowOf6 t p) j) := by
  obtain ⟨e0, e1, -⟩ := idx_facts6 t
  unfold iblk6
  rw [View.read_apply]
  show (V c (Pipeline.arrRef spec6 0) : S100000x64.Idx → Elt Ideal .f32) _ = _
  congr 1
  funext ax; apply Fin.ext
  match ax with
  | ⟨0, _⟩ => show win6_0.index t (0 : Fin 2) * 5000 + 1 * p.val = 5000 * t.val + p.val; rw [e0]; omega
  | ⟨1, _⟩ => show win6_0.index t (1 : Fin 2) * 64 + 1 * j.val = j.val; rw [e1]; omega

/-- Parameter window 1's block at every point is its whole array. -/
theorem iblk6_1_ix (c : Dev nD) (t : Fin cfg6.N) (a : Fin 64) (b : Fin 32) :
    (iblk6 V c 1 t : Vec Ideal S64x32 .f32) (ix2 a b)
      = (V c (Pipeline.arrRef spec6 1) : S64x32.Idx → Elt Ideal .f32) (ix2 a b) := by
  obtain ⟨-, -, e2, e3, e4, e5, e6, e7, e8, e9, -, -⟩ := idx_facts6 t
  unfold iblk6
  rw [View.read_apply]
  show (V c (Pipeline.arrRef spec6 1) : S64x32.Idx → Elt Ideal .f32) _ = _
  congr 1
  funext ax; apply Fin.ext
  match ax with
  | ⟨0, _⟩ => show win6_1.index t (0 : Fin 2) * 64 + 1 * a.val = a.val; rw [e2]; omega
  | ⟨1, _⟩ => show win6_1.index t (1 : Fin 2) * 32 + 1 * b.val = b.val; rw [e3]; omega

/-- Parameter window 2's block at every point is its whole array. -/
theorem iblk6_2_ix (c : Dev nD) (t : Fin cfg6.N) (a : Fin 1) (b : Fin 32) :
    (iblk6 V c 2 t : Vec Ideal S1x32 .f32) (ix2 a b)
      = (V c (Pipeline.arrRef spec6 2) : S1x32.Idx → Elt Ideal .f32) (ix2 a b) := by
  obtain ⟨-, -, e2, e3, e4, e5, e6, e7, e8, e9, -, -⟩ := idx_facts6 t
  unfold iblk6
  rw [View.read_apply]
  show (V c (Pipeline.arrRef spec6 2) : S1x32.Idx → Elt Ideal .f32) _ = _
  congr 1
  funext ax; apply Fin.ext
  match ax with
  | ⟨0, _⟩ => show win6_2.index t (0 : Fin 2) * 1 + 1 * a.val = a.val; rw [e4]; omega
  | ⟨1, _⟩ => show win6_2.index t (1 : Fin 2) * 32 + 1 * b.val = b.val; rw [e5]; omega

/-- Parameter window 3's block at every point is its whole array. -/
theorem iblk6_3_ix (c : Dev nD) (t : Fin cfg6.N) (a : Fin 32) (b : Fin 1) :
    (iblk6 V c 3 t : Vec Ideal S32x1 .f32) (ix2 a b)
      = (V c (Pipeline.arrRef spec6 3) : S32x1.Idx → Elt Ideal .f32) (ix2 a b) := by
  obtain ⟨-, -, e2, e3, e4, e5, e6, e7, e8, e9, -, -⟩ := idx_facts6 t
  unfold iblk6
  rw [View.read_apply]
  show (V c (Pipeline.arrRef spec6 3) : S32x1.Idx → Elt Ideal .f32) _ = _
  congr 1
  funext ax; apply Fin.ext
  match ax with
  | ⟨0, _⟩ => show win6_3.index t (0 : Fin 2) * 32 + 1 * a.val = a.val; rw [e6]; omega
  | ⟨1, _⟩ => show win6_3.index t (1 : Fin 2) * 1 + 1 * b.val = b.val; rw [e7]; omega

/-- Parameter window 4's block at every point is its whole array. -/
theorem iblk6_4_ix (c : Dev nD) (t : Fin cfg6.N) (a : Fin 1) (b : Fin 1) :
    (iblk6 V c 4 t : Vec Ideal S1x1 .f32) (ix2 a b)
      = (V c (Pipeline.arrRef spec6 4) : S1x1.Idx → Elt Ideal .f32) (ix2 a b) := by
  obtain ⟨-, -, e2, e3, e4, e5, e6, e7, e8, e9, -, -⟩ := idx_facts6 t
  unfold iblk6
  rw [View.read_apply]
  show (V c (Pipeline.arrRef spec6 4) : S1x1.Idx → Elt Ideal .f32) _ = _
  congr 1
  funext ax; apply Fin.ext
  match ax with
  | ⟨0, _⟩ => show win6_4.index t (0 : Fin 2) * 1 + 1 * a.val = a.val; rw [e8]; omega
  | ⟨1, _⟩ => show win6_4.index t (1 : Fin 2) * 1 + 1 * b.val = b.val; rw [e9]; omega

/-! ## The output array as one function of the five input arrays -/

/-- The classifier, row by row: the sigmoid of `(∑ₖ max ((∑ⱼ h(r, j) · W₁(j, k)) + b₁(k)) 0 · W₂(k, 0)) + b₂`. -/
def cls6 (H : S100000x64.Idx → Ideal .f32) (W1 : S64x32.Idx → Ideal .f32) (B1 : S1x32.Idx → Ideal .f32)
    (W2 : S32x1.Idx → Ideal .f32) (B2 : S1x1.Idx → Ideal .f32) : S100000x1.Idx → Ideal .f32 :=
  fun i => Ideal.logistic ((∑ k : Fin 32, max ((∑ j : Fin 64, H (ix2 (i 0) j) * W1 (ix2 j k)) + B1 (ix2 0 k)) 0 * W2 (ix2 k 0))
    + B2 (ix2 0 0))

/-- What point `t` writes back is block `t` of `cls6` of the arrays as the region finds them. -/
theorem flushed6_5_eq (c : Dev nD) (t : Fin cfg6.N) :
    (dat6 V c).flushed 5 t = ((cfg6.win 5).blk t).view.read (Elt Ideal)
      (cls6 (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold out6_5
  rw [View.canon_unit_zero hz6]
  simp only [View.ld_unit_zero (S := S5000x64) hz6, View.ld_unit_zero (S := S64x32) hz6, View.ld_unit_zero (S := S1x32) hz6,
    View.ld_unit_zero (S := S32x1) hz6, View.ld_unit_zero (S := S1x1) hz6]
  obtain ⟨-, -, -, -, -, -, -, -, -, -, e10, e11⟩ := idx_facts6 t
  funext y
  obtain ⟨p, q, rfl⟩ : ∃ (p : Fin 5000) (q : Fin 1), y = ix2 p q := ⟨y 0, y 1, eq_ix2 y⟩
  obtain rfl : q = 0 := Subsingleton.elim _ _
  have hrow : (((cfg6.win 5).blk t).view.emb (ix2 p (0 : Fin 1))) 0 = rowOf6 t p :=
    Fin.ext (by show win6_5.index t (0 : Fin 2) * 5000 + 1 * p.val = 5000 * t.val + p.val; rw [e10]; omega)
  show k6_pay1 (iblk6 V c 0 t) (iblk6 V c 1 t) (iblk6 V c 2 t) (iblk6 V c 3 t) (iblk6 V c 4 t) (ix2 p 0)
    = cls6 _ _ _ _ _ (((cfg6.win 5).blk t).view.emb (ix2 p (0 : Fin 1)))
  rw [k6_pay1_apply]
  unfold cls6
  rw [hrow]
  simp only [iblk6_0_ix, iblk6_1_ix, iblk6_2_ix, iblk6_3_ix, iblk6_4_ix]

/-! ## The cover: every row is in one point's block -/

/-- An index of the output array is in point `t`'s block iff each coordinate is in the block's range on its axis. -/
theorem mem_blk6_5 (t : Fin cfg6.N) (i : S100000x1.Idx) :
    i ∈ ((cfg6.win 5).blk t).view.set ↔ ∀ a : Fin 2, win6_5.index t a * S5000x1.size a ≤ (i a).val
      ∧ (i a).val < win6_5.index t a * S5000x1.size a + S5000x1.size a := by
  show i ∈ ((View.whole main_v96).slice (win6_5.rect t)).set ↔ _
  rw [View.set_slice_whole, Rect.mem_set_unit]
  exact Iff.rfl

/-- Row `r` of the output array is in the block of point `r / 5000`, which writes back. -/
theorem covered6_5 (i : S100000x1.Idx) :
    ∃ t : Fin cfg6.N, (cfg6.win 5).flush t = true ∧ i ∈ ((cfg6.win 5).blk t).view.set := by
  have hi0 : (i 0).val < 100000 := (i 0).isLt
  have hi1 : (i 1).val < 1 := (i 1).isLt
  have hN : cfg6.N = 20 := N_6
  obtain ⟨t, ht⟩ : ∃ t : Fin cfg6.N, t.val = (i 0).val / 5000 := ⟨⟨(i 0).val / 5000, by omega⟩, rfl⟩
  obtain ⟨-, -, -, -, -, -, -, -, -, -, e10, e11⟩ := idx_facts6 t
  refine ⟨t, flush6_5 t, ?_⟩
  rw [mem_blk6_5]
  intro a
  match a with
  | ⟨0, _⟩ =>
    show win6_5.index t (0 : Fin 2) * 5000 ≤ (i 0).val ∧ (i 0).val < win6_5.index t (0 : Fin 2) * 5000 + 5000
    rw [e10]; omega
  | ⟨1, _⟩ =>
    show win6_5.index t (1 : Fin 2) * 1 ≤ (i 1).val ∧ (i 1).val < win6_5.index t (1 : Fin 2) * 1 + 1
    rw [e11]; omega

/-! ## The arrays after the region -/

/-- The output array after the region: `cls6` of the five input arrays as the region finds them, at every row. -/
theorem arrAt6_out (c : Dev nD) :
    (dat6 V c).arrAt 5 cfg6.N = cls6 (V c (Pipeline.arrRef spec6 0)) (V c (Pipeline.arrRef spec6 1))
      (V c (Pipeline.arrRef spec6 2)) (V c (Pipeline.arrRef spec6 3)) (V c (Pipeline.arrRef spec6 4)) :=
  (dat6 V c).arrAt_eq_of_cover 5 _ (fun t _ => flushed6_5_eq V c t) covered6_5

/-- Each input array after the region is as the region found it: an input window is never written back. -/
theorem arrAt6_in (c : Dev nD) (w : Fin cfg6.W) (hw : w.val < 5) :
    (dat6 V c).arrAt w cfg6.N = V c (Pipeline.arrRef spec6 w) := by
  have hin : (cfg6.win w).isOut = false := by
    fin_cases w
    · rfl
    · rfl
    · rfl
    · rfl
    · rfl
    · exact absurd hw (by decide)
  exact ((dat6 V c).arrAt_in w hin _).trans (A_eq6 V c w)

end Cert.KernelIdeal.Hand

end
-- ==== Proof.Join.Kernel.lean ====
/- The first program's arrays as functions of the launch contents `U` of its argument buffers: the edges' sources and
   destinations, the in-degree, and per layer the mean aggregate, the linear part, and the normalised, rectified
   output; then the classifier's output. Each is the composition of the stage functions the host stretches and the
   launches compute, in program order. -/
import proofs.«121727_j57028575756303_1_alg».proof.Proof.KI.HostStages
import proofs.«121727_j57028575756303_1_alg».proof.Proof.KI.Stats0Value
import proofs.«121727_j57028575756303_1_alg».proof.Proof.KI.Stats2Value
import proofs.«121727_j57028575756303_1_alg».proof.Proof.KI.Stats4Value
import proofs.«121727_j57028575756303_1_alg».proof.Proof.KI.BnRelu1Value
import proofs.«121727_j57028575756303_1_alg».proof.Proof.KI.BnRelu3Value
import proofs.«121727_j57028575756303_1_alg».proof.Proof.KI.BnRelu5Value
import proofs.«121727_j57028575756303_1_alg».proof.Proof.KI.Classifier6Value

noncomputable section

namespace Cert.Proof.Join

open Cert.KernelIdeal Cert.KernelIdeal.Gen Cert.KernelIdeal.Hand
open Idealize.ShloMosaic Idealize.ShloMosaic.TcCoe Idealize.SL.Sem Idealize.ShloMosaic.StableHlo

variable (U : Valuation τ sig (Elt Ideal))

/-- The source node of each edge. -/
def kSrc : (⟨S1600000, .i32⟩ : BufTy).Contents (Elt Ideal) := stage_src (F := Ideal) (U (Proc.devRef .tc main_arg1))
/-- The destination node of each edge. -/
def kDst : (⟨S1600000, .i32⟩ : BufTy).Contents (Elt Ideal) := stage_dst (F := Ideal) (U (Proc.devRef .tc main_arg1))
/-- The in-degree of each node. -/
def kCnt : (⟨S100000, .f32⟩ : BufTy).Contents (Elt Ideal) := stage_cnt (F := Ideal) (kDst U)

/-- Layer 1: the mean aggregate of the input features. -/
def kAgg0 : (⟨S100000x16, .f32⟩ : BufTy).Contents (Elt Ideal) := aggStage16 (F := Ideal) (U (Proc.devRef .tc main_arg0)) (kSrc U) (kDst U) (kCnt U)
/-- Layer 1: the linear part. -/
def kLin0 : S100000x128.Idx → Ideal .f32 :=
  lin0 (kAgg0 U) (U (Proc.devRef .tc main_arg0)) (transpose S16x128 [1, 0] (U (Proc.devRef .tc main_arg2)) transposes_S128x16_S16x128_1_0)
    (shapeCast S1x128 (U (Proc.devRef .tc main_arg3)) shapeCasts_S128_S1x128) (transpose S16x128 [1, 0] (U (Proc.devRef .tc main_arg4)) transposes_S128x16_S16x128_1_0)
/-- Layer 1: the normalised, rectified output. -/
def kH1 : S100000x128.Idx → Ideal .f32 :=
  bnRelu1 (F := Ideal) (kLin0 U) (shapeCast S1x128 (U (Proc.devRef .tc main_arg5)) shapeCasts_S128_S1x128) (shapeCast S1x128 (U (Proc.devRef .tc main_arg6)) shapeCasts_S128_S1x128)
    (meanStage S1x128 bcast_S_S1x128 (colSum0 (kLin0 U))) (varStage S1x128 bcast_S_S1x128 (colSum0 (kLin0 U)) (colSumSq0 (kLin0 U)))

/-- Layer 2: the mean aggregate of layer 1's output. -/
def kAgg1 : (⟨S100000x128, .f32⟩ : BufTy).Contents (Elt Ideal) := aggStage128 (F := Ideal) (kH1 U) (kSrc U) (kDst U) (kCnt U)
/-- Layer 2: the linear part. -/
def kLin1 : S100000x128.Idx → Ideal .f32 :=
  lin2 (kAgg1 U) (kH1 U) (transpose S128x128 [1, 0] (U (Proc.devRef .tc main_arg7)) transposes_S128x128_S128x128_1_0)
    (shapeCast S1x128 (U (Proc.devRef .tc main_arg8)) shapeCasts_S128_S1x128) (transpose S128x128 [1, 0] (U (Proc.devRef .tc main_arg9)) transposes_S128x128_S128x128_1_0)
/-- Layer 2: the normalised, rectified output. -/
def kH2 : S100000x128.Idx → Ideal .f32 :=
  bnRelu3 (F := Ideal) (kLin1 U) (shapeCast S1x128 (U (Proc.devRef .tc main_arg10)) shapeCasts_S128_S1x128) (shapeCast S1x128 (U (Proc.devRef .tc main_arg11)) shapeCasts_S128_S1x128)
    (meanStage S1x128 bcast_S_S1x128 (colSum2 (kLin1 U))) (varStage S1x128 bcast_S_S1x128 (colSum2 (kLin1 U)) (colSumSq2 (kLin1 U)))

/-- Layer 3: the mean aggregate of layer 2's output. -/
def kAgg2 : (⟨S100000x128, .f32⟩ : BufTy).Contents (Elt Ideal) := aggStage128 (F := Ideal) (kH2 U) (kSrc U) (kDst U) (kCnt U)
/-- Layer 3: the linear part. -/
def kLin2 : S100000x64.Idx → Ideal .f32 :=
  lin4 (kAgg2 U) (kH2 U) (transpose S128x64 [1, 0] (U (Proc.devRef .tc main_arg12)) transposes_S64x128_S128x64_1_0)
    (shapeCast S1x64 (U (Proc.devRef .tc main_arg13)) shapeCasts_S64_S1x64) (transpose S128x64 [1, 0] (U (Proc.devRef .tc main_arg14)) transposes_S64x128_S128x64_1_0)
/-- Layer 3: the normalised, rectified output. -/
def kH3 : S100000x64.Idx → Ideal .f32 :=
  bnRelu5 (F := Ideal) (kLin2 U) (shapeCast S1x64 (U (Proc.devRef .tc main_arg15)) shapeCasts_S64_S1x64) (shapeCast S1x64 (U (Proc.devRef .tc main_arg16)) shapeCasts_S64_S1x64)
    (meanStage S1x64 bcast_S_S1x64 (colSum4 (kLin2 U))) (varStage S1x64 bcast_S_S1x64 (colSum4 (kLin2 U)) (colSumSq4 (kLin2 U)))

/-- The classifier's output. -/
def kOut : S100000x1.Idx → Ideal .f32 :=
  cls6 (kH3 U) (transpose S64x32 [1, 0] (U (Proc.devRef .tc main_arg17)) transposes_S32x64_S64x32_1_0) (shapeCast S1x32 (U (Proc.devRef .tc main_arg18)) shapeCasts_S32_S1x32)
    (transpose S32x1 [1, 0] (U (Proc.devRef .tc main_arg19)) transposes_S1x32_S32x1_1_0) (shapeCast S1x1 (U (Proc.devRef .tc main_arg20)) shapeCasts_S1_S1x1)

end Cert.Proof.Join

end
-- ==== Proof.Join.Walk.lean ====
/- The first program's buffers at the boundaries of its fourteen segments, read back to the launch contents: each
   buffer a later segment reads is the composition of stage functions named in the kernel-side table, and the result
   buffer after the last launch is the classifier's output of the launch contents. A host stretch or a launch that
   does not write a buffer leaves it as it was. -/
import proofs.«121727_j57028575756303_1_alg».proof.Proof.KI.Main
import proofs.«121727_j57028575756303_1_alg».proof.Proof.Join.Kernel

set_option maxRecDepth 16384

noncomputable section

namespace Cert.Proof.Join

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first host stretch -/
theorem w1_v1 : W1 (F := Ideal) m ρ c (Proc.devRef .tc main_v1) = kSrc (W0 (F := Ideal) m ρ c) :=
  after0_v1 (W0 (F := Ideal) m ρ c)
theorem w1_v3 : W1 (F := Ideal) m ρ c (Proc.devRef .tc main_v3) = kDst (W0 (F := Ideal) m ρ c) :=
  after0_v3 (W0 (F := Ideal) m ρ c)
theorem w1_v7 : W1 (F := Ideal) m ρ c (Proc.devRef .tc main_v7) = kCnt (W0 (F := Ideal) m ρ c) :=
  after0_v7 (W0 (F := Ideal) m ρ c)
theorem w1_v8 : W1 (F := Ideal) m ρ c (Proc.devRef .tc main_v8) = transpose S16x128 [1, 0] ((W0 (F := Ideal) m ρ c) (Proc.devRef .tc main_arg2)) transposes_S128x16_S16x128_1_0 :=
  after0_v8 (W0 (F := Ideal) m ρ c)
theorem w1_v9 : W1 (F := Ideal) m ρ c (Proc.devRef .tc main_v9) = shapeCast S1x128 ((W0 (F := Ideal) m ρ c) (Proc.devRef .tc main_arg3)) shapeCasts_S128_S1x128 :=
  after0_v9 (W0 (F := Ideal) m ρ c)
theorem w1_v10 : W1 (F := Ideal) m ρ c (Proc.devRef .tc main_v10) = transpose S16x128 [1, 0] ((W0 (F := Ideal) m ρ c) (Proc.devRef .tc main_arg4)) transposes_S128x16_S16x128_1_0 :=
  after0_v10 (W0 (F := Ideal) m ρ c)
theorem w1_v11 : W1 (F := Ideal) m ρ c (Proc.devRef .tc main_v11) = shapeCast S1x128 ((W0 (F := Ideal) m ρ c) (Proc.devRef .tc main_arg5)) shapeCasts_S128_S1x128 :=
  after0_v11 (W0 (F := Ideal) m ρ c)
theorem w1_v12 : W1 (F := Ideal) m ρ c (Proc.devRef .tc main_v12) = shapeCast S1x128 ((W0 (F := Ideal) m ρ c) (Proc.devRef .tc main_arg6)) shapeCasts_S128_S1x128 :=
  after0_v12 (W0 (F := Ideal) m ρ c)
theorem w1_v27 : W1 (F := Ideal) m ρ c (Proc.devRef .tc main_v27) = kAgg0 (W0 (F := Ideal) m ρ c) :=
  after0_v27 (W0 (F := Ideal) m ρ c)
theorem w1_arg0 : W1 (F := Ideal) m ρ c (Proc.devRef .tc main_arg0) = (W0 (F := Ideal) m ρ c) (Proc.devRef .tc main_arg0) :=
  (StableHlo.after_of_writes_sub hostOps0 _ hostOps0_writes (by decide))

/-! ## After the first launch: the linear part of layer 1, its column sums and sums of squares -/
theorem w2_v28_0 : W2 (F := Ideal) m ρ c (Proc.devRef .tc main_v28_0) = kLin0 (W0 (F := Ideal) m ρ c) :=
  (W2_arr m ρ c 5).trans ((arrAt0_5 (Hand.V1 m ρ) c).trans (by dsimp only [Hand.V1]; rw [w1_v27 m ρ c, w1_arg0 m ρ c, w1_v8 m ρ c, w1_v9 m ρ c, w1_v10 m ρ c]; rfl))
theorem w2_v28_1 : W2 (F := Ideal) m ρ c (Proc.devRef .tc main_v28_1) = colSum0 (kLin0 (W0 (F := Ideal) m ρ c)) :=
  (W2_arr m ρ c 6).trans ((arrAt0_6 (Hand.V1 m ρ) c).trans (by dsimp only [Hand.V1]; rw [w1_v27 m ρ c, w1_arg0 m ρ c, w1_v8 m ρ c, w1_v9 m ρ c, w1_v10 m ρ c]; rfl))
theorem w2_v28_2 : W2 (F := Ideal) m ρ c (Proc.devRef .tc main_v28_2) = colSumSq0 (kLin0 (W0 (F := Ideal) m ρ c)) :=
  (W2_arr m ρ c 7).trans ((arrAt0_7 (Hand.V1 m ρ) c).trans (by dsimp only [Hand.V1]; rw [w1_v27 m ρ c, w1_arg0 m ρ c, w1_v8 m ρ c, w1_v9 m ρ c, w1_v10 m ρ c]; rfl))

/-! ## After the second host stretch: the column mean and variance -/
theorem w3_v28_0 : W3 (F := Ideal) m ρ c (Proc.devRef .tc main_v28_0) = kLin0 (W0 (F := Ideal) m ρ c) :=
  (StableHlo.after_of_writes_sub hostOps1 _ hostOps1_writes (by decide)).trans (w2_v28_0 m ρ c)
theorem w3_v11 : W3 (F := Ideal) m ρ c (Proc.devRef .tc main_v11) = shapeCast S1x128 ((W0 (F := Ideal) m ρ c) (Proc.devRef .tc main_arg5)) shapeCasts_S128_S1x128 :=
  ((StableHlo.after_of_writes_sub hostOps1 _ hostOps1_writes (by decide)).trans (W2_of_ne m ρ c main_v11 (by decide))).trans (w1_v11 m ρ c)
theorem w3_v12 : W3 (F := Ideal) m ρ c (Proc.devRef .tc main_v12) = shapeCast S1x128 ((W0 (F := Ideal) m ρ c) (Proc.devRef .tc main_arg6)) shapeCasts_S128_S1x128 :=
  ((StableHlo.after_of_writes_sub hostOps1 _ hostOps1_writes (by decide)).trans (W2_of_ne m ρ c main_v12 (by decide))).trans (w1_v12 m ρ c)
theorem w3_v30 : W3 (F := Ideal) m ρ c (Proc.devRef .tc main_v30) = meanStage S1x128 bcast_S_S1x128 (colSum0 (kLin0 (W0 (F := Ideal) m ρ c))) :=
  (after1_v30 (W2 (F := Ideal) m ρ c)).trans (by rw [w2_v28_1 m ρ c])
theorem w3_v34 : W3 (F := Ideal) m ρ c (Proc.devRef .tc main_v34) = varStage S1x128 bcast_S_S1x128 (colSum0 (kLin0 (W0 (F := Ideal) m ρ c))) (colSumSq0 (kLin0 (W0 (F := Ideal) m ρ c))) :=
  (after1_v34 (W2 (F := Ideal) m ρ c)).trans (by rw [w2_v28_1 m ρ c, w2_v28_2 m ρ c])

/-! ## After the second launch: layer 1's output -/
theorem w4_v35 : W4 (F := Ideal) m ρ c (Proc.devRef .tc main_v35) = kH1 (W0 (F := Ideal) m ρ c) :=
  (W4_arr m ρ c 5).trans ((arrAt1_out (Hand.V3 m ρ) c).trans (by dsimp only [Hand.V3]; rw [w3_v28_0 m ρ c, w3_v11 m ρ c, w3_v12 m ρ c, w3_v30 m ρ c, w3_v34 m ρ c]; rfl))
theorem w4_v1 : W4 (F := Ideal) m ρ c (Proc.devRef .tc main_v1) = kSrc (W0 (F := Ideal) m ρ c) :=
  (((W4_of_ne m ρ c main_v1 (by decide)).trans (StableHlo.after_of_writes_sub hostOps1 _ hostOps1_writes (by decide))).trans (W2_of_ne m ρ c main_v1 (by decide))).trans (w1_v1 m ρ c)
theorem w4_v3 : W4 (F := Ideal) m ρ c (Proc.devRef .tc main_v3) = kDst (W0 (F := Ideal) m ρ c) :=
  (((W4_of_ne m ρ c main_v3 (by decide)).trans (StableHlo.after_of_writes_sub hostOps1 _ hostOps1_writes (by decide))).trans (W2_of_ne m ρ c main_v3 (by decide))).trans (w1_v3 m ρ c)
theorem w4_v7 : W4 (F := Ideal) m ρ c (Proc.devRef .tc main_v7) = kCnt (W0 (F := Ideal) m ρ c) :=
  (((W4_of_ne m ρ c main_v7 (by decide)).trans (StableHlo.after_of_writes_sub hostOps1 _ hostOps1_writes (by decide))).trans (W2_of_ne m ρ c main_v7 (by decide))).trans (w1_v7 m ρ c)
theorem w4_arg7 : W4 (F := Ideal) m ρ c (Proc.devRef .tc main_arg7) = (W0 (F := Ideal) m ρ c) (Proc.devRef .tc main_arg7) :=
  ((((W4_of_ne m ρ c main_arg7 (by decide)).trans (StableHlo.after_of_writes_sub hostOps1 _ hostOps1_writes (by decide))).trans (W2_of_ne m ρ c main_arg7 (by decide))).trans (StableHlo.after_of_writes_sub hostOps0 _ hostOps0_writes (by decide)))
theorem w4_arg8 : W4 (F := Ideal) m ρ c (Proc.devRef .tc main_arg8) = (W0 (F := Ideal) m ρ c) (Proc.devRef .tc main_arg8) :=
  ((((W4_of_ne m ρ c main_arg8 (by decide)).trans (StableHlo.after_of_writes_sub hostOps1 _ hostOps1_writes (by decide))).trans (W2_of_ne m ρ c main_arg8 (by decide))).trans (StableHlo.after_of_writes_sub hostOps0 _ hostOps0_writes (by decide)))
theorem w4_arg9 : W4 (F := Ideal) m ρ c (Proc.devRef .tc main_arg9) = (W0 (F := Ideal) m ρ c) (Proc.devRef .tc main_arg9) :=
  ((((W4_of_ne m ρ c main_arg9 (by decide)).trans (StableHlo.after_of_writes_sub hostOps1 _ hostOps1_writes (by decide))).trans (W2_of_ne m ρ c main_arg9 (by decide))).trans (StableHlo.after_of_writes_sub hostOps0 _ hostOps0_writes (by decide)))
theorem w4_arg10 : W4 (F := Ideal) m ρ c (Proc.devRef .tc main_arg10) = (W0 (F := Ideal) m ρ c) (Proc.devRef .tc main_arg10) :=
  ((((W4_of_ne m ρ c main_arg10 (by decide)).trans (StableHlo.after_of_writes_sub hostOps1 _ hostOps1_writes (by decide))).trans (W2_of_ne m ρ c main_arg10 (by decide))).trans (StableHlo.after_of_writes_sub hostOps0 _ hostOps0_writes (by decide)))
theorem w4_arg11 : W4 (F := Ideal) m ρ c (Proc.devRef .tc main_arg11) = (W0 (F := Ideal) m ρ c) (Proc.devRef .tc main_arg11) :=
  ((((W4_of_ne m ρ c main_arg11 (by decide)).trans (StableHlo.after_of_writes_sub hostOps1 _ hostOps1_writes (by decide))).trans (W2_of_ne m ρ c main_arg11 (by decide))).trans (StableHlo.after_of_writes_sub hostOps0 _ hostOps0_writes (by decide)))

/-! ## After the third host stretch -/
theorem w5_v35 : W5 (F := Ideal) m ρ c (Proc.devRef .tc main_v35) = kH1 (W0 (F := Ideal) m ρ c) :=
  (StableHlo.after_of_writes_sub hostOps2 _ hostOps2_writes (by decide)).trans (w4_v35 m ρ c)
theorem w5_v36 : W5 (F := Ideal) m ρ c (Proc.devRef .tc main_v36) = transpose S128x128 [1, 0] ((W0 (F := Ideal) m ρ c) (Proc.devRef .tc main_arg7)) transposes_S128x128_S128x128_1_0 :=
  (after2_v36 (W4 (F := Ideal) m ρ c)).trans (by rw [w4_arg7 m ρ c])
theorem w5_v37 : W5 (F := Ideal) m ρ c (Proc.devRef .tc main_v37) = shapeCast S1x128 ((W0 (F := Ideal) m ρ c) (Proc.devRef .tc main_arg8)) shapeCasts_S128_S1x128 :=
  (after2_v37 (W4 (F := Ideal) m ρ c)).trans (by rw [w4_arg8 m ρ c])
theorem w5_v38 : W5 (F := Ideal) m ρ c (Proc.devRef .tc main_v38) = transpose S128x128 [1, 0] ((W0 (F := Ideal) m ρ c) (Proc.devRef .tc main_arg9)) transposes_S128x128_S128x128_1_0 :=
  (after2_v38 (W4 (F := Ideal) m ρ c)).trans (by rw [w4_arg9 m ρ c])
theorem w5_v39 : W5 (F := Ideal) m ρ c (Proc.devRef .tc main_v39) = shapeCast S1x128 ((W0 (F := Ideal) m ρ c) (Proc.devRef .tc main_arg10)) shapeCasts_S128_S1x128 :=
  (after2_v39 (W4 (F := Ideal) m ρ c)).trans (by rw [w4_arg10 m ρ c])
theorem w5_v40 : W5 (F := Ideal) m ρ c (Proc.devRef .tc main_v40) = shapeCast S1x128 ((W0 (F := Ideal) m ρ c) (Proc.devRef .tc main_arg11)) shapeCasts_S128_S1x128 :=
  (after2_v40 (W4 (F := Ideal) m ρ c)).trans (by rw [w4_arg11 m ρ c])
theorem w5_v55 : W5 (F := Ideal) m ρ c (Proc.devRef .tc main_v55) = kAgg1 (W0 (F := Ideal) m ρ c) :=
  (after2_v55 (W4 (F := Ideal) m ρ c)).trans (by rw [w4_v35 m ρ c, w4_v1 m ρ c, w4_v3 m ρ c, w4_v7 m ρ c]; rfl)

/-! ## After the third launch: the linear part of layer 2 -/
theorem w6_v56_0 : W6 (F := Ideal) m ρ c (Proc.devRef .tc main_v56_0) = kLin1 (W0 (F := Ideal) m ρ c) :=
  (W6_arr m ρ c 5).trans ((arrAt2_5 (Hand.V5 m ρ) c).trans (by dsimp only [Hand.V5]; rw [w5_v55 m ρ c, w5_v35 m ρ c, w5_v36 m ρ c, w5_v37 m ρ c, w5_v38 m ρ c]; rfl))
theorem w6_v56_1 : W6 (F := Ideal) m ρ c (Proc.devRef .tc main_v56_1) = colSum2 (kLin1 (W0 (F := Ideal) m ρ c)) :=
  (W6_arr m ρ c 6).trans ((arrAt2_6 (Hand.V5 m ρ) c).trans (by dsimp only [Hand.V5]; rw [w5_v55 m ρ c, w5_v35 m ρ c, w5_v36 m ρ c, w5_v37 m ρ c, w5_v38 m ρ c]; rfl))
theorem w6_v56_2 : W6 (F := Ideal) m ρ c (Proc.devRef .tc main_v56_2) = colSumSq2 (kLin1 (W0 (F := Ideal) m ρ c)) :=
  (W6_arr m ρ c 7).trans ((arrAt2_7 (Hand.V5 m ρ) c).trans (by dsimp only [Hand.V5]; rw [w5_v55 m ρ c, w5_v35 m ρ c, w5_v36 m ρ c, w5_v37 m ρ c, w5_v38 m ρ c]; rfl))

/-! ## After the fourth host stretch -/
theorem w7_v56_0 : W7 (F := Ideal) m ρ c (Proc.devRef .tc main_v56_0) = kLin1 (W0 (F := Ideal) m ρ c) :=
  (StableHlo.after_of_writes_sub hostOps3 _ hostOps3_writes (by decide)).trans (w6_v56_0 m ρ c)
theorem w7_v39 : W7 (F := Ideal) m ρ c (Proc.devRef .tc main_v39) = shapeCast S1x128 ((W0 (F := Ideal) m ρ c) (Proc.devRef .tc main_arg10)) shapeCasts_S128_S1x128 :=
  ((StableHlo.after_of_writes_sub hostOps3 _ hostOps3_writes (by decide)).trans (W6_of_ne m ρ c main_v39 (by decide))).trans (w5_v39 m ρ c)
theorem w7_v40 : W7 (F := Ideal) m ρ c (Proc.devRef .tc main_v40) = shapeCast S1x128 ((W0 (F := Ideal) m ρ c) (Proc.devRef .tc main_arg11)) shapeCasts_S128_S1x128 :=
  ((StableHlo.after_of_writes_sub hostOps3 _ hostOps3_writes (by decide)).trans (W6_of_ne m ρ c main_v40 (by decide))).trans (w5_v40 m ρ c)
theorem w7_v58 : W7 (F := Ideal) m ρ c (Proc.devRef .tc main_v58) = meanStage S1x128 bcast_S_S1x128 (colSum2 (kLin1 (W0 (F := Ideal) m ρ c))) :=
  (after3_v58 (W6 (F := Ideal) m ρ c)).trans (by rw [w6_v56_1 m ρ c])
theorem w7_v62 : W7 (F := Ideal) m ρ c (Proc.devRef .tc main_v62) = varStage S1x128 bcast_S_S1x128 (colSum2 (kLin1 (W0 (F := Ideal) m ρ c))) (colSumSq2 (kLin1 (W0 (F := Ideal) m ρ c))) :=
  (after3_v62 (W6 (F := Ideal) m ρ c)).trans (by rw [w6_v56_1 m ρ c, w6_v56_2 m ρ c])

/-! ## After the fourth launch: layer 2's output -/
theorem w8_v63 : W8 (F := Ideal) m ρ c (Proc.devRef .tc main_v63) = kH2 (W0 (F := Ideal) m ρ c) :=
  (W8_arr m ρ c 5).trans ((arrAt3_out (Hand.V7 m ρ) c).trans (by dsimp only [Hand.V7]; rw [w7_v56_0 m ρ c, w7_v39 m ρ c, w7_v40 m ρ c, w7_v58 m ρ c, w7_v62 m ρ c]; rfl))
theorem w8_v1 : W8 (F := Ideal) m ρ c (Proc.devRef .tc main_v1) = kSrc (W0 (F := Ideal) m ρ c) :=
  ((((W8_of_ne m ρ c main_v1 (by decide)).trans (StableHlo.after_of_writes_sub hostOps3 _ hostOps3_writes (by decide))).trans (W6_of_ne m ρ c main_v1 (by decide))).trans (StableHlo.after_of_writes_sub hostOps2 _ hostOps2_writes (by decide))).trans (w4_v1 m ρ c)
theorem w8_v3 : W8 (F := Ideal) m ρ c (Proc.devRef .tc main_v3) = kDst (W0 (F := Ideal) m ρ c) :=
  ((((W8_of_ne m ρ c main_v3 (by decide)).trans (StableHlo.after_of_writes_sub hostOps3 _ hostOps3_writes (by decide))).trans (W6_of_ne m ρ c main_v3 (by decide))).trans (StableHlo.after_of_writes_sub hostOps2 _ hostOps2_writes (by decide))).trans (w4_v3 m ρ c)
theorem w8_v7 : W8 (F := Ideal) m ρ c (Proc.devRef .tc main_v7) = kCnt (W0 (F := Ideal) m ρ c) :=
  ((((W8_of_ne m ρ c main_v7 (by decide)).trans (StableHlo.after_of_writes_sub hostOps3 _ hostOps3_writes (by decide))).trans (W6_of_ne m ρ c main_v7 (by decide))).trans (StableHlo.after_of_writes_sub hostOps2 _ hostOps2_writes (by decide))).trans (w4_v7 m ρ c)
theorem w8_arg12 : W8 (F := Ideal) m ρ c (Proc.devRef .tc main_arg12) = (W0 (F := Ideal) m ρ c) (Proc.devRef .tc main_arg12) :=
  ((((((((W8_of_ne m ρ c main_arg12 (by decide)).trans (StableHlo.after_of_writes_sub hostOps3 _ hostOps3_writes (by decide))).trans (W6_of_ne m ρ c main_arg12 (by decide))).trans (StableHlo.after_of_writes_sub hostOps2 _ hostOps2_writes (by decide))).trans (W4_of_ne m ρ c main_arg12 (by decide))).trans (StableHlo.after_of_writes_sub hostOps1 _ hostOps1_writes (by decide))).trans (W2_of_ne m ρ c main_arg12 (by decide))).trans (StableHlo.after_of_writes_sub hostOps0 _ hostOps0_writes (by decide)))
theorem w8_arg13 : W8 (F := Ideal) m ρ c (Proc.devRef .tc main_arg13) = (W0 (F := Ideal) m ρ c) (Proc.devRef .tc main_arg13) :=
  ((((((((W8_of_ne m ρ c main_arg13 (by decide)).trans (StableHlo.after_of_writes_sub hostOps3 _ hostOps3_writes (by decide))).trans (W6_of_ne m ρ c main_arg13 (by decide))).trans (StableHlo.after_of_writes_sub hostOps2 _ hostOps2_writes (by decide))).trans (W4_of_ne m ρ c main_arg13 (by decide))).trans (StableHlo.after_of_writes_sub hostOps1 _ hostOps1_writes (by decide))).trans (W2_of_ne m ρ c main_arg13 (by decide))).trans (StableHlo.after_of_writes_sub hostOps0 _ hostOps0_writes (by decide)))
theorem w8_arg14 : W8 (F := Ideal) m ρ c (Proc.devRef .tc main_arg14) = (W0 (F := Ideal) m ρ c) (Proc.devRef .tc main_arg14) :=
  ((((((((W8_of_ne m ρ c main_arg14 (by decide)).trans (StableHlo.after_of_writes_sub hostOps3 _ hostOps3_writes (by decide))).trans (W6_of_ne m ρ c main_arg14 (by decide))).trans (StableHlo.after_of_writes_sub hostOps2 _ hostOps2_writes (by decide))).trans (W4_of_ne m ρ c main_arg14 (by decide))).trans (StableHlo.after_of_writes_sub hostOps1 _ hostOps1_writes (by decide))).trans (W2_of_ne m ρ c main_arg14 (by decide))).trans (StableHlo.after_of_writes_sub hostOps0 _ hostOps0_writes (by decide)))
theorem w8_arg15 : W8 (F := Ideal) m ρ c (Proc.devRef .tc main_arg15) = (W0 (F := Ideal) m ρ c) (Proc.devRef .tc main_arg15) :=
  ((((((((W8_of_ne m ρ c main_arg15 (by decide)).trans (StableHlo.after_of_writes_sub hostOps3 _ hostOps3_writes (by decide))).trans (W6_of_ne m ρ c main_arg15 (by decide))).trans (StableHlo.after_of_writes_sub hostOps2 _ hostOps2_writes (by decide))).trans (W4_of_ne m ρ c main_arg15 (by decide))).trans (StableHlo.after_of_writes_sub hostOps1 _ hostOps1_writes (by decide))).trans (W2_of_ne m ρ c main_arg15 (by decide))).trans (StableHlo.after_of_writes_sub hostOps0 _ hostOps0_writes (by decide)))
theorem w8_arg16 : W8 (F := Ideal) m ρ c (Proc.devRef .tc main_arg16) = (W0 (F := Ideal) m ρ c) (Proc.devRef .tc main_arg16) :=
  ((((((((W8_of_ne m ρ c main_arg16 (by decide)).trans (StableHlo.after_of_writes_sub hostOps3 _ hostOps3_writes (by decide))).trans (W6_of_ne m ρ c main_arg16 (by decide))).trans (StableHlo.after_of_writes_sub hostOps2 _ hostOps2_writes (by decide))).trans (W4_of_ne m ρ c main_arg16 (by decide))).trans (StableHlo.after_of_writes_sub hostOps1 _ hostOps1_writes (by decide))).trans (W2_of_ne m ρ c main_arg16 (by decide))).trans (StableHlo.after_of_writes_sub hostOps0 _ hostOps0_writes (by decide)))

/-! ## After the fifth host stretch -/
theorem w9_v63 : W9 (F := Ideal) m ρ c (Proc.devRef .tc main_v63) = kH2 (W0 (F := Ideal) m ρ c) :=
  (StableHlo.after_of_writes_sub hostOps4 _ hostOps4_writes (by decide)).trans (w8_v63 m ρ c)
theorem w9_v64 : W9 (F := Ideal) m ρ c (Proc.devRef .tc main_v64) = transpose S128x64 [1, 0] ((W0 (F := Ideal) m ρ c) (Proc.devRef .tc main_arg12)) transposes_S64x128_S128x64_1_0 :=
  (after4_v64 (W8 (F := Ideal) m ρ c)).trans (by rw [w8_arg12 m ρ c])
theorem w9_v65 : W9 (F := Ideal) m ρ c (Proc.devRef .tc main_v65) = shapeCast S1x64 ((W0 (F := Ideal) m ρ c) (Proc.devRef .tc main_arg13)) shapeCasts_S64_S1x64 :=
  (after4_v65 (W8 (F := Ideal) m ρ c)).trans (by rw [w8_arg13 m ρ c])
theorem w9_v66 : W9 (F := Ideal) m ρ c (Proc.devRef .tc main_v66) = transpose S128x64 [1, 0] ((W0 (F := Ideal) m ρ c) (Proc.devRef .tc main_arg14)) transposes_S64x128_S128x64_1_0 :=
  (after4_v66 (W8 (F := Ideal) m ρ c)).trans (by rw [w8_arg14 m ρ c])
theorem w9_v67 : W9 (F := Ideal) m ρ c (Proc.devRef .tc main_v67) = shapeCast S1x64 ((W0 (F := Ideal) m ρ c) (Proc.devRef .tc main_arg15)) shapeCasts_S64_S1x64 :=
  (after4_v67 (W8 (F := Ideal) m ρ c)).trans (by rw [w8_arg15 m ρ c])
theorem w9_v68 : W9 (F := Ideal) m ρ c (Proc.devRef .tc main_v68) = shapeCast S1x64 ((W0 (F := Ideal) m ρ c) (Proc.devRef .tc main_arg16)) shapeCasts_S64_S1x64 :=
  (after4_v68 (W8 (F := Ideal) m ρ c)).trans (by rw [w8_arg16 m ρ c])
theorem w9_v83 : W9 (F := Ideal) m ρ c (Proc.devRef .tc main_v83) = kAgg2 (W0 (F := Ideal) m ρ c) :=
  (after4_v83 (W8 (F := Ideal) m ρ c)).trans (by rw [w8_v63 m ρ c, w8_v1 m ρ c, w8_v3 m ρ c, w8_v7 m ρ c]; rfl)

/-! ## After the fifth launch: the linear part of layer 3 -/
theorem w10_v84_0 : W10 (F := Ideal) m ρ c (Proc.devRef .tc main_v84_0) = kLin2 (W0 (F := Ideal) m ρ c) :=
  (W10_arr m ρ c 5).trans ((arrAt4_5 (Hand.V9 m ρ) c).trans (by dsimp only [Hand.V9]; rw [w9_v83 m ρ c, w9_v63 m ρ c, w9_v64 m ρ c, w9_v65 m ρ c, w9_v66 m ρ c]; rfl))
theorem w10_v84_1 : W10 (F := Ideal) m ρ c (Proc.devRef .tc main_v84_1) = colSum4 (kLin2 (W0 (F := Ideal) m ρ c)) :=
  (W10_arr m ρ c 6).trans ((arrAt4_6 (Hand.V9 m ρ) c).trans (by dsimp only [Hand.V9]; rw [w9_v83 m ρ c, w9_v63 m ρ c, w9_v64 m ρ c, w9_v65 m ρ c, w9_v66 m ρ c]; rfl))
theorem w10_v84_2 : W10 (F := Ideal) m ρ c (Proc.devRef .tc main_v84_2) = colSumSq4 (kLin2 (W0 (F := Ideal) m ρ c)) :=
  (W10_arr m ρ c 7).trans ((arrAt4_7 (Hand.V9 m ρ) c).trans (by dsimp only [Hand.V9]; rw [w9_v83 m ρ c, w9_v63 m ρ c, w9_v64 m ρ c, w9_v65 m ρ c, w9_v66 m ρ c]; rfl))

/-! ## After the sixth host stretch -/
theorem w11_v84_0 : W11 (F := Ideal) m ρ c (Proc.devRef .tc main_v84_0) = kLin2 (W0 (F := Ideal) m ρ c) :=
  (StableHlo.after_of_writes_sub hostOps5 _ hostOps5_writes (by decide)).trans (w10_v84_0 m ρ c)
theorem w11_v67 : W11 (F := Ideal) m ρ c (Proc.devRef .tc main_v67) = shapeCast S1x64 ((W0 (F := Ideal) m ρ c) (Proc.devRef .tc main_arg15)) shapeCasts_S64_S1x64 :=
  ((StableHlo.after_of_writes_sub hostOps5 _ hostOps5_writes (by decide)).trans (W10_of_ne m ρ c main_v67 (by decide))).trans (w9_v67 m ρ c)
theorem w11_v68 : W11 (F := Ideal) m ρ c (Proc.devRef .tc main_v68) = shapeCast S1x64 ((W0 (F := Ideal) m ρ c) (Proc.devRef .tc main_arg16)) shapeCasts_S64_S1x64 :=
  ((StableHlo.after_of_writes_sub hostOps5 _ hostOps5_writes (by decide)).trans (W10_of_ne m ρ c main_v68 (by decide))).trans (w9_v68 m ρ c)
theorem w11_v86 : W11 (F := Ideal) m ρ c (Proc.devRef .tc main_v86) = meanStage S1x64 bcast_S_S1x64 (colSum4 (kLin2 (W0 (F := Ideal) m ρ c))) :=
  (after5_v86 (W10 (F := Ideal) m ρ c)).trans (by rw [w10_v84_1 m ρ c])
theorem w11_v90 : W11 (F := Ideal) m ρ c (Proc.devRef .tc main_v90) = varStage S1x64 bcast_S_S1x64 (colSum4 (kLin2 (W0 (F := Ideal) m ρ c))) (colSumSq4 (kLin2 (W0 (F := Ideal) m ρ c))) :=
  (after5_v90 (W10 (F := Ideal) m ρ c)).trans (by rw [w10_v84_1 m ρ c, w10_v84_2 m ρ c])

/-! ## After the sixth launch: layer 3's output -/
theorem w12_v91 : W12 (F := Ideal) m ρ c (Proc.devRef .tc main_v91) = kH3 (W0 (F := Ideal) m ρ c) :=
  (W12_arr m ρ c 5).trans ((arrAt5_out (Hand.V11 m ρ) c).trans (by dsimp only [Hand.V11]; rw [w11_v84_0 m ρ c, w11_v67 m ρ c, w11_v68 m ρ c, w11_v86 m ρ c, w11_v90 m ρ c]; rfl))
theorem w12_arg17 : W12 (F := Ideal) m ρ c (Proc.devRef .tc main_arg17) = (W0 (F := Ideal) m ρ c) (Proc.devRef .tc main_arg17) :=
  ((((((((((((W12_of_ne m ρ c main_arg17 (by decide)).trans (StableHlo.after_of_writes_sub hostOps5 _ hostOps5_writes (by decide))).trans (W10_of_ne m ρ c main_arg17 (by decide))).trans (StableHlo.after_of_writes_sub hostOps4 _ hostOps4_writes (by decide))).trans (W8_of_ne m ρ c main_arg17 (by decide))).trans (StableHlo.after_of_writes_sub hostOps3 _ hostOps3_writes (by decide))).trans (W6_of_ne m ρ c main_arg17 (by decide))).trans (StableHlo.after_of_writes_sub hostOps2 _ hostOps2_writes (by decide))).trans (W4_of_ne m ρ c main_arg17 (by decide))).trans (StableHlo.after_of_writes_sub hostOps1 _ hostOps1_writes (by decide))).trans (W2_of_ne m ρ c main_arg17 (by decide))).trans (StableHlo.after_of_writes_sub hostOps0 _ hostOps0_writes (by decide)))
theorem w12_arg18 : W12 (F := Ideal) m ρ c (Proc.devRef .tc main_arg18) = (W0 (F := Ideal) m ρ c) (Proc.devRef .tc main_arg18) :=
  ((((((((((((W12_of_ne m ρ c main_arg18 (by decide)).trans (StableHlo.after_of_writes_sub hostOps5 _ hostOps5_writes (by decide))).trans (W10_of_ne m ρ c main_arg18 (by decide))).trans (StableHlo.after_of_writes_sub hostOps4 _ hostOps4_writes (by decide))).trans (W8_of_ne m ρ c main_arg18 (by decide))).trans (StableHlo.after_of_writes_sub hostOps3 _ hostOps3_writes (by decide))).trans (W6_of_ne m ρ c main_arg18 (by decide))).trans (StableHlo.after_of_writes_sub hostOps2 _ hostOps2_writes (by decide))).trans (W4_of_ne m ρ c main_arg18 (by decide))).trans (StableHlo.after_of_writes_sub hostOps1 _ hostOps1_writes (by decide))).trans (W2_of_ne m ρ c main_arg18 (by decide))).trans (StableHlo.after_of_writes_sub hostOps0 _ hostOps0_writes (by decide)))
theorem w12_arg19 : W12 (F := Ideal) m ρ c (Proc.devRef .tc main_arg19) = (W0 (F := Ideal) m ρ c) (Proc.devRef .tc main_arg19) :=
  ((((((((((((W12_of_ne m ρ c main_arg19 (by decide)).trans (StableHlo.after_of_writes_sub hostOps5 _ hostOps5_writes (by decide))).trans (W10_of_ne m ρ c main_arg19 (by decide))).trans (StableHlo.after_of_writes_sub hostOps4 _ hostOps4_writes (by decide))).trans (W8_of_ne m ρ c main_arg19 (by decide))).trans (StableHlo.after_of_writes_sub hostOps3 _ hostOps3_writes (by decide))).trans (W6_of_ne m ρ c main_arg19 (by decide))).trans (StableHlo.after_of_writes_sub hostOps2 _ hostOps2_writes (by decide))).trans (W4_of_ne m ρ c main_arg19 (by decide))).trans (StableHlo.after_of_writes_sub hostOps1 _ hostOps1_writes (by decide))).trans (W2_of_ne m ρ c main_arg19 (by decide))).trans (StableHlo.after_of_writes_sub hostOps0 _ hostOps0_writes (by decide)))
theorem w12_arg20 : W12 (F := Ideal) m ρ c (Proc.devRef .tc main_arg20) = (W0 (F := Ideal) m ρ c) (Proc.devRef .tc main_arg20) :=
  ((((((((((((W12_of_ne m ρ c main_arg20 (by decide)).trans (StableHlo.after_of_writes_sub hostOps5 _ hostOps5_writes (by decide))).trans (W10_of_ne m ρ c main_arg20 (by decide))).trans (StableHlo.after_of_writes_sub hostOps4 _ hostOps4_writes (by decide))).trans (W8_of_ne m ρ c main_arg20 (by decide))).trans (StableHlo.after_of_writes_sub hostOps3 _ hostOps3_writes (by decide))).trans (W6_of_ne m ρ c main_arg20 (by decide))).trans (StableHlo.after_of_writes_sub hostOps2 _ hostOps2_writes (by decide))).trans (W4_of_ne m ρ c main_arg20 (by decide))).trans (StableHlo.after_of_writes_sub hostOps1 _ hostOps1_writes (by decide))).trans (W2_of_ne m ρ c main_arg20 (by decide))).trans (StableHlo.after_of_writes_sub hostOps0 _ hostOps0_writes (by decide)))

/-! ## After the seventh host stretch -/
theorem w13_v91 : W13 (F := Ideal) m ρ c (Proc.devRef .tc main_v91) = kH3 (W0 (F := Ideal) m ρ c) :=
  (StableHlo.after_of_writes_sub hostOps6 _ hostOps6_writes (by decide)).trans (w12_v91 m ρ c)
theorem w13_v92 : W13 (F := Ideal) m ρ c (Proc.devRef .tc main_v92) = transpose S64x32 [1, 0] ((W0 (F := Ideal) m ρ c) (Proc.devRef .tc main_arg17)) transposes_S32x64_S64x32_1_0 :=
  (after6_v92 (W12 (F := Ideal) m ρ c)).trans (by rw [w12_arg17 m ρ c])
theorem w13_v93 : W13 (F := Ideal) m ρ c (Proc.devRef .tc main_v93) = shapeCast S1x32 ((W0 (F := Ideal) m ρ c) (Proc.devRef .tc main_arg18)) shapeCasts_S32_S1x32 :=
  (after6_v93 (W12 (F := Ideal) m ρ c)).trans (by rw [w12_arg18 m ρ c])
theorem w13_v94 : W13 (F := Ideal) m ρ c (Proc.devRef .tc main_v94) = transpose S32x1 [1, 0] ((W0 (F := Ideal) m ρ c) (Proc.devRef .tc main_arg19)) transposes_S1x32_S32x1_1_0 :=
  (after6_v94 (W12 (F := Ideal) m ρ c)).trans (by rw [w12_arg19 m ρ c])
theorem w13_v95 : W13 (F := Ideal) m ρ c (Proc.devRef .tc main_v95) = shapeCast S1x1 ((W0 (F := Ideal) m ρ c) (Proc.devRef .tc main_arg20)) shapeCasts_S1_S1x1 :=
  (after6_v95 (W12 (F := Ideal) m ρ c)).trans (by rw [w12_arg20 m ρ c])

/-! ## After the last launch: the classifier's output -/
theorem w14_v96 : W14 (F := Ideal) m ρ c (Proc.devRef .tc main_v96) = kOut (W0 (F := Ideal) m ρ c) :=
  (W14_arr m ρ c 5).trans ((arrAt6_out (Hand.V13 m ρ) c).trans (by
    show cls6 (W13 (F := Ideal) m ρ c (Proc.devRef .tc main_v91)) (W13 (F := Ideal) m ρ c (Proc.devRef .tc main_v92)) (W13 (F := Ideal) m ρ c (Proc.devRef .tc main_v93))
      (W13 (F := Ideal) m ρ c (Proc.devRef .tc main_v94)) (W13 (F := Ideal) m ρ c (Proc.devRef .tc main_v95)) = _
    rw [w13_v91 m ρ c, w13_v92 m ρ c, w13_v93 m ρ c, w13_v94 m ρ c, w13_v95 m ρ c]; rfl))

end Cert.Proof.Join

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.LibBatchNorm.lean ====
/-
  Batch normalisation on the extended reals.

  A column y of real numbers, indexed by a finite set s of m = |s| rows, has the mean μ = (Σ y) / m. Its variance can
  be written as the mean of the squares minus the square of the mean, (Σ y²) / m − μ², or as the mean of the squared
  deviations, (Σ (y − μ)²) / m. On the real numbers the two agree (expand the square: Σ (y − μ)² = Σ y² − 2 μ Σ y + m μ²
  and Σ y = m μ). On the extended reals subtraction and multiplication do not obey the ring laws at the infinities, so
  the identity is stated for columns whose entries are images of real numbers and is proved by moving to the reals.

  The second half carries finiteness through one normalisation layer: sums, differences, products and quotients by a
  nonzero real of reals are real; the variance is a real number that is not negative, so the variance plus a positive
  real is positive and its reciprocal square root is real; hence the normalised, scaled, shifted and rectified entry
  is real. A finite sum of reals divided by the larger of a real count and one is real as well.

  The last part is about a sum accumulated step by step: an accumulator that starts from zero plus the first term and
  adds one term at each further step holds the sum of the terms so far.
-/
import Idealize.ShloMosaic.PureOps.Ideal
import Idealize.ShloMosaic.PureOps.Ideal.Laws
import Idealize.ShloMosaic.Lib.ValueIdx
import proofs.«121727_j57028575756303_1_alg».proof.Proof.LibRealSums

open scoped BigOperators
open Idealize.ShloMosaic Cert.RealSums

namespace Cert.BatchNorm

/-! ### Reals are closed under the operations of a normalisation layer -/

/-- The negative of a real is real. -/
theorem isReal_neg {x : EReal} (hx : IsReal x) : IsReal (-x) := by
  obtain ⟨a, rfl⟩ := hx
  exact ⟨-a, (EReal.coe_neg a).symm⟩

/-- The difference of two reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real. -/
theorem isReal_max {x y : EReal} (hx : IsReal x) (hy : IsReal y) : IsReal (max x y) := by
  rcases max_choice x y with h | h <;> rw [h] <;> assumption

/-- The quotient of a real a by a nonzero real m is the image of the real quotient a / m. -/
theorem div_coe_coe (a : ℝ) {m : ℝ} (hm : m ≠ 0) : Ideal.div (a : EReal) (m : EReal) = ((a / m : ℝ) : EReal) := by
  rw [Ideal.div_coe hm, ← EReal.coe_mul, mul_one_div]

/-- The quotient of a real by a nonzero real number is real. -/
theorem isReal_div_coe {x : EReal} (hx : IsReal x) {m : ℝ} (hm : m ≠ 0) : IsReal (Ideal.div x (m : EReal)) := by
  obtain ⟨a, rfl⟩ := hx
  exact ⟨a / m, div_coe_coe a hm⟩

/-- The quotient of a real by a real that is not zero is real. -/
theorem isReal_div {x d : EReal} (hx : IsReal x) (hd : IsReal d) (hd0 : d ≠ 0) : IsReal (Ideal.div x d) := by
  obtain ⟨m, rfl⟩ := hd
  exact isReal_div_coe hx (by intro h; exact hd0 (by rw [h, EReal.coe_zero]))

/-- A finite sum of reals is the image of the sum of their real parts. -/
theorem sum_eq_coe {ι : Type*} (s : Finset ι) (y : ι → EReal) (hy : ∀ r ∈ s, IsReal (y r)) :
    ∑ r ∈ s, y r = ((∑ r ∈ s, (y r).toReal : ℝ) : EReal) := by
  rw [← coe_sum]
  exact Finset.sum_congr rfl fun r hr => (hy r hr).eq_coe_toReal

/-- The mean of a finite family of reals over a nonzero real count is the image of the real mean. -/
theorem mean_eq_coe {ι : Type*} (s : Finset ι) (y : ι → EReal) (hy : ∀ r ∈ s, IsReal (y r)) {m : ℝ} (hm0 : m ≠ 0) :
    Ideal.div (∑ r ∈ s, y r) (m : EReal) = (((∑ r ∈ s, (y r).toReal) / m : ℝ) : EReal) := by
  rw [sum_eq_coe s y hy, div_coe_coe _ hm0]

/-! ### The two forms of the variance -/

/-- The mean of the squared deviations from the mean, of a finite family of reals, is the image of the same expression
    over the real numbers. -/
theorem varDev_eq_coe {ι : Type*} (s : Finset ι) (y : ι → EReal) (hy : ∀ r ∈ s, IsReal (y r)) {m : ℝ} (hm0 : m ≠ 0) :
    Ideal.div (∑ r ∈ s, (y r - Ideal.div (∑ r ∈ s, y r) (m : EReal)) * (y r - Ideal.div (∑ r ∈ s, y r) (m : EReal)))
        (m : EReal)
      = (((∑ r ∈ s, ((y r).toReal - (∑ r ∈ s, (y r).toReal) / m) * ((y r).toReal - (∑ r ∈ s, (y r).toReal) / m)) / m : ℝ)
          : EReal) := by
  rw [mean_eq_coe s y hy hm0]
  have h : ∑ r ∈ s, (y r - (((∑ r ∈ s, (y r).toReal) / m : ℝ) : EReal)) * (y r - (((∑ r ∈ s, (y r).toReal) / m : ℝ) : EReal))
      = ((∑ r ∈ s, ((y r).toReal - (∑ r ∈ s, (y r).toReal) / m) * ((y r).toReal - (∑ r ∈ s, (y r).toReal) / m) : ℝ)
          : EReal) := by
    rw [← coe_sum]
    refine Finset.sum_congr rfl fun r hr => ?_
    rw [EReal.coe_mul, EReal.coe_sub, ← (hy r hr).eq_coe_toReal]
  rw [h, div_coe_coe _ hm0]

/-- The mean of the squares minus the square of the mean, of a finite family of reals, is the image of the same
    expression over the real numbers. -/
theorem varSq_eq_coe {ι : Type*} (s : Finset ι) (y : ι → EReal) (hy : ∀ r ∈ s, IsReal (y r)) {m : ℝ} (hm0 : m ≠ 0) :
    Ideal.div (∑ r ∈ s, y r * y r) (m : EReal)
        - Ideal.div (∑ r ∈ s, y r) (m : EReal) * Ideal.div (∑ r ∈ s, y r) (m : EReal)
      = (((∑ r ∈ s, (y r).toReal * (y r).toReal) / m
            - (∑ r ∈ s, (y r).toReal) / m * ((∑ r ∈ s, (y r).toReal) / m) : ℝ) : EReal) := by
  rw [mean_eq_coe s y hy hm0]
  have h : ∑ r ∈ s, y r * y r = ((∑ r ∈ s, (y r).toReal * (y r).toReal : ℝ) : EReal) := by
    rw [← coe_sum]
    refine Finset.sum_congr rfl fun r hr => ?_
    rw [EReal.coe_mul, ← (hy r hr).eq_coe_toReal]
  rw [h, div_coe_coe _ hm0, EReal.coe_sub, EReal.coe_mul]

/-- Over the real numbers: the mean of the squares minus the square of the mean is the mean of the squared deviations,
    for a family indexed by a finite set of m ≠ 0 elements. -/
theorem real_var_eq {ι : Type*} (s : Finset ι) (x : ι → ℝ) {m : ℝ} (hm : m = (s.card : ℝ)) (hm0 : m ≠ 0) :
    (∑ r ∈ s, x r * x r) / m - (∑ r ∈ s, x r) / m * ((∑ r ∈ s, x r) / m)
      = (∑ r ∈ s, (x r - (∑ r ∈ s, x r) / m) * (x r - (∑ r ∈ s, x r) / m)) / m := by
  have hsum : ∀ c : ℝ, ∑ r ∈ s, (x r - c) * (x r - c)
      = (∑ r ∈ s, x r * x r) - 2 * c * (∑ r ∈ s, x r) + (s.card : ℝ) * (c * c) := by
    intro c
    have : ∀ r, (x r - c) * (x r - c) = x r * x r - 2 * c * x r + c * c := fun r => by ring
    simp only [this, Finset.sum_add_distrib, Finset.sum_sub_distrib, ← Finset.mul_sum, Finset.sum_const, nsmul_eq_mul]
    ring
  rw [hsum, ← hm]
  field_simp
  ring

/-- THE TWO VARIANCES AGREE. For a family of reals over a finite set s of m = |s| ≠ 0 rows, the mean of the squares
    minus the square of the mean equals the mean of the squared deviations from the mean, all operations being those of
    the extended reals. -/
theorem var_eq_finset {ι : Type*} (s : Finset ι) (y : ι → EReal) (hy : ∀ r ∈ s, IsReal (y r)) {m : ℝ}
    (hm : m = (s.card : ℝ)) (hm0 : m ≠ 0) :
    Ideal.div (∑ r ∈ s, y r * y r) (m : EReal)
        - Ideal.div (∑ r ∈ s, y r) (m : EReal) * Ideal.div (∑ r ∈ s, y r) (m : EReal)
      = Ideal.div (∑ r ∈ s, (y r - Ideal.div (∑ r ∈ s, y r) (m : EReal)) * (y r - Ideal.div (∑ r ∈ s, y r) (m : EReal)))
          (m : EReal) := by
  rw [varSq_eq_coe s y hy hm0, varDev_eq_coe s y hy hm0, real_var_eq s (fun r => (y r).toReal) hm hm0]

/-- The two variances agree, for a family indexed by a whole finite type of m ≠ 0 elements. -/
theorem var_eq {ι : Type*} [Fintype ι] (y : ι → EReal) (hy : ∀ r, IsReal (y r)) {m : ℝ}
    (hm : m = (Fintype.card ι : ℝ)) (hm0 : m ≠ 0) :
    Ideal.div (∑ r, y r * y r) (m : EReal) - Ideal.div (∑ r, y r) (m : EReal) * Ideal.div (∑ r, y r) (m : EReal)
      = Ideal.div (∑ r, (y r - Ideal.div (∑ r, y r) (m : EReal)) * (y r - Ideal.div (∑ r, y r) (m : EReal))) (m : EReal) :=
  var_eq_finset Finset.univ y (fun r _ => hy r) (by rw [hm, Finset.card_univ]) hm0

/-- The mean of the squared deviations of a family of reals over a positive real count is a real number that is not
    negative. -/
theorem varDev_nonneg {ι : Type*} (s : Finset ι) (y : ι → EReal) (hy : ∀ r ∈ s, IsReal (y r)) {m : ℝ} (hm0 : 0 < m) :
    ∃ v : ℝ, 0 ≤ v ∧
      Ideal.div (∑ r ∈ s, (y r - Ideal.div (∑ r ∈ s, y r) (m : EReal)) * (y r - Ideal.div (∑ r ∈ s, y r) (m : EReal)))
        (m : EReal) = (v : EReal) :=
  ⟨_, div_nonneg (Finset.sum_nonneg fun r _ => mul_self_nonneg _) hm0.le, varDev_eq_coe s y hy hm0.ne'⟩

/-- The mean of the squares minus the square of the mean, of a family of reals over a finite set of m = |s| > 0 rows, is
    a real number that is not negative. -/
theorem varSq_nonneg {ι : Type*} (s : Finset ι) (y : ι → EReal) (hy : ∀ r ∈ s, IsReal (y r)) {m : ℝ}
    (hm : m = (s.card : ℝ)) (hm0 : 0 < m) :
    ∃ v : ℝ, 0 ≤ v ∧
      Ideal.div (∑ r ∈ s, y r * y r) (m : EReal)
        - Ideal.div (∑ r ∈ s, y r) (m : EReal) * Ideal.div (∑ r ∈ s, y r) (m : EReal) = (v : EReal) := by
  rw [var_eq_finset s y hy hm hm0.ne']
  exact varDev_nonneg s y hy hm0

/-! ### The reciprocal square root of the variance plus a positive real -/

/-- The reciprocal square root of a positive real is the image of the real reciprocal square root. -/
theorem rsqrt_coe_of_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_of_pos {v : ℝ} (hv : 0 < v) : IsReal (Ideal.rsqrt (v : EReal)) :=
  ⟨_, rsqrt_coe_of_pos hv⟩

/-- The reciprocal square root of a real that is not negative plus a positive real is real. -/
theorem isReal_rsqrt_add {v e : ℝ} (hv : 0 ≤ v) (he : 0 < e) : IsReal (Ideal.rsqrt ((v : EReal) + (e : EReal))) := by
  rw [← EReal.coe_add]
  exact isReal_rsqrt_of_pos (add_pos_of_nonneg_of_pos hv he)

/-- The reciprocal square root of (mean of squares − square of the mean) + ε is real, for a family of reals over a
    finite set of m = |s| > 0 rows and a positive real ε. -/
theorem isReal_rsqrt_varSq_add {ι : Type*} (s : Finset ι) (y : ι → EReal) (hy : ∀ r ∈ s, IsReal (y r)) {m : ℝ}
    (hm : m = (s.card : ℝ)) (hm0 : 0 < m) {e : ℝ} (he : 0 < e) :
    IsReal (Ideal.rsqrt (Ideal.div (∑ r ∈ s, y r * y r) (m : EReal)
        - Ideal.div (∑ r ∈ s, y r) (m : EReal) * Ideal.div (∑ r ∈ s, y r) (m : EReal) + (e : EReal))) := by
  obtain ⟨v, hv, h⟩ := varSq_nonneg s y hy hm hm0
  rw [h]
  exact isReal_rsqrt_add hv he

/-- The reciprocal square root of (mean of the squared deviations) + ε is real, for a family of reals over a positive
    real count and a positive real ε. -/
theorem isReal_rsqrt_varDev_add {ι : Type*} (s : Finset ι) (y : ι → EReal) (hy : ∀ r ∈ s, IsReal (y r)) {m : ℝ}
    (hm0 : 0 < m) {e : ℝ} (he : 0 < e) :
    IsReal (Ideal.rsqrt (Ideal.div (∑ r ∈ s, (y r - Ideal.div (∑ r ∈ s, y r) (m : EReal))
        * (y r - Ideal.div (∑ r ∈ s, y r) (m : EReal))) (m : EReal) + (e : EReal))) := by
  obtain ⟨v, hv, h⟩ := varDev_nonneg s y hy hm0
  rw [h]
  exact isReal_rsqrt_add hv he

/-! ### The rectified output -/

/-- A selection on the comparison z ≥ 0 is a case distinction on 0 ≤ z. -/
theorem select_cmp_oge_zero {α : Type} (z : EReal) (a b : α) :
    Scalar.select (Ideal.cmp .oge z 0) a b = if 0 ≤ z then a else b := by
  by_cases h : (0 : EReal) ≤ z
  · rw [if_pos h]
    have : Ideal.cmp .oge z 0 = 1#1 := by simp [Ideal.cmp, h]
    rw [this]; exact if_pos rfl
  · rw [if_neg h]
    have : Ideal.cmp .oge z 0 = 0#1 := by simp [Ideal.cmp, h]
    rw [this]; exact if_neg (by decide)

/-- A selection between two reals is real, whatever the condition. -/
theorem isReal_select (c : BitVec 1) {a b : EReal} (ha : IsReal a) (hb : IsReal b) : IsReal (Scalar.select c a b) := by
  unfold Scalar.select
  split <;> assumption

/-- The leaky rectifier of a real with a real slope is real: z where z ≥ 0, slope · z elsewhere. -/
theorem isReal_prelu {z a : EReal} (hz : IsReal z) (ha : IsReal a) :
    IsReal (Scalar.select (Ideal.cmp .oge z 0) z (a * z)) :=
  isReal_select _ hz (ha.mul hz)

/-- The normalised, scaled and shifted entry (y − μ) · ρ · γ + β is real when its five constituents are. -/
theorem isReal_affine {y μ ρ γ β : EReal} (hy : IsReal y) (hμ : IsReal μ) (hρ : IsReal ρ) (hγ : IsReal γ)
    (hβ : IsReal β) : IsReal ((y - μ) * ρ * γ + β) :=
  (((isReal_sub hy hμ).mul hρ).mul hγ).add hβ

/-- The output of a normalisation layer with a leaky rectifier, prelu ((y − μ) · ρ · γ + β), is real when its
    constituents and the slope are. -/
theorem isReal_bn_prelu {y μ ρ γ β a : EReal} (hy : IsReal y) (hμ : IsReal μ) (hρ : IsReal ρ) (hγ : IsReal γ)
    (hβ : IsReal β) (ha : IsReal a) :
    IsReal (Scalar.select (Ideal.cmp .oge ((y - μ) * ρ * γ + β) 0) ((y - μ) * ρ * γ + β) (a * ((y - μ) * ρ * γ + β))) :=
  isReal_prelu (isReal_affine hy hμ hρ hγ hβ) ha

/-! ### A sum of reals divided by a count that is at least one -/

/-- A finite sum of reals divided by the larger of a real count and one is real. -/
theorem isReal_sum_div_max_one {ι : Type*} (s : Finset ι) (a : ι → EReal) (ha : ∀ i ∈ s, IsReal (a i)) {c : EReal}
    (hc : IsReal c) : IsReal (Ideal.div (∑ i ∈ s, a i) (max c 1)) := by
  refine isReal_div (isReal_sum s a ha) (isReal_max hc isReal_one) ?_
  exact (lt_of_lt_of_le zero_lt_one (le_max_right c 1)).ne'

/-- A real divided by the larger of a real count and one is real. -/
theorem isReal_div_max_one {x c : EReal} (hx : IsReal x) (hc : IsReal c) : IsReal (Ideal.div x (max c 1)) :=
  isReal_div hx (isReal_max hc isReal_one) (lt_of_lt_of_le zero_lt_one (le_max_right c 1)).ne'

/-! ### A sum accumulated step by step -/

/-- An accumulator that holds zero plus the first term after step 0 and adds the next term at every further step below
    N holds, after step n < N, the sum of the terms 0 … n. -/
theorem acc_eq_sum_range {β : Type*} [AddCommMonoid β] (acc g : ℕ → β) (N : ℕ) (h0 : acc 0 = 0 + g 0)
    (hs : ∀ n, n + 1 < N → acc (n + 1) = acc n + g (n + 1)) :
    ∀ n, n < N → acc n = ∑ t ∈ Finset.range (n + 1), g t := by
  intro n
  induction n with
  | zero => intro _; rw [h0, zero_add, Finset.sum_range_one]
  | succ k ih =>
    intro hk
    rw [hs k hk, ih (Nat.lt_of_succ_lt hk), Finset.sum_range_succ _ (k + 1)]

/-- After the last of N > 0 steps the accumulator holds the sum of all N terms. -/
theorem acc_last_eq_sum {β : Type*} [AddCommMonoid β] (acc g : ℕ → β) (N : ℕ) (hN : 0 < N) (h0 : acc 0 = 0 + g 0)
    (hs : ∀ n, n + 1 < N → acc (n + 1) = acc n + g (n + 1)) :
    acc (N - 1) = ∑ t ∈ Finset.range N, g t := by
  rw [acc_eq_sum_range acc g N h0 hs (N - 1) (Nat.sub_lt hN Nat.one_pos), Nat.sub_add_cancel hN]

/-- The same for an accumulator of extended reals whose first step adds the first term to the single-precision zero
    pattern, which denotes zero. -/
theorem acc_eq_sum_range_f32 (acc g : ℕ → EReal) (N : ℕ) (h0 : acc 0 = Ideal.ofBits .f32 0x00000000#32 + g 0)
    (hs : ∀ n, n + 1 < N → acc (n + 1) = acc n + g (n + 1)) :
    ∀ n, n < N → acc n = ∑ t ∈ Finset.range (n + 1), g t :=
  acc_eq_sum_range acc g N (by rw [h0, Ideal.ofBits_zero_f32]) hs

end Cert.BatchNorm
-- ==== Proof.LibFinite.lean ====
/-
  Real entries stay real: the operations of the two programs, read at the extended reals, keep every entry the image
  of a real number when their operands' entries are.

  An extended real is called real when it is the image of a real number. Sums, differences and products of reals are
  real, and so are finite sums and finite products. The operations that only move entries (a splat, a broadcast, a
  change of shape, a slice, a transposition, a concatenation, a gather of rows) give arrays each entry of which is an
  entry of an operand (a gather clamps its start indices, so it always reads inside its operand). A contraction is, at
  each entry, a finite sum of products of entries; a sum along axes is a finite sum of entries, plus the initial
  value for the host's; an accumulating scatter is, at each entry, the operand's entry plus a finite sum of update
  entries. A selection is one of its two branches, and a change of float format is the identity here.
-/
import Idealize.ShloMosaic.PureOps.Ideal
import Idealize.ShloMosaic.PureOps.Ideal.Laws
import proofs.«121727_j57028575756303_1_alg».proof.Proof.LibRealSums
import proofs.«121727_j57028575756303_1_alg».proof.Proof.LibBatchNorm

open scoped BigOperators
open Idealize.ShloMosaic Cert.RealSums Cert.BatchNorm

namespace Cert.Finite

/-! ### Scalars -/

/-- The single-precision zero pattern denotes a real (zero). -/
theorem isReal_ofBits_zero : IsReal (Ideal.ofBits .f32 0x00000000#32) := by
  rw [Ideal.ofBits_zero_f32]; exact isReal_zero

/-- A finite product of reals is real. -/
theorem isReal_prod {ι : Type*} (s : Finset ι) (a : ι → EReal) (ha : ∀ i ∈ s, IsReal (a i)) : IsReal (∏ i ∈ s, a i) := by
  classical
  induction s using Finset.induction_on with
  | empty => rw [Finset.prod_empty]; exact isReal_one
  | insert b s hb ih =>
    rw [Finset.prod_insert hb]
    exact (ha b (Finset.mem_insert_self b s)).mul (ih fun i hi => ha i (Finset.mem_insert_of_mem hi))

/-- A finite sum over a whole finite type of reals is real. -/
theorem isReal_sum_univ {ι : Type*} [Fintype ι] (a : ι → EReal) (ha : ∀ i, IsReal (a i)) : IsReal (∑ i, a i) :=
  isReal_sum Finset.univ a fun i _ => ha i

/-- A signed integer converted to a float is real. -/
theorem isReal_sitofp {φ : FTy} {w : Nat} (b : BitVec w) : IsReal (FloatOps.sitofp (F := Ideal) φ b) :=
  ⟨(b.toInt : ℝ), rfl⟩

/-! ### Lane by lane -/

section Lanes
variable {s : Shape} {φ : FTy}

theorem isReal_addf (x y : FVec Ideal s φ) (hx : ∀ i, IsReal (x i)) (hy : ∀ i, IsReal (y i)) (i : s.Idx) :
    IsReal (addf x y i) := (hx i).add (hy i)

theorem isReal_subf (x y : FVec Ideal s φ) (hx : ∀ i, IsReal (x i)) (hy : ∀ i, IsReal (y i)) (i : s.Idx) :
    IsReal (subf x y i) := isReal_sub (hx i) (hy i)

theorem isReal_mulf (x y : FVec Ideal s φ) (hx : ∀ i, IsReal (x i)) (hy : ∀ i, IsReal (y i)) (i : s.Idx) :
    IsReal (mulf x y i) := (hx i).mul (hy i)

/-- The constant splat of the single-precision zero pattern. -/
theorem isReal_constant_zero (s : Shape) (i : s.Idx) : IsReal (constant (F := Ideal) s .f32 0x00000000#32 i) :=
  isReal_ofBits_zero

/-- A constant splat of any pattern that denotes a real. -/
theorem isReal_constant (s : Shape) (b : BitVec φ.bits) (hb : IsReal (Ideal.ofBits φ b)) (i : s.Idx) :
    IsReal (constant (F := Ideal) s φ b i) := hb

/-- A lane-by-lane selection between two arrays of reals. -/
theorem isReal_select_vec (c : IVec s 1) (a b : s.Idx → EReal) (ha : ∀ i, IsReal (a i)) (hb : ∀ i, IsReal (b i))
    (i : s.Idx) : IsReal (select c a b i) := isReal_select (c i) (ha i) (hb i)

/-- A change of float format is the identity on the extended reals. -/
theorem isReal_truncf (ψ : FTy) (x : FVec Ideal s φ) (h : ψ.bits < φ.bits) (hx : ∀ i, IsReal (x i)) (i : s.Idx) :
    IsReal (truncf ψ x h i) := hx i

theorem isReal_extf (ψ : FTy) (x : FVec Ideal s φ) (h : φ.bits < ψ.bits) (hx : ∀ i, IsReal (x i)) (i : s.Idx) :
    IsReal (extf ψ x h i) := hx i

/-- The conversion of an integer array to floats. -/
theorem isReal_sitofp_vec {w : Nat} (n : IVec s w) (i : s.Idx) : IsReal (sitofp (F := Ideal) φ n i) := isReal_sitofp (n i)

/-- The host's quotient by an array whose entries are nonzero reals. -/
theorem isReal_hostDivf (x y : FVec Ideal s φ) (hx : ∀ i, IsReal (x i)) (hy : ∀ i, IsReal (y i)) (hy0 : ∀ i, y i ≠ 0)
    (i : s.Idx) : IsReal (Host.divf x y i) := isReal_div (hx i) (hy i) (hy0 i)

end Lanes

/-! ### Operations that move entries -/

section Moves
variable {s t : Shape}

/-- Any re-indexing of an array of reals. -/
theorem isReal_comp {ι κ : Type*} (x : ι → EReal) (g : κ → ι) (hx : ∀ i, IsReal (x i)) (j : κ) : IsReal (x (g j)) := hx (g j)

theorem isReal_broadcast (t : Shape) (x : EReal) (hx : IsReal x) (j : t.Idx) : IsReal (broadcast t x j) := hx

theorem isReal_broadcastTo (t : Shape) (x : s.Idx → EReal) (h : s.Broadcasts t) (hx : ∀ i, IsReal (x i)) (j : t.Idx) :
    IsReal (broadcastTo t x h j) := hx _

theorem isReal_broadcastInDim (t : Shape) (dims : Fin s.rank → Fin t.rank) (h : s.BroadcastsInDim t dims)
    (x : s.Idx → EReal) (hx : ∀ i, IsReal (x i)) (j : t.Idx) : IsReal (broadcastInDim t dims h x j) := hx _

/-- A change of shape (the host's reshape is one). -/
theorem isReal_shapeCast (t : Shape) (x : s.Idx → EReal) (h : s.ShapeCasts t) (hx : ∀ i, IsReal (x i)) (j : t.Idx) :
    IsReal (shapeCast t x h j) := hx _

/-- A slice at unit strides. -/
theorem isReal_extractStridedSlice (t : Shape) (off : Fin s.rank → Nat) (x : s.Idx → EReal) (h : s.Slices off t)
    (hx : ∀ i, IsReal (x i)) (j : t.Idx) : IsReal (extractStridedSlice t off x h j) := hx _

/-- A slice at any strides. -/
theorem isReal_hostSlice (t : Shape) (start strides : Fin s.rank → Nat) (x : s.Idx → EReal)
    (h : s.SlicesBy start strides t) (hx : ∀ i, IsReal (x i)) (j : t.Idx) : IsReal (Host.slice t start strides x h j) :=
  hx _

theorem isReal_transpose (t : Shape) (perm : List (Fin s.rank)) (x : s.Idx → EReal) (h : s.Transposes perm t)
    (hx : ∀ i, IsReal (x i)) (j : t.Idx) : IsReal (transpose t perm x h j) := hx _

/-- A concatenation of any number of arrays along an axis: each entry is an entry of one of them. -/
theorem isReal_concatenate (t : Shape) (a : Fin t.rank) (xs : List ((s : Shape) × (s.Idx → EReal)))
    (h : Shape.Concatenates (xs.map (·.1)) t a) (hx : ∀ p ∈ xs, ∀ i, IsReal (p.2 i)) (j : t.Idx) :
    IsReal (concatenate t a xs h j) := by
  unfold concatenate
  exact hx _ (List.getElem_mem _) _

/-- A concatenation of two arrays. -/
theorem isReal_concatenate₂ (t : Shape) (a : Fin t.rank) {s₁ s₂ : Shape} (x₁ : s₁.Idx → EReal) (x₂ : s₂.Idx → EReal)
    (h : Shape.Concatenates [s₁, s₂] t a) (h₁ : ∀ i, IsReal (x₁ i)) (h₂ : ∀ i, IsReal (x₂ i)) (j : t.Idx) :
    IsReal (concatenate t a [⟨s₁, x₁⟩, ⟨s₂, x₂⟩] h j) := by
  refine isReal_concatenate t a [⟨s₁, x₁⟩, ⟨s₂, x₂⟩] h (fun p hp => ?_) j
  rcases List.mem_cons.mp hp with rfl | hp
  · exact h₁
  · rcases List.mem_cons.mp hp with rfl | hp
    · exact h₂
    · exact absurd hp (List.not_mem_nil)

/-- A concatenation of four arrays. -/
theorem isReal_concatenate₄ (t : Shape) (a : Fin t.rank) {s₁ s₂ s₃ s₄ : Shape} (x₁ : s₁.Idx → EReal)
    (x₂ : s₂.Idx → EReal) (x₃ : s₃.Idx → EReal) (x₄ : s₄.Idx → EReal) (h : Shape.Concatenates [s₁, s₂, s₃, s₄] t a)
    (h₁ : ∀ i, IsReal (x₁ i)) (h₂ : ∀ i, IsReal (x₂ i)) (h₃ : ∀ i, IsReal (x₃ i)) (h₄ : ∀ i, IsReal (x₄ i)) (j : t.Idx) :
    IsReal (concatenate t a [⟨s₁, x₁⟩, ⟨s₂, x₂⟩, ⟨s₃, x₃⟩, ⟨s₄, x₄⟩] h j) := by
  refine isReal_concatenate t a [⟨s₁, x₁⟩, ⟨s₂, x₂⟩, ⟨s₃, x₃⟩, ⟨s₄, x₄⟩] h (fun p hp => ?_) j
  simp only [List.mem_cons, List.not_mem_nil, or_false] at hp
  rcases hp with rfl | rfl | rfl | rfl
  · exact h₁
  · exact h₂
  · exact h₃
  · exact h₄

/-- A gather, whatever its dimension numbers and start indices: each entry is the operand's entry at the (clamped)
    operand index. -/
theorem isReal_gather {si : Shape} {w : Nat} (d : GatherDims s si t) (x : s.Idx → EReal) (idx : IVec si w)
    (hx : ∀ i, IsReal (x i)) (j : t.Idx) : IsReal (Host.gather d x idx j) := hx _

end Moves

/-! ### Sums of entries -/

section Sums

/-- The host's contraction, whatever its dimension numbers: at each entry a finite sum of products of entries. -/
theorem isReal_dotGeneral {sl sr so : Shape} {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) (j : so.Idx) :
    IsReal (Host.dotGeneral d prec lhs rhs j) := by
  have h : Host.dotGeneral d prec lhs rhs j = ∑ k : d.contr.Idx, lhs (d.lhsIdx j k) * rhs (d.rhsIdx j k) :=
    Ideal.dotGeneral_apply d prec .single lhs rhs j
  rw [h]
  exact isReal_sum _ _ fun k _ => (hl _).mul (hr _)

/-- The kernel's contraction onto an accumulator of reals. -/
theorem isReal_matmul {sl sr so : Shape} {φ₁ φ₂ : FTy} (d : DotDims sl sr so) (prec : Option ContractPrecision)
    (lhs : FVec Ideal sl φ₁) (rhs : FVec Ideal sr φ₂) (acc : FVec Ideal so .f32) (hl : ∀ i, IsReal (lhs i))
    (hr : ∀ i, IsReal (rhs i)) (ha : ∀ i, IsReal (acc i)) (j : so.Idx) : IsReal (matmul d prec lhs rhs acc j) := by
  have h : matmul d prec lhs rhs acc j = acc j + ∑ k : d.contr.Idx, lhs (d.lhsIdx j k) * rhs (d.rhsIdx j k) :=
    Ideal.matmul_apply d prec lhs rhs acc j
  rw [h]
  exact (ha j).add (isReal_sum _ _ fun k _ => (hl _).mul (hr _))

/-- The host's accumulating scatter, whatever its dimension numbers and indices: at each entry the operand's entry
    plus a finite sum of update entries. -/
theorem isReal_scatterAdd {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  unfold Host.scatterAdd
  rw [Ideal.hostScatterAdd_def]
  unfold Ideal.hostScatterAdd
  exact (hx i).add (isReal_sum _ _ fun j _ => hu j)

/-- The host's sum along axes from a real initial value: at each entry the initial value plus a finite sum of
    entries. -/
theorem isReal_hostReduceAdd {s t u : Shape} {φ : FTy} {axes : List (Fin s.rank)} (x : FVec Ideal s φ)
    (init : u.Idx → Ideal φ) (h : s.ReducesTo axes t) (hu : 0 < u.numel) (hx : ∀ i, IsReal (x i))
    (hinit : ∀ i, IsReal (init i)) (j : t.Idx) : IsReal (Host.reduceAdd x init h hu j) := by
  unfold Host.reduceAdd
  rw [Ideal.hostReduceAdd_def]
  unfold Ideal.hostReduceAdd
  exact (hinit _).add (isReal_sum _ _ fun i _ => hx i)

/-- The kernel's sum along axes: at each entry a finite sum of entries. -/
theorem isReal_multiReduction_add {s t : Shape} {φ : FTy} (axes : List (Fin s.rank)) (src : FVec Ideal s φ)
    (acc : BitVec φ.bits) (h : s.Reduces axes t) (hφ : FKind.Formats φ) (hacc : acc = FKind.add.neutral φ hφ)
    (hx : ∀ i, IsReal (src i)) (j : t.Idx) : IsReal (multiReduction .add axes t src acc h hφ hacc j) := by
  show IsReal (FloatOps.reduceAdd axes h src j)
  rw [Ideal.reduceAdd_def]
  unfold Ideal.reduceAdd
  exact isReal_sum _ _ fun i _ => hx i

end Sums

/-! ### The reciprocal square root of a positive real, lane by lane -/

/-- The host's reciprocal square root of an array whose entries are positive reals. -/
theorem isReal_hostRsqrt {s : Shape} {φ : FTy} (x : FVec Ideal s φ) (hx : ∀ i, ∃ r : ℝ, 0 < r ∧ x i = (r : EReal))
    (i : s.Idx) : IsReal (Host.rsqrt x i) := by
  obtain ⟨r, hr, h⟩ := hx i
  show IsReal (Ideal.rsqrt (x i))
  rw [h]
  exact isReal_rsqrt_of_pos hr

/-- The kernel's reciprocal square root of an array whose entries are positive reals. -/
theorem isReal_rsqrt {s : Shape} {φ : FTy} (x : FVec Ideal s φ) (hx : ∀ i, ∃ r : ℝ, 0 < r ∧ x i = (r : EReal))
    (i : s.Idx) : IsReal (rsqrt x i) := by
  obtain ⟨r, hr, h⟩ := hx i
  show IsReal (Ideal.rsqrt (x i))
  rw [h]
  exact isReal_rsqrt_of_pos hr

end Cert.Finite
-- ==== Proof.LibVariance.lean ====
/-
  The variance of a column of real numbers, written in two ways on the extended reals, at the count 65536.

  A column y of N real numbers has the mean μ = (Σ y) / N. One program computes the variance as the mean of the
  squares minus the square of the mean, (Σ y²) / N − μ · μ; the other as the mean of the squared deviations,
  (Σ (y − μ) · (y − μ)) / N. On the reals the two agree (expand the square and use Σ y = N μ); on the extended reals the
  ring laws fail at the infinities, so the law is stated for columns whose entries are images of real numbers and is
  proved by moving to the reals. Division is the extended reals' division of the instance: x · N⁻¹ for a real N ≠ 0.

  Also here: the single-precision patterns the programs spell for 65536, for zero and for the small positive
  constant added to the variance, as the reals they denote; 65536 − 0 = 65536 where the zero is a signed 32-bit
  integer zero converted to a float; the comparison 65536 > 0 holds, so a selection on it takes its first branch.
-/
import Idealize.ShloMosaic.PureOps.Ideal
import Idealize.ShloMosaic.PureOps.Ideal.Laws
import proofs.«121727_j57028575756303_1_alg».proof.Proof.LibRealSums
import proofs.«121727_j57028575756303_1_alg».proof.Proof.LibBatchNorm

open scoped BigOperators
open Idealize.ShloMosaic Cert.RealSums Cert.BatchNorm

namespace Cert.Variance

/-! ### The constants -/

/-- The single-precision pattern of 65536.0 denotes the real 65536. -/
theorem ofBits_65536 : Ideal.ofBits .f32 0x47800000#32 = ((65536 : ℝ) : EReal) := by
  simp [Ideal.ofBits, Ideal.ieee, -EReal.coe_mul]; norm_num

/-- The single-precision pattern 0x3727C5AC (about 10⁻⁵) denotes a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

theorem real_65536_ne_zero : (65536 : ℝ) ≠ 0 := by norm_num

theorem real_65536_pos : (0 : ℝ) < 65536 := by norm_num

/-! ### The quotient of the instance -/

/-- The host's quotient of two vectors, read at one entry, is the division of the extended reals of the instance. -/
theorem hostDivf_apply {s : Shape} {φ : FTy} (x y : FVec Ideal s φ) (i : s.Idx) :
    Host.divf x y i = Ideal.div (x i) (y i) := rfl

/-- A real divided by 65536 is the image of the real quotient. -/
theorem div_65536_coe (a : ℝ) : Ideal.div (a : EReal) ((65536 : ℝ) : EReal) = ((a / 65536 : ℝ) : EReal) :=
  div_coe_coe a real_65536_ne_zero

/-- A real divided by 65536 is real. -/
theorem isReal_div_65536 {x : EReal} (hx : IsReal x) : IsReal (Ideal.div x ((65536 : ℝ) : EReal)) :=
  isReal_div_coe hx real_65536_ne_zero

/-! ### The two variances -/

/-- THE VARIANCE LAW for a column of real numbers x over a finite index type of N ≠ 0 elements, N given as a real:
    (Σ x²) / N − μ · μ = (Σ (x − μ) · (x − μ)) / N with μ = (Σ x) / N, every operation that of the extended reals. -/
theorem var_eq_coe {ι : Type*} [Fintype ι] (x : ι → ℝ) {N : ℝ} (hN : N = (Fintype.card ι : ℝ)) (hN0 : N ≠ 0) :
    Ideal.div (∑ i, (x i : EReal) * (x i : EReal)) (N : EReal)
        - Ideal.div (∑ i, (x i : EReal)) (N : EReal) * Ideal.div (∑ i, (x i : EReal)) (N : EReal)
      = Ideal.div (∑ i, ((x i : EReal) - Ideal.div (∑ i, (x i : EReal)) (N : EReal))
          * ((x i : EReal) - Ideal.div (∑ i, (x i : EReal)) (N : EReal))) (N : EReal) :=
  var_eq (fun i => (x i : EReal)) (fun i => isReal_coe (x i)) hN hN0

/-- The variance law at the count 65536, for a column y of extended reals every entry of which is real, over any finite
    index type with 65536 elements. -/
theorem var_eq_65536 {ι : Type*} [Fintype ι] (hcard : Fintype.card ι = 65536) (y : ι → EReal) (hy : ∀ i, IsReal (y i)) :
    Ideal.div (∑ i, y i * y i) ((65536 : ℝ) : EReal)
        - Ideal.div (∑ i, y i) ((65536 : ℝ) : EReal) * Ideal.div (∑ i, y i) ((65536 : ℝ) : EReal)
      = Ideal.div (∑ i, (y i - Ideal.div (∑ i, y i) ((65536 : ℝ) : EReal))
          * (y i - Ideal.div (∑ i, y i) ((65536 : ℝ) : EReal))) ((65536 : ℝ) : EReal) :=
  var_eq y hy (by rw [hcard]; norm_num) real_65536_ne_zero

/-- The same over the rows 0 … 65535. -/
theorem var_eq_fin (y : Fin 65536 → EReal) (hy : ∀ i, IsReal (y i)) :
    Ideal.div (∑ i, y i * y i) ((65536 : ℝ) : EReal)
        - Ideal.div (∑ i, y i) ((65536 : ℝ) : EReal) * Ideal.div (∑ i, y i) ((65536 : ℝ) : EReal)
      = Ideal.div (∑ i, (y i - Ideal.div (∑ i, y i) ((65536 : ℝ) : EReal))
          * (y i - Ideal.div (∑ i, y i) ((65536 : ℝ) : EReal))) ((65536 : ℝ) : EReal) :=
  var_eq_65536 (Fintype.card_fin 65536) y hy

/-- The same with the sums S = Σ y and Q = Σ y · y and the divisor c named: whatever the programs hold for them, once
    they are known to be those sums and the real 65536. The sums of the second form may start from a zero z. -/
theorem var_eq_named {ι : Type*} [Fintype ι] (hcard : Fintype.card ι = 65536) (y : ι → EReal) (hy : ∀ i, IsReal (y i))
    (S Q c c' z : EReal) (hS : S = ∑ i, y i) (hQ : Q = ∑ i, y i * y i) (hc : c = ((65536 : ℝ) : EReal))
    (hc' : c' = ((65536 : ℝ) : EReal)) (hz : z = 0) :
    Ideal.div Q c - Ideal.div S c * Ideal.div S c
      = Ideal.div (z + ∑ i, (y i - Ideal.div (z + ∑ i, y i) c) * (y i - Ideal.div (z + ∑ i, y i) c)) c' := by
  subst hS hQ hc hc' hz
  simp only [zero_add]
  exact var_eq_65536 hcard y hy

/-- The mean of a real column over 65536 rows is real. -/
theorem isReal_mean {ι : Type*} [Fintype ι] (y : ι → EReal) (hy : ∀ i, IsReal (y i)) :
    IsReal (Ideal.div (∑ i, y i) ((65536 : ℝ) : EReal)) :=
  isReal_div_65536 (isReal_sum Finset.univ y fun i _ => hy i)

/-- The variance of a real column over 65536 rows, in the mean-of-squares form, is a real number that is not negative. -/
theorem varSq_nonneg_65536 {ι : Type*} [Fintype ι] (hcard : Fintype.card ι = 65536) (y : ι → EReal)
    (hy : ∀ i, IsReal (y i)) :
    ∃ v : ℝ, 0 ≤ v ∧ Ideal.div (∑ i, y i * y i) ((65536 : ℝ) : EReal)
        - Ideal.div (∑ i, y i) ((65536 : ℝ) : EReal) * Ideal.div (∑ i, y i) ((65536 : ℝ) : EReal) = (v : EReal) :=
  varSq_nonneg Finset.univ y (fun i _ => hy i) (by rw [Finset.card_univ, hcard]; norm_num) real_65536_pos

/-- The variance of a real column over 65536 rows, in the squared-deviations form, is a real number that is not
    negative. -/
theorem varDev_nonneg_65536 {ι : Type*} [Fintype ι] (y : ι → EReal) (hy : ∀ i, IsReal (y i)) :
    ∃ v : ℝ, 0 ≤ v ∧ Ideal.div (∑ i, (y i - Ideal.div (∑ i, y i) ((65536 : ℝ) : EReal))
        * (y i - Ideal.div (∑ i, y i) ((65536 : ℝ) : EReal))) ((65536 : ℝ) : EReal) = (v : EReal) :=
  varDev_nonneg Finset.univ y (fun i _ => hy i) real_65536_pos

/-- The reciprocal square root of the variance (either form) plus the small positive constant is real. -/
theorem isReal_rsqrt_var_add_eps {v : EReal} (hv : ∃ r : ℝ, 0 ≤ r ∧ v = (r : EReal)) :
    IsReal (Ideal.rsqrt (v + Ideal.ofBits .f32 0x3727C5AC#32)) := by
  obtain ⟨r, hr, rfl⟩ := hv
  obtain ⟨e, he, h⟩ := ofBits_eps
  rw [h]
  exact isReal_rsqrt_add hr he

/-! ### The count 65536 − 0 and the guard 65536 − 0 > 0 -/

/-- A signed 32-bit zero converted to a float is the extended real 0. -/
theorem sitofp_zero {φ : FTy} : FloatOps.sitofp (F := Ideal) φ (0#32 : BitVec 32) = (0 : EReal) := by
  show (((0#32 : BitVec 32).toInt : ℝ) : EReal) = 0
  simp

/-- 65536 − 0 = 65536, the zero a signed 32-bit integer zero converted to a float, the 65536 its pattern. -/
theorem count_sub_zero :
    FloatOps.subf (F := Ideal) (φ := .f32) (Ideal.ofBits .f32 0x47800000#32) (FloatOps.sitofp .f32 (0#32 : BitVec 32))
      = ((65536 : ℝ) : EReal) := by
  rw [sitofp_zero]
  show Ideal.ofBits .f32 0x47800000#32 - 0 = _
  rw [sub_zero, ofBits_65536]

/-- The same over vectors of any shape (a scalar is a vector over the empty index): the constant splat of 65536 minus
    the conversion of an integer vector whose entry at i is zero, read at i. -/
theorem count_sub_zero_apply {s : Shape} (n : IVec s 32) (i : s.Idx) (hn : n i = 0#32) :
    subf (constant (F := Ideal) s .f32 0x47800000#32) (sitofp .f32 n) i = ((65536 : ℝ) : EReal) := by
  show FloatOps.subf (F := Ideal) (φ := .f32) (Ideal.ofBits .f32 0x47800000#32) (FloatOps.sitofp .f32 (n i)) = _
  rw [hn]
  exact count_sub_zero

/-- 65536 > 0 on the extended reals: the comparison gives the true bit. -/
theorem cmp_ogt_65536_zero : Ideal.cmp .ogt ((65536 : ℝ) : EReal) 0 = 1#1 := by
  have h : (0 : EReal) < ((65536 : ℝ) : EReal) := by exact_mod_cast real_65536_pos
  simp [Ideal.cmp, h]

/-- The same in the operations of a program: a value known to be 65536 compared with a value known to be 0. -/
theorem cmpf_ogt_count_zero {φ : FTy} (a b : Ideal φ) (ha : a = ((65536 : ℝ) : EReal)) (hb : b = 0) :
    FloatOps.cmpf .ogt a b = 1#1 := by
  subst ha hb
  exact cmp_ogt_65536_zero

/-- Over vectors of any shape, read at an entry. -/
theorem cmpf_ogt_count_zero_apply {s : Shape} {φ : FTy} (a b : FVec Ideal s φ) (i : s.Idx)
    (ha : a i = ((65536 : ℝ) : EReal)) (hb : b i = 0) : cmpf .ogt a b i = 1#1 :=
  cmpf_ogt_count_zero (a i) (b i) ha hb

/-- A selection on the true bit takes its first branch. -/
theorem select_true {α : Type} (a b : α) : Scalar.select 1#1 a b = a := if_pos rfl

/-- A lane-by-lane selection whose condition is the true bit at an entry takes the first vector's entry there. -/
theorem select_apply_of_true {s : Shape} {α : Type} (c : IVec s 1) (a b : s.Idx → α) (i : s.Idx) (hc : c i = 1#1) :
    select c a b i = a i := by
  show Scalar.select (c i) (a i) (b i) = a i
  rw [hc]; exact if_pos rfl

/-- So the guarded quotient select (65536 − 0 > 0) q nan is the quotient q, at one lane. -/
theorem guarded_quotient (q nan : EReal) :
    Scalar.select (Ideal.cmp .ogt (FloatOps.subf (F := Ideal) (φ := .f32) (Ideal.ofBits .f32 0x47800000#32)
        (FloatOps.sitofp .f32 (0#32 : BitVec 32))) (Ideal.ofBits .f32 0x00000000#32)) q nan = q := by
  rw [count_sub_zero, Ideal.ofBits_zero_f32, cmp_ogt_65536_zero]
  exact if_pos rfl

end Cert.Variance
-- ==== Proof.LibBn100000.lean ====
/-
  Batch normalisation over 100000 rows, written in two ways on the extended reals.

  A column y of N = 100000 real numbers has the mean μ = (Σ y) / N. One program holds the sums S = Σ y and Q = Σ y · y,
  takes μ = S / N and the variance Q / N − μ · μ (the mean of the squares minus the square of the mean); the other
  starts every sum from a zero, takes μ = (0 + Σ y) / N and the variance (0 + Σ (y − μ) · (y − μ)) / (N − 0) (the mean
  of the squared deviations), guarded by a selection on N − 0 > 0 that always takes the quotient. Both then output
  max (((y − μ) · rsqrt (variance + ε)) · γ + β, 0). On the reals the two variances agree (expand the square and use
  Σ y = N μ); on the extended reals the ring laws fail at the infinities, so the law is stated for columns whose
  entries are images of real numbers.

  The normalised entry is given one name, norm, in the second spelling with the zeros removed; each program's
  spelling is shown equal to it, the first for real columns, the second for every column. With γ, β real and ε a
  positive real the normalised entry of a real column is real again (and not negative), so a further layer starts
  from real columns too.

  Also here: the single-precision pattern the programs spell for 100000 as the real it denotes; 100000 − 0 = 100000
  where the zero is a signed 32-bit integer zero converted to a float; the comparison 100000 > 0 holds.
-/
import Idealize.ShloMosaic.PureOps.Ideal
import Idealize.ShloMosaic.PureOps.Ideal.Laws
import proofs.«121727_j57028575756303_1_alg».proof.Proof.LibRealSums
import proofs.«121727_j57028575756303_1_alg».proof.Proof.LibBatchNorm
import proofs.«121727_j57028575756303_1_alg».proof.Proof.LibVariance

open scoped BigOperators
open Idealize.ShloMosaic Cert.RealSums Cert.BatchNorm

namespace Cert.Bn100000

/-! ### The constants -/

/-- The single-precision pattern of 100000.0 denotes the real 100000. -/
theorem ofBits_100000 : Ideal.ofBits .f32 0x47C35000#32 = ((100000 : ℝ) : EReal) := by
  simp [Ideal.ofBits, Ideal.ieee, -EReal.coe_mul]; norm_num

theorem real_100000_ne_zero : (100000 : ℝ) ≠ 0 := by norm_num

theorem real_100000_pos : (0 : ℝ) < 100000 := by norm_num

theorem real_100000_card : (100000 : ℝ) = (Fintype.card (Fin 100000) : ℝ) := by
  rw [Fintype.card_fin]; norm_num

/-- The constant splat of 100000, read at an entry, is the real 100000. -/
theorem constant_100000_apply {s : Shape} (i : s.Idx) :
    constant (F := Ideal) s .f32 0x47C35000#32 i = ((100000 : ℝ) : EReal) := ofBits_100000

/-- The small positive constant added to the variance is a positive real (the pattern 0x3727C5AC). -/
theorem eps_pos : ∃ ε : ℝ, 0 < ε ∧ Ideal.ofBits .f32 0x3727C5AC#32 = (ε : EReal) := Cert.Variance.ofBits_eps

/-- 100000 − 0 = 100000, the zero a signed 32-bit integer zero converted to a float, the 100000 its pattern. -/
theorem count_sub_zero :
    FloatOps.subf (F := Ideal) (φ := .f32) (Ideal.ofBits .f32 0x47C35000#32) (FloatOps.sitofp .f32 (0#32 : BitVec 32))
      = ((100000 : ℝ) : EReal) := by
  rw [Cert.Variance.sitofp_zero]
  show Ideal.ofBits .f32 0x47C35000#32 - 0 = _
  rw [sub_zero, ofBits_100000]

/-- The same over vectors of any shape (a scalar is a vector over the empty index): the constant splat of 100000 minus
    the conversion of an integer vector whose entry at i is zero, read at i. -/
theorem count_sub_zero_apply {s : Shape} (n : IVec s 32) (i : s.Idx) (hn : n i = 0#32) :
    subf (constant (F := Ideal) s .f32 0x47C35000#32) (sitofp .f32 n) i = ((100000 : ℝ) : EReal) := by
  show FloatOps.subf (F := Ideal) (φ := .f32) (Ideal.ofBits .f32 0x47C35000#32) (FloatOps.sitofp .f32 (n i)) = _
  rw [hn]
  exact count_sub_zero

/-- 100000 > 0 on the extended reals: the comparison gives the true bit. -/
theorem cmp_ogt_100000_zero : Ideal.cmp .ogt ((100000 : ℝ) : EReal) 0 = 1#1 := by
  have h : (0 : EReal) < ((100000 : ℝ) : EReal) := by exact_mod_cast real_100000_pos
  simp [Ideal.cmp, h]

/-- The same in the operations of a program: a value known to be 100000 compared with a value known to be 0. -/
theorem cmpf_ogt_count_zero {φ : FTy} (a b : Ideal φ) (ha : a = ((100000 : ℝ) : EReal)) (hb : b = 0) :
    FloatOps.cmpf .ogt a b = 1#1 := by
  subst ha hb
  exact cmp_ogt_100000_zero

/-- Over vectors of any shape, read at an entry. -/
theorem cmpf_ogt_count_zero_apply {s : Shape} {φ : FTy} (a b : FVec Ideal s φ) (i : s.Idx)
    (ha : a i = ((100000 : ℝ) : EReal)) (hb : b i = 0) : cmpf .ogt a b i = 1#1 :=
  cmpf_ogt_count_zero (a i) (b i) ha hb

/-- So the guarded quotient select (100000 − 0 > 0) q nan is the quotient q, at one lane. -/
theorem guarded_quotient (q nan : EReal) :
    Scalar.select (Ideal.cmp .ogt (FloatOps.subf (F := Ideal) (φ := .f32) (Ideal.ofBits .f32 0x47C35000#32)
        (FloatOps.sitofp .f32 (0#32 : BitVec 32))) (Ideal.ofBits .f32 0x00000000#32)) q nan = q := by
  rw [count_sub_zero, Ideal.ofBits_zero_f32, cmp_ogt_100000_zero]
  exact if_pos rfl

/-- A real divided by 100000 is the image of the real quotient. -/
theorem div_100000_coe (a : ℝ) : Ideal.div (a : EReal) ((100000 : ℝ) : EReal) = ((a / 100000 : ℝ) : EReal) :=
  div_coe_coe a real_100000_ne_zero

/-- A real divided by 100000 is real. -/
theorem isReal_div_100000 {x : EReal} (hx : IsReal x) : IsReal (Ideal.div x ((100000 : ℝ) : EReal)) :=
  isReal_div_coe hx real_100000_ne_zero

/-! ### The mean and the two variances of a column -/

/-- The mean of a column over the 100000 rows. -/
noncomputable def mean (y : Fin 100000 → EReal) : EReal := Ideal.div (∑ n, y n) ((100000 : ℝ) : EReal)

/-- The variance as the mean of the squares minus the square of the mean. -/
noncomputable def varSq (y : Fin 100000 → EReal) : EReal :=
  Ideal.div (∑ n, y n * y n) ((100000 : ℝ) : EReal) - mean y * mean y

/-- The variance as the mean of the squared deviations from the mean. -/
noncomputable def varDev (y : Fin 100000 → EReal) : EReal :=
  Ideal.div (∑ n, (y n - mean y) * (y n - mean y)) ((100000 : ℝ) : EReal)

/-- THE VARIANCE LAW at the count 100000: for a column of reals the two variances agree. -/
theorem varSq_eq_varDev (y : Fin 100000 → EReal) (hy : ∀ n, IsReal (y n)) : varSq y = varDev y :=
  var_eq y hy real_100000_card real_100000_ne_zero

/-- The same with every sum written out. -/
theorem var_eq_fin (y : Fin 100000 → EReal) (hy : ∀ n, IsReal (y n)) :
    Ideal.div (∑ n, y n * y n) ((100000 : ℝ) : EReal)
        - Ideal.div (∑ n, y n) ((100000 : ℝ) : EReal) * Ideal.div (∑ n, y n) ((100000 : ℝ) : EReal)
      = Ideal.div (∑ n, (y n - Ideal.div (∑ n, y n) ((100000 : ℝ) : EReal))
          * (y n - Ideal.div (∑ n, y n) ((100000 : ℝ) : EReal))) ((100000 : ℝ) : EReal) :=
  varSq_eq_varDev y hy

/-- The same with the sums S = Σ y and Q = Σ y · y and the divisors named: whatever the programs hold for them, once
    they are known to be those sums and the real 100000. The sums of the second form may start from a zero z. -/
theorem var_eq_named (y : Fin 100000 → EReal) (hy : ∀ n, IsReal (y n)) (S Q c c' z : EReal) (hS : S = ∑ n, y n)
    (hQ : Q = ∑ n, y n * y n) (hc : c = ((100000 : ℝ) : EReal)) (hc' : c' = ((100000 : ℝ) : EReal)) (hz : z = 0) :
    Ideal.div Q c - Ideal.div S c * Ideal.div S c
      = Ideal.div (z + ∑ n, (y n - Ideal.div (z + ∑ n, y n) c) * (y n - Ideal.div (z + ∑ n, y n) c)) c' := by
  rw [hS, hQ, hc, hc', hz]
  simp only [zero_add]
  exact varSq_eq_varDev y hy

/-- The mean of a real column is real. -/
theorem isReal_mean (y : Fin 100000 → EReal) (hy : ∀ n, IsReal (y n)) : IsReal (mean y) :=
  isReal_div_100000 (isReal_sum Finset.univ y fun n _ => hy n)

/-- The variance of a real column, in the squared-deviations form, is a real number that is not negative. -/
theorem varDev_nonneg (y : Fin 100000 → EReal) (hy : ∀ n, IsReal (y n)) : ∃ v : ℝ, 0 ≤ v ∧ varDev y = (v : EReal) :=
  Cert.BatchNorm.varDev_nonneg Finset.univ y (fun n _ => hy n) real_100000_pos

/-- The variance of a real column, in the mean-of-squares form, is a real number that is not negative. -/
theorem varSq_nonneg (y : Fin 100000 → EReal) (hy : ∀ n, IsReal (y n)) : ∃ v : ℝ, 0 ≤ v ∧ varSq y = (v : EReal) := by
  rw [varSq_eq_varDev y hy]
  exact varDev_nonneg y hy

/-- The reciprocal square root of the variance plus a positive real is real. -/
theorem isReal_rsqrt_varDev_add (y : Fin 100000 → EReal) (hy : ∀ n, IsReal (y n)) {e : EReal}
    (he : ∃ ε : ℝ, 0 < ε ∧ e = (ε : EReal)) : IsReal (Ideal.rsqrt (varDev y + e)) := by
  obtain ⟨v, hv, h⟩ := varDev_nonneg y hy
  obtain ⟨ε, hε, rfl⟩ := he
  rw [h]
  exact isReal_rsqrt_add hv hε

/-! ### The normalised, scaled, shifted and rectified entry -/

/-- Row r of the column y after normalisation with scale γ, shift β and the constant e added to the variance:
    max (((y r − μ) · rsqrt (variance + e)) · γ + β, 0), the variance the mean of the squared deviations. -/
noncomputable def norm (y : Fin 100000 → EReal) (γ β e : EReal) (r : Fin 100000) : EReal :=
  max ((y r - mean y) * Ideal.rsqrt (varDev y + e) * γ + β) 0

/-- THE FIRST SPELLING: the sums S and Q given, the variance the mean of the squares minus the square of the mean.
    For a column of reals it is the normalised entry. -/
theorem kernel_eq_norm (y : Fin 100000 → EReal) (hy : ∀ n, IsReal (y n)) (S Q c c' e z γ β : EReal)
    (hS : S = ∑ n, y n) (hQ : Q = ∑ n, y n * y n) (hc : c = ((100000 : ℝ) : EReal))
    (hc' : c' = ((100000 : ℝ) : EReal)) (hz : z = 0) (r : Fin 100000) :
    max ((y r - Ideal.div S c) * Ideal.rsqrt (Ideal.div Q c' - Ideal.div S c * Ideal.div S c + e) * γ + β) z
      = norm y γ β e r := by
  rw [hS, hQ, hc, hc', hz]
  show max ((y r - mean y) * Ideal.rsqrt (varSq y + e) * γ + β) 0 = _
  rw [varSq_eq_varDev y hy]
  rfl

/-- The first spelling with the mean m and the variance v given as values: m = S / N, v = Q / N − m · m. -/
theorem kernel_eq_norm_of_mean_var (y : Fin 100000 → EReal) (hy : ∀ n, IsReal (y n)) (m v e z γ β : EReal)
    (hm : m = Ideal.div (∑ n, y n) ((100000 : ℝ) : EReal))
    (hv : v = Ideal.div (∑ n, y n * y n) ((100000 : ℝ) : EReal) - m * m) (hz : z = 0) (r : Fin 100000) :
    max ((y r - m) * Ideal.rsqrt (v + e) * γ + β) z = norm y γ β e r := by
  rw [hv, hm]
  exact kernel_eq_norm y hy _ _ _ _ e z γ β rfl rfl rfl rfl hz r

/-- THE SECOND SPELLING: every sum started from a zero, the variance the mean of the squared deviations over the
    count cnt = 100000, guarded by a selection on cnt > 0. For every column it is the normalised entry. -/
theorem reference_eq_norm (y : Fin 100000 → EReal) (z₁ z₂ z₃ z₄ z₅ c₁ c₂ cnt nan e γ β : EReal) (hz₁ : z₁ = 0)
    (hz₂ : z₂ = 0) (hz₃ : z₃ = 0) (hz₄ : z₄ = 0) (hz₅ : z₅ = 0) (hc₁ : c₁ = ((100000 : ℝ) : EReal))
    (hc₂ : c₂ = ((100000 : ℝ) : EReal)) (hcnt : cnt = ((100000 : ℝ) : EReal)) (r : Fin 100000) :
    max ((y r - Ideal.div (z₁ + ∑ n, y n) c₁)
        * Ideal.rsqrt (Scalar.select (Ideal.cmp .ogt cnt z₃)
            (Ideal.div (z₂ + ∑ n, (y n - Ideal.div (z₄ + ∑ n, y n) c₂) * (y n - Ideal.div (z₄ + ∑ n, y n) c₂)) cnt) nan
          + e) * γ + β) z₅
      = norm y γ β e r := by
  subst hz₁ hz₂ hz₃ hz₄ hz₅ hc₁ hc₂ hcnt
  simp only [zero_add]
  rw [cmp_ogt_100000_zero, Cert.Variance.select_true]
  rfl

/-- The second spelling with the mean m and the guarded variance v given as values. -/
theorem reference_eq_norm_of_mean_var (y : Fin 100000 → EReal) (m v e z γ β : EReal)
    (hm : m = mean y) (hv : v = varDev y) (hz : z = 0) (r : Fin 100000) :
    max ((y r - m) * Ideal.rsqrt (v + e) * γ + β) z = norm y γ β e r := by
  rw [hm, hv, hz]
  rfl

/-- THE TWO SPELLINGS AGREE on a column of reals. -/
theorem kernel_eq_reference (y : Fin 100000 → EReal) (hy : ∀ n, IsReal (y n)) (S Q c c' e z γ β : EReal)
    (hS : S = ∑ n, y n) (hQ : Q = ∑ n, y n * y n) (hc : c = ((100000 : ℝ) : EReal))
    (hc' : c' = ((100000 : ℝ) : EReal)) (hz : z = 0) (z₁ z₂ z₃ z₄ z₅ c₁ c₂ cnt nan : EReal) (hz₁ : z₁ = 0)
    (hz₂ : z₂ = 0) (hz₃ : z₃ = 0) (hz₄ : z₄ = 0) (hz₅ : z₅ = 0) (hc₁ : c₁ = ((100000 : ℝ) : EReal))
    (hc₂ : c₂ = ((100000 : ℝ) : EReal)) (hcnt : cnt = ((100000 : ℝ) : EReal)) (r : Fin 100000) :
    max ((y r - Ideal.div S c) * Ideal.rsqrt (Ideal.div Q c' - Ideal.div S c * Ideal.div S c + e) * γ + β) z
      = max ((y r - Ideal.div (z₁ + ∑ n, y n) c₁)
          * Ideal.rsqrt (Scalar.select (Ideal.cmp .ogt cnt z₃)
              (Ideal.div (z₂ + ∑ n, (y n - Ideal.div (z₄ + ∑ n, y n) c₂) * (y n - Ideal.div (z₄ + ∑ n, y n) c₂)) cnt) nan
            + e) * γ + β) z₅ := by
  rw [kernel_eq_norm y hy S Q c c' e z γ β hS hQ hc hc' hz r,
    reference_eq_norm y z₁ z₂ z₃ z₄ z₅ c₁ c₂ cnt nan e γ β hz₁ hz₂ hz₃ hz₄ hz₅ hc₁ hc₂ hcnt r]

/-- The normalised entry of a real column, with real scale and shift and a positive real added to the variance, is
    real. -/
theorem isReal_norm (y : Fin 100000 → EReal) (hy : ∀ n, IsReal (y n)) {γ β e : EReal} (hγ : IsReal γ) (hβ : IsReal β)
    (he : ∃ ε : ℝ, 0 < ε ∧ e = (ε : EReal)) (r : Fin 100000) : IsReal (norm y γ β e r) :=
  isReal_max (isReal_affine (hy r) (isReal_mean y hy) (isReal_rsqrt_varDev_add y hy he) hγ hβ) isReal_zero

/-- The normalised entry is not negative. -/
theorem norm_nonneg (y : Fin 100000 → EReal) (γ β e : EReal) (r : Fin 100000) : 0 ≤ norm y γ β e r :=
  le_max_right _ _

/-- Equal columns, scales and shifts give equal normalised entries. -/
theorem norm_congr {y y' : Fin 100000 → EReal} (h : ∀ n, y n = y' n) {γ γ' β β' : EReal} (hγ : γ = γ') (hβ : β = β')
    (e : EReal) (r : Fin 100000) : norm y γ β e r = norm y' γ' β' e r := by
  have : y = y' := funext h
  subst this hγ hβ
  rfl

/-! ### The same for an array of rows and columns -/

/-- Entry (r, j) of the array h after normalisation of each column j with scale g j and shift b j. -/
noncomputable def normAt {D : ℕ} (h : Fin 100000 → Fin D → EReal) (g b : Fin D → EReal) (e : EReal) (r : Fin 100000)
    (j : Fin D) : EReal :=
  norm (fun n => h n j) (g j) (b j) e r

/-- The first spelling at entry (r, j) of a real array. -/
theorem kernel_eq_normAt {D : ℕ} (h : Fin 100000 → Fin D → EReal) (hh : ∀ r j, ∃ x : ℝ, h r j = (x : EReal))
    (g b : Fin D → EReal) (S Q : Fin D → EReal) (c c' e z : EReal) (hS : ∀ j, S j = ∑ n, h n j)
    (hQ : ∀ j, Q j = ∑ n, h n j * h n j) (hc : c = ((100000 : ℝ) : EReal)) (hc' : c' = ((100000 : ℝ) : EReal))
    (hz : z = 0) (r : Fin 100000) (j : Fin D) :
    max ((h r j - Ideal.div (S j) c)
        * Ideal.rsqrt (Ideal.div (Q j) c' - Ideal.div (S j) c * Ideal.div (S j) c + e) * g j + b j) z
      = normAt h g b e r j :=
  kernel_eq_norm (fun n => h n j) (fun n => hh n j) (S j) (Q j) c c' e z (g j) (b j) (hS j) (hQ j) hc hc' hz r

/-- The second spelling at entry (r, j) of any array. -/
theorem reference_eq_normAt {D : ℕ} (h : Fin 100000 → Fin D → EReal) (g b : Fin D → EReal)
    (z₁ z₂ z₃ z₄ z₅ c₁ c₂ cnt nan e : EReal) (hz₁ : z₁ = 0) (hz₂ : z₂ = 0) (hz₃ : z₃ = 0) (hz₄ : z₄ = 0) (hz₅ : z₅ = 0)
    (hc₁ : c₁ = ((100000 : ℝ) : EReal)) (hc₂ : c₂ = ((100000 : ℝ) : EReal)) (hcnt : cnt = ((100000 : ℝ) : EReal))
    (r : Fin 100000) (j : Fin D) :
    max ((h r j - Ideal.div (z₁ + ∑ n, h n j) c₁)
        * Ideal.rsqrt (Scalar.select (Ideal.cmp .ogt cnt z₃)
            (Ideal.div (z₂ + ∑ n, (h n j - Ideal.div (z₄ + ∑ n, h n j) c₂) * (h n j - Ideal.div (z₄ + ∑ n, h n j) c₂))
              cnt) nan
          + e) * g j + b j) z₅
      = normAt h g b e r j :=
  reference_eq_norm (fun n => h n j) z₁ z₂ z₃ z₄ z₅ c₁ c₂ cnt nan e (g j) (b j) hz₁ hz₂ hz₃ hz₄ hz₅ hc₁ hc₂ hcnt r

/-- THE TWO SPELLINGS AGREE at every entry of a real array: the entry the first program normalises and rectifies
    equals the one the second does. -/
theorem kernel_eq_reference_at {D : ℕ} (h : Fin 100000 → Fin D → EReal) (hh : ∀ r j, ∃ x : ℝ, h r j = (x : EReal))
    (g b : Fin D → EReal) (S Q : Fin D → EReal) (c c' e z : EReal) (hS : ∀ j, S j = ∑ n, h n j)
    (hQ : ∀ j, Q j = ∑ n, h n j * h n j) (hc : c = ((100000 : ℝ) : EReal)) (hc' : c' = ((100000 : ℝ) : EReal))
    (hz : z = 0) (z₁ z₂ z₃ z₄ z₅ c₁ c₂ cnt nan : EReal) (hz₁ : z₁ = 0) (hz₂ : z₂ = 0) (hz₃ : z₃ = 0) (hz₄ : z₄ = 0)
    (hz₅ : z₅ = 0) (hc₁ : c₁ = ((100000 : ℝ) : EReal)) (hc₂ : c₂ = ((100000 : ℝ) : EReal))
    (hcnt : cnt = ((100000 : ℝ) : EReal)) (r : Fin 100000) (j : Fin D) :
    max ((h r j - Ideal.div (S j) c)
        * Ideal.rsqrt (Ideal.div (Q j) c' - Ideal.div (S j) c * Ideal.div (S j) c + e) * g j + b j) z
      = max ((h r j - Ideal.div (z₁ + ∑ n, h n j) c₁)
          * Ideal.rsqrt (Scalar.select (Ideal.cmp .ogt cnt z₃)
              (Ideal.div (z₂ + ∑ n, (h n j - Ideal.div (z₄ + ∑ n, h n j) c₂) * (h n j - Ideal.div (z₄ + ∑ n, h n j) c₂))
                cnt) nan
            + e) * g j + b j) z₅ := by
  rw [kernel_eq_normAt h hh g b S Q c c' e z hS hQ hc hc' hz r j,
    reference_eq_normAt h g b z₁ z₂ z₃ z₄ z₅ c₁ c₂ cnt nan e hz₁ hz₂ hz₃ hz₄ hz₅ hc₁ hc₂ hcnt r j]

/-- The normalised array of a real array, with real scales and shifts and a positive real added to the variance, is
    real at every entry. -/
theorem isReal_normAt {D : ℕ} (h : Fin 100000 → Fin D → EReal) (hh : ∀ r j, ∃ x : ℝ, h r j = (x : EReal))
    (g b : Fin D → EReal) (hg : ∀ j, ∃ x : ℝ, g j = (x : EReal)) (hb : ∀ j, ∃ x : ℝ, b j = (x : EReal)) {e : EReal}
    (he : ∃ ε : ℝ, 0 < ε ∧ e = (ε : EReal)) (r : Fin 100000) (j : Fin D) :
    ∃ x : ℝ, normAt h g b e r j = (x : EReal) :=
  isReal_norm (fun n => h n j) (fun n => hh n j) (hg j) (hb j) he r

/-- Arrays equal entry by entry, with equal scales and shifts, have equal normalised entries. -/
theorem normAt_congr {D : ℕ} {h h' : Fin 100000 → Fin D → EReal} (hh : ∀ r j, h r j = h' r j) {g g' b b' : Fin D → EReal}
    (hg : ∀ j, g j = g' j) (hb : ∀ j, b j = b' j) (e : EReal) (r : Fin 100000) (j : Fin D) :
    normAt h g b e r j = normAt h' g' b' e r j :=
  norm_congr (fun n => hh n j) (hg j) (hb j) e r

end Cert.Bn100000
-- ==== Proof.LibSigmoid.lean ====
/-
  The logistic function written in two ways, on the extended reals.

  One program applies the logistic operation to x; the other spells it out as 1 / (1 + exp (−x)), each 1 the
  single-precision pattern of 1.0, the negation, the exponential and the quotient the host's. On the extended reals
  the logistic operation is that expression by definition (exp ⊥ = 0 and exp ⊤ = ⊤ give the limits 1 and 0 at the two
  infinities), the host's operations are the same exact operations as their vector namesakes, and the pattern of 1.0
  denotes 1. So the two agree at every extended real x, real or not.
-/
import Idealize.ShloMosaic.PureOps.Ideal
import Idealize.ShloMosaic.PureOps.Ideal.Laws

open Idealize.ShloMosaic

namespace Cert.Sigmoid

/-- The single-precision pattern of 1.0 denotes 1. -/
theorem ofBits_one : Ideal.ofBits .f32 0x3F800000#32 = (1 : EReal) := by
  simp [Ideal.ofBits, Ideal.ieee, -EReal.coe_mul]; norm_num

/-- The constant splat of 1.0, read at an entry, is 1. -/
theorem constant_one_apply {sh : Shape} (i : sh.Idx) : constant (F := Ideal) sh .f32 0x3F800000#32 i = (1 : EReal) :=
  ofBits_one

/-- The logistic function is 1 / (1 + exp (−x)) at every extended real. -/
theorem logistic_eq (x : EReal) : Ideal.logistic x = Ideal.div 1 (1 + Ideal.exp (-x)) := rfl

/-- The same with each 1 a name for one (a constant's value). -/
theorem logistic_eq_of_one (x a b : EReal) (ha : a = 1) (hb : b = 1) :
    Ideal.logistic x = Ideal.div a (b + Ideal.exp (-x)) := by
  rw [ha, hb]
  rfl

/-- THE TWO SPELLINGS AGREE, one lane, in the operations of a program read at the extended reals: the logistic
    operation, and the host's quotient of a one by a one plus the host's exponential of the host's negation. -/
theorem logistic_ops_eq {φ : FTy} (x a b : Ideal φ) (ha : a = 1) (hb : b = 1) :
    FloatOps.logistic x = FloatOps.hostDivf a (FloatOps.addf b (FloatOps.hostUnary .exp (FloatOps.hostNegf x))) := by
  rw [ha, hb]
  rfl

/-- The same for the host's logistic operation. -/
theorem hostLogistic_ops_eq {φ : FTy} (x a b : Ideal φ) (ha : a = 1) (hb : b = 1) :
    FloatOps.hostUnary .logistic x
      = FloatOps.hostDivf a (FloatOps.addf b (FloatOps.hostUnary .exp (FloatOps.hostNegf x))) := by
  rw [ha, hb]
  rfl

/-- Over whole vectors of one shape, lane by lane: x and y equal lane by lane, every entry of the two auxiliary
    vectors one. -/
theorem logistic_vec_eq {sh : Shape} {φ : FTy} (x y a b : FVec Ideal sh φ) (hxy : ∀ i, x i = y i) (ha : ∀ i, a i = 1)
    (hb : ∀ i, b i = 1) (i : sh.Idx) :
    logistic x i = Host.divf a (addf b (Host.exp (Host.negf y))) i := by
  show FloatOps.logistic (x i)
    = FloatOps.hostDivf (a i) (FloatOps.addf (b i) (FloatOps.hostUnary .exp (FloatOps.hostNegf (y i))))
  rw [hxy i]
  exact logistic_ops_eq (y i) (a i) (b i) (ha i) (hb i)

/-- With the ones the constant splats of the pattern of 1.0 the programs spell. -/
theorem logistic_vec_eq_const {sh : Shape} (x y : FVec Ideal sh .f32) (hxy : ∀ i, x i = y i) (i : sh.Idx) :
    logistic x i
      = Host.divf (constant (F := Ideal) sh .f32 0x3F800000#32)
          (addf (constant (F := Ideal) sh .f32 0x3F800000#32) (Host.exp (Host.negf y))) i :=
  logistic_vec_eq x y _ _ hxy constant_one_apply constant_one_apply i

/-- The logistic function of a real is a real strictly between 0 and 1, namely (1 + exp (−r))⁻¹. -/
theorem logistic_coe (r : ℝ) : Ideal.logistic (r : EReal) = (((1 + Real.exp (-r))⁻¹ : ℝ) : EReal) :=
  Ideal.logistic_coe r

end Cert.Sigmoid
-- ==== Proof.KI.HostStagesReal.lean ====
/-
  The host stages between the launches, read at the extended reals: every entry of their results is a real number
  when every entry of their float inputs is.

  A gather moves entries; a segment sum adds finitely many of them into zeros; the in-degree is a finite sum of ones,
  and max (in-degree, 1) ≥ 1 is a real that is not zero, so the quotient by it is real. The column mean S / N and the
  column variance Q / N − (S / N) · (S / N) are, entry by entry, the quotient by the real N = 100000 and a difference of
  reals; transposes and changes of shape move entries.
-/
import proofs.«121727_j57028575756303_1_alg».proof.Proof.KI.HostStages
import proofs.«121727_j57028575756303_1_alg».proof.Proof.LibFinite
import proofs.«121727_j57028575756303_1_alg».proof.Proof.LibBn100000
import proofs.«121727_j57028575756303_1_alg».proof.Proof.LibSigmoid

noncomputable section

namespace Cert.KernelIdeal.Hand

open Cert.KernelIdeal Cert.KernelIdeal.Gen Idealize.ShloMosaic
open Cert.RealSums Cert.BatchNorm Cert.Finite Cert.Bn100000

/-! ## The column mean and variance, entry by entry -/

/-- The number of rows at an entry is the real 100000. -/
theorem rowsSplat_apply (s : Shape) (h : S_.BroadcastsInDim s (![] : Fin 0 → Fin s.rank)) (i : s.Idx) :
    rowsSplat (F := Ideal) s h i = ((100000 : ℝ) : EReal) := ofBits_100000

/-- The column mean at an entry: the column sum there divided by 100000. -/
theorem meanStage_apply (s : Shape) (h : S_.BroadcastsInDim s (![] : Fin 0 → Fin s.rank)) (S : FVec Ideal s .f32)
    (i : s.Idx) : meanStage s h S i = Ideal.div (S i) ((100000 : ℝ) : EReal) := by
  show Ideal.div (S i) (rowsSplat (F := Ideal) s h i) = _
  rw [rowsSplat_apply]

/-- The column variance at an entry: Q / N − (S / N) · (S / N) with the entries of the column sums there. -/
theorem varStage_apply (s : Shape) (h : S_.BroadcastsInDim s (![] : Fin 0 → Fin s.rank)) (S Q : FVec Ideal s .f32)
    (i : s.Idx) :
    varStage s h S Q i
      = Ideal.div (Q i) ((100000 : ℝ) : EReal)
        - Ideal.div (S i) ((100000 : ℝ) : EReal) * Ideal.div (S i) ((100000 : ℝ) : EReal) := by
  show Ideal.div (Q i) (rowsSplat (F := Ideal) s h i) - meanStage s h S i * meanStage s h S i = _
  rw [rowsSplat_apply, meanStage_apply]

/-- The column variance at an entry in terms of the column mean there. -/
theorem varStage_apply_mean (s : Shape) (h : S_.BroadcastsInDim s (![] : Fin 0 → Fin s.rank)) (S Q : FVec Ideal s .f32)
    (i : s.Idx) :
    varStage s h S Q i = Ideal.div (Q i) ((100000 : ℝ) : EReal) - meanStage s h S i * meanStage s h S i := by
  show Ideal.div (Q i) (rowsSplat (F := Ideal) s h i) - meanStage s h S i * meanStage s h S i = _
  rw [rowsSplat_apply]

theorem isReal_meanStage (s : Shape) (h : S_.BroadcastsInDim s (![] : Fin 0 → Fin s.rank)) (S : FVec Ideal s .f32)
    (hS : ∀ i, IsReal (S i)) (i : s.Idx) : IsReal (meanStage s h S i) := by
  rw [meanStage_apply]
  exact isReal_div_100000 (hS i)

theorem isReal_varStage (s : Shape) (h : S_.BroadcastsInDim s (![] : Fin 0 → Fin s.rank)) (S Q : FVec Ideal s .f32)
    (hS : ∀ i, IsReal (S i)) (hQ : ∀ i, IsReal (Q i)) (i : s.Idx) : IsReal (varStage s h S Q i) := by
  rw [varStage_apply]
  exact isReal_sub (isReal_div_100000 (hQ i)) ((isReal_div_100000 (hS i)).mul (isReal_div_100000 (hS i)))

/-! ## The aggregation stages -/

/-- The pattern of 1.0 is a real. -/
theorem isReal_ofBits_one : IsReal (Ideal.ofBits .f32 0x3F800000#32) := ⟨1, Cert.Sigmoid.ofBits_one⟩

/-- The in-degree is real at every node. -/
theorem isReal_stage_cnt (dst : (⟨S1600000, .i32⟩ : BufTy).Contents (Elt Ideal)) (i : S100000.Idx) : IsReal (stage_cnt (F := Ideal) dst i) :=
  isReal_scatterAdd _ _ _ _ (fun _ => isReal_ofBits_zero) (fun _ => isReal_ofBits_one) i

/-- The neighbour messages of a real array are real. -/
theorem isReal_stage_gather16 (x : (⟨S100000x16, .f32⟩ : BufTy).Contents (Elt Ideal)) (hx : ∀ i, IsReal (x i)) (idx : (⟨S1600000x1, .i32⟩ : BufTy).Contents (Elt Ideal))
    (j : S1600000x16.Idx) : IsReal (stage_gather16 (F := Ideal) x idx j) :=
  isReal_gather _ x idx hx j

theorem isReal_stage_gather128 (x : (⟨S100000x128, .f32⟩ : BufTy).Contents (Elt Ideal)) (hx : ∀ i, IsReal (x i)) (idx : (⟨S1600000x1, .i32⟩ : BufTy).Contents (Elt Ideal))
    (j : S1600000x128.Idx) : IsReal (stage_gather128 (F := Ideal) x idx j) :=
  isReal_gather _ x idx hx j

/-- The segment sum of real messages is real. -/
theorem isReal_stage_scatter16 (dst : (⟨S1600000, .i32⟩ : BufTy).Contents (Elt Ideal)) (u : (⟨S1600000x16, .f32⟩ : BufTy).Contents (Elt Ideal)) (hu : ∀ j, IsReal (u j))
    (i : S100000x16.Idx) : IsReal (stage_scatter16 (F := Ideal) dst u i) :=
  isReal_scatterAdd _ _ _ _ (fun _ => isReal_ofBits_zero) hu i

theorem isReal_stage_scatter128 (dst : (⟨S1600000, .i32⟩ : BufTy).Contents (Elt Ideal)) (u : (⟨S1600000x128, .f32⟩ : BufTy).Contents (Elt Ideal)) (hu : ∀ j, IsReal (u j))
    (i : S100000x128.Idx) : IsReal (stage_scatter128 (F := Ideal) dst u i) :=
  isReal_scatterAdd _ _ _ _ (fun _ => isReal_ofBits_zero) hu i

/-- The larger of a real in-degree and one is a real that is not zero. -/
theorem max_one_real {c : EReal} (hc : IsReal c) :
    IsReal (max c (Ideal.ofBits .f32 0x3F800000#32)) ∧ max c (Ideal.ofBits .f32 0x3F800000#32) ≠ 0 := by
  rw [Cert.Sigmoid.ofBits_one]
  exact ⟨isReal_max hc isReal_one, (lt_of_lt_of_le zero_lt_one (le_max_right _ _)).ne'⟩

/-- The mean aggregate of a real segment sum by a real in-degree is real. -/
theorem isReal_stage_div16 (s : (⟨S100000x16, .f32⟩ : BufTy).Contents (Elt Ideal)) (hs : ∀ i, IsReal (s i)) (cnt : (⟨S100000, .f32⟩ : BufTy).Contents (Elt Ideal))
    (hc : ∀ i, IsReal (cnt i)) (i : S100000x16.Idx) : IsReal (stage_div16 (F := Ideal) s cnt i) :=
  isReal_div (hs i) (max_one_real (hc _)).1 (max_one_real (hc _)).2

theorem isReal_stage_div128 (s : (⟨S100000x128, .f32⟩ : BufTy).Contents (Elt Ideal)) (hs : ∀ i, IsReal (s i)) (cnt : (⟨S100000, .f32⟩ : BufTy).Contents (Elt Ideal))
    (hc : ∀ i, IsReal (cnt i)) (i : S100000x128.Idx) : IsReal (stage_div128 (F := Ideal) s cnt i) :=
  isReal_div (hs i) (max_one_real (hc _)).1 (max_one_real (hc _)).2

/-- THE MEAN AGGREGATION KEEPS REALS: of a real feature array, by any edges, with a real in-degree. -/
theorem isReal_aggStage16 (x : (⟨S100000x16, .f32⟩ : BufTy).Contents (Elt Ideal)) (hx : ∀ i, IsReal (x i)) (src dst : (⟨S1600000, .i32⟩ : BufTy).Contents (Elt Ideal))
    (cnt : (⟨S100000, .f32⟩ : BufTy).Contents (Elt Ideal)) (hc : ∀ i, IsReal (cnt i)) (i : S100000x16.Idx) :
    IsReal (aggStage16 (F := Ideal) x src dst cnt i) := by
  unfold aggStage16
  exact isReal_stage_div16 (stage_scatter16 dst (stage_gather16 x (stage_idx src)))
    (isReal_stage_scatter16 dst (stage_gather16 x (stage_idx src)) (isReal_stage_gather16 x hx (stage_idx src))) cnt hc i

theorem isReal_aggStage128 (x : (⟨S100000x128, .f32⟩ : BufTy).Contents (Elt Ideal)) (hx : ∀ i, IsReal (x i)) (src dst : (⟨S1600000, .i32⟩ : BufTy).Contents (Elt Ideal))
    (cnt : (⟨S100000, .f32⟩ : BufTy).Contents (Elt Ideal)) (hc : ∀ i, IsReal (cnt i)) (i : S100000x128.Idx) :
    IsReal (aggStage128 (F := Ideal) x src dst cnt i) := by
  unfold aggStage128
  exact isReal_stage_div128 (stage_scatter128 dst (stage_gather128 x (stage_idx src)))
    (isReal_stage_scatter128 dst (stage_gather128 x (stage_idx src)) (isReal_stage_gather128 x hx (stage_idx src))) cnt hc i

end Cert.KernelIdeal.Hand
-- ==== Proof.Join.Layer.lean ====
/- One graph-convolution layer, and the classifier, as mathematics over arrays of extended reals.
   A layer's linear part at entry (r, j) is ((Σₖ agg r k · Wl j k) + bl j) + Σₖ x r k · Wr j k; it is real when its
   operands are. The first program normalises it with the column sums S j = Σₙ y n j and Q j = Σₙ y n j · y n j: mean
   S / N, variance Q / N − mean · mean, then max ((y − mean) · rsqrt (variance + eps) · g + b, 0). On real columns that
   is the normalised entry whose variance is the mean of the squared deviations, which is what the second program
   computes; and the normalised entry of a real array with real scale and shift is real again. The classifier's
   logistic function is 1 / (1 + exp (−x)). -/
import proofs.«121727_j57028575756303_1_alg».proof.Proof.LibBn100000
import proofs.«121727_j57028575756303_1_alg».proof.Proof.LibFinite
import proofs.«121727_j57028575756303_1_alg».proof.Proof.LibSigmoid
import proofs.«121727_j57028575756303_1_alg».proof.Proof.KI.BnReluPoint

noncomputable section

open scoped BigOperators

namespace Cert.Proof.Join

open Idealize.ShloMosaic Cert.RealSums Cert.BatchNorm Cert.Bn100000 Cert.Finite Cert.KernelIdeal.Hand

/-! ## The scalar function at the extended reals -/

/-- The constant the kernels add to the variance. -/
abbrev epsBits : EReal := Ideal.ofBits .f32 0x3727C5AC#32

/-- The kernels' scalar function, read at the extended reals. -/
theorem bnPoint_ideal (x g b mean var : EReal) :
    bnPoint (F := Ideal) x g b mean var = max ((x - mean) * Ideal.rsqrt (var + epsBits) * g + b) 0 := by
  show max ((x - mean) * Ideal.rsqrt (var + Ideal.ofBits .f32 0x3727C5AC#32) * g + b) (Ideal.ofBits .f32 0x00000000#32) = _
  rw [Ideal.ofBits_zero_f32]

/-! ## The linear part of a layer -/

/-- Entry (r, j) of a layer's linear part: the aggregate through the left weights, plus the bias, plus the layer's
    input through the right weights. -/
def combine {Din Dout : ℕ} (agg x : Fin 100000 → Fin Din → EReal) (Wl Wr : Fin Dout → Fin Din → EReal)
    (bl : Fin Dout → EReal) (r : Fin 100000) (j : Fin Dout) : EReal :=
  ((∑ k, agg r k * Wl j k) + bl j) + ∑ k, x r k * Wr j k

/-- The linear part of real operands is real. -/
theorem isReal_combine {Din Dout : ℕ} (agg x : Fin 100000 → Fin Din → EReal) (Wl Wr : Fin Dout → Fin Din → EReal)
    (bl : Fin Dout → EReal) (hagg : ∀ r k, ∃ v : ℝ, agg r k = (v : EReal)) (hx : ∀ r k, ∃ v : ℝ, x r k = (v : EReal))
    (hWl : ∀ j k, ∃ v : ℝ, Wl j k = (v : EReal)) (hWr : ∀ j k, ∃ v : ℝ, Wr j k = (v : EReal))
    (hbl : ∀ j, ∃ v : ℝ, bl j = (v : EReal)) (r : Fin 100000) (j : Fin Dout) :
    ∃ v : ℝ, combine agg x Wl Wr bl r j = (v : EReal) :=
  ((isReal_sum_univ _ fun k => IsReal.mul (hagg r k) (hWl j k)).add (hbl j)).add
    (isReal_sum_univ _ fun k => IsReal.mul (hx r k) (hWr j k))

/-! ## The normalisation: the first program's spelling is the normalised entry -/

/-- With the mean and the variance given as values computed from the column sums, the kernels' scalar function at
    entry (r, j) of a real array is the normalised entry. -/
theorem bnPoint_eq_normAt {D : ℕ} (y : Fin 100000 → Fin D → EReal) (hy : ∀ r j, ∃ v : ℝ, y r j = (v : EReal))
    (g b S Q : Fin D → EReal) (hS : ∀ j, S j = ∑ n, y n j) (hQ : ∀ j, Q j = ∑ n, y n j * y n j)
    (r : Fin 100000) (j : Fin D) (yv gv bv mean var : EReal) (hyv : yv = y r j) (hgv : gv = g j) (hbv : bv = b j)
    (hmean : mean = Ideal.div (S j) ((100000 : ℝ) : EReal))
    (hvar : var = Ideal.div (Q j) ((100000 : ℝ) : EReal)
      - Ideal.div (S j) ((100000 : ℝ) : EReal) * Ideal.div (S j) ((100000 : ℝ) : EReal)) :
    bnPoint (F := Ideal) yv gv bv mean var = normAt y g b epsBits r j := by
  rw [bnPoint_ideal, hyv, hgv, hbv, hmean, hvar]
  exact kernel_eq_normAt y hy g b S Q _ _ epsBits 0 hS hQ rfl rfl rfl r j

/-- The normalised array of a real array with real scales and shifts is real. -/
theorem isReal_normAt_eps {D : ℕ} (y : Fin 100000 → Fin D → EReal) (hy : ∀ r j, ∃ v : ℝ, y r j = (v : EReal))
    (g b : Fin D → EReal) (hg : ∀ j, ∃ v : ℝ, g j = (v : EReal)) (hb : ∀ j, ∃ v : ℝ, b j = (v : EReal))
    (r : Fin 100000) (j : Fin D) : ∃ v : ℝ, normAt y g b epsBits r j = (v : EReal) :=
  isReal_normAt y hy g b hg hb eps_pos r j

/-! ## The classifier -/

/-- Row r of the classifier: the logistic function of the second affine map of the rectified first one. -/
def clsAt (H : Fin 100000 → Fin 64 → EReal) (W1 : Fin 32 → Fin 64 → EReal) (B1 : Fin 32 → EReal) (W2 : Fin 32 → EReal)
    (B2 : EReal) (r : Fin 100000) : EReal :=
  Ideal.div 1 (1 + Ideal.exp (-((∑ k, max ((∑ j, H r j * W1 k j) + B1 k) 0 * W2 k) + B2)))

/-- The logistic function the first program applies is the quotient the second computes. -/
theorem logistic_eq_clsAt (H : Fin 100000 → Fin 64 → EReal) (W1 : Fin 32 → Fin 64 → EReal) (B1 : Fin 32 → EReal)
    (W2 : Fin 32 → EReal) (B2 : EReal) (r : Fin 100000) :
    Ideal.logistic ((∑ k, max ((∑ j, H r j * W1 k j) + B1 k) 0 * W2 k) + B2) = clsAt H W1 B1 W2 B2 r := rfl

/-- Equal inputs give equal classifier rows. -/
theorem clsAt_congr {H H' : Fin 100000 → Fin 64 → EReal} (hH : ∀ r j, H r j = H' r j) (W1 : Fin 32 → Fin 64 → EReal)
    (B1 : Fin 32 → EReal) (W2 : Fin 32 → EReal) (B2 : EReal) (r : Fin 100000) :
    clsAt H W1 B1 W2 B2 r = clsAt H' W1 B1 W2 B2 r := by
  have : H = H' := funext fun r => funext fun j => hH r j
  rw [this]

end Cert.Proof.Join

end
-- ==== Proof.Join.BnKernel.lean ====
/- The three normalisation regions of the first program against the normalised entry: with the scale and shift
   vectors cast to rows, the column mean S / N and the column variance Q / N − mean · mean computed by the host between
   the launches from the column sums S and the column sums of squares Q of a real array, a region's output at entry
   (r, j) is the normalised entry of that array. -/
import proofs.«121727_j57028575756303_1_alg».proof.Proof.KI.BnRelu1Value
import proofs.«121727_j57028575756303_1_alg».proof.Proof.KI.BnRelu3Value
import proofs.«121727_j57028575756303_1_alg».proof.Proof.KI.BnRelu5Value
import proofs.«121727_j57028575756303_1_alg».proof.Proof.KI.HostStagesReal
import proofs.«121727_j57028575756303_1_alg».proof.Proof.Join.Layer

noncomputable section

open scoped BigOperators

namespace Cert.Proof.Join

open Cert.KernelIdeal Cert.KernelIdeal.Gen Cert.KernelIdeal.Hand
open Idealize.ShloMosaic Idealize.ShloMosaic.ValueIdx Cert.Bn100000

/-- Region 1's output array at entry (r, j), for a real array `lin` whose column sums are `S` and column sums of
    squares `Q`: the normalised entry of `lin` with the scale and shift vectors as rows. -/
theorem bnRelu1_eq_normAt (lin : S100000x128.Idx → Ideal .f32) (hlin : ∀ i, ∃ v : ℝ, lin i = (v : EReal))
    (S Q : S1x128.Idx → Ideal .f32) (g b : S128.Idx → Ideal .f32)
    (hS : ∀ j : Fin 128, S (ix2 (0 : Fin 1) j) = ∑ n : Fin 100000, lin (ix2 n j))
    (hQ : ∀ j : Fin 128, Q (ix2 (0 : Fin 1) j) = ∑ n : Fin 100000, lin (ix2 n j) * lin (ix2 n j))
    (r : Fin 100000) (j : Fin 128) :
    bnRelu1 (F := Ideal) lin (shapeCast S1x128 g shapeCasts_S128_S1x128) (shapeCast S1x128 b shapeCasts_S128_S1x128)
        (meanStage S1x128 bcast_S_S1x128 S) (varStage S1x128 bcast_S_S1x128 S Q) (ix2 r j)
      = normAt (fun n c => lin (ix2 n c)) (fun c => g (ix1 c)) (fun c => b (ix1 c)) epsBits r j := by
  rw [bnRelu1_apply _ _ _ _ _ (ix2 r j) j rfl]
  exact bnPoint_eq_normAt (fun n c => lin (ix2 n c)) (fun n c => hlin _) (fun c => g (ix1 c)) (fun c => b (ix1 c))
    (fun c => S (ix2 (0 : Fin 1) c)) (fun c => Q (ix2 (0 : Fin 1) c)) hS hQ r j _ _ _ _ _ rfl
    (shapeCast_a_1a_apply g shapeCasts_S128_S1x128 0 j) (shapeCast_a_1a_apply b shapeCasts_S128_S1x128 0 j)
    (meanStage_apply S1x128 bcast_S_S1x128 S (ix2 (0 : Fin 1) j)) (varStage_apply S1x128 bcast_S_S1x128 S Q (ix2 (0 : Fin 1) j))

/-- Region 3's output array at entry (r, j), for a real array `lin` whose column sums are `S` and column sums of
    squares `Q`: the normalised entry of `lin` with the scale and shift vectors as rows. -/
theorem bnRelu3_eq_normAt (lin : S100000x128.Idx → Ideal .f32) (hlin : ∀ i, ∃ v : ℝ, lin i = (v : EReal))
    (S Q : S1x128.Idx → Ideal .f32) (g b : S128.Idx → Ideal .f32)
    (hS : ∀ j : Fin 128, S (ix2 (0 : Fin 1) j) = ∑ n : Fin 100000, lin (ix2 n j))
    (hQ : ∀ j : Fin 128, Q (ix2 (0 : Fin 1) j) = ∑ n : Fin 100000, lin (ix2 n j) * lin (ix2 n j))
    (r : Fin 100000) (j : Fin 128) :
    bnRelu3 (F := Ideal) lin (shapeCast S1x128 g shapeCasts_S128_S1x128) (shapeCast S1x128 b shapeCasts_S128_S1x128)
        (meanStage S1x128 bcast_S_S1x128 S) (varStage S1x128 bcast_S_S1x128 S Q) (ix2 r j)
      = normAt (fun n c => lin (ix2 n c)) (fun c => g (ix1 c)) (fun c => b (ix1 c)) epsBits r j := by
  rw [bnRelu3_apply _ _ _ _ _ (ix2 r j) j rfl]
  exact bnPoint_eq_normAt (fun n c => lin (ix2 n c)) (fun n c => hlin _) (fun c => g (ix1 c)) (fun c => b (ix1 c))
    (fun c => S (ix2 (0 : Fin 1) c)) (fun c => Q (ix2 (0 : Fin 1) c)) hS hQ r j _ _ _ _ _ rfl
    (shapeCast_a_1a_apply g shapeCasts_S128_S1x128 0 j) (shapeCast_a_1a_apply b shapeCasts_S128_S1x128 0 j)
    (meanStage_apply S1x128 bcast_S_S1x128 S (ix2 (0 : Fin 1) j)) (varStage_apply S1x128 bcast_S_S1x128 S Q (ix2 (0 : Fin 1) j))

/-- Region 5's output array at entry (r, j), for a real array `lin` whose column sums are `S` and column sums of
    squares `Q`: the normalised entry of `lin` with the scale and shift vectors as rows. -/
theorem bnRelu5_eq_normAt (lin : S100000x64.Idx → Ideal .f32) (hlin : ∀ i, ∃ v : ℝ, lin i = (v : EReal))
    (S Q : S1x64.Idx → Ideal .f32) (g b : S64.Idx → Ideal .f32)
    (hS : ∀ j : Fin 64, S (ix2 (0 : Fin 1) j) = ∑ n : Fin 100000, lin (ix2 n j))
    (hQ : ∀ j : Fin 64, Q (ix2 (0 : Fin 1) j) = ∑ n : Fin 100000, lin (ix2 n j) * lin (ix2 n j))
    (r : Fin 100000) (j : Fin 64) :
    bnRelu5 (F := Ideal) lin (shapeCast S1x64 g shapeCasts_S64_S1x64) (shapeCast S1x64 b shapeCasts_S64_S1x64)
        (meanStage S1x64 bcast_S_S1x64 S) (varStage S1x64 bcast_S_S1x64 S Q) (ix2 r j)
      = normAt (fun n c => lin (ix2 n c)) (fun c => g (ix1 c)) (fun c => b (ix1 c)) epsBits r j := by
  rw [bnRelu5_apply _ _ _ _ _ (ix2 r j) j rfl]
  exact bnPoint_eq_normAt (fun n c => lin (ix2 n c)) (fun n c => hlin _) (fun c => g (ix1 c)) (fun c => b (ix1 c))
    (fun c => S (ix2 (0 : Fin 1) c)) (fun c => Q (ix2 (0 : Fin 1) c)) hS hQ r j _ _ _ _ _ rfl
    (shapeCast_a_1a_apply g shapeCasts_S64_S1x64 0 j) (shapeCast_a_1a_apply b shapeCasts_S64_S1x64 0 j)
    (meanStage_apply S1x64 bcast_S_S1x64 S (ix2 (0 : Fin 1) j)) (varStage_apply S1x64 bcast_S_S1x64 S Q (ix2 (0 : Fin 1) j))

end Cert.Proof.Join

end
-- ==== Proof.RefRun.Stages.lean ====
/- The reference's intermediate arrays, stage by stage, as pure functions of the arrays they are computed from: one
   function per group of operations of a graph-convolution layer (index column, gather, segment sum, in-degree, mean
   aggregate, linear map, column mean, column variance, normalisation with rectifier) and two for the classifier; and
   `ref_‹buffer› W`, each named buffer's contents as those functions composed over launch contents `W`. Each
   function's body is the composition of its group's operations in program order, nothing simplified. -/
import proofs.«121727_j57028575756303_1_alg».proof.ReferenceIdeal
import proofs.«121727_j57028575756303_1_alg».proof.Proof.Gen.ReferenceIdeal
import Idealize.ShloMosaic.Lib.StableHlo.Run
import proofs.«121727_j57028575756303_1_alg».proof.Proof.RefRun.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The source node of each edge: row 0 of the 2 x E edge table, as a vector of length E. -/
def stage_src (a0 : (⟨S2x1600000, .i32⟩ : BufTy).Contents (Elt F)) :
    (⟨S1600000, .i32⟩ : BufTy).Contents (Elt F) :=
  (shapeCast S1600000 ((extractStridedSlice S1x1600000 ![0, 0] · slices_S2x1600000_S1x1600000_0_0) a0 : (⟨S1x1600000, .i32⟩ : BufTy).Contents (Elt F)) shapeCasts_S1x1600000_S1600000 : (⟨S1600000, .i32⟩ : BufTy).Contents (Elt F))

/-- The destination node of each edge: row 1 of the 2 x E edge table, as a vector of length E. -/
def stage_dst (a0 : (⟨S2x1600000, .i32⟩ : BufTy).Contents (Elt F)) :
    (⟨S1600000, .i32⟩ : BufTy).Contents (Elt F) :=
  (shapeCast S1600000 ((extractStridedSlice S1x1600000 ![1, 0] · slices_S2x1600000_S1x1600000_1_0) a0 : (⟨S1x1600000, .i32⟩ : BufTy).Contents (Elt F)) shapeCasts_S1x1600000_S1600000 : (⟨S1600000, .i32⟩ : BufTy).Contents (Elt F))

/-- The gather's index column: a negative source index is moved up by the number of nodes N = 100000 (index normalisation), any other kept; as an E x 1 column. -/
def stage_idx (a0 : (⟨S1600000, .i32⟩ : BufTy).Contents (Elt F)) :
    (⟨S1600000x1, .i32⟩ : BufTy).Contents (Elt F) :=
  ((broadcastInDim S1600000x1 ![0] bcast_S1600000_S1600000x1_0) (select ((cmpi .slt) a0 ((broadcastInDim S1600000 ![] bcast_S_S1600000) (constantI S_ 32 0#32 : (⟨S_, .i32⟩ : BufTy).Contents (Elt F)) : (⟨S1600000, .i32⟩ : BufTy).Contents (Elt F)) : (⟨S1600000, .i1⟩ : BufTy).Contents (Elt F)) (addi a0 ((broadcastInDim S1600000 ![] bcast_S_S1600000) (constantI S_ 32 100000#32 : (⟨S_, .i32⟩ : BufTy).Contents (Elt F)) : (⟨S1600000, .i32⟩ : BufTy).Contents (Elt F)) : (⟨S1600000, .i32⟩ : BufTy).Contents (Elt F)) a0 : (⟨S1600000, .i32⟩ : BufTy).Contents (Elt F)) : (⟨S1600000x1, .i32⟩ : BufTy).Contents (Elt F))

/-- The neighbour messages of the first layer: row `idx e` of the N x 16 features, for each edge e. -/
def stage_gather16 (a0 : (⟨S100000x16, .f32⟩ : BufTy).Contents (Elt F)) (a1 : (⟨S1600000x1, .i32⟩ : BufTy).Contents (Elt F)) :
    (⟨S1600000x16, .f32⟩ : BufTy).Contents (Elt F) :=
  ((fun x i => Host.gather gather_S100000x16_S1600000x1_S1600000x16_1_0_n_n_0_1_116 x i) a0 a1 : (⟨S1600000x16, .f32⟩ : BufTy).Contents (Elt F))

/-- The segment sum of the first layer: the E x 16 messages added into an N x 16 array of zeros at their destination rows. -/
def stage_scatter16 (a0 : (⟨S1600000, .i32⟩ : BufTy).Contents (Elt F)) (a1 : (⟨S1600000x16, .f32⟩ : BufTy).Contents (Elt F)) :
    (⟨S100000x16, .f32⟩ : BufTy).Contents (Elt F) :=
  ((fun x i u => Host.scatterAdd scatter_S100000x16_S1600000x1_S1600000x16_1_0_0_1 x i u) ((broadcastInDim S100000x16 ![] bcast_S_S100000x16) (constant S_ .f32 0x00000000#32 : (⟨S_, .f32⟩ : BufTy).Contents (Elt F)) : (⟨S100000x16, .f32⟩ : BufTy).Contents (Elt F)) ((broadcastInDim S1600000x1 ![0] bcast_S1600000_S1600000x1_0) a0 : (⟨S1600000x1, .i32⟩ : BufTy).Contents (Elt F)) a1 : (⟨S100000x16, .f32⟩ : BufTy).Contents (Elt F))

/-- The in-degree of each node: a vector of E ones added into a vector of N zeros at the destinations. -/
def stage_cnt (a0 : (⟨S1600000, .i32⟩ : BufTy).Contents (Elt F)) :
    (⟨S100000, .f32⟩ : BufTy).Contents (Elt F) :=
  ((fun x i u => Host.scatterAdd scatter_S100000_S1600000x1_S1600000_n_0_0_1 x i u) ((broadcastInDim S100000 ![] bcast_S_S100000) (constant S_ .f32 0x00000000#32 : (⟨S_, .f32⟩ : BufTy).Contents (Elt F)) : (⟨S100000, .f32⟩ : BufTy).Contents (Elt F)) ((broadcastInDim S1600000x1 ![0] bcast_S1600000_S1600000x1_0) a0 : (⟨S1600000x1, .i32⟩ : BufTy).Contents (Elt F)) ((broadcastInDim S1600000 ![] bcast_S_S1600000) (constant S_ .f32 0x3F800000#32 : (⟨S_, .f32⟩ : BufTy).Contents (Elt F)) : (⟨S1600000, .f32⟩ : BufTy).Contents (Elt F)) : (⟨S100000, .f32⟩ : BufTy).Contents (Elt F))

/-- The mean aggregate of the first layer: each row of the segment sum divided by max(in-degree, 1). -/
def stage_div16 (a0 : (⟨S100000x16, .f32⟩ : BufTy).Contents (Elt F)) (a1 : (⟨S100000, .f32⟩ : BufTy).Contents (Elt F)) :
    (⟨S100000x16, .f32⟩ : BufTy).Contents (Elt F) :=
  (Host.divf a0 ((broadcastInDim S100000x16 ![0, 1] bcast_S100000x1_S100000x16_0_1) ((broadcastInDim S100000x1 ![0] bcast_S100000_S100000x1_0) (maximumf a1 ((broadcastInDim S100000 ![] bcast_S_S100000) (constant S_ .f32 0x3F800000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x16, .f32⟩ : BufTy).Contents (Elt F)) : (⟨S100000x16, .f32⟩ : BufTy).Contents (Elt F))

/-- The first layer's linear map: agg · Wlᵀ + bl + x · Wrᵀ (16 -> 128). -/
def stage_lin0 (a0 : (⟨S100000x16, .f32⟩ : BufTy).Contents (Elt F)) (a1 : (⟨S128x16, .f32⟩ : BufTy).Contents (Elt F)) (a2 : (⟨S128, .f32⟩ : BufTy).Contents (Elt F)) (a3 : (⟨S100000x16, .f32⟩ : BufTy).Contents (Elt F)) (a4 : (⟨S128x16, .f32⟩ : BufTy).Contents (Elt F)) :
    (⟨S100000x128, .f32⟩ : BufTy).Contents (Elt F) :=
  (addf (addf ((fun l r => Host.dotGeneral dot_S100000x16_S16x128_S100000x128_1_0_0_1_n_n none l r) a0 ((transpose S16x128 [1, 0] · transposes_S128x16_S16x128_1_0) a1 : (⟨S16x128, .f32⟩ : BufTy).Contents (Elt F)) : (⟨S100000x128, .f32⟩ : BufTy).Contents (Elt F)) ((broadcastInDim S100000x128 ![0, 1] bcast_S1x128_S100000x128_0_1) ((broadcastInDim S1x128 ![1] bcast_S128_S1x128_1) a2 : (⟨S1x128, .f32⟩ : BufTy).Contents (Elt F)) : (⟨S100000x128, .f32⟩ : BufTy).Contents (Elt F)) : (⟨S100000x128, .f32⟩ : BufTy).Contents (Elt F)) ((fun l r => Host.dotGeneral dot_S100000x16_S16x128_S100000x128_1_0_0_1_n_n none l r) a3 ((transpose S16x128 [1, 0] · transposes_S128x16_S16x128_1_0) a4 : (⟨S16x128, .f32⟩ : BufTy).Contents (Elt F)) : (⟨S100000x128, .f32⟩ : BufTy).Contents (Elt F)) : (⟨S100000x128, .f32⟩ : BufTy).Contents (Elt F))

/-- The column means over the N rows (128 columns): the column sums from 0, divided by N = 100000. -/
def stage_mean128 (a0 : (⟨S100000x128, .f32⟩ : BufTy).Contents (Elt F)) :
    (⟨S128, .f32⟩ : BufTy).Contents (Elt F) :=
  (Host.divf ((fun x v => Host.reduceAdd x v reducesTo_S100000x128_S128_d0 h_S_) a0 (constant S_ .f32 0x00000000#32 : (⟨S_, .f32⟩ : BufTy).Contents (Elt F)) : (⟨S128, .f32⟩ : BufTy).Contents (Elt F)) ((broadcastInDim S128 ![] bcast_S_S128) (constant S_ .f32 0x47C35000#32 : (⟨S_, .f32⟩ : BufTy).Contents (Elt F)) : (⟨S128, .f32⟩ : BufTy).Contents (Elt F)) : (⟨S128, .f32⟩ : BufTy).Contents (Elt F))

/-- The biased column variances (128 columns): with c = h - mean(h) (the mean recomputed: column sums from 0, over N, broadcast), the column sums of c*c from 0, divided by N - 0 (the zero an integer degrees-of-freedom correction converted to float), kept where N - 0 > 0 and a quiet NaN otherwise. -/
def stage_var128 (a0 : (⟨S100000x128, .f32⟩ : BufTy).Contents (Elt F)) :
    (⟨S128, .f32⟩ : BufTy).Contents (Elt F) :=
  ((fun p a b => select (broadcastInDim S128 ![] bcast_S_S128 p) a b) ((cmpf .ogt) (subf (constant S_ .f32 0x47C35000#32 : (⟨S_, .f32⟩ : BufTy).Contents (Elt F)) ((sitofp .f32) (constantI S_ 32 0#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F)) (Host.divf ((fun x v => Host.reduceAdd x v reducesTo_S100000x128_S128_d0 h_S_) (mulf (subf a0 ((broadcastInDim S100000x128 ![0, 1] bcast_S1x128_S100000x128_0_1) (Host.divf ((broadcastInDim S1x128 ![1] bcast_S128_S1x128_1) ((fun x v => Host.reduceAdd x v reducesTo_S100000x128_S128_d0 h_S_) a0 (constant S_ .f32 0x00000000#32 : (⟨S_, .f32⟩ : BufTy).Contents (Elt F)) : (⟨S128, .f32⟩ : BufTy).Contents (Elt F)) : (⟨S1x128, .f32⟩ : BufTy).Contents (Elt F)) ((broadcastInDim S1x128 ![] bcast_S_S1x128) (constant S_ .f32 0x47C35000#32 : (⟨S_, .f32⟩ : BufTy).Contents (Elt F)) : (⟨S1x128, .f32⟩ : BufTy).Contents (Elt F)) : (⟨S1x128, .f32⟩ : BufTy).Contents (Elt F)) : (⟨S100000x128, .f32⟩ : BufTy).Contents (Elt F)) : (⟨S100000x128, .f32⟩ : BufTy).Contents (Elt F)) (subf a0 ((broadcastInDim S100000x128 ![0, 1] bcast_S1x128_S100000x128_0_1) (Host.divf ((broadcastInDim S1x128 ![1] bcast_S128_S1x128_1) ((fun x v => Host.reduceAdd x v reducesTo_S100000x128_S128_d0 h_S_) a0 (constant S_ .f32 0x00000000#32 : (⟨S_, .f32⟩ : BufTy).Contents (Elt F)) : (⟨S128, .f32⟩ : BufTy).Contents (Elt F)) : (⟨S1x128, .f32⟩ : BufTy).Contents (Elt F)) ((broadcastInDim S1x128 ![] bcast_S_S1x128) (constant S_ .f32 0x47C35000#32 : (⟨S_, .f32⟩ : BufTy).Contents (Elt F)) : (⟨S1x128, .f32⟩ : BufTy).Contents (Elt F)) : (⟨S1x128, .f32⟩ : BufTy).Contents (Elt F)) : (⟨S100000x128, .f32⟩ : BufTy).Contents (Elt F)) : (⟨S100000x128, .f32⟩ : BufTy).Contents (Elt F)) : (⟨S100000x128, .f32⟩ : BufTy).Contents (Elt F)) (constant S_ .f32 0x00000000#32 : (⟨S_, .f32⟩ : BufTy).Contents (Elt F)) : (⟨S128, .f32⟩ : BufTy).Contents (Elt F)) ((broadcastInDim S128 ![] bcast_S_S128) (subf (constant S_ .f32 0x47C35000#32 : (⟨S_, .f32⟩ : BufTy).Contents (Elt F)) ((sitofp .f32) (constantI S_ 32 0#32 : (⟨S_, .i32⟩ : BufTy).Contents (Elt F)) : (⟨S_, .f32⟩ : BufTy).Contents (Elt F)) : (⟨S_, .f32⟩ : BufTy).Contents (Elt F)) : (⟨S128, .f32⟩ : BufTy).Contents (Elt F)) : (⟨S128, .f32⟩ : BufTy).Contents (Elt F)) ((broadcastInDim S128 ![] bcast_S_S128) (id (constant S_ .f32 0x7FC00000#32 : (⟨S_, .f32⟩ : BufTy).Contents (Elt F)) : (⟨S_, .f32⟩ : BufTy).Contents (Elt F)) : (⟨S128, .f32⟩ : BufTy).Contents (Elt F)) : (⟨S128, .f32⟩ : BufTy).Contents (Elt F))

/-- Batch normalisation and rectifier (128 columns): max(((h - mean) * rsqrt(var + eps)) * g + b, 0), eps the float nearest 1e-5. -/
def stage_bnrelu128 (a0 : (⟨S100000x128, .f32⟩ : BufTy).Contents (Elt F)) (a1 : (⟨S128, .f32⟩ : BufTy).Contents (Elt F)) (a2 : (⟨S128, .f32⟩ : BufTy).Contents (Elt F)) (a3 : (⟨S128, .f32⟩ : BufTy).Contents (Elt F)) (a4 : (⟨S128, .f32⟩ : BufTy).Contents (Elt F)) :
    (⟨S100000x128, .f32⟩ : BufTy).Contents (Elt F) :=
  (maximumf (addf (mulf (mulf (subf a0 ((broadcastInDim S100000x128 ![0, 1] bcast_S1x128_S100000x128_0_1) ((broadcastInDim S1x128 ![1] bcast_S128_S1x128_1) a1 : (⟨S1x128, .f32⟩ : BufTy).Contents (Elt F)) : (⟨S100000x128, .f32⟩ : BufTy).Contents (Elt F)) : (⟨S100000x128, .f32⟩ : BufTy).Contents (Elt F)) ((broadcastInDim S100000x128 ![0, 1] bcast_S1x128_S100000x128_0_1) ((broadcastInDim S1x128 ![1] bcast_S128_S1x128_1) (Host.rsqrt (addf a2 ((broadcastInDim S128 ![] bcast_S_S128) (constant S_ .f32 0x3727C5AC#32 : (⟨S_, .f32⟩ : BufTy).Contents (Elt F)) : (⟨S128, .f32⟩ : BufTy).Contents (Elt F)) : (⟨S128, .f32⟩ : BufTy).Contents (Elt F)) : (⟨S128, .f32⟩ : BufTy).Contents (Elt F)) : (⟨S1x128, .f32⟩ : BufTy).Contents (Elt F)) : (⟨S100000x128, .f32⟩ : BufTy).Contents (Elt F)) : (⟨S100000x128, .f32⟩ : BufTy).Contents (Elt F)) ((broadcastInDim S100000x128 ![0, 1] bcast_S1x128_S100000x128_0_1) ((broadcastInDim S1x128 ![1] bcast_S128_S1x128_1) a3 : (⟨S1x128, .f32⟩ : BufTy).Contents (Elt F)) : (⟨S100000x128, .f32⟩ : BufTy).Contents (Elt F)) : (⟨S100000x128, .f32⟩ : BufTy).Contents (Elt F)) ((broadcastInDim S100000x128 ![0, 1] bcast_S1x128_S100000x128_0_1) ((broadcastInDim S1x128 ![1] bcast_S128_S1x128_1) a4 : (⟨S1x128, .f32⟩ : BufTy).Contents (Elt F)) : (⟨S100000x128, .f32⟩ : BufTy).Contents (Elt F)) : (⟨S100000x128, .f32⟩ : BufTy).Contents (Elt F)) ((broadcastInDim S100000x128 ![] bcast_S_S100000x128) (constant S_ .f32 0x00000000#32 : (⟨S_, .f32⟩ : BufTy).Contents (Elt F)) : (⟨S100000x128, .f32⟩ : BufTy).Contents (Elt F)) : (⟨S100000x128, .f32⟩ : BufTy).Contents (Elt F))

/-- The neighbour messages of a later layer: row `idx e` of the N x 128 features, for each edge e. -/
def stage_gather128 (a0 : (⟨S100000x128, .f32⟩ : BufTy).Contents (Elt F)) (a1 : (⟨S1600000x1, .i32⟩ : BufTy).Contents (Elt F)) :
    (⟨S1600000x128, .f32⟩ : BufTy).Contents (Elt F) :=
  ((fun x i => Host.gather gather_S100000x128_S1600000x1_S1600000x128_1_0_n_n_0_1_1128 x i) a0 a1 : (⟨S1600000x128, .f32⟩ : BufTy).Contents (Elt F))

/-- The segment sum of a later layer: the E x 128 messages added into an N x 128 array of zeros at their destination rows. -/
def stage_scatter128 (a0 : (⟨S1600000, .i32⟩ : BufTy).Contents (Elt F)) (a1 : (⟨S1600000x128, .f32⟩ : BufTy).Contents (Elt F)) :
    (⟨S100000x128, .f32⟩ : BufTy).Contents (Elt F) :=
  ((fun x i u => Host.scatterAdd scatter_S100000x128_S1600000x1_S1600000x128_1_0_0_1 x i u) ((broadcastInDim S100000x128 ![] bcast_S_S100000x128) (constant S_ .f32 0x00000000#32 : (⟨S_, .f32⟩ : BufTy).Contents (Elt F)) : (⟨S100000x128, .f32⟩ : BufTy).Contents (Elt F)) ((broadcastInDim S1600000x1 ![0] bcast_S1600000_S1600000x1_0) a0 : (⟨S1600000x1, .i32⟩ : BufTy).Contents (Elt F)) a1 : (⟨S100000x128, .f32⟩ : BufTy).Contents (Elt F))

/-- The mean aggregate of a later layer: each row of the segment sum divided by max(in-degree, 1). -/
def stage_div128 (a0 : (⟨S100000x128, .f32⟩ : BufTy).Contents (Elt F)) (a1 : (⟨S100000, .f32⟩ : BufTy).Contents (Elt F)) :
    (⟨S100000x128, .f32⟩ : BufTy).Contents (Elt F) :=
  (Host.divf a0 ((broadcastInDim S100000x128 ![0, 1] bcast_S100000x1_S100000x128_0_1) ((broadcastInDim S100000x1 ![0] bcast_S100000_S100000x1_0) (maximumf a1 ((broadcastInDim S100000 ![] bcast_S_S100000) (constant S_ .f32 0x3F800000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x128, .f32⟩ : BufTy).Contents (Elt F)) : (⟨S100000x128, .f32⟩ : BufTy).Contents (Elt F))

/-- The second layer's linear map: agg · Wlᵀ + bl + h · Wrᵀ (128 -> 128). -/
def stage_lin1 (a0 : (⟨S100000x128, .f32⟩ : BufTy).Contents (Elt F)) (a1 : (⟨S128x128, .f32⟩ : BufTy).Contents (Elt F)) (a2 : (⟨S128, .f32⟩ : BufTy).Contents (Elt F)) (a3 : (⟨S100000x128, .f32⟩ : BufTy).Contents (Elt F)) (a4 : (⟨S128x128, .f32⟩ : BufTy).Contents (Elt F)) :
    (⟨S100000x128, .f32⟩ : BufTy).Contents (Elt F) :=
  (addf (addf ((fun l r => Host.dotGeneral dot_S100000x128_S128x128_S100000x128_1_0_0_1_n_n none l r) a0 ((transpose S128x128 [1, 0] · transposes_S128x128_S128x128_1_0) a1 : (⟨S128x128, .f32⟩ : BufTy).Contents (Elt F)) : (⟨S100000x128, .f32⟩ : BufTy).Contents (Elt F)) ((broadcastInDim S100000x128 ![0, 1] bcast_S1x128_S100000x128_0_1) ((broadcastInDim S1x128 ![1] bcast_S128_S1x128_1) a2 : (⟨S1x128, .f32⟩ : BufTy).Contents (Elt F)) : (⟨S100000x128, .f32⟩ : BufTy).Contents (Elt F)) : (⟨S100000x128, .f32⟩ : BufTy).Contents (Elt F)) ((fun l r => Host.dotGeneral dot_S100000x128_S128x128_S100000x128_1_0_0_1_n_n none l r) a3 ((transpose S128x128 [1, 0] · transposes_S128x128_S128x128_1_0) a4 : (⟨S128x128, .f32⟩ : BufTy).Contents (Elt F)) : (⟨S100000x128, .f32⟩ : BufTy).Contents (Elt F)) : (⟨S100000x128, .f32⟩ : BufTy).Contents (Elt F))

/-- The third layer's linear map: agg · Wlᵀ + bl + h · Wrᵀ (128 -> 64). -/
def stage_lin2 (a0 : (⟨S100000x128, .f32⟩ : BufTy).Contents (Elt F)) (a1 : (⟨S64x128, .f32⟩ : BufTy).Contents (Elt F)) (a2 : (⟨S64, .f32⟩ : BufTy).Contents (Elt F)) (a3 : (⟨S100000x128, .f32⟩ : BufTy).Contents (Elt F)) (a4 : (⟨S64x128, .f32⟩ : BufTy).Contents (Elt F)) :
    (⟨S100000x64, .f32⟩ : BufTy).Contents (Elt F) :=
  (addf (addf ((fun l r => Host.dotGeneral dot_S100000x128_S128x64_S100000x64_1_0_0_1_n_n none l r) a0 ((transpose S128x64 [1, 0] · transposes_S64x128_S128x64_1_0) a1 : (⟨S128x64, .f32⟩ : BufTy).Contents (Elt F)) : (⟨S100000x64, .f32⟩ : BufTy).Contents (Elt F)) ((broadcastInDim S100000x64 ![0, 1] bcast_S1x64_S100000x64_0_1) ((broadcastInDim S1x64 ![1] bcast_S64_S1x64_1) a2 : (⟨S1x64, .f32⟩ : BufTy).Contents (Elt F)) : (⟨S100000x64, .f32⟩ : BufTy).Contents (Elt F)) : (⟨S100000x64, .f32⟩ : BufTy).Contents (Elt F)) ((fun l r => Host.dotGeneral dot_S100000x128_S128x64_S100000x64_1_0_0_1_n_n none l r) a3 ((transpose S128x64 [1, 0] · transposes_S64x128_S128x64_1_0) a4 : (⟨S128x64, .f32⟩ : BufTy).Contents (Elt F)) : (⟨S100000x64, .f32⟩ : BufTy).Contents (Elt F)) : (⟨S100000x64, .f32⟩ : BufTy).Contents (Elt F))

/-- The column means over the N rows (64 columns): the column sums from 0, divided by N = 100000. -/
def stage_mean64 (a0 : (⟨S100000x64, .f32⟩ : BufTy).Contents (Elt F)) :
    (⟨S64, .f32⟩ : BufTy).Contents (Elt F) :=
  (Host.divf ((fun x v => Host.reduceAdd x v reducesTo_S100000x64_S64_d0 h_S_) a0 (constant S_ .f32 0x00000000#32 : (⟨S_, .f32⟩ : BufTy).Contents (Elt F)) : (⟨S64, .f32⟩ : BufTy).Contents (Elt F)) ((broadcastInDim S64 ![] bcast_S_S64) (constant S_ .f32 0x47C35000#32 : (⟨S_, .f32⟩ : BufTy).Contents (Elt F)) : (⟨S64, .f32⟩ : BufTy).Contents (Elt F)) : (⟨S64, .f32⟩ : BufTy).Contents (Elt F))

/-- The biased column variances (64 columns): the same computation as for 128 columns. -/
def stage_var64 (a0 : (⟨S100000x64, .f32⟩ : BufTy).Contents (Elt F)) :
    (⟨S64, .f32⟩ : BufTy).Contents (Elt F) :=
  ((fun p a b => select (broadcastInDim S64 ![] bcast_S_S64 p) a b) ((cmpf .ogt) (subf (constant S_ .f32 0x47C35000#32 : (⟨S_, .f32⟩ : BufTy).Contents (Elt F)) ((sitofp .f32) (constantI S_ 32 0#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F)) (Host.divf ((fun x v => Host.reduceAdd x v reducesTo_S100000x64_S64_d0 h_S_) (mulf (subf a0 ((broadcastInDim S100000x64 ![0, 1] bcast_S1x64_S100000x64_0_1) (Host.divf ((broadcastInDim S1x64 ![1] bcast_S64_S1x64_1) ((fun x v => Host.reduceAdd x v reducesTo_S100000x64_S64_d0 h_S_) a0 (constant S_ .f32 0x00000000#32 : (⟨S_, .f32⟩ : BufTy).Contents (Elt F)) : (⟨S64, .f32⟩ : BufTy).Contents (Elt F)) : (⟨S1x64, .f32⟩ : BufTy).Contents (Elt F)) ((broadcastInDim S1x64 ![] bcast_S_S1x64) (constant S_ .f32 0x47C35000#32 : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) (subf a0 ((broadcastInDim S100000x64 ![0, 1] bcast_S1x64_S100000x64_0_1) (Host.divf ((broadcastInDim S1x64 ![1] bcast_S64_S1x64_1) ((fun x v => Host.reduceAdd x v reducesTo_S100000x64_S64_d0 h_S_) a0 (constant S_ .f32 0x00000000#32 : (⟨S_, .f32⟩ : BufTy).Contents (Elt F)) : (⟨S64, .f32⟩ : BufTy).Contents (Elt F)) : (⟨S1x64, .f32⟩ : BufTy).Contents (Elt F)) ((broadcastInDim S1x64 ![] bcast_S_S1x64) (constant S_ .f32 0x47C35000#32 : (⟨S_, .f32⟩ : BufTy).Contents (Elt F)) : (⟨S1x64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) (constant S_ .f32 0x00000000#32 : (⟨S_, .f32⟩ : BufTy).Contents (Elt F)) : (⟨S64, .f32⟩ : BufTy).Contents (Elt F)) ((broadcastInDim S64 ![] bcast_S_S64) (subf (constant S_ .f32 0x47C35000#32 : (⟨S_, .f32⟩ : BufTy).Contents (Elt F)) ((sitofp .f32) (constantI S_ 32 0#32 : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) ((broadcastInDim S64 ![] bcast_S_S64) (id (constant S_ .f32 0x7FC00000#32 : (⟨S_, .f32⟩ : BufTy).Contents (Elt F)) : (⟨S_, .f32⟩ : BufTy).Contents (Elt F)) : (⟨S64, .f32⟩ : BufTy).Contents (Elt F)) : (⟨S64, .f32⟩ : BufTy).Contents (Elt F))

/-- Batch normalisation and rectifier (64 columns): max(((h - mean) * rsqrt(var + eps)) * g + b, 0), eps the float nearest 1e-5. -/
def stage_bnrelu64 (a0 : (⟨S100000x64, .f32⟩ : BufTy).Contents (Elt F)) (a1 : (⟨S64, .f32⟩ : BufTy).Contents (Elt F)) (a2 : (⟨S64, .f32⟩ : BufTy).Contents (Elt F)) (a3 : (⟨S64, .f32⟩ : BufTy).Contents (Elt F)) (a4 : (⟨S64, .f32⟩ : BufTy).Contents (Elt F)) :
    (⟨S100000x64, .f32⟩ : BufTy).Contents (Elt F) :=
  (maximumf (addf (mulf (mulf (subf a0 ((broadcastInDim S100000x64 ![0, 1] bcast_S1x64_S100000x64_0_1) ((broadcastInDim S1x64 ![1] bcast_S64_S1x64_1) a1 : (⟨S1x64, .f32⟩ : BufTy).Contents (Elt F)) : (⟨S100000x64, .f32⟩ : BufTy).Contents (Elt F)) : (⟨S100000x64, .f32⟩ : BufTy).Contents (Elt F)) ((broadcastInDim S100000x64 ![0, 1] bcast_S1x64_S100000x64_0_1) ((broadcastInDim S1x64 ![1] bcast_S64_S1x64_1) (Host.rsqrt (addf a2 ((broadcastInDim S64 ![] bcast_S_S64) (constant S_ .f32 0x3727C5AC#32 : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S100000x64, .f32⟩ : BufTy).Contents (Elt F)) : (⟨S100000x64, .f32⟩ : BufTy).Contents (Elt F)) ((broadcastInDim S100000x64 ![0, 1] bcast_S1x64_S100000x64_0_1) ((broadcastInDim S1x64 ![1] bcast_S64_S1x64_1) a3 : (⟨S1x64, .f32⟩ : BufTy).Contents (Elt F)) : (⟨S100000x64, .f32⟩ : BufTy).Contents (Elt F)) : (⟨S100000x64, .f32⟩ : BufTy).Contents (Elt F)) ((broadcastInDim S100000x64 ![0, 1] bcast_S1x64_S100000x64_0_1) ((broadcastInDim S1x64 ![1] bcast_S64_S1x64_1) a4 : (⟨S1x64, .f32⟩ : BufTy).Contents (Elt F)) : (⟨S100000x64, .f32⟩ : BufTy).Contents (Elt F)) : (⟨S100000x64, .f32⟩ : BufTy).Contents (Elt F)) ((broadcastInDim S100000x64 ![] bcast_S_S100000x64) (constant S_ .f32 0x00000000#32 : (⟨S_, .f32⟩ : BufTy).Contents (Elt F)) : (⟨S100000x64, .f32⟩ : BufTy).Contents (Elt F)) : (⟨S100000x64, .f32⟩ : BufTy).Contents (Elt F))

/-- The classifier's hidden layer: max(h · Wc1ᵀ + bc1, 0) (64 -> 32). -/
def stage_cls1 (a0 : (⟨S100000x64, .f32⟩ : BufTy).Contents (Elt F)) (a1 : (⟨S32x64, .f32⟩ : BufTy).Contents (Elt F)) (a2 : (⟨S32, .f32⟩ : BufTy).Contents (Elt F)) :
    (⟨S100000x32, .f32⟩ : BufTy).Contents (Elt F) :=
  (maximumf (addf ((fun l r => Host.dotGeneral dot_S100000x64_S64x32_S100000x32_1_0_0_1_n_n none l r) a0 ((transpose S64x32 [1, 0] · transposes_S32x64_S64x32_1_0) a1 : (⟨S64x32, .f32⟩ : BufTy).Contents (Elt F)) : (⟨S100000x32, .f32⟩ : BufTy).Contents (Elt F)) ((broadcastInDim S100000x32 ![0, 1] bcast_S1x32_S100000x32_0_1) ((broadcastInDim S1x32 ![1] bcast_S32_S1x32_1) a2 : (⟨S1x32, .f32⟩ : BufTy).Contents (Elt F)) : (⟨S100000x32, .f32⟩ : BufTy).Contents (Elt F)) : (⟨S100000x32, .f32⟩ : BufTy).Contents (Elt F)) ((broadcastInDim S100000x32 ![] bcast_S_S100000x32) (constant S_ .f32 0x00000000#32 : (⟨S_, .f32⟩ : BufTy).Contents (Elt F)) : (⟨S100000x32, .f32⟩ : BufTy).Contents (Elt F)) : (⟨S100000x32, .f32⟩ : BufTy).Contents (Elt F))

/-- The classifier's output: the logistic function 1 / (1 + exp(-(h · Wc2ᵀ + bc2))) (32 -> 1). -/
def stage_cls2 (a0 : (⟨S100000x32, .f32⟩ : BufTy).Contents (Elt F)) (a1 : (⟨S1x32, .f32⟩ : BufTy).Contents (Elt F)) (a2 : (⟨S1, .f32⟩ : BufTy).Contents (Elt F)) :
    (⟨S100000x1, .f32⟩ : BufTy).Contents (Elt F) :=
  (Host.divf ((broadcastInDim S100000x1 ![] bcast_S_S100000x1) (constant S_ .f32 0x3F800000#32 : (⟨S_, .f32⟩ : BufTy).Contents (Elt F)) : (⟨S100000x1, .f32⟩ : BufTy).Contents (Elt F)) (addf ((broadcastInDim S100000x1 ![] bcast_S_S100000x1) (constant S_ .f32 0x3F800000#32 : (⟨S_, .f32⟩ : BufTy).Contents (Elt F)) : (⟨S100000x1, .f32⟩ : BufTy).Contents (Elt F)) (Host.exp (Host.negf (addf ((fun l r => Host.dotGeneral dot_S100000x32_S32x1_S100000x1_1_0_0_1_n_n none l r) a0 ((transpose S32x1 [1, 0] · transposes_S1x32_S32x1_1_0) a1 : (⟨S32x1, .f32⟩ : BufTy).Contents (Elt F)) : (⟨S100000x1, .f32⟩ : BufTy).Contents (Elt F)) ((broadcastInDim S100000x1 ![0, 1] bcast_S1x1_S100000x1_0_1) ((broadcastInDim S1x1 ![1] bcast_S1_S1x1_1) a2 : (⟨S1x1, .f32⟩ : BufTy).Contents (Elt F)) : (⟨S100000x1, .f32⟩ : BufTy).Contents (Elt F)) : (⟨S100000x1, .f32⟩ : BufTy).Contents (Elt F)) : (⟨S100000x1, .f32⟩ : BufTy).Contents (Elt F)) : (⟨S100000x1, .f32⟩ : BufTy).Contents (Elt F)) : (⟨S100000x1, .f32⟩ : BufTy).Contents (Elt F)) : (⟨S100000x1, .f32⟩ : BufTy).Contents (Elt F))

/-! ## The named buffers over launch contents -/

/-- The contents of `main_v1` from launch contents `W`. -/
def ref_v1 (W : Valuation τ sig (Elt F)) : (⟨S1600000, .i32⟩ : BufTy).Contents (Elt F) :=
  stage_src (W (Proc.devRef .tc main_arg1))

/-- The contents of `main_v3` from launch contents `W`. -/
def ref_v3 (W : Valuation τ sig (Elt F)) : (⟨S1600000, .i32⟩ : BufTy).Contents (Elt F) :=
  stage_dst (W (Proc.devRef .tc main_arg1))

/-- The contents of `main_v9` from launch contents `W`. -/
def ref_v9 (W : Valuation τ sig (Elt F)) : (⟨S1600000x1, .i32⟩ : BufTy).Contents (Elt F) :=
  stage_idx (ref_v1 W)

/-- The contents of `main_v10` from launch contents `W`. -/
def ref_v10 (W : Valuation τ sig (Elt F)) : (⟨S1600000x16, .f32⟩ : BufTy).Contents (Elt F) :=
  stage_gather16 (W (Proc.devRef .tc main_arg0)) (ref_v9 W)

/-- The contents of `main_v13` from launch contents `W`. -/
def ref_v13 (W : Valuation τ sig (Elt F)) : (⟨S100000x16, .f32⟩ : BufTy).Contents (Elt F) :=
  stage_scatter16 (ref_v3 W) (ref_v10 W)

/-- The contents of `main_v17` from launch contents `W`. -/
def ref_v17 (W : Valuation τ sig (Elt F)) : (⟨S100000, .f32⟩ : BufTy).Contents (Elt F) :=
  stage_cnt (ref_v3 W)

/-- The contents of `main_v22` from launch contents `W`. -/
def ref_v22 (W : Valuation τ sig (Elt F)) : (⟨S100000x16, .f32⟩ : BufTy).Contents (Elt F) :=
  stage_div16 (ref_v13 W) (ref_v17 W)

/-- The contents of `main_v30` from launch contents `W`. -/
def ref_v30 (W : Valuation τ sig (Elt F)) : (⟨S100000x128, .f32⟩ : BufTy).Contents (Elt F) :=
  stage_lin0 (ref_v22 W) (W (Proc.devRef .tc main_arg2)) (W (Proc.devRef .tc main_arg3)) (W (Proc.devRef .tc main_arg0)) (W (Proc.devRef .tc main_arg4))

/-- The contents of `main_v33` from launch contents `W`. -/
def ref_v33 (W : Valuation τ sig (Elt F)) : (⟨S128, .f32⟩ : BufTy).Contents (Elt F) :=
  stage_mean128 (ref_v30 W)

/-- The contents of `main_v34` from launch contents `W`. -/
def ref_v34 (W : Valuation τ sig (Elt F)) : (⟨S128, .f32⟩ : BufTy).Contents (Elt F) :=
  stage_var128 (ref_v30 W)

/-- The contents of `main_v50` from launch contents `W`. -/
def ref_v50 (W : Valuation τ sig (Elt F)) : (⟨S100000x128, .f32⟩ : BufTy).Contents (Elt F) :=
  stage_bnrelu128 (ref_v30 W) (ref_v33 W) (ref_v34 W) (W (Proc.devRef .tc main_arg5)) (W (Proc.devRef .tc main_arg6))

/-- The contents of `main_v56` from launch contents `W`. -/
def ref_v56 (W : Valuation τ sig (Elt F)) : (⟨S1600000x1, .i32⟩ : BufTy).Contents (Elt F) :=
  stage_idx (ref_v1 W)

/-- The contents of `main_v57` from launch contents `W`. -/
def ref_v57 (W : Valuation τ sig (Elt F)) : (⟨S1600000x128, .f32⟩ : BufTy).Contents (Elt F) :=
  stage_gather128 (ref_v50 W) (ref_v56 W)

/-- The contents of `main_v60` from launch contents `W`. -/
def ref_v60 (W : Valuation τ sig (Elt F)) : (⟨S100000x128, .f32⟩ : BufTy).Contents (Elt F) :=
  stage_scatter128 (ref_v3 W) (ref_v57 W)

/-- The contents of `main_v64` from launch contents `W`. -/
def ref_v64 (W : Valuation τ sig (Elt F)) : (⟨S100000, .f32⟩ : BufTy).Contents (Elt F) :=
  stage_cnt (ref_v3 W)

/-- The contents of `main_v69` from launch contents `W`. -/
def ref_v69 (W : Valuation τ sig (Elt F)) : (⟨S100000x128, .f32⟩ : BufTy).Contents (Elt F) :=
  stage_div128 (ref_v60 W) (ref_v64 W)

/-- The contents of `main_v77` from launch contents `W`. -/
def ref_v77 (W : Valuation τ sig (Elt F)) : (⟨S100000x128, .f32⟩ : BufTy).Contents (Elt F) :=
  stage_lin1 (ref_v69 W) (W (Proc.devRef .tc main_arg7)) (W (Proc.devRef .tc main_arg8)) (ref_v50 W) (W (Proc.devRef .tc main_arg9))

/-- The contents of `main_v80` from launch contents `W`. -/
def ref_v80 (W : Valuation τ sig (Elt F)) : (⟨S128, .f32⟩ : BufTy).Contents (Elt F) :=
  stage_mean128 (ref_v77 W)

/-- The contents of `main_v81` from launch contents `W`. -/
def ref_v81 (W : Valuation τ sig (Elt F)) : (⟨S128, .f32⟩ : BufTy).Contents (Elt F) :=
  stage_var128 (ref_v77 W)

/-- The contents of `main_v97` from launch contents `W`. -/
def ref_v97 (W : Valuation τ sig (Elt F)) : (⟨S100000x128, .f32⟩ : BufTy).Contents (Elt F) :=
  stage_bnrelu128 (ref_v77 W) (ref_v80 W) (ref_v81 W) (W (Proc.devRef .tc main_arg10)) (W (Proc.devRef .tc main_arg11))

/-- The contents of `main_v103` from launch contents `W`. -/
def ref_v103 (W : Valuation τ sig (Elt F)) : (⟨S1600000x1, .i32⟩ : BufTy).Contents (Elt F) :=
  stage_idx (ref_v1 W)

/-- The contents of `main_v104` from launch contents `W`. -/
def ref_v104 (W : Valuation τ sig (Elt F)) : (⟨S1600000x128, .f32⟩ : BufTy).Contents (Elt F) :=
  stage_gather128 (ref_v97 W) (ref_v103 W)

/-- The contents of `main_v107` from launch contents `W`. -/
def ref_v107 (W : Valuation τ sig (Elt F)) : (⟨S100000x128, .f32⟩ : BufTy).Contents (Elt F) :=
  stage_scatter128 (ref_v3 W) (ref_v104 W)

/-- The contents of `main_v111` from launch contents `W`. -/
def ref_v111 (W : Valuation τ sig (Elt F)) : (⟨S100000, .f32⟩ : BufTy).Contents (Elt F) :=
  stage_cnt (ref_v3 W)

/-- The contents of `main_v116` from launch contents `W`. -/
def ref_v116 (W : Valuation τ sig (Elt F)) : (⟨S100000x128, .f32⟩ : BufTy).Contents (Elt F) :=
  stage_div128 (ref_v107 W) (ref_v111 W)

/-- The contents of `main_v124` from launch contents `W`. -/
def ref_v124 (W : Valuation τ sig (Elt F)) : (⟨S100000x64, .f32⟩ : BufTy).Contents (Elt F) :=
  stage_lin2 (ref_v116 W) (W (Proc.devRef .tc main_arg12)) (W (Proc.devRef .tc main_arg13)) (ref_v97 W) (W (Proc.devRef .tc main_arg14))

/-- The contents of `main_v127` from launch contents `W`. -/
def ref_v127 (W : Valuation τ sig (Elt F)) : (⟨S64, .f32⟩ : BufTy).Contents (Elt F) :=
  stage_mean64 (ref_v124 W)

/-- The contents of `main_v128` from launch contents `W`. -/
def ref_v128 (W : Valuation τ sig (Elt F)) : (⟨S64, .f32⟩ : BufTy).Contents (Elt F) :=
  stage_var64 (ref_v124 W)

/-- The contents of `main_v144` from launch contents `W`. -/
def ref_v144 (W : Valuation τ sig (Elt F)) : (⟨S100000x64, .f32⟩ : BufTy).Contents (Elt F) :=
  stage_bnrelu64 (ref_v124 W) (ref_v127 W) (ref_v128 W) (W (Proc.devRef .tc main_arg15)) (W (Proc.devRef .tc main_arg16))

/-- The contents of `main_v150` from launch contents `W`. -/
def ref_v150 (W : Valuation τ sig (Elt F)) : (⟨S100000x32, .f32⟩ : BufTy).Contents (Elt F) :=
  stage_cls1 (ref_v144 W) (W (Proc.devRef .tc main_arg17)) (W (Proc.devRef .tc main_arg18))

/-- The contents of `main_v161` from launch contents `W`. -/
def ref_v161 (W : Valuation τ sig (Elt F)) : (⟨S100000x1, .f32⟩ : BufTy).Contents (Elt F) :=
  stage_cls2 (ref_v150 W) (W (Proc.devRef .tc main_arg19)) (W (Proc.devRef .tc main_arg20))

end Cert.ReferenceIdeal.Hand

end
-- ==== Proof.StagesEq.lean ====
/-
  The host stages of the two programs are the same functions.

  Both programs compute the edges' sources and destinations, the gather's index column, the neighbour messages, the
  segment sums, the in-degree and the mean aggregate by the same operations over the same shapes; the two printed
  programs name the shapes, their side conditions and the gather and scatter dimension numbers separately, and those
  names unfold to the same values. So each stage of one program equals the stage of the same name of the other.
-/
import proofs.«121727_j57028575756303_1_alg».proof.Proof.KI.HostStages
import proofs.«121727_j57028575756303_1_alg».proof.Proof.RefRun.Stages

noncomputable section

namespace Cert.StagesEq

open Idealize.ShloMosaic

variable {F : FTy → Type} [FloatOps F]

theorem stage_src_eq (a : (⟨Cert.KernelIdeal.S2x1600000, .i32⟩ : BufTy).Contents (Elt F)) :
    Cert.KernelIdeal.Hand.stage_src a = Cert.ReferenceIdeal.Hand.stage_src a := rfl

theorem stage_dst_eq (a : (⟨Cert.KernelIdeal.S2x1600000, .i32⟩ : BufTy).Contents (Elt F)) :
    Cert.KernelIdeal.Hand.stage_dst a = Cert.ReferenceIdeal.Hand.stage_dst a := rfl

theorem stage_idx_eq (a : (⟨Cert.KernelIdeal.S1600000, .i32⟩ : BufTy).Contents (Elt F)) :
    Cert.KernelIdeal.Hand.stage_idx a = Cert.ReferenceIdeal.Hand.stage_idx a := rfl

theorem stage_cnt_eq (a : (⟨Cert.KernelIdeal.S1600000, .i32⟩ : BufTy).Contents (Elt F)) :
    Cert.KernelIdeal.Hand.stage_cnt a = Cert.ReferenceIdeal.Hand.stage_cnt a := rfl

theorem stage_gather16_eq (x : (⟨Cert.KernelIdeal.S100000x16, .f32⟩ : BufTy).Contents (Elt F)) (i : (⟨Cert.KernelIdeal.S1600000x1, .i32⟩ : BufTy).Contents (Elt F)) :
    Cert.KernelIdeal.Hand.stage_gather16 x i = Cert.ReferenceIdeal.Hand.stage_gather16 x i := rfl

theorem stage_scatter16_eq (d : (⟨Cert.KernelIdeal.S1600000, .i32⟩ : BufTy).Contents (Elt F)) (u : (⟨Cert.KernelIdeal.S1600000x16, .f32⟩ : BufTy).Contents (Elt F)) :
    Cert.KernelIdeal.Hand.stage_scatter16 d u = Cert.ReferenceIdeal.Hand.stage_scatter16 d u := rfl

theorem stage_div16_eq (s : (⟨Cert.KernelIdeal.S100000x16, .f32⟩ : BufTy).Contents (Elt F)) (c : (⟨Cert.KernelIdeal.S100000, .f32⟩ : BufTy).Contents (Elt F)) :
    Cert.KernelIdeal.Hand.stage_div16 s c = Cert.ReferenceIdeal.Hand.stage_div16 s c := rfl

theorem stage_gather128_eq (x : (⟨Cert.KernelIdeal.S100000x128, .f32⟩ : BufTy).Contents (Elt F)) (i : (⟨Cert.KernelIdeal.S1600000x1, .i32⟩ : BufTy).Contents (Elt F)) :
    Cert.KernelIdeal.Hand.stage_gather128 x i = Cert.ReferenceIdeal.Hand.stage_gather128 x i := rfl

theorem stage_scatter128_eq (d : (⟨Cert.KernelIdeal.S1600000, .i32⟩ : BufTy).Contents (Elt F)) (u : (⟨Cert.KernelIdeal.S1600000x128, .f32⟩ : BufTy).Contents (Elt F)) :
    Cert.KernelIdeal.Hand.stage_scatter128 d u = Cert.ReferenceIdeal.Hand.stage_scatter128 d u := rfl

theorem stage_div128_eq (s : (⟨Cert.KernelIdeal.S100000x128, .f32⟩ : BufTy).Contents (Elt F)) (c : (⟨Cert.KernelIdeal.S100000, .f32⟩ : BufTy).Contents (Elt F)) :
    Cert.KernelIdeal.Hand.stage_div128 s c = Cert.ReferenceIdeal.Hand.stage_div128 s c := rfl

/-- The whole mean aggregation of the first layer, in the other program's stages. -/
theorem aggStage16_eq (x : (⟨Cert.KernelIdeal.S100000x16, .f32⟩ : BufTy).Contents (Elt F)) (src dst : (⟨Cert.KernelIdeal.S1600000, .i32⟩ : BufTy).Contents (Elt F)) (cnt : (⟨Cert.KernelIdeal.S100000, .f32⟩ : BufTy).Contents (Elt F)) :
    Cert.KernelIdeal.Hand.aggStage16 x src dst cnt
      = Cert.ReferenceIdeal.Hand.stage_div16
          (Cert.ReferenceIdeal.Hand.stage_scatter16 dst
            (Cert.ReferenceIdeal.Hand.stage_gather16 x (Cert.ReferenceIdeal.Hand.stage_idx src))) cnt := by
  unfold Cert.KernelIdeal.Hand.aggStage16
  rw [stage_idx_eq, stage_gather16_eq, stage_scatter16_eq, stage_div16_eq]

/-- The whole mean aggregation of a later layer, in the other program's stages. -/
theorem aggStage128_eq (x : (⟨Cert.KernelIdeal.S100000x128, .f32⟩ : BufTy).Contents (Elt F)) (src dst : (⟨Cert.KernelIdeal.S1600000, .i32⟩ : BufTy).Contents (Elt F)) (cnt : (⟨Cert.KernelIdeal.S100000, .f32⟩ : BufTy).Contents (Elt F)) :
    Cert.KernelIdeal.Hand.aggStage128 x src dst cnt
      = Cert.ReferenceIdeal.Hand.stage_div128
          (Cert.ReferenceIdeal.Hand.stage_scatter128 dst
            (Cert.ReferenceIdeal.Hand.stage_gather128 x (Cert.ReferenceIdeal.Hand.stage_idx src))) cnt := by
  unfold Cert.KernelIdeal.Hand.aggStage128
  rw [stage_idx_eq, stage_gather128_eq, stage_scatter128_eq, stage_div128_eq]

end Cert.StagesEq
-- ==== Proof.RefRun.Read.lean ====
/- The reference's stage functions read at an index, on the extended reals: the linear maps as sums of products, the
   column means, the normalisation with rectifier as the normalised entry of each column, the mean aggregate's
   quotient, and the classifier's two layers (the last one also as the logistic function). The layout operations
   (broadcasts of a vector along rows or columns, a transposition) are read first, each stated for any dimension map
   equal to the one the program spells, so that the statements do not depend on how a numeral of a finite type was
   elaborated. -/
import proofs.«121727_j57028575756303_1_alg».proof.Proof.RefRun.Stages
import proofs.«121727_j57028575756303_1_alg».proof.Proof.LibBn100000
import proofs.«121727_j57028575756303_1_alg».proof.Proof.LibSigmoid
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.ReferenceIdeal.Hand

open scoped BigOperators
open Cert.ReferenceIdeal Cert.ReferenceIdeal.Gen Idealize.ShloMosaic Idealize.ShloMosaic.ValueIdx

/-! ## Layout operations at an index -/

/-- A 1 x 128 array repeated down the 100000 rows reads, at (r, j), the array at (0, j). -/
theorem bcast_rows128_apply {α : Type} (d : Fin S1x128.rank → Fin S100000x128.rank) (h : S1x128.BroadcastsInDim S100000x128 d) (hd : d = ![0, 1])
    (y : S1x128.Idx → α) (r : Fin 100000) (j : Fin 128) : broadcastInDim S100000x128 d h y (ix2 r j) = y (ix2 (0 : Fin 1) j) := by
  subst hd
  exact broadcastInDim_apply _ _ _ (ix2 r j) (ix2 (0 : Fin 1) j) (fun a => match a with | ⟨0, _⟩ => rfl | ⟨1, _⟩ => rfl)
/-- A vector of 128 entries as a 1 x 128 array reads, at (0, j), its entry j. -/
theorem bcast_asrow128_apply {α : Type} (d : Fin S128.rank → Fin S1x128.rank) (h : S128.BroadcastsInDim S1x128 d) (hd : d = ![1])
    (x : S128.Idx → α) (j : Fin 128) : broadcastInDim S1x128 d h x (ix2 (0 : Fin 1) j) = x (ix1 j) := by
  subst hd
  exact broadcastInDim_apply _ _ _ (ix2 (0 : Fin 1) j) (ix1 j) (fun a => match a with | ⟨0, _⟩ => rfl)

/-- A 1 x 64 array repeated down the 100000 rows reads, at (r, j), the array at (0, j). -/
theorem bcast_rows64_apply {α : Type} (d : Fin S1x64.rank → Fin S100000x64.rank) (h : S1x64.BroadcastsInDim S100000x64 d) (hd : d = ![0, 1])
    (y : S1x64.Idx → α) (r : Fin 100000) (j : Fin 64) : broadcastInDim S100000x64 d h y (ix2 r j) = y (ix2 (0 : Fin 1) j) := by
  subst hd
  exact broadcastInDim_apply _ _ _ (ix2 r j) (ix2 (0 : Fin 1) j) (fun a => match a with | ⟨0, _⟩ => rfl | ⟨1, _⟩ => rfl)
/-- A vector of 64 entries as a 1 x 64 array reads, at (0, j), its entry j. -/
theorem bcast_asrow64_apply {α : Type} (d : Fin S64.rank → Fin S1x64.rank) (h : S64.BroadcastsInDim S1x64 d) (hd : d = ![1])
    (x : S64.Idx → α) (j : Fin 64) : broadcastInDim S1x64 d h x (ix2 (0 : Fin 1) j) = x (ix1 j) := by
  subst hd
  exact broadcastInDim_apply _ _ _ (ix2 (0 : Fin 1) j) (ix1 j) (fun a => match a with | ⟨0, _⟩ => rfl)

/-- A 1 x 32 array repeated down the 100000 rows reads, at (r, j), the array at (0, j). -/
theorem bcast_rows32_apply {α : Type} (d : Fin S1x32.rank → Fin S100000x32.rank) (h : S1x32.BroadcastsInDim S100000x32 d) (hd : d = ![0, 1])
    (y : S1x32.Idx → α) (r : Fin 100000) (j : Fin 32) : broadcastInDim S100000x32 d h y (ix2 r j) = y (ix2 (0 : Fin 1) j) := by
  subst hd
  exact broadcastInDim_apply _ _ _ (ix2 r j) (ix2 (0 : Fin 1) j) (fun a => match a with | ⟨0, _⟩ => rfl | ⟨1, _⟩ => rfl)
/-- A vector of 32 entries as a 1 x 32 array reads, at (0, j), its entry j. -/
theorem bcast_asrow32_apply {α : Type} (d : Fin S32.rank → Fin S1x32.rank) (h : S32.BroadcastsInDim S1x32 d) (hd : d = ![1])
    (x : S32.Idx → α) (j : Fin 32) : broadcastInDim S1x32 d h x (ix2 (0 : Fin 1) j) = x (ix1 j) := by
  subst hd
  exact broadcastInDim_apply _ _ _ (ix2 (0 : Fin 1) j) (ix1 j) (fun a => match a with | ⟨0, _⟩ => rfl)

/-- A 1 x 1 array repeated down the 100000 rows reads, at (r, j), the array at (0, j). -/
theorem bcast_rows1_apply {α : Type} (d : Fin S1x1.rank → Fin S100000x1.rank) (h : S1x1.BroadcastsInDim S100000x1 d) (hd : d = ![0, 1])
    (y : S1x1.Idx → α) (r : Fin 100000) : broadcastInDim S100000x1 d h y (ix2 r (0 : Fin 1)) = y (ix2 (0 : Fin 1) (0 : Fin 1)) := by
  subst hd
  exact broadcastInDim_apply _ _ _ (ix2 r (0 : Fin 1)) (ix2 (0 : Fin 1) (0 : Fin 1)) (fun a => match a with | ⟨0, _⟩ => rfl | ⟨1, _⟩ => rfl)
/-- A vector of 1 entries as a 1 x 1 array reads, at (0, j), its entry j. -/
theorem bcast_asrow1_apply {α : Type} (d : Fin S1.rank → Fin S1x1.rank) (h : S1.BroadcastsInDim S1x1 d) (hd : d = ![1])
    (x : S1.Idx → α) : broadcastInDim S1x1 d h x (ix2 (0 : Fin 1) (0 : Fin 1)) = x (ix1 (0 : Fin 1)) := by
  subst hd
  exact broadcastInDim_apply _ _ _ (ix2 (0 : Fin 1) (0 : Fin 1)) (ix1 (0 : Fin 1)) (fun a => match a with | ⟨0, _⟩ => rfl)

/-- A 100000 x 1 column repeated across 16 columns reads, at (r, k), the column at (r, 0). -/
theorem bcast_cols16_apply {α : Type} (d : Fin S100000x1.rank → Fin S100000x16.rank) (h : S100000x1.BroadcastsInDim S100000x16 d) (hd : d = ![0, 1])
    (y : S100000x1.Idx → α) (r : Fin 100000) (k : Fin 16) : broadcastInDim S100000x16 d h y (ix2 r k) = y (ix2 r (0 : Fin 1)) := by
  subst hd
  exact broadcastInDim_apply _ _ _ (ix2 r k) (ix2 r (0 : Fin 1)) (fun a => match a with | ⟨0, _⟩ => rfl | ⟨1, _⟩ => rfl)

/-- A 100000 x 1 column repeated across 128 columns reads, at (r, k), the column at (r, 0). -/
theorem bcast_cols128_apply {α : Type} (d : Fin S100000x1.rank → Fin S100000x128.rank) (h : S100000x1.BroadcastsInDim S100000x128 d) (hd : d = ![0, 1])
    (y : S100000x1.Idx → α) (r : Fin 100000) (k : Fin 128) : broadcastInDim S100000x128 d h y (ix2 r k) = y (ix2 r (0 : Fin 1)) := by
  subst hd
  exact broadcastInDim_apply _ _ _ (ix2 r k) (ix2 r (0 : Fin 1)) (fun a => match a with | ⟨0, _⟩ => rfl | ⟨1, _⟩ => rfl)

/-- A scalar broadcast to any shape reads the scalar everywhere, whatever the (empty) dimension map is called. -/
theorem bcast_scalar_apply {T : Shape} {α : Type} (d : Fin S_.rank → Fin T.rank) (h : S_.BroadcastsInDim T d) (x : S_.Idx → α)
    (j : T.Idx) : broadcastInDim T d h x j = x ix0 := by
  unfold broadcastInDim
  exact congrArg x (funext fun a => a.elim0)

/-- A vector of 100000 entries as a 100000 x 1 column reads, at (r, 0), its entry r. -/
theorem bcast_ascol_apply {α : Type} (d : Fin S100000.rank → Fin S100000x1.rank) (h : S100000.BroadcastsInDim S100000x1 d) (hd : d = ![0])
    (x : S100000.Idx → α) (r : Fin 100000) : broadcastInDim S100000x1 d h x (ix2 r (0 : Fin 1)) = x (ix1 r) := by
  subst hd
  exact broadcastInDim_apply _ _ _ (ix2 r (0 : Fin 1)) (ix1 r) (fun a => match a with | ⟨0, _⟩ => rfl)

/-- The 128 x 16 matrix transposed reads, at (k, j), the matrix at (j, k). -/
theorem transpose_16x128_apply {α : Type} (perm : List (Fin S128x16.rank)) (h : S128x16.Transposes perm S16x128) (hp : perm = [1, 0])
    (x : S128x16.Idx → α) (k : Fin 16) (j : Fin 128) : transpose S16x128 perm x h (ix2 k j) = x (ix2 j k) := by
  subst hp
  exact transpose_apply _ x _ _ _ fun c => match c with | ⟨0, _⟩ => rfl | ⟨1, _⟩ => rfl

/-- The 128 x 128 matrix transposed reads, at (k, j), the matrix at (j, k). -/
theorem transpose_128x128_apply {α : Type} (perm : List (Fin S128x128.rank)) (h : S128x128.Transposes perm S128x128) (hp : perm = [1, 0])
    (x : S128x128.Idx → α) (k : Fin 128) (j : Fin 128) : transpose S128x128 perm x h (ix2 k j) = x (ix2 j k) := by
  subst hp
  exact transpose_apply _ x _ _ _ fun c => match c with | ⟨0, _⟩ => rfl | ⟨1, _⟩ => rfl

/-- The 64 x 128 matrix transposed reads, at (k, j), the matrix at (j, k). -/
theorem transpose_128x64_apply {α : Type} (perm : List (Fin S64x128.rank)) (h : S64x128.Transposes perm S128x64) (hp : perm = [1, 0])
    (x : S64x128.Idx → α) (k : Fin 128) (j : Fin 64) : transpose S128x64 perm x h (ix2 k j) = x (ix2 j k) := by
  subst hp
  exact transpose_apply _ x _ _ _ fun c => match c with | ⟨0, _⟩ => rfl | ⟨1, _⟩ => rfl

/-- The 32 x 64 matrix transposed reads, at (k, j), the matrix at (j, k). -/
theorem transpose_64x32_apply {α : Type} (perm : List (Fin S32x64.rank)) (h : S32x64.Transposes perm S64x32) (hp : perm = [1, 0])
    (x : S32x64.Idx → α) (k : Fin 64) (j : Fin 32) : transpose S64x32 perm x h (ix2 k j) = x (ix2 j k) := by
  subst hp
  exact transpose_apply _ x _ _ _ fun c => match c with | ⟨0, _⟩ => rfl | ⟨1, _⟩ => rfl

/-- The 1 x 32 matrix transposed reads, at (k, j), the matrix at (j, k). -/
theorem transpose_32x1_apply {α : Type} (perm : List (Fin S1x32.rank)) (h : S1x32.Transposes perm S32x1) (hp : perm = [1, 0])
    (x : S1x32.Idx → α) (k : Fin 32) (j : Fin 1) : transpose S32x1 perm x h (ix2 k j) = x (ix2 j k) := by
  subst hp
  exact transpose_apply _ x _ _ _ fun c => match c with | ⟨0, _⟩ => rfl | ⟨1, _⟩ => rfl

/-! ## The host's operations at an index, on the extended reals -/

/-- The host's reciprocal square root, exponential and negation at an entry, on the extended reals. -/
theorem hostRsqrt_apply {s : Shape} {φ : FTy} (a : FVec Ideal s φ) (i : s.Idx) : Host.rsqrt a i = Ideal.rsqrt (a i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-- The host's column sums of a 100000 x 128 array from the initial value: at column j, the initial value plus the sum of the column. -/
theorem colsum128_apply (x : FVec Ideal S100000x128 .f32) (v : FVec Ideal S_ .f32) (j : Fin 128) :
    Host.reduceAdd (F := Ideal) x v reducesTo_S100000x128_S128_d0 h_S_ (ix1 j) = v (Shape.Idx.first h_S_) + ∑ n : Fin 100000, x (ix2 n j) := by
  rw [hostReduceAdd_apply, Ideal.hostReduceAdd_single reducesTo_S100000x128_S128_d0 (by decide)]
  refine congrArg (_ + ·) (Finset.sum_congr rfl fun k _ => ?_)
  exact congrArg x (funext fun a => Fin.ext (by match a with | ⟨0, _⟩ => rfl | ⟨1, _⟩ => rfl))

/-- The host's column sums of a 100000 x 64 array from the initial value: at column j, the initial value plus the sum of the column. -/
theorem colsum64_apply (x : FVec Ideal S100000x64 .f32) (v : FVec Ideal S_ .f32) (j : Fin 64) :
    Host.reduceAdd (F := Ideal) x v reducesTo_S100000x64_S64_d0 h_S_ (ix1 j) = v (Shape.Idx.first h_S_) + ∑ n : Fin 100000, x (ix2 n j) := by
  rw [hostReduceAdd_apply, Ideal.hostReduceAdd_single reducesTo_S100000x64_S64_d0 (by decide)]
  refine congrArg (_ + ·) (Finset.sum_congr rfl fun k _ => ?_)
  exact congrArg x (funext fun a => Fin.ext (by match a with | ⟨0, _⟩ => rfl | ⟨1, _⟩ => rfl))

/-! ## The matrix products at an index -/

theorem lhs0_16x128 (i : S100000x128.Idx) (q : dot_S100000x16_S16x128_S100000x128_1_0_0_1_n_n.contr.Idx) : (dot_S100000x16_S16x128_S100000x128_1_0_0_1_n_n.lhsIdx i q 0).val = (i 0).val := by
  unfold DotDims.lhsIdx
  rw [dif_neg (show ¬(0 : Fin S100000x16.rank) ∈ dot_S100000x16_S16x128_S100000x128_1_0_0_1_n_n.lhsBatch by decide), dif_pos (show (0 : Fin S100000x16.rank) ∈ dot_S100000x16_S16x128_S100000x128_1_0_0_1_n_n.lhsNonContracting by decide)]
  rfl
theorem lhs1_16x128 (i : S100000x128.Idx) (q : dot_S100000x16_S16x128_S100000x128_1_0_0_1_n_n.contr.Idx) : (dot_S100000x16_S16x128_S100000x128_1_0_0_1_n_n.lhsIdx i q 1).val = (q ⟨0, by decide⟩).val :=
  dot_S100000x16_S16x128_S100000x128_1_0_0_1_n_n.lhsIdx_val_of_single rfl i q
theorem rhs0_16x128 (i : S100000x128.Idx) (q : dot_S100000x16_S16x128_S100000x128_1_0_0_1_n_n.contr.Idx) : (dot_S100000x16_S16x128_S100000x128_1_0_0_1_n_n.rhsIdx i q 0).val = (q ⟨0, by decide⟩).val :=
  dot_S100000x16_S16x128_S100000x128_1_0_0_1_n_n.rhsIdx_val_of_single rfl i q
theorem rhs1_16x128 (i : S100000x128.Idx) (q : dot_S100000x16_S16x128_S100000x128_1_0_0_1_n_n.contr.Idx) : (dot_S100000x16_S16x128_S100000x128_1_0_0_1_n_n.rhsIdx i q 1).val = (i 1).val := by
  unfold DotDims.rhsIdx
  rw [dif_neg (show ¬(1 : Fin S16x128.rank) ∈ dot_S100000x16_S16x128_S100000x128_1_0_0_1_n_n.rhsBatch by decide), dif_pos (show (1 : Fin S16x128.rank) ∈ dot_S100000x16_S16x128_S100000x128_1_0_0_1_n_n.rhsNonContracting by decide)]
  rfl
/-- On the extended reals the 100000 x 16 by 16 x 128 product reads, at (p, q), the sum over k of l (p, k) * r (k, q). -/
theorem dot_16x128_apply (l : FVec Ideal S100000x16 .f32) (r : FVec Ideal S16x128 .f32) (p : Fin 100000) (q : Fin 128) :
    Host.dotGeneral (F := Ideal) dot_S100000x16_S16x128_S100000x128_1_0_0_1_n_n none l r (ix2 p q) = ∑ k : Fin 16, l (ix2 p k) * r (ix2 k q) := by
  simp only [Host.dotGeneral]
  rw [Ideal.dotGeneral_apply, ← Equiv.sum_comp (contrEquiv1 dot_S100000x16_S16x128_S100000x128_1_0_0_1_n_n 16 rfl rfl).symm]
  refine Finset.sum_congr rfl fun k _ => ?_
  have hk := contrEquiv1_symm_val dot_S100000x16_S16x128_S100000x128_1_0_0_1_n_n 16 rfl rfl k
  have el : dot_S100000x16_S16x128_S100000x128_1_0_0_1_n_n.lhsIdx (ix2 p q) ((contrEquiv1 dot_S100000x16_S16x128_S100000x128_1_0_0_1_n_n 16 rfl rfl).symm k) = ix2 p k := funext fun a => Fin.ext (by
    match a with
    | ⟨0, _⟩ => exact lhs0_16x128 _ _
    | ⟨1, _⟩ => exact (lhs1_16x128 _ _).trans hk)
  have er : dot_S100000x16_S16x128_S100000x128_1_0_0_1_n_n.rhsIdx (ix2 p q) ((contrEquiv1 dot_S100000x16_S16x128_S100000x128_1_0_0_1_n_n 16 rfl rfl).symm k) = ix2 k q := funext fun a => Fin.ext (by
    match a with
    | ⟨0, _⟩ => exact (rhs0_16x128 _ _).trans hk
    | ⟨1, _⟩ => exact rhs1_16x128 _ _)
  rw [el, er]

theorem lhs0_128x128 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs1_128x128 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem rhs0_128x128 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem rhs1_128x128 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
/-- On the extended reals the 100000 x 128 by 128 x 128 product reads, at (p, q), the sum over k of l (p, k) * r (k, q). -/
theorem dot_128x128_apply (l : FVec Ideal S100000x128 .f32) (r : FVec Ideal S128x128 .f32) (p : Fin 100000) (q : Fin 128) :
    Host.dotGeneral (F := Ideal) dot_S100000x128_S128x128_S100000x128_1_0_0_1_n_n none l r (ix2 p q) = ∑ k : Fin 128, l (ix2 p k) * r (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact lhs0_128x128 _ _
    | ⟨1, _⟩ => exact (lhs1_128x128 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (rhs0_128x128 _ _).trans hk
    | ⟨1, _⟩ => exact rhs1_128x128 _ _)
  rw [el, er]

theorem lhs0_128x64 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs1_128x64 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem rhs0_128x64 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem rhs1_128x64 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl
/-- On the extended reals the 100000 x 128 by 128 x 64 product reads, at (p, q), the sum over k of l (p, k) * r (k, q). -/
theorem dot_128x64_apply (l : FVec Ideal S100000x128 .f32) (r : FVec Ideal S128x64 .f32) (p : Fin 100000) (q : Fin 64) :
    Host.dotGeneral (F := Ideal) dot_S100000x128_S128x64_S100000x64_1_0_0_1_n_n none l r (ix2 p q) = ∑ k : Fin 128, l (ix2 p k) * r (ix2 k q) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 p q) ((contrEquiv1 dot_S100000x128_S128x64_S100000x64_1_0_0_1_n_n 128 rfl rfl).symm k) = ix2 p k := funext fun a => Fin.ext (by
    match a with
    | ⟨0, _⟩ => exact lhs0_128x64 _ _
    | ⟨1, _⟩ => exact (lhs1_128x64 _ _).trans hk)
  have er : dot_S100000x128_S128x64_S100000x64_1_0_0_1_n_n.rhsIdx (ix2 p q) ((contrEquiv1 dot_S100000x128_S128x64_S100000x64_1_0_0_1_n_n 128 rfl rfl).symm k) = ix2 k q := funext fun a => Fin.ext (by
    match a with
    | ⟨0, _⟩ => exact (rhs0_128x64 _ _).trans hk
    | ⟨1, _⟩ => exact rhs1_128x64 _ _)
  rw [el, er]

theorem lhs0_64x32 (i : S100000x32.Idx) (q : dot_S100000x64_S64x32_S100000x32_1_0_0_1_n_n.contr.Idx) : (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem lhs1_64x32 (i : S100000x32.Idx) (q : dot_S100000x64_S64x32_S100000x32_1_0_0_1_n_n.contr.Idx) : (dot_S100000x64_S64x32_S100000x32_1_0_0_1_n_n.lhsIdx i q 1).val = (q ⟨0, by decide⟩).val :=
  dot_S100000x64_S64x32_S100000x32_1_0_0_1_n_n.lhsIdx_val_of_single rfl i q
theorem rhs0_64x32 (i : S100000x32.Idx) (q : dot_S100000x64_S64x32_S100000x32_1_0_0_1_n_n.contr.Idx) : (dot_S100000x64_S64x32_S100000x32_1_0_0_1_n_n.rhsIdx i q 0).val = (q ⟨0, by decide⟩).val :=
  dot_S100000x64_S64x32_S100000x32_1_0_0_1_n_n.rhsIdx_val_of_single rfl i q
theorem rhs1_64x32 (i : S100000x32.Idx) (q : dot_S100000x64_S64x32_S100000x32_1_0_0_1_n_n.contr.Idx) : (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl
/-- On the extended reals the 100000 x 64 by 64 x 32 product reads, at (p, q), the sum over k of l (p, k) * r (k, q). -/
theorem dot_64x32_apply (l : FVec Ideal S100000x64 .f32) (r : FVec Ideal S64x32 .f32) (p : Fin 100000) (q : Fin 32) :
    Host.dotGeneral (F := Ideal) dot_S100000x64_S64x32_S100000x32_1_0_0_1_n_n none l r (ix2 p q) = ∑ k : Fin 64, l (ix2 p k) * r (ix2 k q) := by
  simp only [Host.dotGeneral]
  rw [Ideal.dotGeneral_apply, ← Equiv.sum_comp (contrEquiv1 dot_S100000x64_S64x32_S100000x32_1_0_0_1_n_n 64 rfl rfl).symm]
  refine Finset.sum_congr rfl fun k _ => ?_
  have hk := contrEquiv1_symm_val dot_S100000x64_S64x32_S100000x32_1_0_0_1_n_n 64 rfl rfl k
  have el : dot_S100000x64_S64x32_S100000x32_1_0_0_1_n_n.lhsIdx (ix2 p q) ((contrEquiv1 dot_S100000x64_S64x32_S100000x32_1_0_0_1_n_n 64 rfl rfl).symm k) = ix2 p k := funext fun a => Fin.ext (by
    match a with
    | ⟨0, _⟩ => exact lhs0_64x32 _ _
    | ⟨1, _⟩ => exact (lhs1_64x32 _ _).trans hk)
  have er : dot_S100000x64_S64x32_S100000x32_1_0_0_1_n_n.rhsIdx (ix2 p q) ((contrEquiv1 dot_S100000x64_S64x32_S100000x32_1_0_0_1_n_n 64 rfl rfl).symm k) = ix2 k q := funext fun a => Fin.ext (by
    match a with
    | ⟨0, _⟩ => exact (rhs0_64x32 _ _).trans hk
    | ⟨1, _⟩ => exact rhs1_64x32 _ _)
  rw [el, er]

theorem lhs0_32x1 (i : S100000x1.Idx) (q : dot_S100000x32_S32x1_S100000x1_1_0_0_1_n_n.contr.Idx) : (dot_S100000x32_S32x1_S100000x1_1_0_0_1_n_n.lhsIdx i q 0).val = (i 0).val := by
  unfold DotDims.lhsIdx
  rw [dif_neg (show ¬(0 : Fin S100000x32.rank) ∈ dot_S100000x32_S32x1_S100000x1_1_0_0_1_n_n.lhsBatch by decide), dif_pos (show (0 : Fin S100000x32.rank) ∈ dot_S100000x32_S32x1_S100000x1_1_0_0_1_n_n.lhsNonContracting by decide)]
  rfl
theorem lhs1_32x1 (i : S100000x1.Idx) (q : dot_S100000x32_S32x1_S100000x1_1_0_0_1_n_n.contr.Idx) : (dot_S100000x32_S32x1_S100000x1_1_0_0_1_n_n.lhsIdx i q 1).val = (q ⟨0, by decide⟩).val :=
  dot_S100000x32_S32x1_S100000x1_1_0_0_1_n_n.lhsIdx_val_of_single rfl i q
theorem rhs0_32x1 (i : S100000x1.Idx) (q : dot_S100000x32_S32x1_S100000x1_1_0_0_1_n_n.contr.Idx) : (dot_S100000x32_S32x1_S100000x1_1_0_0_1_n_n.rhsIdx i q 0).val = (q ⟨0, by decide⟩).val :=
  dot_S100000x32_S32x1_S100000x1_1_0_0_1_n_n.rhsIdx_val_of_single rfl i q
theorem rhs1_32x1 (i : S100000x1.Idx) (q : dot_S100000x32_S32x1_S100000x1_1_0_0_1_n_n.contr.Idx) : (dot_S100000x32_S32x1_S100000x1_1_0_0_1_n_n.rhsIdx i q 1).val = (i 1).val := by
  unfold DotDims.rhsIdx
  rw [dif_neg (show ¬(1 : Fin S32x1.rank) ∈ dot_S100000x32_S32x1_S100000x1_1_0_0_1_n_n.rhsBatch by decide), dif_pos (show (1 : Fin S32x1.rank) ∈ dot_S100000x32_S32x1_S100000x1_1_0_0_1_n_n.rhsNonContracting by decide)]
  rfl
/-- On the extended reals the 100000 x 32 by 32 x 1 product reads, at (p, q), the sum over k of l (p, k) * r (k, q). -/
theorem dot_32x1_apply (l : FVec Ideal S100000x32 .f32) (r : FVec Ideal S32x1 .f32) (p : Fin 100000) (q : Fin 1) :
    Host.dotGeneral (F := Ideal) dot_S100000x32_S32x1_S100000x1_1_0_0_1_n_n none l r (ix2 p q) = ∑ k : Fin 32, l (ix2 p k) * r (ix2 k q) := by
  simp only [Host.dotGeneral]
  rw [Ideal.dotGeneral_apply, ← Equiv.sum_comp (contrEquiv1 dot_S100000x32_S32x1_S100000x1_1_0_0_1_n_n 32 rfl rfl).symm]
  refine Finset.sum_congr rfl fun k _ => ?_
  have hk := contrEquiv1_symm_val dot_S100000x32_S32x1_S100000x1_1_0_0_1_n_n 32 rfl rfl k
  have el : dot_S100000x32_S32x1_S100000x1_1_0_0_1_n_n.lhsIdx (ix2 p q) ((contrEquiv1 dot_S100000x32_S32x1_S100000x1_1_0_0_1_n_n 32 rfl rfl).symm k) = ix2 p k := funext fun a => Fin.ext (by
    match a with
    | ⟨0, _⟩ => exact lhs0_32x1 _ _
    | ⟨1, _⟩ => exact (lhs1_32x1 _ _).trans hk)
  have er : dot_S100000x32_S32x1_S100000x1_1_0_0_1_n_n.rhsIdx (ix2 p q) ((contrEquiv1 dot_S100000x32_S32x1_S100000x1_1_0_0_1_n_n 32 rfl rfl).symm k) = ix2 k q := funext fun a => Fin.ext (by
    match a with
    | ⟨0, _⟩ => exact (rhs0_32x1 _ _).trans hk
    | ⟨1, _⟩ => exact rhs1_32x1 _ _)
  rw [el, er]

/-! ## The stages at an index -/

/-- The linear map of a layer at row r, column j: (Σ_k agg (r, k) · Wl (j, k) + bl j) + Σ_k h (r, k) · Wr (j, k). -/
theorem stage_lin0_apply (agg : FVec Ideal S100000x16 .f32) (Wl : FVec Ideal S128x16 .f32) (bl : FVec Ideal S128 .f32)
    (h : FVec Ideal S100000x16 .f32) (Wr : FVec Ideal S128x16 .f32) (r : Fin 100000) (j : Fin 128) :
    stage_lin0 (F := Ideal) agg Wl bl h Wr (ix2 r j)
      = ((∑ k : Fin 16, agg (ix2 r k) * Wl (ix2 j k)) + bl (ix1 j)) + ∑ k : Fin 16, h (ix2 r k) * Wr (ix2 j k) := by
  unfold stage_lin0
  beta_reduce
  simp (disch := rfl) only [addf_apply, dot_16x128_apply, bcast_rows128_apply, bcast_asrow128_apply, transpose_16x128_apply]

/-- The linear map of a layer at row r, column j: (Σ_k agg (r, k) · Wl (j, k) + bl j) + Σ_k h (r, k) · Wr (j, k). -/
theorem stage_lin1_apply (agg : FVec Ideal S100000x128 .f32) (Wl : FVec Ideal S128x128 .f32) (bl : FVec Ideal S128 .f32)
    (h : FVec Ideal S100000x128 .f32) (Wr : FVec Ideal S128x128 .f32) (r : Fin 100000) (j : Fin 128) :
    stage_lin1 (F := Ideal) agg Wl bl h Wr (ix2 r j)
      = ((∑ k : Fin 128, agg (ix2 r k) * Wl (ix2 j k)) + bl (ix1 j)) + ∑ k : Fin 128, h (ix2 r k) * Wr (ix2 j k) := by
  unfold stage_lin1
  beta_reduce
  simp (disch := rfl) only [addf_apply, dot_128x128_apply, bcast_rows128_apply, bcast_asrow128_apply, transpose_128x128_apply]

/-- The linear map of a layer at row r, column j: (Σ_k agg (r, k) · Wl (j, k) + bl j) + Σ_k h (r, k) · Wr (j, k). -/
theorem stage_lin2_apply (agg : FVec Ideal S100000x128 .f32) (Wl : FVec Ideal S64x128 .f32) (bl : FVec Ideal S64 .f32)
    (h : FVec Ideal S100000x128 .f32) (Wr : FVec Ideal S64x128 .f32) (r : Fin 100000) (j : Fin 64) :
    stage_lin2 (F := Ideal) agg Wl bl h Wr (ix2 r j)
      = ((∑ k : Fin 128, agg (ix2 r k) * Wl (ix2 j k)) + bl (ix1 j)) + ∑ k : Fin 128, h (ix2 r k) * Wr (ix2 j k) := by
  unfold stage_lin2
  beta_reduce
  simp (disch := rfl) only [addf_apply, dot_128x64_apply, bcast_rows64_apply, bcast_asrow64_apply, transpose_128x64_apply]

/-- The column mean at column j: (0 + Σ_n h (n, j)) / 100000. -/
theorem stage_mean128_apply (h : FVec Ideal S100000x128 .f32) (j : Fin 128) :
    stage_mean128 (F := Ideal) h (ix1 j) = Ideal.div (0 + ∑ n : Fin 100000, h (ix2 n j)) ((100000 : ℝ) : EReal) := by
  unfold stage_mean128
  beta_reduce
  simp (disch := rfl) only [hostDivf_apply, colsum128_apply, bcast_scalar_apply, constant_apply, Ideal.ofBits_zero_f32,
    Cert.Bn100000.ofBits_100000]

/-- Normalisation with rectifier of a layer, fed its own column means and variances, at (r, j): the normalised entry
    of column j at row r, with the scale g j, the shift b j and the small constant the program adds to the variance. -/
theorem stage_bnrelu128_apply (h : FVec Ideal S100000x128 .f32) (g b : FVec Ideal S128 .f32) (r : Fin 100000) (j : Fin 128) :
    stage_bnrelu128 (F := Ideal) h (stage_mean128 h) (stage_var128 h) g b (ix2 r j)
      = Cert.Bn100000.normAt (fun n c => h (ix2 n c)) (fun c => g (ix1 c)) (fun c => b (ix1 c))
          (Ideal.ofBits .f32 0x3727C5AC#32) r j := by
  unfold stage_bnrelu128 stage_mean128 stage_var128
  beta_reduce
  simp (disch := rfl) only [maximumf_apply, addf_apply, mulf_apply, subf_apply, hostDivf_apply, hostRsqrt_apply, hostExp_apply, hostNegf_apply,
    bcast_scalar_apply, constant_apply, constantI_apply, select_apply, cmpf_apply, sitofp_apply, id_eq, colsum128_apply, bcast_rows128_apply, bcast_asrow128_apply]
  exact Cert.Bn100000.reference_eq_normAt (fun n c => h (ix2 n c)) (fun c => g (ix1 c)) (fun c => b (ix1 c))
    (Ideal.ofBits .f32 0x00000000#32) (Ideal.ofBits .f32 0x00000000#32) (Ideal.ofBits .f32 0x00000000#32)
    (Ideal.ofBits .f32 0x00000000#32) (Ideal.ofBits .f32 0x00000000#32) (Ideal.ofBits .f32 0x47C35000#32)
    (Ideal.ofBits .f32 0x47C35000#32)
    (FloatOps.subf (F := Ideal) (φ := .f32) (Ideal.ofBits .f32 0x47C35000#32) (FloatOps.sitofp .f32 (0#32 : BitVec 32)))
    (Ideal.ofBits .f32 0x7FC00000#32) (Ideal.ofBits .f32 0x3727C5AC#32)
    Ideal.ofBits_zero_f32 Ideal.ofBits_zero_f32 Ideal.ofBits_zero_f32 Ideal.ofBits_zero_f32 Ideal.ofBits_zero_f32
    Cert.Bn100000.ofBits_100000 Cert.Bn100000.ofBits_100000 Cert.Bn100000.count_sub_zero r j

/-- The column mean at column j: (0 + Σ_n h (n, j)) / 100000. -/
theorem stage_mean64_apply (h : FVec Ideal S100000x64 .f32) (j : Fin 64) :
    stage_mean64 (F := Ideal) h (ix1 j) = Ideal.div (0 + ∑ n : Fin 100000, h (ix2 n j)) ((100000 : ℝ) : EReal) := by
  unfold stage_mean64
  beta_reduce
  simp (disch := rfl) only [hostDivf_apply, colsum64_apply, bcast_scalar_apply, constant_apply, Ideal.ofBits_zero_f32,
    Cert.Bn100000.ofBits_100000]

/-- Normalisation with rectifier of a layer, fed its own column means and variances, at (r, j): the normalised entry
    of column j at row r, with the scale g j, the shift b j and the small constant the program adds to the variance. -/
theorem stage_bnrelu64_apply (h : FVec Ideal S100000x64 .f32) (g b : FVec Ideal S64 .f32) (r : Fin 100000) (j : Fin 64) :
    stage_bnrelu64 (F := Ideal) h (stage_mean64 h) (stage_var64 h) g b (ix2 r j)
      = Cert.Bn100000.normAt (fun n c => h (ix2 n c)) (fun c => g (ix1 c)) (fun c => b (ix1 c))
          (Ideal.ofBits .f32 0x3727C5AC#32) r j := by
  unfold stage_bnrelu64 stage_mean64 stage_var64
  beta_reduce
  simp (disch := rfl) only [maximumf_apply, addf_apply, mulf_apply, subf_apply, hostDivf_apply, hostRsqrt_apply, hostExp_apply, hostNegf_apply,
    bcast_scalar_apply, constant_apply, constantI_apply, select_apply, cmpf_apply, sitofp_apply, id_eq, colsum64_apply, bcast_rows64_apply, bcast_asrow64_apply]
  exact Cert.Bn100000.reference_eq_normAt (fun n c => h (ix2 n c)) (fun c => g (ix1 c)) (fun c => b (ix1 c))
    (Ideal.ofBits .f32 0x00000000#32) (Ideal.ofBits .f32 0x00000000#32) (Ideal.ofBits .f32 0x00000000#32)
    (Ideal.ofBits .f32 0x00000000#32) (Ideal.ofBits .f32 0x00000000#32) (Ideal.ofBits .f32 0x47C35000#32)
    (Ideal.ofBits .f32 0x47C35000#32)
    (FloatOps.subf (F := Ideal) (φ := .f32) (Ideal.ofBits .f32 0x47C35000#32) (FloatOps.sitofp .f32 (0#32 : BitVec 32)))
    (Ideal.ofBits .f32 0x7FC00000#32) (Ideal.ofBits .f32 0x3727C5AC#32)
    Ideal.ofBits_zero_f32 Ideal.ofBits_zero_f32 Ideal.ofBits_zero_f32 Ideal.ofBits_zero_f32 Ideal.ofBits_zero_f32
    Cert.Bn100000.ofBits_100000 Cert.Bn100000.ofBits_100000 Cert.Bn100000.count_sub_zero r j

/-- The mean aggregate at (r, k): the segment sum there divided by max (in-degree of r, 1). -/
theorem stage_div16_apply (s : FVec Ideal S100000x16 .f32) (cnt : FVec Ideal S100000 .f32) (r : Fin 100000) (k : Fin 16) :
    stage_div16 (F := Ideal) s cnt (ix2 r k) = Ideal.div (s (ix2 r k)) (max (cnt (ix1 r)) 1) := by
  unfold stage_div16
  beta_reduce
  simp (disch := rfl) only [hostDivf_apply, maximumf_apply, bcast_cols16_apply, bcast_ascol_apply, bcast_scalar_apply,
    constant_apply, Ideal.ofBits_one_f32]

/-- The mean aggregate at (r, k): the segment sum there divided by max (in-degree of r, 1). -/
theorem stage_div128_apply (s : FVec Ideal S100000x128 .f32) (cnt : FVec Ideal S100000 .f32) (r : Fin 100000) (k : Fin 128) :
    stage_div128 (F := Ideal) s cnt (ix2 r k) = Ideal.div (s (ix2 r k)) (max (cnt (ix1 r)) 1) := by
  unfold stage_div128
  beta_reduce
  simp (disch := rfl) only [hostDivf_apply, maximumf_apply, bcast_cols128_apply, bcast_ascol_apply, bcast_scalar_apply,
    constant_apply, Ideal.ofBits_one_f32]

/-- The classifier's hidden layer at (r, k): max (Σ_c h (r, c) · Wc1 (k, c) + bc1 k, 0). -/
theorem stage_cls1_apply (h : FVec Ideal S100000x64 .f32) (W : FVec Ideal S32x64 .f32) (b : FVec Ideal S32 .f32)
    (r : Fin 100000) (k : Fin 32) :
    stage_cls1 (F := Ideal) h W b (ix2 r k) = max ((∑ c : Fin 64, h (ix2 r c) * W (ix2 k c)) + b (ix1 k)) 0 := by
  unfold stage_cls1
  beta_reduce
  simp (disch := rfl) only [maximumf_apply, addf_apply, dot_64x32_apply, bcast_rows32_apply, bcast_asrow32_apply,
    transpose_64x32_apply, bcast_scalar_apply, constant_apply, Ideal.ofBits_zero_f32]

/-- The classifier's output at row r: 1 / (1 + exp (−(Σ_k h (r, k) · Wc2 (0, k) + bc2 0))). -/
theorem stage_cls2_apply (h : FVec Ideal S100000x32 .f32) (W : FVec Ideal S1x32 .f32) (b : FVec Ideal S1 .f32) (r : Fin 100000) :
    stage_cls2 (F := Ideal) h W b (ix2 r (0 : Fin 1))
      = Ideal.div 1 (1 + Ideal.exp (-((∑ k : Fin 32, h (ix2 r k) * W (ix2 (0 : Fin 1) k)) + b (ix1 (0 : Fin 1))))) := by
  unfold stage_cls2
  beta_reduce
  simp (disch := rfl) only [hostDivf_apply, addf_apply, hostExp_apply, hostNegf_apply, dot_32x1_apply, bcast_rows1_apply,
    bcast_asrow1_apply, transpose_32x1_apply, bcast_scalar_apply, constant_apply, Ideal.ofBits_one_f32]

/-- The same as the logistic function of the row's score. -/
theorem stage_cls2_apply_logistic (h : FVec Ideal S100000x32 .f32) (W : FVec Ideal S1x32 .f32) (b : FVec Ideal S1 .f32)
    (r : Fin 100000) :
    stage_cls2 (F := Ideal) h W b (ix2 r (0 : Fin 1))
      = Ideal.logistic ((∑ k : Fin 32, h (ix2 r k) * W (ix2 (0 : Fin 1) k)) + b (ix1 (0 : Fin 1))) :=
  (stage_cls2_apply h W b r).trans (Cert.Sigmoid.logistic_eq _).symm

end Cert.ReferenceIdeal.Hand

end
-- ==== Proof.Join.Stages.lean ====
/- The two programs' stages against each other at an index: a layer's linear part (weights transposed and bias as a
   row on one side, the contraction with the untransposed weights on the other), the normalisation regions against
   the normalisation stage, and the classifier; and the realness each needs of the one before. -/
import proofs.«121727_j57028575756303_1_alg».proof.Proof.Join.BnKernel
import proofs.«121727_j57028575756303_1_alg».proof.Proof.KI.Classifier6Value
import proofs.«121727_j57028575756303_1_alg».proof.Proof.StagesEq
import proofs.«121727_j57028575756303_1_alg».proof.Proof.RefRun.Read

noncomputable section

open scoped BigOperators

namespace Cert.Proof.Join

open Cert.KernelIdeal Cert.KernelIdeal.Gen Cert.KernelIdeal.Hand
open Idealize.ShloMosaic Idealize.ShloMosaic.ValueIdx Cert.Bn100000

/-! ## The linear parts -/

/-- Layer 0's linear part at (r, j): with the weights transposed and the bias as a row, the first program's sum is
    the second program's linear stage. -/
theorem lin0_join (agg x : S100000x16.Idx → Ideal .f32) (Wl Wr : S128x16.Idx → Ideal .f32) (bl : S128.Idx → Ideal .f32)
    (r : Fin 100000) (j : Fin 128) :
    ((∑ k : Fin 16, agg (ix2 r k) * transpose S16x128 [1, 0] Wl transposes_S128x16_S16x128_1_0 (ix2 k j))
        + shapeCast S1x128 bl shapeCasts_S128_S1x128 (ix2 (0 : Fin 1) j))
      + ∑ k : Fin 16, x (ix2 r k) * transpose S16x128 [1, 0] Wr transposes_S128x16_S16x128_1_0 (ix2 k j)
    = Cert.ReferenceIdeal.Hand.stage_lin0 (F := Ideal) agg Wl bl x Wr (ix2 r j) := by
  rw [Cert.ReferenceIdeal.Hand.stage_lin0_apply]
  simp (disch := rfl) only [Cert.ReferenceIdeal.Hand.transpose_16x128_apply, shapeCast_a_1a_apply]

/-- Layer 0's linear part of real operands is real. -/
theorem lin0_real (agg x : S100000x16.Idx → Ideal .f32) (Wl Wr : S128x16.Idx → Ideal .f32) (bl : S128.Idx → Ideal .f32)
    (hagg : ∀ i, ∃ v : ℝ, agg i = (v : EReal)) (hx : ∀ i, ∃ v : ℝ, x i = (v : EReal))
    (hWl : ∀ i, ∃ v : ℝ, Wl i = (v : EReal)) (hWr : ∀ i, ∃ v : ℝ, Wr i = (v : EReal)) (hbl : ∀ i, ∃ v : ℝ, bl i = (v : EReal))
    (r : Fin 100000) (j : Fin 128) :
    ∃ v : ℝ, ((∑ k : Fin 16, agg (ix2 r k) * transpose S16x128 [1, 0] Wl transposes_S128x16_S16x128_1_0 (ix2 k j))
        + shapeCast S1x128 bl shapeCasts_S128_S1x128 (ix2 (0 : Fin 1) j))
      + ∑ k : Fin 16, x (ix2 r k) * transpose S16x128 [1, 0] Wr transposes_S128x16_S16x128_1_0 (ix2 k j) = (v : EReal) := by
  simp (disch := rfl) only [Cert.ReferenceIdeal.Hand.transpose_16x128_apply, shapeCast_a_1a_apply]
  have hc := isReal_combine (fun r k => agg (ix2 r k)) (fun r k => x (ix2 r k)) (fun j k => Wl (ix2 j k)) (fun j k => Wr (ix2 j k))
    (fun j => bl (ix1 j)) (fun _ _ => hagg _) (fun _ _ => hx _) (fun _ _ => hWl _) (fun _ _ => hWr _) (fun _ => hbl _) r j
  unfold combine at hc
  exact hc

/-- Layer 1's linear part at (r, j): with the weights transposed and the bias as a row, the first program's sum is
    the second program's linear stage. -/
theorem lin1_join (agg x : S100000x128.Idx → Ideal .f32) (Wl Wr : S128x128.Idx → Ideal .f32) (bl : S128.Idx → Ideal .f32)
    (r : Fin 100000) (j : Fin 128) :
    ((∑ k : Fin 128, agg (ix2 r k) * transpose S128x128 [1, 0] Wl transposes_S128x128_S128x128_1_0 (ix2 k j))
        + shapeCast S1x128 bl shapeCasts_S128_S1x128 (ix2 (0 : Fin 1) j))
      + ∑ k : Fin 128, x (ix2 r k) * transpose S128x128 [1, 0] Wr transposes_S128x128_S128x128_1_0 (ix2 k j)
    = Cert.ReferenceIdeal.Hand.stage_lin1 (F := Ideal) agg Wl bl x Wr (ix2 r j) := by
  rw [Cert.ReferenceIdeal.Hand.stage_lin1_apply]
  simp (disch := rfl) only [Cert.ReferenceIdeal.Hand.transpose_128x128_apply, shapeCast_a_1a_apply]

/-- Layer 1's linear part of real operands is real. -/
theorem lin1_real (agg x : S100000x128.Idx → Ideal .f32) (Wl Wr : S128x128.Idx → Ideal .f32) (bl : S128.Idx → Ideal .f32)
    (hagg : ∀ i, ∃ v : ℝ, agg i = (v : EReal)) (hx : ∀ i, ∃ v : ℝ, x i = (v : EReal))
    (hWl : ∀ i, ∃ v : ℝ, Wl i = (v : EReal)) (hWr : ∀ i, ∃ v : ℝ, Wr i = (v : EReal)) (hbl : ∀ i, ∃ v : ℝ, bl i = (v : EReal))
    (r : Fin 100000) (j : Fin 128) :
    ∃ v : ℝ, ((∑ k : Fin 128, agg (ix2 r k) * transpose S128x128 [1, 0] Wl transposes_S128x128_S128x128_1_0 (ix2 k j))
        + shapeCast S1x128 bl shapeCasts_S128_S1x128 (ix2 (0 : Fin 1) j))
      + ∑ k : Fin 128, x (ix2 r k) * transpose S128x128 [1, 0] Wr transposes_S128x128_S128x128_1_0 (ix2 k j) = (v : EReal) := by
  simp (disch := rfl) only [Cert.ReferenceIdeal.Hand.transpose_128x128_apply, shapeCast_a_1a_apply]
  have hc := isReal_combine (fun r k => agg (ix2 r k)) (fun r k => x (ix2 r k)) (fun j k => Wl (ix2 j k)) (fun j k => Wr (ix2 j k))
    (fun j => bl (ix1 j)) (fun _ _ => hagg _) (fun _ _ => hx _) (fun _ _ => hWl _) (fun _ _ => hWr _) (fun _ => hbl _) r j
  unfold combine at hc
  exact hc

/-- Layer 2's linear part at (r, j): with the weights transposed and the bias as a row, the first program's sum is
    the second program's linear stage. -/
theorem lin2_join (agg x : S100000x128.Idx → Ideal .f32) (Wl Wr : S64x128.Idx → Ideal .f32) (bl : S64.Idx → Ideal .f32)
    (r : Fin 100000) (j : Fin 64) :
    ((∑ k : Fin 128, agg (ix2 r k) * transpose S128x64 [1, 0] Wl transposes_S64x128_S128x64_1_0 (ix2 k j))
        + shapeCast S1x64 bl shapeCasts_S64_S1x64 (ix2 (0 : Fin 1) j))
      + ∑ k : Fin 128, x (ix2 r k) * transpose S128x64 [1, 0] Wr transposes_S64x128_S128x64_1_0 (ix2 k j)
    = Cert.ReferenceIdeal.Hand.stage_lin2 (F := Ideal) agg Wl bl x Wr (ix2 r j) := by
  rw [Cert.ReferenceIdeal.Hand.stage_lin2_apply]
  simp (disch := rfl) only [Cert.ReferenceIdeal.Hand.transpose_128x64_apply, shapeCast_a_1a_apply]

/-- Layer 2's linear part of real operands is real. -/
theorem lin2_real (agg x : S100000x128.Idx → Ideal .f32) (Wl Wr : S64x128.Idx → Ideal .f32) (bl : S64.Idx → Ideal .f32)
    (hagg : ∀ i, ∃ v : ℝ, agg i = (v : EReal)) (hx : ∀ i, ∃ v : ℝ, x i = (v : EReal))
    (hWl : ∀ i, ∃ v : ℝ, Wl i = (v : EReal)) (hWr : ∀ i, ∃ v : ℝ, Wr i = (v : EReal)) (hbl : ∀ i, ∃ v : ℝ, bl i = (v : EReal))
    (r : Fin 100000) (j : Fin 64) :
    ∃ v : ℝ, ((∑ k : Fin 128, agg (ix2 r k) * transpose S128x64 [1, 0] Wl transposes_S64x128_S128x64_1_0 (ix2 k j))
        + shapeCast S1x64 bl shapeCasts_S64_S1x64 (ix2 (0 : Fin 1) j))
      + ∑ k : Fin 128, x (ix2 r k) * transpose S128x64 [1, 0] Wr transposes_S64x128_S128x64_1_0 (ix2 k j) = (v : EReal) := by
  simp (disch := rfl) only [Cert.ReferenceIdeal.Hand.transpose_128x64_apply, shapeCast_a_1a_apply]
  have hc := isReal_combine (fun r k => agg (ix2 r k)) (fun r k => x (ix2 r k)) (fun j k => Wl (ix2 j k)) (fun j k => Wr (ix2 j k))
    (fun j => bl (ix1 j)) (fun _ _ => hagg _) (fun _ _ => hx _) (fun _ _ => hWl _) (fun _ _ => hWr _) (fun _ => hbl _) r j
  unfold combine at hc
  exact hc

/-! ## The normalisations -/

/-- Region 1 against the second program's normalisation stage, at (r, j), for a real array with its column sums. -/
theorem bn1_join (lin : S100000x128.Idx → Ideal .f32) (hlin : ∀ i, ∃ v : ℝ, lin i = (v : EReal))
    (S Q : S1x128.Idx → Ideal .f32) (g b : S128.Idx → Ideal .f32)
    (hS : ∀ j : Fin 128, S (ix2 (0 : Fin 1) j) = ∑ n : Fin 100000, lin (ix2 n j))
    (hQ : ∀ j : Fin 128, Q (ix2 (0 : Fin 1) j) = ∑ n : Fin 100000, lin (ix2 n j) * lin (ix2 n j))
    (r : Fin 100000) (j : Fin 128) :
    bnRelu1 (F := Ideal) lin (shapeCast S1x128 g shapeCasts_S128_S1x128) (shapeCast S1x128 b shapeCasts_S128_S1x128)
        (meanStage S1x128 bcast_S_S1x128 S) (varStage S1x128 bcast_S_S1x128 S Q) (ix2 r j)
      = Cert.ReferenceIdeal.Hand.stage_bnrelu128 (F := Ideal) lin (Cert.ReferenceIdeal.Hand.stage_mean128 lin) (Cert.ReferenceIdeal.Hand.stage_var128 lin) g b (ix2 r j) :=
  (bnRelu1_eq_normAt lin hlin S Q g b hS hQ r j).trans (Cert.ReferenceIdeal.Hand.stage_bnrelu128_apply lin g b r j).symm

/-- Region 1's output of a real array with real scale and shift is real. -/
theorem bn1_real (lin : S100000x128.Idx → Ideal .f32) (hlin : ∀ i, ∃ v : ℝ, lin i = (v : EReal))
    (S Q : S1x128.Idx → Ideal .f32) (g b : S128.Idx → Ideal .f32) (hg : ∀ i, ∃ v : ℝ, g i = (v : EReal)) (hb : ∀ i, ∃ v : ℝ, b i = (v : EReal))
    (hS : ∀ j : Fin 128, S (ix2 (0 : Fin 1) j) = ∑ n : Fin 100000, lin (ix2 n j))
    (hQ : ∀ j : Fin 128, Q (ix2 (0 : Fin 1) j) = ∑ n : Fin 100000, lin (ix2 n j) * lin (ix2 n j))
    (r : Fin 100000) (j : Fin 128) :
    ∃ v : ℝ, bnRelu1 (F := Ideal) lin (shapeCast S1x128 g shapeCasts_S128_S1x128) (shapeCast S1x128 b shapeCasts_S128_S1x128)
        (meanStage S1x128 bcast_S_S1x128 S) (varStage S1x128 bcast_S_S1x128 S Q) (ix2 r j) = (v : EReal) := by
  rw [bnRelu1_eq_normAt lin hlin S Q g b hS hQ r j]
  exact isReal_normAt_eps _ (fun _ _ => hlin _) _ _ (fun _ => hg _) (fun _ => hb _) r j

/-- Region 3 against the second program's normalisation stage, at (r, j), for a real array with its column sums. -/
theorem bn3_join (lin : S100000x128.Idx → Ideal .f32) (hlin : ∀ i, ∃ v : ℝ, lin i = (v : EReal))
    (S Q : S1x128.Idx → Ideal .f32) (g b : S128.Idx → Ideal .f32)
    (hS : ∀ j : Fin 128, S (ix2 (0 : Fin 1) j) = ∑ n : Fin 100000, lin (ix2 n j))
    (hQ : ∀ j : Fin 128, Q (ix2 (0 : Fin 1) j) = ∑ n : Fin 100000, lin (ix2 n j) * lin (ix2 n j))
    (r : Fin 100000) (j : Fin 128) :
    bnRelu3 (F := Ideal) lin (shapeCast S1x128 g shapeCasts_S128_S1x128) (shapeCast S1x128 b shapeCasts_S128_S1x128)
        (meanStage S1x128 bcast_S_S1x128 S) (varStage S1x128 bcast_S_S1x128 S Q) (ix2 r j)
      = Cert.ReferenceIdeal.Hand.stage_bnrelu128 (F := Ideal) lin (Cert.ReferenceIdeal.Hand.stage_mean128 lin) (Cert.ReferenceIdeal.Hand.stage_var128 lin) g b (ix2 r j) :=
  (bnRelu3_eq_normAt lin hlin S Q g b hS hQ r j).trans (Cert.ReferenceIdeal.Hand.stage_bnrelu128_apply lin g b r j).symm

/-- Region 3's output of a real array with real scale and shift is real. -/
theorem bn3_real (lin : S100000x128.Idx → Ideal .f32) (hlin : ∀ i, ∃ v : ℝ, lin i = (v : EReal))
    (S Q : S1x128.Idx → Ideal .f32) (g b : S128.Idx → Ideal .f32) (hg : ∀ i, ∃ v : ℝ, g i = (v : EReal)) (hb : ∀ i, ∃ v : ℝ, b i = (v : EReal))
    (hS : ∀ j : Fin 128, S (ix2 (0 : Fin 1) j) = ∑ n : Fin 100000, lin (ix2 n j))
    (hQ : ∀ j : Fin 128, Q (ix2 (0 : Fin 1) j) = ∑ n : Fin 100000, lin (ix2 n j) * lin (ix2 n j))
    (r : Fin 100000) (j : Fin 128) :
    ∃ v : ℝ, bnRelu3 (F := Ideal) lin (shapeCast S1x128 g shapeCasts_S128_S1x128) (shapeCast S1x128 b shapeCasts_S128_S1x128)
        (meanStage S1x128 bcast_S_S1x128 S) (varStage S1x128 bcast_S_S1x128 S Q) (ix2 r j) = (v : EReal) := by
  rw [bnRelu3_eq_normAt lin hlin S Q g b hS hQ r j]
  exact isReal_normAt_eps _ (fun _ _ => hlin _) _ _ (fun _ => hg _) (fun _ => hb _) r j

/-- Region 5 against the second program's normalisation stage, at (r, j), for a real array with its column sums. -/
theorem bn5_join (lin : S100000x64.Idx → Ideal .f32) (hlin : ∀ i, ∃ v : ℝ, lin i = (v : EReal))
    (S Q : S1x64.Idx → Ideal .f32) (g b : S64.Idx → Ideal .f32)
    (hS : ∀ j : Fin 64, S (ix2 (0 : Fin 1) j) = ∑ n : Fin 100000, lin (ix2 n j))
    (hQ : ∀ j : Fin 64, Q (ix2 (0 : Fin 1) j) = ∑ n : Fin 100000, lin (ix2 n j) * lin (ix2 n j))
    (r : Fin 100000) (j : Fin 64) :
    bnRelu5 (F := Ideal) lin (shapeCast S1x64 g shapeCasts_S64_S1x64) (shapeCast S1x64 b shapeCasts_S64_S1x64)
        (meanStage S1x64 bcast_S_S1x64 S) (varStage S1x64 bcast_S_S1x64 S Q) (ix2 r j)
      = Cert.ReferenceIdeal.Hand.stage_bnrelu64 (F := Ideal) lin (Cert.ReferenceIdeal.Hand.stage_mean64 lin) (Cert.ReferenceIdeal.Hand.stage_var64 lin) g b (ix2 r j) :=
  (bnRelu5_eq_normAt lin hlin S Q g b hS hQ r j).trans (Cert.ReferenceIdeal.Hand.stage_bnrelu64_apply lin g b r j).symm

/-- Region 5's output of a real array with real scale and shift is real. -/
theorem bn5_real (lin : S100000x64.Idx → Ideal .f32) (hlin : ∀ i, ∃ v : ℝ, lin i = (v : EReal))
    (S Q : S1x64.Idx → Ideal .f32) (g b : S64.Idx → Ideal .f32) (hg : ∀ i, ∃ v : ℝ, g i = (v : EReal)) (hb : ∀ i, ∃ v : ℝ, b i = (v : EReal))
    (hS : ∀ j : Fin 64, S (ix2 (0 : Fin 1) j) = ∑ n : Fin 100000, lin (ix2 n j))
    (hQ : ∀ j : Fin 64, Q (ix2 (0 : Fin 1) j) = ∑ n : Fin 100000, lin (ix2 n j) * lin (ix2 n j))
    (r : Fin 100000) (j : Fin 64) :
    ∃ v : ℝ, bnRelu5 (F := Ideal) lin (shapeCast S1x64 g shapeCasts_S64_S1x64) (shapeCast S1x64 b shapeCasts_S64_S1x64)
        (meanStage S1x64 bcast_S_S1x64 S) (varStage S1x64 bcast_S_S1x64 S Q) (ix2 r j) = (v : EReal) := by
  rw [bnRelu5_eq_normAt lin hlin S Q g b hS hQ r j]
  exact isReal_normAt_eps _ (fun _ _ => hlin _) _ _ (fun _ => hg _) (fun _ => hb _) r j

/-! ## The classifier -/

/-- The classifier's output at row r: the first program's logistic function of its two affine maps, with the weights
    transposed and the biases as rows, is the second program's two classifier stages. -/
theorem cls_join (H : S100000x64.Idx → Ideal .f32) (W1 : S32x64.Idx → Ideal .f32) (B1 : S32.Idx → Ideal .f32)
    (W2 : S1x32.Idx → Ideal .f32) (B2 : S1.Idx → Ideal .f32) (r : Fin 100000) :
    cls6 H (transpose S64x32 [1, 0] W1 transposes_S32x64_S64x32_1_0) (shapeCast S1x32 B1 shapeCasts_S32_S1x32)
        (transpose S32x1 [1, 0] W2 transposes_S1x32_S32x1_1_0) (shapeCast S1x1 B2 shapeCasts_S1_S1x1) (ix2 r (0 : Fin 1))
      = Cert.ReferenceIdeal.Hand.stage_cls2 (F := Ideal) (Cert.ReferenceIdeal.Hand.stage_cls1 (F := Ideal) H W1 B1) W2 B2 (ix2 r (0 : Fin 1)) := by
  rw [Cert.ReferenceIdeal.Hand.stage_cls2_apply_logistic]
  simp only [Cert.ReferenceIdeal.Hand.stage_cls1_apply]
  unfold cls6
  simp (disch := rfl) only [Cert.ReferenceIdeal.Hand.transpose_64x32_apply, Cert.ReferenceIdeal.Hand.transpose_32x1_apply, shapeCast_a_1a_apply]

end Cert.Proof.Join

end
-- ==== Proof.Join.Final.lean ====
/- The join: the first program's result, as a function of the launch contents of its arguments, is the second
   program's, when the two launch contents agree on the twenty-one arguments and the twenty floating-point ones hold
   only real numbers. Layer by layer: the edges' sources, destinations and the in-degree are the same functions of the
   edge table; a layer's mean aggregate is the same function of equal inputs; its linear part is the same sum with the
   weights transposed on one side; its normalisation agrees on real columns (the variance law) and gives reals again;
   the classifier's logistic function is the quotient the second program computes. -/
import proofs.«121727_j57028575756303_1_alg».proof.Proof.Join.Kernel
import proofs.«121727_j57028575756303_1_alg».proof.Proof.Join.Stages

noncomputable section

open scoped BigOperators

namespace Cert.Proof.Join

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Cert.RealSums

variable (U : Valuation Cert.KernelIdeal.τ Cert.KernelIdeal.sig (Elt Ideal))
  (U' : Valuation Cert.ReferenceIdeal.τ Cert.ReferenceIdeal.sig (Elt Ideal))

/-- The two launch contents agree on the twenty-one arguments. -/
structure Agree : Prop where
  a0 : (U' (Proc.devRef .tc Cert.ReferenceIdeal.main_arg0)) = (U (Proc.devRef .tc Cert.KernelIdeal.main_arg0))
  a1 : (U' (Proc.devRef .tc Cert.ReferenceIdeal.main_arg1)) = (U (Proc.devRef .tc Cert.KernelIdeal.main_arg1))
  a2 : (U' (Proc.devRef .tc Cert.ReferenceIdeal.main_arg2)) = (U (Proc.devRef .tc Cert.KernelIdeal.main_arg2))
  a3 : (U' (Proc.devRef .tc Cert.ReferenceIdeal.main_arg3)) = (U (Proc.devRef .tc Cert.KernelIdeal.main_arg3))
  a4 : (U' (Proc.devRef .tc Cert.ReferenceIdeal.main_arg4)) = (U (Proc.devRef .tc Cert.KernelIdeal.main_arg4))
  a5 : (U' (Proc.devRef .tc Cert.ReferenceIdeal.main_arg5)) = (U (Proc.devRef .tc Cert.KernelIdeal.main_arg5))
  a6 : (U' (Proc.devRef .tc Cert.ReferenceIdeal.main_arg6)) = (U (Proc.devRef .tc Cert.KernelIdeal.main_arg6))
  a7 : (U' (Proc.devRef .tc Cert.ReferenceIdeal.main_arg7)) = (U (Proc.devRef .tc Cert.KernelIdeal.main_arg7))
  a8 : (U' (Proc.devRef .tc Cert.ReferenceIdeal.main_arg8)) = (U (Proc.devRef .tc Cert.KernelIdeal.main_arg8))
  a9 : (U' (Proc.devRef .tc Cert.ReferenceIdeal.main_arg9)) = (U (Proc.devRef .tc Cert.KernelIdeal.main_arg9))
  a10 : (U' (Proc.devRef .tc Cert.ReferenceIdeal.main_arg10)) = (U (Proc.devRef .tc Cert.KernelIdeal.main_arg10))
  a11 : (U' (Proc.devRef .tc Cert.ReferenceIdeal.main_arg11)) = (U (Proc.devRef .tc Cert.KernelIdeal.main_arg11))
  a12 : (U' (Proc.devRef .tc Cert.ReferenceIdeal.main_arg12)) = (U (Proc.devRef .tc Cert.KernelIdeal.main_arg12))
  a13 : (U' (Proc.devRef .tc Cert.ReferenceIdeal.main_arg13)) = (U (Proc.devRef .tc Cert.KernelIdeal.main_arg13))
  a14 : (U' (Proc.devRef .tc Cert.ReferenceIdeal.main_arg14)) = (U (Proc.devRef .tc Cert.KernelIdeal.main_arg14))
  a15 : (U' (Proc.devRef .tc Cert.ReferenceIdeal.main_arg15)) = (U (Proc.devRef .tc Cert.KernelIdeal.main_arg15))
  a16 : (U' (Proc.devRef .tc Cert.ReferenceIdeal.main_arg16)) = (U (Proc.devRef .tc Cert.KernelIdeal.main_arg16))
  a17 : (U' (Proc.devRef .tc Cert.ReferenceIdeal.main_arg17)) = (U (Proc.devRef .tc Cert.KernelIdeal.main_arg17))
  a18 : (U' (Proc.devRef .tc Cert.ReferenceIdeal.main_arg18)) = (U (Proc.devRef .tc Cert.KernelIdeal.main_arg18))
  a19 : (U' (Proc.devRef .tc Cert.ReferenceIdeal.main_arg19)) = (U (Proc.devRef .tc Cert.KernelIdeal.main_arg19))
  a20 : (U' (Proc.devRef .tc Cert.ReferenceIdeal.main_arg20)) = (U (Proc.devRef .tc Cert.KernelIdeal.main_arg20))

/-- Every entry of each floating-point argument is a real number. -/
structure RealArgs : Prop where
  r0 : ∀ i, ∃ v : ℝ, (U (Proc.devRef .tc Cert.KernelIdeal.main_arg0)) i = (v : EReal)
  r2 : ∀ i, ∃ v : ℝ, (U (Proc.devRef .tc Cert.KernelIdeal.main_arg2)) i = (v : EReal)
  r3 : ∀ i, ∃ v : ℝ, (U (Proc.devRef .tc Cert.KernelIdeal.main_arg3)) i = (v : EReal)
  r4 : ∀ i, ∃ v : ℝ, (U (Proc.devRef .tc Cert.KernelIdeal.main_arg4)) i = (v : EReal)
  r5 : ∀ i, ∃ v : ℝ, (U (Proc.devRef .tc Cert.KernelIdeal.main_arg5)) i = (v : EReal)
  r6 : ∀ i, ∃ v : ℝ, (U (Proc.devRef .tc Cert.KernelIdeal.main_arg6)) i = (v : EReal)
  r7 : ∀ i, ∃ v : ℝ, (U (Proc.devRef .tc Cert.KernelIdeal.main_arg7)) i = (v : EReal)
  r8 : ∀ i, ∃ v : ℝ, (U (Proc.devRef .tc Cert.KernelIdeal.main_arg8)) i = (v : EReal)
  r9 : ∀ i, ∃ v : ℝ, (U (Proc.devRef .tc Cert.KernelIdeal.main_arg9)) i = (v : EReal)
  r10 : ∀ i, ∃ v : ℝ, (U (Proc.devRef .tc Cert.KernelIdeal.main_arg10)) i = (v : EReal)
  r11 : ∀ i, ∃ v : ℝ, (U (Proc.devRef .tc Cert.KernelIdeal.main_arg11)) i = (v : EReal)
  r12 : ∀ i, ∃ v : ℝ, (U (Proc.devRef .tc Cert.KernelIdeal.main_arg12)) i = (v : EReal)
  r13 : ∀ i, ∃ v : ℝ, (U (Proc.devRef .tc Cert.KernelIdeal.main_arg13)) i = (v : EReal)
  r14 : ∀ i, ∃ v : ℝ, (U (Proc.devRef .tc Cert.KernelIdeal.main_arg14)) i = (v : EReal)
  r15 : ∀ i, ∃ v : ℝ, (U (Proc.devRef .tc Cert.KernelIdeal.main_arg15)) i = (v : EReal)
  r16 : ∀ i, ∃ v : ℝ, (U (Proc.devRef .tc Cert.KernelIdeal.main_arg16)) i = (v : EReal)
  r17 : ∀ i, ∃ v : ℝ, (U (Proc.devRef .tc Cert.KernelIdeal.main_arg17)) i = (v : EReal)
  r18 : ∀ i, ∃ v : ℝ, (U (Proc.devRef .tc Cert.KernelIdeal.main_arg18)) i = (v : EReal)
  r19 : ∀ i, ∃ v : ℝ, (U (Proc.devRef .tc Cert.KernelIdeal.main_arg19)) i = (v : EReal)
  r20 : ∀ i, ∃ v : ℝ, (U (Proc.devRef .tc Cert.KernelIdeal.main_arg20)) i = (v : EReal)

variable {U U'}

/-! ## The edge table's three functions -/

theorem e_src (ha : Agree U U') : Cert.ReferenceIdeal.Hand.ref_v1 U' = kSrc U := by
  unfold Cert.ReferenceIdeal.Hand.ref_v1 kSrc
  rw [ha.a1]
  exact (Cert.StagesEq.stage_src_eq _).symm

theorem e_dst (ha : Agree U U') : Cert.ReferenceIdeal.Hand.ref_v3 U' = kDst U := by
  unfold Cert.ReferenceIdeal.Hand.ref_v3 kDst
  rw [ha.a1]
  exact (Cert.StagesEq.stage_dst_eq _).symm

theorem e_cnt17 (ha : Agree U U') : Cert.ReferenceIdeal.Hand.ref_v17 U' = kCnt U := by
  unfold Cert.ReferenceIdeal.Hand.ref_v17 kCnt
  rw [e_dst ha]
  exact (Cert.StagesEq.stage_cnt_eq _).symm

theorem e_cnt64 (ha : Agree U U') : Cert.ReferenceIdeal.Hand.ref_v64 U' = kCnt U := by
  unfold Cert.ReferenceIdeal.Hand.ref_v64 kCnt
  rw [e_dst ha]
  exact (Cert.StagesEq.stage_cnt_eq _).symm

theorem e_cnt111 (ha : Agree U U') : Cert.ReferenceIdeal.Hand.ref_v111 U' = kCnt U := by
  unfold Cert.ReferenceIdeal.Hand.ref_v111 kCnt
  rw [e_dst ha]
  exact (Cert.StagesEq.stage_cnt_eq _).symm

theorem real_cnt (U : Valuation Cert.KernelIdeal.τ Cert.KernelIdeal.sig (Elt Ideal)) (i : S100000.Idx) : IsReal (kCnt U i) :=
  isReal_stage_cnt _ i

/-! ## Layer 1 -/

theorem e_agg0 (ha : Agree U U') : Cert.ReferenceIdeal.Hand.ref_v22 U' = kAgg0 U := by
  unfold Cert.ReferenceIdeal.Hand.ref_v22 Cert.ReferenceIdeal.Hand.ref_v13 Cert.ReferenceIdeal.Hand.ref_v10 Cert.ReferenceIdeal.Hand.ref_v9 kAgg0
  rw [e_src ha, e_dst ha, e_cnt17 ha, ha.a0]
  exact (Cert.StagesEq.aggStage16_eq _ _ _ _).symm

theorem real_agg0 (hr : RealArgs U) (i : S100000x16.Idx) : ∃ v : ℝ, kAgg0 U i = (v : EReal) :=
  isReal_aggStage16 _ hr.r0 _ _ _ (real_cnt U) i

theorem e_lin0 (ha : Agree U U') : Cert.ReferenceIdeal.Hand.ref_v30 U' = kLin0 U := by
  funext i
  obtain ⟨r, j, rfl⟩ : ∃ (r : Fin 100000) (j : Fin 128), i = ix2 r j := ⟨i 0, i 1, eq_ix2 i⟩
  unfold Cert.ReferenceIdeal.Hand.ref_v30 kLin0
  rw [e_agg0 ha, ha.a0, ha.a2, ha.a3, ha.a4, lin0_apply]
  exact (lin0_join _ _ _ _ _ r j).symm

theorem real_lin0 (hr : RealArgs U) (i : S100000x128.Idx) : ∃ v : ℝ, kLin0 U i = (v : EReal) := by
  obtain ⟨r, j, rfl⟩ : ∃ (r : Fin 100000) (j : Fin 128), i = ix2 r j := ⟨i 0, i 1, eq_ix2 i⟩
  unfold kLin0
  rw [lin0_apply]
  exact lin0_real _ _ _ _ _ (real_agg0 hr) hr.r0 hr.r2 hr.r4 hr.r3 r j

theorem e_h1 (ha : Agree U U') (hr : RealArgs U) : Cert.ReferenceIdeal.Hand.ref_v50 U' = kH1 U := by
  funext i
  obtain ⟨r, j, rfl⟩ : ∃ (r : Fin 100000) (j : Fin 128), i = ix2 r j := ⟨i 0, i 1, eq_ix2 i⟩
  unfold Cert.ReferenceIdeal.Hand.ref_v50 Cert.ReferenceIdeal.Hand.ref_v33 Cert.ReferenceIdeal.Hand.ref_v34 kH1
  rw [e_lin0 ha, ha.a5, ha.a6]
  exact (bn1_join (kLin0 U) (real_lin0 hr) (colSum0 (kLin0 U)) (colSumSq0 (kLin0 U)) _ _
    (fun j => colSum0_apply _ 0 j) (fun j => colSumSq0_apply _ 0 j) r j).symm

theorem real_h1 (hr : RealArgs U) (i : S100000x128.Idx) : ∃ v : ℝ, kH1 U i = (v : EReal) := by
  obtain ⟨r, j, rfl⟩ : ∃ (r : Fin 100000) (j : Fin 128), i = ix2 r j := ⟨i 0, i 1, eq_ix2 i⟩
  unfold kH1
  exact bn1_real (kLin0 U) (real_lin0 hr) (colSum0 (kLin0 U)) (colSumSq0 (kLin0 U)) _ _ hr.r5 hr.r6
    (fun j => colSum0_apply _ 0 j) (fun j => colSumSq0_apply _ 0 j) r j

/-! ## Layer 2 -/

theorem e_agg1 (ha : Agree U U') (hr : RealArgs U) : Cert.ReferenceIdeal.Hand.ref_v69 U' = kAgg1 U := by
  unfold Cert.ReferenceIdeal.Hand.ref_v69 Cert.ReferenceIdeal.Hand.ref_v60 Cert.ReferenceIdeal.Hand.ref_v57 Cert.ReferenceIdeal.Hand.ref_v56 kAgg1
  rw [e_h1 ha hr, e_src ha, e_dst ha, e_cnt64 ha]
  exact (Cert.StagesEq.aggStage128_eq _ _ _ _).symm

theorem real_agg1 (hr : RealArgs U) (i : S100000x128.Idx) : ∃ v : ℝ, kAgg1 U i = (v : EReal) :=
  isReal_aggStage128 _ (real_h1 hr) _ _ _ (real_cnt U) i

theorem e_lin1 (ha : Agree U U') (hr : RealArgs U) : Cert.ReferenceIdeal.Hand.ref_v77 U' = kLin1 U := by
  funext i
  obtain ⟨r, j, rfl⟩ : ∃ (r : Fin 100000) (j : Fin 128), i = ix2 r j := ⟨i 0, i 1, eq_ix2 i⟩
  unfold Cert.ReferenceIdeal.Hand.ref_v77 kLin1
  rw [e_agg1 ha hr, e_h1 ha hr, ha.a7, ha.a8, ha.a9, lin2_apply]
  exact (lin1_join _ _ _ _ _ r j).symm

theorem real_lin1 (hr : RealArgs U) (i : S100000x128.Idx) : ∃ v : ℝ, kLin1 U i = (v : EReal) := by
  obtain ⟨r, j, rfl⟩ : ∃ (r : Fin 100000) (j : Fin 128), i = ix2 r j := ⟨i 0, i 1, eq_ix2 i⟩
  unfold kLin1
  rw [lin2_apply]
  exact lin1_real _ _ _ _ _ (real_agg1 hr) (real_h1 hr) hr.r7 hr.r9 hr.r8 r j

theorem e_h2 (ha : Agree U U') (hr : RealArgs U) : Cert.ReferenceIdeal.Hand.ref_v97 U' = kH2 U := by
  funext i
  obtain ⟨r, j, rfl⟩ : ∃ (r : Fin 100000) (j : Fin 128), i = ix2 r j := ⟨i 0, i 1, eq_ix2 i⟩
  unfold Cert.ReferenceIdeal.Hand.ref_v97 Cert.ReferenceIdeal.Hand.ref_v80 Cert.ReferenceIdeal.Hand.ref_v81 kH2
  rw [e_lin1 ha hr, ha.a10, ha.a11]
  exact (bn3_join (kLin1 U) (real_lin1 hr) (colSum2 (kLin1 U)) (colSumSq2 (kLin1 U)) _ _
    (fun j => colSum2_apply _ 0 j) (fun j => colSumSq2_apply _ 0 j) r j).symm

theorem real_h2 (hr : RealArgs U) (i : S100000x128.Idx) : ∃ v : ℝ, kH2 U i = (v : EReal) := by
  obtain ⟨r, j, rfl⟩ : ∃ (r : Fin 100000) (j : Fin 128), i = ix2 r j := ⟨i 0, i 1, eq_ix2 i⟩
  unfold kH2
  exact bn3_real (kLin1 U) (real_lin1 hr) (colSum2 (kLin1 U)) (colSumSq2 (kLin1 U)) _ _ hr.r10 hr.r11
    (fun j => colSum2_apply _ 0 j) (fun j => colSumSq2_apply _ 0 j) r j

/-! ## Layer 3 -/

theorem e_agg2 (ha : Agree U U') (hr : RealArgs U) : Cert.ReferenceIdeal.Hand.ref_v116 U' = kAgg2 U := by
  unfold Cert.ReferenceIdeal.Hand.ref_v116 Cert.ReferenceIdeal.Hand.ref_v107 Cert.ReferenceIdeal.Hand.ref_v104 Cert.ReferenceIdeal.Hand.ref_v103 kAgg2
  rw [e_h2 ha hr, e_src ha, e_dst ha, e_cnt111 ha]
  exact (Cert.StagesEq.aggStage128_eq _ _ _ _).symm

theorem real_agg2 (hr : RealArgs U) (i : S100000x128.Idx) : ∃ v : ℝ, kAgg2 U i = (v : EReal) :=
  isReal_aggStage128 _ (real_h2 hr) _ _ _ (real_cnt U) i

theorem e_lin2 (ha : Agree U U') (hr : RealArgs U) : Cert.ReferenceIdeal.Hand.ref_v124 U' = kLin2 U := by
  funext i
  obtain ⟨r, j, rfl⟩ : ∃ (r : Fin 100000) (j : Fin 64), i = ix2 r j := ⟨i 0, i 1, eq_ix2 i⟩
  unfold Cert.ReferenceIdeal.Hand.ref_v124 kLin2
  rw [e_agg2 ha hr, e_h2 ha hr, ha.a12, ha.a13, ha.a14, lin4_apply]
  exact (lin2_join _ _ _ _ _ r j).symm

theorem real_lin2 (hr : RealArgs U) (i : S100000x64.Idx) : ∃ v : ℝ, kLin2 U i = (v : EReal) := by
  obtain ⟨r, j, rfl⟩ : ∃ (r : Fin 100000) (j : Fin 64), i = ix2 r j := ⟨i 0, i 1, eq_ix2 i⟩
  unfold kLin2
  rw [lin4_apply]
  exact lin2_real _ _ _ _ _ (real_agg2 hr) (real_h2 hr) hr.r12 hr.r14 hr.r13 r j

theorem e_h3 (ha : Agree U U') (hr : RealArgs U) : Cert.ReferenceIdeal.Hand.ref_v144 U' = kH3 U := by
  funext i
  obtain ⟨r, j, rfl⟩ : ∃ (r : Fin 100000) (j : Fin 64), i = ix2 r j := ⟨i 0, i 1, eq_ix2 i⟩
  unfold Cert.ReferenceIdeal.Hand.ref_v144 Cert.ReferenceIdeal.Hand.ref_v127 Cert.ReferenceIdeal.Hand.ref_v128 kH3
  rw [e_lin2 ha hr, ha.a15, ha.a16]
  exact (bn5_join (kLin2 U) (real_lin2 hr) (colSum4 (kLin2 U)) (colSumSq4 (kLin2 U)) _ _
    (fun j => colSum4_apply _ 0 j) (fun j => colSumSq4_apply _ 0 j) r j).symm

/-! ## The classifier, and the result -/

theorem e_out (ha : Agree U U') (hr : RealArgs U) : Cert.ReferenceIdeal.Hand.ref_v161 U' = kOut U := by
  funext i
  obtain ⟨r, z, rfl⟩ : ∃ (r : Fin 100000) (z : Fin 1), i = ix2 r z := ⟨i 0, i 1, eq_ix2 i⟩
  obtain rfl : z = 0 := Subsingleton.elim _ _
  unfold Cert.ReferenceIdeal.Hand.ref_v161 Cert.ReferenceIdeal.Hand.ref_v150 kOut
  rw [e_h3 ha hr, ha.a17, ha.a18, ha.a19, ha.a20]
  exact (cls_join _ _ _ _ _ r).symm

/-- THE JOIN: the first program's result of its launch contents is the second program's of its own. -/
theorem kOut_eq_ref (ha : Agree U U') (hr : RealArgs U) : kOut U = Cert.ReferenceIdeal.Hand.ref_v161 U' :=
  (e_out ha hr).symm

end Cert.Proof.Join

end
-- ==== Proof.Join.Finite.lean ====
/- From the precondition to realness. The precondition says, of each of the twenty floating-point argument arrays,
   that the conjunction over all its entries of `|x| < +∞` is true. At the extended reals `|x|` is `max x (-x)`, which
   is below `⊤` exactly when `x` is neither `⊤` nor `⊥`: every entry of every such array is the image of a real number. -/
import proofs.«121727_j57028575756303_1_alg».proof.Defs
import proofs.«121727_j57028575756303_1_alg».proof.Proof.Gen.Pre_finite_inputs
import Idealize.ShloMosaic.Lib.ReduceAll
import Idealize.ShloMosaic.Lib.ValueIdx
import Idealize.ShloMosaic.PureOps.Ideal.Laws

noncomputable section

namespace Cert.Proof.Join

open Idealize.ShloMosaic Idealize.ShloMosaic.ValueIdx Idealize.SL.Sem
open Cert.Pre_finite_inputs (S_)

/-- The scalar shape has one index. -/
instance subsingleton_scalar_idx : Subsingleton S_.Idx := ⟨fun a b => funext fun d => d.elim0⟩

/-- An extended real whose absolute value `max x (-x)` compares below the pattern of `+∞` is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  have hlt : max x (-x) < ⊤ := by
    by_contra hn
    simp [Ideal.cmp, hn] at h
  induction x using EReal.rec with
  | bot => simp at hlt
  | coe r => exact ⟨r, rfl⟩
  | top => simp at hlt

/-- An array whose test `all (|x| < +∞)` is true has only real entries. -/
theorem real_of_all {s : Shape} {axes : List (Fin s.rank)} (x : FVec Ideal s .f32)
    (bc : S_.BroadcastsInDim s (![] : Fin 0 → Fin s.rank)) (h : s.ReducesTo axes S_) (hu : 0 < S_.numel)
    (e : Host.reduce IntOp.andi (cmpf .olt (Host.absf x) (broadcastInDim s ![] bc (constant S_ .f32 0x7F800000#32)))
      (constantI S_ 1 1#1) h hu ix0 = 1#1)
    (i : s.Idx) : ∃ r : ℝ, x i = (r : EReal) :=
  real_of_abs_lt_inf (x i) (Host.reduce_andi_all _ _ h hu ix0 e i)

/-- A conjunction of two truth values that is true has both true. -/
theorem vandi_eq_one {s : Shape} (x y : IVec s 1) (i : s.Idx) (h : andi x y i = 1#1) : x i = 1#1 ∧ y i = 1#1 :=
  IntOp.andi_eq_one.1 h

/-- Under the precondition every entry of each of the twenty floating-point arguments is real. -/
theorem inputs_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal))
    ∧ (∀ i, ∃ r : ℝ, m ((c.tc : Thread Cert.KernelIdeal.nD Cert.KernelIdeal.τ).loc Cert.KernelIdeal.main_arg12) i = (r : EReal))
    ∧ (∀ i, ∃ r : ℝ, m ((c.tc : Thread Cert.KernelIdeal.nD Cert.KernelIdeal.τ).loc Cert.KernelIdeal.main_arg13) i = (r : EReal))
    ∧ (∀ i, ∃ r : ℝ, m ((c.tc : Thread Cert.KernelIdeal.nD Cert.KernelIdeal.τ).loc Cert.KernelIdeal.main_arg14) i = (r : EReal))
    ∧ (∀ i, ∃ r : ℝ, m ((c.tc : Thread Cert.KernelIdeal.nD Cert.KernelIdeal.τ).loc Cert.KernelIdeal.main_arg15) i = (r : EReal))
    ∧ (∀ i, ∃ r : ℝ, m ((c.tc : Thread Cert.KernelIdeal.nD Cert.KernelIdeal.τ).loc Cert.KernelIdeal.main_arg16) i = (r : EReal))
    ∧ (∀ i, ∃ r : ℝ, m ((c.tc : Thread Cert.KernelIdeal.nD Cert.KernelIdeal.τ).loc Cert.KernelIdeal.main_arg17) i = (r : EReal))
    ∧ (∀ i, ∃ r : ℝ, m ((c.tc : Thread Cert.KernelIdeal.nD Cert.KernelIdeal.τ).loc Cert.KernelIdeal.main_arg18) i = (r : EReal))
    ∧ (∀ i, ∃ r : ℝ, m ((c.tc : Thread Cert.KernelIdeal.nD Cert.KernelIdeal.τ).loc Cert.KernelIdeal.main_arg19) i = (r : EReal))
    ∧ (∀ i, ∃ r : ℝ, m ((c.tc : Thread Cert.KernelIdeal.nD Cert.KernelIdeal.τ).loc Cert.KernelIdeal.main_arg20) i = (r : EReal)) := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  obtain ⟨a19, r20⟩ := vandi_eq_one _ _ _ h0
  obtain ⟨a18, r19⟩ := vandi_eq_one _ _ _ a19
  obtain ⟨a17, r18⟩ := vandi_eq_one _ _ _ a18
  obtain ⟨a16, r17⟩ := vandi_eq_one _ _ _ a17
  obtain ⟨a15, r16⟩ := vandi_eq_one _ _ _ a16
  obtain ⟨a14, r15⟩ := vandi_eq_one _ _ _ a15
  obtain ⟨a13, r14⟩ := vandi_eq_one _ _ _ a14
  obtain ⟨a12, r13⟩ := vandi_eq_one _ _ _ a13
  obtain ⟨a11, r12⟩ := vandi_eq_one _ _ _ a12
  obtain ⟨a10, r11⟩ := vandi_eq_one _ _ _ a11
  obtain ⟨a9, r10⟩ := vandi_eq_one _ _ _ a10
  obtain ⟨a8, r9⟩ := vandi_eq_one _ _ _ a9
  obtain ⟨a7, r8⟩ := vandi_eq_one _ _ _ a8
  obtain ⟨a6, r7⟩ := vandi_eq_one _ _ _ a7
  obtain ⟨a5, r6⟩ := vandi_eq_one _ _ _ a6
  obtain ⟨a4, r5⟩ := vandi_eq_one _ _ _ a5
  obtain ⟨a3, r4⟩ := vandi_eq_one _ _ _ a4
  obtain ⟨a2, r3⟩ := vandi_eq_one _ _ _ a3
  obtain ⟨r1, r2⟩ := vandi_eq_one _ _ _ a2
  exact ⟨real_of_all _ _ _ _ r1,
    real_of_all _ _ _ _ r2,
    real_of_all _ _ _ _ r3,
    real_of_all _ _ _ _ r4,
    real_of_all _ _ _ _ r5,
    real_of_all _ _ _ _ r6,
    real_of_all _ _ _ _ r7,
    real_of_all _ _ _ _ r8,
    real_of_all _ _ _ _ r9,
    real_of_all _ _ _ _ r10,
    real_of_all _ _ _ _ r11,
    real_of_all _ _ _ _ r12,
    real_of_all _ _ _ _ r13,
    real_of_all _ _ _ _ r14,
    real_of_all _ _ _ _ r15,
    real_of_all _ _ _ _ r16,
    real_of_all _ _ _ _ r17,
    real_of_all _ _ _ _ r18,
    real_of_all _ _ _ _ r19,
    real_of_all _ _ _ _ r20⟩

end Cert.Proof.Join

end
-- ==== Proof.RefRun.Fold.lean ====
/- The fold of @main's operations read stretch by stretch: the list cut into thirty consecutive groups, the buffer
   contents after the first k groups (`valK`), and for each buffer still to be read its contents there as the stage
   functions composed over the launch contents; hence the result `refOut W` is `ref_v161 W`. -/
import proofs.«121727_j57028575756303_1_alg».proof.ReferenceIdeal
import proofs.«121727_j57028575756303_1_alg».proof.Proof.Gen.ReferenceIdeal
import Idealize.ShloMosaic.Lib.StableHlo.Run
import proofs.«121727_j57028575756303_1_alg».proof.Proof.RefRun.Run
import proofs.«121727_j57028575756303_1_alg».proof.Proof.RefRun.Stages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Group 1 of 30: the 4 operations that end at `main_v3`. -/
abbrev seg0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- Group 2 of 30: the 8 operations that end at `main_v9`. -/
abbrev seg1 : List (HloOp τ sig (Elt F)) :=
  [ StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)) ]

/-- Group 3 of 30: the 1 operation that ends at `main_v10`. -/
abbrev seg2 : List (HloOp τ sig (Elt F)) :=
  [ StableHlo.binary main_arg0 main_v9 main_v10 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)) ]

/-- Group 4 of 30: the 4 operations that end at `main_v13`. -/
abbrev seg3 : List (HloOp τ sig (Elt F)) :=
  [ StableHlo.nullary main_cst (constant S_ .f32 0x00000000#32),
    StableHlo.unary main_cst main_v11 (broadcastInDim S100000x16 ![] bcast_S_S100000x16 : (⟨S_, .f32⟩ : BufTy).Contents (Elt F) → (⟨S100000x16, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)) ]

/-- Group 5 of 30: the 6 operations that end at `main_v17`. -/
abbrev seg4 : List (HloOp τ sig (Elt F)) :=
  [ StableHlo.nullary main_cst_1 (constant S_ .f32 0x3F800000#32),
    StableHlo.unary main_cst_1 main_v14 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ]

/-- Group 6 of 30: the 6 operations that end at `main_v22`. -/
abbrev seg5 : List (HloOp τ sig (Elt F)) :=
  [ StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x16 ![0, 1] bcast_S100000x1_S100000x16_0_1 : (⟨S100000x1, .f32⟩ : BufTy).Contents (Elt F) → (⟨S100000x16, .f32⟩ : BufTy).Contents (Elt F)),
    StableHlo.binary main_v13 main_v21 main_v22 (Host.divf : (⟨S100000x16, .f32⟩ : BufTy).Contents (Elt F) → (⟨S100000x16, .f32⟩ : BufTy).Contents (Elt F) → (⟨S100000x16, .f32⟩ : BufTy).Contents (Elt F)) ]

/-- Group 7 of 30: the 8 operations that end at `main_v30`. -/
abbrev seg6 : List (HloOp τ sig (Elt F)) :=
  [ StableHlo.unary main_arg2 main_v23 ((transpose S16x128 [1, 0] · transposes_S128x16_S16x128_1_0) : (⟨S128x16, .f32⟩ : BufTy).Contents (Elt F) → (⟨S16x128, .f32⟩ : BufTy).Contents (Elt F)),
    StableHlo.binary main_v22 main_v23 main_v24 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    StableHlo.unary main_arg3 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v26 main_v27 (addf : (⟨S100000x128, .f32⟩ : BufTy).Contents (Elt F) → (⟨S100000x128, .f32⟩ : BufTy).Contents (Elt F) → (⟨S100000x128, .f32⟩ : BufTy).Contents (Elt F)),
    StableHlo.unary main_arg4 main_v28 ((transpose S16x128 [1, 0] · transposes_S128x16_S16x128_1_0) : (⟨S128x16, .f32⟩ : BufTy).Contents (Elt F) → (⟨S16x128, .f32⟩ : BufTy).Contents (Elt F)),
    StableHlo.binary main_arg0 main_v28 main_v29 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    StableHlo.binary main_v27 main_v29 main_v30 (addf : (⟨S100000x128, .f32⟩ : BufTy).Contents (Elt F) → (⟨S100000x128, .f32⟩ : BufTy).Contents (Elt F) → (⟨S100000x128, .f32⟩ : BufTy).Contents (Elt F)) ]

/-- Group 8 of 30: the 5 operations that end at `main_v33`. -/
abbrev seg7 : List (HloOp τ sig (Elt F)) :=
  [ StableHlo.nullary main_cst_4 (constant S_ .f32 0x00000000#32),
    StableHlo.binary main_v30 main_cst_4 main_v31 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v32 (broadcastInDim S128 ![] bcast_S_S128 : (⟨S_, .f32⟩ : BufTy).Contents (Elt F) → (⟨S128, .f32⟩ : BufTy).Contents (Elt F)),
    StableHlo.binary main_v31 main_v32 main_v33 (Host.divf : (⟨S128, .f32⟩ : BufTy).Contents (Elt F) → (⟨S128, .f32⟩ : BufTy).Contents (Elt F) → (⟨S128, .f32⟩ : BufTy).Contents (Elt F)) ]

/-- Group 9 of 30: the 23 operations that end at `main_v34`. -/
abbrev seg8 : List (HloOp τ sig (Elt F)) :=
  [ StableHlo.nullary main_c_6 (constantI S_ 32 0#32),
    StableHlo.TRef.nullary main_call0.cst (constant S_ .f32 0x00000000#32),
    StableHlo.TRef.binary (.of main_v30 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v30 : StableHlo.TRef sig ⟨S100000x128, .f32⟩) main_call0.v4 main_call0.v5 subf,
    StableHlo.TRef.binary main_call0.v5 main_call0.v5 main_call0.v6 mulf,
    StableHlo.TRef.unary (.of main_c_6 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- Group 10 of 30: the 19 operations that end at `main_v50`. -/
abbrev seg9 : List (HloOp τ sig (Elt F)) :=
  [ StableHlo.unary main_v33 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v36 main_v37 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v38 (broadcastInDim S128 ![] bcast_S_S128 : (⟨S_, .f32⟩ : BufTy).Contents (Elt F) → (⟨S128, .f32⟩ : BufTy).Contents (Elt F)),
    StableHlo.binary main_v34 main_v38 main_v39 (addf : (⟨S128, .f32⟩ : BufTy).Contents (Elt F) → (⟨S128, .f32⟩ : BufTy).Contents (Elt F) → (⟨S128, .f32⟩ : BufTy).Contents (Elt F)),
    StableHlo.unary main_v39 main_v40 (Host.rsqrt : (⟨S128, .f32⟩ : BufTy).Contents (Elt F) → (⟨S128, .f32⟩ : BufTy).Contents (Elt F)),
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v42 main_v43 (mulf : (⟨S100000x128, .f32⟩ : BufTy).Contents (Elt F) → (⟨S100000x128, .f32⟩ : BufTy).Contents (Elt F) → (⟨S100000x128, .f32⟩ : BufTy).Contents (Elt F)),
    StableHlo.unary main_arg5 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (mulf : (⟨S100000x128, .f32⟩ : BufTy).Contents (Elt F) → (⟨S100000x128, .f32⟩ : BufTy).Contents (Elt F) → (⟨S100000x128, .f32⟩ : BufTy).Contents (Elt F)),
    StableHlo.unary main_arg6 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v48 main_v49 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v49 : StableHlo.TRef sig ⟨S100000x128, .f32⟩) main_call1.v0 main_call1.v1 maximumf ]

/-- Group 11 of 30: the 8 operations that end at `main_v56`. -/
abbrev seg10 : List (HloOp τ sig (Elt F)) :=
  [ StableHlo.nullary main_c_8 (constantI S_ 32 0#32),
    StableHlo.unary main_c_8 main_v51 (broadcastInDim S1600000 ![] bcast_S_S1600000 : (⟨S_, .i32⟩ : BufTy).Contents (Elt F) → (⟨S1600000, .i32⟩ : BufTy).Contents (Elt F)),
    StableHlo.binary main_v1 main_v51 main_v52 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v53 (broadcastInDim S1600000 ![] bcast_S_S1600000 : (⟨S_, .i32⟩ : BufTy).Contents (Elt F) → (⟨S1600000, .i32⟩ : BufTy).Contents (Elt F)),
    StableHlo.binary main_v1 main_v53 main_v54 (addi : (⟨S1600000, .i32⟩ : BufTy).Contents (Elt F) → (⟨S1600000, .i32⟩ : BufTy).Contents (Elt F) → (⟨S1600000, .i32⟩ : BufTy).Contents (Elt F)),
    StableHlo.ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v55 main_v56 (broadcastInDim S1600000x1 ![0] bcast_S1600000_S1600000x1_0 : (⟨S1600000, .i32⟩ : BufTy).Contents (Elt F) → (⟨S1600000x1, .i32⟩ : BufTy).Contents (Elt F)) ]

/-- Group 12 of 30: the 1 operation that ends at `main_v57`. -/
abbrev seg11 : List (HloOp τ sig (Elt F)) :=
  [ StableHlo.binary main_v50 main_v56 main_v57 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ]

/-- Group 13 of 30: the 4 operations that end at `main_v60`. -/
abbrev seg12 : List (HloOp τ sig (Elt F)) :=
  [ StableHlo.nullary main_cst_10 (constant S_ .f32 0x00000000#32),
    StableHlo.unary main_cst_10 main_v58 (broadcastInDim S100000x128 ![] bcast_S_S100000x128 : (⟨S_, .f32⟩ : BufTy).Contents (Elt F) → (⟨S100000x128, .f32⟩ : BufTy).Contents (Elt F)),
    StableHlo.unary main_v3 main_v59 (broadcastInDim S1600000x1 ![0] bcast_S1600000_S1600000x1_0 : (⟨S1600000, .i32⟩ : BufTy).Contents (Elt F) → (⟨S1600000x1, .i32⟩ : BufTy).Contents (Elt F)),
    StableHlo.ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Group 14 of 30: the 6 operations that end at `main_v64`. -/
abbrev seg13 : List (HloOp τ sig (Elt F)) :=
  [ StableHlo.nullary main_cst_11 (constant S_ .f32 0x3F800000#32),
    StableHlo.unary main_cst_11 main_v61 (broadcastInDim S1600000 ![] bcast_S_S1600000 : (⟨S_, .f32⟩ : BufTy).Contents (Elt F) → (⟨S1600000, .f32⟩ : BufTy).Contents (Elt F)),
    StableHlo.nullary main_cst_12 (constant S_ .f32 0x00000000#32),
    StableHlo.unary main_cst_12 main_v62 (broadcastInDim S100000 ![] bcast_S_S100000 : (⟨S_, .f32⟩ : BufTy).Contents (Elt F) → (⟨S100000, .f32⟩ : BufTy).Contents (Elt F)),
    StableHlo.unary main_v3 main_v63 (broadcastInDim S1600000x1 ![0] bcast_S1600000_S1600000x1_0 : (⟨S1600000, .i32⟩ : BufTy).Contents (Elt F) → (⟨S1600000x1, .i32⟩ : BufTy).Contents (Elt F)),
    StableHlo.ternary main_v62 main_v63 main_v61 main_v64 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ]

/-- Group 15 of 30: the 6 operations that end at `main_v69`. -/
abbrev seg14 : List (HloOp τ sig (Elt F)) :=
  [ StableHlo.nullary main_cst_13 (constant S_ .f32 0x3F800000#32),
    StableHlo.unary main_cst_13 main_v65 (broadcastInDim S100000 ![] bcast_S_S100000 : (⟨S_, .f32⟩ : BufTy).Contents (Elt F) → (⟨S100000, .f32⟩ : BufTy).Contents (Elt F)),
    StableHlo.binary main_v64 main_v65 main_v66 (maximumf : (⟨S100000, .f32⟩ : BufTy).Contents (Elt F) → (⟨S100000, .f32⟩ : BufTy).Contents (Elt F) → (⟨S100000, .f32⟩ : BufTy).Contents (Elt F)),
    StableHlo.unary main_v66 main_v67 (broadcastInDim S100000x1 ![0] bcast_S100000_S100000x1_0 : (⟨S100000, .f32⟩ : BufTy).Contents (Elt F) → (⟨S100000x1, .f32⟩ : BufTy).Contents (Elt F)),
    StableHlo.unary main_v67 main_v68 (broadcastInDim S100000x128 ![0, 1] bcast_S100000x1_S100000x128_0_1 : (⟨S100000x1, .f32⟩ : BufTy).Contents (Elt F) → (⟨S100000x128, .f32⟩ : BufTy).Contents (Elt F)),
    StableHlo.binary main_v60 main_v68 main_v69 (Host.divf : (⟨S100000x128, .f32⟩ : BufTy).Contents (Elt F) → (⟨S100000x128, .f32⟩ : BufTy).Contents (Elt F) → (⟨S100000x128, .f32⟩ : BufTy).Contents (Elt F)) ]

/-- Group 16 of 30: the 8 operations that end at `main_v77`. -/
abbrev seg15 : List (HloOp τ sig (Elt F)) :=
  [ StableHlo.unary main_arg7 main_v70 ((transpose S128x128 [1, 0] · transposes_S128x128_S128x128_1_0) : (⟨S128x128, .f32⟩ : BufTy).Contents (Elt F) → (⟨S128x128, .f32⟩ : BufTy).Contents (Elt F)),
    StableHlo.binary main_v69 main_v70 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v73 main_v74 (addf : (⟨S100000x128, .f32⟩ : BufTy).Contents (Elt F) → (⟨S100000x128, .f32⟩ : BufTy).Contents (Elt F) → (⟨S100000x128, .f32⟩ : BufTy).Contents (Elt F)),
    StableHlo.unary main_arg9 main_v75 ((transpose S128x128 [1, 0] · transposes_S128x128_S128x128_1_0) : (⟨S128x128, .f32⟩ : BufTy).Contents (Elt F) → (⟨S128x128, .f32⟩ : BufTy).Contents (Elt F)),
    StableHlo.binary main_v50 main_v75 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v74 main_v76 main_v77 (addf : (⟨S100000x128, .f32⟩ : BufTy).Contents (Elt F) → (⟨S100000x128, .f32⟩ : BufTy).Contents (Elt F) → (⟨S100000x128, .f32⟩ : BufTy).Contents (Elt F)) ]

/-- Group 17 of 30: the 5 operations that end at `main_v80`. -/
abbrev seg16 : List (HloOp τ sig (Elt F)) :=
  [ StableHlo.nullary main_cst_14 (constant S_ .f32 0x00000000#32),
    StableHlo.binary main_v77 main_cst_14 main_v78 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_15 (constant S_ .f32 0x47C35000#32),
    StableHlo.unary main_cst_15 main_v79 (broadcastInDim S128 ![] bcast_S_S128 : (⟨S_, .f32⟩ : BufTy).Contents (Elt F) → (⟨S128, .f32⟩ : BufTy).Contents (Elt F)),
    StableHlo.binary main_v78 main_v79 main_v80 (Host.divf : (⟨S128, .f32⟩ : BufTy).Contents (Elt F) → (⟨S128, .f32⟩ : BufTy).Contents (Elt F) → (⟨S128, .f32⟩ : BufTy).Contents (Elt F)) ]

/-- Group 18 of 30: the 23 operations that end at `main_v81`. -/
abbrev seg17 : List (HloOp τ sig (Elt F)) :=
  [ StableHlo.nullary main_c_16 (constantI S_ 32 0#32),
    StableHlo.TRef.nullary main_call2.cst (constant S_ .f32 0x00000000#32),
    StableHlo.TRef.binary (.of main_v77 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v77 : StableHlo.TRef sig ⟨S100000x128, .f32⟩) main_call2.v4 main_call2.v5 subf,
    StableHlo.TRef.binary main_call2.v5 main_call2.v5 main_call2.v6 mulf,
    StableHlo.TRef.unary (.of main_c_16 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Group 19 of 30: the 19 operations that end at `main_v97`. -/
abbrev seg18 : List (HloOp τ sig (Elt F)) :=
  [ StableHlo.unary main_v80 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v83 main_v84 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v85 (broadcastInDim S128 ![] bcast_S_S128 : (⟨S_, .f32⟩ : BufTy).Contents (Elt F) → (⟨S128, .f32⟩ : BufTy).Contents (Elt F)),
    StableHlo.binary main_v81 main_v85 main_v86 (addf : (⟨S128, .f32⟩ : BufTy).Contents (Elt F) → (⟨S128, .f32⟩ : BufTy).Contents (Elt F) → (⟨S128, .f32⟩ : BufTy).Contents (Elt F)),
    StableHlo.unary main_v86 main_v87 (Host.rsqrt : (⟨S128, .f32⟩ : BufTy).Contents (Elt F) → (⟨S128, .f32⟩ : BufTy).Contents (Elt F)),
    StableHlo.unary main_v87 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v89 main_v90 (mulf : (⟨S100000x128, .f32⟩ : BufTy).Contents (Elt F) → (⟨S100000x128, .f32⟩ : BufTy).Contents (Elt F) → (⟨S100000x128, .f32⟩ : BufTy).Contents (Elt F)),
    StableHlo.unary main_arg10 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v90 main_v92 main_v93 (mulf : (⟨S100000x128, .f32⟩ : BufTy).Contents (Elt F) → (⟨S100000x128, .f32⟩ : BufTy).Contents (Elt F) → (⟨S100000x128, .f32⟩ : BufTy).Contents (Elt F)),
    StableHlo.unary main_arg11 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v95 main_v96 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v96 : StableHlo.TRef sig ⟨S100000x128, .f32⟩) main_call3.v0 main_call3.v1 maximumf ]

/-- Group 20 of 30: the 8 operations that end at `main_v103`. -/
abbrev seg19 : List (HloOp τ sig (Elt F)) :=
  [ StableHlo.nullary main_c_18 (constantI S_ 32 0#32),
    StableHlo.unary main_c_18 main_v98 (broadcastInDim S1600000 ![] bcast_S_S1600000 : (⟨S_, .i32⟩ : BufTy).Contents (Elt F) → (⟨S1600000, .i32⟩ : BufTy).Contents (Elt F)),
    StableHlo.binary main_v1 main_v98 main_v99 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v100 (broadcastInDim S1600000 ![] bcast_S_S1600000 : (⟨S_, .i32⟩ : BufTy).Contents (Elt F) → (⟨S1600000, .i32⟩ : BufTy).Contents (Elt F)),
    StableHlo.binary main_v1 main_v100 main_v101 (addi : (⟨S1600000, .i32⟩ : BufTy).Contents (Elt F) → (⟨S1600000, .i32⟩ : BufTy).Contents (Elt F) → (⟨S1600000, .i32⟩ : BufTy).Contents (Elt F)),
    StableHlo.ternary main_v99 main_v101 main_v1 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v102 main_v103 (broadcastInDim S1600000x1 ![0] bcast_S1600000_S1600000x1_0 : (⟨S1600000, .i32⟩ : BufTy).Contents (Elt F) → (⟨S1600000x1, .i32⟩ : BufTy).Contents (Elt F)) ]

/-- Group 21 of 30: the 1 operation that ends at `main_v104`. -/
abbrev seg20 : List (HloOp τ sig (Elt F)) :=
  [ StableHlo.binary main_v97 main_v103 main_v104 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ]

/-- Group 22 of 30: the 4 operations that end at `main_v107`. -/
abbrev seg21 : List (HloOp τ sig (Elt F)) :=
  [ StableHlo.nullary main_cst_20 (constant S_ .f32 0x00000000#32),
    StableHlo.unary main_cst_20 main_v105 (broadcastInDim S100000x128 ![] bcast_S_S100000x128 : (⟨S_, .f32⟩ : BufTy).Contents (Elt F) → (⟨S100000x128, .f32⟩ : BufTy).Contents (Elt F)),
    StableHlo.unary main_v3 main_v106 (broadcastInDim S1600000x1 ![0] bcast_S1600000_S1600000x1_0 : (⟨S1600000, .i32⟩ : BufTy).Contents (Elt F) → (⟨S1600000x1, .i32⟩ : BufTy).Contents (Elt F)),
    StableHlo.ternary main_v105 main_v106 main_v104 main_v107 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Group 23 of 30: the 6 operations that end at `main_v111`. -/
abbrev seg22 : List (HloOp τ sig (Elt F)) :=
  [ StableHlo.nullary main_cst_21 (constant S_ .f32 0x3F800000#32),
    StableHlo.unary main_cst_21 main_v108 (broadcastInDim S1600000 ![] bcast_S_S1600000 : (⟨S_, .f32⟩ : BufTy).Contents (Elt F) → (⟨S1600000, .f32⟩ : BufTy).Contents (Elt F)),
    StableHlo.nullary main_cst_22 (constant S_ .f32 0x00000000#32),
    StableHlo.unary main_cst_22 main_v109 (broadcastInDim S100000 ![] bcast_S_S100000 : (⟨S_, .f32⟩ : BufTy).Contents (Elt F) → (⟨S100000, .f32⟩ : BufTy).Contents (Elt F)),
    StableHlo.unary main_v3 main_v110 (broadcastInDim S1600000x1 ![0] bcast_S1600000_S1600000x1_0 : (⟨S1600000, .i32⟩ : BufTy).Contents (Elt F) → (⟨S1600000x1, .i32⟩ : BufTy).Contents (Elt F)),
    StableHlo.ternary main_v109 main_v110 main_v108 main_v111 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ]

/-- Group 24 of 30: the 6 operations that end at `main_v116`. -/
abbrev seg23 : List (HloOp τ sig (Elt F)) :=
  [ StableHlo.nullary main_cst_23 (constant S_ .f32 0x3F800000#32),
    StableHlo.unary main_cst_23 main_v112 (broadcastInDim S100000 ![] bcast_S_S100000 : (⟨S_, .f32⟩ : BufTy).Contents (Elt F) → (⟨S100000, .f32⟩ : BufTy).Contents (Elt F)),
    StableHlo.binary main_v111 main_v112 main_v113 (maximumf : (⟨S100000, .f32⟩ : BufTy).Contents (Elt F) → (⟨S100000, .f32⟩ : BufTy).Contents (Elt F) → (⟨S100000, .f32⟩ : BufTy).Contents (Elt F)),
    StableHlo.unary main_v113 main_v114 (broadcastInDim S100000x1 ![0] bcast_S100000_S100000x1_0 : (⟨S100000, .f32⟩ : BufTy).Contents (Elt F) → (⟨S100000x1, .f32⟩ : BufTy).Contents (Elt F)),
    StableHlo.unary main_v114 main_v115 (broadcastInDim S100000x128 ![0, 1] bcast_S100000x1_S100000x128_0_1 : (⟨S100000x1, .f32⟩ : BufTy).Contents (Elt F) → (⟨S100000x128, .f32⟩ : BufTy).Contents (Elt F)),
    StableHlo.binary main_v107 main_v115 main_v116 (Host.divf : (⟨S100000x128, .f32⟩ : BufTy).Contents (Elt F) → (⟨S100000x128, .f32⟩ : BufTy).Contents (Elt F) → (⟨S100000x128, .f32⟩ : BufTy).Contents (Elt F)) ]

/-- Group 25 of 30: the 8 operations that end at `main_v124`. -/
abbrev seg24 : List (HloOp τ sig (Elt F)) :=
  [ StableHlo.unary main_arg12 main_v117 ((transpose S128x64 [1, 0] · transposes_S64x128_S128x64_1_0) : (⟨S64x128, .f32⟩ : BufTy).Contents (Elt F) → (⟨S128x64, .f32⟩ : BufTy).Contents (Elt F)),
    StableHlo.binary main_v116 main_v117 main_v118 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg13 main_v119 (broadcastInDim S1x64 ![1] bcast_S64_S1x64_1 : (⟨S64, .f32⟩ : BufTy).Contents (Elt F) → (⟨S1x64, .f32⟩ : BufTy).Contents (Elt F)),
    StableHlo.unary main_v119 main_v120 (broadcastInDim S100000x64 ![0, 1] bcast_S1x64_S100000x64_0_1 : (⟨S1x64, .f32⟩ : BufTy).Contents (Elt F) → (⟨S100000x64, .f32⟩ : BufTy).Contents (Elt F)),
    StableHlo.binary main_v118 main_v120 main_v121 (addf : (⟨S100000x64, .f32⟩ : BufTy).Contents (Elt F) → (⟨S100000x64, .f32⟩ : BufTy).Contents (Elt F) → (⟨S100000x64, .f32⟩ : BufTy).Contents (Elt F)),
    StableHlo.unary main_arg14 main_v122 ((transpose S128x64 [1, 0] · transposes_S64x128_S128x64_1_0) : (⟨S64x128, .f32⟩ : BufTy).Contents (Elt F) → (⟨S128x64, .f32⟩ : BufTy).Contents (Elt F)),
    StableHlo.binary main_v97 main_v122 main_v123 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v121 main_v123 main_v124 (addf : (⟨S100000x64, .f32⟩ : BufTy).Contents (Elt F) → (⟨S100000x64, .f32⟩ : BufTy).Contents (Elt F) → (⟨S100000x64, .f32⟩ : BufTy).Contents (Elt F)) ]

/-- Group 26 of 30: the 5 operations that end at `main_v127`. -/
abbrev seg25 : List (HloOp τ sig (Elt F)) :=
  [ StableHlo.nullary main_cst_24 (constant S_ .f32 0x00000000#32),
    StableHlo.binary main_v124 main_cst_24 main_v125 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_25 (constant S_ .f32 0x47C35000#32),
    StableHlo.unary main_cst_25 main_v126 (broadcastInDim S64 ![] bcast_S_S64 : (⟨S_, .f32⟩ : BufTy).Contents (Elt F) → (⟨S64, .f32⟩ : BufTy).Contents (Elt F)),
    StableHlo.binary main_v125 main_v126 main_v127 (Host.divf : (⟨S64, .f32⟩ : BufTy).Contents (Elt F) → (⟨S64, .f32⟩ : BufTy).Contents (Elt F) → (⟨S64, .f32⟩ : BufTy).Contents (Elt F)) ]

/-- Group 27 of 30: the 23 operations that end at `main_v128`. -/
abbrev seg26 : List (HloOp τ sig (Elt F)) :=
  [ StableHlo.nullary main_c_26 (constantI S_ 32 0#32),
    StableHlo.TRef.nullary main_call4.cst (constant S_ .f32 0x00000000#32),
    StableHlo.TRef.binary (.of main_v124 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v124 : StableHlo.TRef sig ⟨S100000x64, .f32⟩) main_call4.v4 main_call4.v5 subf,
    StableHlo.TRef.binary main_call4.v5 main_call4.v5 main_call4.v6 mulf,
    StableHlo.TRef.unary (.of main_c_26 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b) ]

/-- Group 28 of 30: the 19 operations that end at `main_v144`. -/
abbrev seg27 : List (HloOp τ sig (Elt F)) :=
  [ StableHlo.unary main_v127 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S100000x64 ![0, 1] bcast_S1x64_S100000x64_0_1 : (⟨S1x64, .f32⟩ : BufTy).Contents (Elt F) → (⟨S100000x64, .f32⟩ : BufTy).Contents (Elt F)),
    StableHlo.binary main_v124 main_v130 main_v131 (subf : (⟨S100000x64, .f32⟩ : BufTy).Contents (Elt F) → (⟨S100000x64, .f32⟩ : BufTy).Contents (Elt F) → (⟨S100000x64, .f32⟩ : BufTy).Contents (Elt F)),
    StableHlo.nullary main_cst_27 (constant S_ .f32 0x3727C5AC#32),
    StableHlo.unary main_cst_27 main_v132 (broadcastInDim S64 ![] bcast_S_S64 : (⟨S_, .f32⟩ : BufTy).Contents (Elt F) → (⟨S64, .f32⟩ : BufTy).Contents (Elt F)),
    StableHlo.binary main_v128 main_v132 main_v133 (addf : (⟨S64, .f32⟩ : BufTy).Contents (Elt F) → (⟨S64, .f32⟩ : BufTy).Contents (Elt F) → (⟨S64, .f32⟩ : BufTy).Contents (Elt F)),
    StableHlo.unary main_v133 main_v134 (Host.rsqrt : (⟨S64, .f32⟩ : BufTy).Contents (Elt F) → (⟨S64, .f32⟩ : BufTy).Contents (Elt F)),
    StableHlo.unary main_v134 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S100000x64 ![0, 1] bcast_S1x64_S100000x64_0_1 : (⟨S1x64, .f32⟩ : BufTy).Contents (Elt F) → (⟨S100000x64, .f32⟩ : BufTy).Contents (Elt F)),
    StableHlo.binary main_v131 main_v136 main_v137 (mulf : (⟨S100000x64, .f32⟩ : BufTy).Contents (Elt F) → (⟨S100000x64, .f32⟩ : BufTy).Contents (Elt F) → (⟨S100000x64, .f32⟩ : BufTy).Contents (Elt F)),
    StableHlo.unary main_arg15 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S100000x64 ![0, 1] bcast_S1x64_S100000x64_0_1 : (⟨S1x64, .f32⟩ : BufTy).Contents (Elt F) → (⟨S100000x64, .f32⟩ : BufTy).Contents (Elt F)),
    StableHlo.binary main_v137 main_v139 main_v140 (mulf : (⟨S100000x64, .f32⟩ : BufTy).Contents (Elt F) → (⟨S100000x64, .f32⟩ : BufTy).Contents (Elt F) → (⟨S100000x64, .f32⟩ : BufTy).Contents (Elt F)),
    StableHlo.unary main_arg16 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S100000x64 ![0, 1] bcast_S1x64_S100000x64_0_1 : (⟨S1x64, .f32⟩ : BufTy).Contents (Elt F) → (⟨S100000x64, .f32⟩ : BufTy).Contents (Elt F)),
    StableHlo.binary main_v140 main_v142 main_v143 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v143 : StableHlo.TRef sig ⟨S100000x64, .f32⟩) main_call5.v0 main_call5.v1 maximumf ]

/-- Group 29 of 30: the 8 operations that end at `main_v150`. -/
abbrev seg28 : List (HloOp τ sig (Elt F)) :=
  [ StableHlo.unary main_arg17 main_v145 ((transpose S64x32 [1, 0] · transposes_S32x64_S64x32_1_0) : (⟨S32x64, .f32⟩ : BufTy).Contents (Elt F) → (⟨S64x32, .f32⟩ : BufTy).Contents (Elt F)),
    StableHlo.binary main_v144 main_v145 main_v146 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg18 main_v147 (broadcastInDim S1x32 ![1] bcast_S32_S1x32_1 : (⟨S32, .f32⟩ : BufTy).Contents (Elt F) → (⟨S1x32, .f32⟩ : BufTy).Contents (Elt F)),
    StableHlo.unary main_v147 main_v148 (broadcastInDim S100000x32 ![0, 1] bcast_S1x32_S100000x32_0_1 : (⟨S1x32, .f32⟩ : BufTy).Contents (Elt F) → (⟨S100000x32, .f32⟩ : BufTy).Contents (Elt F)),
    StableHlo.binary main_v146 main_v148 main_v149 (addf : (⟨S100000x32, .f32⟩ : BufTy).Contents (Elt F) → (⟨S100000x32, .f32⟩ : BufTy).Contents (Elt F) → (⟨S100000x32, .f32⟩ : BufTy).Contents (Elt F)),
    StableHlo.TRef.nullary main_call6.cst (constant S_ .f32 0x00000000#32),
    StableHlo.TRef.unary main_call6.cst main_call6.v0 (broadcastInDim S100000x32 ![] bcast_S_S100000x32),
    StableHlo.TRef.binary (.of main_v149 : StableHlo.TRef sig ⟨S100000x32, .f32⟩) main_call6.v0 main_call6.v1 maximumf ]

/-- Group 30 of 30: the 13 operations that end at `main_v161`. -/
abbrev seg29 : List (HloOp τ sig (Elt F)) :=
  [ StableHlo.unary main_arg19 main_v151 ((transpose S32x1 [1, 0] · transposes_S1x32_S32x1_1_0) : (⟨S1x32, .f32⟩ : BufTy).Contents (Elt F) → (⟨S32x1, .f32⟩ : BufTy).Contents (Elt F)),
    StableHlo.binary main_v150 main_v151 main_v152 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    StableHlo.unary main_arg20 main_v153 (broadcastInDim S1x1 ![1] bcast_S1_S1x1_1 : (⟨S1, .f32⟩ : BufTy).Contents (Elt F) → (⟨S1x1, .f32⟩ : BufTy).Contents (Elt F)),
    StableHlo.unary main_v153 main_v154 (broadcastInDim S100000x1 ![0, 1] bcast_S1x1_S100000x1_0_1 : (⟨S1x1, .f32⟩ : BufTy).Contents (Elt F) → (⟨S100000x1, .f32⟩ : BufTy).Contents (Elt F)),
    StableHlo.binary main_v152 main_v154 main_v155 (addf : (⟨S100000x1, .f32⟩ : BufTy).Contents (Elt F) → (⟨S100000x1, .f32⟩ : BufTy).Contents (Elt F) → (⟨S100000x1, .f32⟩ : BufTy).Contents (Elt F)),
    StableHlo.unary main_v155 main_v156 (Host.negf : (⟨S100000x1, .f32⟩ : BufTy).Contents (Elt F) → (⟨S100000x1, .f32⟩ : BufTy).Contents (Elt F)),
    StableHlo.unary main_v156 main_v157 (Host.exp : (⟨S100000x1, .f32⟩ : BufTy).Contents (Elt F) → (⟨S100000x1, .f32⟩ : BufTy).Contents (Elt F)),
    StableHlo.nullary main_cst_28 (constant S_ .f32 0x3F800000#32),
    StableHlo.unary main_cst_28 main_v158 (broadcastInDim S100000x1 ![] bcast_S_S100000x1 : (⟨S_, .f32⟩ : BufTy).Contents (Elt F) → (⟨S100000x1, .f32⟩ : BufTy).Contents (Elt F)),
    StableHlo.binary main_v158 main_v157 main_v159 (addf : (⟨S100000x1, .f32⟩ : BufTy).Contents (Elt F) → (⟨S100000x1, .f32⟩ : BufTy).Contents (Elt F) → (⟨S100000x1, .f32⟩ : BufTy).Contents (Elt F)),
    StableHlo.nullary main_cst_29 (constant S_ .f32 0x3F800000#32),
    StableHlo.unary main_cst_29 main_v160 (broadcastInDim S100000x1 ![] bcast_S_S100000x1 : (⟨S_, .f32⟩ : BufTy).Contents (Elt F) → (⟨S100000x1, .f32⟩ : BufTy).Contents (Elt F)),
    StableHlo.binary main_v160 main_v159 main_v161 (Host.divf : (⟨S100000x1, .f32⟩ : BufTy).Contents (Elt F) → (⟨S100000x1, .f32⟩ : BufTy).Contents (Elt F) → (⟨S100000x1, .f32⟩ : BufTy).Contents (Elt F)) ]

/-- @main's operations are the thirty groups in order. -/
theorem ops_segs : (ops : List (HloOp τ sig (Elt F))) = seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20 ++ (seg21 ++ (seg22 ++ (seg23 ++ (seg24 ++ (seg25 ++ (seg26 ++ (seg27 ++ (seg28 ++ (seg29))))))))))))))))))))))))))))) := rfl

/-- The contents before the first group. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl
theorem val0_main_arg19 (V0 : Valuation τ sig (Elt F)) : val0 V0 (no_index (Proc.devRef .tc main_arg19)) = V0 (Proc.devRef .tc main_arg19) := rfl
theorem val0_main_arg20 (V0 : Valuation τ sig (Elt F)) : val0 V0 (no_index (Proc.devRef .tc main_arg20)) = V0 (Proc.devRef .tc main_arg20) := rfl

/-- The contents after the first 1 group. -/
def val1 (V0 : Valuation τ sig (Elt F)) : Valuation τ sig (Elt F) := after seg0 (val0 V0)
abbrev seg0_W : List (Ref sig .tc) := [main_v0, main_v1, main_v2, main_v3]
theorem seg0_writes : (seg0 : List (HloOp τ sig (Elt F))).Forall fun op => op.writes ⊆ (seg0_W.map (Proc.devRef (τ := τ) .tc)).toFinset :=
  ⟨writes_sub_of main_v0 rfl (by decide), writes_sub_of main_v1 rfl (by decide), writes_sub_of main_v2 rfl (by decide), writes_sub_of main_v3 rfl (by decide)⟩
theorem val1_keep (V0 : Valuation τ sig (Elt F)) (r : Ref sig .tc) (h : r ∉ seg0_W) :
    val1 V0 (Proc.devRef .tc r) = val0 V0 (Proc.devRef .tc r) :=
  after_of_writes_sub seg0 _ seg0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
theorem val1_main_arg18 (V0 : Valuation τ sig (Elt F)) : val1 V0 (no_index (Proc.devRef .tc main_arg18)) = V0 (Proc.devRef .tc main_arg18) :=
  (val1_keep V0 main_arg18 (by decide)).trans (val0_main_arg18 V0)
theorem val1_main_arg19 (V0 : Valuation τ sig (Elt F)) : val1 V0 (no_index (Proc.devRef .tc main_arg19)) = V0 (Proc.devRef .tc main_arg19) :=
  (val1_keep V0 main_arg19 (by decide)).trans (val0_main_arg19 V0)
theorem val1_main_arg20 (V0 : Valuation τ sig (Elt F)) : val1 V0 (no_index (Proc.devRef .tc main_arg20)) = V0 (Proc.devRef .tc main_arg20) :=
  (val1_keep V0 main_arg20 (by decide)).trans (val0_main_arg20 V0)
theorem val1_main_v1 (V0 : Valuation τ sig (Elt F)) : val1 V0 (no_index (Proc.devRef .tc main_v1)) = ref_v1 V0 := by
  unfold val1
  simp only [seg0]
  after_results_simp
  simp only [val0_main_arg1]
  rfl
theorem val1_main_v3 (V0 : Valuation τ sig (Elt F)) : val1 V0 (no_index (Proc.devRef .tc main_v3)) = ref_v3 V0 := by
  unfold val1
  simp only [seg0]
  after_results_simp
  simp only [val0_main_arg1]
  rfl

/-- The contents after the first 2 groups. -/
def val2 (V0 : Valuation τ sig (Elt F)) : Valuation τ sig (Elt F) := after seg1 (val1 V0)
abbrev seg1_W : List (Ref sig .tc) := [main_c, main_v4, main_v5, main_c_0, main_v6, main_v7, main_v8, main_v9]
theorem seg1_writes : (seg1 : List (HloOp τ sig (Elt F))).Forall fun op => op.writes ⊆ (seg1_W.map (Proc.devRef (τ := τ) .tc)).toFinset :=
  ⟨writes_sub_of main_c rfl (by decide), writes_sub_of main_v4 rfl (by decide), writes_sub_of main_v5 rfl (by decide), writes_sub_of main_c_0 rfl (by decide), writes_sub_of main_v6 rfl (by decide), writes_sub_of main_v7 rfl (by decide), writes_sub_of main_v8 rfl (by decide), writes_sub_of main_v9 rfl (by decide)⟩
theorem val2_keep (V0 : Valuation τ sig (Elt F)) (r : Ref sig .tc) (h : r ∉ seg1_W) :
    val2 V0 (Proc.devRef .tc r) = val1 V0 (Proc.devRef .tc r) :=
  after_of_writes_sub seg1 _ seg1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_arg19 (V0 : Valuation τ sig (Elt F)) : val2 V0 (no_index (Proc.devRef .tc main_arg19)) = V0 (Proc.devRef .tc main_arg19) :=
  (val2_keep V0 main_arg19 (by decide)).trans (val1_main_arg19 V0)
theorem val2_main_arg20 (V0 : Valuation τ sig (Elt F)) : val2 V0 (no_index (Proc.devRef .tc main_arg20)) = V0 (Proc.devRef .tc main_arg20) :=
  (val2_keep V0 main_arg20 (by decide)).trans (val1_main_arg20 V0)
theorem val2_main_v1 (V0 : Valuation τ sig (Elt F)) : val2 V0 (no_index (Proc.devRef .tc main_v1)) = ref_v1 V0 :=
  (val2_keep V0 main_v1 (by decide)).trans (val1_main_v1 V0)
theorem val2_main_v3 (V0 : Valuation τ sig (Elt F)) : val2 V0 (no_index (Proc.devRef .tc main_v3)) = ref_v3 V0 :=
  (val2_keep V0 main_v3 (by decide)).trans (val1_main_v3 V0)
theorem val2_main_v9 (V0 : Valuation τ sig (Elt F)) : val2 V0 (no_index (Proc.devRef .tc main_v9)) = ref_v9 V0 := by
  unfold val2
  simp only [seg1]
  after_results_simp
  simp only [val1_main_v1]
  rfl

/-- The contents after the first 3 groups. -/
def val3 (V0 : Valuation τ sig (Elt F)) : Valuation τ sig (Elt F) := after seg2 (val2 V0)
abbrev seg2_W : List (Ref sig .tc) := [main_v10]
theorem seg2_writes : (seg2 : List (HloOp τ sig (Elt F))).Forall fun op => op.writes ⊆ (seg2_W.map (Proc.devRef (τ := τ) .tc)).toFinset :=
  (writes_sub_of main_v10 rfl (by decide))
theorem val3_keep (V0 : Valuation τ sig (Elt F)) (r : Ref sig .tc) (h : r ∉ seg2_W) :
    val3 V0 (Proc.devRef .tc r) = val2 V0 (Proc.devRef .tc r) :=
  after_of_writes_sub seg2 _ seg2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_main_arg18 V0)
theorem val3_main_arg19 (V0 : Valuation τ sig (Elt F)) : val3 V0 (no_index (Proc.devRef .tc main_arg19)) = V0 (Proc.devRef .tc main_arg19) :=
  (val3_keep V0 main_arg19 (by decide)).trans (val2_main_arg19 V0)
theorem val3_main_arg20 (V0 : Valuation τ sig (Elt F)) : val3 V0 (no_index (Proc.devRef .tc main_arg20)) = V0 (Proc.devRef .tc main_arg20) :=
  (val3_keep V0 main_arg20 (by decide)).trans (val2_main_arg20 V0)
theorem val3_main_v1 (V0 : Valuation τ sig (Elt F)) : val3 V0 (no_index (Proc.devRef .tc main_v1)) = ref_v1 V0 :=
  (val3_keep V0 main_v1 (by decide)).trans (val2_main_v1 V0)
theorem val3_main_v3 (V0 : Valuation τ sig (Elt F)) : val3 V0 (no_index (Proc.devRef .tc main_v3)) = ref_v3 V0 :=
  (val3_keep V0 main_v3 (by decide)).trans (val2_main_v3 V0)
theorem val3_main_v10 (V0 : Valuation τ sig (Elt F)) : val3 V0 (no_index (Proc.devRef .tc main_v10)) = ref_v10 V0 := by
  unfold val3
  simp only [seg2]
  after_results_simp
  simp only [val2_main_arg0, val2_main_v9]
  rfl

/-- The contents after the first 4 groups. -/
def val4 (V0 : Valuation τ sig (Elt F)) : Valuation τ sig (Elt F) := after seg3 (val3 V0)
abbrev seg3_W : List (Ref sig .tc) := [main_cst, main_v11, main_v12, main_v13]
theorem seg3_writes : (seg3 : List (HloOp τ sig (Elt F))).Forall fun op => op.writes ⊆ (seg3_W.map (Proc.devRef (τ := τ) .tc)).toFinset :=
  ⟨writes_sub_of main_cst rfl (by decide), writes_sub_of main_v11 rfl (by decide), writes_sub_of main_v12 rfl (by decide), writes_sub_of main_v13 rfl (by decide)⟩
theorem val4_keep (V0 : Valuation τ sig (Elt F)) (r : Ref sig .tc) (h : r ∉ seg3_W) :
    val4 V0 (Proc.devRef .tc r) = val3 V0 (Proc.devRef .tc r) :=
  after_of_writes_sub seg3 _ seg3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_arg18 (V0 : Valuation τ sig (Elt F)) : val4 V0 (no_index (Proc.devRef .tc main_arg18)) = V0 (Proc.devRef .tc main_arg18) :=
  (val4_keep V0 main_arg18 (by decide)).trans (val3_main_arg18 V0)
theorem val4_main_arg19 (V0 : Valuation τ sig (Elt F)) : val4 V0 (no_index (Proc.devRef .tc main_arg19)) = V0 (Proc.devRef .tc main_arg19) :=
  (val4_keep V0 main_arg19 (by decide)).trans (val3_main_arg19 V0)
theorem val4_main_arg20 (V0 : Valuation τ sig (Elt F)) : val4 V0 (no_index (Proc.devRef .tc main_arg20)) = V0 (Proc.devRef .tc main_arg20) :=
  (val4_keep V0 main_arg20 (by decide)).trans (val3_main_arg20 V0)
theorem val4_main_v1 (V0 : Valuation τ sig (Elt F)) : val4 V0 (no_index (Proc.devRef .tc main_v1)) = ref_v1 V0 :=
  (val4_keep V0 main_v1 (by decide)).trans (val3_main_v1 V0)
theorem val4_main_v3 (V0 : Valuation τ sig (Elt F)) : val4 V0 (no_index (Proc.devRef .tc main_v3)) = ref_v3 V0 :=
  (val4_keep V0 main_v3 (by decide)).trans (val3_main_v3 V0)
theorem val4_main_v13 (V0 : Valuation τ sig (Elt F)) : val4 V0 (no_index (Proc.devRef .tc main_v13)) = ref_v13 V0 := by
  unfold val4
  simp only [seg3]
  after_results_simp
  simp only [val3_main_v3, val3_main_v10]
  rfl

/-- The contents after the first 5 groups. -/
def val5 (V0 : Valuation τ sig (Elt F)) : Valuation τ sig (Elt F) := after seg4 (val4 V0)
abbrev seg4_W : List (Ref sig .tc) := [main_cst_1, main_v14, main_cst_2, main_v15, main_v16, main_v17]
theorem seg4_writes : (seg4 : List (HloOp τ sig (Elt F))).Forall fun op => op.writes ⊆ (seg4_W.map (Proc.devRef (τ := τ) .tc)).toFinset :=
  ⟨writes_sub_of main_cst_1 rfl (by decide), writes_sub_of main_v14 rfl (by decide), writes_sub_of main_cst_2 rfl (by decide), writes_sub_of main_v15 rfl (by decide), writes_sub_of main_v16 rfl (by decide), writes_sub_of main_v17 rfl (by decide)⟩
theorem val5_keep (V0 : Valuation τ sig (Elt F)) (r : Ref sig .tc) (h : r ∉ seg4_W) :
    val5 V0 (Proc.devRef .tc r) = val4 V0 (Proc.devRef .tc r) :=
  after_of_writes_sub seg4 _ seg4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_arg18 (V0 : Valuation τ sig (Elt F)) : val5 V0 (no_index (Proc.devRef .tc main_arg18)) = V0 (Proc.devRef .tc main_arg18) :=
  (val5_keep V0 main_arg18 (by decide)).trans (val4_main_arg18 V0)
theorem val5_main_arg19 (V0 : Valuation τ sig (Elt F)) : val5 V0 (no_index (Proc.devRef .tc main_arg19)) = V0 (Proc.devRef .tc main_arg19) :=
  (val5_keep V0 main_arg19 (by decide)).trans (val4_main_arg19 V0)
theorem val5_main_arg20 (V0 : Valuation τ sig (Elt F)) : val5 V0 (no_index (Proc.devRef .tc main_arg20)) = V0 (Proc.devRef .tc main_arg20) :=
  (val5_keep V0 main_arg20 (by decide)).trans (val4_main_arg20 V0)
theorem val5_main_v1 (V0 : Valuation τ sig (Elt F)) : val5 V0 (no_index (Proc.devRef .tc main_v1)) = ref_v1 V0 :=
  (val5_keep V0 main_v1 (by decide)).trans (val4_main_v1 V0)
theorem val5_main_v3 (V0 : Valuation τ sig (Elt F)) : val5 V0 (no_index (Proc.devRef .tc main_v3)) = ref_v3 V0 :=
  (val5_keep V0 main_v3 (by decide)).trans (val4_main_v3 V0)
theorem val5_main_v13 (V0 : Valuation τ sig (Elt F)) : val5 V0 (no_index (Proc.devRef .tc main_v13)) = ref_v13 V0 :=
  (val5_keep V0 main_v13 (by decide)).trans (val4_main_v13 V0)
theorem val5_main_v17 (V0 : Valuation τ sig (Elt F)) : val5 V0 (no_index (Proc.devRef .tc main_v17)) = ref_v17 V0 := by
  unfold val5
  simp only [seg4]
  after_results_simp
  simp only [val4_main_v3]
  rfl

/-- The contents after the first 6 groups. -/
def val6 (V0 : Valuation τ sig (Elt F)) : Valuation τ sig (Elt F) := after seg5 (val5 V0)
abbrev seg5_W : List (Ref sig .tc) := [main_cst_3, main_v18, main_v19, main_v20, main_v21, main_v22]
theorem seg5_writes : (seg5 : List (HloOp τ sig (Elt F))).Forall fun op => op.writes ⊆ (seg5_W.map (Proc.devRef (τ := τ) .tc)).toFinset :=
  ⟨writes_sub_of main_cst_3 rfl (by decide), writes_sub_of main_v18 rfl (by decide), writes_sub_of main_v19 rfl (by decide), writes_sub_of main_v20 rfl (by decide), writes_sub_of main_v21 rfl (by decide), writes_sub_of main_v22 rfl (by decide)⟩
theorem val6_keep (V0 : Valuation τ sig (Elt F)) (r : Ref sig .tc) (h : r ∉ seg5_W) :
    val6 V0 (Proc.devRef .tc r) = val5 V0 (Proc.devRef .tc r) :=
  after_of_writes_sub seg5 _ seg5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_arg17 (V0 : Valuation τ sig (Elt F)) : val6 V0 (no_index (Proc.devRef .tc main_arg17)) = V0 (Proc.devRef .tc main_arg17) :=
  (val6_keep V0 main_arg17 (by decide)).trans (val5_main_arg17 V0)
theorem val6_main_arg18 (V0 : Valuation τ sig (Elt F)) : val6 V0 (no_index (Proc.devRef .tc main_arg18)) = V0 (Proc.devRef .tc main_arg18) :=
  (val6_keep V0 main_arg18 (by decide)).trans (val5_main_arg18 V0)
theorem val6_main_arg19 (V0 : Valuation τ sig (Elt F)) : val6 V0 (no_index (Proc.devRef .tc main_arg19)) = V0 (Proc.devRef .tc main_arg19) :=
  (val6_keep V0 main_arg19 (by decide)).trans (val5_main_arg19 V0)
theorem val6_main_arg20 (V0 : Valuation τ sig (Elt F)) : val6 V0 (no_index (Proc.devRef .tc main_arg20)) = V0 (Proc.devRef .tc main_arg20) :=
  (val6_keep V0 main_arg20 (by decide)).trans (val5_main_arg20 V0)
theorem val6_main_v1 (V0 : Valuation τ sig (Elt F)) : val6 V0 (no_index (Proc.devRef .tc main_v1)) = ref_v1 V0 :=
  (val6_keep V0 main_v1 (by decide)).trans (val5_main_v1 V0)
theorem val6_main_v3 (V0 : Valuation τ sig (Elt F)) : val6 V0 (no_index (Proc.devRef .tc main_v3)) = ref_v3 V0 :=
  (val6_keep V0 main_v3 (by decide)).trans (val5_main_v3 V0)
theorem val6_main_v22 (V0 : Valuation τ sig (Elt F)) : val6 V0 (no_index (Proc.devRef .tc main_v22)) = ref_v22 V0 := by
  unfold val6
  simp only [seg5]
  after_results_simp
  simp only [val5_main_v13, val5_main_v17]
  rfl

/-- The contents after the first 7 groups. -/
def val7 (V0 : Valuation τ sig (Elt F)) : Valuation τ sig (Elt F) := after seg6 (val6 V0)
abbrev seg6_W : List (Ref sig .tc) := [main_v23, main_v24, main_v25, main_v26, main_v27, main_v28, main_v29, main_v30]
theorem seg6_writes : (seg6 : List (HloOp τ sig (Elt F))).Forall fun op => op.writes ⊆ (seg6_W.map (Proc.devRef (τ := τ) .tc)).toFinset :=
  ⟨writes_sub_of main_v23 rfl (by decide), writes_sub_of main_v24 rfl (by decide), writes_sub_of main_v25 rfl (by decide), writes_sub_of main_v26 rfl (by decide), writes_sub_of main_v27 rfl (by decide), writes_sub_of main_v28 rfl (by decide), writes_sub_of main_v29 rfl (by decide), writes_sub_of main_v30 rfl (by decide)⟩
theorem val7_keep (V0 : Valuation τ sig (Elt F)) (r : Ref sig .tc) (h : r ∉ seg6_W) :
    val7 V0 (Proc.devRef .tc r) = val6 V0 (Proc.devRef .tc r) :=
  after_of_writes_sub seg6 _ seg6_writes h
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_arg17 (V0 : Valuation τ sig (Elt F)) : val7 V0 (no_index (Proc.devRef .tc main_arg17)) = V0 (Proc.devRef .tc main_arg17) :=
  (val7_keep V0 main_arg17 (by decide)).trans (val6_main_arg17 V0)
theorem val7_main_arg18 (V0 : Valuation τ sig (Elt F)) : val7 V0 (no_index (Proc.devRef .tc main_arg18)) = V0 (Proc.devRef .tc main_arg18) :=
  (val7_keep V0 main_arg18 (by decide)).trans (val6_main_arg18 V0)
theorem val7_main_arg19 (V0 : Valuation τ sig (Elt F)) : val7 V0 (no_index (Proc.devRef .tc main_arg19)) = V0 (Proc.devRef .tc main_arg19) :=
  (val7_keep V0 main_arg19 (by decide)).trans (val6_main_arg19 V0)
theorem val7_main_arg20 (V0 : Valuation τ sig (Elt F)) : val7 V0 (no_index (Proc.devRef .tc main_arg20)) = V0 (Proc.devRef .tc main_arg20) :=
  (val7_keep V0 main_arg20 (by decide)).trans (val6_main_arg20 V0)
theorem val7_main_v1 (V0 : Valuation τ sig (Elt F)) : val7 V0 (no_index (Proc.devRef .tc main_v1)) = ref_v1 V0 :=
  (val7_keep V0 main_v1 (by decide)).trans (val6_main_v1 V0)
theorem val7_main_v3 (V0 : Valuation τ sig (Elt F)) : val7 V0 (no_index (Proc.devRef .tc main_v3)) = ref_v3 V0 :=
  (val7_keep V0 main_v3 (by decide)).trans (val6_main_v3 V0)
theorem val7_main_v30 (V0 : Valuation τ sig (Elt F)) : val7 V0 (no_index (Proc.devRef .tc main_v30)) = ref_v30 V0 := by
  unfold val7
  simp only [seg6]
  after_results_simp
  simp only [val6_main_v22, val6_main_arg2, val6_main_arg3, val6_main_arg0, val6_main_arg4]
  rfl

/-- The contents after the first 8 groups. -/
def val8 (V0 : Valuation τ sig (Elt F)) : Valuation τ sig (Elt F) := after seg7 (val7 V0)
abbrev seg7_W : List (Ref sig .tc) := [main_cst_4, main_v31, main_cst_5, main_v32, main_v33]
theorem seg7_writes : (seg7 : List (HloOp τ sig (Elt F))).Forall fun op => op.writes ⊆ (seg7_W.map (Proc.devRef (τ := τ) .tc)).toFinset :=
  ⟨writes_sub_of main_cst_4 rfl (by decide), writes_sub_of main_v31 rfl (by decide), writes_sub_of main_cst_5 rfl (by decide), writes_sub_of main_v32 rfl (by decide), writes_sub_of main_v33 rfl (by decide)⟩
theorem val8_keep (V0 : Valuation τ sig (Elt F)) (r : Ref sig .tc) (h : r ∉ seg7_W) :
    val8 V0 (Proc.devRef .tc r) = val7 V0 (Proc.devRef .tc r) :=
  after_of_writes_sub seg7 _ seg7_writes h
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)
theorem val8_main_arg17 (V0 : Valuation τ sig (Elt F)) : val8 V0 (no_index (Proc.devRef .tc main_arg17)) = V0 (Proc.devRef .tc main_arg17) :=
  (val8_keep V0 main_arg17 (by decide)).trans (val7_main_arg17 V0)
theorem val8_main_arg18 (V0 : Valuation τ sig (Elt F)) : val8 V0 (no_index (Proc.devRef .tc main_arg18)) = V0 (Proc.devRef .tc main_arg18) :=
  (val8_keep V0 main_arg18 (by decide)).trans (val7_main_arg18 V0)
theorem val8_main_arg19 (V0 : Valuation τ sig (Elt F)) : val8 V0 (no_index (Proc.devRef .tc main_arg19)) = V0 (Proc.devRef .tc main_arg19) :=
  (val8_keep V0 main_arg19 (by decide)).trans (val7_main_arg19 V0)
theorem val8_main_arg20 (V0 : Valuation τ sig (Elt F)) : val8 V0 (no_index (Proc.devRef .tc main_arg20)) = V0 (Proc.devRef .tc main_arg20) :=
  (val8_keep V0 main_arg20 (by decide)).trans (val7_main_arg20 V0)
theorem val8_main_v1 (V0 : Valuation τ sig (Elt F)) : val8 V0 (no_index (Proc.devRef .tc main_v1)) = ref_v1 V0 :=
  (val8_keep V0 main_v1 (by decide)).trans (val7_main_v1 V0)
theorem val8_main_v3 (V0 : Valuation τ sig (Elt F)) : val8 V0 (no_index (Proc.devRef .tc main_v3)) = ref_v3 V0 :=
  (val8_keep V0 main_v3 (by decide)).trans (val7_main_v3 V0)
theorem val8_main_v30 (V0 : Valuation τ sig (Elt F)) : val8 V0 (no_index (Proc.devRef .tc main_v30)) = ref_v30 V0 :=
  (val8_keep V0 main_v30 (by decide)).trans (val7_main_v30 V0)
theorem val8_main_v33 (V0 : Valuation τ sig (Elt F)) : val8 V0 (no_index (Proc.devRef .tc main_v33)) = ref_v33 V0 := by
  unfold val8
  simp only [seg7]
  after_results_simp
  simp only [val7_main_v30]
  rfl

/-- The contents after the first 9 groups. -/
def val9 (V0 : Valuation τ sig (Elt F)) : Valuation τ sig (Elt F) := after seg8 (val8 V0)
abbrev seg8_W : List (Ref sig .tc) := [main_c_6, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]
theorem seg8_writes : (seg8 : List (HloOp τ sig (Elt F))).Forall fun op => op.writes ⊆ (seg8_W.map (Proc.devRef (τ := τ) .tc)).toFinset :=
  ⟨writes_sub_of main_c_6 rfl (by decide), writes_sub_of (main_call0.cst.ref) rfl (by decide), writes_sub_of (main_call0.v0.ref) rfl (by decide), writes_sub_of (main_call0.v1.ref) rfl (by decide), writes_sub_of (main_call0.cst_0.ref) rfl (by decide), writes_sub_of (main_call0.v2.ref) rfl (by decide), writes_sub_of (main_call0.v3.ref) rfl (by decide), writes_sub_of (main_call0.v4.ref) rfl (by decide), writes_sub_of (main_call0.v5.ref) rfl (by decide), writes_sub_of (main_call0.v6.ref) rfl (by decide), writes_sub_of (main_call0.v7.ref) rfl (by decide), writes_sub_of (main_call0.cst_1.ref) rfl (by decide), writes_sub_of (main_call0.v8.ref) rfl (by decide), writes_sub_of (main_call0.cst_2.ref) rfl (by decide), writes_sub_of (main_call0.v9.ref) rfl (by decide), writes_sub_of (main_call0.v10.ref) rfl (by decide), writes_sub_of (main_call0.v11.ref) rfl (by decide), writes_sub_of (main_call0.cst_3.ref) rfl (by decide), writes_sub_of (main_call0.v12.ref) rfl (by decide), writes_sub_of (main_call0.cst_4.ref) rfl (by decide), writes_sub_of (main_call0.call0.v0.ref) rfl (by decide), writes_sub_of (main_call0.call0.v1.ref) rfl (by decide), writes_sub_of (main_call0.call0.v2.ref) rfl (by decide)⟩
theorem val9_keep (V0 : Valuation τ sig (Elt F)) (r : Ref sig .tc) (h : r ∉ seg8_W) :
    val9 V0 (Proc.devRef .tc r) = val8 V0 (Proc.devRef .tc r) :=
  after_of_writes_sub seg8 _ seg8_writes h
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)
theorem val9_main_arg17 (V0 : Valuation τ sig (Elt F)) : val9 V0 (no_index (Proc.devRef .tc main_arg17)) = V0 (Proc.devRef .tc main_arg17) :=
  (val9_keep V0 main_arg17 (by decide)).trans (val8_main_arg17 V0)
theorem val9_main_arg18 (V0 : Valuation τ sig (Elt F)) : val9 V0 (no_index (Proc.devRef .tc main_arg18)) = V0 (Proc.devRef .tc main_arg18) :=
  (val9_keep V0 main_arg18 (by decide)).trans (val8_main_arg18 V0)
theorem val9_main_arg19 (V0 : Valuation τ sig (Elt F)) : val9 V0 (no_index (Proc.devRef .tc main_arg19)) = V0 (Proc.devRef .tc main_arg19) :=
  (val9_keep V0 main_arg19 (by decide)).trans (val8_main_arg19 V0)
theorem val9_main_arg20 (V0 : Valuation τ sig (Elt F)) : val9 V0 (no_index (Proc.devRef .tc main_arg20)) = V0 (Proc.devRef .tc main_arg20) :=
  (val9_keep V0 main_arg20 (by decide)).trans (val8_main_arg20 V0)
theorem val9_main_v1 (V0 : Valuation τ sig (Elt F)) : val9 V0 (no_index (Proc.devRef .tc main_v1)) = ref_v1 V0 :=
  (val9_keep V0 main_v1 (by decide)).trans (val8_main_v1 V0)
theorem val9_main_v3 (V0 : Valuation τ sig (Elt F)) : val9 V0 (no_index (Proc.devRef .tc main_v3)) = ref_v3 V0 :=
  (val9_keep V0 main_v3 (by decide)).trans (val8_main_v3 V0)
theorem val9_main_v30 (V0 : Valuation τ sig (Elt F)) : val9 V0 (no_index (Proc.devRef .tc main_v30)) = ref_v30 V0 :=
  (val9_keep V0 main_v30 (by decide)).trans (val8_main_v30 V0)
theorem val9_main_v33 (V0 : Valuation τ sig (Elt F)) : val9 V0 (no_index (Proc.devRef .tc main_v33)) = ref_v33 V0 :=
  (val9_keep V0 main_v33 (by decide)).trans (val8_main_v33 V0)
theorem val9_main_v34 (V0 : Valuation τ sig (Elt F)) : val9 V0 (no_index (Proc.devRef .tc main_v34)) = ref_v34 V0 := by
  unfold val9
  simp only [seg8]
  after_results_simp
  simp only [val8_main_v30]
  rfl

/-- The contents after the first 10 groups. -/
def val10 (V0 : Valuation τ sig (Elt F)) : Valuation τ sig (Elt F) := after seg9 (val9 V0)
abbrev seg9_W : List (Ref sig .tc) := [main_v35, main_v36, main_v37, main_cst_7, main_v38, main_v39, main_v40, main_v41, main_v42, main_v43, main_v44, main_v45, main_v46, main_v47, main_v48, main_v49, main_call1.cst.ref, main_call1.v0.ref, main_call1.v1.ref]
theorem seg9_writes : (seg9 : List (HloOp τ sig (Elt F))).Forall fun op => op.writes ⊆ (seg9_W.map (Proc.devRef (τ := τ) .tc)).toFinset :=
  ⟨writes_sub_of main_v35 rfl (by decide), writes_sub_of main_v36 rfl (by decide), writes_sub_of main_v37 rfl (by decide), writes_sub_of main_cst_7 rfl (by decide), writes_sub_of main_v38 rfl (by decide), writes_sub_of main_v39 rfl (by decide), writes_sub_of main_v40 rfl (by decide), writes_sub_of main_v41 rfl (by decide), writes_sub_of main_v42 rfl (by decide), writes_sub_of main_v43 rfl (by decide), writes_sub_of main_v44 rfl (by decide), writes_sub_of main_v45 rfl (by decide), writes_sub_of main_v46 rfl (by decide), writes_sub_of main_v47 rfl (by decide), writes_sub_of main_v48 rfl (by decide), writes_sub_of main_v49 rfl (by decide), writes_sub_of (main_call1.cst.ref) rfl (by decide), writes_sub_of (main_call1.v0.ref) rfl (by decide), writes_sub_of (main_call1.v1.ref) rfl (by decide)⟩
theorem val10_keep (V0 : Valuation τ sig (Elt F)) (r : Ref sig .tc) (h : r ∉ seg9_W) :
    val10 V0 (Proc.devRef .tc r) = val9 V0 (Proc.devRef .tc r) :=
  after_of_writes_sub seg9 _ seg9_writes h
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_arg13 (V0 : Valuation τ sig (Elt F)) : val10 V0 (no_index (Proc.devRef .tc main_arg13)) = V0 (Proc.devRef .tc main_arg13) :=
  (val10_keep V0 main_arg13 (by decide)).trans (val9_main_arg13 V0)
theorem val10_main_arg14 (V0 : Valuation τ sig (Elt F)) : val10 V0 (no_index (Proc.devRef .tc main_arg14)) = V0 (Proc.devRef .tc main_arg14) :=
  (val10_keep V0 main_arg14 (by decide)).trans (val9_main_arg14 V0)
theorem val10_main_arg15 (V0 : Valuation τ sig (Elt F)) : val10 V0 (no_index (Proc.devRef .tc main_arg15)) = V0 (Proc.devRef .tc main_arg15) :=
  (val10_keep V0 main_arg15 (by decide)).trans (val9_main_arg15 V0)
theorem val10_main_arg16 (V0 : Valuation τ sig (Elt F)) : val10 V0 (no_index (Proc.devRef .tc main_arg16)) = V0 (Proc.devRef .tc main_arg16) :=
  (val10_keep V0 main_arg16 (by decide)).trans (val9_main_arg16 V0)
theorem val10_main_arg17 (V0 : Valuation τ sig (Elt F)) : val10 V0 (no_index (Proc.devRef .tc main_arg17)) = V0 (Proc.devRef .tc main_arg17) :=
  (val10_keep V0 main_arg17 (by decide)).trans (val9_main_arg17 V0)
theorem val10_main_arg18 (V0 : Valuation τ sig (Elt F)) : val10 V0 (no_index (Proc.devRef .tc main_arg18)) = V0 (Proc.devRef .tc main_arg18) :=
  (val10_keep V0 main_arg18 (by decide)).trans (val9_main_arg18 V0)
theorem val10_main_arg19 (V0 : Valuation τ sig (Elt F)) : val10 V0 (no_index (Proc.devRef .tc main_arg19)) = V0 (Proc.devRef .tc main_arg19) :=
  (val10_keep V0 main_arg19 (by decide)).trans (val9_main_arg19 V0)
theorem val10_main_arg20 (V0 : Valuation τ sig (Elt F)) : val10 V0 (no_index (Proc.devRef .tc main_arg20)) = V0 (Proc.devRef .tc main_arg20) :=
  (val10_keep V0 main_arg20 (by decide)).trans (val9_main_arg20 V0)
theorem val10_main_v1 (V0 : Valuation τ sig (Elt F)) : val10 V0 (no_index (Proc.devRef .tc main_v1)) = ref_v1 V0 :=
  (val10_keep V0 main_v1 (by decide)).trans (val9_main_v1 V0)
theorem val10_main_v3 (V0 : Valuation τ sig (Elt F)) : val10 V0 (no_index (Proc.devRef .tc main_v3)) = ref_v3 V0 :=
  (val10_keep V0 main_v3 (by decide)).trans (val9_main_v3 V0)
theorem val10_main_v50 (V0 : Valuation τ sig (Elt F)) : val10 V0 (no_index (Proc.devRef .tc main_v50)) = ref_v50 V0 := by
  unfold val10
  simp only [seg9]
  after_results_simp
  simp only [val9_main_v30, val9_main_v33, val9_main_v34, val9_main_arg5, val9_main_arg6]
  rfl

/-- The contents after the first 11 groups. -/
def val11 (V0 : Valuation τ sig (Elt F)) : Valuation τ sig (Elt F) := after seg10 (val10 V0)
abbrev seg10_W : List (Ref sig .tc) := [main_c_8, main_v51, main_v52, main_c_9, main_v53, main_v54, main_v55, main_v56]
theorem seg10_writes : (seg10 : List (HloOp τ sig (Elt F))).Forall fun op => op.writes ⊆ (seg10_W.map (Proc.devRef (τ := τ) .tc)).toFinset :=
  ⟨writes_sub_of main_c_8 rfl (by decide), writes_sub_of main_v51 rfl (by decide), writes_sub_of main_v52 rfl (by decide), writes_sub_of main_c_9 rfl (by decide), writes_sub_of main_v53 rfl (by decide), writes_sub_of main_v54 rfl (by decide), writes_sub_of main_v55 rfl (by decide), writes_sub_of main_v56 rfl (by decide)⟩
theorem val11_keep (V0 : Valuation τ sig (Elt F)) (r : Ref sig .tc) (h : r ∉ seg10_W) :
    val11 V0 (Proc.devRef .tc r) = val10 V0 (Proc.devRef .tc r) :=
  after_of_writes_sub seg10 _ seg10_writes h
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_arg11 (V0 : Valuation τ sig (Elt F)) : val11 V0 (no_index (Proc.devRef .tc main_arg11)) = V0 (Proc.devRef .tc main_arg11) :=
  (val11_keep V0 main_arg11 (by decide)).trans (val10_main_arg11 V0)
theorem val11_main_arg12 (V0 : Valuation τ sig (Elt F)) : val11 V0 (no_index (Proc.devRef .tc main_arg12)) = V0 (Proc.devRef .tc main_arg12) :=
  (val11_keep V0 main_arg12 (by decide)).trans (val10_main_arg12 V0)
theorem val11_main_arg13 (V0 : Valuation τ sig (Elt F)) : val11 V0 (no_index (Proc.devRef .tc main_arg13)) = V0 (Proc.devRef .tc main_arg13) :=
  (val11_keep V0 main_arg13 (by decide)).trans (val10_main_arg13 V0)
theorem val11_main_arg14 (V0 : Valuation τ sig (Elt F)) : val11 V0 (no_index (Proc.devRef .tc main_arg14)) = V0 (Proc.devRef .tc main_arg14) :=
  (val11_keep V0 main_arg14 (by decide)).trans (val10_main_arg14 V0)
theorem val11_main_arg15 (V0 : Valuation τ sig (Elt F)) : val11 V0 (no_index (Proc.devRef .tc main_arg15)) = V0 (Proc.devRef .tc main_arg15) :=
  (val11_keep V0 main_arg15 (by decide)).trans (val10_main_arg15 V0)
theorem val11_main_arg16 (V0 : Valuation τ sig (Elt F)) : val11 V0 (no_index (Proc.devRef .tc main_arg16)) = V0 (Proc.devRef .tc main_arg16) :=
  (val11_keep V0 main_arg16 (by decide)).trans (val10_main_arg16 V0)
theorem val11_main_arg17 (V0 : Valuation τ sig (Elt F)) : val11 V0 (no_index (Proc.devRef .tc main_arg17)) = V0 (Proc.devRef .tc main_arg17) :=
  (val11_keep V0 main_arg17 (by decide)).trans (val10_main_arg17 V0)
theorem val11_main_arg18 (V0 : Valuation τ sig (Elt F)) : val11 V0 (no_index (Proc.devRef .tc main_arg18)) = V0 (Proc.devRef .tc main_arg18) :=
  (val11_keep V0 main_arg18 (by decide)).trans (val10_main_arg18 V0)
theorem val11_main_arg19 (V0 : Valuation τ sig (Elt F)) : val11 V0 (no_index (Proc.devRef .tc main_arg19)) = V0 (Proc.devRef .tc main_arg19) :=
  (val11_keep V0 main_arg19 (by decide)).trans (val10_main_arg19 V0)
theorem val11_main_arg20 (V0 : Valuation τ sig (Elt F)) : val11 V0 (no_index (Proc.devRef .tc main_arg20)) = V0 (Proc.devRef .tc main_arg20) :=
  (val11_keep V0 main_arg20 (by decide)).trans (val10_main_arg20 V0)
theorem val11_main_v1 (V0 : Valuation τ sig (Elt F)) : val11 V0 (no_index (Proc.devRef .tc main_v1)) = ref_v1 V0 :=
  (val11_keep V0 main_v1 (by decide)).trans (val10_main_v1 V0)
theorem val11_main_v3 (V0 : Valuation τ sig (Elt F)) : val11 V0 (no_index (Proc.devRef .tc main_v3)) = ref_v3 V0 :=
  (val11_keep V0 main_v3 (by decide)).trans (val10_main_v3 V0)
theorem val11_main_v50 (V0 : Valuation τ sig (Elt F)) : val11 V0 (no_index (Proc.devRef .tc main_v50)) = ref_v50 V0 :=
  (val11_keep V0 main_v50 (by decide)).trans (val10_main_v50 V0)
theorem val11_main_v56 (V0 : Valuation τ sig (Elt F)) : val11 V0 (no_index (Proc.devRef .tc main_v56)) = ref_v56 V0 := by
  unfold val11
  simp only [seg10]
  after_results_simp
  simp only [val10_main_v1]
  rfl

/-- The contents after the first 12 groups. -/
def val12 (V0 : Valuation τ sig (Elt F)) : Valuation τ sig (Elt F) := after seg11 (val11 V0)
abbrev seg11_W : List (Ref sig .tc) := [main_v57]
theorem seg11_writes : (seg11 : List (HloOp τ sig (Elt F))).Forall fun op => op.writes ⊆ (seg11_W.map (Proc.devRef (τ := τ) .tc)).toFinset :=
  (writes_sub_of main_v57 rfl (by decide))
theorem val12_keep (V0 : Valuation τ sig (Elt F)) (r : Ref sig .tc) (h : r ∉ seg11_W) :
    val12 V0 (Proc.devRef .tc r) = val11 V0 (Proc.devRef .tc r) :=
  after_of_writes_sub seg11 _ seg11_writes h
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_arg8 (V0 : Valuation τ sig (Elt F)) : val12 V0 (no_index (Proc.devRef .tc main_arg8)) = V0 (Proc.devRef .tc main_arg8) :=
  (val12_keep V0 main_arg8 (by decide)).trans (val11_main_arg8 V0)
theorem val12_main_arg9 (V0 : Valuation τ sig (Elt F)) : val12 V0 (no_index (Proc.devRef .tc main_arg9)) = V0 (Proc.devRef .tc main_arg9) :=
  (val12_keep V0 main_arg9 (by decide)).trans (val11_main_arg9 V0)
theorem val12_main_arg10 (V0 : Valuation τ sig (Elt F)) : val12 V0 (no_index (Proc.devRef .tc main_arg10)) = V0 (Proc.devRef .tc main_arg10) :=
  (val12_keep V0 main_arg10 (by decide)).trans (val11_main_arg10 V0)
theorem val12_main_arg11 (V0 : Valuation τ sig (Elt F)) : val12 V0 (no_index (Proc.devRef .tc main_arg11)) = V0 (Proc.devRef .tc main_arg11) :=
  (val12_keep V0 main_arg11 (by decide)).trans (val11_main_arg11 V0)
theorem val12_main_arg12 (V0 : Valuation τ sig (Elt F)) : val12 V0 (no_index (Proc.devRef .tc main_arg12)) = V0 (Proc.devRef .tc main_arg12) :=
  (val12_keep V0 main_arg12 (by decide)).trans (val11_main_arg12 V0)
theorem val12_main_arg13 (V0 : Valuation τ sig (Elt F)) : val12 V0 (no_index (Proc.devRef .tc main_arg13)) = V0 (Proc.devRef .tc main_arg13) :=
  (val12_keep V0 main_arg13 (by decide)).trans (val11_main_arg13 V0)
theorem val12_main_arg14 (V0 : Valuation τ sig (Elt F)) : val12 V0 (no_index (Proc.devRef .tc main_arg14)) = V0 (Proc.devRef .tc main_arg14) :=
  (val12_keep V0 main_arg14 (by decide)).trans (val11_main_arg14 V0)
theorem val12_main_arg15 (V0 : Valuation τ sig (Elt F)) : val12 V0 (no_index (Proc.devRef .tc main_arg15)) = V0 (Proc.devRef .tc main_arg15) :=
  (val12_keep V0 main_arg15 (by decide)).trans (val11_main_arg15 V0)
theorem val12_main_arg16 (V0 : Valuation τ sig (Elt F)) : val12 V0 (no_index (Proc.devRef .tc main_arg16)) = V0 (Proc.devRef .tc main_arg16) :=
  (val12_keep V0 main_arg16 (by decide)).trans (val11_main_arg16 V0)
theorem val12_main_arg17 (V0 : Valuation τ sig (Elt F)) : val12 V0 (no_index (Proc.devRef .tc main_arg17)) = V0 (Proc.devRef .tc main_arg17) :=
  (val12_keep V0 main_arg17 (by decide)).trans (val11_main_arg17 V0)
theorem val12_main_arg18 (V0 : Valuation τ sig (Elt F)) : val12 V0 (no_index (Proc.devRef .tc main_arg18)) = V0 (Proc.devRef .tc main_arg18) :=
  (val12_keep V0 main_arg18 (by decide)).trans (val11_main_arg18 V0)
theorem val12_main_arg19 (V0 : Valuation τ sig (Elt F)) : val12 V0 (no_index (Proc.devRef .tc main_arg19)) = V0 (Proc.devRef .tc main_arg19) :=
  (val12_keep V0 main_arg19 (by decide)).trans (val11_main_arg19 V0)
theorem val12_main_arg20 (V0 : Valuation τ sig (Elt F)) : val12 V0 (no_index (Proc.devRef .tc main_arg20)) = V0 (Proc.devRef .tc main_arg20) :=
  (val12_keep V0 main_arg20 (by decide)).trans (val11_main_arg20 V0)
theorem val12_main_v1 (V0 : Valuation τ sig (Elt F)) : val12 V0 (no_index (Proc.devRef .tc main_v1)) = ref_v1 V0 :=
  (val12_keep V0 main_v1 (by decide)).trans (val11_main_v1 V0)
theorem val12_main_v3 (V0 : Valuation τ sig (Elt F)) : val12 V0 (no_index (Proc.devRef .tc main_v3)) = ref_v3 V0 :=
  (val12_keep V0 main_v3 (by decide)).trans (val11_main_v3 V0)
theorem val12_main_v50 (V0 : Valuation τ sig (Elt F)) : val12 V0 (no_index (Proc.devRef .tc main_v50)) = ref_v50 V0 :=
  (val12_keep V0 main_v50 (by decide)).trans (val11_main_v50 V0)
theorem val12_main_v57 (V0 : Valuation τ sig (Elt F)) : val12 V0 (no_index (Proc.devRef .tc main_v57)) = ref_v57 V0 := by
  unfold val12
  simp only [seg11]
  after_results_simp
  simp only [val11_main_v50, val11_main_v56]
  rfl

/-- The contents after the first 13 groups. -/
def val13 (V0 : Valuation τ sig (Elt F)) : Valuation τ sig (Elt F) := after seg12 (val12 V0)
abbrev seg12_W : List (Ref sig .tc) := [main_cst_10, main_v58, main_v59, main_v60]
theorem seg12_writes : (seg12 : List (HloOp τ sig (Elt F))).Forall fun op => op.writes ⊆ (seg12_W.map (Proc.devRef (τ := τ) .tc)).toFinset :=
  ⟨writes_sub_of main_cst_10 rfl (by decide), writes_sub_of main_v58 rfl (by decide), writes_sub_of main_v59 rfl (by decide), writes_sub_of main_v60 rfl (by decide)⟩
theorem val13_keep (V0 : Valuation τ sig (Elt F)) (r : Ref sig .tc) (h : r ∉ seg12_W) :
    val13 V0 (Proc.devRef .tc r) = val12 V0 (Proc.devRef .tc r) :=
  after_of_writes_sub seg12 _ seg12_writes h
theorem val13_main_arg7 (V0 : Valuation τ sig (Elt F)) : val13 V0 (no_index (Proc.devRef .tc main_arg7)) = V0 (Proc.devRef .tc main_arg7) :=
  (val13_keep V0 main_arg7 (by decide)).trans (val12_main_arg7 V0)
theorem val13_main_arg8 (V0 : Valuation τ sig (Elt F)) : val13 V0 (no_index (Proc.devRef .tc main_arg8)) = V0 (Proc.devRef .tc main_arg8) :=
  (val13_keep V0 main_arg8 (by decide)).trans (val12_main_arg8 V0)
theorem val13_main_arg9 (V0 : Valuation τ sig (Elt F)) : val13 V0 (no_index (Proc.devRef .tc main_arg9)) = V0 (Proc.devRef .tc main_arg9) :=
  (val13_keep V0 main_arg9 (by decide)).trans (val12_main_arg9 V0)
theorem val13_main_arg10 (V0 : Valuation τ sig (Elt F)) : val13 V0 (no_index (Proc.devRef .tc main_arg10)) = V0 (Proc.devRef .tc main_arg10) :=
  (val13_keep V0 main_arg10 (by decide)).trans (val12_main_arg10 V0)
theorem val13_main_arg11 (V0 : Valuation τ sig (Elt F)) : val13 V0 (no_index (Proc.devRef .tc main_arg11)) = V0 (Proc.devRef .tc main_arg11) :=
  (val13_keep V0 main_arg11 (by decide)).trans (val12_main_arg11 V0)
theorem val13_main_arg12 (V0 : Valuation τ sig (Elt F)) : val13 V0 (no_index (Proc.devRef .tc main_arg12)) = V0 (Proc.devRef .tc main_arg12) :=
  (val13_keep V0 main_arg12 (by decide)).trans (val12_main_arg12 V0)
theorem val13_main_arg13 (V0 : Valuation τ sig (Elt F)) : val13 V0 (no_index (Proc.devRef .tc main_arg13)) = V0 (Proc.devRef .tc main_arg13) :=
  (val13_keep V0 main_arg13 (by decide)).trans (val12_main_arg13 V0)
theorem val13_main_arg14 (V0 : Valuation τ sig (Elt F)) : val13 V0 (no_index (Proc.devRef .tc main_arg14)) = V0 (Proc.devRef .tc main_arg14) :=
  (val13_keep V0 main_arg14 (by decide)).trans (val12_main_arg14 V0)
theorem val13_main_arg15 (V0 : Valuation τ sig (Elt F)) : val13 V0 (no_index (Proc.devRef .tc main_arg15)) = V0 (Proc.devRef .tc main_arg15) :=
  (val13_keep V0 main_arg15 (by decide)).trans (val12_main_arg15 V0)
theorem val13_main_arg16 (V0 : Valuation τ sig (Elt F)) : val13 V0 (no_index (Proc.devRef .tc main_arg16)) = V0 (Proc.devRef .tc main_arg16) :=
  (val13_keep V0 main_arg16 (by decide)).trans (val12_main_arg16 V0)
theorem val13_main_arg17 (V0 : Valuation τ sig (Elt F)) : val13 V0 (no_index (Proc.devRef .tc main_arg17)) = V0 (Proc.devRef .tc main_arg17) :=
  (val13_keep V0 main_arg17 (by decide)).trans (val12_main_arg17 V0)
theorem val13_main_arg18 (V0 : Valuation τ sig (Elt F)) : val13 V0 (no_index (Proc.devRef .tc main_arg18)) = V0 (Proc.devRef .tc main_arg18) :=
  (val13_keep V0 main_arg18 (by decide)).trans (val12_main_arg18 V0)
theorem val13_main_arg19 (V0 : Valuation τ sig (Elt F)) : val13 V0 (no_index (Proc.devRef .tc main_arg19)) = V0 (Proc.devRef .tc main_arg19) :=
  (val13_keep V0 main_arg19 (by decide)).trans (val12_main_arg19 V0)
theorem val13_main_arg20 (V0 : Valuation τ sig (Elt F)) : val13 V0 (no_index (Proc.devRef .tc main_arg20)) = V0 (Proc.devRef .tc main_arg20) :=
  (val13_keep V0 main_arg20 (by decide)).trans (val12_main_arg20 V0)
theorem val13_main_v1 (V0 : Valuation τ sig (Elt F)) : val13 V0 (no_index (Proc.devRef .tc main_v1)) = ref_v1 V0 :=
  (val13_keep V0 main_v1 (by decide)).trans (val12_main_v1 V0)
theorem val13_main_v3 (V0 : Valuation τ sig (Elt F)) : val13 V0 (no_index (Proc.devRef .tc main_v3)) = ref_v3 V0 :=
  (val13_keep V0 main_v3 (by decide)).trans (val12_main_v3 V0)
theorem val13_main_v50 (V0 : Valuation τ sig (Elt F)) : val13 V0 (no_index (Proc.devRef .tc main_v50)) = ref_v50 V0 :=
  (val13_keep V0 main_v50 (by decide)).trans (val12_main_v50 V0)
theorem val13_main_v60 (V0 : Valuation τ sig (Elt F)) : val13 V0 (no_index (Proc.devRef .tc main_v60)) = ref_v60 V0 := by
  unfold val13
  simp only [seg12]
  after_results_simp
  simp only [val12_main_v3, val12_main_v57]
  rfl

/-- The contents after the first 14 groups. -/
def val14 (V0 : Valuation τ sig (Elt F)) : Valuation τ sig (Elt F) := after seg13 (val13 V0)
abbrev seg13_W : List (Ref sig .tc) := [main_cst_11, main_v61, main_cst_12, main_v62, main_v63, main_v64]
theorem seg13_writes : (seg13 : List (HloOp τ sig (Elt F))).Forall fun op => op.writes ⊆ (seg13_W.map (Proc.devRef (τ := τ) .tc)).toFinset :=
  ⟨writes_sub_of main_cst_11 rfl (by decide), writes_sub_of main_v61 rfl (by decide), writes_sub_of main_cst_12 rfl (by decide), writes_sub_of main_v62 rfl (by decide), writes_sub_of main_v63 rfl (by decide), writes_sub_of main_v64 rfl (by decide)⟩
theorem val14_keep (V0 : Valuation τ sig (Elt F)) (r : Ref sig .tc) (h : r ∉ seg13_W) :
    val14 V0 (Proc.devRef .tc r) = val13 V0 (Proc.devRef .tc r) :=
  after_of_writes_sub seg13 _ seg13_writes h
theorem val14_main_arg7 (V0 : Valuation τ sig (Elt F)) : val14 V0 (no_index (Proc.devRef .tc main_arg7)) = V0 (Proc.devRef .tc main_arg7) :=
  (val14_keep V0 main_arg7 (by decide)).trans (val13_main_arg7 V0)
theorem val14_main_arg8 (V0 : Valuation τ sig (Elt F)) : val14 V0 (no_index (Proc.devRef .tc main_arg8)) = V0 (Proc.devRef .tc main_arg8) :=
  (val14_keep V0 main_arg8 (by decide)).trans (val13_main_arg8 V0)
theorem val14_main_arg9 (V0 : Valuation τ sig (Elt F)) : val14 V0 (no_index (Proc.devRef .tc main_arg9)) = V0 (Proc.devRef .tc main_arg9) :=
  (val14_keep V0 main_arg9 (by decide)).trans (val13_main_arg9 V0)
theorem val14_main_arg10 (V0 : Valuation τ sig (Elt F)) : val14 V0 (no_index (Proc.devRef .tc main_arg10)) = V0 (Proc.devRef .tc main_arg10) :=
  (val14_keep V0 main_arg10 (by decide)).trans (val13_main_arg10 V0)
theorem val14_main_arg11 (V0 : Valuation τ sig (Elt F)) : val14 V0 (no_index (Proc.devRef .tc main_arg11)) = V0 (Proc.devRef .tc main_arg11) :=
  (val14_keep V0 main_arg11 (by decide)).trans (val13_main_arg11 V0)
theorem val14_main_arg12 (V0 : Valuation τ sig (Elt F)) : val14 V0 (no_index (Proc.devRef .tc main_arg12)) = V0 (Proc.devRef .tc main_arg12) :=
  (val14_keep V0 main_arg12 (by decide)).trans (val13_main_arg12 V0)
theorem val14_main_arg13 (V0 : Valuation τ sig (Elt F)) : val14 V0 (no_index (Proc.devRef .tc main_arg13)) = V0 (Proc.devRef .tc main_arg13) :=
  (val14_keep V0 main_arg13 (by decide)).trans (val13_main_arg13 V0)
theorem val14_main_arg14 (V0 : Valuation τ sig (Elt F)) : val14 V0 (no_index (Proc.devRef .tc main_arg14)) = V0 (Proc.devRef .tc main_arg14) :=
  (val14_keep V0 main_arg14 (by decide)).trans (val13_main_arg14 V0)
theorem val14_main_arg15 (V0 : Valuation τ sig (Elt F)) : val14 V0 (no_index (Proc.devRef .tc main_arg15)) = V0 (Proc.devRef .tc main_arg15) :=
  (val14_keep V0 main_arg15 (by decide)).trans (val13_main_arg15 V0)
theorem val14_main_arg16 (V0 : Valuation τ sig (Elt F)) : val14 V0 (no_index (Proc.devRef .tc main_arg16)) = V0 (Proc.devRef .tc main_arg16) :=
  (val14_keep V0 main_arg16 (by decide)).trans (val13_main_arg16 V0)
theorem val14_main_arg17 (V0 : Valuation τ sig (Elt F)) : val14 V0 (no_index (Proc.devRef .tc main_arg17)) = V0 (Proc.devRef .tc main_arg17) :=
  (val14_keep V0 main_arg17 (by decide)).trans (val13_main_arg17 V0)
theorem val14_main_arg18 (V0 : Valuation τ sig (Elt F)) : val14 V0 (no_index (Proc.devRef .tc main_arg18)) = V0 (Proc.devRef .tc main_arg18) :=
  (val14_keep V0 main_arg18 (by decide)).trans (val13_main_arg18 V0)
theorem val14_main_arg19 (V0 : Valuation τ sig (Elt F)) : val14 V0 (no_index (Proc.devRef .tc main_arg19)) = V0 (Proc.devRef .tc main_arg19) :=
  (val14_keep V0 main_arg19 (by decide)).trans (val13_main_arg19 V0)
theorem val14_main_arg20 (V0 : Valuation τ sig (Elt F)) : val14 V0 (no_index (Proc.devRef .tc main_arg20)) = V0 (Proc.devRef .tc main_arg20) :=
  (val14_keep V0 main_arg20 (by decide)).trans (val13_main_arg20 V0)
theorem val14_main_v1 (V0 : Valuation τ sig (Elt F)) : val14 V0 (no_index (Proc.devRef .tc main_v1)) = ref_v1 V0 :=
  (val14_keep V0 main_v1 (by decide)).trans (val13_main_v1 V0)
theorem val14_main_v3 (V0 : Valuation τ sig (Elt F)) : val14 V0 (no_index (Proc.devRef .tc main_v3)) = ref_v3 V0 :=
  (val14_keep V0 main_v3 (by decide)).trans (val13_main_v3 V0)
theorem val14_main_v50 (V0 : Valuation τ sig (Elt F)) : val14 V0 (no_index (Proc.devRef .tc main_v50)) = ref_v50 V0 :=
  (val14_keep V0 main_v50 (by decide)).trans (val13_main_v50 V0)
theorem val14_main_v60 (V0 : Valuation τ sig (Elt F)) : val14 V0 (no_index (Proc.devRef .tc main_v60)) = ref_v60 V0 :=
  (val14_keep V0 main_v60 (by decide)).trans (val13_main_v60 V0)
theorem val14_main_v64 (V0 : Valuation τ sig (Elt F)) : val14 V0 (no_index (Proc.devRef .tc main_v64)) = ref_v64 V0 := by
  unfold val14
  simp only [seg13]
  after_results_simp
  simp only [val13_main_v3]
  rfl

/-- The contents after the first 15 groups. -/
def val15 (V0 : Valuation τ sig (Elt F)) : Valuation τ sig (Elt F) := after seg14 (val14 V0)
abbrev seg14_W : List (Ref sig .tc) := [main_cst_13, main_v65, main_v66, main_v67, main_v68, main_v69]
theorem seg14_writes : (seg14 : List (HloOp τ sig (Elt F))).Forall fun op => op.writes ⊆ (seg14_W.map (Proc.devRef (τ := τ) .tc)).toFinset :=
  ⟨writes_sub_of main_cst_13 rfl (by decide), writes_sub_of main_v65 rfl (by decide), writes_sub_of main_v66 rfl (by decide), writes_sub_of main_v67 rfl (by decide), writes_sub_of main_v68 rfl (by decide), writes_sub_of main_v69 rfl (by decide)⟩
theorem val15_keep (V0 : Valuation τ sig (Elt F)) (r : Ref sig .tc) (h : r ∉ seg14_W) :
    val15 V0 (Proc.devRef .tc r) = val14 V0 (Proc.devRef .tc r) :=
  after_of_writes_sub seg14 _ seg14_writes h
theorem val15_main_arg7 (V0 : Valuation τ sig (Elt F)) : val15 V0 (no_index (Proc.devRef .tc main_arg7)) = V0 (Proc.devRef .tc main_arg7) :=
  (val15_keep V0 main_arg7 (by decide)).trans (val14_main_arg7 V0)
theorem val15_main_arg8 (V0 : Valuation τ sig (Elt F)) : val15 V0 (no_index (Proc.devRef .tc main_arg8)) = V0 (Proc.devRef .tc main_arg8) :=
  (val15_keep V0 main_arg8 (by decide)).trans (val14_main_arg8 V0)
theorem val15_main_arg9 (V0 : Valuation τ sig (Elt F)) : val15 V0 (no_index (Proc.devRef .tc main_arg9)) = V0 (Proc.devRef .tc main_arg9) :=
  (val15_keep V0 main_arg9 (by decide)).trans (val14_main_arg9 V0)
theorem val15_main_arg10 (V0 : Valuation τ sig (Elt F)) : val15 V0 (no_index (Proc.devRef .tc main_arg10)) = V0 (Proc.devRef .tc main_arg10) :=
  (val15_keep V0 main_arg10 (by decide)).trans (val14_main_arg10 V0)
theorem val15_main_arg11 (V0 : Valuation τ sig (Elt F)) : val15 V0 (no_index (Proc.devRef .tc main_arg11)) = V0 (Proc.devRef .tc main_arg11) :=
  (val15_keep V0 main_arg11 (by decide)).trans (val14_main_arg11 V0)
theorem val15_main_arg12 (V0 : Valuation τ sig (Elt F)) : val15 V0 (no_index (Proc.devRef .tc main_arg12)) = V0 (Proc.devRef .tc main_arg12) :=
  (val15_keep V0 main_arg12 (by decide)).trans (val14_main_arg12 V0)
theorem val15_main_arg13 (V0 : Valuation τ sig (Elt F)) : val15 V0 (no_index (Proc.devRef .tc main_arg13)) = V0 (Proc.devRef .tc main_arg13) :=
  (val15_keep V0 main_arg13 (by decide)).trans (val14_main_arg13 V0)
theorem val15_main_arg14 (V0 : Valuation τ sig (Elt F)) : val15 V0 (no_index (Proc.devRef .tc main_arg14)) = V0 (Proc.devRef .tc main_arg14) :=
  (val15_keep V0 main_arg14 (by decide)).trans (val14_main_arg14 V0)
theorem val15_main_arg15 (V0 : Valuation τ sig (Elt F)) : val15 V0 (no_index (Proc.devRef .tc main_arg15)) = V0 (Proc.devRef .tc main_arg15) :=
  (val15_keep V0 main_arg15 (by decide)).trans (val14_main_arg15 V0)
theorem val15_main_arg16 (V0 : Valuation τ sig (Elt F)) : val15 V0 (no_index (Proc.devRef .tc main_arg16)) = V0 (Proc.devRef .tc main_arg16) :=
  (val15_keep V0 main_arg16 (by decide)).trans (val14_main_arg16 V0)
theorem val15_main_arg17 (V0 : Valuation τ sig (Elt F)) : val15 V0 (no_index (Proc.devRef .tc main_arg17)) = V0 (Proc.devRef .tc main_arg17) :=
  (val15_keep V0 main_arg17 (by decide)).trans (val14_main_arg17 V0)
theorem val15_main_arg18 (V0 : Valuation τ sig (Elt F)) : val15 V0 (no_index (Proc.devRef .tc main_arg18)) = V0 (Proc.devRef .tc main_arg18) :=
  (val15_keep V0 main_arg18 (by decide)).trans (val14_main_arg18 V0)
theorem val15_main_arg19 (V0 : Valuation τ sig (Elt F)) : val15 V0 (no_index (Proc.devRef .tc main_arg19)) = V0 (Proc.devRef .tc main_arg19) :=
  (val15_keep V0 main_arg19 (by decide)).trans (val14_main_arg19 V0)
theorem val15_main_arg20 (V0 : Valuation τ sig (Elt F)) : val15 V0 (no_index (Proc.devRef .tc main_arg20)) = V0 (Proc.devRef .tc main_arg20) :=
  (val15_keep V0 main_arg20 (by decide)).trans (val14_main_arg20 V0)
theorem val15_main_v1 (V0 : Valuation τ sig (Elt F)) : val15 V0 (no_index (Proc.devRef .tc main_v1)) = ref_v1 V0 :=
  (val15_keep V0 main_v1 (by decide)).trans (val14_main_v1 V0)
theorem val15_main_v3 (V0 : Valuation τ sig (Elt F)) : val15 V0 (no_index (Proc.devRef .tc main_v3)) = ref_v3 V0 :=
  (val15_keep V0 main_v3 (by decide)).trans (val14_main_v3 V0)
theorem val15_main_v50 (V0 : Valuation τ sig (Elt F)) : val15 V0 (no_index (Proc.devRef .tc main_v50)) = ref_v50 V0 :=
  (val15_keep V0 main_v50 (by decide)).trans (val14_main_v50 V0)
theorem val15_main_v69 (V0 : Valuation τ sig (Elt F)) : val15 V0 (no_index (Proc.devRef .tc main_v69)) = ref_v69 V0 := by
  unfold val15
  simp only [seg14]
  after_results_simp
  simp only [val14_main_v60, val14_main_v64]
  rfl

/-- The contents after the first 16 groups. -/
def val16 (V0 : Valuation τ sig (Elt F)) : Valuation τ sig (Elt F) := after seg15 (val15 V0)
abbrev seg15_W : List (Ref sig .tc) := [main_v70, main_v71, main_v72, main_v73, main_v74, main_v75, main_v76, main_v77]
theorem seg15_writes : (seg15 : List (HloOp τ sig (Elt F))).Forall fun op => op.writes ⊆ (seg15_W.map (Proc.devRef (τ := τ) .tc)).toFinset :=
  ⟨writes_sub_of main_v70 rfl (by decide), writes_sub_of main_v71 rfl (by decide), writes_sub_of main_v72 rfl (by decide), writes_sub_of main_v73 rfl (by decide), writes_sub_of main_v74 rfl (by decide), writes_sub_of main_v75 rfl (by decide), writes_sub_of main_v76 rfl (by decide), writes_sub_of main_v77 rfl (by decide)⟩
theorem val16_keep (V0 : Valuation τ sig (Elt F)) (r : Ref sig .tc) (h : r ∉ seg15_W) :
    val16 V0 (Proc.devRef .tc r) = val15 V0 (Proc.devRef .tc r) :=
  after_of_writes_sub seg15 _ seg15_writes h
theorem val16_main_arg10 (V0 : Valuation τ sig (Elt F)) : val16 V0 (no_index (Proc.devRef .tc main_arg10)) = V0 (Proc.devRef .tc main_arg10) :=
  (val16_keep V0 main_arg10 (by decide)).trans (val15_main_arg10 V0)
theorem val16_main_arg11 (V0 : Valuation τ sig (Elt F)) : val16 V0 (no_index (Proc.devRef .tc main_arg11)) = V0 (Proc.devRef .tc main_arg11) :=
  (val16_keep V0 main_arg11 (by decide)).trans (val15_main_arg11 V0)
theorem val16_main_arg12 (V0 : Valuation τ sig (Elt F)) : val16 V0 (no_index (Proc.devRef .tc main_arg12)) = V0 (Proc.devRef .tc main_arg12) :=
  (val16_keep V0 main_arg12 (by decide)).trans (val15_main_arg12 V0)
theorem val16_main_arg13 (V0 : Valuation τ sig (Elt F)) : val16 V0 (no_index (Proc.devRef .tc main_arg13)) = V0 (Proc.devRef .tc main_arg13) :=
  (val16_keep V0 main_arg13 (by decide)).trans (val15_main_arg13 V0)
theorem val16_main_arg14 (V0 : Valuation τ sig (Elt F)) : val16 V0 (no_index (Proc.devRef .tc main_arg14)) = V0 (Proc.devRef .tc main_arg14) :=
  (val16_keep V0 main_arg14 (by decide)).trans (val15_main_arg14 V0)
theorem val16_main_arg15 (V0 : Valuation τ sig (Elt F)) : val16 V0 (no_index (Proc.devRef .tc main_arg15)) = V0 (Proc.devRef .tc main_arg15) :=
  (val16_keep V0 main_arg15 (by decide)).trans (val15_main_arg15 V0)
theorem val16_main_arg16 (V0 : Valuation τ sig (Elt F)) : val16 V0 (no_index (Proc.devRef .tc main_arg16)) = V0 (Proc.devRef .tc main_arg16) :=
  (val16_keep V0 main_arg16 (by decide)).trans (val15_main_arg16 V0)
theorem val16_main_arg17 (V0 : Valuation τ sig (Elt F)) : val16 V0 (no_index (Proc.devRef .tc main_arg17)) = V0 (Proc.devRef .tc main_arg17) :=
  (val16_keep V0 main_arg17 (by decide)).trans (val15_main_arg17 V0)
theorem val16_main_arg18 (V0 : Valuation τ sig (Elt F)) : val16 V0 (no_index (Proc.devRef .tc main_arg18)) = V0 (Proc.devRef .tc main_arg18) :=
  (val16_keep V0 main_arg18 (by decide)).trans (val15_main_arg18 V0)
theorem val16_main_arg19 (V0 : Valuation τ sig (Elt F)) : val16 V0 (no_index (Proc.devRef .tc main_arg19)) = V0 (Proc.devRef .tc main_arg19) :=
  (val16_keep V0 main_arg19 (by decide)).trans (val15_main_arg19 V0)
theorem val16_main_arg20 (V0 : Valuation τ sig (Elt F)) : val16 V0 (no_index (Proc.devRef .tc main_arg20)) = V0 (Proc.devRef .tc main_arg20) :=
  (val16_keep V0 main_arg20 (by decide)).trans (val15_main_arg20 V0)
theorem val16_main_v1 (V0 : Valuation τ sig (Elt F)) : val16 V0 (no_index (Proc.devRef .tc main_v1)) = ref_v1 V0 :=
  (val16_keep V0 main_v1 (by decide)).trans (val15_main_v1 V0)
theorem val16_main_v3 (V0 : Valuation τ sig (Elt F)) : val16 V0 (no_index (Proc.devRef .tc main_v3)) = ref_v3 V0 :=
  (val16_keep V0 main_v3 (by decide)).trans (val15_main_v3 V0)
theorem val16_main_v77 (V0 : Valuation τ sig (Elt F)) : val16 V0 (no_index (Proc.devRef .tc main_v77)) = ref_v77 V0 := by
  unfold val16
  simp only [seg15]
  after_results_simp
  simp only [val15_main_v69, val15_main_arg7, val15_main_arg8, val15_main_v50, val15_main_arg9]
  rfl

/-- The contents after the first 17 groups. -/
def val17 (V0 : Valuation τ sig (Elt F)) : Valuation τ sig (Elt F) := after seg16 (val16 V0)
abbrev seg16_W : List (Ref sig .tc) := [main_cst_14, main_v78, main_cst_15, main_v79, main_v80]
theorem seg16_writes : (seg16 : List (HloOp τ sig (Elt F))).Forall fun op => op.writes ⊆ (seg16_W.map (Proc.devRef (τ := τ) .tc)).toFinset :=
  ⟨writes_sub_of main_cst_14 rfl (by decide), writes_sub_of main_v78 rfl (by decide), writes_sub_of main_cst_15 rfl (by decide), writes_sub_of main_v79 rfl (by decide), writes_sub_of main_v80 rfl (by decide)⟩
theorem val17_keep (V0 : Valuation τ sig (Elt F)) (r : Ref sig .tc) (h : r ∉ seg16_W) :
    val17 V0 (Proc.devRef .tc r) = val16 V0 (Proc.devRef .tc r) :=
  after_of_writes_sub seg16 _ seg16_writes h
theorem val17_main_arg10 (V0 : Valuation τ sig (Elt F)) : val17 V0 (no_index (Proc.devRef .tc main_arg10)) = V0 (Proc.devRef .tc main_arg10) :=
  (val17_keep V0 main_arg10 (by decide)).trans (val16_main_arg10 V0)
theorem val17_main_arg11 (V0 : Valuation τ sig (Elt F)) : val17 V0 (no_index (Proc.devRef .tc main_arg11)) = V0 (Proc.devRef .tc main_arg11) :=
  (val17_keep V0 main_arg11 (by decide)).trans (val16_main_arg11 V0)
theorem val17_main_arg12 (V0 : Valuation τ sig (Elt F)) : val17 V0 (no_index (Proc.devRef .tc main_arg12)) = V0 (Proc.devRef .tc main_arg12) :=
  (val17_keep V0 main_arg12 (by decide)).trans (val16_main_arg12 V0)
theorem val17_main_arg13 (V0 : Valuation τ sig (Elt F)) : val17 V0 (no_index (Proc.devRef .tc main_arg13)) = V0 (Proc.devRef .tc main_arg13) :=
  (val17_keep V0 main_arg13 (by decide)).trans (val16_main_arg13 V0)
theorem val17_main_arg14 (V0 : Valuation τ sig (Elt F)) : val17 V0 (no_index (Proc.devRef .tc main_arg14)) = V0 (Proc.devRef .tc main_arg14) :=
  (val17_keep V0 main_arg14 (by decide)).trans (val16_main_arg14 V0)
theorem val17_main_arg15 (V0 : Valuation τ sig (Elt F)) : val17 V0 (no_index (Proc.devRef .tc main_arg15)) = V0 (Proc.devRef .tc main_arg15) :=
  (val17_keep V0 main_arg15 (by decide)).trans (val16_main_arg15 V0)
theorem val17_main_arg16 (V0 : Valuation τ sig (Elt F)) : val17 V0 (no_index (Proc.devRef .tc main_arg16)) = V0 (Proc.devRef .tc main_arg16) :=
  (val17_keep V0 main_arg16 (by decide)).trans (val16_main_arg16 V0)
theorem val17_main_arg17 (V0 : Valuation τ sig (Elt F)) : val17 V0 (no_index (Proc.devRef .tc main_arg17)) = V0 (Proc.devRef .tc main_arg17) :=
  (val17_keep V0 main_arg17 (by decide)).trans (val16_main_arg17 V0)
theorem val17_main_arg18 (V0 : Valuation τ sig (Elt F)) : val17 V0 (no_index (Proc.devRef .tc main_arg18)) = V0 (Proc.devRef .tc main_arg18) :=
  (val17_keep V0 main_arg18 (by decide)).trans (val16_main_arg18 V0)
theorem val17_main_arg19 (V0 : Valuation τ sig (Elt F)) : val17 V0 (no_index (Proc.devRef .tc main_arg19)) = V0 (Proc.devRef .tc main_arg19) :=
  (val17_keep V0 main_arg19 (by decide)).trans (val16_main_arg19 V0)
theorem val17_main_arg20 (V0 : Valuation τ sig (Elt F)) : val17 V0 (no_index (Proc.devRef .tc main_arg20)) = V0 (Proc.devRef .tc main_arg20) :=
  (val17_keep V0 main_arg20 (by decide)).trans (val16_main_arg20 V0)
theorem val17_main_v1 (V0 : Valuation τ sig (Elt F)) : val17 V0 (no_index (Proc.devRef .tc main_v1)) = ref_v1 V0 :=
  (val17_keep V0 main_v1 (by decide)).trans (val16_main_v1 V0)
theorem val17_main_v3 (V0 : Valuation τ sig (Elt F)) : val17 V0 (no_index (Proc.devRef .tc main_v3)) = ref_v3 V0 :=
  (val17_keep V0 main_v3 (by decide)).trans (val16_main_v3 V0)
theorem val17_main_v77 (V0 : Valuation τ sig (Elt F)) : val17 V0 (no_index (Proc.devRef .tc main_v77)) = ref_v77 V0 :=
  (val17_keep V0 main_v77 (by decide)).trans (val16_main_v77 V0)
theorem val17_main_v80 (V0 : Valuation τ sig (Elt F)) : val17 V0 (no_index (Proc.devRef .tc main_v80)) = ref_v80 V0 := by
  unfold val17
  simp only [seg16]
  after_results_simp
  simp only [val16_main_v77]
  rfl

/-- The contents after the first 18 groups. -/
def val18 (V0 : Valuation τ sig (Elt F)) : Valuation τ sig (Elt F) := after seg17 (val17 V0)
abbrev seg17_W : List (Ref sig .tc) := [main_c_16, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]
theorem seg17_writes : (seg17 : List (HloOp τ sig (Elt F))).Forall fun op => op.writes ⊆ (seg17_W.map (Proc.devRef (τ := τ) .tc)).toFinset :=
  ⟨writes_sub_of main_c_16 rfl (by decide), writes_sub_of (main_call2.cst.ref) rfl (by decide), writes_sub_of (main_call2.v0.ref) rfl (by decide), writes_sub_of (main_call2.v1.ref) rfl (by decide), writes_sub_of (main_call2.cst_0.ref) rfl (by decide), writes_sub_of (main_call2.v2.ref) rfl (by decide), writes_sub_of (main_call2.v3.ref) rfl (by decide), writes_sub_of (main_call2.v4.ref) rfl (by decide), writes_sub_of (main_call2.v5.ref) rfl (by decide), writes_sub_of (main_call2.v6.ref) rfl (by decide), writes_sub_of (main_call2.v7.ref) rfl (by decide), writes_sub_of (main_call2.cst_1.ref) rfl (by decide), writes_sub_of (main_call2.v8.ref) rfl (by decide), writes_sub_of (main_call2.cst_2.ref) rfl (by decide), writes_sub_of (main_call2.v9.ref) rfl (by decide), writes_sub_of (main_call2.v10.ref) rfl (by decide), writes_sub_of (main_call2.v11.ref) rfl (by decide), writes_sub_of (main_call2.cst_3.ref) rfl (by decide), writes_sub_of (main_call2.v12.ref) rfl (by decide), writes_sub_of (main_call2.cst_4.ref) rfl (by decide), writes_sub_of (main_call2.call0.v0.ref) rfl (by decide), writes_sub_of (main_call2.call0.v1.ref) rfl (by decide), writes_sub_of (main_call2.call0.v2.ref) rfl (by decide)⟩
theorem val18_keep (V0 : Valuation τ sig (Elt F)) (r : Ref sig .tc) (h : r ∉ seg17_W) :
    val18 V0 (Proc.devRef .tc r) = val17 V0 (Proc.devRef .tc r) :=
  after_of_writes_sub seg17 _ seg17_writes h
theorem val18_main_arg10 (V0 : Valuation τ sig (Elt F)) : val18 V0 (no_index (Proc.devRef .tc main_arg10)) = V0 (Proc.devRef .tc main_arg10) :=
  (val18_keep V0 main_arg10 (by decide)).trans (val17_main_arg10 V0)
theorem val18_main_arg11 (V0 : Valuation τ sig (Elt F)) : val18 V0 (no_index (Proc.devRef .tc main_arg11)) = V0 (Proc.devRef .tc main_arg11) :=
  (val18_keep V0 main_arg11 (by decide)).trans (val17_main_arg11 V0)
theorem val18_main_arg12 (V0 : Valuation τ sig (Elt F)) : val18 V0 (no_index (Proc.devRef .tc main_arg12)) = V0 (Proc.devRef .tc main_arg12) :=
  (val18_keep V0 main_arg12 (by decide)).trans (val17_main_arg12 V0)
theorem val18_main_arg13 (V0 : Valuation τ sig (Elt F)) : val18 V0 (no_index (Proc.devRef .tc main_arg13)) = V0 (Proc.devRef .tc main_arg13) :=
  (val18_keep V0 main_arg13 (by decide)).trans (val17_main_arg13 V0)
theorem val18_main_arg14 (V0 : Valuation τ sig (Elt F)) : val18 V0 (no_index (Proc.devRef .tc main_arg14)) = V0 (Proc.devRef .tc main_arg14) :=
  (val18_keep V0 main_arg14 (by decide)).trans (val17_main_arg14 V0)
theorem val18_main_arg15 (V0 : Valuation τ sig (Elt F)) : val18 V0 (no_index (Proc.devRef .tc main_arg15)) = V0 (Proc.devRef .tc main_arg15) :=
  (val18_keep V0 main_arg15 (by decide)).trans (val17_main_arg15 V0)
theorem val18_main_arg16 (V0 : Valuation τ sig (Elt F)) : val18 V0 (no_index (Proc.devRef .tc main_arg16)) = V0 (Proc.devRef .tc main_arg16) :=
  (val18_keep V0 main_arg16 (by decide)).trans (val17_main_arg16 V0)
theorem val18_main_arg17 (V0 : Valuation τ sig (Elt F)) : val18 V0 (no_index (Proc.devRef .tc main_arg17)) = V0 (Proc.devRef .tc main_arg17) :=
  (val18_keep V0 main_arg17 (by decide)).trans (val17_main_arg17 V0)
theorem val18_main_arg18 (V0 : Valuation τ sig (Elt F)) : val18 V0 (no_index (Proc.devRef .tc main_arg18)) = V0 (Proc.devRef .tc main_arg18) :=
  (val18_keep V0 main_arg18 (by decide)).trans (val17_main_arg18 V0)
theorem val18_main_arg19 (V0 : Valuation τ sig (Elt F)) : val18 V0 (no_index (Proc.devRef .tc main_arg19)) = V0 (Proc.devRef .tc main_arg19) :=
  (val18_keep V0 main_arg19 (by decide)).trans (val17_main_arg19 V0)
theorem val18_main_arg20 (V0 : Valuation τ sig (Elt F)) : val18 V0 (no_index (Proc.devRef .tc main_arg20)) = V0 (Proc.devRef .tc main_arg20) :=
  (val18_keep V0 main_arg20 (by decide)).trans (val17_main_arg20 V0)
theorem val18_main_v1 (V0 : Valuation τ sig (Elt F)) : val18 V0 (no_index (Proc.devRef .tc main_v1)) = ref_v1 V0 :=
  (val18_keep V0 main_v1 (by decide)).trans (val17_main_v1 V0)
theorem val18_main_v3 (V0 : Valuation τ sig (Elt F)) : val18 V0 (no_index (Proc.devRef .tc main_v3)) = ref_v3 V0 :=
  (val18_keep V0 main_v3 (by decide)).trans (val17_main_v3 V0)
theorem val18_main_v77 (V0 : Valuation τ sig (Elt F)) : val18 V0 (no_index (Proc.devRef .tc main_v77)) = ref_v77 V0 :=
  (val18_keep V0 main_v77 (by decide)).trans (val17_main_v77 V0)
theorem val18_main_v80 (V0 : Valuation τ sig (Elt F)) : val18 V0 (no_index (Proc.devRef .tc main_v80)) = ref_v80 V0 :=
  (val18_keep V0 main_v80 (by decide)).trans (val17_main_v80 V0)
theorem val18_main_v81 (V0 : Valuation τ sig (Elt F)) : val18 V0 (no_index (Proc.devRef .tc main_v81)) = ref_v81 V0 := by
  unfold val18
  simp only [seg17]
  after_results_simp
  simp only [val17_main_v77]
  rfl

/-- The contents after the first 19 groups. -/
def val19 (V0 : Valuation τ sig (Elt F)) : Valuation τ sig (Elt F) := after seg18 (val18 V0)
abbrev seg18_W : List (Ref sig .tc) := [main_v82, main_v83, main_v84, main_cst_17, main_v85, main_v86, main_v87, main_v88, main_v89, main_v90, main_v91, main_v92, main_v93, main_v94, main_v95, main_v96, main_call3.cst.ref, main_call3.v0.ref, main_call3.v1.ref]
theorem seg18_writes : (seg18 : List (HloOp τ sig (Elt F))).Forall fun op => op.writes ⊆ (seg18_W.map (Proc.devRef (τ := τ) .tc)).toFinset :=
  ⟨writes_sub_of main_v82 rfl (by decide), writes_sub_of main_v83 rfl (by decide), writes_sub_of main_v84 rfl (by decide), writes_sub_of main_cst_17 rfl (by decide), writes_sub_of main_v85 rfl (by decide), writes_sub_of main_v86 rfl (by decide), writes_sub_of main_v87 rfl (by decide), writes_sub_of main_v88 rfl (by decide), writes_sub_of main_v89 rfl (by decide), writes_sub_of main_v90 rfl (by decide), writes_sub_of main_v91 rfl (by decide), writes_sub_of main_v92 rfl (by decide), writes_sub_of main_v93 rfl (by decide), writes_sub_of main_v94 rfl (by decide), writes_sub_of main_v95 rfl (by decide), writes_sub_of main_v96 rfl (by decide), writes_sub_of (main_call3.cst.ref) rfl (by decide), writes_sub_of (main_call3.v0.ref) rfl (by decide), writes_sub_of (main_call3.v1.ref) rfl (by decide)⟩
theorem val19_keep (V0 : Valuation τ sig (Elt F)) (r : Ref sig .tc) (h : r ∉ seg18_W) :
    val19 V0 (Proc.devRef .tc r) = val18 V0 (Proc.devRef .tc r) :=
  after_of_writes_sub seg18 _ seg18_writes h
theorem val19_main_arg12 (V0 : Valuation τ sig (Elt F)) : val19 V0 (no_index (Proc.devRef .tc main_arg12)) = V0 (Proc.devRef .tc main_arg12) :=
  (val19_keep V0 main_arg12 (by decide)).trans (val18_main_arg12 V0)
theorem val19_main_arg13 (V0 : Valuation τ sig (Elt F)) : val19 V0 (no_index (Proc.devRef .tc main_arg13)) = V0 (Proc.devRef .tc main_arg13) :=
  (val19_keep V0 main_arg13 (by decide)).trans (val18_main_arg13 V0)
theorem val19_main_arg14 (V0 : Valuation τ sig (Elt F)) : val19 V0 (no_index (Proc.devRef .tc main_arg14)) = V0 (Proc.devRef .tc main_arg14) :=
  (val19_keep V0 main_arg14 (by decide)).trans (val18_main_arg14 V0)
theorem val19_main_arg15 (V0 : Valuation τ sig (Elt F)) : val19 V0 (no_index (Proc.devRef .tc main_arg15)) = V0 (Proc.devRef .tc main_arg15) :=
  (val19_keep V0 main_arg15 (by decide)).trans (val18_main_arg15 V0)
theorem val19_main_arg16 (V0 : Valuation τ sig (Elt F)) : val19 V0 (no_index (Proc.devRef .tc main_arg16)) = V0 (Proc.devRef .tc main_arg16) :=
  (val19_keep V0 main_arg16 (by decide)).trans (val18_main_arg16 V0)
theorem val19_main_arg17 (V0 : Valuation τ sig (Elt F)) : val19 V0 (no_index (Proc.devRef .tc main_arg17)) = V0 (Proc.devRef .tc main_arg17) :=
  (val19_keep V0 main_arg17 (by decide)).trans (val18_main_arg17 V0)
theorem val19_main_arg18 (V0 : Valuation τ sig (Elt F)) : val19 V0 (no_index (Proc.devRef .tc main_arg18)) = V0 (Proc.devRef .tc main_arg18) :=
  (val19_keep V0 main_arg18 (by decide)).trans (val18_main_arg18 V0)
theorem val19_main_arg19 (V0 : Valuation τ sig (Elt F)) : val19 V0 (no_index (Proc.devRef .tc main_arg19)) = V0 (Proc.devRef .tc main_arg19) :=
  (val19_keep V0 main_arg19 (by decide)).trans (val18_main_arg19 V0)
theorem val19_main_arg20 (V0 : Valuation τ sig (Elt F)) : val19 V0 (no_index (Proc.devRef .tc main_arg20)) = V0 (Proc.devRef .tc main_arg20) :=
  (val19_keep V0 main_arg20 (by decide)).trans (val18_main_arg20 V0)
theorem val19_main_v1 (V0 : Valuation τ sig (Elt F)) : val19 V0 (no_index (Proc.devRef .tc main_v1)) = ref_v1 V0 :=
  (val19_keep V0 main_v1 (by decide)).trans (val18_main_v1 V0)
theorem val19_main_v3 (V0 : Valuation τ sig (Elt F)) : val19 V0 (no_index (Proc.devRef .tc main_v3)) = ref_v3 V0 :=
  (val19_keep V0 main_v3 (by decide)).trans (val18_main_v3 V0)
theorem val19_main_v97 (V0 : Valuation τ sig (Elt F)) : val19 V0 (no_index (Proc.devRef .tc main_v97)) = ref_v97 V0 := by
  unfold val19
  simp only [seg18]
  after_results_simp
  simp only [val18_main_v77, val18_main_v80, val18_main_v81, val18_main_arg10, val18_main_arg11]
  rfl

/-- The contents after the first 20 groups. -/
def val20 (V0 : Valuation τ sig (Elt F)) : Valuation τ sig (Elt F) := after seg19 (val19 V0)
abbrev seg19_W : List (Ref sig .tc) := [main_c_18, main_v98, main_v99, main_c_19, main_v100, main_v101, main_v102, main_v103]
theorem seg19_writes : (seg19 : List (HloOp τ sig (Elt F))).Forall fun op => op.writes ⊆ (seg19_W.map (Proc.devRef (τ := τ) .tc)).toFinset :=
  ⟨writes_sub_of main_c_18 rfl (by decide), writes_sub_of main_v98 rfl (by decide), writes_sub_of main_v99 rfl (by decide), writes_sub_of main_c_19 rfl (by decide), writes_sub_of main_v100 rfl (by decide), writes_sub_of main_v101 rfl (by decide), writes_sub_of main_v102 rfl (by decide), writes_sub_of main_v103 rfl (by decide)⟩
theorem val20_keep (V0 : Valuation τ sig (Elt F)) (r : Ref sig .tc) (h : r ∉ seg19_W) :
    val20 V0 (Proc.devRef .tc r) = val19 V0 (Proc.devRef .tc r) :=
  after_of_writes_sub seg19 _ seg19_writes h
theorem val20_main_arg12 (V0 : Valuation τ sig (Elt F)) : val20 V0 (no_index (Proc.devRef .tc main_arg12)) = V0 (Proc.devRef .tc main_arg12) :=
  (val20_keep V0 main_arg12 (by decide)).trans (val19_main_arg12 V0)
theorem val20_main_arg13 (V0 : Valuation τ sig (Elt F)) : val20 V0 (no_index (Proc.devRef .tc main_arg13)) = V0 (Proc.devRef .tc main_arg13) :=
  (val20_keep V0 main_arg13 (by decide)).trans (val19_main_arg13 V0)
theorem val20_main_arg14 (V0 : Valuation τ sig (Elt F)) : val20 V0 (no_index (Proc.devRef .tc main_arg14)) = V0 (Proc.devRef .tc main_arg14) :=
  (val20_keep V0 main_arg14 (by decide)).trans (val19_main_arg14 V0)
theorem val20_main_arg15 (V0 : Valuation τ sig (Elt F)) : val20 V0 (no_index (Proc.devRef .tc main_arg15)) = V0 (Proc.devRef .tc main_arg15) :=
  (val20_keep V0 main_arg15 (by decide)).trans (val19_main_arg15 V0)
theorem val20_main_arg16 (V0 : Valuation τ sig (Elt F)) : val20 V0 (no_index (Proc.devRef .tc main_arg16)) = V0 (Proc.devRef .tc main_arg16) :=
  (val20_keep V0 main_arg16 (by decide)).trans (val19_main_arg16 V0)
theorem val20_main_arg17 (V0 : Valuation τ sig (Elt F)) : val20 V0 (no_index (Proc.devRef .tc main_arg17)) = V0 (Proc.devRef .tc main_arg17) :=
  (val20_keep V0 main_arg17 (by decide)).trans (val19_main_arg17 V0)
theorem val20_main_arg18 (V0 : Valuation τ sig (Elt F)) : val20 V0 (no_index (Proc.devRef .tc main_arg18)) = V0 (Proc.devRef .tc main_arg18) :=
  (val20_keep V0 main_arg18 (by decide)).trans (val19_main_arg18 V0)
theorem val20_main_arg19 (V0 : Valuation τ sig (Elt F)) : val20 V0 (no_index (Proc.devRef .tc main_arg19)) = V0 (Proc.devRef .tc main_arg19) :=
  (val20_keep V0 main_arg19 (by decide)).trans (val19_main_arg19 V0)
theorem val20_main_arg20 (V0 : Valuation τ sig (Elt F)) : val20 V0 (no_index (Proc.devRef .tc main_arg20)) = V0 (Proc.devRef .tc main_arg20) :=
  (val20_keep V0 main_arg20 (by decide)).trans (val19_main_arg20 V0)
theorem val20_main_v3 (V0 : Valuation τ sig (Elt F)) : val20 V0 (no_index (Proc.devRef .tc main_v3)) = ref_v3 V0 :=
  (val20_keep V0 main_v3 (by decide)).trans (val19_main_v3 V0)
theorem val20_main_v97 (V0 : Valuation τ sig (Elt F)) : val20 V0 (no_index (Proc.devRef .tc main_v97)) = ref_v97 V0 :=
  (val20_keep V0 main_v97 (by decide)).trans (val19_main_v97 V0)
theorem val20_main_v103 (V0 : Valuation τ sig (Elt F)) : val20 V0 (no_index (Proc.devRef .tc main_v103)) = ref_v103 V0 := by
  unfold val20
  simp only [seg19]
  after_results_simp
  simp only [val19_main_v1]
  rfl

/-- The contents after the first 21 groups. -/
def val21 (V0 : Valuation τ sig (Elt F)) : Valuation τ sig (Elt F) := after seg20 (val20 V0)
abbrev seg20_W : List (Ref sig .tc) := [main_v104]
theorem seg20_writes : (seg20 : List (HloOp τ sig (Elt F))).Forall fun op => op.writes ⊆ (seg20_W.map (Proc.devRef (τ := τ) .tc)).toFinset :=
  (writes_sub_of main_v104 rfl (by decide))
theorem val21_keep (V0 : Valuation τ sig (Elt F)) (r : Ref sig .tc) (h : r ∉ seg20_W) :
    val21 V0 (Proc.devRef .tc r) = val20 V0 (Proc.devRef .tc r) :=
  after_of_writes_sub seg20 _ seg20_writes h
theorem val21_main_arg12 (V0 : Valuation τ sig (Elt F)) : val21 V0 (no_index (Proc.devRef .tc main_arg12)) = V0 (Proc.devRef .tc main_arg12) :=
  (val21_keep V0 main_arg12 (by decide)).trans (val20_main_arg12 V0)
theorem val21_main_arg13 (V0 : Valuation τ sig (Elt F)) : val21 V0 (no_index (Proc.devRef .tc main_arg13)) = V0 (Proc.devRef .tc main_arg13) :=
  (val21_keep V0 main_arg13 (by decide)).trans (val20_main_arg13 V0)
theorem val21_main_arg14 (V0 : Valuation τ sig (Elt F)) : val21 V0 (no_index (Proc.devRef .tc main_arg14)) = V0 (Proc.devRef .tc main_arg14) :=
  (val21_keep V0 main_arg14 (by decide)).trans (val20_main_arg14 V0)
theorem val21_main_arg15 (V0 : Valuation τ sig (Elt F)) : val21 V0 (no_index (Proc.devRef .tc main_arg15)) = V0 (Proc.devRef .tc main_arg15) :=
  (val21_keep V0 main_arg15 (by decide)).trans (val20_main_arg15 V0)
theorem val21_main_arg16 (V0 : Valuation τ sig (Elt F)) : val21 V0 (no_index (Proc.devRef .tc main_arg16)) = V0 (Proc.devRef .tc main_arg16) :=
  (val21_keep V0 main_arg16 (by decide)).trans (val20_main_arg16 V0)
theorem val21_main_arg17 (V0 : Valuation τ sig (Elt F)) : val21 V0 (no_index (Proc.devRef .tc main_arg17)) = V0 (Proc.devRef .tc main_arg17) :=
  (val21_keep V0 main_arg17 (by decide)).trans (val20_main_arg17 V0)
theorem val21_main_arg18 (V0 : Valuation τ sig (Elt F)) : val21 V0 (no_index (Proc.devRef .tc main_arg18)) = V0 (Proc.devRef .tc main_arg18) :=
  (val21_keep V0 main_arg18 (by decide)).trans (val20_main_arg18 V0)
theorem val21_main_arg19 (V0 : Valuation τ sig (Elt F)) : val21 V0 (no_index (Proc.devRef .tc main_arg19)) = V0 (Proc.devRef .tc main_arg19) :=
  (val21_keep V0 main_arg19 (by decide)).trans (val20_main_arg19 V0)
theorem val21_main_arg20 (V0 : Valuation τ sig (Elt F)) : val21 V0 (no_index (Proc.devRef .tc main_arg20)) = V0 (Proc.devRef .tc main_arg20) :=
  (val21_keep V0 main_arg20 (by decide)).trans (val20_main_arg20 V0)
theorem val21_main_v3 (V0 : Valuation τ sig (Elt F)) : val21 V0 (no_index (Proc.devRef .tc main_v3)) = ref_v3 V0 :=
  (val21_keep V0 main_v3 (by decide)).trans (val20_main_v3 V0)
theorem val21_main_v97 (V0 : Valuation τ sig (Elt F)) : val21 V0 (no_index (Proc.devRef .tc main_v97)) = ref_v97 V0 :=
  (val21_keep V0 main_v97 (by decide)).trans (val20_main_v97 V0)
theorem val21_main_v104 (V0 : Valuation τ sig (Elt F)) : val21 V0 (no_index (Proc.devRef .tc main_v104)) = ref_v104 V0 := by
  unfold val21
  simp only [seg20]
  after_results_simp
  simp only [val20_main_v97, val20_main_v103]
  rfl

/-- The contents after the first 22 groups. -/
def val22 (V0 : Valuation τ sig (Elt F)) : Valuation τ sig (Elt F) := after seg21 (val21 V0)
abbrev seg21_W : List (Ref sig .tc) := [main_cst_20, main_v105, main_v106, main_v107]
theorem seg21_writes : (seg21 : List (HloOp τ sig (Elt F))).Forall fun op => op.writes ⊆ (seg21_W.map (Proc.devRef (τ := τ) .tc)).toFinset :=
  ⟨writes_sub_of main_cst_20 rfl (by decide), writes_sub_of main_v105 rfl (by decide), writes_sub_of main_v106 rfl (by decide), writes_sub_of main_v107 rfl (by decide)⟩
theorem val22_keep (V0 : Valuation τ sig (Elt F)) (r : Ref sig .tc) (h : r ∉ seg21_W) :
    val22 V0 (Proc.devRef .tc r) = val21 V0 (Proc.devRef .tc r) :=
  after_of_writes_sub seg21 _ seg21_writes h
theorem val22_main_arg12 (V0 : Valuation τ sig (Elt F)) : val22 V0 (no_index (Proc.devRef .tc main_arg12)) = V0 (Proc.devRef .tc main_arg12) :=
  (val22_keep V0 main_arg12 (by decide)).trans (val21_main_arg12 V0)
theorem val22_main_arg13 (V0 : Valuation τ sig (Elt F)) : val22 V0 (no_index (Proc.devRef .tc main_arg13)) = V0 (Proc.devRef .tc main_arg13) :=
  (val22_keep V0 main_arg13 (by decide)).trans (val21_main_arg13 V0)
theorem val22_main_arg14 (V0 : Valuation τ sig (Elt F)) : val22 V0 (no_index (Proc.devRef .tc main_arg14)) = V0 (Proc.devRef .tc main_arg14) :=
  (val22_keep V0 main_arg14 (by decide)).trans (val21_main_arg14 V0)
theorem val22_main_arg15 (V0 : Valuation τ sig (Elt F)) : val22 V0 (no_index (Proc.devRef .tc main_arg15)) = V0 (Proc.devRef .tc main_arg15) :=
  (val22_keep V0 main_arg15 (by decide)).trans (val21_main_arg15 V0)
theorem val22_main_arg16 (V0 : Valuation τ sig (Elt F)) : val22 V0 (no_index (Proc.devRef .tc main_arg16)) = V0 (Proc.devRef .tc main_arg16) :=
  (val22_keep V0 main_arg16 (by decide)).trans (val21_main_arg16 V0)
theorem val22_main_arg17 (V0 : Valuation τ sig (Elt F)) : val22 V0 (no_index (Proc.devRef .tc main_arg17)) = V0 (Proc.devRef .tc main_arg17) :=
  (val22_keep V0 main_arg17 (by decide)).trans (val21_main_arg17 V0)
theorem val22_main_arg18 (V0 : Valuation τ sig (Elt F)) : val22 V0 (no_index (Proc.devRef .tc main_arg18)) = V0 (Proc.devRef .tc main_arg18) :=
  (val22_keep V0 main_arg18 (by decide)).trans (val21_main_arg18 V0)
theorem val22_main_arg19 (V0 : Valuation τ sig (Elt F)) : val22 V0 (no_index (Proc.devRef .tc main_arg19)) = V0 (Proc.devRef .tc main_arg19) :=
  (val22_keep V0 main_arg19 (by decide)).trans (val21_main_arg19 V0)
theorem val22_main_arg20 (V0 : Valuation τ sig (Elt F)) : val22 V0 (no_index (Proc.devRef .tc main_arg20)) = V0 (Proc.devRef .tc main_arg20) :=
  (val22_keep V0 main_arg20 (by decide)).trans (val21_main_arg20 V0)
theorem val22_main_v3 (V0 : Valuation τ sig (Elt F)) : val22 V0 (no_index (Proc.devRef .tc main_v3)) = ref_v3 V0 :=
  (val22_keep V0 main_v3 (by decide)).trans (val21_main_v3 V0)
theorem val22_main_v97 (V0 : Valuation τ sig (Elt F)) : val22 V0 (no_index (Proc.devRef .tc main_v97)) = ref_v97 V0 :=
  (val22_keep V0 main_v97 (by decide)).trans (val21_main_v97 V0)
theorem val22_main_v107 (V0 : Valuation τ sig (Elt F)) : val22 V0 (no_index (Proc.devRef .tc main_v107)) = ref_v107 V0 := by
  unfold val22
  simp only [seg21]
  after_results_simp
  simp only [val21_main_v3, val21_main_v104]
  rfl

/-- The contents after the first 23 groups. -/
def val23 (V0 : Valuation τ sig (Elt F)) : Valuation τ sig (Elt F) := after seg22 (val22 V0)
abbrev seg22_W : List (Ref sig .tc) := [main_cst_21, main_v108, main_cst_22, main_v109, main_v110, main_v111]
theorem seg22_writes : (seg22 : List (HloOp τ sig (Elt F))).Forall fun op => op.writes ⊆ (seg22_W.map (Proc.devRef (τ := τ) .tc)).toFinset :=
  ⟨writes_sub_of main_cst_21 rfl (by decide), writes_sub_of main_v108 rfl (by decide), writes_sub_of main_cst_22 rfl (by decide), writes_sub_of main_v109 rfl (by decide), writes_sub_of main_v110 rfl (by decide), writes_sub_of main_v111 rfl (by decide)⟩
theorem val23_keep (V0 : Valuation τ sig (Elt F)) (r : Ref sig .tc) (h : r ∉ seg22_W) :
    val23 V0 (Proc.devRef .tc r) = val22 V0 (Proc.devRef .tc r) :=
  after_of_writes_sub seg22 _ seg22_writes h
theorem val23_main_arg12 (V0 : Valuation τ sig (Elt F)) : val23 V0 (no_index (Proc.devRef .tc main_arg12)) = V0 (Proc.devRef .tc main_arg12) :=
  (val23_keep V0 main_arg12 (by decide)).trans (val22_main_arg12 V0)
theorem val23_main_arg13 (V0 : Valuation τ sig (Elt F)) : val23 V0 (no_index (Proc.devRef .tc main_arg13)) = V0 (Proc.devRef .tc main_arg13) :=
  (val23_keep V0 main_arg13 (by decide)).trans (val22_main_arg13 V0)
theorem val23_main_arg14 (V0 : Valuation τ sig (Elt F)) : val23 V0 (no_index (Proc.devRef .tc main_arg14)) = V0 (Proc.devRef .tc main_arg14) :=
  (val23_keep V0 main_arg14 (by decide)).trans (val22_main_arg14 V0)
theorem val23_main_arg15 (V0 : Valuation τ sig (Elt F)) : val23 V0 (no_index (Proc.devRef .tc main_arg15)) = V0 (Proc.devRef .tc main_arg15) :=
  (val23_keep V0 main_arg15 (by decide)).trans (val22_main_arg15 V0)
theorem val23_main_arg16 (V0 : Valuation τ sig (Elt F)) : val23 V0 (no_index (Proc.devRef .tc main_arg16)) = V0 (Proc.devRef .tc main_arg16) :=
  (val23_keep V0 main_arg16 (by decide)).trans (val22_main_arg16 V0)
theorem val23_main_arg17 (V0 : Valuation τ sig (Elt F)) : val23 V0 (no_index (Proc.devRef .tc main_arg17)) = V0 (Proc.devRef .tc main_arg17) :=
  (val23_keep V0 main_arg17 (by decide)).trans (val22_main_arg17 V0)
theorem val23_main_arg18 (V0 : Valuation τ sig (Elt F)) : val23 V0 (no_index (Proc.devRef .tc main_arg18)) = V0 (Proc.devRef .tc main_arg18) :=
  (val23_keep V0 main_arg18 (by decide)).trans (val22_main_arg18 V0)
theorem val23_main_arg19 (V0 : Valuation τ sig (Elt F)) : val23 V0 (no_index (Proc.devRef .tc main_arg19)) = V0 (Proc.devRef .tc main_arg19) :=
  (val23_keep V0 main_arg19 (by decide)).trans (val22_main_arg19 V0)
theorem val23_main_arg20 (V0 : Valuation τ sig (Elt F)) : val23 V0 (no_index (Proc.devRef .tc main_arg20)) = V0 (Proc.devRef .tc main_arg20) :=
  (val23_keep V0 main_arg20 (by decide)).trans (val22_main_arg20 V0)
theorem val23_main_v97 (V0 : Valuation τ sig (Elt F)) : val23 V0 (no_index (Proc.devRef .tc main_v97)) = ref_v97 V0 :=
  (val23_keep V0 main_v97 (by decide)).trans (val22_main_v97 V0)
theorem val23_main_v107 (V0 : Valuation τ sig (Elt F)) : val23 V0 (no_index (Proc.devRef .tc main_v107)) = ref_v107 V0 :=
  (val23_keep V0 main_v107 (by decide)).trans (val22_main_v107 V0)
theorem val23_main_v111 (V0 : Valuation τ sig (Elt F)) : val23 V0 (no_index (Proc.devRef .tc main_v111)) = ref_v111 V0 := by
  unfold val23
  simp only [seg22]
  after_results_simp
  simp only [val22_main_v3]
  rfl

/-- The contents after the first 24 groups. -/
def val24 (V0 : Valuation τ sig (Elt F)) : Valuation τ sig (Elt F) := after seg23 (val23 V0)
abbrev seg23_W : List (Ref sig .tc) := [main_cst_23, main_v112, main_v113, main_v114, main_v115, main_v116]
theorem seg23_writes : (seg23 : List (HloOp τ sig (Elt F))).Forall fun op => op.writes ⊆ (seg23_W.map (Proc.devRef (τ := τ) .tc)).toFinset :=
  ⟨writes_sub_of main_cst_23 rfl (by decide), writes_sub_of main_v112 rfl (by decide), writes_sub_of main_v113 rfl (by decide), writes_sub_of main_v114 rfl (by decide), writes_sub_of main_v115 rfl (by decide), writes_sub_of main_v116 rfl (by decide)⟩
theorem val24_keep (V0 : Valuation τ sig (Elt F)) (r : Ref sig .tc) (h : r ∉ seg23_W) :
    val24 V0 (Proc.devRef .tc r) = val23 V0 (Proc.devRef .tc r) :=
  after_of_writes_sub seg23 _ seg23_writes h
theorem val24_main_arg12 (V0 : Valuation τ sig (Elt F)) : val24 V0 (no_index (Proc.devRef .tc main_arg12)) = V0 (Proc.devRef .tc main_arg12) :=
  (val24_keep V0 main_arg12 (by decide)).trans (val23_main_arg12 V0)
theorem val24_main_arg13 (V0 : Valuation τ sig (Elt F)) : val24 V0 (no_index (Proc.devRef .tc main_arg13)) = V0 (Proc.devRef .tc main_arg13) :=
  (val24_keep V0 main_arg13 (by decide)).trans (val23_main_arg13 V0)
theorem val24_main_arg14 (V0 : Valuation τ sig (Elt F)) : val24 V0 (no_index (Proc.devRef .tc main_arg14)) = V0 (Proc.devRef .tc main_arg14) :=
  (val24_keep V0 main_arg14 (by decide)).trans (val23_main_arg14 V0)
theorem val24_main_arg15 (V0 : Valuation τ sig (Elt F)) : val24 V0 (no_index (Proc.devRef .tc main_arg15)) = V0 (Proc.devRef .tc main_arg15) :=
  (val24_keep V0 main_arg15 (by decide)).trans (val23_main_arg15 V0)
theorem val24_main_arg16 (V0 : Valuation τ sig (Elt F)) : val24 V0 (no_index (Proc.devRef .tc main_arg16)) = V0 (Proc.devRef .tc main_arg16) :=
  (val24_keep V0 main_arg16 (by decide)).trans (val23_main_arg16 V0)
theorem val24_main_arg17 (V0 : Valuation τ sig (Elt F)) : val24 V0 (no_index (Proc.devRef .tc main_arg17)) = V0 (Proc.devRef .tc main_arg17) :=
  (val24_keep V0 main_arg17 (by decide)).trans (val23_main_arg17 V0)
theorem val24_main_arg18 (V0 : Valuation τ sig (Elt F)) : val24 V0 (no_index (Proc.devRef .tc main_arg18)) = V0 (Proc.devRef .tc main_arg18) :=
  (val24_keep V0 main_arg18 (by decide)).trans (val23_main_arg18 V0)
theorem val24_main_arg19 (V0 : Valuation τ sig (Elt F)) : val24 V0 (no_index (Proc.devRef .tc main_arg19)) = V0 (Proc.devRef .tc main_arg19) :=
  (val24_keep V0 main_arg19 (by decide)).trans (val23_main_arg19 V0)
theorem val24_main_arg20 (V0 : Valuation τ sig (Elt F)) : val24 V0 (no_index (Proc.devRef .tc main_arg20)) = V0 (Proc.devRef .tc main_arg20) :=
  (val24_keep V0 main_arg20 (by decide)).trans (val23_main_arg20 V0)
theorem val24_main_v97 (V0 : Valuation τ sig (Elt F)) : val24 V0 (no_index (Proc.devRef .tc main_v97)) = ref_v97 V0 :=
  (val24_keep V0 main_v97 (by decide)).trans (val23_main_v97 V0)
theorem val24_main_v116 (V0 : Valuation τ sig (Elt F)) : val24 V0 (no_index (Proc.devRef .tc main_v116)) = ref_v116 V0 := by
  unfold val24
  simp only [seg23]
  after_results_simp
  simp only [val23_main_v107, val23_main_v111]
  rfl

/-- The contents after the first 25 groups. -/
def val25 (V0 : Valuation τ sig (Elt F)) : Valuation τ sig (Elt F) := after seg24 (val24 V0)
abbrev seg24_W : List (Ref sig .tc) := [main_v117, main_v118, main_v119, main_v120, main_v121, main_v122, main_v123, main_v124]
theorem seg24_writes : (seg24 : List (HloOp τ sig (Elt F))).Forall fun op => op.writes ⊆ (seg24_W.map (Proc.devRef (τ := τ) .tc)).toFinset :=
  ⟨writes_sub_of main_v117 rfl (by decide), writes_sub_of main_v118 rfl (by decide), writes_sub_of main_v119 rfl (by decide), writes_sub_of main_v120 rfl (by decide), writes_sub_of main_v121 rfl (by decide), writes_sub_of main_v122 rfl (by decide), writes_sub_of main_v123 rfl (by decide), writes_sub_of main_v124 rfl (by decide)⟩
theorem val25_keep (V0 : Valuation τ sig (Elt F)) (r : Ref sig .tc) (h : r ∉ seg24_W) :
    val25 V0 (Proc.devRef .tc r) = val24 V0 (Proc.devRef .tc r) :=
  after_of_writes_sub seg24 _ seg24_writes h
theorem val25_main_arg15 (V0 : Valuation τ sig (Elt F)) : val25 V0 (no_index (Proc.devRef .tc main_arg15)) = V0 (Proc.devRef .tc main_arg15) :=
  (val25_keep V0 main_arg15 (by decide)).trans (val24_main_arg15 V0)
theorem val25_main_arg16 (V0 : Valuation τ sig (Elt F)) : val25 V0 (no_index (Proc.devRef .tc main_arg16)) = V0 (Proc.devRef .tc main_arg16) :=
  (val25_keep V0 main_arg16 (by decide)).trans (val24_main_arg16 V0)
theorem val25_main_arg17 (V0 : Valuation τ sig (Elt F)) : val25 V0 (no_index (Proc.devRef .tc main_arg17)) = V0 (Proc.devRef .tc main_arg17) :=
  (val25_keep V0 main_arg17 (by decide)).trans (val24_main_arg17 V0)
theorem val25_main_arg18 (V0 : Valuation τ sig (Elt F)) : val25 V0 (no_index (Proc.devRef .tc main_arg18)) = V0 (Proc.devRef .tc main_arg18) :=
  (val25_keep V0 main_arg18 (by decide)).trans (val24_main_arg18 V0)
theorem val25_main_arg19 (V0 : Valuation τ sig (Elt F)) : val25 V0 (no_index (Proc.devRef .tc main_arg19)) = V0 (Proc.devRef .tc main_arg19) :=
  (val25_keep V0 main_arg19 (by decide)).trans (val24_main_arg19 V0)
theorem val25_main_arg20 (V0 : Valuation τ sig (Elt F)) : val25 V0 (no_index (Proc.devRef .tc main_arg20)) = V0 (Proc.devRef .tc main_arg20) :=
  (val25_keep V0 main_arg20 (by decide)).trans (val24_main_arg20 V0)
theorem val25_main_v124 (V0 : Valuation τ sig (Elt F)) : val25 V0 (no_index (Proc.devRef .tc main_v124)) = ref_v124 V0 := by
  unfold val25
  simp only [seg24]
  after_results_simp
  simp only [val24_main_v116, val24_main_arg12, val24_main_arg13, val24_main_v97, val24_main_arg14]
  rfl

/-- The contents after the first 26 groups. -/
def val26 (V0 : Valuation τ sig (Elt F)) : Valuation τ sig (Elt F) := after seg25 (val25 V0)
abbrev seg25_W : List (Ref sig .tc) := [main_cst_24, main_v125, main_cst_25, main_v126, main_v127]
theorem seg25_writes : (seg25 : List (HloOp τ sig (Elt F))).Forall fun op => op.writes ⊆ (seg25_W.map (Proc.devRef (τ := τ) .tc)).toFinset :=
  ⟨writes_sub_of main_cst_24 rfl (by decide), writes_sub_of main_v125 rfl (by decide), writes_sub_of main_cst_25 rfl (by decide), writes_sub_of main_v126 rfl (by decide), writes_sub_of main_v127 rfl (by decide)⟩
theorem val26_keep (V0 : Valuation τ sig (Elt F)) (r : Ref sig .tc) (h : r ∉ seg25_W) :
    val26 V0 (Proc.devRef .tc r) = val25 V0 (Proc.devRef .tc r) :=
  after_of_writes_sub seg25 _ seg25_writes h
theorem val26_main_arg15 (V0 : Valuation τ sig (Elt F)) : val26 V0 (no_index (Proc.devRef .tc main_arg15)) = V0 (Proc.devRef .tc main_arg15) :=
  (val26_keep V0 main_arg15 (by decide)).trans (val25_main_arg15 V0)
theorem val26_main_arg16 (V0 : Valuation τ sig (Elt F)) : val26 V0 (no_index (Proc.devRef .tc main_arg16)) = V0 (Proc.devRef .tc main_arg16) :=
  (val26_keep V0 main_arg16 (by decide)).trans (val25_main_arg16 V0)
theorem val26_main_arg17 (V0 : Valuation τ sig (Elt F)) : val26 V0 (no_index (Proc.devRef .tc main_arg17)) = V0 (Proc.devRef .tc main_arg17) :=
  (val26_keep V0 main_arg17 (by decide)).trans (val25_main_arg17 V0)
theorem val26_main_arg18 (V0 : Valuation τ sig (Elt F)) : val26 V0 (no_index (Proc.devRef .tc main_arg18)) = V0 (Proc.devRef .tc main_arg18) :=
  (val26_keep V0 main_arg18 (by decide)).trans (val25_main_arg18 V0)
theorem val26_main_arg19 (V0 : Valuation τ sig (Elt F)) : val26 V0 (no_index (Proc.devRef .tc main_arg19)) = V0 (Proc.devRef .tc main_arg19) :=
  (val26_keep V0 main_arg19 (by decide)).trans (val25_main_arg19 V0)
theorem val26_main_arg20 (V0 : Valuation τ sig (Elt F)) : val26 V0 (no_index (Proc.devRef .tc main_arg20)) = V0 (Proc.devRef .tc main_arg20) :=
  (val26_keep V0 main_arg20 (by decide)).trans (val25_main_arg20 V0)
theorem val26_main_v124 (V0 : Valuation τ sig (Elt F)) : val26 V0 (no_index (Proc.devRef .tc main_v124)) = ref_v124 V0 :=
  (val26_keep V0 main_v124 (by decide)).trans (val25_main_v124 V0)
theorem val26_main_v127 (V0 : Valuation τ sig (Elt F)) : val26 V0 (no_index (Proc.devRef .tc main_v127)) = ref_v127 V0 := by
  unfold val26
  simp only [seg25]
  after_results_simp
  simp only [val25_main_v124]
  rfl

/-- The contents after the first 27 groups. -/
def val27 (V0 : Valuation τ sig (Elt F)) : Valuation τ sig (Elt F) := after seg26 (val26 V0)
abbrev seg26_W : List (Ref sig .tc) := [main_c_26, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref]
theorem seg26_writes : (seg26 : List (HloOp τ sig (Elt F))).Forall fun op => op.writes ⊆ (seg26_W.map (Proc.devRef (τ := τ) .tc)).toFinset :=
  ⟨writes_sub_of main_c_26 rfl (by decide), writes_sub_of (main_call4.cst.ref) rfl (by decide), writes_sub_of (main_call4.v0.ref) rfl (by decide), writes_sub_of (main_call4.v1.ref) rfl (by decide), writes_sub_of (main_call4.cst_0.ref) rfl (by decide), writes_sub_of (main_call4.v2.ref) rfl (by decide), writes_sub_of (main_call4.v3.ref) rfl (by decide), writes_sub_of (main_call4.v4.ref) rfl (by decide), writes_sub_of (main_call4.v5.ref) rfl (by decide), writes_sub_of (main_call4.v6.ref) rfl (by decide), writes_sub_of (main_call4.v7.ref) rfl (by decide), writes_sub_of (main_call4.cst_1.ref) rfl (by decide), writes_sub_of (main_call4.v8.ref) rfl (by decide), writes_sub_of (main_call4.cst_2.ref) rfl (by decide), writes_sub_of (main_call4.v9.ref) rfl (by decide), writes_sub_of (main_call4.v10.ref) rfl (by decide), writes_sub_of (main_call4.v11.ref) rfl (by decide), writes_sub_of (main_call4.cst_3.ref) rfl (by decide), writes_sub_of (main_call4.v12.ref) rfl (by decide), writes_sub_of (main_call4.cst_4.ref) rfl (by decide), writes_sub_of (main_call4.call0.v0.ref) rfl (by decide), writes_sub_of (main_call4.call0.v1.ref) rfl (by decide), writes_sub_of (main_call4.call0.v2.ref) rfl (by decide)⟩
theorem val27_keep (V0 : Valuation τ sig (Elt F)) (r : Ref sig .tc) (h : r ∉ seg26_W) :
    val27 V0 (Proc.devRef .tc r) = val26 V0 (Proc.devRef .tc r) :=
  after_of_writes_sub seg26 _ seg26_writes h
theorem val27_main_arg15 (V0 : Valuation τ sig (Elt F)) : val27 V0 (no_index (Proc.devRef .tc main_arg15)) = V0 (Proc.devRef .tc main_arg15) :=
  (val27_keep V0 main_arg15 (by decide)).trans (val26_main_arg15 V0)
theorem val27_main_arg16 (V0 : Valuation τ sig (Elt F)) : val27 V0 (no_index (Proc.devRef .tc main_arg16)) = V0 (Proc.devRef .tc main_arg16) :=
  (val27_keep V0 main_arg16 (by decide)).trans (val26_main_arg16 V0)
theorem val27_main_arg17 (V0 : Valuation τ sig (Elt F)) : val27 V0 (no_index (Proc.devRef .tc main_arg17)) = V0 (Proc.devRef .tc main_arg17) :=
  (val27_keep V0 main_arg17 (by decide)).trans (val26_main_arg17 V0)
theorem val27_main_arg18 (V0 : Valuation τ sig (Elt F)) : val27 V0 (no_index (Proc.devRef .tc main_arg18)) = V0 (Proc.devRef .tc main_arg18) :=
  (val27_keep V0 main_arg18 (by decide)).trans (val26_main_arg18 V0)
theorem val27_main_arg19 (V0 : Valuation τ sig (Elt F)) : val27 V0 (no_index (Proc.devRef .tc main_arg19)) = V0 (Proc.devRef .tc main_arg19) :=
  (val27_keep V0 main_arg19 (by decide)).trans (val26_main_arg19 V0)
theorem val27_main_arg20 (V0 : Valuation τ sig (Elt F)) : val27 V0 (no_index (Proc.devRef .tc main_arg20)) = V0 (Proc.devRef .tc main_arg20) :=
  (val27_keep V0 main_arg20 (by decide)).trans (val26_main_arg20 V0)
theorem val27_main_v124 (V0 : Valuation τ sig (Elt F)) : val27 V0 (no_index (Proc.devRef .tc main_v124)) = ref_v124 V0 :=
  (val27_keep V0 main_v124 (by decide)).trans (val26_main_v124 V0)
theorem val27_main_v127 (V0 : Valuation τ sig (Elt F)) : val27 V0 (no_index (Proc.devRef .tc main_v127)) = ref_v127 V0 :=
  (val27_keep V0 main_v127 (by decide)).trans (val26_main_v127 V0)
theorem val27_main_v128 (V0 : Valuation τ sig (Elt F)) : val27 V0 (no_index (Proc.devRef .tc main_v128)) = ref_v128 V0 := by
  unfold val27
  simp only [seg26]
  after_results_simp
  simp only [val26_main_v124]
  rfl

/-- The contents after the first 28 groups. -/
def val28 (V0 : Valuation τ sig (Elt F)) : Valuation τ sig (Elt F) := after seg27 (val27 V0)
abbrev seg27_W : List (Ref sig .tc) := [main_v129, main_v130, main_v131, main_cst_27, main_v132, main_v133, main_v134, main_v135, main_v136, main_v137, main_v138, main_v139, main_v140, main_v141, main_v142, main_v143, main_call5.cst.ref, main_call5.v0.ref, main_call5.v1.ref]
theorem seg27_writes : (seg27 : List (HloOp τ sig (Elt F))).Forall fun op => op.writes ⊆ (seg27_W.map (Proc.devRef (τ := τ) .tc)).toFinset :=
  ⟨writes_sub_of main_v129 rfl (by decide), writes_sub_of main_v130 rfl (by decide), writes_sub_of main_v131 rfl (by decide), writes_sub_of main_cst_27 rfl (by decide), writes_sub_of main_v132 rfl (by decide), writes_sub_of main_v133 rfl (by decide), writes_sub_of main_v134 rfl (by decide), writes_sub_of main_v135 rfl (by decide), writes_sub_of main_v136 rfl (by decide), writes_sub_of main_v137 rfl (by decide), writes_sub_of main_v138 rfl (by decide), writes_sub_of main_v139 rfl (by decide), writes_sub_of main_v140 rfl (by decide), writes_sub_of main_v141 rfl (by decide), writes_sub_of main_v142 rfl (by decide), writes_sub_of main_v143 rfl (by decide), writes_sub_of (main_call5.cst.ref) rfl (by decide), writes_sub_of (main_call5.v0.ref) rfl (by decide), writes_sub_of (main_call5.v1.ref) rfl (by decide)⟩
theorem val28_keep (V0 : Valuation τ sig (Elt F)) (r : Ref sig .tc) (h : r ∉ seg27_W) :
    val28 V0 (Proc.devRef .tc r) = val27 V0 (Proc.devRef .tc r) :=
  after_of_writes_sub seg27 _ seg27_writes h
theorem val28_main_arg17 (V0 : Valuation τ sig (Elt F)) : val28 V0 (no_index (Proc.devRef .tc main_arg17)) = V0 (Proc.devRef .tc main_arg17) :=
  (val28_keep V0 main_arg17 (by decide)).trans (val27_main_arg17 V0)
theorem val28_main_arg18 (V0 : Valuation τ sig (Elt F)) : val28 V0 (no_index (Proc.devRef .tc main_arg18)) = V0 (Proc.devRef .tc main_arg18) :=
  (val28_keep V0 main_arg18 (by decide)).trans (val27_main_arg18 V0)
theorem val28_main_arg19 (V0 : Valuation τ sig (Elt F)) : val28 V0 (no_index (Proc.devRef .tc main_arg19)) = V0 (Proc.devRef .tc main_arg19) :=
  (val28_keep V0 main_arg19 (by decide)).trans (val27_main_arg19 V0)
theorem val28_main_arg20 (V0 : Valuation τ sig (Elt F)) : val28 V0 (no_index (Proc.devRef .tc main_arg20)) = V0 (Proc.devRef .tc main_arg20) :=
  (val28_keep V0 main_arg20 (by decide)).trans (val27_main_arg20 V0)
theorem val28_main_v144 (V0 : Valuation τ sig (Elt F)) : val28 V0 (no_index (Proc.devRef .tc main_v144)) = ref_v144 V0 := by
  unfold val28
  simp only [seg27]
  after_results_simp
  simp only [val27_main_v124, val27_main_v127, val27_main_v128, val27_main_arg15, val27_main_arg16]
  rfl

/-- The contents after the first 29 groups. -/
def val29 (V0 : Valuation τ sig (Elt F)) : Valuation τ sig (Elt F) := after seg28 (val28 V0)
abbrev seg28_W : List (Ref sig .tc) := [main_v145, main_v146, main_v147, main_v148, main_v149, main_call6.cst.ref, main_call6.v0.ref, main_call6.v1.ref]
theorem seg28_writes : (seg28 : List (HloOp τ sig (Elt F))).Forall fun op => op.writes ⊆ (seg28_W.map (Proc.devRef (τ := τ) .tc)).toFinset :=
  ⟨writes_sub_of main_v145 rfl (by decide), writes_sub_of main_v146 rfl (by decide), writes_sub_of main_v147 rfl (by decide), writes_sub_of main_v148 rfl (by decide), writes_sub_of main_v149 rfl (by decide), writes_sub_of (main_call6.cst.ref) rfl (by decide), writes_sub_of (main_call6.v0.ref) rfl (by decide), writes_sub_of (main_call6.v1.ref) rfl (by decide)⟩
theorem val29_keep (V0 : Valuation τ sig (Elt F)) (r : Ref sig .tc) (h : r ∉ seg28_W) :
    val29 V0 (Proc.devRef .tc r) = val28 V0 (Proc.devRef .tc r) :=
  after_of_writes_sub seg28 _ seg28_writes h
theorem val29_main_arg19 (V0 : Valuation τ sig (Elt F)) : val29 V0 (no_index (Proc.devRef .tc main_arg19)) = V0 (Proc.devRef .tc main_arg19) :=
  (val29_keep V0 main_arg19 (by decide)).trans (val28_main_arg19 V0)
theorem val29_main_arg20 (V0 : Valuation τ sig (Elt F)) : val29 V0 (no_index (Proc.devRef .tc main_arg20)) = V0 (Proc.devRef .tc main_arg20) :=
  (val29_keep V0 main_arg20 (by decide)).trans (val28_main_arg20 V0)
theorem val29_main_v150 (V0 : Valuation τ sig (Elt F)) : val29 V0 (no_index (Proc.devRef .tc main_v150)) = ref_v150 V0 := by
  unfold val29
  simp only [seg28]
  after_results_simp
  simp only [val28_main_v144, val28_main_arg17, val28_main_arg18]
  rfl

/-- The contents after the first 30 groups. -/
def val30 (V0 : Valuation τ sig (Elt F)) : Valuation τ sig (Elt F) := after seg29 (val29 V0)
abbrev seg29_W : List (Ref sig .tc) := [main_v151, main_v152, main_v153, main_v154, main_v155, main_v156, main_v157, main_cst_28, main_v158, main_v159, main_cst_29, main_v160, main_v161]
theorem seg29_writes : (seg29 : List (HloOp τ sig (Elt F))).Forall fun op => op.writes ⊆ (seg29_W.map (Proc.devRef (τ := τ) .tc)).toFinset :=
  ⟨writes_sub_of main_v151 rfl (by decide), writes_sub_of main_v152 rfl (by decide), writes_sub_of main_v153 rfl (by decide), writes_sub_of main_v154 rfl (by decide), writes_sub_of main_v155 rfl (by decide), writes_sub_of main_v156 rfl (by decide), writes_sub_of main_v157 rfl (by decide), writes_sub_of main_cst_28 rfl (by decide), writes_sub_of main_v158 rfl (by decide), writes_sub_of main_v159 rfl (by decide), writes_sub_of main_cst_29 rfl (by decide), writes_sub_of main_v160 rfl (by decide), writes_sub_of main_v161 rfl (by decide)⟩
theorem val30_keep (V0 : Valuation τ sig (Elt F)) (r : Ref sig .tc) (h : r ∉ seg29_W) :
    val30 V0 (Proc.devRef .tc r) = val29 V0 (Proc.devRef .tc r) :=
  after_of_writes_sub seg29 _ seg29_writes h
theorem val30_main_v161 (V0 : Valuation τ sig (Elt F)) : val30 V0 (no_index (Proc.devRef .tc main_v161)) = ref_v161 V0 := by
  unfold val30
  simp only [seg29]
  after_results_simp
  simp only [val29_main_v150, val29_main_arg19, val29_main_arg20]
  rfl

/-- The whole fold is the contents after the thirtieth group. -/
theorem after_ops_val (V0 : Valuation τ sig (Elt F)) : after ops V0 = val30 V0 := by
  rw [ops_segs]
  simp only [after_app]
  rfl

/-- The reference's result is the stage functions composed: `ref_v161`, which unfolds through `ref_v150`, `ref_v144`, … to the launch contents of the arguments. -/
theorem refOut_eq (W : Valuation τ sig (Elt F)) : refOut W = ref_v161 W := by
  unfold refOut
  rw [after_ops_val]
  exact val30_main_v161 W

end Cert.ReferenceIdeal.Hand

end
-- ==== Proof.Join.Claim.lean ====
/- The two programs' results agree: the first program's result buffer after its last launch, read back through its
   fourteen segments to the launch memory, is the second program's result of its own launch memory, when the two
   memories agree on the twenty-one arguments and the precondition (every floating-point argument finite) holds. -/
import proofs.«121727_j57028575756303_1_alg».proof.Proof.Join.Walk
import proofs.«121727_j57028575756303_1_alg».proof.Proof.Join.Final
import proofs.«121727_j57028575756303_1_alg».proof.Proof.Join.Finite
import proofs.«121727_j57028575756303_1_alg».proof.Proof.RefRun.Fold

noncomputable section

namespace Cert.Proof.Join

open Idealize.ShloMosaic Idealize.ShloMosaic.TcCoe Idealize.SL.Sem

/-- THE VALUE CLAIM on core `c`. -/
theorem value_eq [hPre_finite_inputs : Cert.Pre_finite_inputs.Facts] (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (c : Dev Cert.KernelIdeal.nD) :
    Cert.KernelIdeal.Hand.W14 (F := Ideal) m ρ c (Proc.devRef .tc Cert.KernelIdeal.main_v96)
      = Cert.ReferenceIdeal.Hand.refOut (F := Ideal) (fun b => m' (c, b)) := by
  rw [w14_v96 m ρ c, Cert.ReferenceIdeal.Hand.refOut_eq]
  obtain ⟨r0, r2, r3, r4, r5, r6, r7, r8, r9, r10, r11, r12, r13, r14, r15, r16, r17, r18, r19, r20⟩ := inputs_real m hpre c
  obtain ⟨a0, a1, a2, a3, a4, a5, a6, a7, a8, a9, a10, a11, a12, a13, a14, a15, a16, a17, a18, a19, a20⟩ := hagree c
  exact kOut_eq_ref ⟨a0, a1, a2, a3, a4, a5, a6, a7, a8, a9, a10, a11, a12, a13, a14, a15, a16, a17, a18, a19, a20⟩ ⟨r0, r2, r3, r4, r5, r6, r7, r8, r9, r10, r11, r12, r13, r14, r15, r16, r17, r18, r19, r20⟩

end Cert.Proof.Join

end
-- ==== Proof.Algebraic.lean ====
/- The comparison of the idealized kernel with the idealized reference: both run to the end from memories that agree on the
   arguments; the kernel ends with its result at the fold of its host stretches and pipelines over the launch memory, the
   reference at the fold of its operations, and the two folds are one array. -/
import proofs.«121727_j57028575756303_1_alg».proof.Defs
import proofs.«121727_j57028575756303_1_alg».proof.Proof.KI.Main
import proofs.«121727_j57028575756303_1_alg».proof.Proof.RefRun.Frame
import proofs.«121727_j57028575756303_1_alg».proof.Proof.Join.Claim

noncomputable section

open Idealize.ShloMosaic Idealize.ShloMosaic.TcCoe Idealize.SL.Sem

namespace Cert.Proof.Algebraic

/-- From memories that agree on the twenty-one arguments, under the kernel's precondition, the idealized kernel and the
    idealized reference end with equal results (as extended reals), each leaving its arguments unchanged. -/
theorem algebraic [hPre_finite_inputs : Cert.Pre_finite_inputs.Facts] : Cert.algebraic_KernelIdeal_ReferenceIdeal := by
  intro m g m' g' hpre hagree
  refine ⟨fun c => Cert.KernelIdeal.Hand.W14 (F := Ideal) m g c (Proc.devRef .tc Cert.KernelIdeal.main_v96),
    Cert.KernelIdeal.Hand.run_value (F := Ideal) m g, ?_⟩
  exact Cert.ReferenceIdeal.Hand.run_result_eq m' g' _ (fun c => (Cert.Proof.Join.value_eq m g m' hpre hagree c).symm)

end Cert.Proof.Algebraic

end
-- ==== Proof.LibCombine.lean ====
/-
  The linear combine of a graph-convolution layer keeps reals, on the extended reals.

  One block of the layer is agg · Wl + bl + x · Wr: two contractions, each onto an accumulator of zeros and each of operands
  first narrowed to a shorter float format (the identity on the extended reals), the bias row repeated down the block.
  Every entry of the result is a finite sum of products of entries plus an entry of the bias, so it is real when every
  entry of agg, x, Wl, Wr and bl is. The same holds for its square, and for the sums of either over an axis.
-/
import Idealize.ShloMosaic.PureOps.Ideal
import Idealize.ShloMosaic.PureOps.Ideal.Laws
import proofs.«121727_j57028575756303_1_alg».proof.Proof.LibRealSums
import proofs.«121727_j57028575756303_1_alg».proof.Proof.LibBatchNorm
import proofs.«121727_j57028575756303_1_alg».proof.Proof.LibFinite

open Idealize.ShloMosaic Cert.RealSums Cert.BatchNorm Cert.Finite

namespace Cert.Combine

variable {sl sr so sb : Shape} {ψ : FTy}

/-- The combine of one block: (agg · Wl onto zeros + the bias row repeated) + x · Wr onto zeros, the four matrix
    operands narrowed to the format ψ first. -/
noncomputable def combine (d : DotDims sl sr so) (hlt : ψ.bits < FTy.f32.bits) (hb : sb.Broadcasts so)
    (agg x : FVec Ideal sl .f32) (wl wr : FVec Ideal sr .f32) (bl : FVec Ideal sb .f32) : FVec Ideal so .f32 :=
  addf (addf (matmul d none (truncf ψ agg hlt) (truncf ψ wl hlt) (constant so .f32 0x00000000#32)) (broadcastTo so bl hb))
    (matmul d none (truncf ψ x hlt) (truncf ψ wr hlt) (constant so .f32 0x00000000#32))

/-- One contraction of narrowed real operands onto zeros is real. -/
theorem isReal_narrow_matmul (d : DotDims sl sr so) (hlt : ψ.bits < FTy.f32.bits) (a : FVec Ideal sl .f32)
    (w : FVec Ideal sr .f32) (ha : ∀ i, IsReal (a i)) (hw : ∀ i, IsReal (w i)) (j : so.Idx) :
    IsReal (matmul d none (truncf ψ a hlt) (truncf ψ w hlt) (constant so .f32 0x00000000#32) j) :=
  isReal_matmul d none (truncf ψ a hlt) (truncf ψ w hlt) (constant so .f32 0x00000000#32)
    (fun i => isReal_truncf ψ a hlt ha i) (fun i => isReal_truncf ψ w hlt hw i) (fun i => isReal_constant_zero so i) j

/-- THE COMBINE KEEPS REALS. -/
theorem isReal_combine (d : DotDims sl sr so) (hlt : ψ.bits < FTy.f32.bits) (hb : sb.Broadcasts so)
    (agg x : FVec Ideal sl .f32) (wl wr : FVec Ideal sr .f32) (bl : FVec Ideal sb .f32) (hagg : ∀ i, IsReal (agg i))
    (hx : ∀ i, IsReal (x i)) (hwl : ∀ i, IsReal (wl i)) (hwr : ∀ i, IsReal (wr i)) (hbl : ∀ i, IsReal (bl i)) (j : so.Idx) :
    IsReal (combine d hlt hb agg x wl wr bl j) := by
  unfold combine
  exact isReal_addf
    (addf (matmul d none (truncf ψ agg hlt) (truncf ψ wl hlt) (constant so .f32 0x00000000#32)) (broadcastTo so bl hb))
    (matmul d none (truncf ψ x hlt) (truncf ψ wr hlt) (constant so .f32 0x00000000#32))
    (fun k => isReal_addf (matmul d none (truncf ψ agg hlt) (truncf ψ wl hlt) (constant so .f32 0x00000000#32))
      (broadcastTo so bl hb) (fun k' => isReal_narrow_matmul d hlt agg wl hagg hwl k')
      (fun k' => isReal_broadcastTo so bl hb hbl k') k)
    (fun k => isReal_narrow_matmul d hlt x wr hx hwr k) j

/-- The square of an array of reals is real. -/
theorem isReal_square {s : Shape} (h : FVec Ideal s .f32) (hh : ∀ i, IsReal (h i)) (i : s.Idx) : IsReal (mulf h h i) :=
  isReal_mulf h h hh hh i

end Cert.Combine
-- ==== Proof.lean ====
/-
  A three-layer GraphSAGE network (mean aggregation over the edges, a linear combine of the aggregate and the node's own
  features, batch normalisation over the 100000 nodes, a rectifier) followed by a two-layer classifier with a logistic
  output, computed by seven kernels between host operations, against its plain reference.

  The frames. Each kernel handles 5000 rows per grid point. The four one-case kernels (the three normalise-and-rectify
  kernels, the classifier) load their blocks, compute, store the output block. The three linear kernels also add the
  block's column sums and column sums of squares to two accumulator rows, reset at the first point and copied to two
  one-row outputs at the last; the rows are carried from point to point in the pipeline's invariant. The whole program
  is fourteen segments, a host stretch then a kernel, seven times; the same text is read at the word level and at the
  extended reals.

  The values. At the extended reals a change of float format is the identity and a matrix product is a plain sum, so a
  linear kernel's block is the reference's combine row by row, and its accumulators end at the column sums over all rows.
  The kernel's variance is the mean of squares minus the squared mean, the reference's the mean of squared deviations:
  equal on real columns, and every entry is real because the inputs are finite and every operation on the way keeps
  entries real (the count of incoming edges is clamped at one before the division; the variance plus a positive
  constant is positive under the reciprocal square root). The gather, scatter-add and division by the clamped count are
  the same operations in both programs. The logistic function is one operation in the kernel and five in the reference,
  the same function of any extended real.
-/
import proofs.«121727_j57028575756303_1_alg».proof.Defs
import proofs.«121727_j57028575756303_1_alg».proof.Proof.Gen.Kernel
import proofs.«121727_j57028575756303_1_alg».proof.Proof.Gen.KernelIdeal
import proofs.«121727_j57028575756303_1_alg».proof.Proof.Gen.ReferenceIdeal
import proofs.«121727_j57028575756303_1_alg».proof.Proof.Gen.Pre_finite_inputs
import proofs.«121727_j57028575756303_1_alg».proof.Proof.K.Main
import proofs.«121727_j57028575756303_1_alg».proof.Proof.KI.Main
import proofs.«121727_j57028575756303_1_alg».proof.Proof.RefRun.Frame
import proofs.«121727_j57028575756303_1_alg».proof.Proof.Algebraic
import proofs.«121727_j57028575756303_1_alg».proof.Proof.LibCombine
import Idealize.ShloMosaic.Adequacy
import Idealize.ShloMosaic.Init

noncomputable section

namespace Cert.Proof

open Idealize.ShloMosaic Idealize.SL.Sem

/-- The five claims: the two kernel programs' frames from the run of their fourteen segments, the reference's from its
    run, nothing to preserve (no operation was rewritten), and equal results at the extended reals. -/
theorem claim : Cert.Claim := by
  refine ⟨Cert.Kernel.Gen.facts, Cert.KernelIdeal.Gen.facts, Cert.ReferenceIdeal.Gen.facts, Cert.Pre_finite_inputs.Gen.facts, ?_, ?_, ?_, trivial, ?_⟩
  · exact fun m ρ _ => Cert.Kernel.Hand.frame (F := Bits) m ρ
  · exact fun m ρ _ => Cert.KernelIdeal.Hand.frame (F := Ideal) m ρ
  · exact Cert.ReferenceIdeal.Hand.frame_holds
  · exact Cert.Proof.Algebraic.algebraic

end Cert.Proof

end
